-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1595)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1595) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1668) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S27x128x20 : Shape := ⟨3, ![27, 128, 20]⟩
abbrev S20 : Shape := ⟨1, ![20]⟩
abbrev S200000x3 : Shape := ⟨2, ![200000, 3]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S27x128x20 : S_.BroadcastsInDim S27x128x20 (![] : Fin 0 → Fin S27x128x20.rank)
  reducesTo_S27x128x20_S_d0_1_2 : S27x128x20.ReducesTo [0, 1, 2] S_
  bcast_S_S20 : S_.BroadcastsInDim S20 (![] : Fin 0 → Fin S20.rank)
  reducesTo_S20_S_d0 : S20.ReducesTo [0] S_

variable [Facts]

def fn {F : FTy → Type} [FloatOps F] (main_arg0 : FVec F S200000x128 .f32) (main_arg1 : FVec F S27x128x20 .f32) (main_arg2 : FVec F S20 .f32) (main_arg3 : IVec S200000x3 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S27x128x20 .f32 := Host.absf main_arg1
  let main_cst_0 : FVec F S_ .f32 := constant S_ .f32 0x7F800000#32
  let main_v5 : FVec F S27x128x20 .f32 := broadcastInDim S27x128x20 ![] bcast_S_S27x128x20 main_cst_0
  let main_v6 : IVec S27x128x20 1 := cmpf .olt main_v4 main_v5
  let main_c_1 : IVec S_ 1 := constantI S_ 1 1#1
  let main_v7 : IVec S_ 1 := (fun x v => Host.reduce IntOp.andi x v reducesTo_S27x128x20_S_d0_1_2 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  main_v13
-- ==== Kernel.lean ====
abbrev S200000x128 : Shape := ⟨2, ![200000, 128]⟩
abbrev S27x128x20 : Shape := ⟨3, ![27, 128, 20]⟩
abbrev S20 : Shape := ⟨1, ![20]⟩
abbrev S200000x3 : Shape := ⟨2, ![200000, 3]⟩
abbrev S200000x1 : Shape := ⟨2, ![200000, 1]⟩
abbrev S200000 : Shape := ⟨1, ![200000]⟩
abbrev S_ : Shape := ⟨0, ![]⟩
abbrev S5529600 : Shape := ⟨1, ![5529600]⟩
abbrev S128x27x20 : Shape := ⟨3, ![128, 27, 20]⟩
abbrev S128x540 : Shape := ⟨2, ![128, 540]⟩
abbrev S128x640 : Shape := ⟨2, ![128, 640]⟩
abbrev S200000x640 : Shape := ⟨2, ![200000, 640]⟩
abbrev S4000x128 : Shape := ⟨2, ![4000, 128]⟩
abbrev S4000x640 : Shape := ⟨2, ![4000, 640]⟩
abbrev S1x640 : Shape := ⟨2, ![1, 640]⟩
abbrev S200001x640 : Shape := ⟨2, ![200001, 640]⟩
abbrev S200000x20 : Shape := ⟨2, ![200000, 20]⟩
abbrev S200000x2 : Shape := ⟨2, ![200000, 2]⟩

abbrev nBuf : Space → Nat
  | .hbm => 2337
  | .vmem => 5
  | .smem => 0
  | _ => 0

abbrev hbmTy0_0 (i : Nat) : BufTy := match i % 128 with
  | 0 => ⟨S200000x128, .f32⟩
  | 1 => ⟨S27x128x20, .f32⟩
  | 2 => ⟨S20, .f32⟩
  | 3 => ⟨S200000x3, .i32⟩
  | 4 => ⟨S200000x1, .i32⟩
  | 5 => ⟨S200000, .i32⟩
  | 6 => ⟨S_, .i32⟩
  | 7 => ⟨S200000, .i32⟩
  | 8 => ⟨S200000, .i32⟩
  | 9 => ⟨S200000x1, .i32⟩
  | 10 => ⟨S200000, .i32⟩
  | 11 => ⟨S200000, .i32⟩
  | 12 => ⟨S_, .i32⟩
  | 13 => ⟨S200000, .i32⟩
  | 14 => ⟨S200000, .i32⟩
  | 15 => ⟨S200000x1, .i32⟩
  | 16 => ⟨S200000, .i32⟩
  | 17 => ⟨S200000, .i32⟩
  | 18 => ⟨S_, .i32⟩
  | 19 => ⟨S5529600, .i32⟩
  | 20 => ⟨S200000, .i32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S5529600, .i32⟩
  | 30 => ⟨S200000x1, .i32⟩
  | 31 => ⟨S200000, .i32⟩
  | 32 => ⟨S_, .i32⟩
  | 33 => ⟨S200000, .i32⟩
  | 34 => ⟨S200000, .i32⟩
  | 35 => ⟨S200000x1, .i32⟩
  | 36 => ⟨S200000, .i32⟩
  | 37 => ⟨S_, .i32⟩
  | 38 => ⟨S200000, .i32⟩
  | 39 => ⟨S200000, .i32⟩
  | 40 => ⟨S200000x1, .i32⟩
  | 41 => ⟨S200000, .i32⟩
  | 42 => ⟨S_, .i32⟩
  | 43 => ⟨S200000, .i32⟩
  | 44 => ⟨S200000, .i32⟩
  | 45 => ⟨S_, .i32⟩
  | 46 => ⟨S200000, .i32⟩
  | 47 => ⟨S200000, .i1⟩
  | 48 => ⟨S_, .i32⟩
  | 49 => ⟨S200000, .i32⟩
  | 50 => ⟨S200000, .i1⟩
  | 51 => ⟨S200000, .i1⟩
  | 52 => ⟨S_, .i32⟩
  | 53 => ⟨S200000, .i32⟩
  | 54 => ⟨S200000, .i1⟩
  | 55 => ⟨S200000, .i1⟩
  | 56 => ⟨S_, .i32⟩
  | 57 => ⟨S200000, .i32⟩
  | 58 => ⟨S200000, .i1⟩
  | 59 => ⟨S200000, .i1⟩
  | 60 => ⟨S_, .i32⟩
  | 61 => ⟨S200000, .i32⟩
  | 62 => ⟨S200000, .i1⟩
  | 63 => ⟨S200000, .i1⟩
  | 64 => ⟨S_, .i32⟩
  | 65 => ⟨S200000, .i32⟩
  | 66 => ⟨S200000, .i1⟩
  | 67 => ⟨S200000, .i1⟩
  | 68 => ⟨S_, .i32⟩
  | 69 => ⟨S200000, .i32⟩
  | 70 => ⟨S200000, .i32⟩
  | 71 => ⟨S200000, .i32⟩
  | 72 => ⟨S_, .i32⟩
  | 73 => ⟨S200000, .i32⟩
  | 74 => ⟨S200000, .i32⟩
  | 75 => ⟨S200000, .i32⟩
  | 76 => ⟨S_, .i32⟩
  | 77 => ⟨S_, .i32⟩
  | 78 => ⟨S_, .i32⟩
  | 79 => ⟨S200000, .i32⟩
  | 80 => ⟨S200000, .i32⟩
  | 81 => ⟨S_, .i32⟩
  | 82 => ⟨S200000, .i32⟩
  | 83 => ⟨S200000, .i32⟩
  | 84 => ⟨S_, .i32⟩
  | 85 => ⟨S200000, .i32⟩
  | 86 => ⟨S200000, .i1⟩
  | 87 => ⟨S_, .i32⟩
  | 88 => ⟨S200000, .i32⟩
  | 89 => ⟨S200000, .i32⟩
  | 90 => ⟨S200000, .i32⟩
  | 91 => ⟨S200000x1, .i32⟩
  | 92 => ⟨S200000, .i32⟩
  | 93 => ⟨S_, .i32⟩
  | 94 => ⟨S200000, .i32⟩
  | 95 => ⟨S200000, .i1⟩
  | 96 => ⟨S200000, .i1⟩
  | 97 => ⟨S_, .i32⟩
  | 98 => ⟨S_, .i32⟩
  | 99 => ⟨S200000, .i32⟩
  | 100 => ⟨S200000, .i32⟩
  | 101 => ⟨S200000x1, .i32⟩
  | 102 => ⟨S200000, .i32⟩
  | 103 => ⟨S_, .i32⟩
  | 104 => ⟨S200000, .i32⟩
  | 105 => ⟨S200000, .i32⟩
  | 106 => ⟨S200000x1, .i32⟩
  | 107 => ⟨S200000, .i32⟩
  | 108 => ⟨S_, .i32⟩
  | 109 => ⟨S200000, .i32⟩
  | 110 => ⟨S200000, .i32⟩
  | 111 => ⟨S200000x1, .i32⟩
  | 112 => ⟨S200000, .i32⟩
  | 113 => ⟨S_, .i32⟩
  | 114 => ⟨S200000, .i32⟩
  | 115 => ⟨S200000, .i32⟩
  | 116 => ⟨S_, .i32⟩
  | 117 => ⟨S200000, .i32⟩
  | 118 => ⟨S200000, .i1⟩
  | 119 => ⟨S_, .i32⟩
  | 120 => ⟨S200000, .i32⟩
  | 121 => ⟨S200000, .i1⟩
  | 122 => ⟨S200000, .i1⟩
  | 123 => ⟨S_, .i32⟩
  | 124 => ⟨S200000, .i32⟩
  | 125 => ⟨S200000, .i1⟩
  | 126 => ⟨S200000, .i1⟩
  | 127 => ⟨S_, .i32⟩
  | _ => ⟨S200000x128, .f32⟩

abbrev hbmTy0_1 (i : Nat) : BufTy := match i % 128 with
  | 0 => ⟨S200000, .i32⟩
  | 1 => ⟨S200000, .i1⟩
  | 2 => ⟨S200000, .i1⟩
  | 3 => ⟨S_, .i32⟩
  | 4 => ⟨S200000, .i32⟩
  | 5 => ⟨S200000, .i1⟩
  | 6 => ⟨S200000, .i1⟩
  | 7 => ⟨S_, .i32⟩
  | 8 => ⟨S200000, .i32⟩
  | 9 => ⟨S200000, .i1⟩
  | 10 => ⟨S200000, .i1⟩
  | 11 => ⟨S_, .i32⟩
  | 12 => ⟨S200000, .i32⟩
  | 13 => ⟨S200000, .i32⟩
  | 14 => ⟨S200000, .i32⟩
  | 15 => ⟨S_, .i32⟩
  | 16 => ⟨S200000, .i32⟩
  | 17 => ⟨S200000, .i32⟩
  | 18 => ⟨S200000, .i32⟩
  | 19 => ⟨S_, .i32⟩
  | 20 => ⟨S_, .i32⟩
  | 21 => ⟨S_, .i32⟩
  | 22 => ⟨S200000, .i32⟩
  | 23 => ⟨S200000, .i32⟩
  | 24 => ⟨S_, .i32⟩
  | 25 => ⟨S200000, .i32⟩
  | 26 => ⟨S200000, .i32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000, .i32⟩
  | 36 => ⟨S_, .i32⟩
  | 37 => ⟨S200000, .i32⟩
  | 38 => ⟨S200000, .i1⟩
  | 39 => ⟨S200000, .i1⟩
  | 40 => ⟨S_, .i32⟩
  | 41 => ⟨S_, .i32⟩
  | 42 => ⟨S200000, .i32⟩
  | 43 => ⟨S200000, .i32⟩
  | 44 => ⟨S200000x1, .i32⟩
  | 45 => ⟨S200000, .i32⟩
  | 46 => ⟨S_, .i32⟩
  | 47 => ⟨S200000, .i32⟩
  | 48 => ⟨S200000, .i32⟩
  | 49 => ⟨S200000x1, .i32⟩
  | 50 => ⟨S200000, .i32⟩
  | 51 => ⟨S_, .i32⟩
  | 52 => ⟨S200000, .i32⟩
  | 53 => ⟨S200000, .i32⟩
  | 54 => ⟨S200000x1, .i32⟩
  | 55 => ⟨S200000, .i32⟩
  | 56 => ⟨S_, .i32⟩
  | 57 => ⟨S200000, .i32⟩
  | 58 => ⟨S200000, .i32⟩
  | 59 => ⟨S_, .i32⟩
  | 60 => ⟨S200000, .i32⟩
  | 61 => ⟨S200000, .i1⟩
  | 62 => ⟨S_, .i32⟩
  | 63 => ⟨S200000, .i32⟩
  | 64 => ⟨S200000, .i1⟩
  | 65 => ⟨S200000, .i1⟩
  | 66 => ⟨S_, .i32⟩
  | 67 => ⟨S200000, .i32⟩
  | 68 => ⟨S200000, .i1⟩
  | 69 => ⟨S200000, .i1⟩
  | 70 => ⟨S_, .i32⟩
  | 71 => ⟨S200000, .i32⟩
  | 72 => ⟨S200000, .i1⟩
  | 73 => ⟨S200000, .i1⟩
  | 74 => ⟨S_, .i32⟩
  | 75 => ⟨S200000, .i32⟩
  | 76 => ⟨S200000, .i1⟩
  | 77 => ⟨S200000, .i1⟩
  | 78 => ⟨S_, .i32⟩
  | 79 => ⟨S200000, .i32⟩
  | 80 => ⟨S200000, .i1⟩
  | 81 => ⟨S200000, .i1⟩
  | 82 => ⟨S_, .i32⟩
  | 83 => ⟨S200000, .i32⟩
  | 84 => ⟨S200000, .i32⟩
  | 85 => ⟨S200000, .i32⟩
  | 86 => ⟨S_, .i32⟩
  | 87 => ⟨S200000, .i32⟩
  | 88 => ⟨S200000, .i32⟩
  | 89 => ⟨S200000, .i32⟩
  | 90 => ⟨S_, .i32⟩
  | 91 => ⟨S_, .i32⟩
  | 92 => ⟨S_, .i32⟩
  | 93 => ⟨S200000, .i32⟩
  | 94 => ⟨S200000, .i32⟩
  | 95 => ⟨S_, .i32⟩
  | 96 => ⟨S200000, .i32⟩
  | 97 => ⟨S200000, .i32⟩
  | 98 => ⟨S_, .i32⟩
  | 99 => ⟨S200000, .i32⟩
  | 100 => ⟨S200000, .i1⟩
  | 101 => ⟨S_, .i32⟩
  | 102 => ⟨S200000, .i32⟩
  | 103 => ⟨S200000, .i32⟩
  | 104 => ⟨S200000, .i32⟩
  | 105 => ⟨S200000x1, .i32⟩
  | 106 => ⟨S200000, .i32⟩
  | 107 => ⟨S_, .i32⟩
  | 108 => ⟨S200000, .i32⟩
  | 109 => ⟨S200000, .i1⟩
  | 110 => ⟨S200000, .i1⟩
  | 111 => ⟨S_, .i32⟩
  | 112 => ⟨S_, .i32⟩
  | 113 => ⟨S200000, .i32⟩
  | 114 => ⟨S200000, .i32⟩
  | 115 => ⟨S200000x1, .i32⟩
  | 116 => ⟨S200000, .i32⟩
  | 117 => ⟨S_, .i32⟩
  | 118 => ⟨S200000, .i32⟩
  | 119 => ⟨S200000, .i32⟩
  | 120 => ⟨S200000x1, .i32⟩
  | 121 => ⟨S200000, .i32⟩
  | 122 => ⟨S_, .i32⟩
  | 123 => ⟨S200000, .i32⟩
  | 124 => ⟨S200000, .i32⟩
  | 125 => ⟨S200000x1, .i32⟩
  | 126 => ⟨S200000, .i32⟩
  | 127 => ⟨S_, .i32⟩
  | _ => ⟨S200000x128, .f32⟩

abbrev hbmTy0_2 (i : Nat) : BufTy := match i % 128 with
  | 0 => ⟨S200000, .i32⟩
  | 1 => ⟨S200000, .i32⟩
  | 2 => ⟨S_, .i32⟩
  | 3 => ⟨S200000, .i32⟩
  | 4 => ⟨S200000, .i1⟩
  | 5 => ⟨S_, .i32⟩
  | 6 => ⟨S200000, .i32⟩
  | 7 => ⟨S200000, .i1⟩
  | 8 => ⟨S200000, .i1⟩
  | 9 => ⟨S_, .i32⟩
  | 10 => ⟨S200000, .i32⟩
  | 11 => ⟨S200000, .i1⟩
  | 12 => ⟨S200000, .i1⟩
  | 13 => ⟨S_, .i32⟩
  | 14 => ⟨S200000, .i32⟩
  | 15 => ⟨S200000, .i1⟩
  | 16 => ⟨S200000, .i1⟩
  | 17 => ⟨S_, .i32⟩
  | 18 => ⟨S200000, .i32⟩
  | 19 => ⟨S200000, .i1⟩
  | 20 => ⟨S200000, .i1⟩
  | 21 => ⟨S_, .i32⟩
  | 22 => ⟨S200000, .i32⟩
  | 23 => ⟨S200000, .i1⟩
  | 24 => ⟨S200000, .i1⟩
  | 25 => ⟨S_, .i32⟩
  | 26 => ⟨S200000, .i32⟩
  | 27 => ⟨S200000, .i32⟩
  | 28 => ⟨S200000, .i32⟩
  | 29 => ⟨S_, .i32⟩
  | 30 => ⟨S200000, .i32⟩
  | 31 => ⟨S200000, .i32⟩
  | 32 => ⟨S200000, .i32⟩
  | 33 => ⟨S_, .i32⟩
  | 34 => ⟨S_, .i32⟩
  | 35 => ⟨S_, .i32⟩
  | 36 => ⟨S200000, .i32⟩
  | 37 => ⟨S200000, .i32⟩
  | 38 => ⟨S_, .i32⟩
  | 39 => ⟨S200000, .i32⟩
  | 40 => ⟨S200000, .i32⟩
  | 41 => ⟨S_, .i32⟩
  | 42 => ⟨S200000, .i32⟩
  | 43 => ⟨S200000, .i1⟩
  | 44 => ⟨S_, .i32⟩
  | 45 => ⟨S200000, .i32⟩
  | 46 => ⟨S200000, .i32⟩
  | 47 => ⟨S200000, .i32⟩
  | 48 => ⟨S200000x1, .i32⟩
  | 49 => ⟨S200000, .i32⟩
  | 50 => ⟨S_, .i32⟩
  | 51 => ⟨S200000, .i32⟩
  | 52 => ⟨S200000, .i1⟩
  | 53 => ⟨S200000, .i1⟩
  | 54 => ⟨S_, .i32⟩
  | 55 => ⟨S_, .i32⟩
  | 56 => ⟨S200000, .i32⟩
  | 57 => ⟨S200000, .i32⟩
  | 58 => ⟨S200000x1, .i32⟩
  | 59 => ⟨S200000, .i32⟩
  | 60 => ⟨S_, .i32⟩
  | 61 => ⟨S200000, .i32⟩
  | 62 => ⟨S200000, .i32⟩
  | 63 => ⟨S200000x1, .i32⟩
  | 64 => ⟨S200000, .i32⟩
  | 65 => ⟨S_, .i32⟩
  | 66 => ⟨S200000, .i32⟩
  | 67 => ⟨S200000, .i32⟩
  | 68 => ⟨S200000x1, .i32⟩
  | 69 => ⟨S200000, .i32⟩
  | 70 => ⟨S_, .i32⟩
  | 71 => ⟨S200000, .i32⟩
  | 72 => ⟨S200000, .i32⟩
  | 73 => ⟨S_, .i32⟩
  | 74 => ⟨S200000, .i32⟩
  | 75 => ⟨S200000, .i1⟩
  | 76 => ⟨S_, .i32⟩
  | 77 => ⟨S200000, .i32⟩
  | 78 => ⟨S200000, .i1⟩
  | 79 => ⟨S200000, .i1⟩
  | 80 => ⟨S_, .i32⟩
  | 81 => ⟨S200000, .i32⟩
  | 82 => ⟨S200000, .i1⟩
  | 83 => ⟨S200000, .i1⟩
  | 84 => ⟨S_, .i32⟩
  | 85 => ⟨S200000, .i32⟩
  | 86 => ⟨S200000, .i1⟩
  | 87 => ⟨S200000, .i1⟩
  | 88 => ⟨S_, .i32⟩
  | 89 => ⟨S200000, .i32⟩
  | 90 => ⟨S200000, .i1⟩
  | 91 => ⟨S200000, .i1⟩
  | 92 => ⟨S_, .i32⟩
  | 93 => ⟨S200000, .i32⟩
  | 94 => ⟨S200000, .i1⟩
  | 95 => ⟨S200000, .i1⟩
  | 96 => ⟨S_, .i32⟩
  | 97 => ⟨S200000, .i32⟩
  | 98 => ⟨S200000, .i32⟩
  | 99 => ⟨S200000, .i32⟩
  | 100 => ⟨S_, .i32⟩
  | 101 => ⟨S200000, .i32⟩
  | 102 => ⟨S200000, .i32⟩
  | 103 => ⟨S200000, .i32⟩
  | 104 => ⟨S_, .i32⟩
  | 105 => ⟨S_, .i32⟩
  | 106 => ⟨S_, .i32⟩
  | 107 => ⟨S200000, .i32⟩
  | 108 => ⟨S200000, .i32⟩
  | 109 => ⟨S_, .i32⟩
  | 110 => ⟨S200000, .i32⟩
  | 111 => ⟨S200000, .i32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000, .i32⟩
  | 121 => ⟨S_, .i32⟩
  | 122 => ⟨S200000, .i32⟩
  | 123 => ⟨S200000, .i1⟩
  | 124 => ⟨S200000, .i1⟩
  | 125 => ⟨S_, .i32⟩
  | 126 => ⟨S_, .i32⟩
  | 127 => ⟨S200000, .i32⟩
  | _ => ⟨S200000x128, .f32⟩

abbrev hbmTy0_3 (i : Nat) : BufTy := match i % 128 with
  | 0 => ⟨S200000, .i32⟩
  | 1 => ⟨S200000x1, .i32⟩
  | 2 => ⟨S200000, .i32⟩
  | 3 => ⟨S_, .i32⟩
  | 4 => ⟨S200000, .i32⟩
  | 5 => ⟨S200000, .i32⟩
  | 6 => ⟨S200000x1, .i32⟩
  | 7 => ⟨S200000, .i32⟩
  | 8 => ⟨S_, .i32⟩
  | 9 => ⟨S200000, .i32⟩
  | 10 => ⟨S200000, .i32⟩
  | 11 => ⟨S200000x1, .i32⟩
  | 12 => ⟨S200000, .i32⟩
  | 13 => ⟨S_, .i32⟩
  | 14 => ⟨S200000, .i32⟩
  | 15 => ⟨S200000, .i32⟩
  | 16 => ⟨S_, .i32⟩
  | 17 => ⟨S200000, .i32⟩
  | 18 => ⟨S200000, .i1⟩
  | 19 => ⟨S_, .i32⟩
  | 20 => ⟨S200000, .i32⟩
  | 21 => ⟨S200000, .i1⟩
  | 22 => ⟨S200000, .i1⟩
  | 23 => ⟨S_, .i32⟩
  | 24 => ⟨S200000, .i32⟩
  | 25 => ⟨S200000, .i1⟩
  | 26 => ⟨S200000, .i1⟩
  | 27 => ⟨S_, .i32⟩
  | 28 => ⟨S200000, .i32⟩
  | 29 => ⟨S200000, .i1⟩
  | 30 => ⟨S200000, .i1⟩
  | 31 => ⟨S_, .i32⟩
  | 32 => ⟨S200000, .i32⟩
  | 33 => ⟨S200000, .i1⟩
  | 34 => ⟨S200000, .i1⟩
  | 35 => ⟨S_, .i32⟩
  | 36 => ⟨S200000, .i32⟩
  | 37 => ⟨S200000, .i1⟩
  | 38 => ⟨S200000, .i1⟩
  | 39 => ⟨S_, .i32⟩
  | 40 => ⟨S200000, .i32⟩
  | 41 => ⟨S200000, .i32⟩
  | 42 => ⟨S200000, .i32⟩
  | 43 => ⟨S_, .i32⟩
  | 44 => ⟨S200000, .i32⟩
  | 45 => ⟨S200000, .i32⟩
  | 46 => ⟨S200000, .i32⟩
  | 47 => ⟨S_, .i32⟩
  | 48 => ⟨S_, .i32⟩
  | 49 => ⟨S_, .i32⟩
  | 50 => ⟨S200000, .i32⟩
  | 51 => ⟨S200000, .i32⟩
  | 52 => ⟨S_, .i32⟩
  | 53 => ⟨S200000, .i32⟩
  | 54 => ⟨S200000, .i32⟩
  | 55 => ⟨S_, .i32⟩
  | 56 => ⟨S200000, .i32⟩
  | 57 => ⟨S200000, .i1⟩
  | 58 => ⟨S_, .i32⟩
  | 59 => ⟨S200000, .i32⟩
  | 60 => ⟨S200000, .i32⟩
  | 61 => ⟨S200000, .i32⟩
  | 62 => ⟨S200000x1, .i32⟩
  | 63 => ⟨S200000, .i32⟩
  | 64 => ⟨S_, .i32⟩
  | 65 => ⟨S200000, .i32⟩
  | 66 => ⟨S200000, .i1⟩
  | 67 => ⟨S200000, .i1⟩
  | 68 => ⟨S_, .i32⟩
  | 69 => ⟨S_, .i32⟩
  | 70 => ⟨S200000, .i32⟩
  | 71 => ⟨S200000, .i32⟩
  | 72 => ⟨S200000x1, .i32⟩
  | 73 => ⟨S200000, .i32⟩
  | 74 => ⟨S_, .i32⟩
  | 75 => ⟨S200000, .i32⟩
  | 76 => ⟨S200000, .i32⟩
  | 77 => ⟨S200000x1, .i32⟩
  | 78 => ⟨S200000, .i32⟩
  | 79 => ⟨S_, .i32⟩
  | 80 => ⟨S200000, .i32⟩
  | 81 => ⟨S200000, .i32⟩
  | 82 => ⟨S200000x1, .i32⟩
  | 83 => ⟨S200000, .i32⟩
  | 84 => ⟨S_, .i32⟩
  | 85 => ⟨S200000, .i32⟩
  | 86 => ⟨S200000, .i32⟩
  | 87 => ⟨S_, .i32⟩
  | 88 => ⟨S200000, .i32⟩
  | 89 => ⟨S200000, .i1⟩
  | 90 => ⟨S_, .i32⟩
  | 91 => ⟨S200000, .i32⟩
  | 92 => ⟨S200000, .i1⟩
  | 93 => ⟨S200000, .i1⟩
  | 94 => ⟨S_, .i32⟩
  | 95 => ⟨S200000, .i32⟩
  | 96 => ⟨S200000, .i1⟩
  | 97 => ⟨S200000, .i1⟩
  | 98 => ⟨S_, .i32⟩
  | 99 => ⟨S200000, .i32⟩
  | 100 => ⟨S200000, .i1⟩
  | 101 => ⟨S200000, .i1⟩
  | 102 => ⟨S_, .i32⟩
  | 103 => ⟨S200000, .i32⟩
  | 104 => ⟨S200000, .i1⟩
  | 105 => ⟨S200000, .i1⟩
  | 106 => ⟨S_, .i32⟩
  | 107 => ⟨S200000, .i32⟩
  | 108 => ⟨S200000, .i1⟩
  | 109 => ⟨S200000, .i1⟩
  | 110 => ⟨S_, .i32⟩
  | 111 => ⟨S200000, .i32⟩
  | 112 => ⟨S200000, .i32⟩
  | 113 => ⟨S200000, .i32⟩
  | 114 => ⟨S_, .i32⟩
  | 115 => ⟨S200000, .i32⟩
  | 116 => ⟨S200000, .i32⟩
  | 117 => ⟨S200000, .i32⟩
  | 118 => ⟨S_, .i32⟩
  | 119 => ⟨S_, .i32⟩
  | 120 => ⟨S_, .i32⟩
  | 121 => ⟨S200000, .i32⟩
  | 122 => ⟨S200000, .i32⟩
  | 123 => ⟨S_, .i32⟩
  | 124 => ⟨S200000, .i32⟩
  | 125 => ⟨S200000, .i32⟩
  | 126 => ⟨S_, .i32⟩
  | 127 => ⟨S200000, .i32⟩
  | _ => ⟨S200000x128, .f32⟩

abbrev hbmTy0_4 (i : Nat) : BufTy := match i % 128 with
  | 0 => ⟨S200000, .i1⟩
  | 1 => ⟨S_, .i32⟩
  | 2 => ⟨S200000, .i32⟩
  | 3 => ⟨S200000, .i32⟩
  | 4 => ⟨S200000, .i32⟩
  | 5 => ⟨S200000x1, .i32⟩
  | 6 => ⟨S200000, .i32⟩
  | 7 => ⟨S_, .i32⟩
  | 8 => ⟨S200000, .i32⟩
  | 9 => ⟨S200000, .i1⟩
  | 10 => ⟨S200000, .i1⟩
  | 11 => ⟨S_, .i32⟩
  | 12 => ⟨S_, .i32⟩
  | 13 => ⟨S200000, .i32⟩
  | 14 => ⟨S200000, .i32⟩
  | 15 => ⟨S200000x1, .i32⟩
  | 16 => ⟨S200000, .i32⟩
  | 17 => ⟨S_, .i32⟩
  | 18 => ⟨S200000, .i32⟩
  | 19 => ⟨S200000, .i32⟩
  | 20 => ⟨S200000x1, .i32⟩
  | 21 => ⟨S200000, .i32⟩
  | 22 => ⟨S_, .i32⟩
  | 23 => ⟨S200000, .i32⟩
  | 24 => ⟨S200000, .i32⟩
  | 25 => ⟨S200000x1, .i32⟩
  | 26 => ⟨S200000, .i32⟩
  | 27 => ⟨S_, .i32⟩
  | 28 => ⟨S200000, .i32⟩
  | 29 => ⟨S200000, .i32⟩
  | 30 => ⟨S_, .i32⟩
  | 31 => ⟨S200000, .i32⟩
  | 32 => ⟨S200000, .i1⟩
  | 33 => ⟨S_, .i32⟩
  | 34 => ⟨S200000, .i32⟩
  | 35 => ⟨S200000, .i1⟩
  | 36 => ⟨S200000, .i1⟩
  | 37 => ⟨S_, .i32⟩
  | 38 => ⟨S200000, .i32⟩
  | 39 => ⟨S200000, .i1⟩
  | 40 => ⟨S200000, .i1⟩
  | 41 => ⟨S_, .i32⟩
  | 42 => ⟨S200000, .i32⟩
  | 43 => ⟨S200000, .i1⟩
  | 44 => ⟨S200000, .i1⟩
  | 45 => ⟨S_, .i32⟩
  | 46 => ⟨S200000, .i32⟩
  | 47 => ⟨S200000, .i1⟩
  | 48 => ⟨S200000, .i1⟩
  | 49 => ⟨S_, .i32⟩
  | 50 => ⟨S200000, .i32⟩
  | 51 => ⟨S200000, .i1⟩
  | 52 => ⟨S200000, .i1⟩
  | 53 => ⟨S_, .i32⟩
  | 54 => ⟨S200000, .i32⟩
  | 55 => ⟨S200000, .i32⟩
  | 56 => ⟨S200000, .i32⟩
  | 57 => ⟨S_, .i32⟩
  | 58 => ⟨S200000, .i32⟩
  | 59 => ⟨S200000, .i32⟩
  | 60 => ⟨S200000, .i32⟩
  | 61 => ⟨S_, .i32⟩
  | 62 => ⟨S_, .i32⟩
  | 63 => ⟨S_, .i32⟩
  | 64 => ⟨S200000, .i32⟩
  | 65 => ⟨S200000, .i32⟩
  | 66 => ⟨S_, .i32⟩
  | 67 => ⟨S200000, .i32⟩
  | 68 => ⟨S200000, .i32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S200000, .i32⟩
  | 78 => ⟨S_, .i32⟩
  | 79 => ⟨S200000, .i32⟩
  | 80 => ⟨S200000, .i1⟩
  | 81 => ⟨S200000, .i1⟩
  | 82 => ⟨S_, .i32⟩
  | 83 => ⟨S_, .i32⟩
  | 84 => ⟨S200000, .i32⟩
  | 85 => ⟨S200000, .i32⟩
  | 86 => ⟨S200000x1, .i32⟩
  | 87 => ⟨S200000, .i32⟩
  | 88 => ⟨S_, .i32⟩
  | 89 => ⟨S200000, .i32⟩
  | 90 => ⟨S200000, .i32⟩
  | 91 => ⟨S200000x1, .i32⟩
  | 92 => ⟨S200000, .i32⟩
  | 93 => ⟨S_, .i32⟩
  | 94 => ⟨S200000, .i32⟩
  | 95 => ⟨S200000, .i32⟩
  | 96 => ⟨S200000x1, .i32⟩
  | 97 => ⟨S200000, .i32⟩
  | 98 => ⟨S_, .i32⟩
  | 99 => ⟨S200000, .i32⟩
  | 100 => ⟨S200000, .i32⟩
  | 101 => ⟨S_, .i32⟩
  | 102 => ⟨S200000, .i32⟩
  | 103 => ⟨S200000, .i1⟩
  | 104 => ⟨S_, .i32⟩
  | 105 => ⟨S200000, .i32⟩
  | 106 => ⟨S200000, .i1⟩
  | 107 => ⟨S200000, .i1⟩
  | 108 => ⟨S_, .i32⟩
  | 109 => ⟨S200000, .i32⟩
  | 110 => ⟨S200000, .i1⟩
  | 111 => ⟨S200000, .i1⟩
  | 112 => ⟨S_, .i32⟩
  | 113 => ⟨S200000, .i32⟩
  | 114 => ⟨S200000, .i1⟩
  | 115 => ⟨S200000, .i1⟩
  | 116 => ⟨S_, .i32⟩
  | 117 => ⟨S200000, .i32⟩
  | 118 => ⟨S200000, .i1⟩
  | 119 => ⟨S200000, .i1⟩
  | 120 => ⟨S_, .i32⟩
  | 121 => ⟨S200000, .i32⟩
  | 122 => ⟨S200000, .i1⟩
  | 123 => ⟨S200000, .i1⟩
  | 124 => ⟨S_, .i32⟩
  | 125 => ⟨S200000, .i32⟩
  | 126 => ⟨S200000, .i32⟩
  | 127 => ⟨S200000, .i32⟩
  | _ => ⟨S200000x128, .f32⟩

abbrev hbmTy0_5 (i : Nat) : BufTy := match i % 128 with
  | 0 => ⟨S_, .i32⟩
  | 1 => ⟨S200000, .i32⟩
  | 2 => ⟨S200000, .i32⟩
  | 3 => ⟨S200000, .i32⟩
  | 4 => ⟨S_, .i32⟩
  | 5 => ⟨S_, .i32⟩
  | 6 => ⟨S_, .i32⟩
  | 7 => ⟨S200000, .i32⟩
  | 8 => ⟨S200000, .i32⟩
  | 9 => ⟨S_, .i32⟩
  | 10 => ⟨S200000, .i32⟩
  | 11 => ⟨S200000, .i32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000, .i32⟩
  | 21 => ⟨S_, .i32⟩
  | 22 => ⟨S200000, .i32⟩
  | 23 => ⟨S200000, .i1⟩
  | 24 => ⟨S200000, .i1⟩
  | 25 => ⟨S_, .i32⟩
  | 26 => ⟨S_, .i32⟩
  | 27 => ⟨S200000, .i32⟩
  | 28 => ⟨S200000, .i32⟩
  | 29 => ⟨S200000x1, .i32⟩
  | 30 => ⟨S200000, .i32⟩
  | 31 => ⟨S_, .i32⟩
  | 32 => ⟨S200000, .i32⟩
  | 33 => ⟨S200000, .i32⟩
  | 34 => ⟨S200000x1, .i32⟩
  | 35 => ⟨S200000, .i32⟩
  | 36 => ⟨S_, .i32⟩
  | 37 => ⟨S200000, .i32⟩
  | 38 => ⟨S200000, .i32⟩
  | 39 => ⟨S200000x1, .i32⟩
  | 40 => ⟨S200000, .i32⟩
  | 41 => ⟨S_, .i32⟩
  | 42 => ⟨S200000, .i32⟩
  | 43 => ⟨S200000, .i32⟩
  | 44 => ⟨S_, .i32⟩
  | 45 => ⟨S200000, .i32⟩
  | 46 => ⟨S200000, .i1⟩
  | 47 => ⟨S_, .i32⟩
  | 48 => ⟨S200000, .i32⟩
  | 49 => ⟨S200000, .i1⟩
  | 50 => ⟨S200000, .i1⟩
  | 51 => ⟨S_, .i32⟩
  | 52 => ⟨S200000, .i32⟩
  | 53 => ⟨S200000, .i1⟩
  | 54 => ⟨S200000, .i1⟩
  | 55 => ⟨S_, .i32⟩
  | 56 => ⟨S200000, .i32⟩
  | 57 => ⟨S200000, .i1⟩
  | 58 => ⟨S200000, .i1⟩
  | 59 => ⟨S_, .i32⟩
  | 60 => ⟨S200000, .i32⟩
  | 61 => ⟨S200000, .i1⟩
  | 62 => ⟨S200000, .i1⟩
  | 63 => ⟨S_, .i32⟩
  | 64 => ⟨S200000, .i32⟩
  | 65 => ⟨S200000, .i1⟩
  | 66 => ⟨S200000, .i1⟩
  | 67 => ⟨S_, .i32⟩
  | 68 => ⟨S200000, .i32⟩
  | 69 => ⟨S200000, .i32⟩
  | 70 => ⟨S200000, .i32⟩
  | 71 => ⟨S_, .i32⟩
  | 72 => ⟨S200000, .i32⟩
  | 73 => ⟨S200000, .i32⟩
  | 74 => ⟨S200000, .i32⟩
  | 75 => ⟨S_, .i32⟩
  | 76 => ⟨S_, .i32⟩
  | 77 => ⟨S_, .i32⟩
  | 78 => ⟨S200000, .i32⟩
  | 79 => ⟨S200000, .i32⟩
  | 80 => ⟨S_, .i32⟩
  | 81 => ⟨S200000, .i32⟩
  | 82 => ⟨S200000, .i32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000, .i32⟩
  | 92 => ⟨S_, .i32⟩
  | 93 => ⟨S200000, .i32⟩
  | 94 => ⟨S200000, .i1⟩
  | 95 => ⟨S200000, .i1⟩
  | 96 => ⟨S_, .i32⟩
  | 97 => ⟨S_, .i32⟩
  | 98 => ⟨S200000, .i32⟩
  | 99 => ⟨S200000, .i32⟩
  | 100 => ⟨S200000x1, .i32⟩
  | 101 => ⟨S200000, .i32⟩
  | 102 => ⟨S_, .i32⟩
  | 103 => ⟨S200000, .i32⟩
  | 104 => ⟨S200000, .i32⟩
  | 105 => ⟨S200000x1, .i32⟩
  | 106 => ⟨S200000, .i32⟩
  | 107 => ⟨S_, .i32⟩
  | 108 => ⟨S200000, .i32⟩
  | 109 => ⟨S200000, .i32⟩
  | 110 => ⟨S200000x1, .i32⟩
  | 111 => ⟨S200000, .i32⟩
  | 112 => ⟨S_, .i32⟩
  | 113 => ⟨S200000, .i32⟩
  | 114 => ⟨S200000, .i32⟩
  | 115 => ⟨S_, .i32⟩
  | 116 => ⟨S200000, .i32⟩
  | 117 => ⟨S200000, .i1⟩
  | 118 => ⟨S_, .i32⟩
  | 119 => ⟨S200000, .i32⟩
  | 120 => ⟨S200000, .i1⟩
  | 121 => ⟨S200000, .i1⟩
  | 122 => ⟨S_, .i32⟩
  | 123 => ⟨S200000, .i32⟩
  | 124 => ⟨S200000, .i1⟩
  | 125 => ⟨S200000, .i1⟩
  | 126 => ⟨S_, .i32⟩
  | 127 => ⟨S200000, .i32⟩
  | _ => ⟨S200000x128, .f32⟩

abbrev hbmTy0_6 (i : Nat) : BufTy := match i % 128 with
  | 0 => ⟨S200000, .i1⟩
  | 1 => ⟨S200000, .i1⟩
  | 2 => ⟨S_, .i32⟩
  | 3 => ⟨S200000, .i32⟩
  | 4 => ⟨S200000, .i1⟩
  | 5 => ⟨S200000, .i1⟩
  | 6 => ⟨S_, .i32⟩
  | 7 => ⟨S200000, .i32⟩
  | 8 => ⟨S200000, .i1⟩
  | 9 => ⟨S200000, .i1⟩
  | 10 => ⟨S_, .i32⟩
  | 11 => ⟨S200000, .i32⟩
  | 12 => ⟨S200000, .i32⟩
  | 13 => ⟨S200000, .i32⟩
  | 14 => ⟨S_, .i32⟩
  | 15 => ⟨S200000, .i32⟩
  | 16 => ⟨S200000, .i32⟩
  | 17 => ⟨S200000, .i32⟩
  | 18 => ⟨S_, .i32⟩
  | 19 => ⟨S_, .i32⟩
  | 20 => ⟨S_, .i32⟩
  | 21 => ⟨S200000, .i32⟩
  | 22 => ⟨S200000, .i32⟩
  | 23 => ⟨S_, .i32⟩
  | 24 => ⟨S200000, .i32⟩
  | 25 => ⟨S200000, .i32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S200000, .i32⟩
  | 35 => ⟨S_, .i32⟩
  | 36 => ⟨S200000, .i32⟩
  | 37 => ⟨S200000, .i1⟩
  | 38 => ⟨S200000, .i1⟩
  | 39 => ⟨S_, .i32⟩
  | 40 => ⟨S_, .i32⟩
  | 41 => ⟨S200000, .i32⟩
  | 42 => ⟨S200000, .i32⟩
  | 43 => ⟨S200000x1, .i32⟩
  | 44 => ⟨S200000, .i32⟩
  | 45 => ⟨S_, .i32⟩
  | 46 => ⟨S200000, .i32⟩
  | 47 => ⟨S200000, .i32⟩
  | 48 => ⟨S200000x1, .i32⟩
  | 49 => ⟨S200000, .i32⟩
  | 50 => ⟨S_, .i32⟩
  | 51 => ⟨S200000, .i32⟩
  | 52 => ⟨S200000, .i32⟩
  | 53 => ⟨S200000x1, .i32⟩
  | 54 => ⟨S200000, .i32⟩
  | 55 => ⟨S_, .i32⟩
  | 56 => ⟨S200000, .i32⟩
  | 57 => ⟨S200000, .i32⟩
  | 58 => ⟨S_, .i32⟩
  | 59 => ⟨S200000, .i32⟩
  | 60 => ⟨S200000, .i1⟩
  | 61 => ⟨S_, .i32⟩
  | 62 => ⟨S200000, .i32⟩
  | 63 => ⟨S200000, .i1⟩
  | 64 => ⟨S200000, .i1⟩
  | 65 => ⟨S_, .i32⟩
  | 66 => ⟨S200000, .i32⟩
  | 67 => ⟨S200000, .i1⟩
  | 68 => ⟨S200000, .i1⟩
  | 69 => ⟨S_, .i32⟩
  | 70 => ⟨S200000, .i32⟩
  | 71 => ⟨S200000, .i1⟩
  | 72 => ⟨S200000, .i1⟩
  | 73 => ⟨S_, .i32⟩
  | 74 => ⟨S200000, .i32⟩
  | 75 => ⟨S200000, .i1⟩
  | 76 => ⟨S200000, .i1⟩
  | 77 => ⟨S_, .i32⟩
  | 78 => ⟨S200000, .i32⟩
  | 79 => ⟨S200000, .i1⟩
  | 80 => ⟨S200000, .i1⟩
  | 81 => ⟨S_, .i32⟩
  | 82 => ⟨S200000, .i32⟩
  | 83 => ⟨S200000, .i32⟩
  | 84 => ⟨S200000, .i32⟩
  | 85 => ⟨S_, .i32⟩
  | 86 => ⟨S200000, .i32⟩
  | 87 => ⟨S200000, .i32⟩
  | 88 => ⟨S200000, .i32⟩
  | 89 => ⟨S_, .i32⟩
  | 90 => ⟨S_, .i32⟩
  | 91 => ⟨S_, .i32⟩
  | 92 => ⟨S200000, .i32⟩
  | 93 => ⟨S200000, .i32⟩
  | 94 => ⟨S_, .i32⟩
  | 95 => ⟨S200000, .i32⟩
  | 96 => ⟨S200000, .i32⟩
  | 97 => ⟨S_, .i32⟩
  | 98 => ⟨S200000, .i32⟩
  | 99 => ⟨S200000, .i1⟩
  | 100 => ⟨S_, .i32⟩
  | 101 => ⟨S200000, .i32⟩
  | 102 => ⟨S200000, .i32⟩
  | 103 => ⟨S200000, .i32⟩
  | 104 => ⟨S200000x1, .i32⟩
  | 105 => ⟨S200000, .i32⟩
  | 106 => ⟨S_, .i32⟩
  | 107 => ⟨S200000, .i32⟩
  | 108 => ⟨S200000, .i1⟩
  | 109 => ⟨S200000, .i1⟩
  | 110 => ⟨S_, .i32⟩
  | 111 => ⟨S_, .i32⟩
  | 112 => ⟨S200000, .i32⟩
  | 113 => ⟨S200000, .i32⟩
  | 114 => ⟨S200000x1, .i32⟩
  | 115 => ⟨S200000, .i32⟩
  | 116 => ⟨S_, .i32⟩
  | 117 => ⟨S200000, .i32⟩
  | 118 => ⟨S200000, .i32⟩
  | 119 => ⟨S200000x1, .i32⟩
  | 120 => ⟨S200000, .i32⟩
  | 121 => ⟨S_, .i32⟩
  | 122 => ⟨S200000, .i32⟩
  | 123 => ⟨S200000, .i32⟩
  | 124 => ⟨S200000x1, .i32⟩
  | 125 => ⟨S200000, .i32⟩
  | 126 => ⟨S_, .i32⟩
  | 127 => ⟨S200000, .i32⟩
  | _ => ⟨S200000x128, .f32⟩

abbrev hbmTy0_7 (i : Nat) : BufTy := match i % 128 with
  | 0 => ⟨S200000, .i32⟩
  | 1 => ⟨S_, .i32⟩
  | 2 => ⟨S200000, .i32⟩
  | 3 => ⟨S200000, .i1⟩
  | 4 => ⟨S_, .i32⟩
  | 5 => ⟨S200000, .i32⟩
  | 6 => ⟨S200000, .i1⟩
  | 7 => ⟨S200000, .i1⟩
  | 8 => ⟨S_, .i32⟩
  | 9 => ⟨S200000, .i32⟩
  | 10 => ⟨S200000, .i1⟩
  | 11 => ⟨S200000, .i1⟩
  | 12 => ⟨S_, .i32⟩
  | 13 => ⟨S200000, .i32⟩
  | 14 => ⟨S200000, .i1⟩
  | 15 => ⟨S200000, .i1⟩
  | 16 => ⟨S_, .i32⟩
  | 17 => ⟨S200000, .i32⟩
  | 18 => ⟨S200000, .i1⟩
  | 19 => ⟨S200000, .i1⟩
  | 20 => ⟨S_, .i32⟩
  | 21 => ⟨S200000, .i32⟩
  | 22 => ⟨S200000, .i1⟩
  | 23 => ⟨S200000, .i1⟩
  | 24 => ⟨S_, .i32⟩
  | 25 => ⟨S200000, .i32⟩
  | 26 => ⟨S200000, .i32⟩
  | 27 => ⟨S200000, .i32⟩
  | 28 => ⟨S_, .i32⟩
  | 29 => ⟨S200000, .i32⟩
  | 30 => ⟨S200000, .i32⟩
  | 31 => ⟨S200000, .i32⟩
  | 32 => ⟨S_, .i32⟩
  | 33 => ⟨S_, .i32⟩
  | 34 => ⟨S_, .i32⟩
  | 35 => ⟨S200000, .i32⟩
  | 36 => ⟨S200000, .i32⟩
  | 37 => ⟨S_, .i32⟩
  | 38 => ⟨S200000, .i32⟩
  | 39 => ⟨S200000, .i32⟩
  | 40 => ⟨S_, .i32⟩
  | 41 => ⟨S200000, .i32⟩
  | 42 => ⟨S200000, .i1⟩
  | 43 => ⟨S_, .i32⟩
  | 44 => ⟨S200000, .i32⟩
  | 45 => ⟨S200000, .i32⟩
  | 46 => ⟨S200000, .i32⟩
  | 47 => ⟨S200000x1, .i32⟩
  | 48 => ⟨S200000, .i32⟩
  | 49 => ⟨S_, .i32⟩
  | 50 => ⟨S200000, .i32⟩
  | 51 => ⟨S200000, .i1⟩
  | 52 => ⟨S200000, .i1⟩
  | 53 => ⟨S_, .i32⟩
  | 54 => ⟨S_, .i32⟩
  | 55 => ⟨S200000, .i32⟩
  | 56 => ⟨S200000, .i32⟩
  | 57 => ⟨S200000x1, .i32⟩
  | 58 => ⟨S200000, .i32⟩
  | 59 => ⟨S_, .i32⟩
  | 60 => ⟨S200000, .i32⟩
  | 61 => ⟨S200000, .i32⟩
  | 62 => ⟨S200000x1, .i32⟩
  | 63 => ⟨S200000, .i32⟩
  | 64 => ⟨S_, .i32⟩
  | 65 => ⟨S200000, .i32⟩
  | 66 => ⟨S200000, .i32⟩
  | 67 => ⟨S200000x1, .i32⟩
  | 68 => ⟨S200000, .i32⟩
  | 69 => ⟨S_, .i32⟩
  | 70 => ⟨S200000, .i32⟩
  | 71 => ⟨S200000, .i32⟩
  | 72 => ⟨S_, .i32⟩
  | 73 => ⟨S200000, .i32⟩
  | 74 => ⟨S200000, .i1⟩
  | 75 => ⟨S_, .i32⟩
  | 76 => ⟨S200000, .i32⟩
  | 77 => ⟨S200000, .i1⟩
  | 78 => ⟨S200000, .i1⟩
  | 79 => ⟨S_, .i32⟩
  | 80 => ⟨S200000, .i32⟩
  | 81 => ⟨S200000, .i1⟩
  | 82 => ⟨S200000, .i1⟩
  | 83 => ⟨S_, .i32⟩
  | 84 => ⟨S200000, .i32⟩
  | 85 => ⟨S200000, .i1⟩
  | 86 => ⟨S200000, .i1⟩
  | 87 => ⟨S_, .i32⟩
  | 88 => ⟨S200000, .i32⟩
  | 89 => ⟨S200000, .i1⟩
  | 90 => ⟨S200000, .i1⟩
  | 91 => ⟨S_, .i32⟩
  | 92 => ⟨S200000, .i32⟩
  | 93 => ⟨S200000, .i1⟩
  | 94 => ⟨S200000, .i1⟩
  | 95 => ⟨S_, .i32⟩
  | 96 => ⟨S200000, .i32⟩
  | 97 => ⟨S200000, .i32⟩
  | 98 => ⟨S200000, .i32⟩
  | 99 => ⟨S_, .i32⟩
  | 100 => ⟨S200000, .i32⟩
  | 101 => ⟨S200000, .i32⟩
  | 102 => ⟨S200000, .i32⟩
  | 103 => ⟨S_, .i32⟩
  | 104 => ⟨S_, .i32⟩
  | 105 => ⟨S_, .i32⟩
  | 106 => ⟨S200000, .i32⟩
  | 107 => ⟨S200000, .i32⟩
  | 108 => ⟨S_, .i32⟩
  | 109 => ⟨S200000, .i32⟩
  | 110 => ⟨S200000, .i32⟩
  | 111 => ⟨S_, .i32⟩
  | 112 => ⟨S200000, .i32⟩
  | 113 => ⟨S200000, .i1⟩
  | 114 => ⟨S_, .i32⟩
  | 115 => ⟨S200000, .i32⟩
  | 116 => ⟨S200000, .i32⟩
  | 117 => ⟨S200000, .i32⟩
  | 118 => ⟨S200000x1, .i32⟩
  | 119 => ⟨S200000, .i32⟩
  | 120 => ⟨S_, .i32⟩
  | 121 => ⟨S200000, .i32⟩
  | 122 => ⟨S200000, .i1⟩
  | 123 => ⟨S200000, .i1⟩
  | 124 => ⟨S_, .i32⟩
  | 125 => ⟨S_, .i32⟩
  | 126 => ⟨S200000, .i32⟩
  | 127 => ⟨S200000, .i32⟩
  | _ => ⟨S200000x128, .f32⟩

abbrev hbmTy0_8 (i : Nat) : BufTy := match i % 128 with
  | 0 => ⟨S200000x1, .i32⟩
  | 1 => ⟨S200000, .i32⟩
  | 2 => ⟨S_, .i32⟩
  | 3 => ⟨S200000, .i32⟩
  | 4 => ⟨S200000, .i32⟩
  | 5 => ⟨S200000x1, .i32⟩
  | 6 => ⟨S200000, .i32⟩
  | 7 => ⟨S_, .i32⟩
  | 8 => ⟨S200000, .i32⟩
  | 9 => ⟨S200000, .i32⟩
  | 10 => ⟨S200000x1, .i32⟩
  | 11 => ⟨S200000, .i32⟩
  | 12 => ⟨S_, .i32⟩
  | 13 => ⟨S200000, .i32⟩
  | 14 => ⟨S200000, .i32⟩
  | 15 => ⟨S_, .i32⟩
  | 16 => ⟨S200000, .i32⟩
  | 17 => ⟨S200000, .i1⟩
  | 18 => ⟨S_, .i32⟩
  | 19 => ⟨S200000, .i32⟩
  | 20 => ⟨S200000, .i1⟩
  | 21 => ⟨S200000, .i1⟩
  | 22 => ⟨S_, .i32⟩
  | 23 => ⟨S200000, .i32⟩
  | 24 => ⟨S200000, .i1⟩
  | 25 => ⟨S200000, .i1⟩
  | 26 => ⟨S_, .i32⟩
  | 27 => ⟨S200000, .i32⟩
  | 28 => ⟨S200000, .i1⟩
  | 29 => ⟨S200000, .i1⟩
  | 30 => ⟨S_, .i32⟩
  | 31 => ⟨S200000, .i32⟩
  | 32 => ⟨S200000, .i1⟩
  | 33 => ⟨S200000, .i1⟩
  | 34 => ⟨S_, .i32⟩
  | 35 => ⟨S200000, .i32⟩
  | 36 => ⟨S200000, .i1⟩
  | 37 => ⟨S200000, .i1⟩
  | 38 => ⟨S_, .i32⟩
  | 39 => ⟨S200000, .i32⟩
  | 40 => ⟨S200000, .i32⟩
  | 41 => ⟨S200000, .i32⟩
  | 42 => ⟨S_, .i32⟩
  | 43 => ⟨S200000, .i32⟩
  | 44 => ⟨S200000, .i32⟩
  | 45 => ⟨S200000, .i32⟩
  | 46 => ⟨S_, .i32⟩
  | 47 => ⟨S_, .i32⟩
  | 48 => ⟨S_, .i32⟩
  | 49 => ⟨S200000, .i32⟩
  | 50 => ⟨S200000, .i32⟩
  | 51 => ⟨S_, .i32⟩
  | 52 => ⟨S200000, .i32⟩
  | 53 => ⟨S200000, .i32⟩
  | 54 => ⟨S_, .i32⟩
  | 55 => ⟨S200000, .i32⟩
  | 56 => ⟨S200000, .i1⟩
  | 57 => ⟨S_, .i32⟩
  | 58 => ⟨S200000, .i32⟩
  | 59 => ⟨S200000, .i32⟩
  | 60 => ⟨S200000, .i32⟩
  | 61 => ⟨S200000x1, .i32⟩
  | 62 => ⟨S200000, .i32⟩
  | 63 => ⟨S_, .i32⟩
  | 64 => ⟨S200000, .i32⟩
  | 65 => ⟨S200000, .i1⟩
  | 66 => ⟨S200000, .i1⟩
  | 67 => ⟨S_, .i32⟩
  | 68 => ⟨S_, .i32⟩
  | 69 => ⟨S200000, .i32⟩
  | 70 => ⟨S200000, .i32⟩
  | 71 => ⟨S200000x1, .i32⟩
  | 72 => ⟨S200000, .i32⟩
  | 73 => ⟨S_, .i32⟩
  | 74 => ⟨S200000, .i32⟩
  | 75 => ⟨S200000, .i32⟩
  | 76 => ⟨S200000x1, .i32⟩
  | 77 => ⟨S200000, .i32⟩
  | 78 => ⟨S_, .i32⟩
  | 79 => ⟨S200000, .i32⟩
  | 80 => ⟨S200000, .i32⟩
  | 81 => ⟨S200000x1, .i32⟩
  | 82 => ⟨S200000, .i32⟩
  | 83 => ⟨S_, .i32⟩
  | 84 => ⟨S200000, .i32⟩
  | 85 => ⟨S200000, .i32⟩
  | 86 => ⟨S_, .i32⟩
  | 87 => ⟨S200000, .i32⟩
  | 88 => ⟨S200000, .i1⟩
  | 89 => ⟨S_, .i32⟩
  | 90 => ⟨S200000, .i32⟩
  | 91 => ⟨S200000, .i1⟩
  | 92 => ⟨S200000, .i1⟩
  | 93 => ⟨S_, .i32⟩
  | 94 => ⟨S200000, .i32⟩
  | 95 => ⟨S200000, .i1⟩
  | 96 => ⟨S200000, .i1⟩
  | 97 => ⟨S_, .i32⟩
  | 98 => ⟨S200000, .i32⟩
  | 99 => ⟨S200000, .i1⟩
  | 100 => ⟨S200000, .i1⟩
  | 101 => ⟨S_, .i32⟩
  | 102 => ⟨S200000, .i32⟩
  | 103 => ⟨S200000, .i1⟩
  | 104 => ⟨S200000, .i1⟩
  | 105 => ⟨S_, .i32⟩
  | 106 => ⟨S200000, .i32⟩
  | 107 => ⟨S200000, .i1⟩
  | 108 => ⟨S200000, .i1⟩
  | 109 => ⟨S_, .i32⟩
  | 110 => ⟨S200000, .i32⟩
  | 111 => ⟨S200000, .i32⟩
  | 112 => ⟨S200000, .i32⟩
  | 113 => ⟨S_, .i32⟩
  | 114 => ⟨S200000, .i32⟩
  | 115 => ⟨S200000, .i32⟩
  | 116 => ⟨S200000, .i32⟩
  | 117 => ⟨S_, .i32⟩
  | 118 => ⟨S_, .i32⟩
  | 119 => ⟨S_, .i32⟩
  | 120 => ⟨S200000, .i32⟩
  | 121 => ⟨S200000, .i32⟩
  | 122 => ⟨S_, .i32⟩
  | 123 => ⟨S200000, .i32⟩
  | 124 => ⟨S200000, .i32⟩
  | 125 => ⟨S_, .i32⟩
  | 126 => ⟨S200000, .i32⟩
  | 127 => ⟨S200000, .i1⟩
  | _ => ⟨S200000x128, .f32⟩

abbrev hbmTy0_9 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000, .i32⟩
  | 6 => ⟨S_, .i32⟩
  | 7 => ⟨S200000, .i32⟩
  | 8 => ⟨S200000, .i1⟩
  | 9 => ⟨S200000, .i1⟩
  | 10 => ⟨S_, .i32⟩
  | 11 => ⟨S_, .i32⟩
  | 12 => ⟨S200000, .i32⟩
  | 13 => ⟨S200000, .i32⟩
  | 14 => ⟨S200000x1, .i32⟩
  | 15 => ⟨S200000, .i32⟩
  | 16 => ⟨S_, .i32⟩
  | 17 => ⟨S200000, .i32⟩
  | 18 => ⟨S200000, .i32⟩
  | 19 => ⟨S200000x1, .i32⟩
  | 20 => ⟨S200000, .i32⟩
  | 21 => ⟨S_, .i32⟩
  | 22 => ⟨S200000, .i32⟩
  | 23 => ⟨S200000, .i32⟩
  | 24 => ⟨S200000x1, .i32⟩
  | 25 => ⟨S200000, .i32⟩
  | 26 => ⟨S_, .i32⟩
  | 27 => ⟨S200000, .i32⟩
  | 28 => ⟨S200000, .i32⟩
  | 29 => ⟨S_, .i32⟩
  | 30 => ⟨S200000, .i32⟩
  | 31 => ⟨S200000, .i1⟩
  | 32 => ⟨S_, .i32⟩
  | 33 => ⟨S200000, .i32⟩
  | 34 => ⟨S200000, .i1⟩
  | 35 => ⟨S200000, .i1⟩
  | 36 => ⟨S_, .i32⟩
  | 37 => ⟨S200000, .i32⟩
  | 38 => ⟨S200000, .i1⟩
  | 39 => ⟨S200000, .i1⟩
  | 40 => ⟨S_, .i32⟩
  | 41 => ⟨S200000, .i32⟩
  | 42 => ⟨S200000, .i1⟩
  | 43 => ⟨S200000, .i1⟩
  | 44 => ⟨S_, .i32⟩
  | 45 => ⟨S200000, .i32⟩
  | 46 => ⟨S200000, .i1⟩
  | 47 => ⟨S200000, .i1⟩
  | 48 => ⟨S_, .i32⟩
  | 49 => ⟨S200000, .i32⟩
  | 50 => ⟨S200000, .i1⟩
  | 51 => ⟨S200000, .i1⟩
  | 52 => ⟨S_, .i32⟩
  | 53 => ⟨S200000, .i32⟩
  | 54 => ⟨S200000, .i32⟩
  | 55 => ⟨S200000, .i32⟩
  | 56 => ⟨S_, .i32⟩
  | 57 => ⟨S200000, .i32⟩
  | 58 => ⟨S200000, .i32⟩
  | 59 => ⟨S200000, .i32⟩
  | 60 => ⟨S_, .i32⟩
  | 61 => ⟨S_, .i32⟩
  | 62 => ⟨S_, .i32⟩
  | 63 => ⟨S200000, .i32⟩
  | 64 => ⟨S200000, .i32⟩
  | 65 => ⟨S_, .i32⟩
  | 66 => ⟨S200000, .i32⟩
  | 67 => ⟨S200000, .i32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S200000, .i32⟩
  | 77 => ⟨S_, .i32⟩
  | 78 => ⟨S200000, .i32⟩
  | 79 => ⟨S200000, .i1⟩
  | 80 => ⟨S200000, .i1⟩
  | 81 => ⟨S_, .i32⟩
  | 82 => ⟨S_, .i32⟩
  | 83 => ⟨S200000, .i32⟩
  | 84 => ⟨S200000, .i32⟩
  | 85 => ⟨S200000x1, .i32⟩
  | 86 => ⟨S200000, .i32⟩
  | 87 => ⟨S_, .i32⟩
  | 88 => ⟨S200000, .i32⟩
  | 89 => ⟨S200000, .i32⟩
  | 90 => ⟨S200000x1, .i32⟩
  | 91 => ⟨S200000, .i32⟩
  | 92 => ⟨S_, .i32⟩
  | 93 => ⟨S200000, .i32⟩
  | 94 => ⟨S200000, .i32⟩
  | 95 => ⟨S200000x1, .i32⟩
  | 96 => ⟨S200000, .i32⟩
  | 97 => ⟨S_, .i32⟩
  | 98 => ⟨S200000, .i32⟩
  | 99 => ⟨S200000, .i32⟩
  | 100 => ⟨S_, .i32⟩
  | 101 => ⟨S200000, .i32⟩
  | 102 => ⟨S200000, .i1⟩
  | 103 => ⟨S_, .i32⟩
  | 104 => ⟨S200000, .i32⟩
  | 105 => ⟨S200000, .i1⟩
  | 106 => ⟨S200000, .i1⟩
  | 107 => ⟨S_, .i32⟩
  | 108 => ⟨S200000, .i32⟩
  | 109 => ⟨S200000, .i1⟩
  | 110 => ⟨S200000, .i1⟩
  | 111 => ⟨S_, .i32⟩
  | 112 => ⟨S200000, .i32⟩
  | 113 => ⟨S200000, .i1⟩
  | 114 => ⟨S200000, .i1⟩
  | 115 => ⟨S_, .i32⟩
  | 116 => ⟨S200000, .i32⟩
  | 117 => ⟨S200000, .i1⟩
  | 118 => ⟨S200000, .i1⟩
  | 119 => ⟨S_, .i32⟩
  | 120 => ⟨S200000, .i32⟩
  | 121 => ⟨S200000, .i1⟩
  | 122 => ⟨S200000, .i1⟩
  | 123 => ⟨S_, .i32⟩
  | 124 => ⟨S200000, .i32⟩
  | 125 => ⟨S200000, .i32⟩
  | 126 => ⟨S200000, .i32⟩
  | 127 => ⟨S_, .i32⟩
  | _ => ⟨S200000x128, .f32⟩

abbrev hbmTy0_10 (i : Nat) : BufTy := match i % 128 with
  | 0 => ⟨S200000, .i32⟩
  | 1 => ⟨S200000, .i32⟩
  | 2 => ⟨S200000, .i32⟩
  | 3 => ⟨S_, .i32⟩
  | 4 => ⟨S_, .i32⟩
  | 5 => ⟨S_, .i32⟩
  | 6 => ⟨S200000, .i32⟩
  | 7 => ⟨S200000, .i32⟩
  | 8 => ⟨S_, .i32⟩
  | 9 => ⟨S200000, .i32⟩
  | 10 => ⟨S200000, .i32⟩
  | 11 => ⟨S_, .i32⟩
  | 12 => ⟨S200000, .i32⟩
  | 13 => ⟨S200000, .i1⟩
  | 14 => ⟨S_, .i32⟩
  | 15 => ⟨S200000, .i32⟩
  | 16 => ⟨S200000, .i32⟩
  | 17 => ⟨S200000, .i32⟩
  | 18 => ⟨S200000x1, .i32⟩
  | 19 => ⟨S200000, .i32⟩
  | 20 => ⟨S_, .i32⟩
  | 21 => ⟨S200000, .i32⟩
  | 22 => ⟨S200000, .i1⟩
  | 23 => ⟨S200000, .i1⟩
  | 24 => ⟨S_, .i32⟩
  | 25 => ⟨S_, .i32⟩
  | 26 => ⟨S200000, .i32⟩
  | 27 => ⟨S200000, .i32⟩
  | 28 => ⟨S200000x1, .i32⟩
  | 29 => ⟨S200000, .i32⟩
  | 30 => ⟨S_, .i32⟩
  | 31 => ⟨S200000, .i32⟩
  | 32 => ⟨S200000, .i32⟩
  | 33 => ⟨S200000x1, .i32⟩
  | 34 => ⟨S200000, .i32⟩
  | 35 => ⟨S_, .i32⟩
  | 36 => ⟨S200000, .i32⟩
  | 37 => ⟨S200000, .i32⟩
  | 38 => ⟨S200000x1, .i32⟩
  | 39 => ⟨S200000, .i32⟩
  | 40 => ⟨S_, .i32⟩
  | 41 => ⟨S200000, .i32⟩
  | 42 => ⟨S200000, .i32⟩
  | 43 => ⟨S_, .i32⟩
  | 44 => ⟨S200000, .i32⟩
  | 45 => ⟨S200000, .i1⟩
  | 46 => ⟨S_, .i32⟩
  | 47 => ⟨S200000, .i32⟩
  | 48 => ⟨S200000, .i1⟩
  | 49 => ⟨S200000, .i1⟩
  | 50 => ⟨S_, .i32⟩
  | 51 => ⟨S200000, .i32⟩
  | 52 => ⟨S200000, .i1⟩
  | 53 => ⟨S200000, .i1⟩
  | 54 => ⟨S_, .i32⟩
  | 55 => ⟨S200000, .i32⟩
  | 56 => ⟨S200000, .i1⟩
  | 57 => ⟨S200000, .i1⟩
  | 58 => ⟨S_, .i32⟩
  | 59 => ⟨S200000, .i32⟩
  | 60 => ⟨S200000, .i1⟩
  | 61 => ⟨S200000, .i1⟩
  | 62 => ⟨S_, .i32⟩
  | 63 => ⟨S200000, .i32⟩
  | 64 => ⟨S200000, .i1⟩
  | 65 => ⟨S200000, .i1⟩
  | 66 => ⟨S_, .i32⟩
  | 67 => ⟨S200000, .i32⟩
  | 68 => ⟨S200000, .i32⟩
  | 69 => ⟨S200000, .i32⟩
  | 70 => ⟨S_, .i32⟩
  | 71 => ⟨S200000, .i32⟩
  | 72 => ⟨S200000, .i32⟩
  | 73 => ⟨S200000, .i32⟩
  | 74 => ⟨S_, .i32⟩
  | 75 => ⟨S_, .i32⟩
  | 76 => ⟨S_, .i32⟩
  | 77 => ⟨S200000, .i32⟩
  | 78 => ⟨S200000, .i32⟩
  | 79 => ⟨S_, .i32⟩
  | 80 => ⟨S200000, .i32⟩
  | 81 => ⟨S200000, .i32⟩
  | 82 => ⟨S_, .i32⟩
  | 83 => ⟨S200000, .i32⟩
  | 84 => ⟨S200000, .i1⟩
  | 85 => ⟨S_, .i32⟩
  | 86 => ⟨S200000, .i32⟩
  | 87 => ⟨S200000, .i32⟩
  | 88 => ⟨S200000, .i32⟩
  | 89 => ⟨S200000x1, .i32⟩
  | 90 => ⟨S200000, .i32⟩
  | 91 => ⟨S_, .i32⟩
  | 92 => ⟨S200000, .i32⟩
  | 93 => ⟨S200000, .i1⟩
  | 94 => ⟨S200000, .i1⟩
  | 95 => ⟨S_, .i32⟩
  | 96 => ⟨S_, .i32⟩
  | 97 => ⟨S200000, .i32⟩
  | 98 => ⟨S200000, .i32⟩
  | 99 => ⟨S200000x1, .i32⟩
  | 100 => ⟨S200000, .i32⟩
  | 101 => ⟨S_, .i32⟩
  | 102 => ⟨S200000, .i32⟩
  | 103 => ⟨S200000, .i32⟩
  | 104 => ⟨S200000x1, .i32⟩
  | 105 => ⟨S200000, .i32⟩
  | 106 => ⟨S_, .i32⟩
  | 107 => ⟨S200000, .i32⟩
  | 108 => ⟨S200000, .i32⟩
  | 109 => ⟨S200000x1, .i32⟩
  | 110 => ⟨S200000, .i32⟩
  | 111 => ⟨S_, .i32⟩
  | 112 => ⟨S200000, .i32⟩
  | 113 => ⟨S200000, .i32⟩
  | 114 => ⟨S_, .i32⟩
  | 115 => ⟨S200000, .i32⟩
  | 116 => ⟨S200000, .i1⟩
  | 117 => ⟨S_, .i32⟩
  | 118 => ⟨S200000, .i32⟩
  | 119 => ⟨S200000, .i1⟩
  | 120 => ⟨S200000, .i1⟩
  | 121 => ⟨S_, .i32⟩
  | 122 => ⟨S200000, .i32⟩
  | 123 => ⟨S200000, .i1⟩
  | 124 => ⟨S200000, .i1⟩
  | 125 => ⟨S_, .i32⟩
  | 126 => ⟨S200000, .i32⟩
  | 127 => ⟨S200000, .i1⟩
  | _ => ⟨S200000x128, .f32⟩

abbrev hbmTy0_11 (i : Nat) : BufTy := match i % 128 with
  | 0 => ⟨S200000, .i1⟩
  | 1 => ⟨S_, .i32⟩
  | 2 => ⟨S200000, .i32⟩
  | 3 => ⟨S200000, .i1⟩
  | 4 => ⟨S200000, .i1⟩
  | 5 => ⟨S_, .i32⟩
  | 6 => ⟨S200000, .i32⟩
  | 7 => ⟨S200000, .i1⟩
  | 8 => ⟨S200000, .i1⟩
  | 9 => ⟨S_, .i32⟩
  | 10 => ⟨S200000, .i32⟩
  | 11 => ⟨S200000, .i32⟩
  | 12 => ⟨S200000, .i32⟩
  | 13 => ⟨S_, .i32⟩
  | 14 => ⟨S200000, .i32⟩
  | 15 => ⟨S200000, .i32⟩
  | 16 => ⟨S200000, .i32⟩
  | 17 => ⟨S_, .i32⟩
  | 18 => ⟨S_, .i32⟩
  | 19 => ⟨S_, .i32⟩
  | 20 => ⟨S200000, .i32⟩
  | 21 => ⟨S200000, .i32⟩
  | 22 => ⟨S_, .i32⟩
  | 23 => ⟨S200000, .i32⟩
  | 24 => ⟨S200000, .i32⟩
  | 25 => ⟨S_, .i32⟩
  | 26 => ⟨S200000, .i32⟩
  | 27 => ⟨S200000, .i1⟩
  | 28 => ⟨S_, .i32⟩
  | 29 => ⟨S200000, .i32⟩
  | 30 => ⟨S200000, .i32⟩
  | 31 => ⟨S200000, .i32⟩
  | 32 => ⟨S200000x1, .i32⟩
  | 33 => ⟨S200000, .i32⟩
  | 34 => ⟨S_, .i32⟩
  | 35 => ⟨S200000, .i32⟩
  | 36 => ⟨S200000, .i1⟩
  | 37 => ⟨S200000, .i1⟩
  | 38 => ⟨S_, .i32⟩
  | 39 => ⟨S_, .i32⟩
  | 40 => ⟨S200000, .i32⟩
  | 41 => ⟨S200000, .i32⟩
  | 42 => ⟨S200000x1, .i32⟩
  | 43 => ⟨S200000, .i32⟩
  | 44 => ⟨S_, .i32⟩
  | 45 => ⟨S200000, .i32⟩
  | 46 => ⟨S200000, .i32⟩
  | 47 => ⟨S200000x1, .i32⟩
  | 48 => ⟨S200000, .i32⟩
  | 49 => ⟨S_, .i32⟩
  | 50 => ⟨S200000, .i32⟩
  | 51 => ⟨S200000, .i32⟩
  | 52 => ⟨S200000x1, .i32⟩
  | 53 => ⟨S200000, .i32⟩
  | 54 => ⟨S_, .i32⟩
  | 55 => ⟨S200000, .i32⟩
  | 56 => ⟨S200000, .i32⟩
  | 57 => ⟨S_, .i32⟩
  | 58 => ⟨S200000, .i32⟩
  | 59 => ⟨S200000, .i1⟩
  | 60 => ⟨S_, .i32⟩
  | 61 => ⟨S200000, .i32⟩
  | 62 => ⟨S200000, .i1⟩
  | 63 => ⟨S200000, .i1⟩
  | 64 => ⟨S_, .i32⟩
  | 65 => ⟨S200000, .i32⟩
  | 66 => ⟨S200000, .i1⟩
  | 67 => ⟨S200000, .i1⟩
  | 68 => ⟨S_, .i32⟩
  | 69 => ⟨S200000, .i32⟩
  | 70 => ⟨S200000, .i1⟩
  | 71 => ⟨S200000, .i1⟩
  | 72 => ⟨S_, .i32⟩
  | 73 => ⟨S200000, .i32⟩
  | 74 => ⟨S200000, .i1⟩
  | 75 => ⟨S200000, .i1⟩
  | 76 => ⟨S_, .i32⟩
  | 77 => ⟨S200000, .i32⟩
  | 78 => ⟨S200000, .i1⟩
  | 79 => ⟨S200000, .i1⟩
  | 80 => ⟨S_, .i32⟩
  | 81 => ⟨S200000, .i32⟩
  | 82 => ⟨S200000, .i32⟩
  | 83 => ⟨S200000, .i32⟩
  | 84 => ⟨S_, .i32⟩
  | 85 => ⟨S200000, .i32⟩
  | 86 => ⟨S200000, .i32⟩
  | 87 => ⟨S200000, .i32⟩
  | 88 => ⟨S_, .i32⟩
  | 89 => ⟨S_, .i32⟩
  | 90 => ⟨S_, .i32⟩
  | 91 => ⟨S200000, .i32⟩
  | 92 => ⟨S200000, .i32⟩
  | 93 => ⟨S_, .i32⟩
  | 94 => ⟨S200000, .i32⟩
  | 95 => ⟨S200000, .i32⟩
  | 96 => ⟨S_, .i32⟩
  | 97 => ⟨S200000, .i32⟩
  | 98 => ⟨S200000, .i1⟩
  | 99 => ⟨S_, .i32⟩
  | 100 => ⟨S200000, .i32⟩
  | 101 => ⟨S200000, .i32⟩
  | 102 => ⟨S200000, .i32⟩
  | 103 => ⟨S200000x1, .i32⟩
  | 104 => ⟨S200000, .i32⟩
  | 105 => ⟨S_, .i32⟩
  | 106 => ⟨S200000, .i32⟩
  | 107 => ⟨S200000, .i1⟩
  | 108 => ⟨S200000, .i1⟩
  | 109 => ⟨S_, .i32⟩
  | 110 => ⟨S_, .i32⟩
  | 111 => ⟨S200000, .i32⟩
  | 112 => ⟨S200000, .i32⟩
  | 113 => ⟨S200000x1, .i32⟩
  | 114 => ⟨S200000, .i32⟩
  | 115 => ⟨S_, .i32⟩
  | 116 => ⟨S200000, .i32⟩
  | 117 => ⟨S200000, .i32⟩
  | 118 => ⟨S200000x1, .i32⟩
  | 119 => ⟨S200000, .i32⟩
  | 120 => ⟨S_, .i32⟩
  | 121 => ⟨S200000, .i32⟩
  | 122 => ⟨S200000, .i32⟩
  | 123 => ⟨S200000x1, .i32⟩
  | 124 => ⟨S200000, .i32⟩
  | 125 => ⟨S_, .i32⟩
  | 126 => ⟨S200000, .i32⟩
  | 127 => ⟨S200000, .i32⟩
  | _ => ⟨S200000x128, .f32⟩

abbrev hbmTy0_12 (i : Nat) : BufTy := match i % 128 with
  | 0 => ⟨S_, .i32⟩
  | 1 => ⟨S200000, .i32⟩
  | 2 => ⟨S200000, .i1⟩
  | 3 => ⟨S_, .i32⟩
  | 4 => ⟨S200000, .i32⟩
  | 5 => ⟨S200000, .i1⟩
  | 6 => ⟨S200000, .i1⟩
  | 7 => ⟨S_, .i32⟩
  | 8 => ⟨S200000, .i32⟩
  | 9 => ⟨S200000, .i1⟩
  | 10 => ⟨S200000, .i1⟩
  | 11 => ⟨S_, .i32⟩
  | 12 => ⟨S200000, .i32⟩
  | 13 => ⟨S200000, .i1⟩
  | 14 => ⟨S200000, .i1⟩
  | 15 => ⟨S_, .i32⟩
  | 16 => ⟨S200000, .i32⟩
  | 17 => ⟨S200000, .i1⟩
  | 18 => ⟨S200000, .i1⟩
  | 19 => ⟨S_, .i32⟩
  | 20 => ⟨S200000, .i32⟩
  | 21 => ⟨S200000, .i1⟩
  | 22 => ⟨S200000, .i1⟩
  | 23 => ⟨S_, .i32⟩
  | 24 => ⟨S200000, .i32⟩
  | 25 => ⟨S200000, .i32⟩
  | 26 => ⟨S200000, .i32⟩
  | 27 => ⟨S_, .i32⟩
  | 28 => ⟨S200000, .i32⟩
  | 29 => ⟨S200000, .i32⟩
  | 30 => ⟨S200000, .i32⟩
  | 31 => ⟨S_, .i32⟩
  | 32 => ⟨S_, .i32⟩
  | 33 => ⟨S_, .i32⟩
  | 34 => ⟨S200000, .i32⟩
  | 35 => ⟨S200000, .i32⟩
  | 36 => ⟨S_, .i32⟩
  | 37 => ⟨S200000, .i32⟩
  | 38 => ⟨S200000, .i32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S200000, .i32⟩
  | 48 => ⟨S_, .i32⟩
  | 49 => ⟨S200000, .i32⟩
  | 50 => ⟨S200000, .i1⟩
  | 51 => ⟨S200000, .i1⟩
  | 52 => ⟨S_, .i32⟩
  | 53 => ⟨S_, .i32⟩
  | 54 => ⟨S200000, .i32⟩
  | 55 => ⟨S200000, .i32⟩
  | 56 => ⟨S200000x1, .i32⟩
  | 57 => ⟨S200000, .i32⟩
  | 58 => ⟨S_, .i32⟩
  | 59 => ⟨S200000, .i32⟩
  | 60 => ⟨S200000, .i32⟩
  | 61 => ⟨S200000x1, .i32⟩
  | 62 => ⟨S200000, .i32⟩
  | 63 => ⟨S_, .i32⟩
  | 64 => ⟨S200000, .i32⟩
  | 65 => ⟨S200000, .i32⟩
  | 66 => ⟨S200000x1, .i32⟩
  | 67 => ⟨S200000, .i32⟩
  | 68 => ⟨S_, .i32⟩
  | 69 => ⟨S200000, .i32⟩
  | 70 => ⟨S200000, .i32⟩
  | 71 => ⟨S_, .i32⟩
  | 72 => ⟨S200000, .i32⟩
  | 73 => ⟨S200000, .i1⟩
  | 74 => ⟨S_, .i32⟩
  | 75 => ⟨S200000, .i32⟩
  | 76 => ⟨S200000, .i1⟩
  | 77 => ⟨S200000, .i1⟩
  | 78 => ⟨S_, .i32⟩
  | 79 => ⟨S200000, .i32⟩
  | 80 => ⟨S200000, .i1⟩
  | 81 => ⟨S200000, .i1⟩
  | 82 => ⟨S_, .i32⟩
  | 83 => ⟨S200000, .i32⟩
  | 84 => ⟨S200000, .i1⟩
  | 85 => ⟨S200000, .i1⟩
  | 86 => ⟨S_, .i32⟩
  | 87 => ⟨S200000, .i32⟩
  | 88 => ⟨S200000, .i1⟩
  | 89 => ⟨S200000, .i1⟩
  | 90 => ⟨S_, .i32⟩
  | 91 => ⟨S200000, .i32⟩
  | 92 => ⟨S200000, .i1⟩
  | 93 => ⟨S200000, .i1⟩
  | 94 => ⟨S_, .i32⟩
  | 95 => ⟨S200000, .i32⟩
  | 96 => ⟨S200000, .i32⟩
  | 97 => ⟨S200000, .i32⟩
  | 98 => ⟨S_, .i32⟩
  | 99 => ⟨S200000, .i32⟩
  | 100 => ⟨S200000, .i32⟩
  | 101 => ⟨S200000, .i32⟩
  | 102 => ⟨S_, .i32⟩
  | 103 => ⟨S_, .i32⟩
  | 104 => ⟨S_, .i32⟩
  | 105 => ⟨S200000, .i32⟩
  | 106 => ⟨S200000, .i32⟩
  | 107 => ⟨S_, .i32⟩
  | 108 => ⟨S200000, .i32⟩
  | 109 => ⟨S200000, .i32⟩
  | 110 => ⟨S_, .i32⟩
  | 111 => ⟨S200000, .i32⟩
  | 112 => ⟨S200000, .i1⟩
  | 113 => ⟨S_, .i32⟩
  | 114 => ⟨S200000, .i32⟩
  | 115 => ⟨S200000, .i32⟩
  | 116 => ⟨S200000, .i32⟩
  | 117 => ⟨S200000x1, .i32⟩
  | 118 => ⟨S200000, .i32⟩
  | 119 => ⟨S_, .i32⟩
  | 120 => ⟨S200000, .i32⟩
  | 121 => ⟨S200000, .i1⟩
  | 122 => ⟨S200000, .i1⟩
  | 123 => ⟨S_, .i32⟩
  | 124 => ⟨S_, .i32⟩
  | 125 => ⟨S200000, .i32⟩
  | 126 => ⟨S200000, .i32⟩
  | 127 => ⟨S200000x1, .i32⟩
  | _ => ⟨S200000x128, .f32⟩

abbrev hbmTy0_13 (i : Nat) : BufTy := match i % 128 with
  | 0 => ⟨S200000, .i32⟩
  | 1 => ⟨S_, .i32⟩
  | 2 => ⟨S200000, .i32⟩
  | 3 => ⟨S200000, .i32⟩
  | 4 => ⟨S200000x1, .i32⟩
  | 5 => ⟨S200000, .i32⟩
  | 6 => ⟨S_, .i32⟩
  | 7 => ⟨S200000, .i32⟩
  | 8 => ⟨S200000, .i32⟩
  | 9 => ⟨S200000x1, .i32⟩
  | 10 => ⟨S200000, .i32⟩
  | 11 => ⟨S_, .i32⟩
  | 12 => ⟨S200000, .i32⟩
  | 13 => ⟨S200000, .i32⟩
  | 14 => ⟨S_, .i32⟩
  | 15 => ⟨S200000, .i32⟩
  | 16 => ⟨S200000, .i1⟩
  | 17 => ⟨S_, .i32⟩
  | 18 => ⟨S200000, .i32⟩
  | 19 => ⟨S200000, .i1⟩
  | 20 => ⟨S200000, .i1⟩
  | 21 => ⟨S_, .i32⟩
  | 22 => ⟨S200000, .i32⟩
  | 23 => ⟨S200000, .i1⟩
  | 24 => ⟨S200000, .i1⟩
  | 25 => ⟨S_, .i32⟩
  | 26 => ⟨S200000, .i32⟩
  | 27 => ⟨S200000, .i1⟩
  | 28 => ⟨S200000, .i1⟩
  | 29 => ⟨S_, .i32⟩
  | 30 => ⟨S200000, .i32⟩
  | 31 => ⟨S200000, .i1⟩
  | 32 => ⟨S200000, .i1⟩
  | 33 => ⟨S_, .i32⟩
  | 34 => ⟨S200000, .i32⟩
  | 35 => ⟨S200000, .i1⟩
  | 36 => ⟨S200000, .i1⟩
  | 37 => ⟨S_, .i32⟩
  | 38 => ⟨S200000, .i32⟩
  | 39 => ⟨S200000, .i32⟩
  | 40 => ⟨S200000, .i32⟩
  | 41 => ⟨S_, .i32⟩
  | 42 => ⟨S200000, .i32⟩
  | 43 => ⟨S200000, .i32⟩
  | 44 => ⟨S200000, .i32⟩
  | 45 => ⟨S_, .i32⟩
  | 46 => ⟨S_, .i32⟩
  | 47 => ⟨S_, .i32⟩
  | 48 => ⟨S200000, .i32⟩
  | 49 => ⟨S200000, .i32⟩
  | 50 => ⟨S_, .i32⟩
  | 51 => ⟨S200000, .i32⟩
  | 52 => ⟨S200000, .i32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000, .i32⟩
  | 62 => ⟨S_, .i32⟩
  | 63 => ⟨S200000, .i32⟩
  | 64 => ⟨S200000, .i1⟩
  | 65 => ⟨S200000, .i1⟩
  | 66 => ⟨S_, .i32⟩
  | 67 => ⟨S_, .i32⟩
  | 68 => ⟨S200000, .i32⟩
  | 69 => ⟨S200000, .i32⟩
  | 70 => ⟨S200000x1, .i32⟩
  | 71 => ⟨S200000, .i32⟩
  | 72 => ⟨S_, .i32⟩
  | 73 => ⟨S200000, .i32⟩
  | 74 => ⟨S200000, .i32⟩
  | 75 => ⟨S200000x1, .i32⟩
  | 76 => ⟨S200000, .i32⟩
  | 77 => ⟨S_, .i32⟩
  | 78 => ⟨S200000, .i32⟩
  | 79 => ⟨S200000, .i32⟩
  | 80 => ⟨S200000x1, .i32⟩
  | 81 => ⟨S200000, .i32⟩
  | 82 => ⟨S_, .i32⟩
  | 83 => ⟨S200000, .i32⟩
  | 84 => ⟨S200000, .i32⟩
  | 85 => ⟨S_, .i32⟩
  | 86 => ⟨S200000, .i32⟩
  | 87 => ⟨S200000, .i1⟩
  | 88 => ⟨S_, .i32⟩
  | 89 => ⟨S200000, .i32⟩
  | 90 => ⟨S200000, .i1⟩
  | 91 => ⟨S200000, .i1⟩
  | 92 => ⟨S_, .i32⟩
  | 93 => ⟨S200000, .i32⟩
  | 94 => ⟨S200000, .i1⟩
  | 95 => ⟨S200000, .i1⟩
  | 96 => ⟨S_, .i32⟩
  | 97 => ⟨S200000, .i32⟩
  | 98 => ⟨S200000, .i1⟩
  | 99 => ⟨S200000, .i1⟩
  | 100 => ⟨S_, .i32⟩
  | 101 => ⟨S200000, .i32⟩
  | 102 => ⟨S200000, .i1⟩
  | 103 => ⟨S200000, .i1⟩
  | 104 => ⟨S_, .i32⟩
  | 105 => ⟨S200000, .i32⟩
  | 106 => ⟨S200000, .i1⟩
  | 107 => ⟨S200000, .i1⟩
  | 108 => ⟨S_, .i32⟩
  | 109 => ⟨S200000, .i32⟩
  | 110 => ⟨S200000, .i32⟩
  | 111 => ⟨S200000, .i32⟩
  | 112 => ⟨S_, .i32⟩
  | 113 => ⟨S200000, .i32⟩
  | 114 => ⟨S200000, .i32⟩
  | 115 => ⟨S200000, .i32⟩
  | 116 => ⟨S_, .i32⟩
  | 117 => ⟨S_, .i32⟩
  | 118 => ⟨S_, .i32⟩
  | 119 => ⟨S200000, .i32⟩
  | 120 => ⟨S200000, .i32⟩
  | 121 => ⟨S_, .i32⟩
  | 122 => ⟨S200000, .i32⟩
  | 123 => ⟨S200000, .i32⟩
  | 124 => ⟨S_, .i32⟩
  | 125 => ⟨S200000, .i32⟩
  | 126 => ⟨S200000, .i1⟩
  | 127 => ⟨S_, .i32⟩
  | _ => ⟨S200000x128, .f32⟩

abbrev hbmTy0_14 (i : Nat) : BufTy := match i % 128 with
  | 0 => ⟨S200000, .i32⟩
  | 1 => ⟨S200000, .i32⟩
  | 2 => ⟨S200000, .i32⟩
  | 3 => ⟨S200000x1, .i32⟩
  | 4 => ⟨S200000, .i32⟩
  | 5 => ⟨S_, .i32⟩
  | 6 => ⟨S200000, .i32⟩
  | 7 => ⟨S200000, .i1⟩
  | 8 => ⟨S200000, .i1⟩
  | 9 => ⟨S_, .i32⟩
  | 10 => ⟨S_, .i32⟩
  | 11 => ⟨S200000, .i32⟩
  | 12 => ⟨S200000, .i32⟩
  | 13 => ⟨S200000x1, .i32⟩
  | 14 => ⟨S200000, .i32⟩
  | 15 => ⟨S_, .i32⟩
  | 16 => ⟨S200000, .i32⟩
  | 17 => ⟨S200000, .i32⟩
  | 18 => ⟨S200000x1, .i32⟩
  | 19 => ⟨S200000, .i32⟩
  | 20 => ⟨S_, .i32⟩
  | 21 => ⟨S200000, .i32⟩
  | 22 => ⟨S200000, .i32⟩
  | 23 => ⟨S200000x1, .i32⟩
  | 24 => ⟨S200000, .i32⟩
  | 25 => ⟨S_, .i32⟩
  | 26 => ⟨S200000, .i32⟩
  | 27 => ⟨S200000, .i32⟩
  | 28 => ⟨S_, .i32⟩
  | 29 => ⟨S200000, .i32⟩
  | 30 => ⟨S200000, .i1⟩
  | 31 => ⟨S_, .i32⟩
  | 32 => ⟨S200000, .i32⟩
  | 33 => ⟨S200000, .i1⟩
  | 34 => ⟨S200000, .i1⟩
  | 35 => ⟨S_, .i32⟩
  | 36 => ⟨S200000, .i32⟩
  | 37 => ⟨S200000, .i1⟩
  | 38 => ⟨S200000, .i1⟩
  | 39 => ⟨S_, .i32⟩
  | 40 => ⟨S200000, .i32⟩
  | 41 => ⟨S200000, .i1⟩
  | 42 => ⟨S200000, .i1⟩
  | 43 => ⟨S_, .i32⟩
  | 44 => ⟨S200000, .i32⟩
  | 45 => ⟨S200000, .i1⟩
  | 46 => ⟨S200000, .i1⟩
  | 47 => ⟨S_, .i32⟩
  | 48 => ⟨S200000, .i32⟩
  | 49 => ⟨S200000, .i1⟩
  | 50 => ⟨S200000, .i1⟩
  | 51 => ⟨S_, .i32⟩
  | 52 => ⟨S200000, .i32⟩
  | 53 => ⟨S200000, .i32⟩
  | 54 => ⟨S200000, .i32⟩
  | 55 => ⟨S_, .i32⟩
  | 56 => ⟨S200000, .i32⟩
  | 57 => ⟨S200000, .i32⟩
  | 58 => ⟨S200000, .i32⟩
  | 59 => ⟨S_, .i32⟩
  | 60 => ⟨S_, .i32⟩
  | 61 => ⟨S_, .i32⟩
  | 62 => ⟨S200000, .i32⟩
  | 63 => ⟨S200000, .i32⟩
  | 64 => ⟨S_, .i32⟩
  | 65 => ⟨S200000, .i32⟩
  | 66 => ⟨S200000, .i32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000, .i32⟩
  | 76 => ⟨S_, .i32⟩
  | 77 => ⟨S200000, .i32⟩
  | 78 => ⟨S200000, .i1⟩
  | 79 => ⟨S200000, .i1⟩
  | 80 => ⟨S_, .i32⟩
  | 81 => ⟨S_, .i32⟩
  | 82 => ⟨S200000, .i32⟩
  | 83 => ⟨S200000, .i32⟩
  | 84 => ⟨S200000x1, .i32⟩
  | 85 => ⟨S200000, .i32⟩
  | 86 => ⟨S_, .i32⟩
  | 87 => ⟨S200000, .i32⟩
  | 88 => ⟨S200000, .i32⟩
  | 89 => ⟨S200000x1, .i32⟩
  | 90 => ⟨S200000, .i32⟩
  | 91 => ⟨S_, .i32⟩
  | 92 => ⟨S200000, .i32⟩
  | 93 => ⟨S200000, .i32⟩
  | 94 => ⟨S200000x1, .i32⟩
  | 95 => ⟨S200000, .i32⟩
  | 96 => ⟨S_, .i32⟩
  | 97 => ⟨S200000, .i32⟩
  | 98 => ⟨S200000, .i32⟩
  | 99 => ⟨S_, .i32⟩
  | 100 => ⟨S200000, .i32⟩
  | 101 => ⟨S200000, .i1⟩
  | 102 => ⟨S_, .i32⟩
  | 103 => ⟨S200000, .i32⟩
  | 104 => ⟨S200000, .i1⟩
  | 105 => ⟨S200000, .i1⟩
  | 106 => ⟨S_, .i32⟩
  | 107 => ⟨S200000, .i32⟩
  | 108 => ⟨S200000, .i1⟩
  | 109 => ⟨S200000, .i1⟩
  | 110 => ⟨S_, .i32⟩
  | 111 => ⟨S200000, .i32⟩
  | 112 => ⟨S200000, .i1⟩
  | 113 => ⟨S200000, .i1⟩
  | 114 => ⟨S_, .i32⟩
  | 115 => ⟨S200000, .i32⟩
  | 116 => ⟨S200000, .i1⟩
  | 117 => ⟨S200000, .i1⟩
  | 118 => ⟨S_, .i32⟩
  | 119 => ⟨S200000, .i32⟩
  | 120 => ⟨S200000, .i1⟩
  | 121 => ⟨S200000, .i1⟩
  | 122 => ⟨S_, .i32⟩
  | 123 => ⟨S200000, .i32⟩
  | 124 => ⟨S200000, .i32⟩
  | 125 => ⟨S200000, .i32⟩
  | 126 => ⟨S_, .i32⟩
  | 127 => ⟨S200000, .i32⟩
  | _ => ⟨S200000x128, .f32⟩

abbrev hbmTy0_15 (i : Nat) : BufTy := match i % 128 with
  | 0 => ⟨S200000, .i32⟩
  | 1 => ⟨S200000, .i32⟩
  | 2 => ⟨S_, .i32⟩
  | 3 => ⟨S_, .i32⟩
  | 4 => ⟨S_, .i32⟩
  | 5 => ⟨S200000, .i32⟩
  | 6 => ⟨S200000, .i32⟩
  | 7 => ⟨S_, .i32⟩
  | 8 => ⟨S200000, .i32⟩
  | 9 => ⟨S200000, .i32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S200000x1, .i32⟩
  | 18 => ⟨S200000, .i32⟩
  | 19 => ⟨S_, .i32⟩
  | 20 => ⟨S200000, .i32⟩
  | 21 => ⟨S200000, .i1⟩
  | 22 => ⟨S200000, .i1⟩
  | 23 => ⟨S_, .i32⟩
  | 24 => ⟨S_, .i32⟩
  | 25 => ⟨S200000, .i32⟩
  | 26 => ⟨S200000, .i32⟩
  | 27 => ⟨S200000x128, .bf16⟩
  | 28 => ⟨S128x27x20, .f32⟩
  | 29 => ⟨S128x540, .f32⟩
  | 30 => ⟨S_, .i32⟩
  | 31 => ⟨S_, .f32⟩
  | 32 => ⟨S128x640, .f32⟩
  | 33 => ⟨S128x640, .bf16⟩
  | 34 => ⟨S200000x640, .bf16⟩
  | 35 => ⟨S_, .bf16⟩
  | 36 => ⟨S1x640, .bf16⟩
  | 37 => ⟨S200001x640, .bf16⟩
  | 38 => ⟨S200000x20, .f32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S_, .i32⟩
  | 48 => ⟨S200000x1, .i32⟩
  | 49 => ⟨S200000x2, .i32⟩
  | 50 => ⟨S200000x20, .bf16⟩
  | 51 => ⟨S200000x20, .f32⟩
  | 52 => ⟨S200000x20, .f32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S_, .i32⟩
  | 62 => ⟨S200000x1, .i32⟩
  | 63 => ⟨S200000x2, .i32⟩
  | 64 => ⟨S200000x20, .bf16⟩
  | 65 => ⟨S200000x20, .f32⟩
  | 66 => ⟨S200000x20, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S_, .i32⟩
  | 76 => ⟨S200000x1, .i32⟩
  | 77 => ⟨S200000x2, .i32⟩
  | 78 => ⟨S200000x20, .bf16⟩
  | 79 => ⟨S200000x20, .f32⟩
  | 80 => ⟨S200000x20, .f32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S_, .i32⟩
  | 90 => ⟨S200000x1, .i32⟩
  | 91 => ⟨S200000x2, .i32⟩
  | 92 => ⟨S200000x20, .bf16⟩
  | 93 => ⟨S200000x20, .f32⟩
  | 94 => ⟨S200000x20, .f32⟩
  | 95 => ⟨S_, .i32⟩
  | 96 => ⟨S200000, .i32⟩
  | 97 => ⟨S200000, .i1⟩
  | 98 => ⟨S_, .i32⟩
  | 99 => ⟨S200000, .i32⟩
  | 100 => ⟨S200000, .i32⟩
  | 101 => ⟨S200000, .i32⟩
  | 102 => ⟨S200000x1, .i32⟩
  | 103 => ⟨S_, .i32⟩
  | 104 => ⟨S200000x1, .i32⟩
  | 105 => ⟨S200000x2, .i32⟩
  | 106 => ⟨S200000x20, .bf16⟩
  | 107 => ⟨S200000x20, .f32⟩
  | 108 => ⟨S200000x20, .f32⟩
  | 109 => ⟨S_, .i32⟩
  | 110 => ⟨S200000, .i32⟩
  | 111 => ⟨S200000, .i1⟩
  | 112 => ⟨S_, .i32⟩
  | 113 => ⟨S200000, .i32⟩
  | 114 => ⟨S200000, .i32⟩
  | 115 => ⟨S200000, .i32⟩
  | 116 => ⟨S200000x1, .i32⟩
  | 117 => ⟨S_, .i32⟩
  | 118 => ⟨S200000x1, .i32⟩
  | 119 => ⟨S200000x2, .i32⟩
  | 120 => ⟨S200000x20, .bf16⟩
  | 121 => ⟨S200000x20, .f32⟩
  | 122 => ⟨S200000x20, .f32⟩
  | 123 => ⟨S_, .i32⟩
  | 124 => ⟨S200000, .i32⟩
  | 125 => ⟨S200000, .i1⟩
  | 126 => ⟨S_, .i32⟩
  | 127 => ⟨S200000, .i32⟩
  | _ => ⟨S200000x128, .f32⟩

abbrev hbmTy0_16 (i : Nat) : BufTy := match i % 128 with
  | 0 => ⟨S200000, .i32⟩
  | 1 => ⟨S200000, .i32⟩
  | 2 => ⟨S200000x1, .i32⟩
  | 3 => ⟨S_, .i32⟩
  | 4 => ⟨S200000x1, .i32⟩
  | 5 => ⟨S200000x2, .i32⟩
  | 6 => ⟨S200000x20, .bf16⟩
  | 7 => ⟨S200000x20, .f32⟩
  | 8 => ⟨S200000x20, .f32⟩
  | 9 => ⟨S_, .i32⟩
  | 10 => ⟨S200000, .i32⟩
  | 11 => ⟨S200000, .i1⟩
  | 12 => ⟨S_, .i32⟩
  | 13 => ⟨S200000, .i32⟩
  | 14 => ⟨S200000, .i32⟩
  | 15 => ⟨S200000, .i32⟩
  | 16 => ⟨S200000x1, .i32⟩
  | 17 => ⟨S_, .i32⟩
  | 18 => ⟨S200000x1, .i32⟩
  | 19 => ⟨S200000x2, .i32⟩
  | 20 => ⟨S200000x20, .bf16⟩
  | 21 => ⟨S200000x20, .f32⟩
  | 22 => ⟨S200000x20, .f32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S_, .i32⟩
  | 32 => ⟨S200000x1, .i32⟩
  | 33 => ⟨S200000x2, .i32⟩
  | 34 => ⟨S200000x20, .bf16⟩
  | 35 => ⟨S200000x20, .f32⟩
  | 36 => ⟨S200000x20, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S_, .i32⟩
  | 46 => ⟨S200000x1, .i32⟩
  | 47 => ⟨S200000x2, .i32⟩
  | 48 => ⟨S200000x20, .bf16⟩
  | 49 => ⟨S200000x20, .f32⟩
  | 50 => ⟨S200000x20, .f32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S_, .i32⟩
  | 60 => ⟨S200000x1, .i32⟩
  | 61 => ⟨S200000x2, .i32⟩
  | 62 => ⟨S200000x20, .bf16⟩
  | 63 => ⟨S200000x20, .f32⟩
  | 64 => ⟨S200000x20, .f32⟩
  | 65 => ⟨S_, .i32⟩
  | 66 => ⟨S200000, .i32⟩
  | 67 => ⟨S200000, .i1⟩
  | 68 => ⟨S_, .i32⟩
  | 69 => ⟨S200000, .i32⟩
  | 70 => ⟨S200000, .i32⟩
  | 71 => ⟨S200000, .i32⟩
  | 72 => ⟨S200000x1, .i32⟩
  | 73 => ⟨S_, .i32⟩
  | 74 => ⟨S200000x1, .i32⟩
  | 75 => ⟨S200000x2, .i32⟩
  | 76 => ⟨S200000x20, .bf16⟩
  | 77 => ⟨S200000x20, .f32⟩
  | 78 => ⟨S200000x20, .f32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S200000x1, .i32⟩
  | 87 => ⟨S_, .i32⟩
  | 88 => ⟨S200000x1, .i32⟩
  | 89 => ⟨S200000x2, .i32⟩
  | 90 => ⟨S200000x20, .bf16⟩
  | 91 => ⟨S200000x20, .f32⟩
  | 92 => ⟨S200000x20, .f32⟩
  | 93 => ⟨S_, .i32⟩
  | 94 => ⟨S200000, .i32⟩
  | 95 => ⟨S200000, .i1⟩
  | 96 => ⟨S_, .i32⟩
  | 97 => ⟨S200000, .i32⟩
  | 98 => ⟨S200000, .i32⟩
  | 99 => ⟨S200000, .i32⟩
  | 100 => ⟨S200000x1, .i32⟩
  | 101 => ⟨S_, .i32⟩
  | 102 => ⟨S200000x1, .i32⟩
  | 103 => ⟨S200000x2, .i32⟩
  | 104 => ⟨S200000x20, .bf16⟩
  | 105 => ⟨S200000x20, .f32⟩
  | 106 => ⟨S200000x20, .f32⟩
  | 107 => ⟨S_, .i32⟩
  | 108 => ⟨S200000, .i32⟩
  | 109 => ⟨S200000, .i1⟩
  | 110 => ⟨S_, .i32⟩
  | 111 => ⟨S200000, .i32⟩
  | 112 => ⟨S200000, .i32⟩
  | 113 => ⟨S200000, .i32⟩
  | 114 => ⟨S200000x1, .i32⟩
  | 115 => ⟨S_, .i32⟩
  | 116 => ⟨S200000x1, .i32⟩
  | 117 => ⟨S200000x2, .i32⟩
  | 118 => ⟨S200000x20, .bf16⟩
  | 119 => ⟨S200000x20, .f32⟩
  | 120 => ⟨S200000x20, .f32⟩
  | 121 => ⟨S_, .i32⟩
  | 122 => ⟨S200000, .i32⟩
  | 123 => ⟨S200000, .i1⟩
  | 124 => ⟨S_, .i32⟩
  | 125 => ⟨S200000, .i32⟩
  | 126 => ⟨S200000, .i32⟩
  | 127 => ⟨S200000, .i32⟩
  | _ => ⟨S200000x128, .f32⟩

abbrev hbmTy0_17 (i : Nat) : BufTy := match i % 128 with
  | 0 => ⟨S200000x1, .i32⟩
  | 1 => ⟨S_, .i32⟩
  | 2 => ⟨S200000x1, .i32⟩
  | 3 => ⟨S200000x2, .i32⟩
  | 4 => ⟨S200000x20, .bf16⟩
  | 5 => ⟨S200000x20, .f32⟩
  | 6 => ⟨S200000x20, .f32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S_, .i32⟩
  | 16 => ⟨S200000x1, .i32⟩
  | 17 => ⟨S200000x2, .i32⟩
  | 18 => ⟨S200000x20, .bf16⟩
  | 19 => ⟨S200000x20, .f32⟩
  | 20 => ⟨S200000x20, .f32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S_, .i32⟩
  | 30 => ⟨S200000x1, .i32⟩
  | 31 => ⟨S200000x2, .i32⟩
  | 32 => ⟨S200000x20, .bf16⟩
  | 33 => ⟨S200000x20, .f32⟩
  | 34 => ⟨S200000x20, .f32⟩
  | 35 => ⟨S_, .i32⟩
  | 36 => ⟨S200000, .i32⟩
  | 37 => ⟨S200000, .i1⟩
  | 38 => ⟨S_, .i32⟩
  | 39 => ⟨S200000, .i32⟩
  | 40 => ⟨S200000, .i32⟩
  | 41 => ⟨S200000, .i32⟩
  | 42 => ⟨S200000x1, .i32⟩
  | 43 => ⟨S_, .i32⟩
  | 44 => ⟨S200000x1, .i32⟩
  | 45 => ⟨S200000x2, .i32⟩
  | 46 => ⟨S200000x20, .bf16⟩
  | 47 => ⟨S200000x20, .f32⟩
  | 48 => ⟨S200000x20, .f32⟩
  | 49 => ⟨S_, .i32⟩
  | 50 => ⟨S200000, .i32⟩
  | 51 => ⟨S200000, .i1⟩
  | 52 => ⟨S_, .i32⟩
  | 53 => ⟨S200000, .i32⟩
  | 54 => ⟨S200000, .i32⟩
  | 55 => ⟨S200000, .i32⟩
  | 56 => ⟨S200000x1, .i32⟩
  | 57 => ⟨S_, .i32⟩
  | 58 => ⟨S200000x1, .i32⟩
  | 59 => ⟨S200000x2, .i32⟩
  | 60 => ⟨S200000x20, .bf16⟩
  | 61 => ⟨S200000x20, .f32⟩
  | 62 => ⟨S200000x20, .f32⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S_, .i32⟩
  | 72 => ⟨S200000x1, .i32⟩
  | 73 => ⟨S200000x2, .i32⟩
  | 74 => ⟨S200000x20, .bf16⟩
  | 75 => ⟨S200000x20, .f32⟩
  | 76 => ⟨S200000x20, .f32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S_, .i32⟩
  | 86 => ⟨S200000x1, .i32⟩
  | 87 => ⟨S200000x2, .i32⟩
  | 88 => ⟨S200000x20, .bf16⟩
  | 89 => ⟨S200000x20, .f32⟩
  | 90 => ⟨S200000x20, .f32⟩
  | 91 => ⟨S_, .i32⟩
  | 92 => ⟨S200000, .i32⟩
  | 93 => ⟨S200000, .i1⟩
  | 94 => ⟨S_, .i32⟩
  | 95 => ⟨S200000, .i32⟩
  | 96 => ⟨S200000, .i32⟩
  | 97 => ⟨S200000, .i32⟩
  | 98 => ⟨S200000x1, .i32⟩
  | 99 => ⟨S_, .i32⟩
  | 100 => ⟨S200000x1, .i32⟩
  | 101 => ⟨S200000x2, .i32⟩
  | 102 => ⟨S200000x20, .bf16⟩
  | 103 => ⟨S200000x20, .f32⟩
  | 104 => ⟨S200000x20, .f32⟩
  | 105 => ⟨S_, .i32⟩
  | 106 => ⟨S200000, .i32⟩
  | 107 => ⟨S200000, .i1⟩
  | 108 => ⟨S_, .i32⟩
  | 109 => ⟨S200000, .i32⟩
  | 110 => ⟨S200000, .i32⟩
  | 111 => ⟨S200000, .i32⟩
  | 112 => ⟨S200000x1, .i32⟩
  | 113 => ⟨S_, .i32⟩
  | 114 => ⟨S200000x1, .i32⟩
  | 115 => ⟨S200000x2, .i32⟩
  | 116 => ⟨S200000x20, .bf16⟩
  | 117 => ⟨S200000x20, .f32⟩
  | 118 => ⟨S200000x20, .f32⟩
  | 119 => ⟨S_, .i32⟩
  | 120 => ⟨S200000, .i32⟩
  | 121 => ⟨S200000, .i1⟩
  | 122 => ⟨S_, .i32⟩
  | 123 => ⟨S200000, .i32⟩
  | 124 => ⟨S200000, .i32⟩
  | 125 => ⟨S200000, .i32⟩
  | 126 => ⟨S200000x1, .i32⟩
  | 127 => ⟨S_, .i32⟩
  | _ => ⟨S200000x128, .f32⟩

abbrev hbmTy0_18 (i : Nat) : BufTy := match i % 128 with
  | 0 => ⟨S200000x1, .i32⟩
  | 1 => ⟨S200000x2, .i32⟩
  | 2 => ⟨S200000x20, .bf16⟩
  | 3 => ⟨S200000x20, .f32⟩
  | 4 => ⟨S200000x20, .f32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S_, .i32⟩
  | 14 => ⟨S200000x1, .i32⟩
  | 15 => ⟨S200000x2, .i32⟩
  | 16 => ⟨S200000x20, .bf16⟩
  | 17 => ⟨S200000x20, .f32⟩
  | 18 => ⟨S200000x20, .f32⟩
  | 19 => ⟨S_, .i32⟩
  | 20 => ⟨S200000, .i32⟩
  | 21 => ⟨S200000, .i1⟩
  | 22 => ⟨S_, .i32⟩
  | 23 => ⟨S200000, .i32⟩
  | 24 => ⟨S200000, .i32⟩
  | 25 => ⟨S200000, .i32⟩
  | 26 => ⟨S200000x1, .i32⟩
  | 27 => ⟨S_, .i32⟩
  | 28 => ⟨S200000x1, .i32⟩
  | 29 => ⟨S200000x2, .i32⟩
  | 30 => ⟨S200000x20, .bf16⟩
  | 31 => ⟨S200000x20, .f32⟩
  | 32 => ⟨S200000x20, .f32⟩
  | _ => ⟨S200000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | _ => ⟨S200000x128, .f32⟩

abbrev bufTy : (tb : Table) → Fin (tcTables nBuf tb) → BufTy
  | .hbm, ⟨i, _⟩ => hbmTy i
  | .local _ .vmem, ⟨0, _⟩ => ⟨S4000x128, .bf16⟩
  | .local _ .vmem, ⟨1, _⟩ => ⟨S4000x128, .bf16⟩
  | .local _ .vmem, ⟨2, _⟩ => ⟨S128x640, .bf16⟩
  | .local _ .vmem, ⟨3, _⟩ => ⟨S4000x640, .bf16⟩
  | .local _ .vmem, ⟨4, _⟩ => ⟨S4000x640, .bf16⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_c_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_14 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_15 : Ref sig .tc := ⟨.hbm, 76, rfl⟩
abbrev main_c_16 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_v56 : Ref sig .tc := ⟨.hbm, 83, rfl⟩
abbrev main_c_17 : Ref sig .tc := ⟨.hbm, 84, rfl⟩
abbrev main_v57 : Ref sig .tc := ⟨.hbm, 85, rfl⟩
abbrev main_v58 : Ref sig .tc := ⟨.hbm, 86, rfl⟩
abbrev main_c_18 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_19 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_20 : Ref sig .tc := ⟨.hbm, 97, rfl⟩
abbrev main_call1_v0 : Ref sig .tc := ⟨.hbm, 98, rfl⟩
abbrev main_call1_v1 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_21 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_22 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_23 : Ref sig .tc := ⟨.hbm, 113, rfl⟩
abbrev main_v78 : Ref sig .tc := ⟨.hbm, 114, rfl⟩
abbrev main_v79 : Ref sig .tc := ⟨.hbm, 115, rfl⟩
abbrev main_c_24 : Ref sig .tc := ⟨.hbm, 116, rfl⟩
abbrev main_v80 : Ref sig .tc := ⟨.hbm, 117, rfl⟩
abbrev main_v81 : Ref sig .tc := ⟨.hbm, 118, rfl⟩
abbrev main_c_25 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_26 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_27 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_28 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_29 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_c_30 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_31 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_c_32 : Ref sig .tc := ⟨.hbm, 147, rfl⟩
abbrev main_c_33 : Ref sig .tc := ⟨.hbm, 148, rfl⟩
abbrev main_call2_v0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_v103 : Ref sig .tc := ⟨.hbm, 154, rfl⟩
abbrev main_c_34 : Ref sig .tc := ⟨.hbm, 155, rfl⟩
abbrev main_v104 : Ref sig .tc := ⟨.hbm, 156, rfl⟩
abbrev main_v105 : Ref sig .tc := ⟨.hbm, 157, rfl⟩
abbrev main_c_35 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_c_36 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_c_37 : Ref sig .tc := ⟨.hbm, 168, rfl⟩
abbrev main_call3_v0 : Ref sig .tc := ⟨.hbm, 169, rfl⟩
abbrev main_call3_v1 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_c_38 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_c_39 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_c_40 : Ref sig .tc := ⟨.hbm, 184, rfl⟩
abbrev main_v125 : Ref sig .tc := ⟨.hbm, 185, rfl⟩
abbrev main_v126 : Ref sig .tc := ⟨.hbm, 186, rfl⟩
abbrev main_c_41 : Ref sig .tc := ⟨.hbm, 187, rfl⟩
abbrev main_v127 : Ref sig .tc := ⟨.hbm, 188, rfl⟩
abbrev main_v128 : Ref sig .tc := ⟨.hbm, 189, rfl⟩
abbrev main_c_42 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_c_43 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_c_44 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_c_45 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_c_46 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_c_47 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_c_48 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_c_49 : Ref sig .tc := ⟨.hbm, 218, rfl⟩
abbrev main_c_50 : Ref sig .tc := ⟨.hbm, 219, rfl⟩
abbrev main_call4_v0 : Ref sig .tc := ⟨.hbm, 220, rfl⟩
abbrev main_call4_v1 : Ref sig .tc := ⟨.hbm, 221, rfl⟩
abbrev main_call4_v2 : Ref sig .tc := ⟨.hbm, 222, rfl⟩
abbrev main_call4_v3 : Ref sig .tc := ⟨.hbm, 223, rfl⟩
abbrev main_call4_v4 : Ref sig .tc := ⟨.hbm, 224, rfl⟩
abbrev main_v150 : Ref sig .tc := ⟨.hbm, 225, rfl⟩
abbrev main_c_51 : Ref sig .tc := ⟨.hbm, 226, rfl⟩
abbrev main_v151 : Ref sig .tc := ⟨.hbm, 227, rfl⟩
abbrev main_v152 : Ref sig .tc := ⟨.hbm, 228, rfl⟩
abbrev main_c_52 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_c_53 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_c_54 : Ref sig .tc := ⟨.hbm, 239, rfl⟩
abbrev main_call5_v0 : Ref sig .tc := ⟨.hbm, 240, rfl⟩
abbrev main_call5_v1 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_c_55 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_c_56 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_c_57 : Ref sig .tc := ⟨.hbm, 255, rfl⟩
abbrev main_v172 : Ref sig .tc := ⟨.hbm, 256, rfl⟩
abbrev main_v173 : Ref sig .tc := ⟨.hbm, 257, rfl⟩
abbrev main_c_58 : Ref sig .tc := ⟨.hbm, 258, rfl⟩
abbrev main_v174 : Ref sig .tc := ⟨.hbm, 259, rfl⟩
abbrev main_v175 : Ref sig .tc := ⟨.hbm, 260, rfl⟩
abbrev main_c_59 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_c_60 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_c_61 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_c_62 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_c_63 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_c_64 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_c_65 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_c_66 : Ref sig .tc := ⟨.hbm, 289, rfl⟩
abbrev main_c_67 : Ref sig .tc := ⟨.hbm, 290, rfl⟩
abbrev main_call6_v0 : Ref sig .tc := ⟨.hbm, 291, rfl⟩
abbrev main_call6_v1 : Ref sig .tc := ⟨.hbm, 292, rfl⟩
abbrev main_call6_v2 : Ref sig .tc := ⟨.hbm, 293, rfl⟩
abbrev main_call6_v3 : Ref sig .tc := ⟨.hbm, 294, rfl⟩
abbrev main_call6_v4 : Ref sig .tc := ⟨.hbm, 295, rfl⟩
abbrev main_v197 : Ref sig .tc := ⟨.hbm, 296, rfl⟩
abbrev main_c_68 : Ref sig .tc := ⟨.hbm, 297, rfl⟩
abbrev main_v198 : Ref sig .tc := ⟨.hbm, 298, rfl⟩
abbrev main_v199 : Ref sig .tc := ⟨.hbm, 299, rfl⟩
abbrev main_c_69 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_c_70 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_c_71 : Ref sig .tc := ⟨.hbm, 310, rfl⟩
abbrev main_call7_v0 : Ref sig .tc := ⟨.hbm, 311, rfl⟩
abbrev main_call7_v1 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_c_72 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_c_73 : Ref sig .tc := ⟨.hbm, 321, rfl⟩
abbrev main_v215 : Ref sig .tc := ⟨.hbm, 322, rfl⟩
abbrev main_v216 : Ref sig .tc := ⟨.hbm, 323, rfl⟩
abbrev main_v217 : Ref sig .tc := ⟨.hbm, 324, rfl⟩
abbrev main_v218 : Ref sig .tc := ⟨.hbm, 325, rfl⟩
abbrev main_c_74 : Ref sig .tc := ⟨.hbm, 326, rfl⟩
abbrev main_v219 : Ref sig .tc := ⟨.hbm, 327, rfl⟩
abbrev main_v220 : Ref sig .tc := ⟨.hbm, 328, rfl⟩
abbrev main_c_75 : Ref sig .tc := ⟨.hbm, 329, rfl⟩
abbrev main_v221 : Ref sig .tc := ⟨.hbm, 330, rfl⟩
abbrev main_v222 : Ref sig .tc := ⟨.hbm, 331, rfl⟩
abbrev main_c_76 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_c_77 : Ref sig .tc := ⟨.hbm, 336, rfl⟩
abbrev main_v226 : Ref sig .tc := ⟨.hbm, 337, rfl⟩
abbrev main_v227 : Ref sig .tc := ⟨.hbm, 338, rfl⟩
abbrev main_v228 : Ref sig .tc := ⟨.hbm, 339, rfl⟩
abbrev main_c_78 : Ref sig .tc := ⟨.hbm, 340, rfl⟩
abbrev main_v229 : Ref sig .tc := ⟨.hbm, 341, rfl⟩
abbrev main_v230 : Ref sig .tc := ⟨.hbm, 342, rfl⟩
abbrev main_v231 : Ref sig .tc := ⟨.hbm, 343, rfl⟩
abbrev main_c_79 : Ref sig .tc := ⟨.hbm, 344, rfl⟩
abbrev main_v232 : Ref sig .tc := ⟨.hbm, 345, rfl⟩
abbrev main_v233 : Ref sig .tc := ⟨.hbm, 346, rfl⟩
abbrev main_v234 : Ref sig .tc := ⟨.hbm, 347, rfl⟩
abbrev main_c_80 : Ref sig .tc := ⟨.hbm, 348, rfl⟩
abbrev main_v235 : Ref sig .tc := ⟨.hbm, 349, rfl⟩
abbrev main_v236 : Ref sig .tc := ⟨.hbm, 350, rfl⟩
abbrev main_v237 : Ref sig .tc := ⟨.hbm, 351, rfl⟩
abbrev main_c_81 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_c_82 : Ref sig .tc := ⟨.hbm, 356, rfl⟩
abbrev main_v241 : Ref sig .tc := ⟨.hbm, 357, rfl⟩
abbrev main_v242 : Ref sig .tc := ⟨.hbm, 358, rfl⟩
abbrev main_v243 : Ref sig .tc := ⟨.hbm, 359, rfl⟩
abbrev main_c_83 : Ref sig .tc := ⟨.hbm, 360, rfl⟩
abbrev main_c_84 : Ref sig .tc := ⟨.hbm, 361, rfl⟩
abbrev main_call8_v0 : Ref sig .tc := ⟨.hbm, 362, rfl⟩
abbrev main_call8_v1 : Ref sig .tc := ⟨.hbm, 363, rfl⟩
abbrev main_call8_v2 : Ref sig .tc := ⟨.hbm, 364, rfl⟩
abbrev main_call8_v3 : Ref sig .tc := ⟨.hbm, 365, rfl⟩
abbrev main_call8_v4 : Ref sig .tc := ⟨.hbm, 366, rfl⟩
abbrev main_v244 : Ref sig .tc := ⟨.hbm, 367, rfl⟩
abbrev main_c_85 : Ref sig .tc := ⟨.hbm, 368, rfl⟩
abbrev main_v245 : Ref sig .tc := ⟨.hbm, 369, rfl⟩
abbrev main_v246 : Ref sig .tc := ⟨.hbm, 370, rfl⟩
abbrev main_c_86 : Ref sig .tc := ⟨.hbm, 371, rfl⟩
abbrev main_v247 : Ref sig .tc := ⟨.hbm, 372, rfl⟩
abbrev main_v248 : Ref sig .tc := ⟨.hbm, 373, rfl⟩
abbrev main_v249 : Ref sig .tc := ⟨.hbm, 374, rfl⟩
abbrev main_v250 : Ref sig .tc := ⟨.hbm, 375, rfl⟩
abbrev main_v251 : Ref sig .tc := ⟨.hbm, 376, rfl⟩
abbrev main_c_87 : Ref sig .tc := ⟨.hbm, 377, rfl⟩
abbrev main_v252 : Ref sig .tc := ⟨.hbm, 378, rfl⟩
abbrev main_v253 : Ref sig .tc := ⟨.hbm, 379, rfl⟩
abbrev main_v254 : Ref sig .tc := ⟨.hbm, 380, rfl⟩
abbrev main_c_88 : Ref sig .tc := ⟨.hbm, 381, rfl⟩
abbrev main_call9_v0 : Ref sig .tc := ⟨.hbm, 382, rfl⟩
abbrev main_call9_v1 : Ref sig .tc := ⟨.hbm, 383, rfl⟩
abbrev main_v255 : Ref sig .tc := ⟨.hbm, 384, rfl⟩
abbrev main_v256 : Ref sig .tc := ⟨.hbm, 385, rfl⟩
abbrev main_v257 : Ref sig .tc := ⟨.hbm, 386, rfl⟩
abbrev main_c_89 : Ref sig .tc := ⟨.hbm, 387, rfl⟩
abbrev main_v258 : Ref sig .tc := ⟨.hbm, 388, rfl⟩
abbrev main_v259 : Ref sig .tc := ⟨.hbm, 389, rfl⟩
abbrev main_v260 : Ref sig .tc := ⟨.hbm, 390, rfl⟩
abbrev main_v261 : Ref sig .tc := ⟨.hbm, 391, rfl⟩
abbrev main_c_90 : Ref sig .tc := ⟨.hbm, 392, rfl⟩
abbrev main_v262 : Ref sig .tc := ⟨.hbm, 393, rfl⟩
abbrev main_v263 : Ref sig .tc := ⟨.hbm, 394, rfl⟩
abbrev main_v264 : Ref sig .tc := ⟨.hbm, 395, rfl⟩
abbrev main_v265 : Ref sig .tc := ⟨.hbm, 396, rfl⟩
abbrev main_c_91 : Ref sig .tc := ⟨.hbm, 397, rfl⟩
abbrev main_v266 : Ref sig .tc := ⟨.hbm, 398, rfl⟩
abbrev main_v267 : Ref sig .tc := ⟨.hbm, 399, rfl⟩
abbrev main_c_92 : Ref sig .tc := ⟨.hbm, 400, rfl⟩
abbrev main_v268 : Ref sig .tc := ⟨.hbm, 401, rfl⟩
abbrev main_v269 : Ref sig .tc := ⟨.hbm, 402, rfl⟩
abbrev main_c_93 : Ref sig .tc := ⟨.hbm, 403, rfl⟩
abbrev main_v270 : Ref sig .tc := ⟨.hbm, 404, rfl⟩
abbrev main_v271 : Ref sig .tc := ⟨.hbm, 405, rfl⟩
abbrev main_v272 : Ref sig .tc := ⟨.hbm, 406, rfl⟩
abbrev main_c_94 : Ref sig .tc := ⟨.hbm, 407, rfl⟩
abbrev main_v273 : Ref sig .tc := ⟨.hbm, 408, rfl⟩
abbrev main_v274 : Ref sig .tc := ⟨.hbm, 409, rfl⟩
abbrev main_v275 : Ref sig .tc := ⟨.hbm, 410, rfl⟩
abbrev main_c_95 : Ref sig .tc := ⟨.hbm, 411, rfl⟩
abbrev main_v276 : Ref sig .tc := ⟨.hbm, 412, rfl⟩
abbrev main_v277 : Ref sig .tc := ⟨.hbm, 413, rfl⟩
abbrev main_v278 : Ref sig .tc := ⟨.hbm, 414, rfl⟩
abbrev main_c_96 : Ref sig .tc := ⟨.hbm, 415, rfl⟩
abbrev main_v279 : Ref sig .tc := ⟨.hbm, 416, rfl⟩
abbrev main_v280 : Ref sig .tc := ⟨.hbm, 417, rfl⟩
abbrev main_v281 : Ref sig .tc := ⟨.hbm, 418, rfl⟩
abbrev main_c_97 : Ref sig .tc := ⟨.hbm, 419, rfl⟩
abbrev main_v282 : Ref sig .tc := ⟨.hbm, 420, rfl⟩
abbrev main_v283 : Ref sig .tc := ⟨.hbm, 421, rfl⟩
abbrev main_v284 : Ref sig .tc := ⟨.hbm, 422, rfl⟩
abbrev main_c_98 : Ref sig .tc := ⟨.hbm, 423, rfl⟩
abbrev main_v285 : Ref sig .tc := ⟨.hbm, 424, rfl⟩
abbrev main_v286 : Ref sig .tc := ⟨.hbm, 425, rfl⟩
abbrev main_v287 : Ref sig .tc := ⟨.hbm, 426, rfl⟩
abbrev main_c_99 : Ref sig .tc := ⟨.hbm, 427, rfl⟩
abbrev main_v288 : Ref sig .tc := ⟨.hbm, 428, rfl⟩
abbrev main_v289 : Ref sig .tc := ⟨.hbm, 429, rfl⟩
abbrev main_v290 : Ref sig .tc := ⟨.hbm, 430, rfl⟩
abbrev main_c_100 : Ref sig .tc := ⟨.hbm, 431, rfl⟩
abbrev main_c_101 : Ref sig .tc := ⟨.hbm, 432, rfl⟩
abbrev main_call10_v0 : Ref sig .tc := ⟨.hbm, 433, rfl⟩
abbrev main_call10_v1 : Ref sig .tc := ⟨.hbm, 434, rfl⟩
abbrev main_call10_v2 : Ref sig .tc := ⟨.hbm, 435, rfl⟩
abbrev main_call10_v3 : Ref sig .tc := ⟨.hbm, 436, rfl⟩
abbrev main_call10_v4 : Ref sig .tc := ⟨.hbm, 437, rfl⟩
abbrev main_v291 : Ref sig .tc := ⟨.hbm, 438, rfl⟩
abbrev main_c_102 : Ref sig .tc := ⟨.hbm, 439, rfl⟩
abbrev main_v292 : Ref sig .tc := ⟨.hbm, 440, rfl⟩
abbrev main_v293 : Ref sig .tc := ⟨.hbm, 441, rfl⟩
abbrev main_c_103 : Ref sig .tc := ⟨.hbm, 442, rfl⟩
abbrev main_v294 : Ref sig .tc := ⟨.hbm, 443, rfl⟩
abbrev main_v295 : Ref sig .tc := ⟨.hbm, 444, rfl⟩
abbrev main_v296 : Ref sig .tc := ⟨.hbm, 445, rfl⟩
abbrev main_v297 : Ref sig .tc := ⟨.hbm, 446, rfl⟩
abbrev main_v298 : Ref sig .tc := ⟨.hbm, 447, rfl⟩
abbrev main_c_104 : Ref sig .tc := ⟨.hbm, 448, rfl⟩
abbrev main_v299 : Ref sig .tc := ⟨.hbm, 449, rfl⟩
abbrev main_v300 : Ref sig .tc := ⟨.hbm, 450, rfl⟩
abbrev main_v301 : Ref sig .tc := ⟨.hbm, 451, rfl⟩
abbrev main_c_105 : Ref sig .tc := ⟨.hbm, 452, rfl⟩
abbrev main_call11_v0 : Ref sig .tc := ⟨.hbm, 453, rfl⟩
abbrev main_call11_v1 : Ref sig .tc := ⟨.hbm, 454, rfl⟩
abbrev main_v302 : Ref sig .tc := ⟨.hbm, 455, rfl⟩
abbrev main_v303 : Ref sig .tc := ⟨.hbm, 456, rfl⟩
abbrev main_v304 : Ref sig .tc := ⟨.hbm, 457, rfl⟩
abbrev main_c_106 : Ref sig .tc := ⟨.hbm, 458, rfl⟩
abbrev main_v305 : Ref sig .tc := ⟨.hbm, 459, rfl⟩
abbrev main_v306 : Ref sig .tc := ⟨.hbm, 460, rfl⟩
abbrev main_v307 : Ref sig .tc := ⟨.hbm, 461, rfl⟩
abbrev main_v308 : Ref sig .tc := ⟨.hbm, 462, rfl⟩
abbrev main_c_107 : Ref sig .tc := ⟨.hbm, 463, rfl⟩
abbrev main_v309 : Ref sig .tc := ⟨.hbm, 464, rfl⟩
abbrev main_v310 : Ref sig .tc := ⟨.hbm, 465, rfl⟩
abbrev main_v311 : Ref sig .tc := ⟨.hbm, 466, rfl⟩
abbrev main_v312 : Ref sig .tc := ⟨.hbm, 467, rfl⟩
abbrev main_c_108 : Ref sig .tc := ⟨.hbm, 468, rfl⟩
abbrev main_v313 : Ref sig .tc := ⟨.hbm, 469, rfl⟩
abbrev main_v314 : Ref sig .tc := ⟨.hbm, 470, rfl⟩
abbrev main_c_109 : Ref sig .tc := ⟨.hbm, 471, rfl⟩
abbrev main_v315 : Ref sig .tc := ⟨.hbm, 472, rfl⟩
abbrev main_v316 : Ref sig .tc := ⟨.hbm, 473, rfl⟩
abbrev main_c_110 : Ref sig .tc := ⟨.hbm, 474, rfl⟩
abbrev main_v317 : Ref sig .tc := ⟨.hbm, 475, rfl⟩
abbrev main_v318 : Ref sig .tc := ⟨.hbm, 476, rfl⟩
abbrev main_v319 : Ref sig .tc := ⟨.hbm, 477, rfl⟩
abbrev main_c_111 : Ref sig .tc := ⟨.hbm, 478, rfl⟩
abbrev main_v320 : Ref sig .tc := ⟨.hbm, 479, rfl⟩
abbrev main_v321 : Ref sig .tc := ⟨.hbm, 480, rfl⟩
abbrev main_v322 : Ref sig .tc := ⟨.hbm, 481, rfl⟩
abbrev main_c_112 : Ref sig .tc := ⟨.hbm, 482, rfl⟩
abbrev main_v323 : Ref sig .tc := ⟨.hbm, 483, rfl⟩
abbrev main_v324 : Ref sig .tc := ⟨.hbm, 484, rfl⟩
abbrev main_v325 : Ref sig .tc := ⟨.hbm, 485, rfl⟩
abbrev main_c_113 : Ref sig .tc := ⟨.hbm, 486, rfl⟩
abbrev main_v326 : Ref sig .tc := ⟨.hbm, 487, rfl⟩
abbrev main_v327 : Ref sig .tc := ⟨.hbm, 488, rfl⟩
abbrev main_v328 : Ref sig .tc := ⟨.hbm, 489, rfl⟩
abbrev main_c_114 : Ref sig .tc := ⟨.hbm, 490, rfl⟩
abbrev main_v329 : Ref sig .tc := ⟨.hbm, 491, rfl⟩
abbrev main_v330 : Ref sig .tc := ⟨.hbm, 492, rfl⟩
abbrev main_v331 : Ref sig .tc := ⟨.hbm, 493, rfl⟩
abbrev main_c_115 : Ref sig .tc := ⟨.hbm, 494, rfl⟩
abbrev main_v332 : Ref sig .tc := ⟨.hbm, 495, rfl⟩
abbrev main_v333 : Ref sig .tc := ⟨.hbm, 496, rfl⟩
abbrev main_v334 : Ref sig .tc := ⟨.hbm, 497, rfl⟩
abbrev main_c_116 : Ref sig .tc := ⟨.hbm, 498, rfl⟩
abbrev main_v335 : Ref sig .tc := ⟨.hbm, 499, rfl⟩
abbrev main_v336 : Ref sig .tc := ⟨.hbm, 500, rfl⟩
abbrev main_v337 : Ref sig .tc := ⟨.hbm, 501, rfl⟩
abbrev main_c_117 : Ref sig .tc := ⟨.hbm, 502, rfl⟩
abbrev main_c_118 : Ref sig .tc := ⟨.hbm, 503, rfl⟩
abbrev main_call12_v0 : Ref sig .tc := ⟨.hbm, 504, rfl⟩
abbrev main_call12_v1 : Ref sig .tc := ⟨.hbm, 505, rfl⟩
abbrev main_call12_v2 : Ref sig .tc := ⟨.hbm, 506, rfl⟩
abbrev main_call12_v3 : Ref sig .tc := ⟨.hbm, 507, rfl⟩
abbrev main_call12_v4 : Ref sig .tc := ⟨.hbm, 508, rfl⟩
abbrev main_v338 : Ref sig .tc := ⟨.hbm, 509, rfl⟩
abbrev main_c_119 : Ref sig .tc := ⟨.hbm, 510, rfl⟩
abbrev main_v339 : Ref sig .tc := ⟨.hbm, 511, rfl⟩
abbrev main_v340 : Ref sig .tc := ⟨.hbm, 512, rfl⟩
abbrev main_c_120 : Ref sig .tc := ⟨.hbm, 513, rfl⟩
abbrev main_v341 : Ref sig .tc := ⟨.hbm, 514, rfl⟩
abbrev main_v342 : Ref sig .tc := ⟨.hbm, 515, rfl⟩
abbrev main_v343 : Ref sig .tc := ⟨.hbm, 516, rfl⟩
abbrev main_v344 : Ref sig .tc := ⟨.hbm, 517, rfl⟩
abbrev main_v345 : Ref sig .tc := ⟨.hbm, 518, rfl⟩
abbrev main_c_121 : Ref sig .tc := ⟨.hbm, 519, rfl⟩
abbrev main_v346 : Ref sig .tc := ⟨.hbm, 520, rfl⟩
abbrev main_v347 : Ref sig .tc := ⟨.hbm, 521, rfl⟩
abbrev main_v348 : Ref sig .tc := ⟨.hbm, 522, rfl⟩
abbrev main_c_122 : Ref sig .tc := ⟨.hbm, 523, rfl⟩
abbrev main_call13_v0 : Ref sig .tc := ⟨.hbm, 524, rfl⟩
abbrev main_call13_v1 : Ref sig .tc := ⟨.hbm, 525, rfl⟩
abbrev main_v349 : Ref sig .tc := ⟨.hbm, 526, rfl⟩
abbrev main_v350 : Ref sig .tc := ⟨.hbm, 527, rfl⟩
abbrev main_v351 : Ref sig .tc := ⟨.hbm, 528, rfl⟩
abbrev main_c_123 : Ref sig .tc := ⟨.hbm, 529, rfl⟩
abbrev main_v352 : Ref sig .tc := ⟨.hbm, 530, rfl⟩
abbrev main_v353 : Ref sig .tc := ⟨.hbm, 531, rfl⟩
abbrev main_v354 : Ref sig .tc := ⟨.hbm, 532, rfl⟩
abbrev main_v355 : Ref sig .tc := ⟨.hbm, 533, rfl⟩
abbrev main_c_124 : Ref sig .tc := ⟨.hbm, 534, rfl⟩
abbrev main_v356 : Ref sig .tc := ⟨.hbm, 535, rfl⟩
abbrev main_v357 : Ref sig .tc := ⟨.hbm, 536, rfl⟩
abbrev main_v358 : Ref sig .tc := ⟨.hbm, 537, rfl⟩
abbrev main_v359 : Ref sig .tc := ⟨.hbm, 538, rfl⟩
abbrev main_c_125 : Ref sig .tc := ⟨.hbm, 539, rfl⟩
abbrev main_v360 : Ref sig .tc := ⟨.hbm, 540, rfl⟩
abbrev main_v361 : Ref sig .tc := ⟨.hbm, 541, rfl⟩
abbrev main_c_126 : Ref sig .tc := ⟨.hbm, 542, rfl⟩
abbrev main_v362 : Ref sig .tc := ⟨.hbm, 543, rfl⟩
abbrev main_v363 : Ref sig .tc := ⟨.hbm, 544, rfl⟩
abbrev main_c_127 : Ref sig .tc := ⟨.hbm, 545, rfl⟩
abbrev main_v364 : Ref sig .tc := ⟨.hbm, 546, rfl⟩
abbrev main_v365 : Ref sig .tc := ⟨.hbm, 547, rfl⟩
abbrev main_v366 : Ref sig .tc := ⟨.hbm, 548, rfl⟩
abbrev main_c_128 : Ref sig .tc := ⟨.hbm, 549, rfl⟩
abbrev main_v367 : Ref sig .tc := ⟨.hbm, 550, rfl⟩
abbrev main_v368 : Ref sig .tc := ⟨.hbm, 551, rfl⟩
abbrev main_v369 : Ref sig .tc := ⟨.hbm, 552, rfl⟩
abbrev main_c_129 : Ref sig .tc := ⟨.hbm, 553, rfl⟩
abbrev main_v370 : Ref sig .tc := ⟨.hbm, 554, rfl⟩
abbrev main_v371 : Ref sig .tc := ⟨.hbm, 555, rfl⟩
abbrev main_v372 : Ref sig .tc := ⟨.hbm, 556, rfl⟩
abbrev main_c_130 : Ref sig .tc := ⟨.hbm, 557, rfl⟩
abbrev main_v373 : Ref sig .tc := ⟨.hbm, 558, rfl⟩
abbrev main_v374 : Ref sig .tc := ⟨.hbm, 559, rfl⟩
abbrev main_v375 : Ref sig .tc := ⟨.hbm, 560, rfl⟩
abbrev main_c_131 : Ref sig .tc := ⟨.hbm, 561, rfl⟩
abbrev main_v376 : Ref sig .tc := ⟨.hbm, 562, rfl⟩
abbrev main_v377 : Ref sig .tc := ⟨.hbm, 563, rfl⟩
abbrev main_v378 : Ref sig .tc := ⟨.hbm, 564, rfl⟩
abbrev main_c_132 : Ref sig .tc := ⟨.hbm, 565, rfl⟩
abbrev main_v379 : Ref sig .tc := ⟨.hbm, 566, rfl⟩
abbrev main_v380 : Ref sig .tc := ⟨.hbm, 567, rfl⟩
abbrev main_v381 : Ref sig .tc := ⟨.hbm, 568, rfl⟩
abbrev main_c_133 : Ref sig .tc := ⟨.hbm, 569, rfl⟩
abbrev main_v382 : Ref sig .tc := ⟨.hbm, 570, rfl⟩
abbrev main_v383 : Ref sig .tc := ⟨.hbm, 571, rfl⟩
abbrev main_v384 : Ref sig .tc := ⟨.hbm, 572, rfl⟩
abbrev main_c_134 : Ref sig .tc := ⟨.hbm, 573, rfl⟩
abbrev main_c_135 : Ref sig .tc := ⟨.hbm, 574, rfl⟩
abbrev main_call14_v0 : Ref sig .tc := ⟨.hbm, 575, rfl⟩
abbrev main_call14_v1 : Ref sig .tc := ⟨.hbm, 576, rfl⟩
abbrev main_call14_v2 : Ref sig .tc := ⟨.hbm, 577, rfl⟩
abbrev main_call14_v3 : Ref sig .tc := ⟨.hbm, 578, rfl⟩
abbrev main_call14_v4 : Ref sig .tc := ⟨.hbm, 579, rfl⟩
abbrev main_v385 : Ref sig .tc := ⟨.hbm, 580, rfl⟩
abbrev main_c_136 : Ref sig .tc := ⟨.hbm, 581, rfl⟩
abbrev main_v386 : Ref sig .tc := ⟨.hbm, 582, rfl⟩
abbrev main_v387 : Ref sig .tc := ⟨.hbm, 583, rfl⟩
abbrev main_c_137 : Ref sig .tc := ⟨.hbm, 584, rfl⟩
abbrev main_v388 : Ref sig .tc := ⟨.hbm, 585, rfl⟩
abbrev main_v389 : Ref sig .tc := ⟨.hbm, 586, rfl⟩
abbrev main_v390 : Ref sig .tc := ⟨.hbm, 587, rfl⟩
abbrev main_v391 : Ref sig .tc := ⟨.hbm, 588, rfl⟩
abbrev main_v392 : Ref sig .tc := ⟨.hbm, 589, rfl⟩
abbrev main_c_138 : Ref sig .tc := ⟨.hbm, 590, rfl⟩
abbrev main_v393 : Ref sig .tc := ⟨.hbm, 591, rfl⟩
abbrev main_v394 : Ref sig .tc := ⟨.hbm, 592, rfl⟩
abbrev main_v395 : Ref sig .tc := ⟨.hbm, 593, rfl⟩
abbrev main_c_139 : Ref sig .tc := ⟨.hbm, 594, rfl⟩
abbrev main_call15_v0 : Ref sig .tc := ⟨.hbm, 595, rfl⟩
abbrev main_call15_v1 : Ref sig .tc := ⟨.hbm, 596, rfl⟩
abbrev main_v396 : Ref sig .tc := ⟨.hbm, 597, rfl⟩
abbrev main_v397 : Ref sig .tc := ⟨.hbm, 598, rfl⟩
abbrev main_v398 : Ref sig .tc := ⟨.hbm, 599, rfl⟩
abbrev main_c_140 : Ref sig .tc := ⟨.hbm, 600, rfl⟩
abbrev main_v399 : Ref sig .tc := ⟨.hbm, 601, rfl⟩
abbrev main_v400 : Ref sig .tc := ⟨.hbm, 602, rfl⟩
abbrev main_v401 : Ref sig .tc := ⟨.hbm, 603, rfl⟩
abbrev main_v402 : Ref sig .tc := ⟨.hbm, 604, rfl⟩
abbrev main_c_141 : Ref sig .tc := ⟨.hbm, 605, rfl⟩
abbrev main_v403 : Ref sig .tc := ⟨.hbm, 606, rfl⟩
abbrev main_v404 : Ref sig .tc := ⟨.hbm, 607, rfl⟩
abbrev main_v405 : Ref sig .tc := ⟨.hbm, 608, rfl⟩
abbrev main_v406 : Ref sig .tc := ⟨.hbm, 609, rfl⟩
abbrev main_c_142 : Ref sig .tc := ⟨.hbm, 610, rfl⟩
abbrev main_v407 : Ref sig .tc := ⟨.hbm, 611, rfl⟩
abbrev main_v408 : Ref sig .tc := ⟨.hbm, 612, rfl⟩
abbrev main_c_143 : Ref sig .tc := ⟨.hbm, 613, rfl⟩
abbrev main_v409 : Ref sig .tc := ⟨.hbm, 614, rfl⟩
abbrev main_v410 : Ref sig .tc := ⟨.hbm, 615, rfl⟩
abbrev main_c_144 : Ref sig .tc := ⟨.hbm, 616, rfl⟩
abbrev main_v411 : Ref sig .tc := ⟨.hbm, 617, rfl⟩
abbrev main_v412 : Ref sig .tc := ⟨.hbm, 618, rfl⟩
abbrev main_v413 : Ref sig .tc := ⟨.hbm, 619, rfl⟩
abbrev main_c_145 : Ref sig .tc := ⟨.hbm, 620, rfl⟩
abbrev main_v414 : Ref sig .tc := ⟨.hbm, 621, rfl⟩
abbrev main_v415 : Ref sig .tc := ⟨.hbm, 622, rfl⟩
abbrev main_v416 : Ref sig .tc := ⟨.hbm, 623, rfl⟩
abbrev main_c_146 : Ref sig .tc := ⟨.hbm, 624, rfl⟩
abbrev main_v417 : Ref sig .tc := ⟨.hbm, 625, rfl⟩
abbrev main_v418 : Ref sig .tc := ⟨.hbm, 626, rfl⟩
abbrev main_v419 : Ref sig .tc := ⟨.hbm, 627, rfl⟩
abbrev main_c_147 : Ref sig .tc := ⟨.hbm, 628, rfl⟩
abbrev main_v420 : Ref sig .tc := ⟨.hbm, 629, rfl⟩
abbrev main_v421 : Ref sig .tc := ⟨.hbm, 630, rfl⟩
abbrev main_v422 : Ref sig .tc := ⟨.hbm, 631, rfl⟩
abbrev main_c_148 : Ref sig .tc := ⟨.hbm, 632, rfl⟩
abbrev main_v423 : Ref sig .tc := ⟨.hbm, 633, rfl⟩
abbrev main_v424 : Ref sig .tc := ⟨.hbm, 634, rfl⟩
abbrev main_v425 : Ref sig .tc := ⟨.hbm, 635, rfl⟩
abbrev main_c_149 : Ref sig .tc := ⟨.hbm, 636, rfl⟩
abbrev main_v426 : Ref sig .tc := ⟨.hbm, 637, rfl⟩
abbrev main_v427 : Ref sig .tc := ⟨.hbm, 638, rfl⟩
abbrev main_v428 : Ref sig .tc := ⟨.hbm, 639, rfl⟩
abbrev main_c_150 : Ref sig .tc := ⟨.hbm, 640, rfl⟩
abbrev main_v429 : Ref sig .tc := ⟨.hbm, 641, rfl⟩
abbrev main_v430 : Ref sig .tc := ⟨.hbm, 642, rfl⟩
abbrev main_v431 : Ref sig .tc := ⟨.hbm, 643, rfl⟩
abbrev main_c_151 : Ref sig .tc := ⟨.hbm, 644, rfl⟩
abbrev main_c_152 : Ref sig .tc := ⟨.hbm, 645, rfl⟩
abbrev main_call16_v0 : Ref sig .tc := ⟨.hbm, 646, rfl⟩
abbrev main_call16_v1 : Ref sig .tc := ⟨.hbm, 647, rfl⟩
abbrev main_call16_v2 : Ref sig .tc := ⟨.hbm, 648, rfl⟩
abbrev main_call16_v3 : Ref sig .tc := ⟨.hbm, 649, rfl⟩
abbrev main_call16_v4 : Ref sig .tc := ⟨.hbm, 650, rfl⟩
abbrev main_v432 : Ref sig .tc := ⟨.hbm, 651, rfl⟩
abbrev main_c_153 : Ref sig .tc := ⟨.hbm, 652, rfl⟩
abbrev main_v433 : Ref sig .tc := ⟨.hbm, 653, rfl⟩
abbrev main_v434 : Ref sig .tc := ⟨.hbm, 654, rfl⟩
abbrev main_c_154 : Ref sig .tc := ⟨.hbm, 655, rfl⟩
abbrev main_v435 : Ref sig .tc := ⟨.hbm, 656, rfl⟩
abbrev main_v436 : Ref sig .tc := ⟨.hbm, 657, rfl⟩
abbrev main_v437 : Ref sig .tc := ⟨.hbm, 658, rfl⟩
abbrev main_v438 : Ref sig .tc := ⟨.hbm, 659, rfl⟩
abbrev main_v439 : Ref sig .tc := ⟨.hbm, 660, rfl⟩
abbrev main_c_155 : Ref sig .tc := ⟨.hbm, 661, rfl⟩
abbrev main_v440 : Ref sig .tc := ⟨.hbm, 662, rfl⟩
abbrev main_v441 : Ref sig .tc := ⟨.hbm, 663, rfl⟩
abbrev main_v442 : Ref sig .tc := ⟨.hbm, 664, rfl⟩
abbrev main_c_156 : Ref sig .tc := ⟨.hbm, 665, rfl⟩
abbrev main_call17_v0 : Ref sig .tc := ⟨.hbm, 666, rfl⟩
abbrev main_call17_v1 : Ref sig .tc := ⟨.hbm, 667, rfl⟩
abbrev main_v443 : Ref sig .tc := ⟨.hbm, 668, rfl⟩
abbrev main_v444 : Ref sig .tc := ⟨.hbm, 669, rfl⟩
abbrev main_v445 : Ref sig .tc := ⟨.hbm, 670, rfl⟩
abbrev main_c_157 : Ref sig .tc := ⟨.hbm, 671, rfl⟩
abbrev main_v446 : Ref sig .tc := ⟨.hbm, 672, rfl⟩
abbrev main_v447 : Ref sig .tc := ⟨.hbm, 673, rfl⟩
abbrev main_v448 : Ref sig .tc := ⟨.hbm, 674, rfl⟩
abbrev main_v449 : Ref sig .tc := ⟨.hbm, 675, rfl⟩
abbrev main_c_158 : Ref sig .tc := ⟨.hbm, 676, rfl⟩
abbrev main_v450 : Ref sig .tc := ⟨.hbm, 677, rfl⟩
abbrev main_v451 : Ref sig .tc := ⟨.hbm, 678, rfl⟩
abbrev main_v452 : Ref sig .tc := ⟨.hbm, 679, rfl⟩
abbrev main_v453 : Ref sig .tc := ⟨.hbm, 680, rfl⟩
abbrev main_c_159 : Ref sig .tc := ⟨.hbm, 681, rfl⟩
abbrev main_v454 : Ref sig .tc := ⟨.hbm, 682, rfl⟩
abbrev main_v455 : Ref sig .tc := ⟨.hbm, 683, rfl⟩
abbrev main_c_160 : Ref sig .tc := ⟨.hbm, 684, rfl⟩
abbrev main_v456 : Ref sig .tc := ⟨.hbm, 685, rfl⟩
abbrev main_v457 : Ref sig .tc := ⟨.hbm, 686, rfl⟩
abbrev main_c_161 : Ref sig .tc := ⟨.hbm, 687, rfl⟩
abbrev main_v458 : Ref sig .tc := ⟨.hbm, 688, rfl⟩
abbrev main_v459 : Ref sig .tc := ⟨.hbm, 689, rfl⟩
abbrev main_v460 : Ref sig .tc := ⟨.hbm, 690, rfl⟩
abbrev main_c_162 : Ref sig .tc := ⟨.hbm, 691, rfl⟩
abbrev main_v461 : Ref sig .tc := ⟨.hbm, 692, rfl⟩
abbrev main_v462 : Ref sig .tc := ⟨.hbm, 693, rfl⟩
abbrev main_v463 : Ref sig .tc := ⟨.hbm, 694, rfl⟩
abbrev main_c_163 : Ref sig .tc := ⟨.hbm, 695, rfl⟩
abbrev main_v464 : Ref sig .tc := ⟨.hbm, 696, rfl⟩
abbrev main_v465 : Ref sig .tc := ⟨.hbm, 697, rfl⟩
abbrev main_v466 : Ref sig .tc := ⟨.hbm, 698, rfl⟩
abbrev main_c_164 : Ref sig .tc := ⟨.hbm, 699, rfl⟩
abbrev main_v467 : Ref sig .tc := ⟨.hbm, 700, rfl⟩
abbrev main_v468 : Ref sig .tc := ⟨.hbm, 701, rfl⟩
abbrev main_v469 : Ref sig .tc := ⟨.hbm, 702, rfl⟩
abbrev main_c_165 : Ref sig .tc := ⟨.hbm, 703, rfl⟩
abbrev main_v470 : Ref sig .tc := ⟨.hbm, 704, rfl⟩
abbrev main_v471 : Ref sig .tc := ⟨.hbm, 705, rfl⟩
abbrev main_v472 : Ref sig .tc := ⟨.hbm, 706, rfl⟩
abbrev main_c_166 : Ref sig .tc := ⟨.hbm, 707, rfl⟩
abbrev main_v473 : Ref sig .tc := ⟨.hbm, 708, rfl⟩
abbrev main_v474 : Ref sig .tc := ⟨.hbm, 709, rfl⟩
abbrev main_v475 : Ref sig .tc := ⟨.hbm, 710, rfl⟩
abbrev main_c_167 : Ref sig .tc := ⟨.hbm, 711, rfl⟩
abbrev main_v476 : Ref sig .tc := ⟨.hbm, 712, rfl⟩
abbrev main_v477 : Ref sig .tc := ⟨.hbm, 713, rfl⟩
abbrev main_v478 : Ref sig .tc := ⟨.hbm, 714, rfl⟩
abbrev main_c_168 : Ref sig .tc := ⟨.hbm, 715, rfl⟩
abbrev main_c_169 : Ref sig .tc := ⟨.hbm, 716, rfl⟩
abbrev main_call18_v0 : Ref sig .tc := ⟨.hbm, 717, rfl⟩
abbrev main_call18_v1 : Ref sig .tc := ⟨.hbm, 718, rfl⟩
abbrev main_call18_v2 : Ref sig .tc := ⟨.hbm, 719, rfl⟩
abbrev main_call18_v3 : Ref sig .tc := ⟨.hbm, 720, rfl⟩
abbrev main_call18_v4 : Ref sig .tc := ⟨.hbm, 721, rfl⟩
abbrev main_v479 : Ref sig .tc := ⟨.hbm, 722, rfl⟩
abbrev main_c_170 : Ref sig .tc := ⟨.hbm, 723, rfl⟩
abbrev main_v480 : Ref sig .tc := ⟨.hbm, 724, rfl⟩
abbrev main_v481 : Ref sig .tc := ⟨.hbm, 725, rfl⟩
abbrev main_c_171 : Ref sig .tc := ⟨.hbm, 726, rfl⟩
abbrev main_v482 : Ref sig .tc := ⟨.hbm, 727, rfl⟩
abbrev main_v483 : Ref sig .tc := ⟨.hbm, 728, rfl⟩
abbrev main_v484 : Ref sig .tc := ⟨.hbm, 729, rfl⟩
abbrev main_v485 : Ref sig .tc := ⟨.hbm, 730, rfl⟩
abbrev main_v486 : Ref sig .tc := ⟨.hbm, 731, rfl⟩
abbrev main_c_172 : Ref sig .tc := ⟨.hbm, 732, rfl⟩
abbrev main_v487 : Ref sig .tc := ⟨.hbm, 733, rfl⟩
abbrev main_v488 : Ref sig .tc := ⟨.hbm, 734, rfl⟩
abbrev main_v489 : Ref sig .tc := ⟨.hbm, 735, rfl⟩
abbrev main_c_173 : Ref sig .tc := ⟨.hbm, 736, rfl⟩
abbrev main_call19_v0 : Ref sig .tc := ⟨.hbm, 737, rfl⟩
abbrev main_call19_v1 : Ref sig .tc := ⟨.hbm, 738, rfl⟩
abbrev main_v490 : Ref sig .tc := ⟨.hbm, 739, rfl⟩
abbrev main_v491 : Ref sig .tc := ⟨.hbm, 740, rfl⟩
abbrev main_v492 : Ref sig .tc := ⟨.hbm, 741, rfl⟩
abbrev main_c_174 : Ref sig .tc := ⟨.hbm, 742, rfl⟩
abbrev main_v493 : Ref sig .tc := ⟨.hbm, 743, rfl⟩
abbrev main_v494 : Ref sig .tc := ⟨.hbm, 744, rfl⟩
abbrev main_v495 : Ref sig .tc := ⟨.hbm, 745, rfl⟩
abbrev main_v496 : Ref sig .tc := ⟨.hbm, 746, rfl⟩
abbrev main_c_175 : Ref sig .tc := ⟨.hbm, 747, rfl⟩
abbrev main_v497 : Ref sig .tc := ⟨.hbm, 748, rfl⟩
abbrev main_v498 : Ref sig .tc := ⟨.hbm, 749, rfl⟩
abbrev main_v499 : Ref sig .tc := ⟨.hbm, 750, rfl⟩
abbrev main_v500 : Ref sig .tc := ⟨.hbm, 751, rfl⟩
abbrev main_c_176 : Ref sig .tc := ⟨.hbm, 752, rfl⟩
abbrev main_v501 : Ref sig .tc := ⟨.hbm, 753, rfl⟩
abbrev main_v502 : Ref sig .tc := ⟨.hbm, 754, rfl⟩
abbrev main_c_177 : Ref sig .tc := ⟨.hbm, 755, rfl⟩
abbrev main_v503 : Ref sig .tc := ⟨.hbm, 756, rfl⟩
abbrev main_v504 : Ref sig .tc := ⟨.hbm, 757, rfl⟩
abbrev main_c_178 : Ref sig .tc := ⟨.hbm, 758, rfl⟩
abbrev main_v505 : Ref sig .tc := ⟨.hbm, 759, rfl⟩
abbrev main_v506 : Ref sig .tc := ⟨.hbm, 760, rfl⟩
abbrev main_v507 : Ref sig .tc := ⟨.hbm, 761, rfl⟩
abbrev main_c_179 : Ref sig .tc := ⟨.hbm, 762, rfl⟩
abbrev main_v508 : Ref sig .tc := ⟨.hbm, 763, rfl⟩
abbrev main_v509 : Ref sig .tc := ⟨.hbm, 764, rfl⟩
abbrev main_v510 : Ref sig .tc := ⟨.hbm, 765, rfl⟩
abbrev main_c_180 : Ref sig .tc := ⟨.hbm, 766, rfl⟩
abbrev main_v511 : Ref sig .tc := ⟨.hbm, 767, rfl⟩
abbrev main_v512 : Ref sig .tc := ⟨.hbm, 768, rfl⟩
abbrev main_v513 : Ref sig .tc := ⟨.hbm, 769, rfl⟩
abbrev main_c_181 : Ref sig .tc := ⟨.hbm, 770, rfl⟩
abbrev main_v514 : Ref sig .tc := ⟨.hbm, 771, rfl⟩
abbrev main_v515 : Ref sig .tc := ⟨.hbm, 772, rfl⟩
abbrev main_v516 : Ref sig .tc := ⟨.hbm, 773, rfl⟩
abbrev main_c_182 : Ref sig .tc := ⟨.hbm, 774, rfl⟩
abbrev main_v517 : Ref sig .tc := ⟨.hbm, 775, rfl⟩
abbrev main_v518 : Ref sig .tc := ⟨.hbm, 776, rfl⟩
abbrev main_v519 : Ref sig .tc := ⟨.hbm, 777, rfl⟩
abbrev main_c_183 : Ref sig .tc := ⟨.hbm, 778, rfl⟩
abbrev main_v520 : Ref sig .tc := ⟨.hbm, 779, rfl⟩
abbrev main_v521 : Ref sig .tc := ⟨.hbm, 780, rfl⟩
abbrev main_v522 : Ref sig .tc := ⟨.hbm, 781, rfl⟩
abbrev main_c_184 : Ref sig .tc := ⟨.hbm, 782, rfl⟩
abbrev main_v523 : Ref sig .tc := ⟨.hbm, 783, rfl⟩
abbrev main_v524 : Ref sig .tc := ⟨.hbm, 784, rfl⟩
abbrev main_v525 : Ref sig .tc := ⟨.hbm, 785, rfl⟩
abbrev main_c_185 : Ref sig .tc := ⟨.hbm, 786, rfl⟩
abbrev main_c_186 : Ref sig .tc := ⟨.hbm, 787, rfl⟩
abbrev main_call20_v0 : Ref sig .tc := ⟨.hbm, 788, rfl⟩
abbrev main_call20_v1 : Ref sig .tc := ⟨.hbm, 789, rfl⟩
abbrev main_call20_v2 : Ref sig .tc := ⟨.hbm, 790, rfl⟩
abbrev main_call20_v3 : Ref sig .tc := ⟨.hbm, 791, rfl⟩
abbrev main_call20_v4 : Ref sig .tc := ⟨.hbm, 792, rfl⟩
abbrev main_v526 : Ref sig .tc := ⟨.hbm, 793, rfl⟩
abbrev main_c_187 : Ref sig .tc := ⟨.hbm, 794, rfl⟩
abbrev main_v527 : Ref sig .tc := ⟨.hbm, 795, rfl⟩
abbrev main_v528 : Ref sig .tc := ⟨.hbm, 796, rfl⟩
abbrev main_c_188 : Ref sig .tc := ⟨.hbm, 797, rfl⟩
abbrev main_v529 : Ref sig .tc := ⟨.hbm, 798, rfl⟩
abbrev main_v530 : Ref sig .tc := ⟨.hbm, 799, rfl⟩
abbrev main_v531 : Ref sig .tc := ⟨.hbm, 800, rfl⟩
abbrev main_v532 : Ref sig .tc := ⟨.hbm, 801, rfl⟩
abbrev main_v533 : Ref sig .tc := ⟨.hbm, 802, rfl⟩
abbrev main_c_189 : Ref sig .tc := ⟨.hbm, 803, rfl⟩
abbrev main_v534 : Ref sig .tc := ⟨.hbm, 804, rfl⟩
abbrev main_v535 : Ref sig .tc := ⟨.hbm, 805, rfl⟩
abbrev main_v536 : Ref sig .tc := ⟨.hbm, 806, rfl⟩
abbrev main_c_190 : Ref sig .tc := ⟨.hbm, 807, rfl⟩
abbrev main_call21_v0 : Ref sig .tc := ⟨.hbm, 808, rfl⟩
abbrev main_call21_v1 : Ref sig .tc := ⟨.hbm, 809, rfl⟩
abbrev main_v537 : Ref sig .tc := ⟨.hbm, 810, rfl⟩
abbrev main_v538 : Ref sig .tc := ⟨.hbm, 811, rfl⟩
abbrev main_v539 : Ref sig .tc := ⟨.hbm, 812, rfl⟩
abbrev main_c_191 : Ref sig .tc := ⟨.hbm, 813, rfl⟩
abbrev main_v540 : Ref sig .tc := ⟨.hbm, 814, rfl⟩
abbrev main_v541 : Ref sig .tc := ⟨.hbm, 815, rfl⟩
abbrev main_v542 : Ref sig .tc := ⟨.hbm, 816, rfl⟩
abbrev main_v543 : Ref sig .tc := ⟨.hbm, 817, rfl⟩
abbrev main_c_192 : Ref sig .tc := ⟨.hbm, 818, rfl⟩
abbrev main_v544 : Ref sig .tc := ⟨.hbm, 819, rfl⟩
abbrev main_v545 : Ref sig .tc := ⟨.hbm, 820, rfl⟩
abbrev main_v546 : Ref sig .tc := ⟨.hbm, 821, rfl⟩
abbrev main_v547 : Ref sig .tc := ⟨.hbm, 822, rfl⟩
abbrev main_c_193 : Ref sig .tc := ⟨.hbm, 823, rfl⟩
abbrev main_v548 : Ref sig .tc := ⟨.hbm, 824, rfl⟩
abbrev main_v549 : Ref sig .tc := ⟨.hbm, 825, rfl⟩
abbrev main_c_194 : Ref sig .tc := ⟨.hbm, 826, rfl⟩
abbrev main_v550 : Ref sig .tc := ⟨.hbm, 827, rfl⟩
abbrev main_v551 : Ref sig .tc := ⟨.hbm, 828, rfl⟩
abbrev main_c_195 : Ref sig .tc := ⟨.hbm, 829, rfl⟩
abbrev main_v552 : Ref sig .tc := ⟨.hbm, 830, rfl⟩
abbrev main_v553 : Ref sig .tc := ⟨.hbm, 831, rfl⟩
abbrev main_v554 : Ref sig .tc := ⟨.hbm, 832, rfl⟩
abbrev main_c_196 : Ref sig .tc := ⟨.hbm, 833, rfl⟩
abbrev main_v555 : Ref sig .tc := ⟨.hbm, 834, rfl⟩
abbrev main_v556 : Ref sig .tc := ⟨.hbm, 835, rfl⟩
abbrev main_v557 : Ref sig .tc := ⟨.hbm, 836, rfl⟩
abbrev main_c_197 : Ref sig .tc := ⟨.hbm, 837, rfl⟩
abbrev main_v558 : Ref sig .tc := ⟨.hbm, 838, rfl⟩
abbrev main_v559 : Ref sig .tc := ⟨.hbm, 839, rfl⟩
abbrev main_v560 : Ref sig .tc := ⟨.hbm, 840, rfl⟩
abbrev main_c_198 : Ref sig .tc := ⟨.hbm, 841, rfl⟩
abbrev main_v561 : Ref sig .tc := ⟨.hbm, 842, rfl⟩
abbrev main_v562 : Ref sig .tc := ⟨.hbm, 843, rfl⟩
abbrev main_v563 : Ref sig .tc := ⟨.hbm, 844, rfl⟩
abbrev main_c_199 : Ref sig .tc := ⟨.hbm, 845, rfl⟩
abbrev main_v564 : Ref sig .tc := ⟨.hbm, 846, rfl⟩
abbrev main_v565 : Ref sig .tc := ⟨.hbm, 847, rfl⟩
abbrev main_v566 : Ref sig .tc := ⟨.hbm, 848, rfl⟩
abbrev main_c_200 : Ref sig .tc := ⟨.hbm, 849, rfl⟩
abbrev main_v567 : Ref sig .tc := ⟨.hbm, 850, rfl⟩
abbrev main_v568 : Ref sig .tc := ⟨.hbm, 851, rfl⟩
abbrev main_v569 : Ref sig .tc := ⟨.hbm, 852, rfl⟩
abbrev main_c_201 : Ref sig .tc := ⟨.hbm, 853, rfl⟩
abbrev main_v570 : Ref sig .tc := ⟨.hbm, 854, rfl⟩
abbrev main_v571 : Ref sig .tc := ⟨.hbm, 855, rfl⟩
abbrev main_v572 : Ref sig .tc := ⟨.hbm, 856, rfl⟩
abbrev main_c_202 : Ref sig .tc := ⟨.hbm, 857, rfl⟩
abbrev main_c_203 : Ref sig .tc := ⟨.hbm, 858, rfl⟩
abbrev main_call22_v0 : Ref sig .tc := ⟨.hbm, 859, rfl⟩
abbrev main_call22_v1 : Ref sig .tc := ⟨.hbm, 860, rfl⟩
abbrev main_call22_v2 : Ref sig .tc := ⟨.hbm, 861, rfl⟩
abbrev main_call22_v3 : Ref sig .tc := ⟨.hbm, 862, rfl⟩
abbrev main_call22_v4 : Ref sig .tc := ⟨.hbm, 863, rfl⟩
abbrev main_v573 : Ref sig .tc := ⟨.hbm, 864, rfl⟩
abbrev main_c_204 : Ref sig .tc := ⟨.hbm, 865, rfl⟩
abbrev main_v574 : Ref sig .tc := ⟨.hbm, 866, rfl⟩
abbrev main_v575 : Ref sig .tc := ⟨.hbm, 867, rfl⟩
abbrev main_c_205 : Ref sig .tc := ⟨.hbm, 868, rfl⟩
abbrev main_v576 : Ref sig .tc := ⟨.hbm, 869, rfl⟩
abbrev main_v577 : Ref sig .tc := ⟨.hbm, 870, rfl⟩
abbrev main_v578 : Ref sig .tc := ⟨.hbm, 871, rfl⟩
abbrev main_v579 : Ref sig .tc := ⟨.hbm, 872, rfl⟩
abbrev main_v580 : Ref sig .tc := ⟨.hbm, 873, rfl⟩
abbrev main_c_206 : Ref sig .tc := ⟨.hbm, 874, rfl⟩
abbrev main_v581 : Ref sig .tc := ⟨.hbm, 875, rfl⟩
abbrev main_v582 : Ref sig .tc := ⟨.hbm, 876, rfl⟩
abbrev main_v583 : Ref sig .tc := ⟨.hbm, 877, rfl⟩
abbrev main_c_207 : Ref sig .tc := ⟨.hbm, 878, rfl⟩
abbrev main_call23_v0 : Ref sig .tc := ⟨.hbm, 879, rfl⟩
abbrev main_call23_v1 : Ref sig .tc := ⟨.hbm, 880, rfl⟩
abbrev main_v584 : Ref sig .tc := ⟨.hbm, 881, rfl⟩
abbrev main_v585 : Ref sig .tc := ⟨.hbm, 882, rfl⟩
abbrev main_v586 : Ref sig .tc := ⟨.hbm, 883, rfl⟩
abbrev main_c_208 : Ref sig .tc := ⟨.hbm, 884, rfl⟩
abbrev main_v587 : Ref sig .tc := ⟨.hbm, 885, rfl⟩
abbrev main_v588 : Ref sig .tc := ⟨.hbm, 886, rfl⟩
abbrev main_v589 : Ref sig .tc := ⟨.hbm, 887, rfl⟩
abbrev main_v590 : Ref sig .tc := ⟨.hbm, 888, rfl⟩
abbrev main_c_209 : Ref sig .tc := ⟨.hbm, 889, rfl⟩
abbrev main_v591 : Ref sig .tc := ⟨.hbm, 890, rfl⟩
abbrev main_v592 : Ref sig .tc := ⟨.hbm, 891, rfl⟩
abbrev main_v593 : Ref sig .tc := ⟨.hbm, 892, rfl⟩
abbrev main_v594 : Ref sig .tc := ⟨.hbm, 893, rfl⟩
abbrev main_c_210 : Ref sig .tc := ⟨.hbm, 894, rfl⟩
abbrev main_v595 : Ref sig .tc := ⟨.hbm, 895, rfl⟩
abbrev main_v596 : Ref sig .tc := ⟨.hbm, 896, rfl⟩
abbrev main_c_211 : Ref sig .tc := ⟨.hbm, 897, rfl⟩
abbrev main_v597 : Ref sig .tc := ⟨.hbm, 898, rfl⟩
abbrev main_v598 : Ref sig .tc := ⟨.hbm, 899, rfl⟩
abbrev main_c_212 : Ref sig .tc := ⟨.hbm, 900, rfl⟩
abbrev main_v599 : Ref sig .tc := ⟨.hbm, 901, rfl⟩
abbrev main_v600 : Ref sig .tc := ⟨.hbm, 902, rfl⟩
abbrev main_v601 : Ref sig .tc := ⟨.hbm, 903, rfl⟩
abbrev main_c_213 : Ref sig .tc := ⟨.hbm, 904, rfl⟩
abbrev main_v602 : Ref sig .tc := ⟨.hbm, 905, rfl⟩
abbrev main_v603 : Ref sig .tc := ⟨.hbm, 906, rfl⟩
abbrev main_v604 : Ref sig .tc := ⟨.hbm, 907, rfl⟩
abbrev main_c_214 : Ref sig .tc := ⟨.hbm, 908, rfl⟩
abbrev main_v605 : Ref sig .tc := ⟨.hbm, 909, rfl⟩
abbrev main_v606 : Ref sig .tc := ⟨.hbm, 910, rfl⟩
abbrev main_v607 : Ref sig .tc := ⟨.hbm, 911, rfl⟩
abbrev main_c_215 : Ref sig .tc := ⟨.hbm, 912, rfl⟩
abbrev main_v608 : Ref sig .tc := ⟨.hbm, 913, rfl⟩
abbrev main_v609 : Ref sig .tc := ⟨.hbm, 914, rfl⟩
abbrev main_v610 : Ref sig .tc := ⟨.hbm, 915, rfl⟩
abbrev main_c_216 : Ref sig .tc := ⟨.hbm, 916, rfl⟩
abbrev main_v611 : Ref sig .tc := ⟨.hbm, 917, rfl⟩
abbrev main_v612 : Ref sig .tc := ⟨.hbm, 918, rfl⟩
abbrev main_v613 : Ref sig .tc := ⟨.hbm, 919, rfl⟩
abbrev main_c_217 : Ref sig .tc := ⟨.hbm, 920, rfl⟩
abbrev main_v614 : Ref sig .tc := ⟨.hbm, 921, rfl⟩
abbrev main_v615 : Ref sig .tc := ⟨.hbm, 922, rfl⟩
abbrev main_v616 : Ref sig .tc := ⟨.hbm, 923, rfl⟩
abbrev main_c_218 : Ref sig .tc := ⟨.hbm, 924, rfl⟩
abbrev main_v617 : Ref sig .tc := ⟨.hbm, 925, rfl⟩
abbrev main_v618 : Ref sig .tc := ⟨.hbm, 926, rfl⟩
abbrev main_v619 : Ref sig .tc := ⟨.hbm, 927, rfl⟩
abbrev main_c_219 : Ref sig .tc := ⟨.hbm, 928, rfl⟩
abbrev main_c_220 : Ref sig .tc := ⟨.hbm, 929, rfl⟩
abbrev main_call24_v0 : Ref sig .tc := ⟨.hbm, 930, rfl⟩
abbrev main_call24_v1 : Ref sig .tc := ⟨.hbm, 931, rfl⟩
abbrev main_call24_v2 : Ref sig .tc := ⟨.hbm, 932, rfl⟩
abbrev main_call24_v3 : Ref sig .tc := ⟨.hbm, 933, rfl⟩
abbrev main_call24_v4 : Ref sig .tc := ⟨.hbm, 934, rfl⟩
abbrev main_v620 : Ref sig .tc := ⟨.hbm, 935, rfl⟩
abbrev main_c_221 : Ref sig .tc := ⟨.hbm, 936, rfl⟩
abbrev main_v621 : Ref sig .tc := ⟨.hbm, 937, rfl⟩
abbrev main_v622 : Ref sig .tc := ⟨.hbm, 938, rfl⟩
abbrev main_c_222 : Ref sig .tc := ⟨.hbm, 939, rfl⟩
abbrev main_v623 : Ref sig .tc := ⟨.hbm, 940, rfl⟩
abbrev main_v624 : Ref sig .tc := ⟨.hbm, 941, rfl⟩
abbrev main_v625 : Ref sig .tc := ⟨.hbm, 942, rfl⟩
abbrev main_v626 : Ref sig .tc := ⟨.hbm, 943, rfl⟩
abbrev main_v627 : Ref sig .tc := ⟨.hbm, 944, rfl⟩
abbrev main_c_223 : Ref sig .tc := ⟨.hbm, 945, rfl⟩
abbrev main_v628 : Ref sig .tc := ⟨.hbm, 946, rfl⟩
abbrev main_v629 : Ref sig .tc := ⟨.hbm, 947, rfl⟩
abbrev main_v630 : Ref sig .tc := ⟨.hbm, 948, rfl⟩
abbrev main_c_224 : Ref sig .tc := ⟨.hbm, 949, rfl⟩
abbrev main_call25_v0 : Ref sig .tc := ⟨.hbm, 950, rfl⟩
abbrev main_call25_v1 : Ref sig .tc := ⟨.hbm, 951, rfl⟩
abbrev main_v631 : Ref sig .tc := ⟨.hbm, 952, rfl⟩
abbrev main_v632 : Ref sig .tc := ⟨.hbm, 953, rfl⟩
abbrev main_v633 : Ref sig .tc := ⟨.hbm, 954, rfl⟩
abbrev main_c_225 : Ref sig .tc := ⟨.hbm, 955, rfl⟩
abbrev main_v634 : Ref sig .tc := ⟨.hbm, 956, rfl⟩
abbrev main_v635 : Ref sig .tc := ⟨.hbm, 957, rfl⟩
abbrev main_v636 : Ref sig .tc := ⟨.hbm, 958, rfl⟩
abbrev main_v637 : Ref sig .tc := ⟨.hbm, 959, rfl⟩
abbrev main_c_226 : Ref sig .tc := ⟨.hbm, 960, rfl⟩
abbrev main_v638 : Ref sig .tc := ⟨.hbm, 961, rfl⟩
abbrev main_v639 : Ref sig .tc := ⟨.hbm, 962, rfl⟩
abbrev main_v640 : Ref sig .tc := ⟨.hbm, 963, rfl⟩
abbrev main_v641 : Ref sig .tc := ⟨.hbm, 964, rfl⟩
abbrev main_c_227 : Ref sig .tc := ⟨.hbm, 965, rfl⟩
abbrev main_v642 : Ref sig .tc := ⟨.hbm, 966, rfl⟩
abbrev main_v643 : Ref sig .tc := ⟨.hbm, 967, rfl⟩
abbrev main_c_228 : Ref sig .tc := ⟨.hbm, 968, rfl⟩
abbrev main_v644 : Ref sig .tc := ⟨.hbm, 969, rfl⟩
abbrev main_v645 : Ref sig .tc := ⟨.hbm, 970, rfl⟩
abbrev main_c_229 : Ref sig .tc := ⟨.hbm, 971, rfl⟩
abbrev main_v646 : Ref sig .tc := ⟨.hbm, 972, rfl⟩
abbrev main_v647 : Ref sig .tc := ⟨.hbm, 973, rfl⟩
abbrev main_v648 : Ref sig .tc := ⟨.hbm, 974, rfl⟩
abbrev main_c_230 : Ref sig .tc := ⟨.hbm, 975, rfl⟩
abbrev main_v649 : Ref sig .tc := ⟨.hbm, 976, rfl⟩
abbrev main_v650 : Ref sig .tc := ⟨.hbm, 977, rfl⟩
abbrev main_v651 : Ref sig .tc := ⟨.hbm, 978, rfl⟩
abbrev main_c_231 : Ref sig .tc := ⟨.hbm, 979, rfl⟩
abbrev main_v652 : Ref sig .tc := ⟨.hbm, 980, rfl⟩
abbrev main_v653 : Ref sig .tc := ⟨.hbm, 981, rfl⟩
abbrev main_v654 : Ref sig .tc := ⟨.hbm, 982, rfl⟩
abbrev main_c_232 : Ref sig .tc := ⟨.hbm, 983, rfl⟩
abbrev main_v655 : Ref sig .tc := ⟨.hbm, 984, rfl⟩
abbrev main_v656 : Ref sig .tc := ⟨.hbm, 985, rfl⟩
abbrev main_v657 : Ref sig .tc := ⟨.hbm, 986, rfl⟩
abbrev main_c_233 : Ref sig .tc := ⟨.hbm, 987, rfl⟩
abbrev main_v658 : Ref sig .tc := ⟨.hbm, 988, rfl⟩
abbrev main_v659 : Ref sig .tc := ⟨.hbm, 989, rfl⟩
abbrev main_v660 : Ref sig .tc := ⟨.hbm, 990, rfl⟩
abbrev main_c_234 : Ref sig .tc := ⟨.hbm, 991, rfl⟩
abbrev main_v661 : Ref sig .tc := ⟨.hbm, 992, rfl⟩
abbrev main_v662 : Ref sig .tc := ⟨.hbm, 993, rfl⟩
abbrev main_v663 : Ref sig .tc := ⟨.hbm, 994, rfl⟩
abbrev main_c_235 : Ref sig .tc := ⟨.hbm, 995, rfl⟩
abbrev main_v664 : Ref sig .tc := ⟨.hbm, 996, rfl⟩
abbrev main_v665 : Ref sig .tc := ⟨.hbm, 997, rfl⟩
abbrev main_v666 : Ref sig .tc := ⟨.hbm, 998, rfl⟩
abbrev main_c_236 : Ref sig .tc := ⟨.hbm, 999, rfl⟩
abbrev main_c_237 : Ref sig .tc := ⟨.hbm, 1000, rfl⟩
abbrev main_call26_v0 : Ref sig .tc := ⟨.hbm, 1001, rfl⟩
abbrev main_call26_v1 : Ref sig .tc := ⟨.hbm, 1002, rfl⟩
abbrev main_call26_v2 : Ref sig .tc := ⟨.hbm, 1003, rfl⟩
abbrev main_call26_v3 : Ref sig .tc := ⟨.hbm, 1004, rfl⟩
abbrev main_call26_v4 : Ref sig .tc := ⟨.hbm, 1005, rfl⟩
abbrev main_v667 : Ref sig .tc := ⟨.hbm, 1006, rfl⟩
abbrev main_c_238 : Ref sig .tc := ⟨.hbm, 1007, rfl⟩
abbrev main_v668 : Ref sig .tc := ⟨.hbm, 1008, rfl⟩
abbrev main_v669 : Ref sig .tc := ⟨.hbm, 1009, rfl⟩
abbrev main_c_239 : Ref sig .tc := ⟨.hbm, 1010, rfl⟩
abbrev main_v670 : Ref sig .tc := ⟨.hbm, 1011, rfl⟩
abbrev main_v671 : Ref sig .tc := ⟨.hbm, 1012, rfl⟩
abbrev main_v672 : Ref sig .tc := ⟨.hbm, 1013, rfl⟩
abbrev main_v673 : Ref sig .tc := ⟨.hbm, 1014, rfl⟩
abbrev main_v674 : Ref sig .tc := ⟨.hbm, 1015, rfl⟩
abbrev main_c_240 : Ref sig .tc := ⟨.hbm, 1016, rfl⟩
abbrev main_v675 : Ref sig .tc := ⟨.hbm, 1017, rfl⟩
abbrev main_v676 : Ref sig .tc := ⟨.hbm, 1018, rfl⟩
abbrev main_v677 : Ref sig .tc := ⟨.hbm, 1019, rfl⟩
abbrev main_c_241 : Ref sig .tc := ⟨.hbm, 1020, rfl⟩
abbrev main_call27_v0 : Ref sig .tc := ⟨.hbm, 1021, rfl⟩
abbrev main_call27_v1 : Ref sig .tc := ⟨.hbm, 1022, rfl⟩
abbrev main_v678 : Ref sig .tc := ⟨.hbm, 1023, rfl⟩
abbrev main_v679 : Ref sig .tc := ⟨.hbm, 1024, rfl⟩
abbrev main_v680 : Ref sig .tc := ⟨.hbm, 1025, rfl⟩
abbrev main_c_242 : Ref sig .tc := ⟨.hbm, 1026, rfl⟩
abbrev main_v681 : Ref sig .tc := ⟨.hbm, 1027, rfl⟩
abbrev main_v682 : Ref sig .tc := ⟨.hbm, 1028, rfl⟩
abbrev main_v683 : Ref sig .tc := ⟨.hbm, 1029, rfl⟩
abbrev main_v684 : Ref sig .tc := ⟨.hbm, 1030, rfl⟩
abbrev main_c_243 : Ref sig .tc := ⟨.hbm, 1031, rfl⟩
abbrev main_v685 : Ref sig .tc := ⟨.hbm, 1032, rfl⟩
abbrev main_v686 : Ref sig .tc := ⟨.hbm, 1033, rfl⟩
abbrev main_v687 : Ref sig .tc := ⟨.hbm, 1034, rfl⟩
abbrev main_v688 : Ref sig .tc := ⟨.hbm, 1035, rfl⟩
abbrev main_c_244 : Ref sig .tc := ⟨.hbm, 1036, rfl⟩
abbrev main_v689 : Ref sig .tc := ⟨.hbm, 1037, rfl⟩
abbrev main_v690 : Ref sig .tc := ⟨.hbm, 1038, rfl⟩
abbrev main_c_245 : Ref sig .tc := ⟨.hbm, 1039, rfl⟩
abbrev main_v691 : Ref sig .tc := ⟨.hbm, 1040, rfl⟩
abbrev main_v692 : Ref sig .tc := ⟨.hbm, 1041, rfl⟩
abbrev main_c_246 : Ref sig .tc := ⟨.hbm, 1042, rfl⟩
abbrev main_v693 : Ref sig .tc := ⟨.hbm, 1043, rfl⟩
abbrev main_v694 : Ref sig .tc := ⟨.hbm, 1044, rfl⟩
abbrev main_v695 : Ref sig .tc := ⟨.hbm, 1045, rfl⟩
abbrev main_c_247 : Ref sig .tc := ⟨.hbm, 1046, rfl⟩
abbrev main_v696 : Ref sig .tc := ⟨.hbm, 1047, rfl⟩
abbrev main_v697 : Ref sig .tc := ⟨.hbm, 1048, rfl⟩
abbrev main_v698 : Ref sig .tc := ⟨.hbm, 1049, rfl⟩
abbrev main_c_248 : Ref sig .tc := ⟨.hbm, 1050, rfl⟩
abbrev main_v699 : Ref sig .tc := ⟨.hbm, 1051, rfl⟩
abbrev main_v700 : Ref sig .tc := ⟨.hbm, 1052, rfl⟩
abbrev main_v701 : Ref sig .tc := ⟨.hbm, 1053, rfl⟩
abbrev main_c_249 : Ref sig .tc := ⟨.hbm, 1054, rfl⟩
abbrev main_v702 : Ref sig .tc := ⟨.hbm, 1055, rfl⟩
abbrev main_v703 : Ref sig .tc := ⟨.hbm, 1056, rfl⟩
abbrev main_v704 : Ref sig .tc := ⟨.hbm, 1057, rfl⟩
abbrev main_c_250 : Ref sig .tc := ⟨.hbm, 1058, rfl⟩
abbrev main_v705 : Ref sig .tc := ⟨.hbm, 1059, rfl⟩
abbrev main_v706 : Ref sig .tc := ⟨.hbm, 1060, rfl⟩
abbrev main_v707 : Ref sig .tc := ⟨.hbm, 1061, rfl⟩
abbrev main_c_251 : Ref sig .tc := ⟨.hbm, 1062, rfl⟩
abbrev main_v708 : Ref sig .tc := ⟨.hbm, 1063, rfl⟩
abbrev main_v709 : Ref sig .tc := ⟨.hbm, 1064, rfl⟩
abbrev main_v710 : Ref sig .tc := ⟨.hbm, 1065, rfl⟩
abbrev main_c_252 : Ref sig .tc := ⟨.hbm, 1066, rfl⟩
abbrev main_v711 : Ref sig .tc := ⟨.hbm, 1067, rfl⟩
abbrev main_v712 : Ref sig .tc := ⟨.hbm, 1068, rfl⟩
abbrev main_v713 : Ref sig .tc := ⟨.hbm, 1069, rfl⟩
abbrev main_c_253 : Ref sig .tc := ⟨.hbm, 1070, rfl⟩
abbrev main_c_254 : Ref sig .tc := ⟨.hbm, 1071, rfl⟩
abbrev main_call28_v0 : Ref sig .tc := ⟨.hbm, 1072, rfl⟩
abbrev main_call28_v1 : Ref sig .tc := ⟨.hbm, 1073, rfl⟩
abbrev main_call28_v2 : Ref sig .tc := ⟨.hbm, 1074, rfl⟩
abbrev main_call28_v3 : Ref sig .tc := ⟨.hbm, 1075, rfl⟩
abbrev main_call28_v4 : Ref sig .tc := ⟨.hbm, 1076, rfl⟩
abbrev main_v714 : Ref sig .tc := ⟨.hbm, 1077, rfl⟩
abbrev main_c_255 : Ref sig .tc := ⟨.hbm, 1078, rfl⟩
abbrev main_v715 : Ref sig .tc := ⟨.hbm, 1079, rfl⟩
abbrev main_v716 : Ref sig .tc := ⟨.hbm, 1080, rfl⟩
abbrev main_c_256 : Ref sig .tc := ⟨.hbm, 1081, rfl⟩
abbrev main_v717 : Ref sig .tc := ⟨.hbm, 1082, rfl⟩
abbrev main_v718 : Ref sig .tc := ⟨.hbm, 1083, rfl⟩
abbrev main_v719 : Ref sig .tc := ⟨.hbm, 1084, rfl⟩
abbrev main_v720 : Ref sig .tc := ⟨.hbm, 1085, rfl⟩
abbrev main_v721 : Ref sig .tc := ⟨.hbm, 1086, rfl⟩
abbrev main_c_257 : Ref sig .tc := ⟨.hbm, 1087, rfl⟩
abbrev main_v722 : Ref sig .tc := ⟨.hbm, 1088, rfl⟩
abbrev main_v723 : Ref sig .tc := ⟨.hbm, 1089, rfl⟩
abbrev main_v724 : Ref sig .tc := ⟨.hbm, 1090, rfl⟩
abbrev main_c_258 : Ref sig .tc := ⟨.hbm, 1091, rfl⟩
abbrev main_call29_v0 : Ref sig .tc := ⟨.hbm, 1092, rfl⟩
abbrev main_call29_v1 : Ref sig .tc := ⟨.hbm, 1093, rfl⟩
abbrev main_v725 : Ref sig .tc := ⟨.hbm, 1094, rfl⟩
abbrev main_v726 : Ref sig .tc := ⟨.hbm, 1095, rfl⟩
abbrev main_v727 : Ref sig .tc := ⟨.hbm, 1096, rfl⟩
abbrev main_c_259 : Ref sig .tc := ⟨.hbm, 1097, rfl⟩
abbrev main_v728 : Ref sig .tc := ⟨.hbm, 1098, rfl⟩
abbrev main_v729 : Ref sig .tc := ⟨.hbm, 1099, rfl⟩
abbrev main_v730 : Ref sig .tc := ⟨.hbm, 1100, rfl⟩
abbrev main_v731 : Ref sig .tc := ⟨.hbm, 1101, rfl⟩
abbrev main_c_260 : Ref sig .tc := ⟨.hbm, 1102, rfl⟩
abbrev main_v732 : Ref sig .tc := ⟨.hbm, 1103, rfl⟩
abbrev main_v733 : Ref sig .tc := ⟨.hbm, 1104, rfl⟩
abbrev main_v734 : Ref sig .tc := ⟨.hbm, 1105, rfl⟩
abbrev main_v735 : Ref sig .tc := ⟨.hbm, 1106, rfl⟩
abbrev main_c_261 : Ref sig .tc := ⟨.hbm, 1107, rfl⟩
abbrev main_v736 : Ref sig .tc := ⟨.hbm, 1108, rfl⟩
abbrev main_v737 : Ref sig .tc := ⟨.hbm, 1109, rfl⟩
abbrev main_c_262 : Ref sig .tc := ⟨.hbm, 1110, rfl⟩
abbrev main_v738 : Ref sig .tc := ⟨.hbm, 1111, rfl⟩
abbrev main_v739 : Ref sig .tc := ⟨.hbm, 1112, rfl⟩
abbrev main_c_263 : Ref sig .tc := ⟨.hbm, 1113, rfl⟩
abbrev main_v740 : Ref sig .tc := ⟨.hbm, 1114, rfl⟩
abbrev main_v741 : Ref sig .tc := ⟨.hbm, 1115, rfl⟩
abbrev main_v742 : Ref sig .tc := ⟨.hbm, 1116, rfl⟩
abbrev main_c_264 : Ref sig .tc := ⟨.hbm, 1117, rfl⟩
abbrev main_v743 : Ref sig .tc := ⟨.hbm, 1118, rfl⟩
abbrev main_v744 : Ref sig .tc := ⟨.hbm, 1119, rfl⟩
abbrev main_v745 : Ref sig .tc := ⟨.hbm, 1120, rfl⟩
abbrev main_c_265 : Ref sig .tc := ⟨.hbm, 1121, rfl⟩
abbrev main_v746 : Ref sig .tc := ⟨.hbm, 1122, rfl⟩
abbrev main_v747 : Ref sig .tc := ⟨.hbm, 1123, rfl⟩
abbrev main_v748 : Ref sig .tc := ⟨.hbm, 1124, rfl⟩
abbrev main_c_266 : Ref sig .tc := ⟨.hbm, 1125, rfl⟩
abbrev main_v749 : Ref sig .tc := ⟨.hbm, 1126, rfl⟩
abbrev main_v750 : Ref sig .tc := ⟨.hbm, 1127, rfl⟩
abbrev main_v751 : Ref sig .tc := ⟨.hbm, 1128, rfl⟩
abbrev main_c_267 : Ref sig .tc := ⟨.hbm, 1129, rfl⟩
abbrev main_v752 : Ref sig .tc := ⟨.hbm, 1130, rfl⟩
abbrev main_v753 : Ref sig .tc := ⟨.hbm, 1131, rfl⟩
abbrev main_v754 : Ref sig .tc := ⟨.hbm, 1132, rfl⟩
abbrev main_c_268 : Ref sig .tc := ⟨.hbm, 1133, rfl⟩
abbrev main_v755 : Ref sig .tc := ⟨.hbm, 1134, rfl⟩
abbrev main_v756 : Ref sig .tc := ⟨.hbm, 1135, rfl⟩
abbrev main_v757 : Ref sig .tc := ⟨.hbm, 1136, rfl⟩
abbrev main_c_269 : Ref sig .tc := ⟨.hbm, 1137, rfl⟩
abbrev main_v758 : Ref sig .tc := ⟨.hbm, 1138, rfl⟩
abbrev main_v759 : Ref sig .tc := ⟨.hbm, 1139, rfl⟩
abbrev main_v760 : Ref sig .tc := ⟨.hbm, 1140, rfl⟩
abbrev main_c_270 : Ref sig .tc := ⟨.hbm, 1141, rfl⟩
abbrev main_c_271 : Ref sig .tc := ⟨.hbm, 1142, rfl⟩
abbrev main_call30_v0 : Ref sig .tc := ⟨.hbm, 1143, rfl⟩
abbrev main_call30_v1 : Ref sig .tc := ⟨.hbm, 1144, rfl⟩
abbrev main_call30_v2 : Ref sig .tc := ⟨.hbm, 1145, rfl⟩
abbrev main_call30_v3 : Ref sig .tc := ⟨.hbm, 1146, rfl⟩
abbrev main_call30_v4 : Ref sig .tc := ⟨.hbm, 1147, rfl⟩
abbrev main_v761 : Ref sig .tc := ⟨.hbm, 1148, rfl⟩
abbrev main_c_272 : Ref sig .tc := ⟨.hbm, 1149, rfl⟩
abbrev main_v762 : Ref sig .tc := ⟨.hbm, 1150, rfl⟩
abbrev main_v763 : Ref sig .tc := ⟨.hbm, 1151, rfl⟩
abbrev main_c_273 : Ref sig .tc := ⟨.hbm, 1152, rfl⟩
abbrev main_v764 : Ref sig .tc := ⟨.hbm, 1153, rfl⟩
abbrev main_v765 : Ref sig .tc := ⟨.hbm, 1154, rfl⟩
abbrev main_v766 : Ref sig .tc := ⟨.hbm, 1155, rfl⟩
abbrev main_v767 : Ref sig .tc := ⟨.hbm, 1156, rfl⟩
abbrev main_v768 : Ref sig .tc := ⟨.hbm, 1157, rfl⟩
abbrev main_c_274 : Ref sig .tc := ⟨.hbm, 1158, rfl⟩
abbrev main_v769 : Ref sig .tc := ⟨.hbm, 1159, rfl⟩
abbrev main_v770 : Ref sig .tc := ⟨.hbm, 1160, rfl⟩
abbrev main_v771 : Ref sig .tc := ⟨.hbm, 1161, rfl⟩
abbrev main_c_275 : Ref sig .tc := ⟨.hbm, 1162, rfl⟩
abbrev main_call31_v0 : Ref sig .tc := ⟨.hbm, 1163, rfl⟩
abbrev main_call31_v1 : Ref sig .tc := ⟨.hbm, 1164, rfl⟩
abbrev main_v772 : Ref sig .tc := ⟨.hbm, 1165, rfl⟩
abbrev main_v773 : Ref sig .tc := ⟨.hbm, 1166, rfl⟩
abbrev main_v774 : Ref sig .tc := ⟨.hbm, 1167, rfl⟩
abbrev main_c_276 : Ref sig .tc := ⟨.hbm, 1168, rfl⟩
abbrev main_v775 : Ref sig .tc := ⟨.hbm, 1169, rfl⟩
abbrev main_v776 : Ref sig .tc := ⟨.hbm, 1170, rfl⟩
abbrev main_v777 : Ref sig .tc := ⟨.hbm, 1171, rfl⟩
abbrev main_v778 : Ref sig .tc := ⟨.hbm, 1172, rfl⟩
abbrev main_c_277 : Ref sig .tc := ⟨.hbm, 1173, rfl⟩
abbrev main_v779 : Ref sig .tc := ⟨.hbm, 1174, rfl⟩
abbrev main_v780 : Ref sig .tc := ⟨.hbm, 1175, rfl⟩
abbrev main_v781 : Ref sig .tc := ⟨.hbm, 1176, rfl⟩
abbrev main_v782 : Ref sig .tc := ⟨.hbm, 1177, rfl⟩
abbrev main_c_278 : Ref sig .tc := ⟨.hbm, 1178, rfl⟩
abbrev main_v783 : Ref sig .tc := ⟨.hbm, 1179, rfl⟩
abbrev main_v784 : Ref sig .tc := ⟨.hbm, 1180, rfl⟩
abbrev main_c_279 : Ref sig .tc := ⟨.hbm, 1181, rfl⟩
abbrev main_v785 : Ref sig .tc := ⟨.hbm, 1182, rfl⟩
abbrev main_v786 : Ref sig .tc := ⟨.hbm, 1183, rfl⟩
abbrev main_c_280 : Ref sig .tc := ⟨.hbm, 1184, rfl⟩
abbrev main_v787 : Ref sig .tc := ⟨.hbm, 1185, rfl⟩
abbrev main_v788 : Ref sig .tc := ⟨.hbm, 1186, rfl⟩
abbrev main_v789 : Ref sig .tc := ⟨.hbm, 1187, rfl⟩
abbrev main_c_281 : Ref sig .tc := ⟨.hbm, 1188, rfl⟩
abbrev main_v790 : Ref sig .tc := ⟨.hbm, 1189, rfl⟩
abbrev main_v791 : Ref sig .tc := ⟨.hbm, 1190, rfl⟩
abbrev main_v792 : Ref sig .tc := ⟨.hbm, 1191, rfl⟩
abbrev main_c_282 : Ref sig .tc := ⟨.hbm, 1192, rfl⟩
abbrev main_v793 : Ref sig .tc := ⟨.hbm, 1193, rfl⟩
abbrev main_v794 : Ref sig .tc := ⟨.hbm, 1194, rfl⟩
abbrev main_v795 : Ref sig .tc := ⟨.hbm, 1195, rfl⟩
abbrev main_c_283 : Ref sig .tc := ⟨.hbm, 1196, rfl⟩
abbrev main_v796 : Ref sig .tc := ⟨.hbm, 1197, rfl⟩
abbrev main_v797 : Ref sig .tc := ⟨.hbm, 1198, rfl⟩
abbrev main_v798 : Ref sig .tc := ⟨.hbm, 1199, rfl⟩
abbrev main_c_284 : Ref sig .tc := ⟨.hbm, 1200, rfl⟩
abbrev main_v799 : Ref sig .tc := ⟨.hbm, 1201, rfl⟩
abbrev main_v800 : Ref sig .tc := ⟨.hbm, 1202, rfl⟩
abbrev main_v801 : Ref sig .tc := ⟨.hbm, 1203, rfl⟩
abbrev main_c_285 : Ref sig .tc := ⟨.hbm, 1204, rfl⟩
abbrev main_v802 : Ref sig .tc := ⟨.hbm, 1205, rfl⟩
abbrev main_v803 : Ref sig .tc := ⟨.hbm, 1206, rfl⟩
abbrev main_v804 : Ref sig .tc := ⟨.hbm, 1207, rfl⟩
abbrev main_c_286 : Ref sig .tc := ⟨.hbm, 1208, rfl⟩
abbrev main_v805 : Ref sig .tc := ⟨.hbm, 1209, rfl⟩
abbrev main_v806 : Ref sig .tc := ⟨.hbm, 1210, rfl⟩
abbrev main_v807 : Ref sig .tc := ⟨.hbm, 1211, rfl⟩
abbrev main_c_287 : Ref sig .tc := ⟨.hbm, 1212, rfl⟩
abbrev main_c_288 : Ref sig .tc := ⟨.hbm, 1213, rfl⟩
abbrev main_call32_v0 : Ref sig .tc := ⟨.hbm, 1214, rfl⟩
abbrev main_call32_v1 : Ref sig .tc := ⟨.hbm, 1215, rfl⟩
abbrev main_call32_v2 : Ref sig .tc := ⟨.hbm, 1216, rfl⟩
abbrev main_call32_v3 : Ref sig .tc := ⟨.hbm, 1217, rfl⟩
abbrev main_call32_v4 : Ref sig .tc := ⟨.hbm, 1218, rfl⟩
abbrev main_v808 : Ref sig .tc := ⟨.hbm, 1219, rfl⟩
abbrev main_c_289 : Ref sig .tc := ⟨.hbm, 1220, rfl⟩
abbrev main_v809 : Ref sig .tc := ⟨.hbm, 1221, rfl⟩
abbrev main_v810 : Ref sig .tc := ⟨.hbm, 1222, rfl⟩
abbrev main_c_290 : Ref sig .tc := ⟨.hbm, 1223, rfl⟩
abbrev main_v811 : Ref sig .tc := ⟨.hbm, 1224, rfl⟩
abbrev main_v812 : Ref sig .tc := ⟨.hbm, 1225, rfl⟩
abbrev main_v813 : Ref sig .tc := ⟨.hbm, 1226, rfl⟩
abbrev main_v814 : Ref sig .tc := ⟨.hbm, 1227, rfl⟩
abbrev main_v815 : Ref sig .tc := ⟨.hbm, 1228, rfl⟩
abbrev main_c_291 : Ref sig .tc := ⟨.hbm, 1229, rfl⟩
abbrev main_v816 : Ref sig .tc := ⟨.hbm, 1230, rfl⟩
abbrev main_v817 : Ref sig .tc := ⟨.hbm, 1231, rfl⟩
abbrev main_v818 : Ref sig .tc := ⟨.hbm, 1232, rfl⟩
abbrev main_c_292 : Ref sig .tc := ⟨.hbm, 1233, rfl⟩
abbrev main_call33_v0 : Ref sig .tc := ⟨.hbm, 1234, rfl⟩
abbrev main_call33_v1 : Ref sig .tc := ⟨.hbm, 1235, rfl⟩
abbrev main_v819 : Ref sig .tc := ⟨.hbm, 1236, rfl⟩
abbrev main_v820 : Ref sig .tc := ⟨.hbm, 1237, rfl⟩
abbrev main_v821 : Ref sig .tc := ⟨.hbm, 1238, rfl⟩
abbrev main_c_293 : Ref sig .tc := ⟨.hbm, 1239, rfl⟩
abbrev main_v822 : Ref sig .tc := ⟨.hbm, 1240, rfl⟩
abbrev main_v823 : Ref sig .tc := ⟨.hbm, 1241, rfl⟩
abbrev main_v824 : Ref sig .tc := ⟨.hbm, 1242, rfl⟩
abbrev main_v825 : Ref sig .tc := ⟨.hbm, 1243, rfl⟩
abbrev main_c_294 : Ref sig .tc := ⟨.hbm, 1244, rfl⟩
abbrev main_v826 : Ref sig .tc := ⟨.hbm, 1245, rfl⟩
abbrev main_v827 : Ref sig .tc := ⟨.hbm, 1246, rfl⟩
abbrev main_v828 : Ref sig .tc := ⟨.hbm, 1247, rfl⟩
abbrev main_v829 : Ref sig .tc := ⟨.hbm, 1248, rfl⟩
abbrev main_c_295 : Ref sig .tc := ⟨.hbm, 1249, rfl⟩
abbrev main_v830 : Ref sig .tc := ⟨.hbm, 1250, rfl⟩
abbrev main_v831 : Ref sig .tc := ⟨.hbm, 1251, rfl⟩
abbrev main_c_296 : Ref sig .tc := ⟨.hbm, 1252, rfl⟩
abbrev main_v832 : Ref sig .tc := ⟨.hbm, 1253, rfl⟩
abbrev main_v833 : Ref sig .tc := ⟨.hbm, 1254, rfl⟩
abbrev main_c_297 : Ref sig .tc := ⟨.hbm, 1255, rfl⟩
abbrev main_v834 : Ref sig .tc := ⟨.hbm, 1256, rfl⟩
abbrev main_v835 : Ref sig .tc := ⟨.hbm, 1257, rfl⟩
abbrev main_v836 : Ref sig .tc := ⟨.hbm, 1258, rfl⟩
abbrev main_c_298 : Ref sig .tc := ⟨.hbm, 1259, rfl⟩
abbrev main_v837 : Ref sig .tc := ⟨.hbm, 1260, rfl⟩
abbrev main_v838 : Ref sig .tc := ⟨.hbm, 1261, rfl⟩
abbrev main_v839 : Ref sig .tc := ⟨.hbm, 1262, rfl⟩
abbrev main_c_299 : Ref sig .tc := ⟨.hbm, 1263, rfl⟩
abbrev main_v840 : Ref sig .tc := ⟨.hbm, 1264, rfl⟩
abbrev main_v841 : Ref sig .tc := ⟨.hbm, 1265, rfl⟩
abbrev main_v842 : Ref sig .tc := ⟨.hbm, 1266, rfl⟩
abbrev main_c_300 : Ref sig .tc := ⟨.hbm, 1267, rfl⟩
abbrev main_v843 : Ref sig .tc := ⟨.hbm, 1268, rfl⟩
abbrev main_v844 : Ref sig .tc := ⟨.hbm, 1269, rfl⟩
abbrev main_v845 : Ref sig .tc := ⟨.hbm, 1270, rfl⟩
abbrev main_c_301 : Ref sig .tc := ⟨.hbm, 1271, rfl⟩
abbrev main_v846 : Ref sig .tc := ⟨.hbm, 1272, rfl⟩
abbrev main_v847 : Ref sig .tc := ⟨.hbm, 1273, rfl⟩
abbrev main_v848 : Ref sig .tc := ⟨.hbm, 1274, rfl⟩
abbrev main_c_302 : Ref sig .tc := ⟨.hbm, 1275, rfl⟩
abbrev main_v849 : Ref sig .tc := ⟨.hbm, 1276, rfl⟩
abbrev main_v850 : Ref sig .tc := ⟨.hbm, 1277, rfl⟩
abbrev main_v851 : Ref sig .tc := ⟨.hbm, 1278, rfl⟩
abbrev main_c_303 : Ref sig .tc := ⟨.hbm, 1279, rfl⟩
abbrev main_v852 : Ref sig .tc := ⟨.hbm, 1280, rfl⟩
abbrev main_v853 : Ref sig .tc := ⟨.hbm, 1281, rfl⟩
abbrev main_v854 : Ref sig .tc := ⟨.hbm, 1282, rfl⟩
abbrev main_c_304 : Ref sig .tc := ⟨.hbm, 1283, rfl⟩
abbrev main_c_305 : Ref sig .tc := ⟨.hbm, 1284, rfl⟩
abbrev main_call34_v0 : Ref sig .tc := ⟨.hbm, 1285, rfl⟩
abbrev main_call34_v1 : Ref sig .tc := ⟨.hbm, 1286, rfl⟩
abbrev main_call34_v2 : Ref sig .tc := ⟨.hbm, 1287, rfl⟩
abbrev main_call34_v3 : Ref sig .tc := ⟨.hbm, 1288, rfl⟩
abbrev main_call34_v4 : Ref sig .tc := ⟨.hbm, 1289, rfl⟩
abbrev main_v855 : Ref sig .tc := ⟨.hbm, 1290, rfl⟩
abbrev main_c_306 : Ref sig .tc := ⟨.hbm, 1291, rfl⟩
abbrev main_v856 : Ref sig .tc := ⟨.hbm, 1292, rfl⟩
abbrev main_v857 : Ref sig .tc := ⟨.hbm, 1293, rfl⟩
abbrev main_c_307 : Ref sig .tc := ⟨.hbm, 1294, rfl⟩
abbrev main_v858 : Ref sig .tc := ⟨.hbm, 1295, rfl⟩
abbrev main_v859 : Ref sig .tc := ⟨.hbm, 1296, rfl⟩
abbrev main_v860 : Ref sig .tc := ⟨.hbm, 1297, rfl⟩
abbrev main_v861 : Ref sig .tc := ⟨.hbm, 1298, rfl⟩
abbrev main_v862 : Ref sig .tc := ⟨.hbm, 1299, rfl⟩
abbrev main_c_308 : Ref sig .tc := ⟨.hbm, 1300, rfl⟩
abbrev main_v863 : Ref sig .tc := ⟨.hbm, 1301, rfl⟩
abbrev main_v864 : Ref sig .tc := ⟨.hbm, 1302, rfl⟩
abbrev main_v865 : Ref sig .tc := ⟨.hbm, 1303, rfl⟩
abbrev main_c_309 : Ref sig .tc := ⟨.hbm, 1304, rfl⟩
abbrev main_call35_v0 : Ref sig .tc := ⟨.hbm, 1305, rfl⟩
abbrev main_call35_v1 : Ref sig .tc := ⟨.hbm, 1306, rfl⟩
abbrev main_v866 : Ref sig .tc := ⟨.hbm, 1307, rfl⟩
abbrev main_v867 : Ref sig .tc := ⟨.hbm, 1308, rfl⟩
abbrev main_v868 : Ref sig .tc := ⟨.hbm, 1309, rfl⟩
abbrev main_c_310 : Ref sig .tc := ⟨.hbm, 1310, rfl⟩
abbrev main_v869 : Ref sig .tc := ⟨.hbm, 1311, rfl⟩
abbrev main_v870 : Ref sig .tc := ⟨.hbm, 1312, rfl⟩
abbrev main_v871 : Ref sig .tc := ⟨.hbm, 1313, rfl⟩
abbrev main_v872 : Ref sig .tc := ⟨.hbm, 1314, rfl⟩
abbrev main_c_311 : Ref sig .tc := ⟨.hbm, 1315, rfl⟩
abbrev main_v873 : Ref sig .tc := ⟨.hbm, 1316, rfl⟩
abbrev main_v874 : Ref sig .tc := ⟨.hbm, 1317, rfl⟩
abbrev main_v875 : Ref sig .tc := ⟨.hbm, 1318, rfl⟩
abbrev main_v876 : Ref sig .tc := ⟨.hbm, 1319, rfl⟩
abbrev main_c_312 : Ref sig .tc := ⟨.hbm, 1320, rfl⟩
abbrev main_v877 : Ref sig .tc := ⟨.hbm, 1321, rfl⟩
abbrev main_v878 : Ref sig .tc := ⟨.hbm, 1322, rfl⟩
abbrev main_c_313 : Ref sig .tc := ⟨.hbm, 1323, rfl⟩
abbrev main_v879 : Ref sig .tc := ⟨.hbm, 1324, rfl⟩
abbrev main_v880 : Ref sig .tc := ⟨.hbm, 1325, rfl⟩
abbrev main_c_314 : Ref sig .tc := ⟨.hbm, 1326, rfl⟩
abbrev main_v881 : Ref sig .tc := ⟨.hbm, 1327, rfl⟩
abbrev main_v882 : Ref sig .tc := ⟨.hbm, 1328, rfl⟩
abbrev main_v883 : Ref sig .tc := ⟨.hbm, 1329, rfl⟩
abbrev main_c_315 : Ref sig .tc := ⟨.hbm, 1330, rfl⟩
abbrev main_v884 : Ref sig .tc := ⟨.hbm, 1331, rfl⟩
abbrev main_v885 : Ref sig .tc := ⟨.hbm, 1332, rfl⟩
abbrev main_v886 : Ref sig .tc := ⟨.hbm, 1333, rfl⟩
abbrev main_c_316 : Ref sig .tc := ⟨.hbm, 1334, rfl⟩
abbrev main_v887 : Ref sig .tc := ⟨.hbm, 1335, rfl⟩
abbrev main_v888 : Ref sig .tc := ⟨.hbm, 1336, rfl⟩
abbrev main_v889 : Ref sig .tc := ⟨.hbm, 1337, rfl⟩
abbrev main_c_317 : Ref sig .tc := ⟨.hbm, 1338, rfl⟩
abbrev main_v890 : Ref sig .tc := ⟨.hbm, 1339, rfl⟩
abbrev main_v891 : Ref sig .tc := ⟨.hbm, 1340, rfl⟩
abbrev main_v892 : Ref sig .tc := ⟨.hbm, 1341, rfl⟩
abbrev main_c_318 : Ref sig .tc := ⟨.hbm, 1342, rfl⟩
abbrev main_v893 : Ref sig .tc := ⟨.hbm, 1343, rfl⟩
abbrev main_v894 : Ref sig .tc := ⟨.hbm, 1344, rfl⟩
abbrev main_v895 : Ref sig .tc := ⟨.hbm, 1345, rfl⟩
abbrev main_c_319 : Ref sig .tc := ⟨.hbm, 1346, rfl⟩
abbrev main_v896 : Ref sig .tc := ⟨.hbm, 1347, rfl⟩
abbrev main_v897 : Ref sig .tc := ⟨.hbm, 1348, rfl⟩
abbrev main_v898 : Ref sig .tc := ⟨.hbm, 1349, rfl⟩
abbrev main_c_320 : Ref sig .tc := ⟨.hbm, 1350, rfl⟩
abbrev main_v899 : Ref sig .tc := ⟨.hbm, 1351, rfl⟩
abbrev main_v900 : Ref sig .tc := ⟨.hbm, 1352, rfl⟩
abbrev main_v901 : Ref sig .tc := ⟨.hbm, 1353, rfl⟩
abbrev main_c_321 : Ref sig .tc := ⟨.hbm, 1354, rfl⟩
abbrev main_c_322 : Ref sig .tc := ⟨.hbm, 1355, rfl⟩
abbrev main_call36_v0 : Ref sig .tc := ⟨.hbm, 1356, rfl⟩
abbrev main_call36_v1 : Ref sig .tc := ⟨.hbm, 1357, rfl⟩
abbrev main_call36_v2 : Ref sig .tc := ⟨.hbm, 1358, rfl⟩
abbrev main_call36_v3 : Ref sig .tc := ⟨.hbm, 1359, rfl⟩
abbrev main_call36_v4 : Ref sig .tc := ⟨.hbm, 1360, rfl⟩
abbrev main_v902 : Ref sig .tc := ⟨.hbm, 1361, rfl⟩
abbrev main_c_323 : Ref sig .tc := ⟨.hbm, 1362, rfl⟩
abbrev main_v903 : Ref sig .tc := ⟨.hbm, 1363, rfl⟩
abbrev main_v904 : Ref sig .tc := ⟨.hbm, 1364, rfl⟩
abbrev main_c_324 : Ref sig .tc := ⟨.hbm, 1365, rfl⟩
abbrev main_v905 : Ref sig .tc := ⟨.hbm, 1366, rfl⟩
abbrev main_v906 : Ref sig .tc := ⟨.hbm, 1367, rfl⟩
abbrev main_v907 : Ref sig .tc := ⟨.hbm, 1368, rfl⟩
abbrev main_v908 : Ref sig .tc := ⟨.hbm, 1369, rfl⟩
abbrev main_v909 : Ref sig .tc := ⟨.hbm, 1370, rfl⟩
abbrev main_c_325 : Ref sig .tc := ⟨.hbm, 1371, rfl⟩
abbrev main_v910 : Ref sig .tc := ⟨.hbm, 1372, rfl⟩
abbrev main_v911 : Ref sig .tc := ⟨.hbm, 1373, rfl⟩
abbrev main_v912 : Ref sig .tc := ⟨.hbm, 1374, rfl⟩
abbrev main_c_326 : Ref sig .tc := ⟨.hbm, 1375, rfl⟩
abbrev main_call37_v0 : Ref sig .tc := ⟨.hbm, 1376, rfl⟩
abbrev main_call37_v1 : Ref sig .tc := ⟨.hbm, 1377, rfl⟩
abbrev main_v913 : Ref sig .tc := ⟨.hbm, 1378, rfl⟩
abbrev main_v914 : Ref sig .tc := ⟨.hbm, 1379, rfl⟩
abbrev main_v915 : Ref sig .tc := ⟨.hbm, 1380, rfl⟩
abbrev main_c_327 : Ref sig .tc := ⟨.hbm, 1381, rfl⟩
abbrev main_v916 : Ref sig .tc := ⟨.hbm, 1382, rfl⟩
abbrev main_v917 : Ref sig .tc := ⟨.hbm, 1383, rfl⟩
abbrev main_v918 : Ref sig .tc := ⟨.hbm, 1384, rfl⟩
abbrev main_v919 : Ref sig .tc := ⟨.hbm, 1385, rfl⟩
abbrev main_c_328 : Ref sig .tc := ⟨.hbm, 1386, rfl⟩
abbrev main_v920 : Ref sig .tc := ⟨.hbm, 1387, rfl⟩
abbrev main_v921 : Ref sig .tc := ⟨.hbm, 1388, rfl⟩
abbrev main_v922 : Ref sig .tc := ⟨.hbm, 1389, rfl⟩
abbrev main_v923 : Ref sig .tc := ⟨.hbm, 1390, rfl⟩
abbrev main_c_329 : Ref sig .tc := ⟨.hbm, 1391, rfl⟩
abbrev main_v924 : Ref sig .tc := ⟨.hbm, 1392, rfl⟩
abbrev main_v925 : Ref sig .tc := ⟨.hbm, 1393, rfl⟩
abbrev main_c_330 : Ref sig .tc := ⟨.hbm, 1394, rfl⟩
abbrev main_v926 : Ref sig .tc := ⟨.hbm, 1395, rfl⟩
abbrev main_v927 : Ref sig .tc := ⟨.hbm, 1396, rfl⟩
abbrev main_c_331 : Ref sig .tc := ⟨.hbm, 1397, rfl⟩
abbrev main_v928 : Ref sig .tc := ⟨.hbm, 1398, rfl⟩
abbrev main_v929 : Ref sig .tc := ⟨.hbm, 1399, rfl⟩
abbrev main_v930 : Ref sig .tc := ⟨.hbm, 1400, rfl⟩
abbrev main_c_332 : Ref sig .tc := ⟨.hbm, 1401, rfl⟩
abbrev main_v931 : Ref sig .tc := ⟨.hbm, 1402, rfl⟩
abbrev main_v932 : Ref sig .tc := ⟨.hbm, 1403, rfl⟩
abbrev main_v933 : Ref sig .tc := ⟨.hbm, 1404, rfl⟩
abbrev main_c_333 : Ref sig .tc := ⟨.hbm, 1405, rfl⟩
abbrev main_v934 : Ref sig .tc := ⟨.hbm, 1406, rfl⟩
abbrev main_v935 : Ref sig .tc := ⟨.hbm, 1407, rfl⟩
abbrev main_v936 : Ref sig .tc := ⟨.hbm, 1408, rfl⟩
abbrev main_c_334 : Ref sig .tc := ⟨.hbm, 1409, rfl⟩
abbrev main_v937 : Ref sig .tc := ⟨.hbm, 1410, rfl⟩
abbrev main_v938 : Ref sig .tc := ⟨.hbm, 1411, rfl⟩
abbrev main_v939 : Ref sig .tc := ⟨.hbm, 1412, rfl⟩
abbrev main_c_335 : Ref sig .tc := ⟨.hbm, 1413, rfl⟩
abbrev main_v940 : Ref sig .tc := ⟨.hbm, 1414, rfl⟩
abbrev main_v941 : Ref sig .tc := ⟨.hbm, 1415, rfl⟩
abbrev main_v942 : Ref sig .tc := ⟨.hbm, 1416, rfl⟩
abbrev main_c_336 : Ref sig .tc := ⟨.hbm, 1417, rfl⟩
abbrev main_v943 : Ref sig .tc := ⟨.hbm, 1418, rfl⟩
abbrev main_v944 : Ref sig .tc := ⟨.hbm, 1419, rfl⟩
abbrev main_v945 : Ref sig .tc := ⟨.hbm, 1420, rfl⟩
abbrev main_c_337 : Ref sig .tc := ⟨.hbm, 1421, rfl⟩
abbrev main_v946 : Ref sig .tc := ⟨.hbm, 1422, rfl⟩
abbrev main_v947 : Ref sig .tc := ⟨.hbm, 1423, rfl⟩
abbrev main_v948 : Ref sig .tc := ⟨.hbm, 1424, rfl⟩
abbrev main_c_338 : Ref sig .tc := ⟨.hbm, 1425, rfl⟩
abbrev main_c_339 : Ref sig .tc := ⟨.hbm, 1426, rfl⟩
abbrev main_call38_v0 : Ref sig .tc := ⟨.hbm, 1427, rfl⟩
abbrev main_call38_v1 : Ref sig .tc := ⟨.hbm, 1428, rfl⟩
abbrev main_call38_v2 : Ref sig .tc := ⟨.hbm, 1429, rfl⟩
abbrev main_call38_v3 : Ref sig .tc := ⟨.hbm, 1430, rfl⟩
abbrev main_call38_v4 : Ref sig .tc := ⟨.hbm, 1431, rfl⟩
abbrev main_v949 : Ref sig .tc := ⟨.hbm, 1432, rfl⟩
abbrev main_c_340 : Ref sig .tc := ⟨.hbm, 1433, rfl⟩
abbrev main_v950 : Ref sig .tc := ⟨.hbm, 1434, rfl⟩
abbrev main_v951 : Ref sig .tc := ⟨.hbm, 1435, rfl⟩
abbrev main_c_341 : Ref sig .tc := ⟨.hbm, 1436, rfl⟩
abbrev main_v952 : Ref sig .tc := ⟨.hbm, 1437, rfl⟩
abbrev main_v953 : Ref sig .tc := ⟨.hbm, 1438, rfl⟩
abbrev main_v954 : Ref sig .tc := ⟨.hbm, 1439, rfl⟩
abbrev main_v955 : Ref sig .tc := ⟨.hbm, 1440, rfl⟩
abbrev main_v956 : Ref sig .tc := ⟨.hbm, 1441, rfl⟩
abbrev main_c_342 : Ref sig .tc := ⟨.hbm, 1442, rfl⟩
abbrev main_v957 : Ref sig .tc := ⟨.hbm, 1443, rfl⟩
abbrev main_v958 : Ref sig .tc := ⟨.hbm, 1444, rfl⟩
abbrev main_v959 : Ref sig .tc := ⟨.hbm, 1445, rfl⟩
abbrev main_c_343 : Ref sig .tc := ⟨.hbm, 1446, rfl⟩
abbrev main_call39_v0 : Ref sig .tc := ⟨.hbm, 1447, rfl⟩
abbrev main_call39_v1 : Ref sig .tc := ⟨.hbm, 1448, rfl⟩
abbrev main_v960 : Ref sig .tc := ⟨.hbm, 1449, rfl⟩
abbrev main_v961 : Ref sig .tc := ⟨.hbm, 1450, rfl⟩
abbrev main_v962 : Ref sig .tc := ⟨.hbm, 1451, rfl⟩
abbrev main_c_344 : Ref sig .tc := ⟨.hbm, 1452, rfl⟩
abbrev main_v963 : Ref sig .tc := ⟨.hbm, 1453, rfl⟩
abbrev main_v964 : Ref sig .tc := ⟨.hbm, 1454, rfl⟩
abbrev main_v965 : Ref sig .tc := ⟨.hbm, 1455, rfl⟩
abbrev main_v966 : Ref sig .tc := ⟨.hbm, 1456, rfl⟩
abbrev main_c_345 : Ref sig .tc := ⟨.hbm, 1457, rfl⟩
abbrev main_v967 : Ref sig .tc := ⟨.hbm, 1458, rfl⟩
abbrev main_v968 : Ref sig .tc := ⟨.hbm, 1459, rfl⟩
abbrev main_v969 : Ref sig .tc := ⟨.hbm, 1460, rfl⟩
abbrev main_v970 : Ref sig .tc := ⟨.hbm, 1461, rfl⟩
abbrev main_c_346 : Ref sig .tc := ⟨.hbm, 1462, rfl⟩
abbrev main_v971 : Ref sig .tc := ⟨.hbm, 1463, rfl⟩
abbrev main_v972 : Ref sig .tc := ⟨.hbm, 1464, rfl⟩
abbrev main_c_347 : Ref sig .tc := ⟨.hbm, 1465, rfl⟩
abbrev main_v973 : Ref sig .tc := ⟨.hbm, 1466, rfl⟩
abbrev main_v974 : Ref sig .tc := ⟨.hbm, 1467, rfl⟩
abbrev main_c_348 : Ref sig .tc := ⟨.hbm, 1468, rfl⟩
abbrev main_v975 : Ref sig .tc := ⟨.hbm, 1469, rfl⟩
abbrev main_v976 : Ref sig .tc := ⟨.hbm, 1470, rfl⟩
abbrev main_v977 : Ref sig .tc := ⟨.hbm, 1471, rfl⟩
abbrev main_c_349 : Ref sig .tc := ⟨.hbm, 1472, rfl⟩
abbrev main_v978 : Ref sig .tc := ⟨.hbm, 1473, rfl⟩
abbrev main_v979 : Ref sig .tc := ⟨.hbm, 1474, rfl⟩
abbrev main_v980 : Ref sig .tc := ⟨.hbm, 1475, rfl⟩
abbrev main_c_350 : Ref sig .tc := ⟨.hbm, 1476, rfl⟩
abbrev main_v981 : Ref sig .tc := ⟨.hbm, 1477, rfl⟩
abbrev main_v982 : Ref sig .tc := ⟨.hbm, 1478, rfl⟩
abbrev main_v983 : Ref sig .tc := ⟨.hbm, 1479, rfl⟩
abbrev main_c_351 : Ref sig .tc := ⟨.hbm, 1480, rfl⟩
abbrev main_v984 : Ref sig .tc := ⟨.hbm, 1481, rfl⟩
abbrev main_v985 : Ref sig .tc := ⟨.hbm, 1482, rfl⟩
abbrev main_v986 : Ref sig .tc := ⟨.hbm, 1483, rfl⟩
abbrev main_c_352 : Ref sig .tc := ⟨.hbm, 1484, rfl⟩
abbrev main_v987 : Ref sig .tc := ⟨.hbm, 1485, rfl⟩
abbrev main_v988 : Ref sig .tc := ⟨.hbm, 1486, rfl⟩
abbrev main_v989 : Ref sig .tc := ⟨.hbm, 1487, rfl⟩
abbrev main_c_353 : Ref sig .tc := ⟨.hbm, 1488, rfl⟩
abbrev main_v990 : Ref sig .tc := ⟨.hbm, 1489, rfl⟩
abbrev main_v991 : Ref sig .tc := ⟨.hbm, 1490, rfl⟩
abbrev main_v992 : Ref sig .tc := ⟨.hbm, 1491, rfl⟩
abbrev main_c_354 : Ref sig .tc := ⟨.hbm, 1492, rfl⟩
abbrev main_v993 : Ref sig .tc := ⟨.hbm, 1493, rfl⟩
abbrev main_v994 : Ref sig .tc := ⟨.hbm, 1494, rfl⟩
abbrev main_v995 : Ref sig .tc := ⟨.hbm, 1495, rfl⟩
abbrev main_c_355 : Ref sig .tc := ⟨.hbm, 1496, rfl⟩
abbrev main_c_356 : Ref sig .tc := ⟨.hbm, 1497, rfl⟩
abbrev main_call40_v0 : Ref sig .tc := ⟨.hbm, 1498, rfl⟩
abbrev main_call40_v1 : Ref sig .tc := ⟨.hbm, 1499, rfl⟩
abbrev main_call40_v2 : Ref sig .tc := ⟨.hbm, 1500, rfl⟩
abbrev main_call40_v3 : Ref sig .tc := ⟨.hbm, 1501, rfl⟩
abbrev main_call40_v4 : Ref sig .tc := ⟨.hbm, 1502, rfl⟩
abbrev main_v996 : Ref sig .tc := ⟨.hbm, 1503, rfl⟩
abbrev main_c_357 : Ref sig .tc := ⟨.hbm, 1504, rfl⟩
abbrev main_v997 : Ref sig .tc := ⟨.hbm, 1505, rfl⟩
abbrev main_v998 : Ref sig .tc := ⟨.hbm, 1506, rfl⟩
abbrev main_c_358 : Ref sig .tc := ⟨.hbm, 1507, rfl⟩
abbrev main_v999 : Ref sig .tc := ⟨.hbm, 1508, rfl⟩
abbrev main_v1000 : Ref sig .tc := ⟨.hbm, 1509, rfl⟩
abbrev main_v1001 : Ref sig .tc := ⟨.hbm, 1510, rfl⟩
abbrev main_v1002 : Ref sig .tc := ⟨.hbm, 1511, rfl⟩
abbrev main_v1003 : Ref sig .tc := ⟨.hbm, 1512, rfl⟩
abbrev main_c_359 : Ref sig .tc := ⟨.hbm, 1513, rfl⟩
abbrev main_v1004 : Ref sig .tc := ⟨.hbm, 1514, rfl⟩
abbrev main_v1005 : Ref sig .tc := ⟨.hbm, 1515, rfl⟩
abbrev main_v1006 : Ref sig .tc := ⟨.hbm, 1516, rfl⟩
abbrev main_c_360 : Ref sig .tc := ⟨.hbm, 1517, rfl⟩
abbrev main_call41_v0 : Ref sig .tc := ⟨.hbm, 1518, rfl⟩
abbrev main_call41_v1 : Ref sig .tc := ⟨.hbm, 1519, rfl⟩
abbrev main_v1007 : Ref sig .tc := ⟨.hbm, 1520, rfl⟩
abbrev main_v1008 : Ref sig .tc := ⟨.hbm, 1521, rfl⟩
abbrev main_v1009 : Ref sig .tc := ⟨.hbm, 1522, rfl⟩
abbrev main_c_361 : Ref sig .tc := ⟨.hbm, 1523, rfl⟩
abbrev main_v1010 : Ref sig .tc := ⟨.hbm, 1524, rfl⟩
abbrev main_v1011 : Ref sig .tc := ⟨.hbm, 1525, rfl⟩
abbrev main_v1012 : Ref sig .tc := ⟨.hbm, 1526, rfl⟩
abbrev main_v1013 : Ref sig .tc := ⟨.hbm, 1527, rfl⟩
abbrev main_c_362 : Ref sig .tc := ⟨.hbm, 1528, rfl⟩
abbrev main_v1014 : Ref sig .tc := ⟨.hbm, 1529, rfl⟩
abbrev main_v1015 : Ref sig .tc := ⟨.hbm, 1530, rfl⟩
abbrev main_v1016 : Ref sig .tc := ⟨.hbm, 1531, rfl⟩
abbrev main_v1017 : Ref sig .tc := ⟨.hbm, 1532, rfl⟩
abbrev main_c_363 : Ref sig .tc := ⟨.hbm, 1533, rfl⟩
abbrev main_v1018 : Ref sig .tc := ⟨.hbm, 1534, rfl⟩
abbrev main_v1019 : Ref sig .tc := ⟨.hbm, 1535, rfl⟩
abbrev main_c_364 : Ref sig .tc := ⟨.hbm, 1536, rfl⟩
abbrev main_v1020 : Ref sig .tc := ⟨.hbm, 1537, rfl⟩
abbrev main_v1021 : Ref sig .tc := ⟨.hbm, 1538, rfl⟩
abbrev main_c_365 : Ref sig .tc := ⟨.hbm, 1539, rfl⟩
abbrev main_v1022 : Ref sig .tc := ⟨.hbm, 1540, rfl⟩
abbrev main_v1023 : Ref sig .tc := ⟨.hbm, 1541, rfl⟩
abbrev main_v1024 : Ref sig .tc := ⟨.hbm, 1542, rfl⟩
abbrev main_c_366 : Ref sig .tc := ⟨.hbm, 1543, rfl⟩
abbrev main_v1025 : Ref sig .tc := ⟨.hbm, 1544, rfl⟩
abbrev main_v1026 : Ref sig .tc := ⟨.hbm, 1545, rfl⟩
abbrev main_v1027 : Ref sig .tc := ⟨.hbm, 1546, rfl⟩
abbrev main_c_367 : Ref sig .tc := ⟨.hbm, 1547, rfl⟩
abbrev main_v1028 : Ref sig .tc := ⟨.hbm, 1548, rfl⟩
abbrev main_v1029 : Ref sig .tc := ⟨.hbm, 1549, rfl⟩
abbrev main_v1030 : Ref sig .tc := ⟨.hbm, 1550, rfl⟩
abbrev main_c_368 : Ref sig .tc := ⟨.hbm, 1551, rfl⟩
abbrev main_v1031 : Ref sig .tc := ⟨.hbm, 1552, rfl⟩
abbrev main_v1032 : Ref sig .tc := ⟨.hbm, 1553, rfl⟩
abbrev main_v1033 : Ref sig .tc := ⟨.hbm, 1554, rfl⟩
abbrev main_c_369 : Ref sig .tc := ⟨.hbm, 1555, rfl⟩
abbrev main_v1034 : Ref sig .tc := ⟨.hbm, 1556, rfl⟩
abbrev main_v1035 : Ref sig .tc := ⟨.hbm, 1557, rfl⟩
abbrev main_v1036 : Ref sig .tc := ⟨.hbm, 1558, rfl⟩
abbrev main_c_370 : Ref sig .tc := ⟨.hbm, 1559, rfl⟩
abbrev main_v1037 : Ref sig .tc := ⟨.hbm, 1560, rfl⟩
abbrev main_v1038 : Ref sig .tc := ⟨.hbm, 1561, rfl⟩
abbrev main_v1039 : Ref sig .tc := ⟨.hbm, 1562, rfl⟩
abbrev main_c_371 : Ref sig .tc := ⟨.hbm, 1563, rfl⟩
abbrev main_v1040 : Ref sig .tc := ⟨.hbm, 1564, rfl⟩
abbrev main_v1041 : Ref sig .tc := ⟨.hbm, 1565, rfl⟩
abbrev main_v1042 : Ref sig .tc := ⟨.hbm, 1566, rfl⟩
abbrev main_c_372 : Ref sig .tc := ⟨.hbm, 1567, rfl⟩
abbrev main_c_373 : Ref sig .tc := ⟨.hbm, 1568, rfl⟩
abbrev main_call42_v0 : Ref sig .tc := ⟨.hbm, 1569, rfl⟩
abbrev main_call42_v1 : Ref sig .tc := ⟨.hbm, 1570, rfl⟩
abbrev main_call42_v2 : Ref sig .tc := ⟨.hbm, 1571, rfl⟩
abbrev main_call42_v3 : Ref sig .tc := ⟨.hbm, 1572, rfl⟩
abbrev main_call42_v4 : Ref sig .tc := ⟨.hbm, 1573, rfl⟩
abbrev main_v1043 : Ref sig .tc := ⟨.hbm, 1574, rfl⟩
abbrev main_c_374 : Ref sig .tc := ⟨.hbm, 1575, rfl⟩
abbrev main_v1044 : Ref sig .tc := ⟨.hbm, 1576, rfl⟩
abbrev main_v1045 : Ref sig .tc := ⟨.hbm, 1577, rfl⟩
abbrev main_c_375 : Ref sig .tc := ⟨.hbm, 1578, rfl⟩
abbrev main_v1046 : Ref sig .tc := ⟨.hbm, 1579, rfl⟩
abbrev main_v1047 : Ref sig .tc := ⟨.hbm, 1580, rfl⟩
abbrev main_v1048 : Ref sig .tc := ⟨.hbm, 1581, rfl⟩
abbrev main_v1049 : Ref sig .tc := ⟨.hbm, 1582, rfl⟩
abbrev main_v1050 : Ref sig .tc := ⟨.hbm, 1583, rfl⟩
abbrev main_c_376 : Ref sig .tc := ⟨.hbm, 1584, rfl⟩
abbrev main_v1051 : Ref sig .tc := ⟨.hbm, 1585, rfl⟩
abbrev main_v1052 : Ref sig .tc := ⟨.hbm, 1586, rfl⟩
abbrev main_v1053 : Ref sig .tc := ⟨.hbm, 1587, rfl⟩
abbrev main_c_377 : Ref sig .tc := ⟨.hbm, 1588, rfl⟩
abbrev main_call43_v0 : Ref sig .tc := ⟨.hbm, 1589, rfl⟩
abbrev main_call43_v1 : Ref sig .tc := ⟨.hbm, 1590, rfl⟩
abbrev main_v1054 : Ref sig .tc := ⟨.hbm, 1591, rfl⟩
abbrev main_v1055 : Ref sig .tc := ⟨.hbm, 1592, rfl⟩
abbrev main_v1056 : Ref sig .tc := ⟨.hbm, 1593, rfl⟩
abbrev main_c_378 : Ref sig .tc := ⟨.hbm, 1594, rfl⟩
abbrev main_v1057 : Ref sig .tc := ⟨.hbm, 1595, rfl⟩
abbrev main_v1058 : Ref sig .tc := ⟨.hbm, 1596, rfl⟩
abbrev main_v1059 : Ref sig .tc := ⟨.hbm, 1597, rfl⟩
abbrev main_v1060 : Ref sig .tc := ⟨.hbm, 1598, rfl⟩
abbrev main_c_379 : Ref sig .tc := ⟨.hbm, 1599, rfl⟩
abbrev main_v1061 : Ref sig .tc := ⟨.hbm, 1600, rfl⟩
abbrev main_v1062 : Ref sig .tc := ⟨.hbm, 1601, rfl⟩
abbrev main_v1063 : Ref sig .tc := ⟨.hbm, 1602, rfl⟩
abbrev main_v1064 : Ref sig .tc := ⟨.hbm, 1603, rfl⟩
abbrev main_c_380 : Ref sig .tc := ⟨.hbm, 1604, rfl⟩
abbrev main_v1065 : Ref sig .tc := ⟨.hbm, 1605, rfl⟩
abbrev main_v1066 : Ref sig .tc := ⟨.hbm, 1606, rfl⟩
abbrev main_c_381 : Ref sig .tc := ⟨.hbm, 1607, rfl⟩
abbrev main_v1067 : Ref sig .tc := ⟨.hbm, 1608, rfl⟩
abbrev main_v1068 : Ref sig .tc := ⟨.hbm, 1609, rfl⟩
abbrev main_c_382 : Ref sig .tc := ⟨.hbm, 1610, rfl⟩
abbrev main_v1069 : Ref sig .tc := ⟨.hbm, 1611, rfl⟩
abbrev main_v1070 : Ref sig .tc := ⟨.hbm, 1612, rfl⟩
abbrev main_v1071 : Ref sig .tc := ⟨.hbm, 1613, rfl⟩
abbrev main_c_383 : Ref sig .tc := ⟨.hbm, 1614, rfl⟩
abbrev main_v1072 : Ref sig .tc := ⟨.hbm, 1615, rfl⟩
abbrev main_v1073 : Ref sig .tc := ⟨.hbm, 1616, rfl⟩
abbrev main_v1074 : Ref sig .tc := ⟨.hbm, 1617, rfl⟩
abbrev main_c_384 : Ref sig .tc := ⟨.hbm, 1618, rfl⟩
abbrev main_v1075 : Ref sig .tc := ⟨.hbm, 1619, rfl⟩
abbrev main_v1076 : Ref sig .tc := ⟨.hbm, 1620, rfl⟩
abbrev main_v1077 : Ref sig .tc := ⟨.hbm, 1621, rfl⟩
abbrev main_c_385 : Ref sig .tc := ⟨.hbm, 1622, rfl⟩
abbrev main_v1078 : Ref sig .tc := ⟨.hbm, 1623, rfl⟩
abbrev main_v1079 : Ref sig .tc := ⟨.hbm, 1624, rfl⟩
abbrev main_v1080 : Ref sig .tc := ⟨.hbm, 1625, rfl⟩
abbrev main_c_386 : Ref sig .tc := ⟨.hbm, 1626, rfl⟩
abbrev main_v1081 : Ref sig .tc := ⟨.hbm, 1627, rfl⟩
abbrev main_v1082 : Ref sig .tc := ⟨.hbm, 1628, rfl⟩
abbrev main_v1083 : Ref sig .tc := ⟨.hbm, 1629, rfl⟩
abbrev main_c_387 : Ref sig .tc := ⟨.hbm, 1630, rfl⟩
abbrev main_v1084 : Ref sig .tc := ⟨.hbm, 1631, rfl⟩
abbrev main_v1085 : Ref sig .tc := ⟨.hbm, 1632, rfl⟩
abbrev main_v1086 : Ref sig .tc := ⟨.hbm, 1633, rfl⟩
abbrev main_c_388 : Ref sig .tc := ⟨.hbm, 1634, rfl⟩
abbrev main_v1087 : Ref sig .tc := ⟨.hbm, 1635, rfl⟩
abbrev main_v1088 : Ref sig .tc := ⟨.hbm, 1636, rfl⟩
abbrev main_v1089 : Ref sig .tc := ⟨.hbm, 1637, rfl⟩
abbrev main_c_389 : Ref sig .tc := ⟨.hbm, 1638, rfl⟩
abbrev main_c_390 : Ref sig .tc := ⟨.hbm, 1639, rfl⟩
abbrev main_call44_v0 : Ref sig .tc := ⟨.hbm, 1640, rfl⟩
abbrev main_call44_v1 : Ref sig .tc := ⟨.hbm, 1641, rfl⟩
abbrev main_call44_v2 : Ref sig .tc := ⟨.hbm, 1642, rfl⟩
abbrev main_call44_v3 : Ref sig .tc := ⟨.hbm, 1643, rfl⟩
abbrev main_call44_v4 : Ref sig .tc := ⟨.hbm, 1644, rfl⟩
abbrev main_v1090 : Ref sig .tc := ⟨.hbm, 1645, rfl⟩
abbrev main_c_391 : Ref sig .tc := ⟨.hbm, 1646, rfl⟩
abbrev main_v1091 : Ref sig .tc := ⟨.hbm, 1647, rfl⟩
abbrev main_v1092 : Ref sig .tc := ⟨.hbm, 1648, rfl⟩
abbrev main_c_392 : Ref sig .tc := ⟨.hbm, 1649, rfl⟩
abbrev main_v1093 : Ref sig .tc := ⟨.hbm, 1650, rfl⟩
abbrev main_v1094 : Ref sig .tc := ⟨.hbm, 1651, rfl⟩
abbrev main_v1095 : Ref sig .tc := ⟨.hbm, 1652, rfl⟩
abbrev main_v1096 : Ref sig .tc := ⟨.hbm, 1653, rfl⟩
abbrev main_v1097 : Ref sig .tc := ⟨.hbm, 1654, rfl⟩
abbrev main_c_393 : Ref sig .tc := ⟨.hbm, 1655, rfl⟩
abbrev main_v1098 : Ref sig .tc := ⟨.hbm, 1656, rfl⟩
abbrev main_v1099 : Ref sig .tc := ⟨.hbm, 1657, rfl⟩
abbrev main_v1100 : Ref sig .tc := ⟨.hbm, 1658, rfl⟩
abbrev main_c_394 : Ref sig .tc := ⟨.hbm, 1659, rfl⟩
abbrev main_call45_v0 : Ref sig .tc := ⟨.hbm, 1660, rfl⟩
abbrev main_call45_v1 : Ref sig .tc := ⟨.hbm, 1661, rfl⟩
abbrev main_v1101 : Ref sig .tc := ⟨.hbm, 1662, rfl⟩
abbrev main_v1102 : Ref sig .tc := ⟨.hbm, 1663, rfl⟩
abbrev main_v1103 : Ref sig .tc := ⟨.hbm, 1664, rfl⟩
abbrev main_c_395 : Ref sig .tc := ⟨.hbm, 1665, rfl⟩
abbrev main_v1104 : Ref sig .tc := ⟨.hbm, 1666, rfl⟩
abbrev main_v1105 : Ref sig .tc := ⟨.hbm, 1667, rfl⟩
abbrev main_v1106 : Ref sig .tc := ⟨.hbm, 1668, rfl⟩
abbrev main_v1107 : Ref sig .tc := ⟨.hbm, 1669, rfl⟩
abbrev main_c_396 : Ref sig .tc := ⟨.hbm, 1670, rfl⟩
abbrev main_v1108 : Ref sig .tc := ⟨.hbm, 1671, rfl⟩
abbrev main_v1109 : Ref sig .tc := ⟨.hbm, 1672, rfl⟩
abbrev main_v1110 : Ref sig .tc := ⟨.hbm, 1673, rfl⟩
abbrev main_v1111 : Ref sig .tc := ⟨.hbm, 1674, rfl⟩
abbrev main_c_397 : Ref sig .tc := ⟨.hbm, 1675, rfl⟩
abbrev main_v1112 : Ref sig .tc := ⟨.hbm, 1676, rfl⟩
abbrev main_v1113 : Ref sig .tc := ⟨.hbm, 1677, rfl⟩
abbrev main_c_398 : Ref sig .tc := ⟨.hbm, 1678, rfl⟩
abbrev main_v1114 : Ref sig .tc := ⟨.hbm, 1679, rfl⟩
abbrev main_v1115 : Ref sig .tc := ⟨.hbm, 1680, rfl⟩
abbrev main_c_399 : Ref sig .tc := ⟨.hbm, 1681, rfl⟩
abbrev main_v1116 : Ref sig .tc := ⟨.hbm, 1682, rfl⟩
abbrev main_v1117 : Ref sig .tc := ⟨.hbm, 1683, rfl⟩
abbrev main_v1118 : Ref sig .tc := ⟨.hbm, 1684, rfl⟩
abbrev main_c_400 : Ref sig .tc := ⟨.hbm, 1685, rfl⟩
abbrev main_v1119 : Ref sig .tc := ⟨.hbm, 1686, rfl⟩
abbrev main_v1120 : Ref sig .tc := ⟨.hbm, 1687, rfl⟩
abbrev main_v1121 : Ref sig .tc := ⟨.hbm, 1688, rfl⟩
abbrev main_c_401 : Ref sig .tc := ⟨.hbm, 1689, rfl⟩
abbrev main_v1122 : Ref sig .tc := ⟨.hbm, 1690, rfl⟩
abbrev main_v1123 : Ref sig .tc := ⟨.hbm, 1691, rfl⟩
abbrev main_v1124 : Ref sig .tc := ⟨.hbm, 1692, rfl⟩
abbrev main_c_402 : Ref sig .tc := ⟨.hbm, 1693, rfl⟩
abbrev main_v1125 : Ref sig .tc := ⟨.hbm, 1694, rfl⟩
abbrev main_v1126 : Ref sig .tc := ⟨.hbm, 1695, rfl⟩
abbrev main_v1127 : Ref sig .tc := ⟨.hbm, 1696, rfl⟩
abbrev main_c_403 : Ref sig .tc := ⟨.hbm, 1697, rfl⟩
abbrev main_v1128 : Ref sig .tc := ⟨.hbm, 1698, rfl⟩
abbrev main_v1129 : Ref sig .tc := ⟨.hbm, 1699, rfl⟩
abbrev main_v1130 : Ref sig .tc := ⟨.hbm, 1700, rfl⟩
abbrev main_c_404 : Ref sig .tc := ⟨.hbm, 1701, rfl⟩
abbrev main_v1131 : Ref sig .tc := ⟨.hbm, 1702, rfl⟩
abbrev main_v1132 : Ref sig .tc := ⟨.hbm, 1703, rfl⟩
abbrev main_v1133 : Ref sig .tc := ⟨.hbm, 1704, rfl⟩
abbrev main_c_405 : Ref sig .tc := ⟨.hbm, 1705, rfl⟩
abbrev main_v1134 : Ref sig .tc := ⟨.hbm, 1706, rfl⟩
abbrev main_v1135 : Ref sig .tc := ⟨.hbm, 1707, rfl⟩
abbrev main_v1136 : Ref sig .tc := ⟨.hbm, 1708, rfl⟩
abbrev main_c_406 : Ref sig .tc := ⟨.hbm, 1709, rfl⟩
abbrev main_c_407 : Ref sig .tc := ⟨.hbm, 1710, rfl⟩
abbrev main_call46_v0 : Ref sig .tc := ⟨.hbm, 1711, rfl⟩
abbrev main_call46_v1 : Ref sig .tc := ⟨.hbm, 1712, rfl⟩
abbrev main_call46_v2 : Ref sig .tc := ⟨.hbm, 1713, rfl⟩
abbrev main_call46_v3 : Ref sig .tc := ⟨.hbm, 1714, rfl⟩
abbrev main_call46_v4 : Ref sig .tc := ⟨.hbm, 1715, rfl⟩
abbrev main_v1137 : Ref sig .tc := ⟨.hbm, 1716, rfl⟩
abbrev main_c_408 : Ref sig .tc := ⟨.hbm, 1717, rfl⟩
abbrev main_v1138 : Ref sig .tc := ⟨.hbm, 1718, rfl⟩
abbrev main_v1139 : Ref sig .tc := ⟨.hbm, 1719, rfl⟩
abbrev main_c_409 : Ref sig .tc := ⟨.hbm, 1720, rfl⟩
abbrev main_v1140 : Ref sig .tc := ⟨.hbm, 1721, rfl⟩
abbrev main_v1141 : Ref sig .tc := ⟨.hbm, 1722, rfl⟩
abbrev main_v1142 : Ref sig .tc := ⟨.hbm, 1723, rfl⟩
abbrev main_v1143 : Ref sig .tc := ⟨.hbm, 1724, rfl⟩
abbrev main_v1144 : Ref sig .tc := ⟨.hbm, 1725, rfl⟩
abbrev main_c_410 : Ref sig .tc := ⟨.hbm, 1726, rfl⟩
abbrev main_v1145 : Ref sig .tc := ⟨.hbm, 1727, rfl⟩
abbrev main_v1146 : Ref sig .tc := ⟨.hbm, 1728, rfl⟩
abbrev main_v1147 : Ref sig .tc := ⟨.hbm, 1729, rfl⟩
abbrev main_c_411 : Ref sig .tc := ⟨.hbm, 1730, rfl⟩
abbrev main_call47_v0 : Ref sig .tc := ⟨.hbm, 1731, rfl⟩
abbrev main_call47_v1 : Ref sig .tc := ⟨.hbm, 1732, rfl⟩
abbrev main_v1148 : Ref sig .tc := ⟨.hbm, 1733, rfl⟩
abbrev main_v1149 : Ref sig .tc := ⟨.hbm, 1734, rfl⟩
abbrev main_v1150 : Ref sig .tc := ⟨.hbm, 1735, rfl⟩
abbrev main_c_412 : Ref sig .tc := ⟨.hbm, 1736, rfl⟩
abbrev main_v1151 : Ref sig .tc := ⟨.hbm, 1737, rfl⟩
abbrev main_v1152 : Ref sig .tc := ⟨.hbm, 1738, rfl⟩
abbrev main_v1153 : Ref sig .tc := ⟨.hbm, 1739, rfl⟩
abbrev main_v1154 : Ref sig .tc := ⟨.hbm, 1740, rfl⟩
abbrev main_c_413 : Ref sig .tc := ⟨.hbm, 1741, rfl⟩
abbrev main_v1155 : Ref sig .tc := ⟨.hbm, 1742, rfl⟩
abbrev main_v1156 : Ref sig .tc := ⟨.hbm, 1743, rfl⟩
abbrev main_v1157 : Ref sig .tc := ⟨.hbm, 1744, rfl⟩
abbrev main_v1158 : Ref sig .tc := ⟨.hbm, 1745, rfl⟩
abbrev main_c_414 : Ref sig .tc := ⟨.hbm, 1746, rfl⟩
abbrev main_v1159 : Ref sig .tc := ⟨.hbm, 1747, rfl⟩
abbrev main_v1160 : Ref sig .tc := ⟨.hbm, 1748, rfl⟩
abbrev main_c_415 : Ref sig .tc := ⟨.hbm, 1749, rfl⟩
abbrev main_v1161 : Ref sig .tc := ⟨.hbm, 1750, rfl⟩
abbrev main_v1162 : Ref sig .tc := ⟨.hbm, 1751, rfl⟩
abbrev main_c_416 : Ref sig .tc := ⟨.hbm, 1752, rfl⟩
abbrev main_v1163 : Ref sig .tc := ⟨.hbm, 1753, rfl⟩
abbrev main_v1164 : Ref sig .tc := ⟨.hbm, 1754, rfl⟩
abbrev main_v1165 : Ref sig .tc := ⟨.hbm, 1755, rfl⟩
abbrev main_c_417 : Ref sig .tc := ⟨.hbm, 1756, rfl⟩
abbrev main_v1166 : Ref sig .tc := ⟨.hbm, 1757, rfl⟩
abbrev main_v1167 : Ref sig .tc := ⟨.hbm, 1758, rfl⟩
abbrev main_v1168 : Ref sig .tc := ⟨.hbm, 1759, rfl⟩
abbrev main_c_418 : Ref sig .tc := ⟨.hbm, 1760, rfl⟩
abbrev main_v1169 : Ref sig .tc := ⟨.hbm, 1761, rfl⟩
abbrev main_v1170 : Ref sig .tc := ⟨.hbm, 1762, rfl⟩
abbrev main_v1171 : Ref sig .tc := ⟨.hbm, 1763, rfl⟩
abbrev main_c_419 : Ref sig .tc := ⟨.hbm, 1764, rfl⟩
abbrev main_v1172 : Ref sig .tc := ⟨.hbm, 1765, rfl⟩
abbrev main_v1173 : Ref sig .tc := ⟨.hbm, 1766, rfl⟩
abbrev main_v1174 : Ref sig .tc := ⟨.hbm, 1767, rfl⟩
abbrev main_c_420 : Ref sig .tc := ⟨.hbm, 1768, rfl⟩
abbrev main_v1175 : Ref sig .tc := ⟨.hbm, 1769, rfl⟩
abbrev main_v1176 : Ref sig .tc := ⟨.hbm, 1770, rfl⟩
abbrev main_v1177 : Ref sig .tc := ⟨.hbm, 1771, rfl⟩
abbrev main_c_421 : Ref sig .tc := ⟨.hbm, 1772, rfl⟩
abbrev main_v1178 : Ref sig .tc := ⟨.hbm, 1773, rfl⟩
abbrev main_v1179 : Ref sig .tc := ⟨.hbm, 1774, rfl⟩
abbrev main_v1180 : Ref sig .tc := ⟨.hbm, 1775, rfl⟩
abbrev main_c_422 : Ref sig .tc := ⟨.hbm, 1776, rfl⟩
abbrev main_v1181 : Ref sig .tc := ⟨.hbm, 1777, rfl⟩
abbrev main_v1182 : Ref sig .tc := ⟨.hbm, 1778, rfl⟩
abbrev main_v1183 : Ref sig .tc := ⟨.hbm, 1779, rfl⟩
abbrev main_c_423 : Ref sig .tc := ⟨.hbm, 1780, rfl⟩
abbrev main_c_424 : Ref sig .tc := ⟨.hbm, 1781, rfl⟩
abbrev main_call48_v0 : Ref sig .tc := ⟨.hbm, 1782, rfl⟩
abbrev main_call48_v1 : Ref sig .tc := ⟨.hbm, 1783, rfl⟩
abbrev main_call48_v2 : Ref sig .tc := ⟨.hbm, 1784, rfl⟩
abbrev main_call48_v3 : Ref sig .tc := ⟨.hbm, 1785, rfl⟩
abbrev main_call48_v4 : Ref sig .tc := ⟨.hbm, 1786, rfl⟩
abbrev main_v1184 : Ref sig .tc := ⟨.hbm, 1787, rfl⟩
abbrev main_c_425 : Ref sig .tc := ⟨.hbm, 1788, rfl⟩
abbrev main_v1185 : Ref sig .tc := ⟨.hbm, 1789, rfl⟩
abbrev main_v1186 : Ref sig .tc := ⟨.hbm, 1790, rfl⟩
abbrev main_c_426 : Ref sig .tc := ⟨.hbm, 1791, rfl⟩
abbrev main_v1187 : Ref sig .tc := ⟨.hbm, 1792, rfl⟩
abbrev main_v1188 : Ref sig .tc := ⟨.hbm, 1793, rfl⟩
abbrev main_v1189 : Ref sig .tc := ⟨.hbm, 1794, rfl⟩
abbrev main_v1190 : Ref sig .tc := ⟨.hbm, 1795, rfl⟩
abbrev main_v1191 : Ref sig .tc := ⟨.hbm, 1796, rfl⟩
abbrev main_c_427 : Ref sig .tc := ⟨.hbm, 1797, rfl⟩
abbrev main_v1192 : Ref sig .tc := ⟨.hbm, 1798, rfl⟩
abbrev main_v1193 : Ref sig .tc := ⟨.hbm, 1799, rfl⟩
abbrev main_v1194 : Ref sig .tc := ⟨.hbm, 1800, rfl⟩
abbrev main_c_428 : Ref sig .tc := ⟨.hbm, 1801, rfl⟩
abbrev main_call49_v0 : Ref sig .tc := ⟨.hbm, 1802, rfl⟩
abbrev main_call49_v1 : Ref sig .tc := ⟨.hbm, 1803, rfl⟩
abbrev main_v1195 : Ref sig .tc := ⟨.hbm, 1804, rfl⟩
abbrev main_v1196 : Ref sig .tc := ⟨.hbm, 1805, rfl⟩
abbrev main_v1197 : Ref sig .tc := ⟨.hbm, 1806, rfl⟩
abbrev main_c_429 : Ref sig .tc := ⟨.hbm, 1807, rfl⟩
abbrev main_v1198 : Ref sig .tc := ⟨.hbm, 1808, rfl⟩
abbrev main_v1199 : Ref sig .tc := ⟨.hbm, 1809, rfl⟩
abbrev main_v1200 : Ref sig .tc := ⟨.hbm, 1810, rfl⟩
abbrev main_v1201 : Ref sig .tc := ⟨.hbm, 1811, rfl⟩
abbrev main_c_430 : Ref sig .tc := ⟨.hbm, 1812, rfl⟩
abbrev main_v1202 : Ref sig .tc := ⟨.hbm, 1813, rfl⟩
abbrev main_v1203 : Ref sig .tc := ⟨.hbm, 1814, rfl⟩
abbrev main_v1204 : Ref sig .tc := ⟨.hbm, 1815, rfl⟩
abbrev main_v1205 : Ref sig .tc := ⟨.hbm, 1816, rfl⟩
abbrev main_c_431 : Ref sig .tc := ⟨.hbm, 1817, rfl⟩
abbrev main_v1206 : Ref sig .tc := ⟨.hbm, 1818, rfl⟩
abbrev main_v1207 : Ref sig .tc := ⟨.hbm, 1819, rfl⟩
abbrev main_c_432 : Ref sig .tc := ⟨.hbm, 1820, rfl⟩
abbrev main_v1208 : Ref sig .tc := ⟨.hbm, 1821, rfl⟩
abbrev main_v1209 : Ref sig .tc := ⟨.hbm, 1822, rfl⟩
abbrev main_c_433 : Ref sig .tc := ⟨.hbm, 1823, rfl⟩
abbrev main_v1210 : Ref sig .tc := ⟨.hbm, 1824, rfl⟩
abbrev main_v1211 : Ref sig .tc := ⟨.hbm, 1825, rfl⟩
abbrev main_v1212 : Ref sig .tc := ⟨.hbm, 1826, rfl⟩
abbrev main_c_434 : Ref sig .tc := ⟨.hbm, 1827, rfl⟩
abbrev main_v1213 : Ref sig .tc := ⟨.hbm, 1828, rfl⟩
abbrev main_v1214 : Ref sig .tc := ⟨.hbm, 1829, rfl⟩
abbrev main_v1215 : Ref sig .tc := ⟨.hbm, 1830, rfl⟩
abbrev main_c_435 : Ref sig .tc := ⟨.hbm, 1831, rfl⟩
abbrev main_v1216 : Ref sig .tc := ⟨.hbm, 1832, rfl⟩
abbrev main_v1217 : Ref sig .tc := ⟨.hbm, 1833, rfl⟩
abbrev main_v1218 : Ref sig .tc := ⟨.hbm, 1834, rfl⟩
abbrev main_c_436 : Ref sig .tc := ⟨.hbm, 1835, rfl⟩
abbrev main_v1219 : Ref sig .tc := ⟨.hbm, 1836, rfl⟩
abbrev main_v1220 : Ref sig .tc := ⟨.hbm, 1837, rfl⟩
abbrev main_v1221 : Ref sig .tc := ⟨.hbm, 1838, rfl⟩
abbrev main_c_437 : Ref sig .tc := ⟨.hbm, 1839, rfl⟩
abbrev main_v1222 : Ref sig .tc := ⟨.hbm, 1840, rfl⟩
abbrev main_v1223 : Ref sig .tc := ⟨.hbm, 1841, rfl⟩
abbrev main_v1224 : Ref sig .tc := ⟨.hbm, 1842, rfl⟩
abbrev main_c_438 : Ref sig .tc := ⟨.hbm, 1843, rfl⟩
abbrev main_v1225 : Ref sig .tc := ⟨.hbm, 1844, rfl⟩
abbrev main_v1226 : Ref sig .tc := ⟨.hbm, 1845, rfl⟩
abbrev main_v1227 : Ref sig .tc := ⟨.hbm, 1846, rfl⟩
abbrev main_c_439 : Ref sig .tc := ⟨.hbm, 1847, rfl⟩
abbrev main_v1228 : Ref sig .tc := ⟨.hbm, 1848, rfl⟩
abbrev main_v1229 : Ref sig .tc := ⟨.hbm, 1849, rfl⟩
abbrev main_v1230 : Ref sig .tc := ⟨.hbm, 1850, rfl⟩
abbrev main_c_440 : Ref sig .tc := ⟨.hbm, 1851, rfl⟩
abbrev main_c_441 : Ref sig .tc := ⟨.hbm, 1852, rfl⟩
abbrev main_call50_v0 : Ref sig .tc := ⟨.hbm, 1853, rfl⟩
abbrev main_call50_v1 : Ref sig .tc := ⟨.hbm, 1854, rfl⟩
abbrev main_call50_v2 : Ref sig .tc := ⟨.hbm, 1855, rfl⟩
abbrev main_call50_v3 : Ref sig .tc := ⟨.hbm, 1856, rfl⟩
abbrev main_call50_v4 : Ref sig .tc := ⟨.hbm, 1857, rfl⟩
abbrev main_v1231 : Ref sig .tc := ⟨.hbm, 1858, rfl⟩
abbrev main_c_442 : Ref sig .tc := ⟨.hbm, 1859, rfl⟩
abbrev main_v1232 : Ref sig .tc := ⟨.hbm, 1860, rfl⟩
abbrev main_v1233 : Ref sig .tc := ⟨.hbm, 1861, rfl⟩
abbrev main_c_443 : Ref sig .tc := ⟨.hbm, 1862, rfl⟩
abbrev main_v1234 : Ref sig .tc := ⟨.hbm, 1863, rfl⟩
abbrev main_v1235 : Ref sig .tc := ⟨.hbm, 1864, rfl⟩
abbrev main_v1236 : Ref sig .tc := ⟨.hbm, 1865, rfl⟩
abbrev main_v1237 : Ref sig .tc := ⟨.hbm, 1866, rfl⟩
abbrev main_v1238 : Ref sig .tc := ⟨.hbm, 1867, rfl⟩
abbrev main_c_444 : Ref sig .tc := ⟨.hbm, 1868, rfl⟩
abbrev main_v1239 : Ref sig .tc := ⟨.hbm, 1869, rfl⟩
abbrev main_v1240 : Ref sig .tc := ⟨.hbm, 1870, rfl⟩
abbrev main_v1241 : Ref sig .tc := ⟨.hbm, 1871, rfl⟩
abbrev main_c_445 : Ref sig .tc := ⟨.hbm, 1872, rfl⟩
abbrev main_call51_v0 : Ref sig .tc := ⟨.hbm, 1873, rfl⟩
abbrev main_call51_v1 : Ref sig .tc := ⟨.hbm, 1874, rfl⟩
abbrev main_v1242 : Ref sig .tc := ⟨.hbm, 1875, rfl⟩
abbrev main_v1243 : Ref sig .tc := ⟨.hbm, 1876, rfl⟩
abbrev main_v1244 : Ref sig .tc := ⟨.hbm, 1877, rfl⟩
abbrev main_c_446 : Ref sig .tc := ⟨.hbm, 1878, rfl⟩
abbrev main_v1245 : Ref sig .tc := ⟨.hbm, 1879, rfl⟩
abbrev main_v1246 : Ref sig .tc := ⟨.hbm, 1880, rfl⟩
abbrev main_v1247 : Ref sig .tc := ⟨.hbm, 1881, rfl⟩
abbrev main_v1248 : Ref sig .tc := ⟨.hbm, 1882, rfl⟩
abbrev main_c_447 : Ref sig .tc := ⟨.hbm, 1883, rfl⟩
abbrev main_v1249 : Ref sig .tc := ⟨.hbm, 1884, rfl⟩
abbrev main_v1250 : Ref sig .tc := ⟨.hbm, 1885, rfl⟩
abbrev main_v1251 : Ref sig .tc := ⟨.hbm, 1886, rfl⟩
abbrev main_v1252 : Ref sig .tc := ⟨.hbm, 1887, rfl⟩
abbrev main_c_448 : Ref sig .tc := ⟨.hbm, 1888, rfl⟩
abbrev main_v1253 : Ref sig .tc := ⟨.hbm, 1889, rfl⟩
abbrev main_v1254 : Ref sig .tc := ⟨.hbm, 1890, rfl⟩
abbrev main_c_449 : Ref sig .tc := ⟨.hbm, 1891, rfl⟩
abbrev main_v1255 : Ref sig .tc := ⟨.hbm, 1892, rfl⟩
abbrev main_v1256 : Ref sig .tc := ⟨.hbm, 1893, rfl⟩
abbrev main_c_450 : Ref sig .tc := ⟨.hbm, 1894, rfl⟩
abbrev main_v1257 : Ref sig .tc := ⟨.hbm, 1895, rfl⟩
abbrev main_v1258 : Ref sig .tc := ⟨.hbm, 1896, rfl⟩
abbrev main_v1259 : Ref sig .tc := ⟨.hbm, 1897, rfl⟩
abbrev main_c_451 : Ref sig .tc := ⟨.hbm, 1898, rfl⟩
abbrev main_v1260 : Ref sig .tc := ⟨.hbm, 1899, rfl⟩
abbrev main_v1261 : Ref sig .tc := ⟨.hbm, 1900, rfl⟩
abbrev main_v1262 : Ref sig .tc := ⟨.hbm, 1901, rfl⟩
abbrev main_c_452 : Ref sig .tc := ⟨.hbm, 1902, rfl⟩
abbrev main_v1263 : Ref sig .tc := ⟨.hbm, 1903, rfl⟩
abbrev main_v1264 : Ref sig .tc := ⟨.hbm, 1904, rfl⟩
abbrev main_v1265 : Ref sig .tc := ⟨.hbm, 1905, rfl⟩
abbrev main_c_453 : Ref sig .tc := ⟨.hbm, 1906, rfl⟩
abbrev main_v1266 : Ref sig .tc := ⟨.hbm, 1907, rfl⟩
abbrev main_v1267 : Ref sig .tc := ⟨.hbm, 1908, rfl⟩
abbrev main_v1268 : Ref sig .tc := ⟨.hbm, 1909, rfl⟩
abbrev main_c_454 : Ref sig .tc := ⟨.hbm, 1910, rfl⟩
abbrev main_v1269 : Ref sig .tc := ⟨.hbm, 1911, rfl⟩
abbrev main_v1270 : Ref sig .tc := ⟨.hbm, 1912, rfl⟩
abbrev main_v1271 : Ref sig .tc := ⟨.hbm, 1913, rfl⟩
abbrev main_c_455 : Ref sig .tc := ⟨.hbm, 1914, rfl⟩
abbrev main_v1272 : Ref sig .tc := ⟨.hbm, 1915, rfl⟩
abbrev main_v1273 : Ref sig .tc := ⟨.hbm, 1916, rfl⟩
abbrev main_v1274 : Ref sig .tc := ⟨.hbm, 1917, rfl⟩
abbrev main_c_456 : Ref sig .tc := ⟨.hbm, 1918, rfl⟩
abbrev main_v1275 : Ref sig .tc := ⟨.hbm, 1919, rfl⟩
abbrev main_v1276 : Ref sig .tc := ⟨.hbm, 1920, rfl⟩
abbrev main_v1277 : Ref sig .tc := ⟨.hbm, 1921, rfl⟩
abbrev main_c_457 : Ref sig .tc := ⟨.hbm, 1922, rfl⟩
abbrev main_c_458 : Ref sig .tc := ⟨.hbm, 1923, rfl⟩
abbrev main_call52_v0 : Ref sig .tc := ⟨.hbm, 1924, rfl⟩
abbrev main_call52_v1 : Ref sig .tc := ⟨.hbm, 1925, rfl⟩
abbrev main_call52_v2 : Ref sig .tc := ⟨.hbm, 1926, rfl⟩
abbrev main_call52_v3 : Ref sig .tc := ⟨.hbm, 1927, rfl⟩
abbrev main_call52_v4 : Ref sig .tc := ⟨.hbm, 1928, rfl⟩
abbrev main_v1278 : Ref sig .tc := ⟨.hbm, 1929, rfl⟩
abbrev main_c_459 : Ref sig .tc := ⟨.hbm, 1930, rfl⟩
abbrev main_v1279 : Ref sig .tc := ⟨.hbm, 1931, rfl⟩
abbrev main_v1280 : Ref sig .tc := ⟨.hbm, 1932, rfl⟩
abbrev main_c_460 : Ref sig .tc := ⟨.hbm, 1933, rfl⟩
abbrev main_v1281 : Ref sig .tc := ⟨.hbm, 1934, rfl⟩
abbrev main_v1282 : Ref sig .tc := ⟨.hbm, 1935, rfl⟩
abbrev main_v1283 : Ref sig .tc := ⟨.hbm, 1936, rfl⟩
abbrev main_v1284 : Ref sig .tc := ⟨.hbm, 1937, rfl⟩
abbrev main_v1285 : Ref sig .tc := ⟨.hbm, 1938, rfl⟩
abbrev main_c_461 : Ref sig .tc := ⟨.hbm, 1939, rfl⟩
abbrev main_v1286 : Ref sig .tc := ⟨.hbm, 1940, rfl⟩
abbrev main_v1287 : Ref sig .tc := ⟨.hbm, 1941, rfl⟩
abbrev main_v1288 : Ref sig .tc := ⟨.hbm, 1942, rfl⟩
abbrev main_c_462 : Ref sig .tc := ⟨.hbm, 1943, rfl⟩
abbrev main_call53_v0 : Ref sig .tc := ⟨.hbm, 1944, rfl⟩
abbrev main_call53_v1 : Ref sig .tc := ⟨.hbm, 1945, rfl⟩
abbrev main_v1289 : Ref sig .tc := ⟨.hbm, 1946, rfl⟩
abbrev main_v1290 : Ref sig .tc := ⟨.hbm, 1947, rfl⟩
abbrev main_v1291 : Ref sig .tc := ⟨.hbm, 1948, rfl⟩
abbrev main_v1292 : Ref sig .tc := ⟨.hbm, 1949, rfl⟩
abbrev main_c_463 : Ref sig .tc := ⟨.hbm, 1950, rfl⟩
abbrev main_call54_v0 : Ref sig .tc := ⟨.hbm, 1951, rfl⟩
abbrev main_v1293 : Ref sig .tc := ⟨.hbm, 1952, rfl⟩
abbrev main_v1294 : Ref sig .tc := ⟨.hbm, 1953, rfl⟩
abbrev main_v1295 : Ref sig .tc := ⟨.hbm, 1954, rfl⟩
abbrev main_cst : Ref sig .tc := ⟨.hbm, 1955, rfl⟩
abbrev main_v1296 : Ref sig .tc := ⟨.hbm, 1956, rfl⟩
abbrev main_v1297 : Ref sig .tc := ⟨.hbm, 1957, rfl⟩
abbrev main_v1298 : Ref sig .tc := ⟨.hbm, 1958, rfl⟩
abbrev main_c_464 : Ref sig .tc := ⟨.hbm, 1959, rfl⟩
abbrev main_v1299 : Ref sig .tc := ⟨.hbm, 1960, rfl⟩
abbrev main_v1300 : Ref sig .tc := ⟨.hbm, 1961, rfl⟩
abbrev main_c_465 : Ref sig .tc := ⟨.hbm, 1962, rfl⟩
abbrev main_v1301 : Ref sig .tc := ⟨.hbm, 1963, rfl⟩
abbrev main_v1302 : Ref sig .tc := ⟨.hbm, 1964, rfl⟩
abbrev main_v1303 : Ref sig .tc := ⟨.hbm, 1965, rfl⟩
abbrev main_v1304 : Ref sig .tc := ⟨.hbm, 1966, rfl⟩
abbrev main_c_466 : Ref sig .tc := ⟨.hbm, 1967, rfl⟩
abbrev main_v1305 : Ref sig .tc := ⟨.hbm, 1968, rfl⟩
abbrev main_v1306 : Ref sig .tc := ⟨.hbm, 1969, rfl⟩
abbrev main_v1307 : Ref sig .tc := ⟨.hbm, 1970, rfl⟩
abbrev main_v1308 : Ref sig .tc := ⟨.hbm, 1971, rfl⟩
abbrev main_v1309 : Ref sig .tc := ⟨.hbm, 1972, rfl⟩
abbrev main_c_467 : Ref sig .tc := ⟨.hbm, 1973, rfl⟩
abbrev main_v1310 : Ref sig .tc := ⟨.hbm, 1974, rfl⟩
abbrev main_v1311 : Ref sig .tc := ⟨.hbm, 1975, rfl⟩
abbrev main_c_468 : Ref sig .tc := ⟨.hbm, 1976, rfl⟩
abbrev main_v1312 : Ref sig .tc := ⟨.hbm, 1977, rfl⟩
abbrev main_v1313 : Ref sig .tc := ⟨.hbm, 1978, rfl⟩
abbrev main_v1314 : Ref sig .tc := ⟨.hbm, 1979, rfl⟩
abbrev main_v1315 : Ref sig .tc := ⟨.hbm, 1980, rfl⟩
abbrev main_c_469 : Ref sig .tc := ⟨.hbm, 1981, rfl⟩
abbrev main_v1316 : Ref sig .tc := ⟨.hbm, 1982, rfl⟩
abbrev main_v1317 : Ref sig .tc := ⟨.hbm, 1983, rfl⟩
abbrev main_v1318 : Ref sig .tc := ⟨.hbm, 1984, rfl⟩
abbrev main_v1319 : Ref sig .tc := ⟨.hbm, 1985, rfl⟩
abbrev main_v1320 : Ref sig .tc := ⟨.hbm, 1986, rfl⟩
abbrev main_c_470 : Ref sig .tc := ⟨.hbm, 1987, rfl⟩
abbrev main_v1321 : Ref sig .tc := ⟨.hbm, 1988, rfl⟩
abbrev main_v1322 : Ref sig .tc := ⟨.hbm, 1989, rfl⟩
abbrev main_c_471 : Ref sig .tc := ⟨.hbm, 1990, rfl⟩
abbrev main_v1323 : Ref sig .tc := ⟨.hbm, 1991, rfl⟩
abbrev main_v1324 : Ref sig .tc := ⟨.hbm, 1992, rfl⟩
abbrev main_v1325 : Ref sig .tc := ⟨.hbm, 1993, rfl⟩
abbrev main_v1326 : Ref sig .tc := ⟨.hbm, 1994, rfl⟩
abbrev main_c_472 : Ref sig .tc := ⟨.hbm, 1995, rfl⟩
abbrev main_v1327 : Ref sig .tc := ⟨.hbm, 1996, rfl⟩
abbrev main_v1328 : Ref sig .tc := ⟨.hbm, 1997, rfl⟩
abbrev main_v1329 : Ref sig .tc := ⟨.hbm, 1998, rfl⟩
abbrev main_v1330 : Ref sig .tc := ⟨.hbm, 1999, rfl⟩
abbrev main_v1331 : Ref sig .tc := ⟨.hbm, 2000, rfl⟩
abbrev main_c_473 : Ref sig .tc := ⟨.hbm, 2001, rfl⟩
abbrev main_v1332 : Ref sig .tc := ⟨.hbm, 2002, rfl⟩
abbrev main_v1333 : Ref sig .tc := ⟨.hbm, 2003, rfl⟩
abbrev main_c_474 : Ref sig .tc := ⟨.hbm, 2004, rfl⟩
abbrev main_v1334 : Ref sig .tc := ⟨.hbm, 2005, rfl⟩
abbrev main_v1335 : Ref sig .tc := ⟨.hbm, 2006, rfl⟩
abbrev main_v1336 : Ref sig .tc := ⟨.hbm, 2007, rfl⟩
abbrev main_v1337 : Ref sig .tc := ⟨.hbm, 2008, rfl⟩
abbrev main_c_475 : Ref sig .tc := ⟨.hbm, 2009, rfl⟩
abbrev main_v1338 : Ref sig .tc := ⟨.hbm, 2010, rfl⟩
abbrev main_v1339 : Ref sig .tc := ⟨.hbm, 2011, rfl⟩
abbrev main_v1340 : Ref sig .tc := ⟨.hbm, 2012, rfl⟩
abbrev main_v1341 : Ref sig .tc := ⟨.hbm, 2013, rfl⟩
abbrev main_v1342 : Ref sig .tc := ⟨.hbm, 2014, rfl⟩
abbrev main_c_476 : Ref sig .tc := ⟨.hbm, 2015, rfl⟩
abbrev main_v1343 : Ref sig .tc := ⟨.hbm, 2016, rfl⟩
abbrev main_v1344 : Ref sig .tc := ⟨.hbm, 2017, rfl⟩
abbrev main_c_477 : Ref sig .tc := ⟨.hbm, 2018, rfl⟩
abbrev main_v1345 : Ref sig .tc := ⟨.hbm, 2019, rfl⟩
abbrev main_v1346 : Ref sig .tc := ⟨.hbm, 2020, rfl⟩
abbrev main_v1347 : Ref sig .tc := ⟨.hbm, 2021, rfl⟩
abbrev main_v1348 : Ref sig .tc := ⟨.hbm, 2022, rfl⟩
abbrev main_c_478 : Ref sig .tc := ⟨.hbm, 2023, rfl⟩
abbrev main_v1349 : Ref sig .tc := ⟨.hbm, 2024, rfl⟩
abbrev main_v1350 : Ref sig .tc := ⟨.hbm, 2025, rfl⟩
abbrev main_v1351 : Ref sig .tc := ⟨.hbm, 2026, rfl⟩
abbrev main_v1352 : Ref sig .tc := ⟨.hbm, 2027, rfl⟩
abbrev main_v1353 : Ref sig .tc := ⟨.hbm, 2028, rfl⟩
abbrev main_c_479 : Ref sig .tc := ⟨.hbm, 2029, rfl⟩
abbrev main_v1354 : Ref sig .tc := ⟨.hbm, 2030, rfl⟩
abbrev main_v1355 : Ref sig .tc := ⟨.hbm, 2031, rfl⟩
abbrev main_c_480 : Ref sig .tc := ⟨.hbm, 2032, rfl⟩
abbrev main_v1356 : Ref sig .tc := ⟨.hbm, 2033, rfl⟩
abbrev main_v1357 : Ref sig .tc := ⟨.hbm, 2034, rfl⟩
abbrev main_v1358 : Ref sig .tc := ⟨.hbm, 2035, rfl⟩
abbrev main_v1359 : Ref sig .tc := ⟨.hbm, 2036, rfl⟩
abbrev main_c_481 : Ref sig .tc := ⟨.hbm, 2037, rfl⟩
abbrev main_v1360 : Ref sig .tc := ⟨.hbm, 2038, rfl⟩
abbrev main_v1361 : Ref sig .tc := ⟨.hbm, 2039, rfl⟩
abbrev main_v1362 : Ref sig .tc := ⟨.hbm, 2040, rfl⟩
abbrev main_v1363 : Ref sig .tc := ⟨.hbm, 2041, rfl⟩
abbrev main_v1364 : Ref sig .tc := ⟨.hbm, 2042, rfl⟩
abbrev main_c_482 : Ref sig .tc := ⟨.hbm, 2043, rfl⟩
abbrev main_v1365 : Ref sig .tc := ⟨.hbm, 2044, rfl⟩
abbrev main_v1366 : Ref sig .tc := ⟨.hbm, 2045, rfl⟩
abbrev main_c_483 : Ref sig .tc := ⟨.hbm, 2046, rfl⟩
abbrev main_v1367 : Ref sig .tc := ⟨.hbm, 2047, rfl⟩
abbrev main_v1368 : Ref sig .tc := ⟨.hbm, 2048, rfl⟩
abbrev main_v1369 : Ref sig .tc := ⟨.hbm, 2049, rfl⟩
abbrev main_v1370 : Ref sig .tc := ⟨.hbm, 2050, rfl⟩
abbrev main_c_484 : Ref sig .tc := ⟨.hbm, 2051, rfl⟩
abbrev main_v1371 : Ref sig .tc := ⟨.hbm, 2052, rfl⟩
abbrev main_v1372 : Ref sig .tc := ⟨.hbm, 2053, rfl⟩
abbrev main_v1373 : Ref sig .tc := ⟨.hbm, 2054, rfl⟩
abbrev main_v1374 : Ref sig .tc := ⟨.hbm, 2055, rfl⟩
abbrev main_v1375 : Ref sig .tc := ⟨.hbm, 2056, rfl⟩
abbrev main_c_485 : Ref sig .tc := ⟨.hbm, 2057, rfl⟩
abbrev main_v1376 : Ref sig .tc := ⟨.hbm, 2058, rfl⟩
abbrev main_v1377 : Ref sig .tc := ⟨.hbm, 2059, rfl⟩
abbrev main_c_486 : Ref sig .tc := ⟨.hbm, 2060, rfl⟩
abbrev main_v1378 : Ref sig .tc := ⟨.hbm, 2061, rfl⟩
abbrev main_v1379 : Ref sig .tc := ⟨.hbm, 2062, rfl⟩
abbrev main_v1380 : Ref sig .tc := ⟨.hbm, 2063, rfl⟩
abbrev main_v1381 : Ref sig .tc := ⟨.hbm, 2064, rfl⟩
abbrev main_c_487 : Ref sig .tc := ⟨.hbm, 2065, rfl⟩
abbrev main_v1382 : Ref sig .tc := ⟨.hbm, 2066, rfl⟩
abbrev main_v1383 : Ref sig .tc := ⟨.hbm, 2067, rfl⟩
abbrev main_v1384 : Ref sig .tc := ⟨.hbm, 2068, rfl⟩
abbrev main_v1385 : Ref sig .tc := ⟨.hbm, 2069, rfl⟩
abbrev main_v1386 : Ref sig .tc := ⟨.hbm, 2070, rfl⟩
abbrev main_c_488 : Ref sig .tc := ⟨.hbm, 2071, rfl⟩
abbrev main_v1387 : Ref sig .tc := ⟨.hbm, 2072, rfl⟩
abbrev main_v1388 : Ref sig .tc := ⟨.hbm, 2073, rfl⟩
abbrev main_c_489 : Ref sig .tc := ⟨.hbm, 2074, rfl⟩
abbrev main_v1389 : Ref sig .tc := ⟨.hbm, 2075, rfl⟩
abbrev main_v1390 : Ref sig .tc := ⟨.hbm, 2076, rfl⟩
abbrev main_v1391 : Ref sig .tc := ⟨.hbm, 2077, rfl⟩
abbrev main_v1392 : Ref sig .tc := ⟨.hbm, 2078, rfl⟩
abbrev main_c_490 : Ref sig .tc := ⟨.hbm, 2079, rfl⟩
abbrev main_v1393 : Ref sig .tc := ⟨.hbm, 2080, rfl⟩
abbrev main_v1394 : Ref sig .tc := ⟨.hbm, 2081, rfl⟩
abbrev main_v1395 : Ref sig .tc := ⟨.hbm, 2082, rfl⟩
abbrev main_v1396 : Ref sig .tc := ⟨.hbm, 2083, rfl⟩
abbrev main_v1397 : Ref sig .tc := ⟨.hbm, 2084, rfl⟩
abbrev main_c_491 : Ref sig .tc := ⟨.hbm, 2085, rfl⟩
abbrev main_v1398 : Ref sig .tc := ⟨.hbm, 2086, rfl⟩
abbrev main_v1399 : Ref sig .tc := ⟨.hbm, 2087, rfl⟩
abbrev main_c_492 : Ref sig .tc := ⟨.hbm, 2088, rfl⟩
abbrev main_v1400 : Ref sig .tc := ⟨.hbm, 2089, rfl⟩
abbrev main_v1401 : Ref sig .tc := ⟨.hbm, 2090, rfl⟩
abbrev main_v1402 : Ref sig .tc := ⟨.hbm, 2091, rfl⟩
abbrev main_v1403 : Ref sig .tc := ⟨.hbm, 2092, rfl⟩
abbrev main_c_493 : Ref sig .tc := ⟨.hbm, 2093, rfl⟩
abbrev main_v1404 : Ref sig .tc := ⟨.hbm, 2094, rfl⟩
abbrev main_v1405 : Ref sig .tc := ⟨.hbm, 2095, rfl⟩
abbrev main_v1406 : Ref sig .tc := ⟨.hbm, 2096, rfl⟩
abbrev main_v1407 : Ref sig .tc := ⟨.hbm, 2097, rfl⟩
abbrev main_v1408 : Ref sig .tc := ⟨.hbm, 2098, rfl⟩
abbrev main_c_494 : Ref sig .tc := ⟨.hbm, 2099, rfl⟩
abbrev main_v1409 : Ref sig .tc := ⟨.hbm, 2100, rfl⟩
abbrev main_v1410 : Ref sig .tc := ⟨.hbm, 2101, rfl⟩
abbrev main_c_495 : Ref sig .tc := ⟨.hbm, 2102, rfl⟩
abbrev main_v1411 : Ref sig .tc := ⟨.hbm, 2103, rfl⟩
abbrev main_v1412 : Ref sig .tc := ⟨.hbm, 2104, rfl⟩
abbrev main_v1413 : Ref sig .tc := ⟨.hbm, 2105, rfl⟩
abbrev main_v1414 : Ref sig .tc := ⟨.hbm, 2106, rfl⟩
abbrev main_c_496 : Ref sig .tc := ⟨.hbm, 2107, rfl⟩
abbrev main_v1415 : Ref sig .tc := ⟨.hbm, 2108, rfl⟩
abbrev main_v1416 : Ref sig .tc := ⟨.hbm, 2109, rfl⟩
abbrev main_v1417 : Ref sig .tc := ⟨.hbm, 2110, rfl⟩
abbrev main_v1418 : Ref sig .tc := ⟨.hbm, 2111, rfl⟩
abbrev main_v1419 : Ref sig .tc := ⟨.hbm, 2112, rfl⟩
abbrev main_c_497 : Ref sig .tc := ⟨.hbm, 2113, rfl⟩
abbrev main_v1420 : Ref sig .tc := ⟨.hbm, 2114, rfl⟩
abbrev main_v1421 : Ref sig .tc := ⟨.hbm, 2115, rfl⟩
abbrev main_c_498 : Ref sig .tc := ⟨.hbm, 2116, rfl⟩
abbrev main_v1422 : Ref sig .tc := ⟨.hbm, 2117, rfl⟩
abbrev main_v1423 : Ref sig .tc := ⟨.hbm, 2118, rfl⟩
abbrev main_v1424 : Ref sig .tc := ⟨.hbm, 2119, rfl⟩
abbrev main_v1425 : Ref sig .tc := ⟨.hbm, 2120, rfl⟩
abbrev main_c_499 : Ref sig .tc := ⟨.hbm, 2121, rfl⟩
abbrev main_v1426 : Ref sig .tc := ⟨.hbm, 2122, rfl⟩
abbrev main_v1427 : Ref sig .tc := ⟨.hbm, 2123, rfl⟩
abbrev main_v1428 : Ref sig .tc := ⟨.hbm, 2124, rfl⟩
abbrev main_v1429 : Ref sig .tc := ⟨.hbm, 2125, rfl⟩
abbrev main_v1430 : Ref sig .tc := ⟨.hbm, 2126, rfl⟩
abbrev main_c_500 : Ref sig .tc := ⟨.hbm, 2127, rfl⟩
abbrev main_v1431 : Ref sig .tc := ⟨.hbm, 2128, rfl⟩
abbrev main_v1432 : Ref sig .tc := ⟨.hbm, 2129, rfl⟩
abbrev main_c_501 : Ref sig .tc := ⟨.hbm, 2130, rfl⟩
abbrev main_v1433 : Ref sig .tc := ⟨.hbm, 2131, rfl⟩
abbrev main_v1434 : Ref sig .tc := ⟨.hbm, 2132, rfl⟩
abbrev main_v1435 : Ref sig .tc := ⟨.hbm, 2133, rfl⟩
abbrev main_v1436 : Ref sig .tc := ⟨.hbm, 2134, rfl⟩
abbrev main_c_502 : Ref sig .tc := ⟨.hbm, 2135, rfl⟩
abbrev main_v1437 : Ref sig .tc := ⟨.hbm, 2136, rfl⟩
abbrev main_v1438 : Ref sig .tc := ⟨.hbm, 2137, rfl⟩
abbrev main_v1439 : Ref sig .tc := ⟨.hbm, 2138, rfl⟩
abbrev main_v1440 : Ref sig .tc := ⟨.hbm, 2139, rfl⟩
abbrev main_v1441 : Ref sig .tc := ⟨.hbm, 2140, rfl⟩
abbrev main_c_503 : Ref sig .tc := ⟨.hbm, 2141, rfl⟩
abbrev main_v1442 : Ref sig .tc := ⟨.hbm, 2142, rfl⟩
abbrev main_v1443 : Ref sig .tc := ⟨.hbm, 2143, rfl⟩
abbrev main_c_504 : Ref sig .tc := ⟨.hbm, 2144, rfl⟩
abbrev main_v1444 : Ref sig .tc := ⟨.hbm, 2145, rfl⟩
abbrev main_v1445 : Ref sig .tc := ⟨.hbm, 2146, rfl⟩
abbrev main_v1446 : Ref sig .tc := ⟨.hbm, 2147, rfl⟩
abbrev main_v1447 : Ref sig .tc := ⟨.hbm, 2148, rfl⟩
abbrev main_c_505 : Ref sig .tc := ⟨.hbm, 2149, rfl⟩
abbrev main_v1448 : Ref sig .tc := ⟨.hbm, 2150, rfl⟩
abbrev main_v1449 : Ref sig .tc := ⟨.hbm, 2151, rfl⟩
abbrev main_v1450 : Ref sig .tc := ⟨.hbm, 2152, rfl⟩
abbrev main_v1451 : Ref sig .tc := ⟨.hbm, 2153, rfl⟩
abbrev main_v1452 : Ref sig .tc := ⟨.hbm, 2154, rfl⟩
abbrev main_c_506 : Ref sig .tc := ⟨.hbm, 2155, rfl⟩
abbrev main_v1453 : Ref sig .tc := ⟨.hbm, 2156, rfl⟩
abbrev main_v1454 : Ref sig .tc := ⟨.hbm, 2157, rfl⟩
abbrev main_c_507 : Ref sig .tc := ⟨.hbm, 2158, rfl⟩
abbrev main_v1455 : Ref sig .tc := ⟨.hbm, 2159, rfl⟩
abbrev main_v1456 : Ref sig .tc := ⟨.hbm, 2160, rfl⟩
abbrev main_v1457 : Ref sig .tc := ⟨.hbm, 2161, rfl⟩
abbrev main_v1458 : Ref sig .tc := ⟨.hbm, 2162, rfl⟩
abbrev main_c_508 : Ref sig .tc := ⟨.hbm, 2163, rfl⟩
abbrev main_v1459 : Ref sig .tc := ⟨.hbm, 2164, rfl⟩
abbrev main_v1460 : Ref sig .tc := ⟨.hbm, 2165, rfl⟩
abbrev main_v1461 : Ref sig .tc := ⟨.hbm, 2166, rfl⟩
abbrev main_v1462 : Ref sig .tc := ⟨.hbm, 2167, rfl⟩
abbrev main_v1463 : Ref sig .tc := ⟨.hbm, 2168, rfl⟩
abbrev main_c_509 : Ref sig .tc := ⟨.hbm, 2169, rfl⟩
abbrev main_v1464 : Ref sig .tc := ⟨.hbm, 2170, rfl⟩
abbrev main_v1465 : Ref sig .tc := ⟨.hbm, 2171, rfl⟩
abbrev main_c_510 : Ref sig .tc := ⟨.hbm, 2172, rfl⟩
abbrev main_v1466 : Ref sig .tc := ⟨.hbm, 2173, rfl⟩
abbrev main_v1467 : Ref sig .tc := ⟨.hbm, 2174, rfl⟩
abbrev main_v1468 : Ref sig .tc := ⟨.hbm, 2175, rfl⟩
abbrev main_v1469 : Ref sig .tc := ⟨.hbm, 2176, rfl⟩
abbrev main_c_511 : Ref sig .tc := ⟨.hbm, 2177, rfl⟩
abbrev main_v1470 : Ref sig .tc := ⟨.hbm, 2178, rfl⟩
abbrev main_v1471 : Ref sig .tc := ⟨.hbm, 2179, rfl⟩
abbrev main_v1472 : Ref sig .tc := ⟨.hbm, 2180, rfl⟩
abbrev main_v1473 : Ref sig .tc := ⟨.hbm, 2181, rfl⟩
abbrev main_v1474 : Ref sig .tc := ⟨.hbm, 2182, rfl⟩
abbrev main_c_512 : Ref sig .tc := ⟨.hbm, 2183, rfl⟩
abbrev main_v1475 : Ref sig .tc := ⟨.hbm, 2184, rfl⟩
abbrev main_v1476 : Ref sig .tc := ⟨.hbm, 2185, rfl⟩
abbrev main_c_513 : Ref sig .tc := ⟨.hbm, 2186, rfl⟩
abbrev main_v1477 : Ref sig .tc := ⟨.hbm, 2187, rfl⟩
abbrev main_v1478 : Ref sig .tc := ⟨.hbm, 2188, rfl⟩
abbrev main_v1479 : Ref sig .tc := ⟨.hbm, 2189, rfl⟩
abbrev main_v1480 : Ref sig .tc := ⟨.hbm, 2190, rfl⟩
abbrev main_c_514 : Ref sig .tc := ⟨.hbm, 2191, rfl⟩
abbrev main_v1481 : Ref sig .tc := ⟨.hbm, 2192, rfl⟩
abbrev main_v1482 : Ref sig .tc := ⟨.hbm, 2193, rfl⟩
abbrev main_v1483 : Ref sig .tc := ⟨.hbm, 2194, rfl⟩
abbrev main_v1484 : Ref sig .tc := ⟨.hbm, 2195, rfl⟩
abbrev main_v1485 : Ref sig .tc := ⟨.hbm, 2196, rfl⟩
abbrev main_c_515 : Ref sig .tc := ⟨.hbm, 2197, rfl⟩
abbrev main_v1486 : Ref sig .tc := ⟨.hbm, 2198, rfl⟩
abbrev main_v1487 : Ref sig .tc := ⟨.hbm, 2199, rfl⟩
abbrev main_c_516 : Ref sig .tc := ⟨.hbm, 2200, rfl⟩
abbrev main_v1488 : Ref sig .tc := ⟨.hbm, 2201, rfl⟩
abbrev main_v1489 : Ref sig .tc := ⟨.hbm, 2202, rfl⟩
abbrev main_v1490 : Ref sig .tc := ⟨.hbm, 2203, rfl⟩
abbrev main_v1491 : Ref sig .tc := ⟨.hbm, 2204, rfl⟩
abbrev main_c_517 : Ref sig .tc := ⟨.hbm, 2205, rfl⟩
abbrev main_v1492 : Ref sig .tc := ⟨.hbm, 2206, rfl⟩
abbrev main_v1493 : Ref sig .tc := ⟨.hbm, 2207, rfl⟩
abbrev main_v1494 : Ref sig .tc := ⟨.hbm, 2208, rfl⟩
abbrev main_v1495 : Ref sig .tc := ⟨.hbm, 2209, rfl⟩
abbrev main_v1496 : Ref sig .tc := ⟨.hbm, 2210, rfl⟩
abbrev main_c_518 : Ref sig .tc := ⟨.hbm, 2211, rfl⟩
abbrev main_v1497 : Ref sig .tc := ⟨.hbm, 2212, rfl⟩
abbrev main_v1498 : Ref sig .tc := ⟨.hbm, 2213, rfl⟩
abbrev main_c_519 : Ref sig .tc := ⟨.hbm, 2214, rfl⟩
abbrev main_v1499 : Ref sig .tc := ⟨.hbm, 2215, rfl⟩
abbrev main_v1500 : Ref sig .tc := ⟨.hbm, 2216, rfl⟩
abbrev main_v1501 : Ref sig .tc := ⟨.hbm, 2217, rfl⟩
abbrev main_v1502 : Ref sig .tc := ⟨.hbm, 2218, rfl⟩
abbrev main_c_520 : Ref sig .tc := ⟨.hbm, 2219, rfl⟩
abbrev main_v1503 : Ref sig .tc := ⟨.hbm, 2220, rfl⟩
abbrev main_v1504 : Ref sig .tc := ⟨.hbm, 2221, rfl⟩
abbrev main_v1505 : Ref sig .tc := ⟨.hbm, 2222, rfl⟩
abbrev main_v1506 : Ref sig .tc := ⟨.hbm, 2223, rfl⟩
abbrev main_v1507 : Ref sig .tc := ⟨.hbm, 2224, rfl⟩
abbrev main_c_521 : Ref sig .tc := ⟨.hbm, 2225, rfl⟩
abbrev main_v1508 : Ref sig .tc := ⟨.hbm, 2226, rfl⟩
abbrev main_v1509 : Ref sig .tc := ⟨.hbm, 2227, rfl⟩
abbrev main_c_522 : Ref sig .tc := ⟨.hbm, 2228, rfl⟩
abbrev main_v1510 : Ref sig .tc := ⟨.hbm, 2229, rfl⟩
abbrev main_v1511 : Ref sig .tc := ⟨.hbm, 2230, rfl⟩
abbrev main_v1512 : Ref sig .tc := ⟨.hbm, 2231, rfl⟩
abbrev main_v1513 : Ref sig .tc := ⟨.hbm, 2232, rfl⟩
abbrev main_c_523 : Ref sig .tc := ⟨.hbm, 2233, rfl⟩
abbrev main_v1514 : Ref sig .tc := ⟨.hbm, 2234, rfl⟩
abbrev main_v1515 : Ref sig .tc := ⟨.hbm, 2235, rfl⟩
abbrev main_v1516 : Ref sig .tc := ⟨.hbm, 2236, rfl⟩
abbrev main_v1517 : Ref sig .tc := ⟨.hbm, 2237, rfl⟩
abbrev main_v1518 : Ref sig .tc := ⟨.hbm, 2238, rfl⟩
abbrev main_c_524 : Ref sig .tc := ⟨.hbm, 2239, rfl⟩
abbrev main_v1519 : Ref sig .tc := ⟨.hbm, 2240, rfl⟩
abbrev main_v1520 : Ref sig .tc := ⟨.hbm, 2241, rfl⟩
abbrev main_c_525 : Ref sig .tc := ⟨.hbm, 2242, rfl⟩
abbrev main_v1521 : Ref sig .tc := ⟨.hbm, 2243, rfl⟩
abbrev main_v1522 : Ref sig .tc := ⟨.hbm, 2244, rfl⟩
abbrev main_v1523 : Ref sig .tc := ⟨.hbm, 2245, rfl⟩
abbrev main_v1524 : Ref sig .tc := ⟨.hbm, 2246, rfl⟩
abbrev main_c_526 : Ref sig .tc := ⟨.hbm, 2247, rfl⟩
abbrev main_v1525 : Ref sig .tc := ⟨.hbm, 2248, rfl⟩
abbrev main_v1526 : Ref sig .tc := ⟨.hbm, 2249, rfl⟩
abbrev main_v1527 : Ref sig .tc := ⟨.hbm, 2250, rfl⟩
abbrev main_v1528 : Ref sig .tc := ⟨.hbm, 2251, rfl⟩
abbrev main_v1529 : Ref sig .tc := ⟨.hbm, 2252, rfl⟩
abbrev main_c_527 : Ref sig .tc := ⟨.hbm, 2253, rfl⟩
abbrev main_v1530 : Ref sig .tc := ⟨.hbm, 2254, rfl⟩
abbrev main_v1531 : Ref sig .tc := ⟨.hbm, 2255, rfl⟩
abbrev main_c_528 : Ref sig .tc := ⟨.hbm, 2256, rfl⟩
abbrev main_v1532 : Ref sig .tc := ⟨.hbm, 2257, rfl⟩
abbrev main_v1533 : Ref sig .tc := ⟨.hbm, 2258, rfl⟩
abbrev main_v1534 : Ref sig .tc := ⟨.hbm, 2259, rfl⟩
abbrev main_v1535 : Ref sig .tc := ⟨.hbm, 2260, rfl⟩
abbrev main_c_529 : Ref sig .tc := ⟨.hbm, 2261, rfl⟩
abbrev main_v1536 : Ref sig .tc := ⟨.hbm, 2262, rfl⟩
abbrev main_v1537 : Ref sig .tc := ⟨.hbm, 2263, rfl⟩
abbrev main_v1538 : Ref sig .tc := ⟨.hbm, 2264, rfl⟩
abbrev main_v1539 : Ref sig .tc := ⟨.hbm, 2265, rfl⟩
abbrev main_v1540 : Ref sig .tc := ⟨.hbm, 2266, rfl⟩
abbrev main_c_530 : Ref sig .tc := ⟨.hbm, 2267, rfl⟩
abbrev main_v1541 : Ref sig .tc := ⟨.hbm, 2268, rfl⟩
abbrev main_v1542 : Ref sig .tc := ⟨.hbm, 2269, rfl⟩
abbrev main_c_531 : Ref sig .tc := ⟨.hbm, 2270, rfl⟩
abbrev main_v1543 : Ref sig .tc := ⟨.hbm, 2271, rfl⟩
abbrev main_v1544 : Ref sig .tc := ⟨.hbm, 2272, rfl⟩
abbrev main_v1545 : Ref sig .tc := ⟨.hbm, 2273, rfl⟩
abbrev main_v1546 : Ref sig .tc := ⟨.hbm, 2274, rfl⟩
abbrev main_c_532 : Ref sig .tc := ⟨.hbm, 2275, rfl⟩
abbrev main_v1547 : Ref sig .tc := ⟨.hbm, 2276, rfl⟩
abbrev main_v1548 : Ref sig .tc := ⟨.hbm, 2277, rfl⟩
abbrev main_v1549 : Ref sig .tc := ⟨.hbm, 2278, rfl⟩
abbrev main_v1550 : Ref sig .tc := ⟨.hbm, 2279, rfl⟩
abbrev main_v1551 : Ref sig .tc := ⟨.hbm, 2280, rfl⟩
abbrev main_c_533 : Ref sig .tc := ⟨.hbm, 2281, rfl⟩
abbrev main_v1552 : Ref sig .tc := ⟨.hbm, 2282, rfl⟩
abbrev main_v1553 : Ref sig .tc := ⟨.hbm, 2283, rfl⟩
abbrev main_c_534 : Ref sig .tc := ⟨.hbm, 2284, rfl⟩
abbrev main_v1554 : Ref sig .tc := ⟨.hbm, 2285, rfl⟩
abbrev main_v1555 : Ref sig .tc := ⟨.hbm, 2286, rfl⟩
abbrev main_v1556 : Ref sig .tc := ⟨.hbm, 2287, rfl⟩
abbrev main_v1557 : Ref sig .tc := ⟨.hbm, 2288, rfl⟩
abbrev main_c_535 : Ref sig .tc := ⟨.hbm, 2289, rfl⟩
abbrev main_v1558 : Ref sig .tc := ⟨.hbm, 2290, rfl⟩
abbrev main_v1559 : Ref sig .tc := ⟨.hbm, 2291, rfl⟩
abbrev main_v1560 : Ref sig .tc := ⟨.hbm, 2292, rfl⟩
abbrev main_v1561 : Ref sig .tc := ⟨.hbm, 2293, rfl⟩
abbrev main_v1562 : Ref sig .tc := ⟨.hbm, 2294, rfl⟩
abbrev main_c_536 : Ref sig .tc := ⟨.hbm, 2295, rfl⟩
abbrev main_v1563 : Ref sig .tc := ⟨.hbm, 2296, rfl⟩
abbrev main_v1564 : Ref sig .tc := ⟨.hbm, 2297, rfl⟩
abbrev main_c_537 : Ref sig .tc := ⟨.hbm, 2298, rfl⟩
abbrev main_v1565 : Ref sig .tc := ⟨.hbm, 2299, rfl⟩
abbrev main_v1566 : Ref sig .tc := ⟨.hbm, 2300, rfl⟩
abbrev main_v1567 : Ref sig .tc := ⟨.hbm, 2301, rfl⟩
abbrev main_v1568 : Ref sig .tc := ⟨.hbm, 2302, rfl⟩
abbrev main_c_538 : Ref sig .tc := ⟨.hbm, 2303, rfl⟩
abbrev main_v1569 : Ref sig .tc := ⟨.hbm, 2304, rfl⟩
abbrev main_v1570 : Ref sig .tc := ⟨.hbm, 2305, rfl⟩
abbrev main_v1571 : Ref sig .tc := ⟨.hbm, 2306, rfl⟩
abbrev main_v1572 : Ref sig .tc := ⟨.hbm, 2307, rfl⟩
abbrev main_v1573 : Ref sig .tc := ⟨.hbm, 2308, rfl⟩
abbrev main_c_539 : Ref sig .tc := ⟨.hbm, 2309, rfl⟩
abbrev main_v1574 : Ref sig .tc := ⟨.hbm, 2310, rfl⟩
abbrev main_v1575 : Ref sig .tc := ⟨.hbm, 2311, rfl⟩
abbrev main_c_540 : Ref sig .tc := ⟨.hbm, 2312, rfl⟩
abbrev main_v1576 : Ref sig .tc := ⟨.hbm, 2313, rfl⟩
abbrev main_v1577 : Ref sig .tc := ⟨.hbm, 2314, rfl⟩
abbrev main_v1578 : Ref sig .tc := ⟨.hbm, 2315, rfl⟩
abbrev main_v1579 : Ref sig .tc := ⟨.hbm, 2316, rfl⟩
abbrev main_c_541 : Ref sig .tc := ⟨.hbm, 2317, rfl⟩
abbrev main_v1580 : Ref sig .tc := ⟨.hbm, 2318, rfl⟩
abbrev main_v1581 : Ref sig .tc := ⟨.hbm, 2319, rfl⟩
abbrev main_v1582 : Ref sig .tc := ⟨.hbm, 2320, rfl⟩
abbrev main_v1583 : Ref sig .tc := ⟨.hbm, 2321, rfl⟩
abbrev main_v1584 : Ref sig .tc := ⟨.hbm, 2322, rfl⟩
abbrev main_c_542 : Ref sig .tc := ⟨.hbm, 2323, rfl⟩
abbrev main_v1585 : Ref sig .tc := ⟨.hbm, 2324, rfl⟩
abbrev main_v1586 : Ref sig .tc := ⟨.hbm, 2325, rfl⟩
abbrev main_c_543 : Ref sig .tc := ⟨.hbm, 2326, rfl⟩
abbrev main_v1587 : Ref sig .tc := ⟨.hbm, 2327, rfl⟩
abbrev main_v1588 : Ref sig .tc := ⟨.hbm, 2328, rfl⟩
abbrev main_v1589 : Ref sig .tc := ⟨.hbm, 2329, rfl⟩
abbrev main_v1590 : Ref sig .tc := ⟨.hbm, 2330, rfl⟩
abbrev main_c_544 : Ref sig .tc := ⟨.hbm, 2331, rfl⟩
abbrev main_v1591 : Ref sig .tc := ⟨.hbm, 2332, rfl⟩
abbrev main_v1592 : Ref sig .tc := ⟨.hbm, 2333, rfl⟩
abbrev main_v1593 : Ref sig .tc := ⟨.hbm, 2334, rfl⟩
abbrev main_v1594 : Ref sig .tc := ⟨.hbm, 2335, rfl⟩
abbrev main_v1595 : Ref sig .tc := ⟨.hbm, 2336, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S200000x3_S200000x1_0_0 : S200000x3.Slices ![0, 0] S200000x1
  shapeCasts_S200000x1_S200000 : S200000x1.ShapeCasts S200000
  bcast_S_S200000 : S_.BroadcastsInDim S200000 (![] : Fin 0 → Fin S200000.rank)
  slices_S200000x3_S200000x1_0_1 : S200000x3.Slices ![0, 1] S200000x1
  slices_S200000x3_S200000x1_0_2 : S200000x3.Slices ![0, 2] S200000x1
  bcast_S_S5529600 : S_.BroadcastsInDim S5529600 (![] : Fin 0 → Fin S5529600.rank)
  bcast_S200000_S200000x1_0 : S200000.BroadcastsInDim S200000x1 (![0] : Fin 1 → Fin S200000x1.rank)
  bitsLt_bf16_f32 : FTy.bits .bf16 < FTy.bits .f32
  transposes_S27x128x20_S128x27x20_1_0_2 : S27x128x20.Transposes [1, 0, 2] S128x27x20
  shapeCasts_S128x27x20_S128x540 : S128x27x20.ShapeCasts S128x540
  pads_S128x540_S128x640_000_01000 : S128x540.Pads (![0, 0] : Fin 2 → Nat) ![0, 100] ![0, 0] S128x640
  h_S_ : 0 < S_.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x640_S128x640_0_0 : ∀ a, (![0, 0] : Fin 2 → Nat) a + S128x640.size a ≤ S128x640.size a
  h_S128x640 : 0 < S128x640.numel
  shapeCasts_S128x640_S128x640 : S128x640.ShapeCasts S128x640
  inb_S4000x640_S4000x640_0_0 : ∀ a, (![0, 0] : Fin 2 → Nat) a + S4000x640.size a ≤ S4000x640.size a
  h_S4000x640 : 0 < S4000x640.numel
  packedbf16_S4000x640_S4000x640_0_0 : (Rect.unit (s := S4000x640) ![0, 0] S4000x640.size inb_S4000x640_S4000x640_0_0).PackedRows (EltTy.packing .bf16)
  bcast_S_S1x640 : S_.BroadcastsInDim S1x640 (![] : Fin 0 → Fin S1x640.rank)
  concatenates_S200000x640_S1x640_S200001x640_d0 : Shape.Concatenates [S200000x640, S1x640] S200001x640 0
  bcast_S20_S200000x20_1 : S20.BroadcastsInDim S200000x20 (![1] : Fin 1 → Fin S200000x20.rank)
  bcast_S_S200000x1 : S_.BroadcastsInDim S200000x1 (![] : Fin 0 → Fin S200000x1.rank)
  concatenates_S200000x1_S200000x1_S200000x2_d1 : Shape.Concatenates [S200000x1, S200000x1] S200000x2 1
  scatter_S5529600_S200000x1_S200000_n_0_0_1_wf : ScatterDims.WF S5529600 S200000x1 S200000 [] [0] [0] 1
  gather_S5529600_S200000x1_S200000_n_0_n_n_0_1_1_wf : GatherDims.WF S5529600 S200000x1 S200000 [] [0] [] [0] [] 1 ![1]
  dot_S4000x128_S128x640_S4000x640_1_0_0_1_n_n_wf : DotDims.WF S4000x128 S128x640 S4000x640 [1] [0] [0] [1] [] []
  gather_S200001x640_S200000x2_S200000x20_1_0_n_n_01_1_120_wf : GatherDims.WF S200001x640 S200000x2 S200000x20 [1] [0] [] [0, 1] [] 1 ![1, 20]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .bf16 = 32 ∨ (Rect.block (s := S200000x128) S4000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x640.size a ≤ S128x640.size a
  hwx0_1 : ∀ i : grid0.Coords, EltTy.bits .bf16 = 32 ∨ (Rect.block (s := S128x640) S128x640.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x640.size a ≤ S200000x640.size a
  hwx0_2 : ∀ i : grid0.Coords, EltTy.bits .bf16 = 32 ∨ (Rect.block (s := S200000x640) S4000x640.size (cc0_transform_2 i) (hinb0_2 i)).WholeWords (EltTy.packing .bf16)

variable [Facts₀]

def scatter_S5529600_S200000x1_S200000_n_0_0_1 : ScatterDims S5529600 S200000x1 S200000 where
  updateWindowDims := []
  insertedWindowDims := [0]
  scatterDimsToOperandDims := [0]
  indexVectorDim := 1
  wf := scatter_S5529600_S200000x1_S200000_n_0_0_1_wf
def gather_S5529600_S200000x1_S200000_n_0_n_n_0_1_1 : GatherDims S5529600 S200000x1 S200000 where
  offsetDims := []
  collapsedSliceDims := [0]
  operandBatchingDims := []
  startIndicesBatchingDims := []
  startIndexMap := [0]
  indexVectorDim := 1
  sliceSizes := ![1]
  wf := gather_S5529600_S200000x1_S200000_n_0_n_n_0_1_1_wf
def dot_S4000x128_S128x640_S4000x640_1_0_0_1_n_n : DotDims S4000x128 S128x640 S4000x640 where
  lhsContracting := [1]
  rhsContracting := [0]
  lhsNonContracting := [0]
  rhsNonContracting := [1]
  lhsBatch := []
  rhsBatch := []
  wf := dot_S4000x128_S128x640_S4000x640_1_0_0_1_n_n_wf
def gather_S200001x640_S200000x2_S200000x20_1_0_n_n_01_1_120 : GatherDims S200001x640 S200000x2 S200000x20 where
  offsetDims := [1]
  collapsedSliceDims := [0]
  operandBatchingDims := []
  startIndicesBatchingDims := []
  startIndexMap := [0, 1]
  indexVectorDim := 1
  sliceSizes := ![1, 20]
  wf := gather_S200001x640_S200000x2_S200000x20_1_0_n_n_01_1_120_wf

abbrev win0_0 : Pipeline.Window sig grid0 :=
  Pipeline.Window.ofSpec (Memref.whole main_v1290) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1294) S128x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1295) S4000x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x128 : Shape := ⟨2, ![200000, 128]⟩
abbrev S27x128x20 : Shape := ⟨3, ![27, 128, 20]⟩
abbrev S20 : Shape := ⟨1, ![20]⟩
abbrev S200000x3 : Shape := ⟨2, ![200000, 3]⟩
abbrev S200000x1 : Shape := ⟨2, ![200000, 1]⟩
abbrev S200000 : Shape := ⟨1, ![200000]⟩
abbrev S_ : Shape := ⟨0, ![]⟩
abbrev S5529600 : Shape := ⟨1, ![5529600]⟩
abbrev S200000x20 : Shape := ⟨2, ![200000, 20]⟩
abbrev S1x128x20 : Shape := ⟨3, ![1, 128, 20]⟩
abbrev S128x20 : Shape := ⟨2, ![128, 20]⟩

abbrev nBuf : Space → Nat
  | .hbm => 2434
  | .vmem => 0
  | .smem => 0
  | _ => 0

abbrev hbmTy0_0 (i : Nat) : BufTy := match i % 128 with
  | 0 => ⟨S200000x128, .f32⟩
  | 1 => ⟨S27x128x20, .f32⟩
  | 2 => ⟨S20, .f32⟩
  | 3 => ⟨S200000x3, .i32⟩
  | 4 => ⟨S200000x1, .i32⟩
  | 5 => ⟨S200000, .i32⟩
  | 6 => ⟨S_, .i32⟩
  | 7 => ⟨S200000, .i32⟩
  | 8 => ⟨S200000, .i32⟩
  | 9 => ⟨S200000x1, .i32⟩
  | 10 => ⟨S200000, .i32⟩
  | 11 => ⟨S200000, .i32⟩
  | 12 => ⟨S_, .i32⟩
  | 13 => ⟨S200000, .i32⟩
  | 14 => ⟨S200000, .i32⟩
  | 15 => ⟨S200000x1, .i32⟩
  | 16 => ⟨S200000, .i32⟩
  | 17 => ⟨S200000, .i32⟩
  | 18 => ⟨S_, .i32⟩
  | 19 => ⟨S5529600, .i32⟩
  | 20 => ⟨S200000, .i32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S5529600, .i32⟩
  | 30 => ⟨S200000x20, .f32⟩
  | 31 => ⟨S200000x1, .i32⟩
  | 32 => ⟨S200000, .i32⟩
  | 33 => ⟨S_, .i32⟩
  | 34 => ⟨S200000, .i32⟩
  | 35 => ⟨S200000, .i32⟩
  | 36 => ⟨S200000x1, .i32⟩
  | 37 => ⟨S200000, .i32⟩
  | 38 => ⟨S_, .i32⟩
  | 39 => ⟨S200000, .i32⟩
  | 40 => ⟨S200000, .i32⟩
  | 41 => ⟨S200000x1, .i32⟩
  | 42 => ⟨S200000, .i32⟩
  | 43 => ⟨S_, .i32⟩
  | 44 => ⟨S200000, .i32⟩
  | 45 => ⟨S200000, .i32⟩
  | 46 => ⟨S_, .i32⟩
  | 47 => ⟨S200000, .i32⟩
  | 48 => ⟨S200000, .i1⟩
  | 49 => ⟨S_, .i32⟩
  | 50 => ⟨S200000, .i32⟩
  | 51 => ⟨S200000, .i1⟩
  | 52 => ⟨S200000, .i1⟩
  | 53 => ⟨S_, .i32⟩
  | 54 => ⟨S200000, .i32⟩
  | 55 => ⟨S200000, .i1⟩
  | 56 => ⟨S200000, .i1⟩
  | 57 => ⟨S_, .i32⟩
  | 58 => ⟨S200000, .i32⟩
  | 59 => ⟨S200000, .i1⟩
  | 60 => ⟨S200000, .i1⟩
  | 61 => ⟨S_, .i32⟩
  | 62 => ⟨S200000, .i32⟩
  | 63 => ⟨S200000, .i1⟩
  | 64 => ⟨S200000, .i1⟩
  | 65 => ⟨S_, .i32⟩
  | 66 => ⟨S200000, .i32⟩
  | 67 => ⟨S200000, .i1⟩
  | 68 => ⟨S200000, .i1⟩
  | 69 => ⟨S_, .i32⟩
  | 70 => ⟨S200000, .i32⟩
  | 71 => ⟨S200000, .i32⟩
  | 72 => ⟨S200000, .i32⟩
  | 73 => ⟨S_, .i32⟩
  | 74 => ⟨S200000, .i32⟩
  | 75 => ⟨S200000, .i32⟩
  | 76 => ⟨S200000, .i32⟩
  | 77 => ⟨S_, .i32⟩
  | 78 => ⟨S_, .i32⟩
  | 79 => ⟨S_, .i32⟩
  | 80 => ⟨S200000, .i32⟩
  | 81 => ⟨S200000, .i32⟩
  | 82 => ⟨S_, .i32⟩
  | 83 => ⟨S200000, .i32⟩
  | 84 => ⟨S200000, .i32⟩
  | 85 => ⟨S_, .i32⟩
  | 86 => ⟨S200000, .i32⟩
  | 87 => ⟨S200000, .i1⟩
  | 88 => ⟨S_, .i32⟩
  | 89 => ⟨S200000, .i32⟩
  | 90 => ⟨S200000, .i32⟩
  | 91 => ⟨S200000, .i32⟩
  | 92 => ⟨S200000x1, .i32⟩
  | 93 => ⟨S200000, .i32⟩
  | 94 => ⟨S_, .i32⟩
  | 95 => ⟨S200000, .i32⟩
  | 96 => ⟨S200000, .i1⟩
  | 97 => ⟨S200000, .i1⟩
  | 98 => ⟨S200000x1, .i1⟩
  | 99 => ⟨S_, .i32⟩
  | 100 => ⟨S200000, .i32⟩
  | 101 => ⟨S200000, .i32⟩
  | 102 => ⟨S_, .i32⟩
  | 103 => ⟨S200000, .i32⟩
  | 104 => ⟨S200000, .i1⟩
  | 105 => ⟨S_, .i32⟩
  | 106 => ⟨S200000, .i32⟩
  | 107 => ⟨S200000, .i32⟩
  | 108 => ⟨S200000, .i32⟩
  | 109 => ⟨S200000x1, .i32⟩
  | 110 => ⟨S200000x128, .f32⟩
  | 111 => ⟨S_, .f32⟩
  | 112 => ⟨S_, .f32⟩
  | 113 => ⟨S200000x128, .i1⟩
  | 114 => ⟨S200000x128, .f32⟩
  | 115 => ⟨S200000x128, .f32⟩
  | 116 => ⟨S1x128x20, .f32⟩
  | 117 => ⟨S128x20, .f32⟩
  | 118 => ⟨S200000x20, .f32⟩
  | 119 => ⟨S200000x20, .f32⟩
  | 120 => ⟨S200000x1, .i32⟩
  | 121 => ⟨S200000, .i32⟩
  | 122 => ⟨S_, .i32⟩
  | 123 => ⟨S200000, .i32⟩
  | 124 => ⟨S200000, .i32⟩
  | 125 => ⟨S200000x1, .i32⟩
  | 126 => ⟨S200000, .i32⟩
  | 127 => ⟨S_, .i32⟩
  | _ => ⟨S200000x128, .f32⟩

abbrev hbmTy0_1 (i : Nat) : BufTy := match i % 128 with
  | 0 => ⟨S200000, .i32⟩
  | 1 => ⟨S200000, .i32⟩
  | 2 => ⟨S200000x1, .i32⟩
  | 3 => ⟨S200000, .i32⟩
  | 4 => ⟨S_, .i32⟩
  | 5 => ⟨S200000, .i32⟩
  | 6 => ⟨S200000, .i32⟩
  | 7 => ⟨S_, .i32⟩
  | 8 => ⟨S200000, .i32⟩
  | 9 => ⟨S200000, .i1⟩
  | 10 => ⟨S_, .i32⟩
  | 11 => ⟨S200000, .i32⟩
  | 12 => ⟨S200000, .i1⟩
  | 13 => ⟨S200000, .i1⟩
  | 14 => ⟨S_, .i32⟩
  | 15 => ⟨S200000, .i32⟩
  | 16 => ⟨S200000, .i1⟩
  | 17 => ⟨S200000, .i1⟩
  | 18 => ⟨S_, .i32⟩
  | 19 => ⟨S200000, .i32⟩
  | 20 => ⟨S200000, .i1⟩
  | 21 => ⟨S200000, .i1⟩
  | 22 => ⟨S_, .i32⟩
  | 23 => ⟨S200000, .i32⟩
  | 24 => ⟨S200000, .i1⟩
  | 25 => ⟨S200000, .i1⟩
  | 26 => ⟨S_, .i32⟩
  | 27 => ⟨S200000, .i32⟩
  | 28 => ⟨S200000, .i1⟩
  | 29 => ⟨S200000, .i1⟩
  | 30 => ⟨S_, .i32⟩
  | 31 => ⟨S200000, .i32⟩
  | 32 => ⟨S200000, .i32⟩
  | 33 => ⟨S200000, .i32⟩
  | 34 => ⟨S_, .i32⟩
  | 35 => ⟨S200000, .i32⟩
  | 36 => ⟨S200000, .i32⟩
  | 37 => ⟨S200000, .i32⟩
  | 38 => ⟨S_, .i32⟩
  | 39 => ⟨S_, .i32⟩
  | 40 => ⟨S_, .i32⟩
  | 41 => ⟨S200000, .i32⟩
  | 42 => ⟨S200000, .i32⟩
  | 43 => ⟨S_, .i32⟩
  | 44 => ⟨S200000, .i32⟩
  | 45 => ⟨S200000, .i32⟩
  | 46 => ⟨S_, .i32⟩
  | 47 => ⟨S200000, .i32⟩
  | 48 => ⟨S200000, .i1⟩
  | 49 => ⟨S_, .i32⟩
  | 50 => ⟨S200000, .i32⟩
  | 51 => ⟨S200000, .i32⟩
  | 52 => ⟨S200000, .i32⟩
  | 53 => ⟨S200000x1, .i32⟩
  | 54 => ⟨S200000, .i32⟩
  | 55 => ⟨S_, .i32⟩
  | 56 => ⟨S200000, .i32⟩
  | 57 => ⟨S200000, .i1⟩
  | 58 => ⟨S200000, .i1⟩
  | 59 => ⟨S200000x1, .i1⟩
  | 60 => ⟨S_, .i32⟩
  | 61 => ⟨S200000, .i32⟩
  | 62 => ⟨S200000, .i32⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S200000x128, .f32⟩
  | 72 => ⟨S_, .f32⟩
  | 73 => ⟨S_, .f32⟩
  | 74 => ⟨S200000x128, .i1⟩
  | 75 => ⟨S200000x128, .f32⟩
  | 76 => ⟨S200000x128, .f32⟩
  | 77 => ⟨S1x128x20, .f32⟩
  | 78 => ⟨S128x20, .f32⟩
  | 79 => ⟨S200000x20, .f32⟩
  | 80 => ⟨S200000x20, .f32⟩
  | 81 => ⟨S200000x1, .i32⟩
  | 82 => ⟨S200000, .i32⟩
  | 83 => ⟨S_, .i32⟩
  | 84 => ⟨S200000, .i32⟩
  | 85 => ⟨S200000, .i32⟩
  | 86 => ⟨S200000x1, .i32⟩
  | 87 => ⟨S200000, .i32⟩
  | 88 => ⟨S_, .i32⟩
  | 89 => ⟨S200000, .i32⟩
  | 90 => ⟨S200000, .i32⟩
  | 91 => ⟨S200000x1, .i32⟩
  | 92 => ⟨S200000, .i32⟩
  | 93 => ⟨S_, .i32⟩
  | 94 => ⟨S200000, .i32⟩
  | 95 => ⟨S200000, .i32⟩
  | 96 => ⟨S_, .i32⟩
  | 97 => ⟨S200000, .i32⟩
  | 98 => ⟨S200000, .i1⟩
  | 99 => ⟨S_, .i32⟩
  | 100 => ⟨S200000, .i32⟩
  | 101 => ⟨S200000, .i1⟩
  | 102 => ⟨S200000, .i1⟩
  | 103 => ⟨S_, .i32⟩
  | 104 => ⟨S200000, .i32⟩
  | 105 => ⟨S200000, .i1⟩
  | 106 => ⟨S200000, .i1⟩
  | 107 => ⟨S_, .i32⟩
  | 108 => ⟨S200000, .i32⟩
  | 109 => ⟨S200000, .i1⟩
  | 110 => ⟨S200000, .i1⟩
  | 111 => ⟨S_, .i32⟩
  | 112 => ⟨S200000, .i32⟩
  | 113 => ⟨S200000, .i1⟩
  | 114 => ⟨S200000, .i1⟩
  | 115 => ⟨S_, .i32⟩
  | 116 => ⟨S200000, .i32⟩
  | 117 => ⟨S200000, .i1⟩
  | 118 => ⟨S200000, .i1⟩
  | 119 => ⟨S_, .i32⟩
  | 120 => ⟨S200000, .i32⟩
  | 121 => ⟨S200000, .i32⟩
  | 122 => ⟨S200000, .i32⟩
  | 123 => ⟨S_, .i32⟩
  | 124 => ⟨S200000, .i32⟩
  | 125 => ⟨S200000, .i32⟩
  | 126 => ⟨S200000, .i32⟩
  | 127 => ⟨S_, .i32⟩
  | _ => ⟨S200000x128, .f32⟩

abbrev hbmTy0_2 (i : Nat) : BufTy := match i % 128 with
  | 0 => ⟨S_, .i32⟩
  | 1 => ⟨S_, .i32⟩
  | 2 => ⟨S200000, .i32⟩
  | 3 => ⟨S200000, .i32⟩
  | 4 => ⟨S_, .i32⟩
  | 5 => ⟨S200000, .i32⟩
  | 6 => ⟨S200000, .i32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S200000, .i32⟩
  | 16 => ⟨S_, .i32⟩
  | 17 => ⟨S200000, .i32⟩
  | 18 => ⟨S200000, .i1⟩
  | 19 => ⟨S200000, .i1⟩
  | 20 => ⟨S200000x1, .i1⟩
  | 21 => ⟨S_, .i32⟩
  | 22 => ⟨S200000, .i32⟩
  | 23 => ⟨S200000, .i32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000x128, .f32⟩
  | 33 => ⟨S_, .f32⟩
  | 34 => ⟨S_, .f32⟩
  | 35 => ⟨S200000x128, .i1⟩
  | 36 => ⟨S200000x128, .f32⟩
  | 37 => ⟨S200000x128, .f32⟩
  | 38 => ⟨S1x128x20, .f32⟩
  | 39 => ⟨S128x20, .f32⟩
  | 40 => ⟨S200000x20, .f32⟩
  | 41 => ⟨S200000x20, .f32⟩
  | 42 => ⟨S200000x1, .i32⟩
  | 43 => ⟨S200000, .i32⟩
  | 44 => ⟨S_, .i32⟩
  | 45 => ⟨S200000, .i32⟩
  | 46 => ⟨S200000, .i32⟩
  | 47 => ⟨S200000x1, .i32⟩
  | 48 => ⟨S200000, .i32⟩
  | 49 => ⟨S_, .i32⟩
  | 50 => ⟨S200000, .i32⟩
  | 51 => ⟨S200000, .i32⟩
  | 52 => ⟨S200000x1, .i32⟩
  | 53 => ⟨S200000, .i32⟩
  | 54 => ⟨S_, .i32⟩
  | 55 => ⟨S200000, .i32⟩
  | 56 => ⟨S200000, .i32⟩
  | 57 => ⟨S_, .i32⟩
  | 58 => ⟨S200000, .i32⟩
  | 59 => ⟨S200000, .i1⟩
  | 60 => ⟨S_, .i32⟩
  | 61 => ⟨S200000, .i32⟩
  | 62 => ⟨S200000, .i1⟩
  | 63 => ⟨S200000, .i1⟩
  | 64 => ⟨S_, .i32⟩
  | 65 => ⟨S200000, .i32⟩
  | 66 => ⟨S200000, .i1⟩
  | 67 => ⟨S200000, .i1⟩
  | 68 => ⟨S_, .i32⟩
  | 69 => ⟨S200000, .i32⟩
  | 70 => ⟨S200000, .i1⟩
  | 71 => ⟨S200000, .i1⟩
  | 72 => ⟨S_, .i32⟩
  | 73 => ⟨S200000, .i32⟩
  | 74 => ⟨S200000, .i1⟩
  | 75 => ⟨S200000, .i1⟩
  | 76 => ⟨S_, .i32⟩
  | 77 => ⟨S200000, .i32⟩
  | 78 => ⟨S200000, .i1⟩
  | 79 => ⟨S200000, .i1⟩
  | 80 => ⟨S_, .i32⟩
  | 81 => ⟨S200000, .i32⟩
  | 82 => ⟨S200000, .i32⟩
  | 83 => ⟨S200000, .i32⟩
  | 84 => ⟨S_, .i32⟩
  | 85 => ⟨S200000, .i32⟩
  | 86 => ⟨S200000, .i32⟩
  | 87 => ⟨S200000, .i32⟩
  | 88 => ⟨S_, .i32⟩
  | 89 => ⟨S_, .i32⟩
  | 90 => ⟨S_, .i32⟩
  | 91 => ⟨S200000, .i32⟩
  | 92 => ⟨S200000, .i32⟩
  | 93 => ⟨S_, .i32⟩
  | 94 => ⟨S200000, .i32⟩
  | 95 => ⟨S200000, .i32⟩
  | 96 => ⟨S_, .i32⟩
  | 97 => ⟨S200000, .i32⟩
  | 98 => ⟨S200000, .i1⟩
  | 99 => ⟨S_, .i32⟩
  | 100 => ⟨S200000, .i32⟩
  | 101 => ⟨S200000, .i32⟩
  | 102 => ⟨S200000, .i32⟩
  | 103 => ⟨S200000x1, .i32⟩
  | 104 => ⟨S200000, .i32⟩
  | 105 => ⟨S_, .i32⟩
  | 106 => ⟨S200000, .i32⟩
  | 107 => ⟨S200000, .i1⟩
  | 108 => ⟨S200000, .i1⟩
  | 109 => ⟨S200000x1, .i1⟩
  | 110 => ⟨S_, .i32⟩
  | 111 => ⟨S200000, .i32⟩
  | 112 => ⟨S200000, .i32⟩
  | 113 => ⟨S_, .i32⟩
  | 114 => ⟨S200000, .i32⟩
  | 115 => ⟨S200000, .i1⟩
  | 116 => ⟨S_, .i32⟩
  | 117 => ⟨S200000, .i32⟩
  | 118 => ⟨S200000, .i32⟩
  | 119 => ⟨S200000, .i32⟩
  | 120 => ⟨S200000x1, .i32⟩
  | 121 => ⟨S200000x128, .f32⟩
  | 122 => ⟨S_, .f32⟩
  | 123 => ⟨S_, .f32⟩
  | 124 => ⟨S200000x128, .i1⟩
  | 125 => ⟨S200000x128, .f32⟩
  | 126 => ⟨S200000x128, .f32⟩
  | 127 => ⟨S1x128x20, .f32⟩
  | _ => ⟨S200000x128, .f32⟩

abbrev hbmTy0_3 (i : Nat) : BufTy := match i % 128 with
  | 0 => ⟨S128x20, .f32⟩
  | 1 => ⟨S200000x20, .f32⟩
  | 2 => ⟨S200000x20, .f32⟩
  | 3 => ⟨S200000x1, .i32⟩
  | 4 => ⟨S200000, .i32⟩
  | 5 => ⟨S_, .i32⟩
  | 6 => ⟨S200000, .i32⟩
  | 7 => ⟨S200000, .i32⟩
  | 8 => ⟨S200000x1, .i32⟩
  | 9 => ⟨S200000, .i32⟩
  | 10 => ⟨S_, .i32⟩
  | 11 => ⟨S200000, .i32⟩
  | 12 => ⟨S200000, .i32⟩
  | 13 => ⟨S200000x1, .i32⟩
  | 14 => ⟨S200000, .i32⟩
  | 15 => ⟨S_, .i32⟩
  | 16 => ⟨S200000, .i32⟩
  | 17 => ⟨S200000, .i32⟩
  | 18 => ⟨S_, .i32⟩
  | 19 => ⟨S200000, .i32⟩
  | 20 => ⟨S200000, .i1⟩
  | 21 => ⟨S_, .i32⟩
  | 22 => ⟨S200000, .i32⟩
  | 23 => ⟨S200000, .i1⟩
  | 24 => ⟨S200000, .i1⟩
  | 25 => ⟨S_, .i32⟩
  | 26 => ⟨S200000, .i32⟩
  | 27 => ⟨S200000, .i1⟩
  | 28 => ⟨S200000, .i1⟩
  | 29 => ⟨S_, .i32⟩
  | 30 => ⟨S200000, .i32⟩
  | 31 => ⟨S200000, .i1⟩
  | 32 => ⟨S200000, .i1⟩
  | 33 => ⟨S_, .i32⟩
  | 34 => ⟨S200000, .i32⟩
  | 35 => ⟨S200000, .i1⟩
  | 36 => ⟨S200000, .i1⟩
  | 37 => ⟨S_, .i32⟩
  | 38 => ⟨S200000, .i32⟩
  | 39 => ⟨S200000, .i1⟩
  | 40 => ⟨S200000, .i1⟩
  | 41 => ⟨S_, .i32⟩
  | 42 => ⟨S200000, .i32⟩
  | 43 => ⟨S200000, .i32⟩
  | 44 => ⟨S200000, .i32⟩
  | 45 => ⟨S_, .i32⟩
  | 46 => ⟨S200000, .i32⟩
  | 47 => ⟨S200000, .i32⟩
  | 48 => ⟨S200000, .i32⟩
  | 49 => ⟨S_, .i32⟩
  | 50 => ⟨S_, .i32⟩
  | 51 => ⟨S_, .i32⟩
  | 52 => ⟨S200000, .i32⟩
  | 53 => ⟨S200000, .i32⟩
  | 54 => ⟨S_, .i32⟩
  | 55 => ⟨S200000, .i32⟩
  | 56 => ⟨S200000, .i32⟩
  | 57 => ⟨S_, .i32⟩
  | 58 => ⟨S200000, .i32⟩
  | 59 => ⟨S200000, .i1⟩
  | 60 => ⟨S_, .i32⟩
  | 61 => ⟨S200000, .i32⟩
  | 62 => ⟨S200000, .i32⟩
  | 63 => ⟨S200000, .i32⟩
  | 64 => ⟨S200000x1, .i32⟩
  | 65 => ⟨S200000, .i32⟩
  | 66 => ⟨S_, .i32⟩
  | 67 => ⟨S200000, .i32⟩
  | 68 => ⟨S200000, .i1⟩
  | 69 => ⟨S200000, .i1⟩
  | 70 => ⟨S200000x1, .i1⟩
  | 71 => ⟨S_, .i32⟩
  | 72 => ⟨S200000, .i32⟩
  | 73 => ⟨S200000, .i32⟩
  | 74 => ⟨S_, .i32⟩
  | 75 => ⟨S200000, .i32⟩
  | 76 => ⟨S200000, .i1⟩
  | 77 => ⟨S_, .i32⟩
  | 78 => ⟨S200000, .i32⟩
  | 79 => ⟨S200000, .i32⟩
  | 80 => ⟨S200000, .i32⟩
  | 81 => ⟨S200000x1, .i32⟩
  | 82 => ⟨S200000x128, .f32⟩
  | 83 => ⟨S_, .f32⟩
  | 84 => ⟨S_, .f32⟩
  | 85 => ⟨S200000x128, .i1⟩
  | 86 => ⟨S200000x128, .f32⟩
  | 87 => ⟨S200000x128, .f32⟩
  | 88 => ⟨S1x128x20, .f32⟩
  | 89 => ⟨S128x20, .f32⟩
  | 90 => ⟨S200000x20, .f32⟩
  | 91 => ⟨S200000x20, .f32⟩
  | 92 => ⟨S200000x1, .i32⟩
  | 93 => ⟨S200000, .i32⟩
  | 94 => ⟨S_, .i32⟩
  | 95 => ⟨S200000, .i32⟩
  | 96 => ⟨S200000, .i32⟩
  | 97 => ⟨S200000x1, .i32⟩
  | 98 => ⟨S200000, .i32⟩
  | 99 => ⟨S_, .i32⟩
  | 100 => ⟨S200000, .i32⟩
  | 101 => ⟨S200000, .i32⟩
  | 102 => ⟨S200000x1, .i32⟩
  | 103 => ⟨S200000, .i32⟩
  | 104 => ⟨S_, .i32⟩
  | 105 => ⟨S200000, .i32⟩
  | 106 => ⟨S200000, .i32⟩
  | 107 => ⟨S_, .i32⟩
  | 108 => ⟨S200000, .i32⟩
  | 109 => ⟨S200000, .i1⟩
  | 110 => ⟨S_, .i32⟩
  | 111 => ⟨S200000, .i32⟩
  | 112 => ⟨S200000, .i1⟩
  | 113 => ⟨S200000, .i1⟩
  | 114 => ⟨S_, .i32⟩
  | 115 => ⟨S200000, .i32⟩
  | 116 => ⟨S200000, .i1⟩
  | 117 => ⟨S200000, .i1⟩
  | 118 => ⟨S_, .i32⟩
  | 119 => ⟨S200000, .i32⟩
  | 120 => ⟨S200000, .i1⟩
  | 121 => ⟨S200000, .i1⟩
  | 122 => ⟨S_, .i32⟩
  | 123 => ⟨S200000, .i32⟩
  | 124 => ⟨S200000, .i1⟩
  | 125 => ⟨S200000, .i1⟩
  | 126 => ⟨S_, .i32⟩
  | 127 => ⟨S200000, .i32⟩
  | _ => ⟨S200000x128, .f32⟩

abbrev hbmTy0_4 (i : Nat) : BufTy := match i % 128 with
  | 0 => ⟨S200000, .i1⟩
  | 1 => ⟨S200000, .i1⟩
  | 2 => ⟨S_, .i32⟩
  | 3 => ⟨S200000, .i32⟩
  | 4 => ⟨S200000, .i32⟩
  | 5 => ⟨S200000, .i32⟩
  | 6 => ⟨S_, .i32⟩
  | 7 => ⟨S200000, .i32⟩
  | 8 => ⟨S200000, .i32⟩
  | 9 => ⟨S200000, .i32⟩
  | 10 => ⟨S_, .i32⟩
  | 11 => ⟨S_, .i32⟩
  | 12 => ⟨S_, .i32⟩
  | 13 => ⟨S200000, .i32⟩
  | 14 => ⟨S200000, .i32⟩
  | 15 => ⟨S_, .i32⟩
  | 16 => ⟨S200000, .i32⟩
  | 17 => ⟨S200000, .i32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000, .i32⟩
  | 27 => ⟨S_, .i32⟩
  | 28 => ⟨S200000, .i32⟩
  | 29 => ⟨S200000, .i1⟩
  | 30 => ⟨S200000, .i1⟩
  | 31 => ⟨S200000x1, .i1⟩
  | 32 => ⟨S_, .i32⟩
  | 33 => ⟨S200000, .i32⟩
  | 34 => ⟨S200000, .i32⟩
  | 35 => ⟨S_, .i32⟩
  | 36 => ⟨S200000, .i32⟩
  | 37 => ⟨S200000, .i1⟩
  | 38 => ⟨S_, .i32⟩
  | 39 => ⟨S200000, .i32⟩
  | 40 => ⟨S200000, .i32⟩
  | 41 => ⟨S200000, .i32⟩
  | 42 => ⟨S200000x1, .i32⟩
  | 43 => ⟨S200000x128, .f32⟩
  | 44 => ⟨S_, .f32⟩
  | 45 => ⟨S_, .f32⟩
  | 46 => ⟨S200000x128, .i1⟩
  | 47 => ⟨S200000x128, .f32⟩
  | 48 => ⟨S200000x128, .f32⟩
  | 49 => ⟨S1x128x20, .f32⟩
  | 50 => ⟨S128x20, .f32⟩
  | 51 => ⟨S200000x20, .f32⟩
  | 52 => ⟨S200000x20, .f32⟩
  | 53 => ⟨S200000x1, .i32⟩
  | 54 => ⟨S200000, .i32⟩
  | 55 => ⟨S_, .i32⟩
  | 56 => ⟨S200000, .i32⟩
  | 57 => ⟨S200000, .i32⟩
  | 58 => ⟨S200000x1, .i32⟩
  | 59 => ⟨S200000, .i32⟩
  | 60 => ⟨S_, .i32⟩
  | 61 => ⟨S200000, .i32⟩
  | 62 => ⟨S200000, .i32⟩
  | 63 => ⟨S200000x1, .i32⟩
  | 64 => ⟨S200000, .i32⟩
  | 65 => ⟨S_, .i32⟩
  | 66 => ⟨S200000, .i32⟩
  | 67 => ⟨S200000, .i32⟩
  | 68 => ⟨S_, .i32⟩
  | 69 => ⟨S200000, .i32⟩
  | 70 => ⟨S200000, .i1⟩
  | 71 => ⟨S_, .i32⟩
  | 72 => ⟨S200000, .i32⟩
  | 73 => ⟨S200000, .i1⟩
  | 74 => ⟨S200000, .i1⟩
  | 75 => ⟨S_, .i32⟩
  | 76 => ⟨S200000, .i32⟩
  | 77 => ⟨S200000, .i1⟩
  | 78 => ⟨S200000, .i1⟩
  | 79 => ⟨S_, .i32⟩
  | 80 => ⟨S200000, .i32⟩
  | 81 => ⟨S200000, .i1⟩
  | 82 => ⟨S200000, .i1⟩
  | 83 => ⟨S_, .i32⟩
  | 84 => ⟨S200000, .i32⟩
  | 85 => ⟨S200000, .i1⟩
  | 86 => ⟨S200000, .i1⟩
  | 87 => ⟨S_, .i32⟩
  | 88 => ⟨S200000, .i32⟩
  | 89 => ⟨S200000, .i1⟩
  | 90 => ⟨S200000, .i1⟩
  | 91 => ⟨S_, .i32⟩
  | 92 => ⟨S200000, .i32⟩
  | 93 => ⟨S200000, .i32⟩
  | 94 => ⟨S200000, .i32⟩
  | 95 => ⟨S_, .i32⟩
  | 96 => ⟨S200000, .i32⟩
  | 97 => ⟨S200000, .i32⟩
  | 98 => ⟨S200000, .i32⟩
  | 99 => ⟨S_, .i32⟩
  | 100 => ⟨S_, .i32⟩
  | 101 => ⟨S_, .i32⟩
  | 102 => ⟨S200000, .i32⟩
  | 103 => ⟨S200000, .i32⟩
  | 104 => ⟨S_, .i32⟩
  | 105 => ⟨S200000, .i32⟩
  | 106 => ⟨S200000, .i32⟩
  | 107 => ⟨S_, .i32⟩
  | 108 => ⟨S200000, .i32⟩
  | 109 => ⟨S200000, .i1⟩
  | 110 => ⟨S_, .i32⟩
  | 111 => ⟨S200000, .i32⟩
  | 112 => ⟨S200000, .i32⟩
  | 113 => ⟨S200000, .i32⟩
  | 114 => ⟨S200000x1, .i32⟩
  | 115 => ⟨S200000, .i32⟩
  | 116 => ⟨S_, .i32⟩
  | 117 => ⟨S200000, .i32⟩
  | 118 => ⟨S200000, .i1⟩
  | 119 => ⟨S200000, .i1⟩
  | 120 => ⟨S200000x1, .i1⟩
  | 121 => ⟨S_, .i32⟩
  | 122 => ⟨S200000, .i32⟩
  | 123 => ⟨S200000, .i32⟩
  | 124 => ⟨S_, .i32⟩
  | 125 => ⟨S200000, .i32⟩
  | 126 => ⟨S200000, .i1⟩
  | 127 => ⟨S_, .i32⟩
  | _ => ⟨S200000x128, .f32⟩

abbrev hbmTy0_5 (i : Nat) : BufTy := match i % 128 with
  | 0 => ⟨S200000, .i32⟩
  | 1 => ⟨S200000, .i32⟩
  | 2 => ⟨S200000, .i32⟩
  | 3 => ⟨S200000x1, .i32⟩
  | 4 => ⟨S200000x128, .f32⟩
  | 5 => ⟨S_, .f32⟩
  | 6 => ⟨S_, .f32⟩
  | 7 => ⟨S200000x128, .i1⟩
  | 8 => ⟨S200000x128, .f32⟩
  | 9 => ⟨S200000x128, .f32⟩
  | 10 => ⟨S1x128x20, .f32⟩
  | 11 => ⟨S128x20, .f32⟩
  | 12 => ⟨S200000x20, .f32⟩
  | 13 => ⟨S200000x20, .f32⟩
  | 14 => ⟨S200000x1, .i32⟩
  | 15 => ⟨S200000, .i32⟩
  | 16 => ⟨S_, .i32⟩
  | 17 => ⟨S200000, .i32⟩
  | 18 => ⟨S200000, .i32⟩
  | 19 => ⟨S200000x1, .i32⟩
  | 20 => ⟨S200000, .i32⟩
  | 21 => ⟨S_, .i32⟩
  | 22 => ⟨S200000, .i32⟩
  | 23 => ⟨S200000, .i32⟩
  | 24 => ⟨S200000x1, .i32⟩
  | 25 => ⟨S200000, .i32⟩
  | 26 => ⟨S_, .i32⟩
  | 27 => ⟨S200000, .i32⟩
  | 28 => ⟨S200000, .i32⟩
  | 29 => ⟨S_, .i32⟩
  | 30 => ⟨S200000, .i32⟩
  | 31 => ⟨S200000, .i1⟩
  | 32 => ⟨S_, .i32⟩
  | 33 => ⟨S200000, .i32⟩
  | 34 => ⟨S200000, .i1⟩
  | 35 => ⟨S200000, .i1⟩
  | 36 => ⟨S_, .i32⟩
  | 37 => ⟨S200000, .i32⟩
  | 38 => ⟨S200000, .i1⟩
  | 39 => ⟨S200000, .i1⟩
  | 40 => ⟨S_, .i32⟩
  | 41 => ⟨S200000, .i32⟩
  | 42 => ⟨S200000, .i1⟩
  | 43 => ⟨S200000, .i1⟩
  | 44 => ⟨S_, .i32⟩
  | 45 => ⟨S200000, .i32⟩
  | 46 => ⟨S200000, .i1⟩
  | 47 => ⟨S200000, .i1⟩
  | 48 => ⟨S_, .i32⟩
  | 49 => ⟨S200000, .i32⟩
  | 50 => ⟨S200000, .i1⟩
  | 51 => ⟨S200000, .i1⟩
  | 52 => ⟨S_, .i32⟩
  | 53 => ⟨S200000, .i32⟩
  | 54 => ⟨S200000, .i32⟩
  | 55 => ⟨S200000, .i32⟩
  | 56 => ⟨S_, .i32⟩
  | 57 => ⟨S200000, .i32⟩
  | 58 => ⟨S200000, .i32⟩
  | 59 => ⟨S200000, .i32⟩
  | 60 => ⟨S_, .i32⟩
  | 61 => ⟨S_, .i32⟩
  | 62 => ⟨S_, .i32⟩
  | 63 => ⟨S200000, .i32⟩
  | 64 => ⟨S200000, .i32⟩
  | 65 => ⟨S_, .i32⟩
  | 66 => ⟨S200000, .i32⟩
  | 67 => ⟨S200000, .i32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S200000, .i32⟩
  | 77 => ⟨S_, .i32⟩
  | 78 => ⟨S200000, .i32⟩
  | 79 => ⟨S200000, .i1⟩
  | 80 => ⟨S200000, .i1⟩
  | 81 => ⟨S200000x1, .i1⟩
  | 82 => ⟨S_, .i32⟩
  | 83 => ⟨S200000, .i32⟩
  | 84 => ⟨S200000, .i32⟩
  | 85 => ⟨S_, .i32⟩
  | 86 => ⟨S200000, .i32⟩
  | 87 => ⟨S200000, .i1⟩
  | 88 => ⟨S_, .i32⟩
  | 89 => ⟨S200000, .i32⟩
  | 90 => ⟨S200000, .i32⟩
  | 91 => ⟨S200000, .i32⟩
  | 92 => ⟨S200000x1, .i32⟩
  | 93 => ⟨S200000x128, .f32⟩
  | 94 => ⟨S_, .f32⟩
  | 95 => ⟨S_, .f32⟩
  | 96 => ⟨S200000x128, .i1⟩
  | 97 => ⟨S200000x128, .f32⟩
  | 98 => ⟨S200000x128, .f32⟩
  | 99 => ⟨S1x128x20, .f32⟩
  | 100 => ⟨S128x20, .f32⟩
  | 101 => ⟨S200000x20, .f32⟩
  | 102 => ⟨S200000x20, .f32⟩
  | 103 => ⟨S200000x1, .i32⟩
  | 104 => ⟨S200000, .i32⟩
  | 105 => ⟨S_, .i32⟩
  | 106 => ⟨S200000, .i32⟩
  | 107 => ⟨S200000, .i32⟩
  | 108 => ⟨S200000x1, .i32⟩
  | 109 => ⟨S200000, .i32⟩
  | 110 => ⟨S_, .i32⟩
  | 111 => ⟨S200000, .i32⟩
  | 112 => ⟨S200000, .i32⟩
  | 113 => ⟨S200000x1, .i32⟩
  | 114 => ⟨S200000, .i32⟩
  | 115 => ⟨S_, .i32⟩
  | 116 => ⟨S200000, .i32⟩
  | 117 => ⟨S200000, .i32⟩
  | 118 => ⟨S_, .i32⟩
  | 119 => ⟨S200000, .i32⟩
  | 120 => ⟨S200000, .i1⟩
  | 121 => ⟨S_, .i32⟩
  | 122 => ⟨S200000, .i32⟩
  | 123 => ⟨S200000, .i1⟩
  | 124 => ⟨S200000, .i1⟩
  | 125 => ⟨S_, .i32⟩
  | 126 => ⟨S200000, .i32⟩
  | 127 => ⟨S200000, .i1⟩
  | _ => ⟨S200000x128, .f32⟩

abbrev hbmTy0_6 (i : Nat) : BufTy := match i % 128 with
  | 0 => ⟨S200000, .i1⟩
  | 1 => ⟨S_, .i32⟩
  | 2 => ⟨S200000, .i32⟩
  | 3 => ⟨S200000, .i1⟩
  | 4 => ⟨S200000, .i1⟩
  | 5 => ⟨S_, .i32⟩
  | 6 => ⟨S200000, .i32⟩
  | 7 => ⟨S200000, .i1⟩
  | 8 => ⟨S200000, .i1⟩
  | 9 => ⟨S_, .i32⟩
  | 10 => ⟨S200000, .i32⟩
  | 11 => ⟨S200000, .i1⟩
  | 12 => ⟨S200000, .i1⟩
  | 13 => ⟨S_, .i32⟩
  | 14 => ⟨S200000, .i32⟩
  | 15 => ⟨S200000, .i32⟩
  | 16 => ⟨S200000, .i32⟩
  | 17 => ⟨S_, .i32⟩
  | 18 => ⟨S200000, .i32⟩
  | 19 => ⟨S200000, .i32⟩
  | 20 => ⟨S200000, .i32⟩
  | 21 => ⟨S_, .i32⟩
  | 22 => ⟨S_, .i32⟩
  | 23 => ⟨S_, .i32⟩
  | 24 => ⟨S200000, .i32⟩
  | 25 => ⟨S200000, .i32⟩
  | 26 => ⟨S_, .i32⟩
  | 27 => ⟨S200000, .i32⟩
  | 28 => ⟨S200000, .i32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S200000, .i32⟩
  | 38 => ⟨S_, .i32⟩
  | 39 => ⟨S200000, .i32⟩
  | 40 => ⟨S200000, .i1⟩
  | 41 => ⟨S200000, .i1⟩
  | 42 => ⟨S200000x1, .i1⟩
  | 43 => ⟨S_, .i32⟩
  | 44 => ⟨S200000, .i32⟩
  | 45 => ⟨S200000, .i32⟩
  | 46 => ⟨S_, .i32⟩
  | 47 => ⟨S200000, .i32⟩
  | 48 => ⟨S200000, .i1⟩
  | 49 => ⟨S_, .i32⟩
  | 50 => ⟨S200000, .i32⟩
  | 51 => ⟨S200000, .i32⟩
  | 52 => ⟨S200000, .i32⟩
  | 53 => ⟨S200000x1, .i32⟩
  | 54 => ⟨S200000x128, .f32⟩
  | 55 => ⟨S_, .f32⟩
  | 56 => ⟨S_, .f32⟩
  | 57 => ⟨S200000x128, .i1⟩
  | 58 => ⟨S200000x128, .f32⟩
  | 59 => ⟨S200000x128, .f32⟩
  | 60 => ⟨S1x128x20, .f32⟩
  | 61 => ⟨S128x20, .f32⟩
  | 62 => ⟨S200000x20, .f32⟩
  | 63 => ⟨S200000x20, .f32⟩
  | 64 => ⟨S200000x1, .i32⟩
  | 65 => ⟨S200000, .i32⟩
  | 66 => ⟨S_, .i32⟩
  | 67 => ⟨S200000, .i32⟩
  | 68 => ⟨S200000, .i32⟩
  | 69 => ⟨S200000x1, .i32⟩
  | 70 => ⟨S200000, .i32⟩
  | 71 => ⟨S_, .i32⟩
  | 72 => ⟨S200000, .i32⟩
  | 73 => ⟨S200000, .i32⟩
  | 74 => ⟨S200000x1, .i32⟩
  | 75 => ⟨S200000, .i32⟩
  | 76 => ⟨S_, .i32⟩
  | 77 => ⟨S200000, .i32⟩
  | 78 => ⟨S200000, .i32⟩
  | 79 => ⟨S_, .i32⟩
  | 80 => ⟨S200000, .i32⟩
  | 81 => ⟨S200000, .i1⟩
  | 82 => ⟨S_, .i32⟩
  | 83 => ⟨S200000, .i32⟩
  | 84 => ⟨S200000, .i1⟩
  | 85 => ⟨S200000, .i1⟩
  | 86 => ⟨S_, .i32⟩
  | 87 => ⟨S200000, .i32⟩
  | 88 => ⟨S200000, .i1⟩
  | 89 => ⟨S200000, .i1⟩
  | 90 => ⟨S_, .i32⟩
  | 91 => ⟨S200000, .i32⟩
  | 92 => ⟨S200000, .i1⟩
  | 93 => ⟨S200000, .i1⟩
  | 94 => ⟨S_, .i32⟩
  | 95 => ⟨S200000, .i32⟩
  | 96 => ⟨S200000, .i1⟩
  | 97 => ⟨S200000, .i1⟩
  | 98 => ⟨S_, .i32⟩
  | 99 => ⟨S200000, .i32⟩
  | 100 => ⟨S200000, .i1⟩
  | 101 => ⟨S200000, .i1⟩
  | 102 => ⟨S_, .i32⟩
  | 103 => ⟨S200000, .i32⟩
  | 104 => ⟨S200000, .i32⟩
  | 105 => ⟨S200000, .i32⟩
  | 106 => ⟨S_, .i32⟩
  | 107 => ⟨S200000, .i32⟩
  | 108 => ⟨S200000, .i32⟩
  | 109 => ⟨S200000, .i32⟩
  | 110 => ⟨S_, .i32⟩
  | 111 => ⟨S_, .i32⟩
  | 112 => ⟨S_, .i32⟩
  | 113 => ⟨S200000, .i32⟩
  | 114 => ⟨S200000, .i32⟩
  | 115 => ⟨S_, .i32⟩
  | 116 => ⟨S200000, .i32⟩
  | 117 => ⟨S200000, .i32⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S200000, .i32⟩
  | 127 => ⟨S_, .i32⟩
  | _ => ⟨S200000x128, .f32⟩

abbrev hbmTy0_7 (i : Nat) : BufTy := match i % 128 with
  | 0 => ⟨S200000, .i32⟩
  | 1 => ⟨S200000, .i1⟩
  | 2 => ⟨S200000, .i1⟩
  | 3 => ⟨S200000x1, .i1⟩
  | 4 => ⟨S_, .i32⟩
  | 5 => ⟨S200000, .i32⟩
  | 6 => ⟨S200000, .i32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S200000x1, .i32⟩
  | 15 => ⟨S200000x128, .f32⟩
  | 16 => ⟨S_, .f32⟩
  | 17 => ⟨S_, .f32⟩
  | 18 => ⟨S200000x128, .i1⟩
  | 19 => ⟨S200000x128, .f32⟩
  | 20 => ⟨S200000x128, .f32⟩
  | 21 => ⟨S1x128x20, .f32⟩
  | 22 => ⟨S128x20, .f32⟩
  | 23 => ⟨S200000x20, .f32⟩
  | 24 => ⟨S200000x20, .f32⟩
  | 25 => ⟨S200000x1, .i32⟩
  | 26 => ⟨S200000, .i32⟩
  | 27 => ⟨S_, .i32⟩
  | 28 => ⟨S200000, .i32⟩
  | 29 => ⟨S200000, .i32⟩
  | 30 => ⟨S200000x1, .i32⟩
  | 31 => ⟨S200000, .i32⟩
  | 32 => ⟨S_, .i32⟩
  | 33 => ⟨S200000, .i32⟩
  | 34 => ⟨S200000, .i32⟩
  | 35 => ⟨S200000x1, .i32⟩
  | 36 => ⟨S200000, .i32⟩
  | 37 => ⟨S_, .i32⟩
  | 38 => ⟨S200000, .i32⟩
  | 39 => ⟨S200000, .i32⟩
  | 40 => ⟨S_, .i32⟩
  | 41 => ⟨S200000, .i32⟩
  | 42 => ⟨S200000, .i1⟩
  | 43 => ⟨S_, .i32⟩
  | 44 => ⟨S200000, .i32⟩
  | 45 => ⟨S200000, .i1⟩
  | 46 => ⟨S200000, .i1⟩
  | 47 => ⟨S_, .i32⟩
  | 48 => ⟨S200000, .i32⟩
  | 49 => ⟨S200000, .i1⟩
  | 50 => ⟨S200000, .i1⟩
  | 51 => ⟨S_, .i32⟩
  | 52 => ⟨S200000, .i32⟩
  | 53 => ⟨S200000, .i1⟩
  | 54 => ⟨S200000, .i1⟩
  | 55 => ⟨S_, .i32⟩
  | 56 => ⟨S200000, .i32⟩
  | 57 => ⟨S200000, .i1⟩
  | 58 => ⟨S200000, .i1⟩
  | 59 => ⟨S_, .i32⟩
  | 60 => ⟨S200000, .i32⟩
  | 61 => ⟨S200000, .i1⟩
  | 62 => ⟨S200000, .i1⟩
  | 63 => ⟨S_, .i32⟩
  | 64 => ⟨S200000, .i32⟩
  | 65 => ⟨S200000, .i32⟩
  | 66 => ⟨S200000, .i32⟩
  | 67 => ⟨S_, .i32⟩
  | 68 => ⟨S200000, .i32⟩
  | 69 => ⟨S200000, .i32⟩
  | 70 => ⟨S200000, .i32⟩
  | 71 => ⟨S_, .i32⟩
  | 72 => ⟨S_, .i32⟩
  | 73 => ⟨S_, .i32⟩
  | 74 => ⟨S200000, .i32⟩
  | 75 => ⟨S200000, .i32⟩
  | 76 => ⟨S_, .i32⟩
  | 77 => ⟨S200000, .i32⟩
  | 78 => ⟨S200000, .i32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S200000x1, .i32⟩
  | 87 => ⟨S200000, .i32⟩
  | 88 => ⟨S_, .i32⟩
  | 89 => ⟨S200000, .i32⟩
  | 90 => ⟨S200000, .i1⟩
  | 91 => ⟨S200000, .i1⟩
  | 92 => ⟨S200000x1, .i1⟩
  | 93 => ⟨S_, .i32⟩
  | 94 => ⟨S200000, .i32⟩
  | 95 => ⟨S200000, .i32⟩
  | 96 => ⟨S_, .i32⟩
  | 97 => ⟨S200000, .i32⟩
  | 98 => ⟨S200000, .i1⟩
  | 99 => ⟨S_, .i32⟩
  | 100 => ⟨S200000, .i32⟩
  | 101 => ⟨S200000, .i32⟩
  | 102 => ⟨S200000, .i32⟩
  | 103 => ⟨S200000x1, .i32⟩
  | 104 => ⟨S200000x128, .f32⟩
  | 105 => ⟨S_, .f32⟩
  | 106 => ⟨S_, .f32⟩
  | 107 => ⟨S200000x128, .i1⟩
  | 108 => ⟨S200000x128, .f32⟩
  | 109 => ⟨S200000x128, .f32⟩
  | 110 => ⟨S1x128x20, .f32⟩
  | 111 => ⟨S128x20, .f32⟩
  | 112 => ⟨S200000x20, .f32⟩
  | 113 => ⟨S200000x20, .f32⟩
  | 114 => ⟨S200000x1, .i32⟩
  | 115 => ⟨S200000, .i32⟩
  | 116 => ⟨S_, .i32⟩
  | 117 => ⟨S200000, .i32⟩
  | 118 => ⟨S200000, .i32⟩
  | 119 => ⟨S200000x1, .i32⟩
  | 120 => ⟨S200000, .i32⟩
  | 121 => ⟨S_, .i32⟩
  | 122 => ⟨S200000, .i32⟩
  | 123 => ⟨S200000, .i32⟩
  | 124 => ⟨S200000x1, .i32⟩
  | 125 => ⟨S200000, .i32⟩
  | 126 => ⟨S_, .i32⟩
  | 127 => ⟨S200000, .i32⟩
  | _ => ⟨S200000x128, .f32⟩

abbrev hbmTy0_8 (i : Nat) : BufTy := match i % 128 with
  | 0 => ⟨S200000, .i32⟩
  | 1 => ⟨S_, .i32⟩
  | 2 => ⟨S200000, .i32⟩
  | 3 => ⟨S200000, .i1⟩
  | 4 => ⟨S_, .i32⟩
  | 5 => ⟨S200000, .i32⟩
  | 6 => ⟨S200000, .i1⟩
  | 7 => ⟨S200000, .i1⟩
  | 8 => ⟨S_, .i32⟩
  | 9 => ⟨S200000, .i32⟩
  | 10 => ⟨S200000, .i1⟩
  | 11 => ⟨S200000, .i1⟩
  | 12 => ⟨S_, .i32⟩
  | 13 => ⟨S200000, .i32⟩
  | 14 => ⟨S200000, .i1⟩
  | 15 => ⟨S200000, .i1⟩
  | 16 => ⟨S_, .i32⟩
  | 17 => ⟨S200000, .i32⟩
  | 18 => ⟨S200000, .i1⟩
  | 19 => ⟨S200000, .i1⟩
  | 20 => ⟨S_, .i32⟩
  | 21 => ⟨S200000, .i32⟩
  | 22 => ⟨S200000, .i1⟩
  | 23 => ⟨S200000, .i1⟩
  | 24 => ⟨S_, .i32⟩
  | 25 => ⟨S200000, .i32⟩
  | 26 => ⟨S200000, .i32⟩
  | 27 => ⟨S200000, .i32⟩
  | 28 => ⟨S_, .i32⟩
  | 29 => ⟨S200000, .i32⟩
  | 30 => ⟨S200000, .i32⟩
  | 31 => ⟨S200000, .i32⟩
  | 32 => ⟨S_, .i32⟩
  | 33 => ⟨S_, .i32⟩
  | 34 => ⟨S_, .i32⟩
  | 35 => ⟨S200000, .i32⟩
  | 36 => ⟨S200000, .i32⟩
  | 37 => ⟨S_, .i32⟩
  | 38 => ⟨S200000, .i32⟩
  | 39 => ⟨S200000, .i32⟩
  | 40 => ⟨S_, .i32⟩
  | 41 => ⟨S200000, .i32⟩
  | 42 => ⟨S200000, .i1⟩
  | 43 => ⟨S_, .i32⟩
  | 44 => ⟨S200000, .i32⟩
  | 45 => ⟨S200000, .i32⟩
  | 46 => ⟨S200000, .i32⟩
  | 47 => ⟨S200000x1, .i32⟩
  | 48 => ⟨S200000, .i32⟩
  | 49 => ⟨S_, .i32⟩
  | 50 => ⟨S200000, .i32⟩
  | 51 => ⟨S200000, .i1⟩
  | 52 => ⟨S200000, .i1⟩
  | 53 => ⟨S200000x1, .i1⟩
  | 54 => ⟨S_, .i32⟩
  | 55 => ⟨S200000, .i32⟩
  | 56 => ⟨S200000, .i32⟩
  | 57 => ⟨S_, .i32⟩
  | 58 => ⟨S200000, .i32⟩
  | 59 => ⟨S200000, .i1⟩
  | 60 => ⟨S_, .i32⟩
  | 61 => ⟨S200000, .i32⟩
  | 62 => ⟨S200000, .i32⟩
  | 63 => ⟨S200000, .i32⟩
  | 64 => ⟨S200000x1, .i32⟩
  | 65 => ⟨S200000x128, .f32⟩
  | 66 => ⟨S_, .f32⟩
  | 67 => ⟨S_, .f32⟩
  | 68 => ⟨S200000x128, .i1⟩
  | 69 => ⟨S200000x128, .f32⟩
  | 70 => ⟨S200000x128, .f32⟩
  | 71 => ⟨S1x128x20, .f32⟩
  | 72 => ⟨S128x20, .f32⟩
  | 73 => ⟨S200000x20, .f32⟩
  | 74 => ⟨S200000x20, .f32⟩
  | 75 => ⟨S200000x1, .i32⟩
  | 76 => ⟨S200000, .i32⟩
  | 77 => ⟨S_, .i32⟩
  | 78 => ⟨S200000, .i32⟩
  | 79 => ⟨S200000, .i32⟩
  | 80 => ⟨S200000x1, .i32⟩
  | 81 => ⟨S200000, .i32⟩
  | 82 => ⟨S_, .i32⟩
  | 83 => ⟨S200000, .i32⟩
  | 84 => ⟨S200000, .i32⟩
  | 85 => ⟨S200000x1, .i32⟩
  | 86 => ⟨S200000, .i32⟩
  | 87 => ⟨S_, .i32⟩
  | 88 => ⟨S200000, .i32⟩
  | 89 => ⟨S200000, .i32⟩
  | 90 => ⟨S_, .i32⟩
  | 91 => ⟨S200000, .i32⟩
  | 92 => ⟨S200000, .i1⟩
  | 93 => ⟨S_, .i32⟩
  | 94 => ⟨S200000, .i32⟩
  | 95 => ⟨S200000, .i1⟩
  | 96 => ⟨S200000, .i1⟩
  | 97 => ⟨S_, .i32⟩
  | 98 => ⟨S200000, .i32⟩
  | 99 => ⟨S200000, .i1⟩
  | 100 => ⟨S200000, .i1⟩
  | 101 => ⟨S_, .i32⟩
  | 102 => ⟨S200000, .i32⟩
  | 103 => ⟨S200000, .i1⟩
  | 104 => ⟨S200000, .i1⟩
  | 105 => ⟨S_, .i32⟩
  | 106 => ⟨S200000, .i32⟩
  | 107 => ⟨S200000, .i1⟩
  | 108 => ⟨S200000, .i1⟩
  | 109 => ⟨S_, .i32⟩
  | 110 => ⟨S200000, .i32⟩
  | 111 => ⟨S200000, .i1⟩
  | 112 => ⟨S200000, .i1⟩
  | 113 => ⟨S_, .i32⟩
  | 114 => ⟨S200000, .i32⟩
  | 115 => ⟨S200000, .i32⟩
  | 116 => ⟨S200000, .i32⟩
  | 117 => ⟨S_, .i32⟩
  | 118 => ⟨S200000, .i32⟩
  | 119 => ⟨S200000, .i32⟩
  | 120 => ⟨S200000, .i32⟩
  | 121 => ⟨S_, .i32⟩
  | 122 => ⟨S_, .i32⟩
  | 123 => ⟨S_, .i32⟩
  | 124 => ⟨S200000, .i32⟩
  | 125 => ⟨S200000, .i32⟩
  | 126 => ⟨S_, .i32⟩
  | 127 => ⟨S200000, .i32⟩
  | _ => ⟨S200000x128, .f32⟩

abbrev hbmTy0_9 (i : Nat) : BufTy := match i % 128 with
  | 0 => ⟨S200000, .i32⟩
  | 1 => ⟨S_, .i32⟩
  | 2 => ⟨S200000, .i32⟩
  | 3 => ⟨S200000, .i1⟩
  | 4 => ⟨S_, .i32⟩
  | 5 => ⟨S200000, .i32⟩
  | 6 => ⟨S200000, .i32⟩
  | 7 => ⟨S200000, .i32⟩
  | 8 => ⟨S200000x1, .i32⟩
  | 9 => ⟨S200000, .i32⟩
  | 10 => ⟨S_, .i32⟩
  | 11 => ⟨S200000, .i32⟩
  | 12 => ⟨S200000, .i1⟩
  | 13 => ⟨S200000, .i1⟩
  | 14 => ⟨S200000x1, .i1⟩
  | 15 => ⟨S_, .i32⟩
  | 16 => ⟨S200000, .i32⟩
  | 17 => ⟨S200000, .i32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000x128, .f32⟩
  | 27 => ⟨S_, .f32⟩
  | 28 => ⟨S_, .f32⟩
  | 29 => ⟨S200000x128, .i1⟩
  | 30 => ⟨S200000x128, .f32⟩
  | 31 => ⟨S200000x128, .f32⟩
  | 32 => ⟨S1x128x20, .f32⟩
  | 33 => ⟨S128x20, .f32⟩
  | 34 => ⟨S200000x20, .f32⟩
  | 35 => ⟨S200000x20, .f32⟩
  | 36 => ⟨S200000x1, .i32⟩
  | 37 => ⟨S200000, .i32⟩
  | 38 => ⟨S_, .i32⟩
  | 39 => ⟨S200000, .i32⟩
  | 40 => ⟨S200000, .i32⟩
  | 41 => ⟨S200000x1, .i32⟩
  | 42 => ⟨S200000, .i32⟩
  | 43 => ⟨S_, .i32⟩
  | 44 => ⟨S200000, .i32⟩
  | 45 => ⟨S200000, .i32⟩
  | 46 => ⟨S200000x1, .i32⟩
  | 47 => ⟨S200000, .i32⟩
  | 48 => ⟨S_, .i32⟩
  | 49 => ⟨S200000, .i32⟩
  | 50 => ⟨S200000, .i32⟩
  | 51 => ⟨S_, .i32⟩
  | 52 => ⟨S200000, .i32⟩
  | 53 => ⟨S200000, .i1⟩
  | 54 => ⟨S_, .i32⟩
  | 55 => ⟨S200000, .i32⟩
  | 56 => ⟨S200000, .i1⟩
  | 57 => ⟨S200000, .i1⟩
  | 58 => ⟨S_, .i32⟩
  | 59 => ⟨S200000, .i32⟩
  | 60 => ⟨S200000, .i1⟩
  | 61 => ⟨S200000, .i1⟩
  | 62 => ⟨S_, .i32⟩
  | 63 => ⟨S200000, .i32⟩
  | 64 => ⟨S200000, .i1⟩
  | 65 => ⟨S200000, .i1⟩
  | 66 => ⟨S_, .i32⟩
  | 67 => ⟨S200000, .i32⟩
  | 68 => ⟨S200000, .i1⟩
  | 69 => ⟨S200000, .i1⟩
  | 70 => ⟨S_, .i32⟩
  | 71 => ⟨S200000, .i32⟩
  | 72 => ⟨S200000, .i1⟩
  | 73 => ⟨S200000, .i1⟩
  | 74 => ⟨S_, .i32⟩
  | 75 => ⟨S200000, .i32⟩
  | 76 => ⟨S200000, .i32⟩
  | 77 => ⟨S200000, .i32⟩
  | 78 => ⟨S_, .i32⟩
  | 79 => ⟨S200000, .i32⟩
  | 80 => ⟨S200000, .i32⟩
  | 81 => ⟨S200000, .i32⟩
  | 82 => ⟨S_, .i32⟩
  | 83 => ⟨S_, .i32⟩
  | 84 => ⟨S_, .i32⟩
  | 85 => ⟨S200000, .i32⟩
  | 86 => ⟨S200000, .i32⟩
  | 87 => ⟨S_, .i32⟩
  | 88 => ⟨S200000, .i32⟩
  | 89 => ⟨S200000, .i32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S200000, .i32⟩
  | 99 => ⟨S_, .i32⟩
  | 100 => ⟨S200000, .i32⟩
  | 101 => ⟨S200000, .i1⟩
  | 102 => ⟨S200000, .i1⟩
  | 103 => ⟨S200000x1, .i1⟩
  | 104 => ⟨S_, .i32⟩
  | 105 => ⟨S200000, .i32⟩
  | 106 => ⟨S200000, .i32⟩
  | 107 => ⟨S_, .i32⟩
  | 108 => ⟨S200000, .i32⟩
  | 109 => ⟨S200000, .i1⟩
  | 110 => ⟨S_, .i32⟩
  | 111 => ⟨S200000, .i32⟩
  | 112 => ⟨S200000, .i32⟩
  | 113 => ⟨S200000, .i32⟩
  | 114 => ⟨S200000x1, .i32⟩
  | 115 => ⟨S200000x128, .f32⟩
  | 116 => ⟨S_, .f32⟩
  | 117 => ⟨S_, .f32⟩
  | 118 => ⟨S200000x128, .i1⟩
  | 119 => ⟨S200000x128, .f32⟩
  | 120 => ⟨S200000x128, .f32⟩
  | 121 => ⟨S1x128x20, .f32⟩
  | 122 => ⟨S128x20, .f32⟩
  | 123 => ⟨S200000x20, .f32⟩
  | 124 => ⟨S200000x20, .f32⟩
  | 125 => ⟨S200000x1, .i32⟩
  | 126 => ⟨S200000, .i32⟩
  | 127 => ⟨S_, .i32⟩
  | _ => ⟨S200000x128, .f32⟩

abbrev hbmTy0_10 (i : Nat) : BufTy := match i % 128 with
  | 0 => ⟨S200000, .i32⟩
  | 1 => ⟨S200000, .i32⟩
  | 2 => ⟨S200000x1, .i32⟩
  | 3 => ⟨S200000, .i32⟩
  | 4 => ⟨S_, .i32⟩
  | 5 => ⟨S200000, .i32⟩
  | 6 => ⟨S200000, .i32⟩
  | 7 => ⟨S200000x1, .i32⟩
  | 8 => ⟨S200000, .i32⟩
  | 9 => ⟨S_, .i32⟩
  | 10 => ⟨S200000, .i32⟩
  | 11 => ⟨S200000, .i32⟩
  | 12 => ⟨S_, .i32⟩
  | 13 => ⟨S200000, .i32⟩
  | 14 => ⟨S200000, .i1⟩
  | 15 => ⟨S_, .i32⟩
  | 16 => ⟨S200000, .i32⟩
  | 17 => ⟨S200000, .i1⟩
  | 18 => ⟨S200000, .i1⟩
  | 19 => ⟨S_, .i32⟩
  | 20 => ⟨S200000, .i32⟩
  | 21 => ⟨S200000, .i1⟩
  | 22 => ⟨S200000, .i1⟩
  | 23 => ⟨S_, .i32⟩
  | 24 => ⟨S200000, .i32⟩
  | 25 => ⟨S200000, .i1⟩
  | 26 => ⟨S200000, .i1⟩
  | 27 => ⟨S_, .i32⟩
  | 28 => ⟨S200000, .i32⟩
  | 29 => ⟨S200000, .i1⟩
  | 30 => ⟨S200000, .i1⟩
  | 31 => ⟨S_, .i32⟩
  | 32 => ⟨S200000, .i32⟩
  | 33 => ⟨S200000, .i1⟩
  | 34 => ⟨S200000, .i1⟩
  | 35 => ⟨S_, .i32⟩
  | 36 => ⟨S200000, .i32⟩
  | 37 => ⟨S200000, .i32⟩
  | 38 => ⟨S200000, .i32⟩
  | 39 => ⟨S_, .i32⟩
  | 40 => ⟨S200000, .i32⟩
  | 41 => ⟨S200000, .i32⟩
  | 42 => ⟨S200000, .i32⟩
  | 43 => ⟨S_, .i32⟩
  | 44 => ⟨S_, .i32⟩
  | 45 => ⟨S_, .i32⟩
  | 46 => ⟨S200000, .i32⟩
  | 47 => ⟨S200000, .i32⟩
  | 48 => ⟨S_, .i32⟩
  | 49 => ⟨S200000, .i32⟩
  | 50 => ⟨S200000, .i32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S200000, .i32⟩
  | 60 => ⟨S_, .i32⟩
  | 61 => ⟨S200000, .i32⟩
  | 62 => ⟨S200000, .i1⟩
  | 63 => ⟨S200000, .i1⟩
  | 64 => ⟨S200000x1, .i1⟩
  | 65 => ⟨S_, .i32⟩
  | 66 => ⟨S200000, .i32⟩
  | 67 => ⟨S200000, .i32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S200000x128, .f32⟩
  | 77 => ⟨S_, .f32⟩
  | 78 => ⟨S_, .f32⟩
  | 79 => ⟨S200000x128, .i1⟩
  | 80 => ⟨S200000x128, .f32⟩
  | 81 => ⟨S200000x128, .f32⟩
  | 82 => ⟨S1x128x20, .f32⟩
  | 83 => ⟨S128x20, .f32⟩
  | 84 => ⟨S200000x20, .f32⟩
  | 85 => ⟨S200000x20, .f32⟩
  | 86 => ⟨S200000x1, .i32⟩
  | 87 => ⟨S200000, .i32⟩
  | 88 => ⟨S_, .i32⟩
  | 89 => ⟨S200000, .i32⟩
  | 90 => ⟨S200000, .i32⟩
  | 91 => ⟨S200000x1, .i32⟩
  | 92 => ⟨S200000, .i32⟩
  | 93 => ⟨S_, .i32⟩
  | 94 => ⟨S200000, .i32⟩
  | 95 => ⟨S200000, .i32⟩
  | 96 => ⟨S200000x1, .i32⟩
  | 97 => ⟨S200000, .i32⟩
  | 98 => ⟨S_, .i32⟩
  | 99 => ⟨S200000, .i32⟩
  | 100 => ⟨S200000, .i32⟩
  | 101 => ⟨S_, .i32⟩
  | 102 => ⟨S200000, .i32⟩
  | 103 => ⟨S200000, .i1⟩
  | 104 => ⟨S_, .i32⟩
  | 105 => ⟨S200000, .i32⟩
  | 106 => ⟨S200000, .i1⟩
  | 107 => ⟨S200000, .i1⟩
  | 108 => ⟨S_, .i32⟩
  | 109 => ⟨S200000, .i32⟩
  | 110 => ⟨S200000, .i1⟩
  | 111 => ⟨S200000, .i1⟩
  | 112 => ⟨S_, .i32⟩
  | 113 => ⟨S200000, .i32⟩
  | 114 => ⟨S200000, .i1⟩
  | 115 => ⟨S200000, .i1⟩
  | 116 => ⟨S_, .i32⟩
  | 117 => ⟨S200000, .i32⟩
  | 118 => ⟨S200000, .i1⟩
  | 119 => ⟨S200000, .i1⟩
  | 120 => ⟨S_, .i32⟩
  | 121 => ⟨S200000, .i32⟩
  | 122 => ⟨S200000, .i1⟩
  | 123 => ⟨S200000, .i1⟩
  | 124 => ⟨S_, .i32⟩
  | 125 => ⟨S200000, .i32⟩
  | 126 => ⟨S200000, .i32⟩
  | 127 => ⟨S200000, .i32⟩
  | _ => ⟨S200000x128, .f32⟩

abbrev hbmTy0_11 (i : Nat) : BufTy := match i % 128 with
  | 0 => ⟨S_, .i32⟩
  | 1 => ⟨S200000, .i32⟩
  | 2 => ⟨S200000, .i32⟩
  | 3 => ⟨S200000, .i32⟩
  | 4 => ⟨S_, .i32⟩
  | 5 => ⟨S_, .i32⟩
  | 6 => ⟨S_, .i32⟩
  | 7 => ⟨S200000, .i32⟩
  | 8 => ⟨S200000, .i32⟩
  | 9 => ⟨S_, .i32⟩
  | 10 => ⟨S200000, .i32⟩
  | 11 => ⟨S200000, .i32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000, .i32⟩
  | 21 => ⟨S_, .i32⟩
  | 22 => ⟨S200000, .i32⟩
  | 23 => ⟨S200000, .i1⟩
  | 24 => ⟨S200000, .i1⟩
  | 25 => ⟨S200000x1, .i1⟩
  | 26 => ⟨S_, .i32⟩
  | 27 => ⟨S200000, .i32⟩
  | 28 => ⟨S200000, .i32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S200000x128, .f32⟩
  | 38 => ⟨S_, .f32⟩
  | 39 => ⟨S_, .f32⟩
  | 40 => ⟨S200000x128, .i1⟩
  | 41 => ⟨S200000x128, .f32⟩
  | 42 => ⟨S200000x128, .f32⟩
  | 43 => ⟨S1x128x20, .f32⟩
  | 44 => ⟨S128x20, .f32⟩
  | 45 => ⟨S200000x20, .f32⟩
  | 46 => ⟨S200000x20, .f32⟩
  | 47 => ⟨S200000x1, .i32⟩
  | 48 => ⟨S200000, .i32⟩
  | 49 => ⟨S_, .i32⟩
  | 50 => ⟨S200000, .i32⟩
  | 51 => ⟨S200000, .i32⟩
  | 52 => ⟨S200000x1, .i32⟩
  | 53 => ⟨S200000, .i32⟩
  | 54 => ⟨S_, .i32⟩
  | 55 => ⟨S200000, .i32⟩
  | 56 => ⟨S200000, .i32⟩
  | 57 => ⟨S200000x1, .i32⟩
  | 58 => ⟨S200000, .i32⟩
  | 59 => ⟨S_, .i32⟩
  | 60 => ⟨S200000, .i32⟩
  | 61 => ⟨S200000, .i32⟩
  | 62 => ⟨S_, .i32⟩
  | 63 => ⟨S200000, .i32⟩
  | 64 => ⟨S200000, .i1⟩
  | 65 => ⟨S_, .i32⟩
  | 66 => ⟨S200000, .i32⟩
  | 67 => ⟨S200000, .i1⟩
  | 68 => ⟨S200000, .i1⟩
  | 69 => ⟨S_, .i32⟩
  | 70 => ⟨S200000, .i32⟩
  | 71 => ⟨S200000, .i1⟩
  | 72 => ⟨S200000, .i1⟩
  | 73 => ⟨S_, .i32⟩
  | 74 => ⟨S200000, .i32⟩
  | 75 => ⟨S200000, .i1⟩
  | 76 => ⟨S200000, .i1⟩
  | 77 => ⟨S_, .i32⟩
  | 78 => ⟨S200000, .i32⟩
  | 79 => ⟨S200000, .i1⟩
  | 80 => ⟨S200000, .i1⟩
  | 81 => ⟨S_, .i32⟩
  | 82 => ⟨S200000, .i32⟩
  | 83 => ⟨S200000, .i1⟩
  | 84 => ⟨S200000, .i1⟩
  | 85 => ⟨S_, .i32⟩
  | 86 => ⟨S200000, .i32⟩
  | 87 => ⟨S200000, .i32⟩
  | 88 => ⟨S200000, .i32⟩
  | 89 => ⟨S_, .i32⟩
  | 90 => ⟨S200000, .i32⟩
  | 91 => ⟨S200000, .i32⟩
  | 92 => ⟨S200000, .i32⟩
  | 93 => ⟨S_, .i32⟩
  | 94 => ⟨S_, .i32⟩
  | 95 => ⟨S_, .i32⟩
  | 96 => ⟨S200000, .i32⟩
  | 97 => ⟨S200000, .i32⟩
  | 98 => ⟨S_, .i32⟩
  | 99 => ⟨S200000, .i32⟩
  | 100 => ⟨S200000, .i32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000, .i32⟩
  | 110 => ⟨S_, .i32⟩
  | 111 => ⟨S200000, .i32⟩
  | 112 => ⟨S200000, .i1⟩
  | 113 => ⟨S200000, .i1⟩
  | 114 => ⟨S200000x1, .i1⟩
  | 115 => ⟨S_, .i32⟩
  | 116 => ⟨S200000, .i32⟩
  | 117 => ⟨S200000, .i32⟩
  | 118 => ⟨S_, .i32⟩
  | 119 => ⟨S200000, .i32⟩
  | 120 => ⟨S200000, .i1⟩
  | 121 => ⟨S_, .i32⟩
  | 122 => ⟨S200000, .i32⟩
  | 123 => ⟨S200000, .i32⟩
  | 124 => ⟨S200000, .i32⟩
  | 125 => ⟨S200000x1, .i32⟩
  | 126 => ⟨S200000x128, .f32⟩
  | 127 => ⟨S_, .f32⟩
  | _ => ⟨S200000x128, .f32⟩

abbrev hbmTy0_12 (i : Nat) : BufTy := match i % 128 with
  | 0 => ⟨S_, .f32⟩
  | 1 => ⟨S200000x128, .i1⟩
  | 2 => ⟨S200000x128, .f32⟩
  | 3 => ⟨S200000x128, .f32⟩
  | 4 => ⟨S1x128x20, .f32⟩
  | 5 => ⟨S128x20, .f32⟩
  | 6 => ⟨S200000x20, .f32⟩
  | 7 => ⟨S200000x20, .f32⟩
  | 8 => ⟨S200000x1, .i32⟩
  | 9 => ⟨S200000, .i32⟩
  | 10 => ⟨S_, .i32⟩
  | 11 => ⟨S200000, .i32⟩
  | 12 => ⟨S200000, .i32⟩
  | 13 => ⟨S200000x1, .i32⟩
  | 14 => ⟨S200000, .i32⟩
  | 15 => ⟨S_, .i32⟩
  | 16 => ⟨S200000, .i32⟩
  | 17 => ⟨S200000, .i32⟩
  | 18 => ⟨S200000x1, .i32⟩
  | 19 => ⟨S200000, .i32⟩
  | 20 => ⟨S_, .i32⟩
  | 21 => ⟨S200000, .i32⟩
  | 22 => ⟨S200000, .i32⟩
  | 23 => ⟨S_, .i32⟩
  | 24 => ⟨S200000, .i32⟩
  | 25 => ⟨S200000, .i1⟩
  | 26 => ⟨S_, .i32⟩
  | 27 => ⟨S200000, .i32⟩
  | 28 => ⟨S200000, .i1⟩
  | 29 => ⟨S200000, .i1⟩
  | 30 => ⟨S_, .i32⟩
  | 31 => ⟨S200000, .i32⟩
  | 32 => ⟨S200000, .i1⟩
  | 33 => ⟨S200000, .i1⟩
  | 34 => ⟨S_, .i32⟩
  | 35 => ⟨S200000, .i32⟩
  | 36 => ⟨S200000, .i1⟩
  | 37 => ⟨S200000, .i1⟩
  | 38 => ⟨S_, .i32⟩
  | 39 => ⟨S200000, .i32⟩
  | 40 => ⟨S200000, .i1⟩
  | 41 => ⟨S200000, .i1⟩
  | 42 => ⟨S_, .i32⟩
  | 43 => ⟨S200000, .i32⟩
  | 44 => ⟨S200000, .i1⟩
  | 45 => ⟨S200000, .i1⟩
  | 46 => ⟨S_, .i32⟩
  | 47 => ⟨S200000, .i32⟩
  | 48 => ⟨S200000, .i32⟩
  | 49 => ⟨S200000, .i32⟩
  | 50 => ⟨S_, .i32⟩
  | 51 => ⟨S200000, .i32⟩
  | 52 => ⟨S200000, .i32⟩
  | 53 => ⟨S200000, .i32⟩
  | 54 => ⟨S_, .i32⟩
  | 55 => ⟨S_, .i32⟩
  | 56 => ⟨S_, .i32⟩
  | 57 => ⟨S200000, .i32⟩
  | 58 => ⟨S200000, .i32⟩
  | 59 => ⟨S_, .i32⟩
  | 60 => ⟨S200000, .i32⟩
  | 61 => ⟨S200000, .i32⟩
  | 62 => ⟨S_, .i32⟩
  | 63 => ⟨S200000, .i32⟩
  | 64 => ⟨S200000, .i1⟩
  | 65 => ⟨S_, .i32⟩
  | 66 => ⟨S200000, .i32⟩
  | 67 => ⟨S200000, .i32⟩
  | 68 => ⟨S200000, .i32⟩
  | 69 => ⟨S200000x1, .i32⟩
  | 70 => ⟨S200000, .i32⟩
  | 71 => ⟨S_, .i32⟩
  | 72 => ⟨S200000, .i32⟩
  | 73 => ⟨S200000, .i1⟩
  | 74 => ⟨S200000, .i1⟩
  | 75 => ⟨S200000x1, .i1⟩
  | 76 => ⟨S_, .i32⟩
  | 77 => ⟨S200000, .i32⟩
  | 78 => ⟨S200000, .i32⟩
  | 79 => ⟨S_, .i32⟩
  | 80 => ⟨S200000, .i32⟩
  | 81 => ⟨S200000, .i1⟩
  | 82 => ⟨S_, .i32⟩
  | 83 => ⟨S200000, .i32⟩
  | 84 => ⟨S200000, .i32⟩
  | 85 => ⟨S200000, .i32⟩
  | 86 => ⟨S200000x1, .i32⟩
  | 87 => ⟨S200000x128, .f32⟩
  | 88 => ⟨S_, .f32⟩
  | 89 => ⟨S_, .f32⟩
  | 90 => ⟨S200000x128, .i1⟩
  | 91 => ⟨S200000x128, .f32⟩
  | 92 => ⟨S200000x128, .f32⟩
  | 93 => ⟨S1x128x20, .f32⟩
  | 94 => ⟨S128x20, .f32⟩
  | 95 => ⟨S200000x20, .f32⟩
  | 96 => ⟨S200000x20, .f32⟩
  | 97 => ⟨S200000x1, .i32⟩
  | 98 => ⟨S200000, .i32⟩
  | 99 => ⟨S_, .i32⟩
  | 100 => ⟨S200000, .i32⟩
  | 101 => ⟨S200000, .i32⟩
  | 102 => ⟨S200000x1, .i32⟩
  | 103 => ⟨S200000, .i32⟩
  | 104 => ⟨S_, .i32⟩
  | 105 => ⟨S200000, .i32⟩
  | 106 => ⟨S200000, .i32⟩
  | 107 => ⟨S200000x1, .i32⟩
  | 108 => ⟨S200000, .i32⟩
  | 109 => ⟨S_, .i32⟩
  | 110 => ⟨S200000, .i32⟩
  | 111 => ⟨S200000, .i32⟩
  | 112 => ⟨S_, .i32⟩
  | 113 => ⟨S200000, .i32⟩
  | 114 => ⟨S200000, .i1⟩
  | 115 => ⟨S_, .i32⟩
  | 116 => ⟨S200000, .i32⟩
  | 117 => ⟨S200000, .i1⟩
  | 118 => ⟨S200000, .i1⟩
  | 119 => ⟨S_, .i32⟩
  | 120 => ⟨S200000, .i32⟩
  | 121 => ⟨S200000, .i1⟩
  | 122 => ⟨S200000, .i1⟩
  | 123 => ⟨S_, .i32⟩
  | 124 => ⟨S200000, .i32⟩
  | 125 => ⟨S200000, .i1⟩
  | 126 => ⟨S200000, .i1⟩
  | 127 => ⟨S_, .i32⟩
  | _ => ⟨S200000x128, .f32⟩

abbrev hbmTy0_13 (i : Nat) : BufTy := match i % 128 with
  | 0 => ⟨S200000, .i32⟩
  | 1 => ⟨S200000, .i1⟩
  | 2 => ⟨S200000, .i1⟩
  | 3 => ⟨S_, .i32⟩
  | 4 => ⟨S200000, .i32⟩
  | 5 => ⟨S200000, .i1⟩
  | 6 => ⟨S200000, .i1⟩
  | 7 => ⟨S_, .i32⟩
  | 8 => ⟨S200000, .i32⟩
  | 9 => ⟨S200000, .i32⟩
  | 10 => ⟨S200000, .i32⟩
  | 11 => ⟨S_, .i32⟩
  | 12 => ⟨S200000, .i32⟩
  | 13 => ⟨S200000, .i32⟩
  | 14 => ⟨S200000, .i32⟩
  | 15 => ⟨S_, .i32⟩
  | 16 => ⟨S_, .i32⟩
  | 17 => ⟨S_, .i32⟩
  | 18 => ⟨S200000, .i32⟩
  | 19 => ⟨S200000, .i32⟩
  | 20 => ⟨S_, .i32⟩
  | 21 => ⟨S200000, .i32⟩
  | 22 => ⟨S200000, .i32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000, .i32⟩
  | 32 => ⟨S_, .i32⟩
  | 33 => ⟨S200000, .i32⟩
  | 34 => ⟨S200000, .i1⟩
  | 35 => ⟨S200000, .i1⟩
  | 36 => ⟨S200000x1, .i1⟩
  | 37 => ⟨S_, .i32⟩
  | 38 => ⟨S200000, .i32⟩
  | 39 => ⟨S200000, .i32⟩
  | 40 => ⟨S_, .i32⟩
  | 41 => ⟨S200000, .i32⟩
  | 42 => ⟨S200000, .i1⟩
  | 43 => ⟨S_, .i32⟩
  | 44 => ⟨S200000, .i32⟩
  | 45 => ⟨S200000, .i32⟩
  | 46 => ⟨S200000, .i32⟩
  | 47 => ⟨S200000x1, .i32⟩
  | 48 => ⟨S200000x128, .f32⟩
  | 49 => ⟨S_, .f32⟩
  | 50 => ⟨S_, .f32⟩
  | 51 => ⟨S200000x128, .i1⟩
  | 52 => ⟨S200000x128, .f32⟩
  | 53 => ⟨S200000x128, .f32⟩
  | 54 => ⟨S1x128x20, .f32⟩
  | 55 => ⟨S128x20, .f32⟩
  | 56 => ⟨S200000x20, .f32⟩
  | 57 => ⟨S200000x20, .f32⟩
  | 58 => ⟨S200000x1, .i32⟩
  | 59 => ⟨S200000, .i32⟩
  | 60 => ⟨S_, .i32⟩
  | 61 => ⟨S200000, .i32⟩
  | 62 => ⟨S200000, .i32⟩
  | 63 => ⟨S200000x1, .i32⟩
  | 64 => ⟨S200000, .i32⟩
  | 65 => ⟨S_, .i32⟩
  | 66 => ⟨S200000, .i32⟩
  | 67 => ⟨S200000, .i32⟩
  | 68 => ⟨S200000x1, .i32⟩
  | 69 => ⟨S200000, .i32⟩
  | 70 => ⟨S_, .i32⟩
  | 71 => ⟨S200000, .i32⟩
  | 72 => ⟨S200000, .i32⟩
  | 73 => ⟨S_, .i32⟩
  | 74 => ⟨S200000, .i32⟩
  | 75 => ⟨S200000, .i1⟩
  | 76 => ⟨S_, .i32⟩
  | 77 => ⟨S200000, .i32⟩
  | 78 => ⟨S200000, .i1⟩
  | 79 => ⟨S200000, .i1⟩
  | 80 => ⟨S_, .i32⟩
  | 81 => ⟨S200000, .i32⟩
  | 82 => ⟨S200000, .i1⟩
  | 83 => ⟨S200000, .i1⟩
  | 84 => ⟨S_, .i32⟩
  | 85 => ⟨S200000, .i32⟩
  | 86 => ⟨S200000, .i1⟩
  | 87 => ⟨S200000, .i1⟩
  | 88 => ⟨S_, .i32⟩
  | 89 => ⟨S200000, .i32⟩
  | 90 => ⟨S200000, .i1⟩
  | 91 => ⟨S200000, .i1⟩
  | 92 => ⟨S_, .i32⟩
  | 93 => ⟨S200000, .i32⟩
  | 94 => ⟨S200000, .i1⟩
  | 95 => ⟨S200000, .i1⟩
  | 96 => ⟨S_, .i32⟩
  | 97 => ⟨S200000, .i32⟩
  | 98 => ⟨S200000, .i32⟩
  | 99 => ⟨S200000, .i32⟩
  | 100 => ⟨S_, .i32⟩
  | 101 => ⟨S200000, .i32⟩
  | 102 => ⟨S200000, .i32⟩
  | 103 => ⟨S200000, .i32⟩
  | 104 => ⟨S_, .i32⟩
  | 105 => ⟨S_, .i32⟩
  | 106 => ⟨S_, .i32⟩
  | 107 => ⟨S200000, .i32⟩
  | 108 => ⟨S200000, .i32⟩
  | 109 => ⟨S_, .i32⟩
  | 110 => ⟨S200000, .i32⟩
  | 111 => ⟨S200000, .i32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000, .i32⟩
  | 121 => ⟨S_, .i32⟩
  | 122 => ⟨S200000, .i32⟩
  | 123 => ⟨S200000, .i1⟩
  | 124 => ⟨S200000, .i1⟩
  | 125 => ⟨S200000x1, .i1⟩
  | 126 => ⟨S_, .i32⟩
  | 127 => ⟨S200000, .i32⟩
  | _ => ⟨S200000x128, .f32⟩

abbrev hbmTy0_14 (i : Nat) : BufTy := match i % 128 with
  | 0 => ⟨S200000, .i32⟩
  | 1 => ⟨S_, .i32⟩
  | 2 => ⟨S200000, .i32⟩
  | 3 => ⟨S200000, .i1⟩
  | 4 => ⟨S_, .i32⟩
  | 5 => ⟨S200000, .i32⟩
  | 6 => ⟨S200000, .i32⟩
  | 7 => ⟨S200000, .i32⟩
  | 8 => ⟨S200000x1, .i32⟩
  | 9 => ⟨S200000x128, .f32⟩
  | 10 => ⟨S_, .f32⟩
  | 11 => ⟨S_, .f32⟩
  | 12 => ⟨S200000x128, .i1⟩
  | 13 => ⟨S200000x128, .f32⟩
  | 14 => ⟨S200000x128, .f32⟩
  | 15 => ⟨S1x128x20, .f32⟩
  | 16 => ⟨S128x20, .f32⟩
  | 17 => ⟨S200000x20, .f32⟩
  | 18 => ⟨S200000x20, .f32⟩
  | 19 => ⟨S200000x1, .i32⟩
  | 20 => ⟨S200000, .i32⟩
  | 21 => ⟨S_, .i32⟩
  | 22 => ⟨S200000, .i32⟩
  | 23 => ⟨S200000, .i32⟩
  | 24 => ⟨S200000x1, .i32⟩
  | 25 => ⟨S200000, .i32⟩
  | 26 => ⟨S_, .i32⟩
  | 27 => ⟨S200000, .i32⟩
  | 28 => ⟨S200000, .i32⟩
  | 29 => ⟨S200000x1, .i32⟩
  | 30 => ⟨S200000, .i32⟩
  | 31 => ⟨S_, .i32⟩
  | 32 => ⟨S200000, .i32⟩
  | 33 => ⟨S200000, .i32⟩
  | 34 => ⟨S_, .i32⟩
  | 35 => ⟨S200000, .i32⟩
  | 36 => ⟨S200000, .i1⟩
  | 37 => ⟨S_, .i32⟩
  | 38 => ⟨S200000, .i32⟩
  | 39 => ⟨S200000, .i1⟩
  | 40 => ⟨S200000, .i1⟩
  | 41 => ⟨S_, .i32⟩
  | 42 => ⟨S200000, .i32⟩
  | 43 => ⟨S200000, .i1⟩
  | 44 => ⟨S200000, .i1⟩
  | 45 => ⟨S_, .i32⟩
  | 46 => ⟨S200000, .i32⟩
  | 47 => ⟨S200000, .i1⟩
  | 48 => ⟨S200000, .i1⟩
  | 49 => ⟨S_, .i32⟩
  | 50 => ⟨S200000, .i32⟩
  | 51 => ⟨S200000, .i1⟩
  | 52 => ⟨S200000, .i1⟩
  | 53 => ⟨S_, .i32⟩
  | 54 => ⟨S200000, .i32⟩
  | 55 => ⟨S200000, .i1⟩
  | 56 => ⟨S200000, .i1⟩
  | 57 => ⟨S_, .i32⟩
  | 58 => ⟨S200000, .i32⟩
  | 59 => ⟨S200000, .i32⟩
  | 60 => ⟨S200000, .i32⟩
  | 61 => ⟨S_, .i32⟩
  | 62 => ⟨S200000, .i32⟩
  | 63 => ⟨S200000, .i32⟩
  | 64 => ⟨S200000, .i32⟩
  | 65 => ⟨S_, .i32⟩
  | 66 => ⟨S_, .i32⟩
  | 67 => ⟨S_, .i32⟩
  | 68 => ⟨S200000, .i32⟩
  | 69 => ⟨S200000, .i32⟩
  | 70 => ⟨S_, .i32⟩
  | 71 => ⟨S200000, .i32⟩
  | 72 => ⟨S200000, .i32⟩
  | 73 => ⟨S_, .i32⟩
  | 74 => ⟨S200000, .i32⟩
  | 75 => ⟨S200000, .i1⟩
  | 76 => ⟨S_, .i32⟩
  | 77 => ⟨S200000, .i32⟩
  | 78 => ⟨S200000, .i32⟩
  | 79 => ⟨S200000, .i32⟩
  | 80 => ⟨S200000x1, .i32⟩
  | 81 => ⟨S200000, .i32⟩
  | 82 => ⟨S_, .i32⟩
  | 83 => ⟨S200000, .i32⟩
  | 84 => ⟨S200000, .i1⟩
  | 85 => ⟨S200000, .i1⟩
  | 86 => ⟨S200000x1, .i1⟩
  | 87 => ⟨S_, .i32⟩
  | 88 => ⟨S200000, .i32⟩
  | 89 => ⟨S200000, .i32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S200000x128, .f32⟩
  | 99 => ⟨S_, .f32⟩
  | 100 => ⟨S_, .f32⟩
  | 101 => ⟨S200000x128, .i1⟩
  | 102 => ⟨S200000x128, .f32⟩
  | 103 => ⟨S200000x128, .f32⟩
  | 104 => ⟨S1x128x20, .f32⟩
  | 105 => ⟨S128x20, .f32⟩
  | 106 => ⟨S200000x20, .f32⟩
  | 107 => ⟨S200000x20, .f32⟩
  | 108 => ⟨S200000x1, .i32⟩
  | 109 => ⟨S200000, .i32⟩
  | 110 => ⟨S_, .i32⟩
  | 111 => ⟨S200000, .i32⟩
  | 112 => ⟨S200000, .i32⟩
  | 113 => ⟨S200000x1, .i32⟩
  | 114 => ⟨S200000, .i32⟩
  | 115 => ⟨S_, .i32⟩
  | 116 => ⟨S200000, .i32⟩
  | 117 => ⟨S200000, .i32⟩
  | 118 => ⟨S200000x1, .i32⟩
  | 119 => ⟨S200000, .i32⟩
  | 120 => ⟨S_, .i32⟩
  | 121 => ⟨S200000, .i32⟩
  | 122 => ⟨S200000, .i32⟩
  | 123 => ⟨S_, .i32⟩
  | 124 => ⟨S200000, .i32⟩
  | 125 => ⟨S200000, .i1⟩
  | 126 => ⟨S_, .i32⟩
  | 127 => ⟨S200000, .i32⟩
  | _ => ⟨S200000x128, .f32⟩

abbrev hbmTy0_15 (i : Nat) : BufTy := match i % 128 with
  | 0 => ⟨S200000, .i1⟩
  | 1 => ⟨S200000, .i1⟩
  | 2 => ⟨S_, .i32⟩
  | 3 => ⟨S200000, .i32⟩
  | 4 => ⟨S200000, .i1⟩
  | 5 => ⟨S200000, .i1⟩
  | 6 => ⟨S_, .i32⟩
  | 7 => ⟨S200000, .i32⟩
  | 8 => ⟨S200000, .i1⟩
  | 9 => ⟨S200000, .i1⟩
  | 10 => ⟨S_, .i32⟩
  | 11 => ⟨S200000, .i32⟩
  | 12 => ⟨S200000, .i1⟩
  | 13 => ⟨S200000, .i1⟩
  | 14 => ⟨S_, .i32⟩
  | 15 => ⟨S200000, .i32⟩
  | 16 => ⟨S200000, .i1⟩
  | 17 => ⟨S200000, .i1⟩
  | 18 => ⟨S_, .i32⟩
  | 19 => ⟨S200000, .i32⟩
  | 20 => ⟨S200000, .i32⟩
  | 21 => ⟨S200000, .i32⟩
  | 22 => ⟨S_, .i32⟩
  | 23 => ⟨S200000, .i32⟩
  | 24 => ⟨S200000, .i32⟩
  | 25 => ⟨S200000, .i32⟩
  | 26 => ⟨S_, .i32⟩
  | 27 => ⟨S_, .i32⟩
  | 28 => ⟨S_, .i32⟩
  | 29 => ⟨S200000, .i32⟩
  | 30 => ⟨S200000, .i32⟩
  | 31 => ⟨S_, .i32⟩
  | 32 => ⟨S200000, .i32⟩
  | 33 => ⟨S200000, .i32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000, .i32⟩
  | 43 => ⟨S_, .i32⟩
  | 44 => ⟨S200000, .i32⟩
  | 45 => ⟨S200000, .i1⟩
  | 46 => ⟨S200000, .i1⟩
  | 47 => ⟨S200000x1, .i1⟩
  | 48 => ⟨S_, .i32⟩
  | 49 => ⟨S200000, .i32⟩
  | 50 => ⟨S200000, .i32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S200000x128, .f32⟩
  | 60 => ⟨S_, .f32⟩
  | 61 => ⟨S_, .f32⟩
  | 62 => ⟨S200000x128, .i1⟩
  | 63 => ⟨S200000x128, .f32⟩
  | 64 => ⟨S200000x128, .f32⟩
  | 65 => ⟨S1x128x20, .f32⟩
  | 66 => ⟨S128x20, .f32⟩
  | 67 => ⟨S200000x20, .f32⟩
  | 68 => ⟨S200000x20, .f32⟩
  | 69 => ⟨S200000x1, .i32⟩
  | 70 => ⟨S200000, .i32⟩
  | 71 => ⟨S_, .i32⟩
  | 72 => ⟨S200000, .i32⟩
  | 73 => ⟨S200000, .i32⟩
  | 74 => ⟨S200000x1, .i32⟩
  | 75 => ⟨S200000, .i32⟩
  | 76 => ⟨S_, .i32⟩
  | 77 => ⟨S200000, .i32⟩
  | 78 => ⟨S200000, .i32⟩
  | 79 => ⟨S200000x1, .i32⟩
  | 80 => ⟨S200000, .i32⟩
  | 81 => ⟨S_, .i32⟩
  | 82 => ⟨S200000, .i32⟩
  | 83 => ⟨S200000, .i32⟩
  | 84 => ⟨S_, .i32⟩
  | 85 => ⟨S200000, .i32⟩
  | 86 => ⟨S200000, .i1⟩
  | 87 => ⟨S_, .i32⟩
  | 88 => ⟨S200000, .i32⟩
  | 89 => ⟨S200000, .i1⟩
  | 90 => ⟨S200000, .i1⟩
  | 91 => ⟨S_, .i32⟩
  | 92 => ⟨S200000, .i32⟩
  | 93 => ⟨S200000, .i1⟩
  | 94 => ⟨S200000, .i1⟩
  | 95 => ⟨S_, .i32⟩
  | 96 => ⟨S200000, .i32⟩
  | 97 => ⟨S200000, .i1⟩
  | 98 => ⟨S200000, .i1⟩
  | 99 => ⟨S_, .i32⟩
  | 100 => ⟨S200000, .i32⟩
  | 101 => ⟨S200000, .i1⟩
  | 102 => ⟨S200000, .i1⟩
  | 103 => ⟨S_, .i32⟩
  | 104 => ⟨S200000, .i32⟩
  | 105 => ⟨S200000, .i1⟩
  | 106 => ⟨S200000, .i1⟩
  | 107 => ⟨S_, .i32⟩
  | 108 => ⟨S200000, .i32⟩
  | 109 => ⟨S200000, .i32⟩
  | 110 => ⟨S200000, .i32⟩
  | 111 => ⟨S_, .i32⟩
  | 112 => ⟨S200000, .i32⟩
  | 113 => ⟨S200000, .i32⟩
  | 114 => ⟨S200000, .i32⟩
  | 115 => ⟨S_, .i32⟩
  | 116 => ⟨S_, .i32⟩
  | 117 => ⟨S_, .i32⟩
  | 118 => ⟨S200000, .i32⟩
  | 119 => ⟨S200000, .i32⟩
  | 120 => ⟨S_, .i32⟩
  | 121 => ⟨S200000, .i32⟩
  | 122 => ⟨S200000, .i32⟩
  | 123 => ⟨S_, .i32⟩
  | 124 => ⟨S200000, .i32⟩
  | 125 => ⟨S200000, .i1⟩
  | 126 => ⟨S_, .i32⟩
  | 127 => ⟨S200000, .i32⟩
  | _ => ⟨S200000x128, .f32⟩

abbrev hbmTy0_16 (i : Nat) : BufTy := match i % 128 with
  | 0 => ⟨S200000, .i32⟩
  | 1 => ⟨S200000, .i32⟩
  | 2 => ⟨S200000x1, .i32⟩
  | 3 => ⟨S200000, .i32⟩
  | 4 => ⟨S_, .i32⟩
  | 5 => ⟨S200000, .i32⟩
  | 6 => ⟨S200000, .i1⟩
  | 7 => ⟨S200000, .i1⟩
  | 8 => ⟨S200000x1, .i1⟩
  | 9 => ⟨S_, .i32⟩
  | 10 => ⟨S200000, .i32⟩
  | 11 => ⟨S200000, .i32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000x128, .f32⟩
  | 21 => ⟨S_, .f32⟩
  | 22 => ⟨S_, .f32⟩
  | 23 => ⟨S200000x128, .i1⟩
  | 24 => ⟨S200000x128, .f32⟩
  | 25 => ⟨S200000x128, .f32⟩
  | 26 => ⟨S1x128x20, .f32⟩
  | 27 => ⟨S128x20, .f32⟩
  | 28 => ⟨S200000x20, .f32⟩
  | 29 => ⟨S200000x20, .f32⟩
  | 30 => ⟨S200000x1, .i32⟩
  | 31 => ⟨S200000, .i32⟩
  | 32 => ⟨S_, .i32⟩
  | 33 => ⟨S200000, .i32⟩
  | 34 => ⟨S200000, .i32⟩
  | 35 => ⟨S200000x1, .i32⟩
  | 36 => ⟨S200000, .i32⟩
  | 37 => ⟨S_, .i32⟩
  | 38 => ⟨S200000, .i32⟩
  | 39 => ⟨S200000, .i32⟩
  | 40 => ⟨S200000x1, .i32⟩
  | 41 => ⟨S200000, .i32⟩
  | 42 => ⟨S_, .i32⟩
  | 43 => ⟨S200000, .i32⟩
  | 44 => ⟨S200000, .i32⟩
  | 45 => ⟨S_, .i32⟩
  | 46 => ⟨S200000, .i32⟩
  | 47 => ⟨S200000, .i1⟩
  | 48 => ⟨S_, .i32⟩
  | 49 => ⟨S200000, .i32⟩
  | 50 => ⟨S200000, .i1⟩
  | 51 => ⟨S200000, .i1⟩
  | 52 => ⟨S_, .i32⟩
  | 53 => ⟨S200000, .i32⟩
  | 54 => ⟨S200000, .i1⟩
  | 55 => ⟨S200000, .i1⟩
  | 56 => ⟨S_, .i32⟩
  | 57 => ⟨S200000, .i32⟩
  | 58 => ⟨S200000, .i1⟩
  | 59 => ⟨S200000, .i1⟩
  | 60 => ⟨S_, .i32⟩
  | 61 => ⟨S200000, .i32⟩
  | 62 => ⟨S200000, .i1⟩
  | 63 => ⟨S200000, .i1⟩
  | 64 => ⟨S_, .i32⟩
  | 65 => ⟨S200000, .i32⟩
  | 66 => ⟨S200000, .i1⟩
  | 67 => ⟨S200000, .i1⟩
  | 68 => ⟨S_, .i32⟩
  | 69 => ⟨S200000, .i32⟩
  | 70 => ⟨S200000, .i32⟩
  | 71 => ⟨S200000, .i32⟩
  | 72 => ⟨S_, .i32⟩
  | 73 => ⟨S200000, .i32⟩
  | 74 => ⟨S200000, .i32⟩
  | 75 => ⟨S200000, .i32⟩
  | 76 => ⟨S_, .i32⟩
  | 77 => ⟨S_, .i32⟩
  | 78 => ⟨S_, .i32⟩
  | 79 => ⟨S200000, .i32⟩
  | 80 => ⟨S200000, .i32⟩
  | 81 => ⟨S_, .i32⟩
  | 82 => ⟨S200000, .i32⟩
  | 83 => ⟨S200000, .i32⟩
  | 84 => ⟨S_, .i32⟩
  | 85 => ⟨S200000, .i32⟩
  | 86 => ⟨S200000, .i1⟩
  | 87 => ⟨S_, .i32⟩
  | 88 => ⟨S200000, .i32⟩
  | 89 => ⟨S200000, .i32⟩
  | 90 => ⟨S200000, .i32⟩
  | 91 => ⟨S200000x1, .i32⟩
  | 92 => ⟨S200000, .i32⟩
  | 93 => ⟨S_, .i32⟩
  | 94 => ⟨S200000, .i32⟩
  | 95 => ⟨S200000, .i1⟩
  | 96 => ⟨S200000, .i1⟩
  | 97 => ⟨S200000x1, .i1⟩
  | 98 => ⟨S_, .i32⟩
  | 99 => ⟨S200000, .i32⟩
  | 100 => ⟨S200000, .i32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000x128, .f32⟩
  | 110 => ⟨S_, .f32⟩
  | 111 => ⟨S_, .f32⟩
  | 112 => ⟨S200000x128, .i1⟩
  | 113 => ⟨S200000x128, .f32⟩
  | 114 => ⟨S200000x128, .f32⟩
  | 115 => ⟨S1x128x20, .f32⟩
  | 116 => ⟨S128x20, .f32⟩
  | 117 => ⟨S200000x20, .f32⟩
  | 118 => ⟨S200000x20, .f32⟩
  | 119 => ⟨S200000x1, .i32⟩
  | 120 => ⟨S200000, .i32⟩
  | 121 => ⟨S_, .i32⟩
  | 122 => ⟨S200000, .i32⟩
  | 123 => ⟨S200000, .i32⟩
  | 124 => ⟨S200000x1, .i32⟩
  | 125 => ⟨S200000, .i32⟩
  | 126 => ⟨S_, .i32⟩
  | 127 => ⟨S200000, .i32⟩
  | _ => ⟨S200000x128, .f32⟩

abbrev hbmTy0_17 (i : Nat) : BufTy := match i % 128 with
  | 0 => ⟨S200000, .i32⟩
  | 1 => ⟨S200000x1, .i32⟩
  | 2 => ⟨S200000, .i32⟩
  | 3 => ⟨S_, .i32⟩
  | 4 => ⟨S200000, .i32⟩
  | 5 => ⟨S200000, .i32⟩
  | 6 => ⟨S_, .i32⟩
  | 7 => ⟨S200000, .i32⟩
  | 8 => ⟨S200000, .i1⟩
  | 9 => ⟨S_, .i32⟩
  | 10 => ⟨S200000, .i32⟩
  | 11 => ⟨S200000, .i1⟩
  | 12 => ⟨S200000, .i1⟩
  | 13 => ⟨S_, .i32⟩
  | 14 => ⟨S200000, .i32⟩
  | 15 => ⟨S200000, .i1⟩
  | 16 => ⟨S200000, .i1⟩
  | 17 => ⟨S_, .i32⟩
  | 18 => ⟨S200000, .i32⟩
  | 19 => ⟨S200000, .i1⟩
  | 20 => ⟨S200000, .i1⟩
  | 21 => ⟨S_, .i32⟩
  | 22 => ⟨S200000, .i32⟩
  | 23 => ⟨S200000, .i1⟩
  | 24 => ⟨S200000, .i1⟩
  | 25 => ⟨S_, .i32⟩
  | 26 => ⟨S200000, .i32⟩
  | 27 => ⟨S200000, .i1⟩
  | 28 => ⟨S200000, .i1⟩
  | 29 => ⟨S_, .i32⟩
  | 30 => ⟨S200000, .i32⟩
  | 31 => ⟨S200000, .i32⟩
  | 32 => ⟨S200000, .i32⟩
  | 33 => ⟨S_, .i32⟩
  | 34 => ⟨S200000, .i32⟩
  | 35 => ⟨S200000, .i32⟩
  | 36 => ⟨S200000, .i32⟩
  | 37 => ⟨S_, .i32⟩
  | 38 => ⟨S_, .i32⟩
  | 39 => ⟨S_, .i32⟩
  | 40 => ⟨S200000, .i32⟩
  | 41 => ⟨S200000, .i32⟩
  | 42 => ⟨S_, .i32⟩
  | 43 => ⟨S200000, .i32⟩
  | 44 => ⟨S200000, .i32⟩
  | 45 => ⟨S_, .i32⟩
  | 46 => ⟨S200000, .i32⟩
  | 47 => ⟨S200000, .i1⟩
  | 48 => ⟨S_, .i32⟩
  | 49 => ⟨S200000, .i32⟩
  | 50 => ⟨S200000, .i32⟩
  | 51 => ⟨S200000, .i32⟩
  | 52 => ⟨S200000x1, .i32⟩
  | 53 => ⟨S200000, .i32⟩
  | 54 => ⟨S_, .i32⟩
  | 55 => ⟨S200000, .i32⟩
  | 56 => ⟨S200000, .i1⟩
  | 57 => ⟨S200000, .i1⟩
  | 58 => ⟨S200000x1, .i1⟩
  | 59 => ⟨S_, .i32⟩
  | 60 => ⟨S200000, .i32⟩
  | 61 => ⟨S200000, .i32⟩
  | 62 => ⟨S_, .i32⟩
  | 63 => ⟨S200000, .i32⟩
  | 64 => ⟨S200000, .i1⟩
  | 65 => ⟨S_, .i32⟩
  | 66 => ⟨S200000, .i32⟩
  | 67 => ⟨S200000, .i32⟩
  | 68 => ⟨S200000, .i32⟩
  | 69 => ⟨S200000x1, .i32⟩
  | 70 => ⟨S200000x128, .f32⟩
  | 71 => ⟨S_, .f32⟩
  | 72 => ⟨S_, .f32⟩
  | 73 => ⟨S200000x128, .i1⟩
  | 74 => ⟨S200000x128, .f32⟩
  | 75 => ⟨S200000x128, .f32⟩
  | 76 => ⟨S1x128x20, .f32⟩
  | 77 => ⟨S128x20, .f32⟩
  | 78 => ⟨S200000x20, .f32⟩
  | 79 => ⟨S200000x20, .f32⟩
  | 80 => ⟨S200000x1, .i32⟩
  | 81 => ⟨S200000, .i32⟩
  | 82 => ⟨S_, .i32⟩
  | 83 => ⟨S200000, .i32⟩
  | 84 => ⟨S200000, .i32⟩
  | 85 => ⟨S200000x1, .i32⟩
  | 86 => ⟨S200000, .i32⟩
  | 87 => ⟨S_, .i32⟩
  | 88 => ⟨S200000, .i32⟩
  | 89 => ⟨S200000, .i32⟩
  | 90 => ⟨S200000x1, .i32⟩
  | 91 => ⟨S200000, .i32⟩
  | 92 => ⟨S_, .i32⟩
  | 93 => ⟨S200000, .i32⟩
  | 94 => ⟨S200000, .i32⟩
  | 95 => ⟨S_, .i32⟩
  | 96 => ⟨S200000, .i32⟩
  | 97 => ⟨S200000, .i1⟩
  | 98 => ⟨S_, .i32⟩
  | 99 => ⟨S200000, .i32⟩
  | 100 => ⟨S200000, .i1⟩
  | 101 => ⟨S200000, .i1⟩
  | 102 => ⟨S_, .i32⟩
  | 103 => ⟨S200000, .i32⟩
  | 104 => ⟨S200000, .i1⟩
  | 105 => ⟨S200000, .i1⟩
  | 106 => ⟨S_, .i32⟩
  | 107 => ⟨S200000, .i32⟩
  | 108 => ⟨S200000, .i1⟩
  | 109 => ⟨S200000, .i1⟩
  | 110 => ⟨S_, .i32⟩
  | 111 => ⟨S200000, .i32⟩
  | 112 => ⟨S200000, .i1⟩
  | 113 => ⟨S200000, .i1⟩
  | 114 => ⟨S_, .i32⟩
  | 115 => ⟨S200000, .i32⟩
  | 116 => ⟨S200000, .i1⟩
  | 117 => ⟨S200000, .i1⟩
  | 118 => ⟨S_, .i32⟩
  | 119 => ⟨S200000, .i32⟩
  | 120 => ⟨S200000, .i32⟩
  | 121 => ⟨S200000, .i32⟩
  | 122 => ⟨S_, .i32⟩
  | 123 => ⟨S200000, .i32⟩
  | 124 => ⟨S200000, .i32⟩
  | 125 => ⟨S200000, .i32⟩
  | 126 => ⟨S_, .i32⟩
  | 127 => ⟨S_, .i32⟩
  | _ => ⟨S200000x128, .f32⟩

abbrev hbmTy0_18 (i : Nat) : BufTy := match i % 128 with
  | 0 => ⟨S_, .i32⟩
  | 1 => ⟨S200000, .i32⟩
  | 2 => ⟨S200000, .i32⟩
  | 3 => ⟨S_, .i32⟩
  | 4 => ⟨S200000, .i32⟩
  | 5 => ⟨S200000, .i32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000, .i32⟩
  | 15 => ⟨S_, .i32⟩
  | 16 => ⟨S200000, .i32⟩
  | 17 => ⟨S200000, .i1⟩
  | 18 => ⟨S200000, .i1⟩
  | 19 => ⟨S200000x1, .i1⟩
  | 20 => ⟨S_, .i32⟩
  | 21 => ⟨S200000, .i32⟩
  | 22 => ⟨S200000, .i32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x128, .f32⟩
  | 32 => ⟨S_, .f32⟩
  | 33 => ⟨S_, .f32⟩
  | 34 => ⟨S200000x128, .i1⟩
  | 35 => ⟨S200000x128, .f32⟩
  | 36 => ⟨S200000x128, .f32⟩
  | 37 => ⟨S1x128x20, .f32⟩
  | 38 => ⟨S128x20, .f32⟩
  | 39 => ⟨S200000x20, .f32⟩
  | 40 => ⟨S200000x20, .f32⟩
  | 41 => ⟨S200000x1, .i32⟩
  | 42 => ⟨S200000, .i32⟩
  | 43 => ⟨S_, .i32⟩
  | 44 => ⟨S200000, .i32⟩
  | 45 => ⟨S200000, .i32⟩
  | 46 => ⟨S200000x1, .i32⟩
  | 47 => ⟨S200000, .i32⟩
  | 48 => ⟨S_, .i32⟩
  | 49 => ⟨S200000, .i32⟩
  | 50 => ⟨S200000, .i32⟩
  | 51 => ⟨S200000x1, .i32⟩
  | 52 => ⟨S200000, .i32⟩
  | 53 => ⟨S_, .i32⟩
  | 54 => ⟨S200000, .i32⟩
  | 55 => ⟨S200000, .i32⟩
  | 56 => ⟨S_, .i32⟩
  | 57 => ⟨S200000, .i32⟩
  | 58 => ⟨S200000, .i1⟩
  | 59 => ⟨S_, .i32⟩
  | 60 => ⟨S200000, .i32⟩
  | 61 => ⟨S200000, .i1⟩
  | 62 => ⟨S200000, .i1⟩
  | 63 => ⟨S_, .i32⟩
  | 64 => ⟨S200000, .i32⟩
  | 65 => ⟨S200000, .i1⟩
  | 66 => ⟨S200000, .i1⟩
  | 67 => ⟨S_, .i32⟩
  | 68 => ⟨S200000, .i32⟩
  | 69 => ⟨S200000, .i1⟩
  | 70 => ⟨S200000, .i1⟩
  | 71 => ⟨S_, .i32⟩
  | 72 => ⟨S200000, .i32⟩
  | 73 => ⟨S200000, .i1⟩
  | 74 => ⟨S200000, .i1⟩
  | 75 => ⟨S_, .i32⟩
  | 76 => ⟨S200000, .i32⟩
  | 77 => ⟨S200000, .i1⟩
  | 78 => ⟨S200000, .i1⟩
  | 79 => ⟨S_, .i32⟩
  | 80 => ⟨S200000, .i32⟩
  | 81 => ⟨S200000, .i32⟩
  | 82 => ⟨S200000, .i32⟩
  | 83 => ⟨S_, .i32⟩
  | 84 => ⟨S200000, .i32⟩
  | 85 => ⟨S200000, .i32⟩
  | 86 => ⟨S200000, .i32⟩
  | 87 => ⟨S_, .i32⟩
  | 88 => ⟨S_, .i32⟩
  | 89 => ⟨S_, .i32⟩
  | 90 => ⟨S200000, .i32⟩
  | 91 => ⟨S200000, .i32⟩
  | 92 => ⟨S_, .i32⟩
  | 93 => ⟨S200000, .i32⟩
  | 94 => ⟨S200000, .i32⟩
  | 95 => ⟨S_, .i32⟩
  | 96 => ⟨S200000, .i32⟩
  | 97 => ⟨S200000, .i1⟩
  | 98 => ⟨S_, .i32⟩
  | 99 => ⟨S200000, .i32⟩
  | 100 => ⟨S200000, .i32⟩
  | 101 => ⟨S200000, .i32⟩
  | 102 => ⟨S200000x1, .i32⟩
  | 103 => ⟨S200000, .i32⟩
  | 104 => ⟨S_, .i32⟩
  | 105 => ⟨S200000, .i32⟩
  | 106 => ⟨S200000, .i1⟩
  | 107 => ⟨S200000, .i1⟩
  | 108 => ⟨S200000x1, .i1⟩
  | 109 => ⟨S_, .i32⟩
  | 110 => ⟨S200000, .i32⟩
  | 111 => ⟨S200000, .i32⟩
  | 112 => ⟨S_, .i32⟩
  | 113 => ⟨S200000, .i32⟩
  | 114 => ⟨S200000, .i1⟩
  | 115 => ⟨S_, .i32⟩
  | 116 => ⟨S200000, .i32⟩
  | 117 => ⟨S200000, .i32⟩
  | 118 => ⟨S200000, .i32⟩
  | 119 => ⟨S200000x1, .i32⟩
  | 120 => ⟨S200000x128, .f32⟩
  | 121 => ⟨S_, .f32⟩
  | 122 => ⟨S_, .f32⟩
  | 123 => ⟨S200000x128, .i1⟩
  | 124 => ⟨S200000x128, .f32⟩
  | 125 => ⟨S200000x128, .f32⟩
  | 126 => ⟨S1x128x20, .f32⟩
  | 127 => ⟨S128x20, .f32⟩
  | _ => ⟨S200000x128, .f32⟩

abbrev hbmTy0_19 (i : Nat) : BufTy := match i % 128 with
  | 0 => ⟨S200000x20, .f32⟩
  | 1 => ⟨S200000x20, .f32⟩
  | _ => ⟨S200000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_13 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_15 : Ref sig .tc := ⟨.hbm, 77, rfl⟩
abbrev main_c_16 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v57 : Ref sig .tc := ⟨.hbm, 84, rfl⟩
abbrev main_c_17 : Ref sig .tc := ⟨.hbm, 85, rfl⟩
abbrev main_v58 : Ref sig .tc := ⟨.hbm, 86, rfl⟩
abbrev main_v59 : Ref sig .tc := ⟨.hbm, 87, rfl⟩
abbrev main_c_18 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_19 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_20 : Ref sig .tc := ⟨.hbm, 99, rfl⟩
abbrev main_v69 : Ref sig .tc := ⟨.hbm, 100, rfl⟩
abbrev main_v70 : Ref sig .tc := ⟨.hbm, 101, rfl⟩
abbrev main_c_21 : Ref sig .tc := ⟨.hbm, 102, rfl⟩
abbrev main_v71 : Ref sig .tc := ⟨.hbm, 103, rfl⟩
abbrev main_v72 : Ref sig .tc := ⟨.hbm, 104, rfl⟩
abbrev main_c_22 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_23 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_24 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_25 : Ref sig .tc := ⟨.hbm, 132, rfl⟩
abbrev main_v93 : Ref sig .tc := ⟨.hbm, 133, rfl⟩
abbrev main_v94 : Ref sig .tc := ⟨.hbm, 134, rfl⟩
abbrev main_c_26 : Ref sig .tc := ⟨.hbm, 135, rfl⟩
abbrev main_v95 : Ref sig .tc := ⟨.hbm, 136, rfl⟩
abbrev main_v96 : Ref sig .tc := ⟨.hbm, 137, rfl⟩
abbrev main_c_27 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_28 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_29 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_30 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_31 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c_32 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_33 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_c_34 : Ref sig .tc := ⟨.hbm, 166, rfl⟩
abbrev main_c_35 : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_v118 : Ref sig .tc := ⟨.hbm, 173, rfl⟩
abbrev main_c_36 : Ref sig .tc := ⟨.hbm, 174, rfl⟩
abbrev main_v119 : Ref sig .tc := ⟨.hbm, 175, rfl⟩
abbrev main_v120 : Ref sig .tc := ⟨.hbm, 176, rfl⟩
abbrev main_c_37 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_c_38 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_c_39 : Ref sig .tc := ⟨.hbm, 188, rfl⟩
abbrev main_v130 : Ref sig .tc := ⟨.hbm, 189, rfl⟩
abbrev main_v131 : Ref sig .tc := ⟨.hbm, 190, rfl⟩
abbrev main_c_40 : Ref sig .tc := ⟨.hbm, 191, rfl⟩
abbrev main_v132 : Ref sig .tc := ⟨.hbm, 192, rfl⟩
abbrev main_v133 : Ref sig .tc := ⟨.hbm, 193, rfl⟩
abbrev main_c_41 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_cst_42 : Ref sig .tc := ⟨.hbm, 200, rfl⟩
abbrev main_call3_v0 : Ref sig .tc := ⟨.hbm, 201, rfl⟩
abbrev main_call3_v1 : Ref sig .tc := ⟨.hbm, 202, rfl⟩
abbrev main_call3_v2 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_c_43 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_c_44 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_c_45 : Ref sig .tc := ⟨.hbm, 221, rfl⟩
abbrev main_v154 : Ref sig .tc := ⟨.hbm, 222, rfl⟩
abbrev main_v155 : Ref sig .tc := ⟨.hbm, 223, rfl⟩
abbrev main_c_46 : Ref sig .tc := ⟨.hbm, 224, rfl⟩
abbrev main_v156 : Ref sig .tc := ⟨.hbm, 225, rfl⟩
abbrev main_v157 : Ref sig .tc := ⟨.hbm, 226, rfl⟩
abbrev main_c_47 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_c_48 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_c_49 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_c_50 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_c_51 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_c_52 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_c_53 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_c_54 : Ref sig .tc := ⟨.hbm, 255, rfl⟩
abbrev main_c_55 : Ref sig .tc := ⟨.hbm, 256, rfl⟩
abbrev main_call4_v0 : Ref sig .tc := ⟨.hbm, 257, rfl⟩
abbrev main_call4_v1 : Ref sig .tc := ⟨.hbm, 258, rfl⟩
abbrev main_call4_v2 : Ref sig .tc := ⟨.hbm, 259, rfl⟩
abbrev main_call4_v3 : Ref sig .tc := ⟨.hbm, 260, rfl⟩
abbrev main_call4_v4 : Ref sig .tc := ⟨.hbm, 261, rfl⟩
abbrev main_v179 : Ref sig .tc := ⟨.hbm, 262, rfl⟩
abbrev main_c_56 : Ref sig .tc := ⟨.hbm, 263, rfl⟩
abbrev main_v180 : Ref sig .tc := ⟨.hbm, 264, rfl⟩
abbrev main_v181 : Ref sig .tc := ⟨.hbm, 265, rfl⟩
abbrev main_c_57 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_c_58 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_c_59 : Ref sig .tc := ⟨.hbm, 277, rfl⟩
abbrev main_v191 : Ref sig .tc := ⟨.hbm, 278, rfl⟩
abbrev main_v192 : Ref sig .tc := ⟨.hbm, 279, rfl⟩
abbrev main_c_60 : Ref sig .tc := ⟨.hbm, 280, rfl⟩
abbrev main_v193 : Ref sig .tc := ⟨.hbm, 281, rfl⟩
abbrev main_v194 : Ref sig .tc := ⟨.hbm, 282, rfl⟩
abbrev main_c_61 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_cst_62 : Ref sig .tc := ⟨.hbm, 289, rfl⟩
abbrev main_call5_v0 : Ref sig .tc := ⟨.hbm, 290, rfl⟩
abbrev main_call5_v1 : Ref sig .tc := ⟨.hbm, 291, rfl⟩
abbrev main_call5_v2 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_c_63 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_c_64 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_c_65 : Ref sig .tc := ⟨.hbm, 310, rfl⟩
abbrev main_v215 : Ref sig .tc := ⟨.hbm, 311, rfl⟩
abbrev main_v216 : Ref sig .tc := ⟨.hbm, 312, rfl⟩
abbrev main_c_66 : Ref sig .tc := ⟨.hbm, 313, rfl⟩
abbrev main_v217 : Ref sig .tc := ⟨.hbm, 314, rfl⟩
abbrev main_v218 : Ref sig .tc := ⟨.hbm, 315, rfl⟩
abbrev main_c_67 : Ref sig .tc := ⟨.hbm, 316, rfl⟩
abbrev main_v219 : Ref sig .tc := ⟨.hbm, 317, rfl⟩
abbrev main_v220 : Ref sig .tc := ⟨.hbm, 318, rfl⟩
abbrev main_v221 : Ref sig .tc := ⟨.hbm, 319, rfl⟩
abbrev main_c_68 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_c_69 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_c_70 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_c_71 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_c_72 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_c_73 : Ref sig .tc := ⟨.hbm, 340, rfl⟩
abbrev main_v237 : Ref sig .tc := ⟨.hbm, 341, rfl⟩
abbrev main_v238 : Ref sig .tc := ⟨.hbm, 342, rfl⟩
abbrev main_v239 : Ref sig .tc := ⟨.hbm, 343, rfl⟩
abbrev main_c_74 : Ref sig .tc := ⟨.hbm, 344, rfl⟩
abbrev main_c_75 : Ref sig .tc := ⟨.hbm, 345, rfl⟩
abbrev main_call6_v0 : Ref sig .tc := ⟨.hbm, 346, rfl⟩
abbrev main_call6_v1 : Ref sig .tc := ⟨.hbm, 347, rfl⟩
abbrev main_call6_v2 : Ref sig .tc := ⟨.hbm, 348, rfl⟩
abbrev main_call6_v3 : Ref sig .tc := ⟨.hbm, 349, rfl⟩
abbrev main_call6_v4 : Ref sig .tc := ⟨.hbm, 350, rfl⟩
abbrev main_v240 : Ref sig .tc := ⟨.hbm, 351, rfl⟩
abbrev main_c_76 : Ref sig .tc := ⟨.hbm, 352, rfl⟩
abbrev main_v241 : Ref sig .tc := ⟨.hbm, 353, rfl⟩
abbrev main_v242 : Ref sig .tc := ⟨.hbm, 354, rfl⟩
abbrev main_c_77 : Ref sig .tc := ⟨.hbm, 355, rfl⟩
abbrev main_v243 : Ref sig .tc := ⟨.hbm, 356, rfl⟩
abbrev main_v244 : Ref sig .tc := ⟨.hbm, 357, rfl⟩
abbrev main_v245 : Ref sig .tc := ⟨.hbm, 358, rfl⟩
abbrev main_v246 : Ref sig .tc := ⟨.hbm, 359, rfl⟩
abbrev main_v247 : Ref sig .tc := ⟨.hbm, 360, rfl⟩
abbrev main_c_78 : Ref sig .tc := ⟨.hbm, 361, rfl⟩
abbrev main_v248 : Ref sig .tc := ⟨.hbm, 362, rfl⟩
abbrev main_v249 : Ref sig .tc := ⟨.hbm, 363, rfl⟩
abbrev main_v250 : Ref sig .tc := ⟨.hbm, 364, rfl⟩
abbrev main_v251 : Ref sig .tc := ⟨.hbm, 365, rfl⟩
abbrev main_c_79 : Ref sig .tc := ⟨.hbm, 366, rfl⟩
abbrev main_v252 : Ref sig .tc := ⟨.hbm, 367, rfl⟩
abbrev main_v253 : Ref sig .tc := ⟨.hbm, 368, rfl⟩
abbrev main_c_80 : Ref sig .tc := ⟨.hbm, 369, rfl⟩
abbrev main_v254 : Ref sig .tc := ⟨.hbm, 370, rfl⟩
abbrev main_v255 : Ref sig .tc := ⟨.hbm, 371, rfl⟩
abbrev main_c_81 : Ref sig .tc := ⟨.hbm, 372, rfl⟩
abbrev main_v256 : Ref sig .tc := ⟨.hbm, 373, rfl⟩
abbrev main_v257 : Ref sig .tc := ⟨.hbm, 374, rfl⟩
abbrev main_v258 : Ref sig .tc := ⟨.hbm, 375, rfl⟩
abbrev main_v259 : Ref sig .tc := ⟨.hbm, 376, rfl⟩
abbrev main_v260 : Ref sig .tc := ⟨.hbm, 377, rfl⟩
abbrev main_cst_82 : Ref sig .tc := ⟨.hbm, 378, rfl⟩
abbrev main_call7_v0 : Ref sig .tc := ⟨.hbm, 379, rfl⟩
abbrev main_call7_v1 : Ref sig .tc := ⟨.hbm, 380, rfl⟩
abbrev main_call7_v2 : Ref sig .tc := ⟨.hbm, 381, rfl⟩
abbrev main_v261 : Ref sig .tc := ⟨.hbm, 382, rfl⟩
abbrev main_v262 : Ref sig .tc := ⟨.hbm, 383, rfl⟩
abbrev main_v263 : Ref sig .tc := ⟨.hbm, 384, rfl⟩
abbrev main_v264 : Ref sig .tc := ⟨.hbm, 385, rfl⟩
abbrev main_v265 : Ref sig .tc := ⟨.hbm, 386, rfl⟩
abbrev main_v266 : Ref sig .tc := ⟨.hbm, 387, rfl⟩
abbrev main_v267 : Ref sig .tc := ⟨.hbm, 388, rfl⟩
abbrev main_c_83 : Ref sig .tc := ⟨.hbm, 389, rfl⟩
abbrev main_v268 : Ref sig .tc := ⟨.hbm, 390, rfl⟩
abbrev main_v269 : Ref sig .tc := ⟨.hbm, 391, rfl⟩
abbrev main_v270 : Ref sig .tc := ⟨.hbm, 392, rfl⟩
abbrev main_v271 : Ref sig .tc := ⟨.hbm, 393, rfl⟩
abbrev main_c_84 : Ref sig .tc := ⟨.hbm, 394, rfl⟩
abbrev main_v272 : Ref sig .tc := ⟨.hbm, 395, rfl⟩
abbrev main_v273 : Ref sig .tc := ⟨.hbm, 396, rfl⟩
abbrev main_v274 : Ref sig .tc := ⟨.hbm, 397, rfl⟩
abbrev main_v275 : Ref sig .tc := ⟨.hbm, 398, rfl⟩
abbrev main_c_85 : Ref sig .tc := ⟨.hbm, 399, rfl⟩
abbrev main_v276 : Ref sig .tc := ⟨.hbm, 400, rfl⟩
abbrev main_v277 : Ref sig .tc := ⟨.hbm, 401, rfl⟩
abbrev main_c_86 : Ref sig .tc := ⟨.hbm, 402, rfl⟩
abbrev main_v278 : Ref sig .tc := ⟨.hbm, 403, rfl⟩
abbrev main_v279 : Ref sig .tc := ⟨.hbm, 404, rfl⟩
abbrev main_c_87 : Ref sig .tc := ⟨.hbm, 405, rfl⟩
abbrev main_v280 : Ref sig .tc := ⟨.hbm, 406, rfl⟩
abbrev main_v281 : Ref sig .tc := ⟨.hbm, 407, rfl⟩
abbrev main_v282 : Ref sig .tc := ⟨.hbm, 408, rfl⟩
abbrev main_c_88 : Ref sig .tc := ⟨.hbm, 409, rfl⟩
abbrev main_v283 : Ref sig .tc := ⟨.hbm, 410, rfl⟩
abbrev main_v284 : Ref sig .tc := ⟨.hbm, 411, rfl⟩
abbrev main_v285 : Ref sig .tc := ⟨.hbm, 412, rfl⟩
abbrev main_c_89 : Ref sig .tc := ⟨.hbm, 413, rfl⟩
abbrev main_v286 : Ref sig .tc := ⟨.hbm, 414, rfl⟩
abbrev main_v287 : Ref sig .tc := ⟨.hbm, 415, rfl⟩
abbrev main_v288 : Ref sig .tc := ⟨.hbm, 416, rfl⟩
abbrev main_c_90 : Ref sig .tc := ⟨.hbm, 417, rfl⟩
abbrev main_v289 : Ref sig .tc := ⟨.hbm, 418, rfl⟩
abbrev main_v290 : Ref sig .tc := ⟨.hbm, 419, rfl⟩
abbrev main_v291 : Ref sig .tc := ⟨.hbm, 420, rfl⟩
abbrev main_c_91 : Ref sig .tc := ⟨.hbm, 421, rfl⟩
abbrev main_v292 : Ref sig .tc := ⟨.hbm, 422, rfl⟩
abbrev main_v293 : Ref sig .tc := ⟨.hbm, 423, rfl⟩
abbrev main_v294 : Ref sig .tc := ⟨.hbm, 424, rfl⟩
abbrev main_c_92 : Ref sig .tc := ⟨.hbm, 425, rfl⟩
abbrev main_v295 : Ref sig .tc := ⟨.hbm, 426, rfl⟩
abbrev main_v296 : Ref sig .tc := ⟨.hbm, 427, rfl⟩
abbrev main_v297 : Ref sig .tc := ⟨.hbm, 428, rfl⟩
abbrev main_c_93 : Ref sig .tc := ⟨.hbm, 429, rfl⟩
abbrev main_v298 : Ref sig .tc := ⟨.hbm, 430, rfl⟩
abbrev main_v299 : Ref sig .tc := ⟨.hbm, 431, rfl⟩
abbrev main_v300 : Ref sig .tc := ⟨.hbm, 432, rfl⟩
abbrev main_c_94 : Ref sig .tc := ⟨.hbm, 433, rfl⟩
abbrev main_c_95 : Ref sig .tc := ⟨.hbm, 434, rfl⟩
abbrev main_call8_v0 : Ref sig .tc := ⟨.hbm, 435, rfl⟩
abbrev main_call8_v1 : Ref sig .tc := ⟨.hbm, 436, rfl⟩
abbrev main_call8_v2 : Ref sig .tc := ⟨.hbm, 437, rfl⟩
abbrev main_call8_v3 : Ref sig .tc := ⟨.hbm, 438, rfl⟩
abbrev main_call8_v4 : Ref sig .tc := ⟨.hbm, 439, rfl⟩
abbrev main_v301 : Ref sig .tc := ⟨.hbm, 440, rfl⟩
abbrev main_c_96 : Ref sig .tc := ⟨.hbm, 441, rfl⟩
abbrev main_v302 : Ref sig .tc := ⟨.hbm, 442, rfl⟩
abbrev main_v303 : Ref sig .tc := ⟨.hbm, 443, rfl⟩
abbrev main_c_97 : Ref sig .tc := ⟨.hbm, 444, rfl⟩
abbrev main_v304 : Ref sig .tc := ⟨.hbm, 445, rfl⟩
abbrev main_v305 : Ref sig .tc := ⟨.hbm, 446, rfl⟩
abbrev main_v306 : Ref sig .tc := ⟨.hbm, 447, rfl⟩
abbrev main_v307 : Ref sig .tc := ⟨.hbm, 448, rfl⟩
abbrev main_v308 : Ref sig .tc := ⟨.hbm, 449, rfl⟩
abbrev main_c_98 : Ref sig .tc := ⟨.hbm, 450, rfl⟩
abbrev main_v309 : Ref sig .tc := ⟨.hbm, 451, rfl⟩
abbrev main_v310 : Ref sig .tc := ⟨.hbm, 452, rfl⟩
abbrev main_v311 : Ref sig .tc := ⟨.hbm, 453, rfl⟩
abbrev main_v312 : Ref sig .tc := ⟨.hbm, 454, rfl⟩
abbrev main_c_99 : Ref sig .tc := ⟨.hbm, 455, rfl⟩
abbrev main_v313 : Ref sig .tc := ⟨.hbm, 456, rfl⟩
abbrev main_v314 : Ref sig .tc := ⟨.hbm, 457, rfl⟩
abbrev main_c_100 : Ref sig .tc := ⟨.hbm, 458, rfl⟩
abbrev main_v315 : Ref sig .tc := ⟨.hbm, 459, rfl⟩
abbrev main_v316 : Ref sig .tc := ⟨.hbm, 460, rfl⟩
abbrev main_c_101 : Ref sig .tc := ⟨.hbm, 461, rfl⟩
abbrev main_v317 : Ref sig .tc := ⟨.hbm, 462, rfl⟩
abbrev main_v318 : Ref sig .tc := ⟨.hbm, 463, rfl⟩
abbrev main_v319 : Ref sig .tc := ⟨.hbm, 464, rfl⟩
abbrev main_v320 : Ref sig .tc := ⟨.hbm, 465, rfl⟩
abbrev main_v321 : Ref sig .tc := ⟨.hbm, 466, rfl⟩
abbrev main_cst_102 : Ref sig .tc := ⟨.hbm, 467, rfl⟩
abbrev main_call9_v0 : Ref sig .tc := ⟨.hbm, 468, rfl⟩
abbrev main_call9_v1 : Ref sig .tc := ⟨.hbm, 469, rfl⟩
abbrev main_call9_v2 : Ref sig .tc := ⟨.hbm, 470, rfl⟩
abbrev main_v322 : Ref sig .tc := ⟨.hbm, 471, rfl⟩
abbrev main_v323 : Ref sig .tc := ⟨.hbm, 472, rfl⟩
abbrev main_v324 : Ref sig .tc := ⟨.hbm, 473, rfl⟩
abbrev main_v325 : Ref sig .tc := ⟨.hbm, 474, rfl⟩
abbrev main_v326 : Ref sig .tc := ⟨.hbm, 475, rfl⟩
abbrev main_v327 : Ref sig .tc := ⟨.hbm, 476, rfl⟩
abbrev main_v328 : Ref sig .tc := ⟨.hbm, 477, rfl⟩
abbrev main_c_103 : Ref sig .tc := ⟨.hbm, 478, rfl⟩
abbrev main_v329 : Ref sig .tc := ⟨.hbm, 479, rfl⟩
abbrev main_v330 : Ref sig .tc := ⟨.hbm, 480, rfl⟩
abbrev main_v331 : Ref sig .tc := ⟨.hbm, 481, rfl⟩
abbrev main_v332 : Ref sig .tc := ⟨.hbm, 482, rfl⟩
abbrev main_c_104 : Ref sig .tc := ⟨.hbm, 483, rfl⟩
abbrev main_v333 : Ref sig .tc := ⟨.hbm, 484, rfl⟩
abbrev main_v334 : Ref sig .tc := ⟨.hbm, 485, rfl⟩
abbrev main_v335 : Ref sig .tc := ⟨.hbm, 486, rfl⟩
abbrev main_v336 : Ref sig .tc := ⟨.hbm, 487, rfl⟩
abbrev main_c_105 : Ref sig .tc := ⟨.hbm, 488, rfl⟩
abbrev main_v337 : Ref sig .tc := ⟨.hbm, 489, rfl⟩
abbrev main_v338 : Ref sig .tc := ⟨.hbm, 490, rfl⟩
abbrev main_c_106 : Ref sig .tc := ⟨.hbm, 491, rfl⟩
abbrev main_v339 : Ref sig .tc := ⟨.hbm, 492, rfl⟩
abbrev main_v340 : Ref sig .tc := ⟨.hbm, 493, rfl⟩
abbrev main_c_107 : Ref sig .tc := ⟨.hbm, 494, rfl⟩
abbrev main_v341 : Ref sig .tc := ⟨.hbm, 495, rfl⟩
abbrev main_v342 : Ref sig .tc := ⟨.hbm, 496, rfl⟩
abbrev main_v343 : Ref sig .tc := ⟨.hbm, 497, rfl⟩
abbrev main_c_108 : Ref sig .tc := ⟨.hbm, 498, rfl⟩
abbrev main_v344 : Ref sig .tc := ⟨.hbm, 499, rfl⟩
abbrev main_v345 : Ref sig .tc := ⟨.hbm, 500, rfl⟩
abbrev main_v346 : Ref sig .tc := ⟨.hbm, 501, rfl⟩
abbrev main_c_109 : Ref sig .tc := ⟨.hbm, 502, rfl⟩
abbrev main_v347 : Ref sig .tc := ⟨.hbm, 503, rfl⟩
abbrev main_v348 : Ref sig .tc := ⟨.hbm, 504, rfl⟩
abbrev main_v349 : Ref sig .tc := ⟨.hbm, 505, rfl⟩
abbrev main_c_110 : Ref sig .tc := ⟨.hbm, 506, rfl⟩
abbrev main_v350 : Ref sig .tc := ⟨.hbm, 507, rfl⟩
abbrev main_v351 : Ref sig .tc := ⟨.hbm, 508, rfl⟩
abbrev main_v352 : Ref sig .tc := ⟨.hbm, 509, rfl⟩
abbrev main_c_111 : Ref sig .tc := ⟨.hbm, 510, rfl⟩
abbrev main_v353 : Ref sig .tc := ⟨.hbm, 511, rfl⟩
abbrev main_v354 : Ref sig .tc := ⟨.hbm, 512, rfl⟩
abbrev main_v355 : Ref sig .tc := ⟨.hbm, 513, rfl⟩
abbrev main_c_112 : Ref sig .tc := ⟨.hbm, 514, rfl⟩
abbrev main_v356 : Ref sig .tc := ⟨.hbm, 515, rfl⟩
abbrev main_v357 : Ref sig .tc := ⟨.hbm, 516, rfl⟩
abbrev main_v358 : Ref sig .tc := ⟨.hbm, 517, rfl⟩
abbrev main_c_113 : Ref sig .tc := ⟨.hbm, 518, rfl⟩
abbrev main_v359 : Ref sig .tc := ⟨.hbm, 519, rfl⟩
abbrev main_v360 : Ref sig .tc := ⟨.hbm, 520, rfl⟩
abbrev main_v361 : Ref sig .tc := ⟨.hbm, 521, rfl⟩
abbrev main_c_114 : Ref sig .tc := ⟨.hbm, 522, rfl⟩
abbrev main_c_115 : Ref sig .tc := ⟨.hbm, 523, rfl⟩
abbrev main_call10_v0 : Ref sig .tc := ⟨.hbm, 524, rfl⟩
abbrev main_call10_v1 : Ref sig .tc := ⟨.hbm, 525, rfl⟩
abbrev main_call10_v2 : Ref sig .tc := ⟨.hbm, 526, rfl⟩
abbrev main_call10_v3 : Ref sig .tc := ⟨.hbm, 527, rfl⟩
abbrev main_call10_v4 : Ref sig .tc := ⟨.hbm, 528, rfl⟩
abbrev main_v362 : Ref sig .tc := ⟨.hbm, 529, rfl⟩
abbrev main_c_116 : Ref sig .tc := ⟨.hbm, 530, rfl⟩
abbrev main_v363 : Ref sig .tc := ⟨.hbm, 531, rfl⟩
abbrev main_v364 : Ref sig .tc := ⟨.hbm, 532, rfl⟩
abbrev main_c_117 : Ref sig .tc := ⟨.hbm, 533, rfl⟩
abbrev main_v365 : Ref sig .tc := ⟨.hbm, 534, rfl⟩
abbrev main_v366 : Ref sig .tc := ⟨.hbm, 535, rfl⟩
abbrev main_v367 : Ref sig .tc := ⟨.hbm, 536, rfl⟩
abbrev main_v368 : Ref sig .tc := ⟨.hbm, 537, rfl⟩
abbrev main_v369 : Ref sig .tc := ⟨.hbm, 538, rfl⟩
abbrev main_c_118 : Ref sig .tc := ⟨.hbm, 539, rfl⟩
abbrev main_v370 : Ref sig .tc := ⟨.hbm, 540, rfl⟩
abbrev main_v371 : Ref sig .tc := ⟨.hbm, 541, rfl⟩
abbrev main_v372 : Ref sig .tc := ⟨.hbm, 542, rfl⟩
abbrev main_v373 : Ref sig .tc := ⟨.hbm, 543, rfl⟩
abbrev main_c_119 : Ref sig .tc := ⟨.hbm, 544, rfl⟩
abbrev main_v374 : Ref sig .tc := ⟨.hbm, 545, rfl⟩
abbrev main_v375 : Ref sig .tc := ⟨.hbm, 546, rfl⟩
abbrev main_c_120 : Ref sig .tc := ⟨.hbm, 547, rfl⟩
abbrev main_v376 : Ref sig .tc := ⟨.hbm, 548, rfl⟩
abbrev main_v377 : Ref sig .tc := ⟨.hbm, 549, rfl⟩
abbrev main_c_121 : Ref sig .tc := ⟨.hbm, 550, rfl⟩
abbrev main_v378 : Ref sig .tc := ⟨.hbm, 551, rfl⟩
abbrev main_v379 : Ref sig .tc := ⟨.hbm, 552, rfl⟩
abbrev main_v380 : Ref sig .tc := ⟨.hbm, 553, rfl⟩
abbrev main_v381 : Ref sig .tc := ⟨.hbm, 554, rfl⟩
abbrev main_v382 : Ref sig .tc := ⟨.hbm, 555, rfl⟩
abbrev main_cst_122 : Ref sig .tc := ⟨.hbm, 556, rfl⟩
abbrev main_call11_v0 : Ref sig .tc := ⟨.hbm, 557, rfl⟩
abbrev main_call11_v1 : Ref sig .tc := ⟨.hbm, 558, rfl⟩
abbrev main_call11_v2 : Ref sig .tc := ⟨.hbm, 559, rfl⟩
abbrev main_v383 : Ref sig .tc := ⟨.hbm, 560, rfl⟩
abbrev main_v384 : Ref sig .tc := ⟨.hbm, 561, rfl⟩
abbrev main_v385 : Ref sig .tc := ⟨.hbm, 562, rfl⟩
abbrev main_v386 : Ref sig .tc := ⟨.hbm, 563, rfl⟩
abbrev main_v387 : Ref sig .tc := ⟨.hbm, 564, rfl⟩
abbrev main_v388 : Ref sig .tc := ⟨.hbm, 565, rfl⟩
abbrev main_v389 : Ref sig .tc := ⟨.hbm, 566, rfl⟩
abbrev main_c_123 : Ref sig .tc := ⟨.hbm, 567, rfl⟩
abbrev main_v390 : Ref sig .tc := ⟨.hbm, 568, rfl⟩
abbrev main_v391 : Ref sig .tc := ⟨.hbm, 569, rfl⟩
abbrev main_v392 : Ref sig .tc := ⟨.hbm, 570, rfl⟩
abbrev main_v393 : Ref sig .tc := ⟨.hbm, 571, rfl⟩
abbrev main_c_124 : Ref sig .tc := ⟨.hbm, 572, rfl⟩
abbrev main_v394 : Ref sig .tc := ⟨.hbm, 573, rfl⟩
abbrev main_v395 : Ref sig .tc := ⟨.hbm, 574, rfl⟩
abbrev main_v396 : Ref sig .tc := ⟨.hbm, 575, rfl⟩
abbrev main_v397 : Ref sig .tc := ⟨.hbm, 576, rfl⟩
abbrev main_c_125 : Ref sig .tc := ⟨.hbm, 577, rfl⟩
abbrev main_v398 : Ref sig .tc := ⟨.hbm, 578, rfl⟩
abbrev main_v399 : Ref sig .tc := ⟨.hbm, 579, rfl⟩
abbrev main_c_126 : Ref sig .tc := ⟨.hbm, 580, rfl⟩
abbrev main_v400 : Ref sig .tc := ⟨.hbm, 581, rfl⟩
abbrev main_v401 : Ref sig .tc := ⟨.hbm, 582, rfl⟩
abbrev main_c_127 : Ref sig .tc := ⟨.hbm, 583, rfl⟩
abbrev main_v402 : Ref sig .tc := ⟨.hbm, 584, rfl⟩
abbrev main_v403 : Ref sig .tc := ⟨.hbm, 585, rfl⟩
abbrev main_v404 : Ref sig .tc := ⟨.hbm, 586, rfl⟩
abbrev main_c_128 : Ref sig .tc := ⟨.hbm, 587, rfl⟩
abbrev main_v405 : Ref sig .tc := ⟨.hbm, 588, rfl⟩
abbrev main_v406 : Ref sig .tc := ⟨.hbm, 589, rfl⟩
abbrev main_v407 : Ref sig .tc := ⟨.hbm, 590, rfl⟩
abbrev main_c_129 : Ref sig .tc := ⟨.hbm, 591, rfl⟩
abbrev main_v408 : Ref sig .tc := ⟨.hbm, 592, rfl⟩
abbrev main_v409 : Ref sig .tc := ⟨.hbm, 593, rfl⟩
abbrev main_v410 : Ref sig .tc := ⟨.hbm, 594, rfl⟩
abbrev main_c_130 : Ref sig .tc := ⟨.hbm, 595, rfl⟩
abbrev main_v411 : Ref sig .tc := ⟨.hbm, 596, rfl⟩
abbrev main_v412 : Ref sig .tc := ⟨.hbm, 597, rfl⟩
abbrev main_v413 : Ref sig .tc := ⟨.hbm, 598, rfl⟩
abbrev main_c_131 : Ref sig .tc := ⟨.hbm, 599, rfl⟩
abbrev main_v414 : Ref sig .tc := ⟨.hbm, 600, rfl⟩
abbrev main_v415 : Ref sig .tc := ⟨.hbm, 601, rfl⟩
abbrev main_v416 : Ref sig .tc := ⟨.hbm, 602, rfl⟩
abbrev main_c_132 : Ref sig .tc := ⟨.hbm, 603, rfl⟩
abbrev main_v417 : Ref sig .tc := ⟨.hbm, 604, rfl⟩
abbrev main_v418 : Ref sig .tc := ⟨.hbm, 605, rfl⟩
abbrev main_v419 : Ref sig .tc := ⟨.hbm, 606, rfl⟩
abbrev main_c_133 : Ref sig .tc := ⟨.hbm, 607, rfl⟩
abbrev main_v420 : Ref sig .tc := ⟨.hbm, 608, rfl⟩
abbrev main_v421 : Ref sig .tc := ⟨.hbm, 609, rfl⟩
abbrev main_v422 : Ref sig .tc := ⟨.hbm, 610, rfl⟩
abbrev main_c_134 : Ref sig .tc := ⟨.hbm, 611, rfl⟩
abbrev main_c_135 : Ref sig .tc := ⟨.hbm, 612, rfl⟩
abbrev main_call12_v0 : Ref sig .tc := ⟨.hbm, 613, rfl⟩
abbrev main_call12_v1 : Ref sig .tc := ⟨.hbm, 614, rfl⟩
abbrev main_call12_v2 : Ref sig .tc := ⟨.hbm, 615, rfl⟩
abbrev main_call12_v3 : Ref sig .tc := ⟨.hbm, 616, rfl⟩
abbrev main_call12_v4 : Ref sig .tc := ⟨.hbm, 617, rfl⟩
abbrev main_v423 : Ref sig .tc := ⟨.hbm, 618, rfl⟩
abbrev main_c_136 : Ref sig .tc := ⟨.hbm, 619, rfl⟩
abbrev main_v424 : Ref sig .tc := ⟨.hbm, 620, rfl⟩
abbrev main_v425 : Ref sig .tc := ⟨.hbm, 621, rfl⟩
abbrev main_c_137 : Ref sig .tc := ⟨.hbm, 622, rfl⟩
abbrev main_v426 : Ref sig .tc := ⟨.hbm, 623, rfl⟩
abbrev main_v427 : Ref sig .tc := ⟨.hbm, 624, rfl⟩
abbrev main_v428 : Ref sig .tc := ⟨.hbm, 625, rfl⟩
abbrev main_v429 : Ref sig .tc := ⟨.hbm, 626, rfl⟩
abbrev main_v430 : Ref sig .tc := ⟨.hbm, 627, rfl⟩
abbrev main_c_138 : Ref sig .tc := ⟨.hbm, 628, rfl⟩
abbrev main_v431 : Ref sig .tc := ⟨.hbm, 629, rfl⟩
abbrev main_v432 : Ref sig .tc := ⟨.hbm, 630, rfl⟩
abbrev main_v433 : Ref sig .tc := ⟨.hbm, 631, rfl⟩
abbrev main_v434 : Ref sig .tc := ⟨.hbm, 632, rfl⟩
abbrev main_c_139 : Ref sig .tc := ⟨.hbm, 633, rfl⟩
abbrev main_v435 : Ref sig .tc := ⟨.hbm, 634, rfl⟩
abbrev main_v436 : Ref sig .tc := ⟨.hbm, 635, rfl⟩
abbrev main_c_140 : Ref sig .tc := ⟨.hbm, 636, rfl⟩
abbrev main_v437 : Ref sig .tc := ⟨.hbm, 637, rfl⟩
abbrev main_v438 : Ref sig .tc := ⟨.hbm, 638, rfl⟩
abbrev main_c_141 : Ref sig .tc := ⟨.hbm, 639, rfl⟩
abbrev main_v439 : Ref sig .tc := ⟨.hbm, 640, rfl⟩
abbrev main_v440 : Ref sig .tc := ⟨.hbm, 641, rfl⟩
abbrev main_v441 : Ref sig .tc := ⟨.hbm, 642, rfl⟩
abbrev main_v442 : Ref sig .tc := ⟨.hbm, 643, rfl⟩
abbrev main_v443 : Ref sig .tc := ⟨.hbm, 644, rfl⟩
abbrev main_cst_142 : Ref sig .tc := ⟨.hbm, 645, rfl⟩
abbrev main_call13_v0 : Ref sig .tc := ⟨.hbm, 646, rfl⟩
abbrev main_call13_v1 : Ref sig .tc := ⟨.hbm, 647, rfl⟩
abbrev main_call13_v2 : Ref sig .tc := ⟨.hbm, 648, rfl⟩
abbrev main_v444 : Ref sig .tc := ⟨.hbm, 649, rfl⟩
abbrev main_v445 : Ref sig .tc := ⟨.hbm, 650, rfl⟩
abbrev main_v446 : Ref sig .tc := ⟨.hbm, 651, rfl⟩
abbrev main_v447 : Ref sig .tc := ⟨.hbm, 652, rfl⟩
abbrev main_v448 : Ref sig .tc := ⟨.hbm, 653, rfl⟩
abbrev main_v449 : Ref sig .tc := ⟨.hbm, 654, rfl⟩
abbrev main_v450 : Ref sig .tc := ⟨.hbm, 655, rfl⟩
abbrev main_c_143 : Ref sig .tc := ⟨.hbm, 656, rfl⟩
abbrev main_v451 : Ref sig .tc := ⟨.hbm, 657, rfl⟩
abbrev main_v452 : Ref sig .tc := ⟨.hbm, 658, rfl⟩
abbrev main_v453 : Ref sig .tc := ⟨.hbm, 659, rfl⟩
abbrev main_v454 : Ref sig .tc := ⟨.hbm, 660, rfl⟩
abbrev main_c_144 : Ref sig .tc := ⟨.hbm, 661, rfl⟩
abbrev main_v455 : Ref sig .tc := ⟨.hbm, 662, rfl⟩
abbrev main_v456 : Ref sig .tc := ⟨.hbm, 663, rfl⟩
abbrev main_v457 : Ref sig .tc := ⟨.hbm, 664, rfl⟩
abbrev main_v458 : Ref sig .tc := ⟨.hbm, 665, rfl⟩
abbrev main_c_145 : Ref sig .tc := ⟨.hbm, 666, rfl⟩
abbrev main_v459 : Ref sig .tc := ⟨.hbm, 667, rfl⟩
abbrev main_v460 : Ref sig .tc := ⟨.hbm, 668, rfl⟩
abbrev main_c_146 : Ref sig .tc := ⟨.hbm, 669, rfl⟩
abbrev main_v461 : Ref sig .tc := ⟨.hbm, 670, rfl⟩
abbrev main_v462 : Ref sig .tc := ⟨.hbm, 671, rfl⟩
abbrev main_c_147 : Ref sig .tc := ⟨.hbm, 672, rfl⟩
abbrev main_v463 : Ref sig .tc := ⟨.hbm, 673, rfl⟩
abbrev main_v464 : Ref sig .tc := ⟨.hbm, 674, rfl⟩
abbrev main_v465 : Ref sig .tc := ⟨.hbm, 675, rfl⟩
abbrev main_c_148 : Ref sig .tc := ⟨.hbm, 676, rfl⟩
abbrev main_v466 : Ref sig .tc := ⟨.hbm, 677, rfl⟩
abbrev main_v467 : Ref sig .tc := ⟨.hbm, 678, rfl⟩
abbrev main_v468 : Ref sig .tc := ⟨.hbm, 679, rfl⟩
abbrev main_c_149 : Ref sig .tc := ⟨.hbm, 680, rfl⟩
abbrev main_v469 : Ref sig .tc := ⟨.hbm, 681, rfl⟩
abbrev main_v470 : Ref sig .tc := ⟨.hbm, 682, rfl⟩
abbrev main_v471 : Ref sig .tc := ⟨.hbm, 683, rfl⟩
abbrev main_c_150 : Ref sig .tc := ⟨.hbm, 684, rfl⟩
abbrev main_v472 : Ref sig .tc := ⟨.hbm, 685, rfl⟩
abbrev main_v473 : Ref sig .tc := ⟨.hbm, 686, rfl⟩
abbrev main_v474 : Ref sig .tc := ⟨.hbm, 687, rfl⟩
abbrev main_c_151 : Ref sig .tc := ⟨.hbm, 688, rfl⟩
abbrev main_v475 : Ref sig .tc := ⟨.hbm, 689, rfl⟩
abbrev main_v476 : Ref sig .tc := ⟨.hbm, 690, rfl⟩
abbrev main_v477 : Ref sig .tc := ⟨.hbm, 691, rfl⟩
abbrev main_c_152 : Ref sig .tc := ⟨.hbm, 692, rfl⟩
abbrev main_v478 : Ref sig .tc := ⟨.hbm, 693, rfl⟩
abbrev main_v479 : Ref sig .tc := ⟨.hbm, 694, rfl⟩
abbrev main_v480 : Ref sig .tc := ⟨.hbm, 695, rfl⟩
abbrev main_c_153 : Ref sig .tc := ⟨.hbm, 696, rfl⟩
abbrev main_v481 : Ref sig .tc := ⟨.hbm, 697, rfl⟩
abbrev main_v482 : Ref sig .tc := ⟨.hbm, 698, rfl⟩
abbrev main_v483 : Ref sig .tc := ⟨.hbm, 699, rfl⟩
abbrev main_c_154 : Ref sig .tc := ⟨.hbm, 700, rfl⟩
abbrev main_c_155 : Ref sig .tc := ⟨.hbm, 701, rfl⟩
abbrev main_call14_v0 : Ref sig .tc := ⟨.hbm, 702, rfl⟩
abbrev main_call14_v1 : Ref sig .tc := ⟨.hbm, 703, rfl⟩
abbrev main_call14_v2 : Ref sig .tc := ⟨.hbm, 704, rfl⟩
abbrev main_call14_v3 : Ref sig .tc := ⟨.hbm, 705, rfl⟩
abbrev main_call14_v4 : Ref sig .tc := ⟨.hbm, 706, rfl⟩
abbrev main_v484 : Ref sig .tc := ⟨.hbm, 707, rfl⟩
abbrev main_c_156 : Ref sig .tc := ⟨.hbm, 708, rfl⟩
abbrev main_v485 : Ref sig .tc := ⟨.hbm, 709, rfl⟩
abbrev main_v486 : Ref sig .tc := ⟨.hbm, 710, rfl⟩
abbrev main_c_157 : Ref sig .tc := ⟨.hbm, 711, rfl⟩
abbrev main_v487 : Ref sig .tc := ⟨.hbm, 712, rfl⟩
abbrev main_v488 : Ref sig .tc := ⟨.hbm, 713, rfl⟩
abbrev main_v489 : Ref sig .tc := ⟨.hbm, 714, rfl⟩
abbrev main_v490 : Ref sig .tc := ⟨.hbm, 715, rfl⟩
abbrev main_v491 : Ref sig .tc := ⟨.hbm, 716, rfl⟩
abbrev main_c_158 : Ref sig .tc := ⟨.hbm, 717, rfl⟩
abbrev main_v492 : Ref sig .tc := ⟨.hbm, 718, rfl⟩
abbrev main_v493 : Ref sig .tc := ⟨.hbm, 719, rfl⟩
abbrev main_v494 : Ref sig .tc := ⟨.hbm, 720, rfl⟩
abbrev main_v495 : Ref sig .tc := ⟨.hbm, 721, rfl⟩
abbrev main_c_159 : Ref sig .tc := ⟨.hbm, 722, rfl⟩
abbrev main_v496 : Ref sig .tc := ⟨.hbm, 723, rfl⟩
abbrev main_v497 : Ref sig .tc := ⟨.hbm, 724, rfl⟩
abbrev main_c_160 : Ref sig .tc := ⟨.hbm, 725, rfl⟩
abbrev main_v498 : Ref sig .tc := ⟨.hbm, 726, rfl⟩
abbrev main_v499 : Ref sig .tc := ⟨.hbm, 727, rfl⟩
abbrev main_c_161 : Ref sig .tc := ⟨.hbm, 728, rfl⟩
abbrev main_v500 : Ref sig .tc := ⟨.hbm, 729, rfl⟩
abbrev main_v501 : Ref sig .tc := ⟨.hbm, 730, rfl⟩
abbrev main_v502 : Ref sig .tc := ⟨.hbm, 731, rfl⟩
abbrev main_v503 : Ref sig .tc := ⟨.hbm, 732, rfl⟩
abbrev main_v504 : Ref sig .tc := ⟨.hbm, 733, rfl⟩
abbrev main_cst_162 : Ref sig .tc := ⟨.hbm, 734, rfl⟩
abbrev main_call15_v0 : Ref sig .tc := ⟨.hbm, 735, rfl⟩
abbrev main_call15_v1 : Ref sig .tc := ⟨.hbm, 736, rfl⟩
abbrev main_call15_v2 : Ref sig .tc := ⟨.hbm, 737, rfl⟩
abbrev main_v505 : Ref sig .tc := ⟨.hbm, 738, rfl⟩
abbrev main_v506 : Ref sig .tc := ⟨.hbm, 739, rfl⟩
abbrev main_v507 : Ref sig .tc := ⟨.hbm, 740, rfl⟩
abbrev main_v508 : Ref sig .tc := ⟨.hbm, 741, rfl⟩
abbrev main_v509 : Ref sig .tc := ⟨.hbm, 742, rfl⟩
abbrev main_v510 : Ref sig .tc := ⟨.hbm, 743, rfl⟩
abbrev main_v511 : Ref sig .tc := ⟨.hbm, 744, rfl⟩
abbrev main_c_163 : Ref sig .tc := ⟨.hbm, 745, rfl⟩
abbrev main_v512 : Ref sig .tc := ⟨.hbm, 746, rfl⟩
abbrev main_v513 : Ref sig .tc := ⟨.hbm, 747, rfl⟩
abbrev main_v514 : Ref sig .tc := ⟨.hbm, 748, rfl⟩
abbrev main_v515 : Ref sig .tc := ⟨.hbm, 749, rfl⟩
abbrev main_c_164 : Ref sig .tc := ⟨.hbm, 750, rfl⟩
abbrev main_v516 : Ref sig .tc := ⟨.hbm, 751, rfl⟩
abbrev main_v517 : Ref sig .tc := ⟨.hbm, 752, rfl⟩
abbrev main_v518 : Ref sig .tc := ⟨.hbm, 753, rfl⟩
abbrev main_v519 : Ref sig .tc := ⟨.hbm, 754, rfl⟩
abbrev main_c_165 : Ref sig .tc := ⟨.hbm, 755, rfl⟩
abbrev main_v520 : Ref sig .tc := ⟨.hbm, 756, rfl⟩
abbrev main_v521 : Ref sig .tc := ⟨.hbm, 757, rfl⟩
abbrev main_c_166 : Ref sig .tc := ⟨.hbm, 758, rfl⟩
abbrev main_v522 : Ref sig .tc := ⟨.hbm, 759, rfl⟩
abbrev main_v523 : Ref sig .tc := ⟨.hbm, 760, rfl⟩
abbrev main_c_167 : Ref sig .tc := ⟨.hbm, 761, rfl⟩
abbrev main_v524 : Ref sig .tc := ⟨.hbm, 762, rfl⟩
abbrev main_v525 : Ref sig .tc := ⟨.hbm, 763, rfl⟩
abbrev main_v526 : Ref sig .tc := ⟨.hbm, 764, rfl⟩
abbrev main_c_168 : Ref sig .tc := ⟨.hbm, 765, rfl⟩
abbrev main_v527 : Ref sig .tc := ⟨.hbm, 766, rfl⟩
abbrev main_v528 : Ref sig .tc := ⟨.hbm, 767, rfl⟩
abbrev main_v529 : Ref sig .tc := ⟨.hbm, 768, rfl⟩
abbrev main_c_169 : Ref sig .tc := ⟨.hbm, 769, rfl⟩
abbrev main_v530 : Ref sig .tc := ⟨.hbm, 770, rfl⟩
abbrev main_v531 : Ref sig .tc := ⟨.hbm, 771, rfl⟩
abbrev main_v532 : Ref sig .tc := ⟨.hbm, 772, rfl⟩
abbrev main_c_170 : Ref sig .tc := ⟨.hbm, 773, rfl⟩
abbrev main_v533 : Ref sig .tc := ⟨.hbm, 774, rfl⟩
abbrev main_v534 : Ref sig .tc := ⟨.hbm, 775, rfl⟩
abbrev main_v535 : Ref sig .tc := ⟨.hbm, 776, rfl⟩
abbrev main_c_171 : Ref sig .tc := ⟨.hbm, 777, rfl⟩
abbrev main_v536 : Ref sig .tc := ⟨.hbm, 778, rfl⟩
abbrev main_v537 : Ref sig .tc := ⟨.hbm, 779, rfl⟩
abbrev main_v538 : Ref sig .tc := ⟨.hbm, 780, rfl⟩
abbrev main_c_172 : Ref sig .tc := ⟨.hbm, 781, rfl⟩
abbrev main_v539 : Ref sig .tc := ⟨.hbm, 782, rfl⟩
abbrev main_v540 : Ref sig .tc := ⟨.hbm, 783, rfl⟩
abbrev main_v541 : Ref sig .tc := ⟨.hbm, 784, rfl⟩
abbrev main_c_173 : Ref sig .tc := ⟨.hbm, 785, rfl⟩
abbrev main_v542 : Ref sig .tc := ⟨.hbm, 786, rfl⟩
abbrev main_v543 : Ref sig .tc := ⟨.hbm, 787, rfl⟩
abbrev main_v544 : Ref sig .tc := ⟨.hbm, 788, rfl⟩
abbrev main_c_174 : Ref sig .tc := ⟨.hbm, 789, rfl⟩
abbrev main_c_175 : Ref sig .tc := ⟨.hbm, 790, rfl⟩
abbrev main_call16_v0 : Ref sig .tc := ⟨.hbm, 791, rfl⟩
abbrev main_call16_v1 : Ref sig .tc := ⟨.hbm, 792, rfl⟩
abbrev main_call16_v2 : Ref sig .tc := ⟨.hbm, 793, rfl⟩
abbrev main_call16_v3 : Ref sig .tc := ⟨.hbm, 794, rfl⟩
abbrev main_call16_v4 : Ref sig .tc := ⟨.hbm, 795, rfl⟩
abbrev main_v545 : Ref sig .tc := ⟨.hbm, 796, rfl⟩
abbrev main_c_176 : Ref sig .tc := ⟨.hbm, 797, rfl⟩
abbrev main_v546 : Ref sig .tc := ⟨.hbm, 798, rfl⟩
abbrev main_v547 : Ref sig .tc := ⟨.hbm, 799, rfl⟩
abbrev main_c_177 : Ref sig .tc := ⟨.hbm, 800, rfl⟩
abbrev main_v548 : Ref sig .tc := ⟨.hbm, 801, rfl⟩
abbrev main_v549 : Ref sig .tc := ⟨.hbm, 802, rfl⟩
abbrev main_v550 : Ref sig .tc := ⟨.hbm, 803, rfl⟩
abbrev main_v551 : Ref sig .tc := ⟨.hbm, 804, rfl⟩
abbrev main_v552 : Ref sig .tc := ⟨.hbm, 805, rfl⟩
abbrev main_c_178 : Ref sig .tc := ⟨.hbm, 806, rfl⟩
abbrev main_v553 : Ref sig .tc := ⟨.hbm, 807, rfl⟩
abbrev main_v554 : Ref sig .tc := ⟨.hbm, 808, rfl⟩
abbrev main_v555 : Ref sig .tc := ⟨.hbm, 809, rfl⟩
abbrev main_v556 : Ref sig .tc := ⟨.hbm, 810, rfl⟩
abbrev main_c_179 : Ref sig .tc := ⟨.hbm, 811, rfl⟩
abbrev main_v557 : Ref sig .tc := ⟨.hbm, 812, rfl⟩
abbrev main_v558 : Ref sig .tc := ⟨.hbm, 813, rfl⟩
abbrev main_c_180 : Ref sig .tc := ⟨.hbm, 814, rfl⟩
abbrev main_v559 : Ref sig .tc := ⟨.hbm, 815, rfl⟩
abbrev main_v560 : Ref sig .tc := ⟨.hbm, 816, rfl⟩
abbrev main_c_181 : Ref sig .tc := ⟨.hbm, 817, rfl⟩
abbrev main_v561 : Ref sig .tc := ⟨.hbm, 818, rfl⟩
abbrev main_v562 : Ref sig .tc := ⟨.hbm, 819, rfl⟩
abbrev main_v563 : Ref sig .tc := ⟨.hbm, 820, rfl⟩
abbrev main_v564 : Ref sig .tc := ⟨.hbm, 821, rfl⟩
abbrev main_v565 : Ref sig .tc := ⟨.hbm, 822, rfl⟩
abbrev main_cst_182 : Ref sig .tc := ⟨.hbm, 823, rfl⟩
abbrev main_call17_v0 : Ref sig .tc := ⟨.hbm, 824, rfl⟩
abbrev main_call17_v1 : Ref sig .tc := ⟨.hbm, 825, rfl⟩
abbrev main_call17_v2 : Ref sig .tc := ⟨.hbm, 826, rfl⟩
abbrev main_v566 : Ref sig .tc := ⟨.hbm, 827, rfl⟩
abbrev main_v567 : Ref sig .tc := ⟨.hbm, 828, rfl⟩
abbrev main_v568 : Ref sig .tc := ⟨.hbm, 829, rfl⟩
abbrev main_v569 : Ref sig .tc := ⟨.hbm, 830, rfl⟩
abbrev main_v570 : Ref sig .tc := ⟨.hbm, 831, rfl⟩
abbrev main_v571 : Ref sig .tc := ⟨.hbm, 832, rfl⟩
abbrev main_v572 : Ref sig .tc := ⟨.hbm, 833, rfl⟩
abbrev main_c_183 : Ref sig .tc := ⟨.hbm, 834, rfl⟩
abbrev main_v573 : Ref sig .tc := ⟨.hbm, 835, rfl⟩
abbrev main_v574 : Ref sig .tc := ⟨.hbm, 836, rfl⟩
abbrev main_v575 : Ref sig .tc := ⟨.hbm, 837, rfl⟩
abbrev main_v576 : Ref sig .tc := ⟨.hbm, 838, rfl⟩
abbrev main_c_184 : Ref sig .tc := ⟨.hbm, 839, rfl⟩
abbrev main_v577 : Ref sig .tc := ⟨.hbm, 840, rfl⟩
abbrev main_v578 : Ref sig .tc := ⟨.hbm, 841, rfl⟩
abbrev main_v579 : Ref sig .tc := ⟨.hbm, 842, rfl⟩
abbrev main_v580 : Ref sig .tc := ⟨.hbm, 843, rfl⟩
abbrev main_c_185 : Ref sig .tc := ⟨.hbm, 844, rfl⟩
abbrev main_v581 : Ref sig .tc := ⟨.hbm, 845, rfl⟩
abbrev main_v582 : Ref sig .tc := ⟨.hbm, 846, rfl⟩
abbrev main_c_186 : Ref sig .tc := ⟨.hbm, 847, rfl⟩
abbrev main_v583 : Ref sig .tc := ⟨.hbm, 848, rfl⟩
abbrev main_v584 : Ref sig .tc := ⟨.hbm, 849, rfl⟩
abbrev main_c_187 : Ref sig .tc := ⟨.hbm, 850, rfl⟩
abbrev main_v585 : Ref sig .tc := ⟨.hbm, 851, rfl⟩
abbrev main_v586 : Ref sig .tc := ⟨.hbm, 852, rfl⟩
abbrev main_v587 : Ref sig .tc := ⟨.hbm, 853, rfl⟩
abbrev main_c_188 : Ref sig .tc := ⟨.hbm, 854, rfl⟩
abbrev main_v588 : Ref sig .tc := ⟨.hbm, 855, rfl⟩
abbrev main_v589 : Ref sig .tc := ⟨.hbm, 856, rfl⟩
abbrev main_v590 : Ref sig .tc := ⟨.hbm, 857, rfl⟩
abbrev main_c_189 : Ref sig .tc := ⟨.hbm, 858, rfl⟩
abbrev main_v591 : Ref sig .tc := ⟨.hbm, 859, rfl⟩
abbrev main_v592 : Ref sig .tc := ⟨.hbm, 860, rfl⟩
abbrev main_v593 : Ref sig .tc := ⟨.hbm, 861, rfl⟩
abbrev main_c_190 : Ref sig .tc := ⟨.hbm, 862, rfl⟩
abbrev main_v594 : Ref sig .tc := ⟨.hbm, 863, rfl⟩
abbrev main_v595 : Ref sig .tc := ⟨.hbm, 864, rfl⟩
abbrev main_v596 : Ref sig .tc := ⟨.hbm, 865, rfl⟩
abbrev main_c_191 : Ref sig .tc := ⟨.hbm, 866, rfl⟩
abbrev main_v597 : Ref sig .tc := ⟨.hbm, 867, rfl⟩
abbrev main_v598 : Ref sig .tc := ⟨.hbm, 868, rfl⟩
abbrev main_v599 : Ref sig .tc := ⟨.hbm, 869, rfl⟩
abbrev main_c_192 : Ref sig .tc := ⟨.hbm, 870, rfl⟩
abbrev main_v600 : Ref sig .tc := ⟨.hbm, 871, rfl⟩
abbrev main_v601 : Ref sig .tc := ⟨.hbm, 872, rfl⟩
abbrev main_v602 : Ref sig .tc := ⟨.hbm, 873, rfl⟩
abbrev main_c_193 : Ref sig .tc := ⟨.hbm, 874, rfl⟩
abbrev main_v603 : Ref sig .tc := ⟨.hbm, 875, rfl⟩
abbrev main_v604 : Ref sig .tc := ⟨.hbm, 876, rfl⟩
abbrev main_v605 : Ref sig .tc := ⟨.hbm, 877, rfl⟩
abbrev main_c_194 : Ref sig .tc := ⟨.hbm, 878, rfl⟩
abbrev main_c_195 : Ref sig .tc := ⟨.hbm, 879, rfl⟩
abbrev main_call18_v0 : Ref sig .tc := ⟨.hbm, 880, rfl⟩
abbrev main_call18_v1 : Ref sig .tc := ⟨.hbm, 881, rfl⟩
abbrev main_call18_v2 : Ref sig .tc := ⟨.hbm, 882, rfl⟩
abbrev main_call18_v3 : Ref sig .tc := ⟨.hbm, 883, rfl⟩
abbrev main_call18_v4 : Ref sig .tc := ⟨.hbm, 884, rfl⟩
abbrev main_v606 : Ref sig .tc := ⟨.hbm, 885, rfl⟩
abbrev main_c_196 : Ref sig .tc := ⟨.hbm, 886, rfl⟩
abbrev main_v607 : Ref sig .tc := ⟨.hbm, 887, rfl⟩
abbrev main_v608 : Ref sig .tc := ⟨.hbm, 888, rfl⟩
abbrev main_c_197 : Ref sig .tc := ⟨.hbm, 889, rfl⟩
abbrev main_v609 : Ref sig .tc := ⟨.hbm, 890, rfl⟩
abbrev main_v610 : Ref sig .tc := ⟨.hbm, 891, rfl⟩
abbrev main_v611 : Ref sig .tc := ⟨.hbm, 892, rfl⟩
abbrev main_v612 : Ref sig .tc := ⟨.hbm, 893, rfl⟩
abbrev main_v613 : Ref sig .tc := ⟨.hbm, 894, rfl⟩
abbrev main_c_198 : Ref sig .tc := ⟨.hbm, 895, rfl⟩
abbrev main_v614 : Ref sig .tc := ⟨.hbm, 896, rfl⟩
abbrev main_v615 : Ref sig .tc := ⟨.hbm, 897, rfl⟩
abbrev main_v616 : Ref sig .tc := ⟨.hbm, 898, rfl⟩
abbrev main_v617 : Ref sig .tc := ⟨.hbm, 899, rfl⟩
abbrev main_c_199 : Ref sig .tc := ⟨.hbm, 900, rfl⟩
abbrev main_v618 : Ref sig .tc := ⟨.hbm, 901, rfl⟩
abbrev main_v619 : Ref sig .tc := ⟨.hbm, 902, rfl⟩
abbrev main_c_200 : Ref sig .tc := ⟨.hbm, 903, rfl⟩
abbrev main_v620 : Ref sig .tc := ⟨.hbm, 904, rfl⟩
abbrev main_v621 : Ref sig .tc := ⟨.hbm, 905, rfl⟩
abbrev main_c_201 : Ref sig .tc := ⟨.hbm, 906, rfl⟩
abbrev main_v622 : Ref sig .tc := ⟨.hbm, 907, rfl⟩
abbrev main_v623 : Ref sig .tc := ⟨.hbm, 908, rfl⟩
abbrev main_v624 : Ref sig .tc := ⟨.hbm, 909, rfl⟩
abbrev main_v625 : Ref sig .tc := ⟨.hbm, 910, rfl⟩
abbrev main_v626 : Ref sig .tc := ⟨.hbm, 911, rfl⟩
abbrev main_cst_202 : Ref sig .tc := ⟨.hbm, 912, rfl⟩
abbrev main_call19_v0 : Ref sig .tc := ⟨.hbm, 913, rfl⟩
abbrev main_call19_v1 : Ref sig .tc := ⟨.hbm, 914, rfl⟩
abbrev main_call19_v2 : Ref sig .tc := ⟨.hbm, 915, rfl⟩
abbrev main_v627 : Ref sig .tc := ⟨.hbm, 916, rfl⟩
abbrev main_v628 : Ref sig .tc := ⟨.hbm, 917, rfl⟩
abbrev main_v629 : Ref sig .tc := ⟨.hbm, 918, rfl⟩
abbrev main_v630 : Ref sig .tc := ⟨.hbm, 919, rfl⟩
abbrev main_v631 : Ref sig .tc := ⟨.hbm, 920, rfl⟩
abbrev main_v632 : Ref sig .tc := ⟨.hbm, 921, rfl⟩
abbrev main_v633 : Ref sig .tc := ⟨.hbm, 922, rfl⟩
abbrev main_c_203 : Ref sig .tc := ⟨.hbm, 923, rfl⟩
abbrev main_v634 : Ref sig .tc := ⟨.hbm, 924, rfl⟩
abbrev main_v635 : Ref sig .tc := ⟨.hbm, 925, rfl⟩
abbrev main_v636 : Ref sig .tc := ⟨.hbm, 926, rfl⟩
abbrev main_v637 : Ref sig .tc := ⟨.hbm, 927, rfl⟩
abbrev main_c_204 : Ref sig .tc := ⟨.hbm, 928, rfl⟩
abbrev main_v638 : Ref sig .tc := ⟨.hbm, 929, rfl⟩
abbrev main_v639 : Ref sig .tc := ⟨.hbm, 930, rfl⟩
abbrev main_v640 : Ref sig .tc := ⟨.hbm, 931, rfl⟩
abbrev main_v641 : Ref sig .tc := ⟨.hbm, 932, rfl⟩
abbrev main_c_205 : Ref sig .tc := ⟨.hbm, 933, rfl⟩
abbrev main_v642 : Ref sig .tc := ⟨.hbm, 934, rfl⟩
abbrev main_v643 : Ref sig .tc := ⟨.hbm, 935, rfl⟩
abbrev main_c_206 : Ref sig .tc := ⟨.hbm, 936, rfl⟩
abbrev main_v644 : Ref sig .tc := ⟨.hbm, 937, rfl⟩
abbrev main_v645 : Ref sig .tc := ⟨.hbm, 938, rfl⟩
abbrev main_c_207 : Ref sig .tc := ⟨.hbm, 939, rfl⟩
abbrev main_v646 : Ref sig .tc := ⟨.hbm, 940, rfl⟩
abbrev main_v647 : Ref sig .tc := ⟨.hbm, 941, rfl⟩
abbrev main_v648 : Ref sig .tc := ⟨.hbm, 942, rfl⟩
abbrev main_c_208 : Ref sig .tc := ⟨.hbm, 943, rfl⟩
abbrev main_v649 : Ref sig .tc := ⟨.hbm, 944, rfl⟩
abbrev main_v650 : Ref sig .tc := ⟨.hbm, 945, rfl⟩
abbrev main_v651 : Ref sig .tc := ⟨.hbm, 946, rfl⟩
abbrev main_c_209 : Ref sig .tc := ⟨.hbm, 947, rfl⟩
abbrev main_v652 : Ref sig .tc := ⟨.hbm, 948, rfl⟩
abbrev main_v653 : Ref sig .tc := ⟨.hbm, 949, rfl⟩
abbrev main_v654 : Ref sig .tc := ⟨.hbm, 950, rfl⟩
abbrev main_c_210 : Ref sig .tc := ⟨.hbm, 951, rfl⟩
abbrev main_v655 : Ref sig .tc := ⟨.hbm, 952, rfl⟩
abbrev main_v656 : Ref sig .tc := ⟨.hbm, 953, rfl⟩
abbrev main_v657 : Ref sig .tc := ⟨.hbm, 954, rfl⟩
abbrev main_c_211 : Ref sig .tc := ⟨.hbm, 955, rfl⟩
abbrev main_v658 : Ref sig .tc := ⟨.hbm, 956, rfl⟩
abbrev main_v659 : Ref sig .tc := ⟨.hbm, 957, rfl⟩
abbrev main_v660 : Ref sig .tc := ⟨.hbm, 958, rfl⟩
abbrev main_c_212 : Ref sig .tc := ⟨.hbm, 959, rfl⟩
abbrev main_v661 : Ref sig .tc := ⟨.hbm, 960, rfl⟩
abbrev main_v662 : Ref sig .tc := ⟨.hbm, 961, rfl⟩
abbrev main_v663 : Ref sig .tc := ⟨.hbm, 962, rfl⟩
abbrev main_c_213 : Ref sig .tc := ⟨.hbm, 963, rfl⟩
abbrev main_v664 : Ref sig .tc := ⟨.hbm, 964, rfl⟩
abbrev main_v665 : Ref sig .tc := ⟨.hbm, 965, rfl⟩
abbrev main_v666 : Ref sig .tc := ⟨.hbm, 966, rfl⟩
abbrev main_c_214 : Ref sig .tc := ⟨.hbm, 967, rfl⟩
abbrev main_c_215 : Ref sig .tc := ⟨.hbm, 968, rfl⟩
abbrev main_call20_v0 : Ref sig .tc := ⟨.hbm, 969, rfl⟩
abbrev main_call20_v1 : Ref sig .tc := ⟨.hbm, 970, rfl⟩
abbrev main_call20_v2 : Ref sig .tc := ⟨.hbm, 971, rfl⟩
abbrev main_call20_v3 : Ref sig .tc := ⟨.hbm, 972, rfl⟩
abbrev main_call20_v4 : Ref sig .tc := ⟨.hbm, 973, rfl⟩
abbrev main_v667 : Ref sig .tc := ⟨.hbm, 974, rfl⟩
abbrev main_c_216 : Ref sig .tc := ⟨.hbm, 975, rfl⟩
abbrev main_v668 : Ref sig .tc := ⟨.hbm, 976, rfl⟩
abbrev main_v669 : Ref sig .tc := ⟨.hbm, 977, rfl⟩
abbrev main_c_217 : Ref sig .tc := ⟨.hbm, 978, rfl⟩
abbrev main_v670 : Ref sig .tc := ⟨.hbm, 979, rfl⟩
abbrev main_v671 : Ref sig .tc := ⟨.hbm, 980, rfl⟩
abbrev main_v672 : Ref sig .tc := ⟨.hbm, 981, rfl⟩
abbrev main_v673 : Ref sig .tc := ⟨.hbm, 982, rfl⟩
abbrev main_v674 : Ref sig .tc := ⟨.hbm, 983, rfl⟩
abbrev main_c_218 : Ref sig .tc := ⟨.hbm, 984, rfl⟩
abbrev main_v675 : Ref sig .tc := ⟨.hbm, 985, rfl⟩
abbrev main_v676 : Ref sig .tc := ⟨.hbm, 986, rfl⟩
abbrev main_v677 : Ref sig .tc := ⟨.hbm, 987, rfl⟩
abbrev main_v678 : Ref sig .tc := ⟨.hbm, 988, rfl⟩
abbrev main_c_219 : Ref sig .tc := ⟨.hbm, 989, rfl⟩
abbrev main_v679 : Ref sig .tc := ⟨.hbm, 990, rfl⟩
abbrev main_v680 : Ref sig .tc := ⟨.hbm, 991, rfl⟩
abbrev main_c_220 : Ref sig .tc := ⟨.hbm, 992, rfl⟩
abbrev main_v681 : Ref sig .tc := ⟨.hbm, 993, rfl⟩
abbrev main_v682 : Ref sig .tc := ⟨.hbm, 994, rfl⟩
abbrev main_c_221 : Ref sig .tc := ⟨.hbm, 995, rfl⟩
abbrev main_v683 : Ref sig .tc := ⟨.hbm, 996, rfl⟩
abbrev main_v684 : Ref sig .tc := ⟨.hbm, 997, rfl⟩
abbrev main_v685 : Ref sig .tc := ⟨.hbm, 998, rfl⟩
abbrev main_v686 : Ref sig .tc := ⟨.hbm, 999, rfl⟩
abbrev main_v687 : Ref sig .tc := ⟨.hbm, 1000, rfl⟩
abbrev main_cst_222 : Ref sig .tc := ⟨.hbm, 1001, rfl⟩
abbrev main_call21_v0 : Ref sig .tc := ⟨.hbm, 1002, rfl⟩
abbrev main_call21_v1 : Ref sig .tc := ⟨.hbm, 1003, rfl⟩
abbrev main_call21_v2 : Ref sig .tc := ⟨.hbm, 1004, rfl⟩
abbrev main_v688 : Ref sig .tc := ⟨.hbm, 1005, rfl⟩
abbrev main_v689 : Ref sig .tc := ⟨.hbm, 1006, rfl⟩
abbrev main_v690 : Ref sig .tc := ⟨.hbm, 1007, rfl⟩
abbrev main_v691 : Ref sig .tc := ⟨.hbm, 1008, rfl⟩
abbrev main_v692 : Ref sig .tc := ⟨.hbm, 1009, rfl⟩
abbrev main_v693 : Ref sig .tc := ⟨.hbm, 1010, rfl⟩
abbrev main_v694 : Ref sig .tc := ⟨.hbm, 1011, rfl⟩
abbrev main_c_223 : Ref sig .tc := ⟨.hbm, 1012, rfl⟩
abbrev main_v695 : Ref sig .tc := ⟨.hbm, 1013, rfl⟩
abbrev main_v696 : Ref sig .tc := ⟨.hbm, 1014, rfl⟩
abbrev main_v697 : Ref sig .tc := ⟨.hbm, 1015, rfl⟩
abbrev main_v698 : Ref sig .tc := ⟨.hbm, 1016, rfl⟩
abbrev main_c_224 : Ref sig .tc := ⟨.hbm, 1017, rfl⟩
abbrev main_v699 : Ref sig .tc := ⟨.hbm, 1018, rfl⟩
abbrev main_v700 : Ref sig .tc := ⟨.hbm, 1019, rfl⟩
abbrev main_v701 : Ref sig .tc := ⟨.hbm, 1020, rfl⟩
abbrev main_v702 : Ref sig .tc := ⟨.hbm, 1021, rfl⟩
abbrev main_c_225 : Ref sig .tc := ⟨.hbm, 1022, rfl⟩
abbrev main_v703 : Ref sig .tc := ⟨.hbm, 1023, rfl⟩
abbrev main_v704 : Ref sig .tc := ⟨.hbm, 1024, rfl⟩
abbrev main_c_226 : Ref sig .tc := ⟨.hbm, 1025, rfl⟩
abbrev main_v705 : Ref sig .tc := ⟨.hbm, 1026, rfl⟩
abbrev main_v706 : Ref sig .tc := ⟨.hbm, 1027, rfl⟩
abbrev main_c_227 : Ref sig .tc := ⟨.hbm, 1028, rfl⟩
abbrev main_v707 : Ref sig .tc := ⟨.hbm, 1029, rfl⟩
abbrev main_v708 : Ref sig .tc := ⟨.hbm, 1030, rfl⟩
abbrev main_v709 : Ref sig .tc := ⟨.hbm, 1031, rfl⟩
abbrev main_c_228 : Ref sig .tc := ⟨.hbm, 1032, rfl⟩
abbrev main_v710 : Ref sig .tc := ⟨.hbm, 1033, rfl⟩
abbrev main_v711 : Ref sig .tc := ⟨.hbm, 1034, rfl⟩
abbrev main_v712 : Ref sig .tc := ⟨.hbm, 1035, rfl⟩
abbrev main_c_229 : Ref sig .tc := ⟨.hbm, 1036, rfl⟩
abbrev main_v713 : Ref sig .tc := ⟨.hbm, 1037, rfl⟩
abbrev main_v714 : Ref sig .tc := ⟨.hbm, 1038, rfl⟩
abbrev main_v715 : Ref sig .tc := ⟨.hbm, 1039, rfl⟩
abbrev main_c_230 : Ref sig .tc := ⟨.hbm, 1040, rfl⟩
abbrev main_v716 : Ref sig .tc := ⟨.hbm, 1041, rfl⟩
abbrev main_v717 : Ref sig .tc := ⟨.hbm, 1042, rfl⟩
abbrev main_v718 : Ref sig .tc := ⟨.hbm, 1043, rfl⟩
abbrev main_c_231 : Ref sig .tc := ⟨.hbm, 1044, rfl⟩
abbrev main_v719 : Ref sig .tc := ⟨.hbm, 1045, rfl⟩
abbrev main_v720 : Ref sig .tc := ⟨.hbm, 1046, rfl⟩
abbrev main_v721 : Ref sig .tc := ⟨.hbm, 1047, rfl⟩
abbrev main_c_232 : Ref sig .tc := ⟨.hbm, 1048, rfl⟩
abbrev main_v722 : Ref sig .tc := ⟨.hbm, 1049, rfl⟩
abbrev main_v723 : Ref sig .tc := ⟨.hbm, 1050, rfl⟩
abbrev main_v724 : Ref sig .tc := ⟨.hbm, 1051, rfl⟩
abbrev main_c_233 : Ref sig .tc := ⟨.hbm, 1052, rfl⟩
abbrev main_v725 : Ref sig .tc := ⟨.hbm, 1053, rfl⟩
abbrev main_v726 : Ref sig .tc := ⟨.hbm, 1054, rfl⟩
abbrev main_v727 : Ref sig .tc := ⟨.hbm, 1055, rfl⟩
abbrev main_c_234 : Ref sig .tc := ⟨.hbm, 1056, rfl⟩
abbrev main_c_235 : Ref sig .tc := ⟨.hbm, 1057, rfl⟩
abbrev main_call22_v0 : Ref sig .tc := ⟨.hbm, 1058, rfl⟩
abbrev main_call22_v1 : Ref sig .tc := ⟨.hbm, 1059, rfl⟩
abbrev main_call22_v2 : Ref sig .tc := ⟨.hbm, 1060, rfl⟩
abbrev main_call22_v3 : Ref sig .tc := ⟨.hbm, 1061, rfl⟩
abbrev main_call22_v4 : Ref sig .tc := ⟨.hbm, 1062, rfl⟩
abbrev main_v728 : Ref sig .tc := ⟨.hbm, 1063, rfl⟩
abbrev main_c_236 : Ref sig .tc := ⟨.hbm, 1064, rfl⟩
abbrev main_v729 : Ref sig .tc := ⟨.hbm, 1065, rfl⟩
abbrev main_v730 : Ref sig .tc := ⟨.hbm, 1066, rfl⟩
abbrev main_c_237 : Ref sig .tc := ⟨.hbm, 1067, rfl⟩
abbrev main_v731 : Ref sig .tc := ⟨.hbm, 1068, rfl⟩
abbrev main_v732 : Ref sig .tc := ⟨.hbm, 1069, rfl⟩
abbrev main_v733 : Ref sig .tc := ⟨.hbm, 1070, rfl⟩
abbrev main_v734 : Ref sig .tc := ⟨.hbm, 1071, rfl⟩
abbrev main_v735 : Ref sig .tc := ⟨.hbm, 1072, rfl⟩
abbrev main_c_238 : Ref sig .tc := ⟨.hbm, 1073, rfl⟩
abbrev main_v736 : Ref sig .tc := ⟨.hbm, 1074, rfl⟩
abbrev main_v737 : Ref sig .tc := ⟨.hbm, 1075, rfl⟩
abbrev main_v738 : Ref sig .tc := ⟨.hbm, 1076, rfl⟩
abbrev main_v739 : Ref sig .tc := ⟨.hbm, 1077, rfl⟩
abbrev main_c_239 : Ref sig .tc := ⟨.hbm, 1078, rfl⟩
abbrev main_v740 : Ref sig .tc := ⟨.hbm, 1079, rfl⟩
abbrev main_v741 : Ref sig .tc := ⟨.hbm, 1080, rfl⟩
abbrev main_c_240 : Ref sig .tc := ⟨.hbm, 1081, rfl⟩
abbrev main_v742 : Ref sig .tc := ⟨.hbm, 1082, rfl⟩
abbrev main_v743 : Ref sig .tc := ⟨.hbm, 1083, rfl⟩
abbrev main_c_241 : Ref sig .tc := ⟨.hbm, 1084, rfl⟩
abbrev main_v744 : Ref sig .tc := ⟨.hbm, 1085, rfl⟩
abbrev main_v745 : Ref sig .tc := ⟨.hbm, 1086, rfl⟩
abbrev main_v746 : Ref sig .tc := ⟨.hbm, 1087, rfl⟩
abbrev main_v747 : Ref sig .tc := ⟨.hbm, 1088, rfl⟩
abbrev main_v748 : Ref sig .tc := ⟨.hbm, 1089, rfl⟩
abbrev main_cst_242 : Ref sig .tc := ⟨.hbm, 1090, rfl⟩
abbrev main_call23_v0 : Ref sig .tc := ⟨.hbm, 1091, rfl⟩
abbrev main_call23_v1 : Ref sig .tc := ⟨.hbm, 1092, rfl⟩
abbrev main_call23_v2 : Ref sig .tc := ⟨.hbm, 1093, rfl⟩
abbrev main_v749 : Ref sig .tc := ⟨.hbm, 1094, rfl⟩
abbrev main_v750 : Ref sig .tc := ⟨.hbm, 1095, rfl⟩
abbrev main_v751 : Ref sig .tc := ⟨.hbm, 1096, rfl⟩
abbrev main_v752 : Ref sig .tc := ⟨.hbm, 1097, rfl⟩
abbrev main_v753 : Ref sig .tc := ⟨.hbm, 1098, rfl⟩
abbrev main_v754 : Ref sig .tc := ⟨.hbm, 1099, rfl⟩
abbrev main_v755 : Ref sig .tc := ⟨.hbm, 1100, rfl⟩
abbrev main_c_243 : Ref sig .tc := ⟨.hbm, 1101, rfl⟩
abbrev main_v756 : Ref sig .tc := ⟨.hbm, 1102, rfl⟩
abbrev main_v757 : Ref sig .tc := ⟨.hbm, 1103, rfl⟩
abbrev main_v758 : Ref sig .tc := ⟨.hbm, 1104, rfl⟩
abbrev main_v759 : Ref sig .tc := ⟨.hbm, 1105, rfl⟩
abbrev main_c_244 : Ref sig .tc := ⟨.hbm, 1106, rfl⟩
abbrev main_v760 : Ref sig .tc := ⟨.hbm, 1107, rfl⟩
abbrev main_v761 : Ref sig .tc := ⟨.hbm, 1108, rfl⟩
abbrev main_v762 : Ref sig .tc := ⟨.hbm, 1109, rfl⟩
abbrev main_v763 : Ref sig .tc := ⟨.hbm, 1110, rfl⟩
abbrev main_c_245 : Ref sig .tc := ⟨.hbm, 1111, rfl⟩
abbrev main_v764 : Ref sig .tc := ⟨.hbm, 1112, rfl⟩
abbrev main_v765 : Ref sig .tc := ⟨.hbm, 1113, rfl⟩
abbrev main_c_246 : Ref sig .tc := ⟨.hbm, 1114, rfl⟩
abbrev main_v766 : Ref sig .tc := ⟨.hbm, 1115, rfl⟩
abbrev main_v767 : Ref sig .tc := ⟨.hbm, 1116, rfl⟩
abbrev main_c_247 : Ref sig .tc := ⟨.hbm, 1117, rfl⟩
abbrev main_v768 : Ref sig .tc := ⟨.hbm, 1118, rfl⟩
abbrev main_v769 : Ref sig .tc := ⟨.hbm, 1119, rfl⟩
abbrev main_v770 : Ref sig .tc := ⟨.hbm, 1120, rfl⟩
abbrev main_c_248 : Ref sig .tc := ⟨.hbm, 1121, rfl⟩
abbrev main_v771 : Ref sig .tc := ⟨.hbm, 1122, rfl⟩
abbrev main_v772 : Ref sig .tc := ⟨.hbm, 1123, rfl⟩
abbrev main_v773 : Ref sig .tc := ⟨.hbm, 1124, rfl⟩
abbrev main_c_249 : Ref sig .tc := ⟨.hbm, 1125, rfl⟩
abbrev main_v774 : Ref sig .tc := ⟨.hbm, 1126, rfl⟩
abbrev main_v775 : Ref sig .tc := ⟨.hbm, 1127, rfl⟩
abbrev main_v776 : Ref sig .tc := ⟨.hbm, 1128, rfl⟩
abbrev main_c_250 : Ref sig .tc := ⟨.hbm, 1129, rfl⟩
abbrev main_v777 : Ref sig .tc := ⟨.hbm, 1130, rfl⟩
abbrev main_v778 : Ref sig .tc := ⟨.hbm, 1131, rfl⟩
abbrev main_v779 : Ref sig .tc := ⟨.hbm, 1132, rfl⟩
abbrev main_c_251 : Ref sig .tc := ⟨.hbm, 1133, rfl⟩
abbrev main_v780 : Ref sig .tc := ⟨.hbm, 1134, rfl⟩
abbrev main_v781 : Ref sig .tc := ⟨.hbm, 1135, rfl⟩
abbrev main_v782 : Ref sig .tc := ⟨.hbm, 1136, rfl⟩
abbrev main_c_252 : Ref sig .tc := ⟨.hbm, 1137, rfl⟩
abbrev main_v783 : Ref sig .tc := ⟨.hbm, 1138, rfl⟩
abbrev main_v784 : Ref sig .tc := ⟨.hbm, 1139, rfl⟩
abbrev main_v785 : Ref sig .tc := ⟨.hbm, 1140, rfl⟩
abbrev main_c_253 : Ref sig .tc := ⟨.hbm, 1141, rfl⟩
abbrev main_v786 : Ref sig .tc := ⟨.hbm, 1142, rfl⟩
abbrev main_v787 : Ref sig .tc := ⟨.hbm, 1143, rfl⟩
abbrev main_v788 : Ref sig .tc := ⟨.hbm, 1144, rfl⟩
abbrev main_c_254 : Ref sig .tc := ⟨.hbm, 1145, rfl⟩
abbrev main_c_255 : Ref sig .tc := ⟨.hbm, 1146, rfl⟩
abbrev main_call24_v0 : Ref sig .tc := ⟨.hbm, 1147, rfl⟩
abbrev main_call24_v1 : Ref sig .tc := ⟨.hbm, 1148, rfl⟩
abbrev main_call24_v2 : Ref sig .tc := ⟨.hbm, 1149, rfl⟩
abbrev main_call24_v3 : Ref sig .tc := ⟨.hbm, 1150, rfl⟩
abbrev main_call24_v4 : Ref sig .tc := ⟨.hbm, 1151, rfl⟩
abbrev main_v789 : Ref sig .tc := ⟨.hbm, 1152, rfl⟩
abbrev main_c_256 : Ref sig .tc := ⟨.hbm, 1153, rfl⟩
abbrev main_v790 : Ref sig .tc := ⟨.hbm, 1154, rfl⟩
abbrev main_v791 : Ref sig .tc := ⟨.hbm, 1155, rfl⟩
abbrev main_c_257 : Ref sig .tc := ⟨.hbm, 1156, rfl⟩
abbrev main_v792 : Ref sig .tc := ⟨.hbm, 1157, rfl⟩
abbrev main_v793 : Ref sig .tc := ⟨.hbm, 1158, rfl⟩
abbrev main_v794 : Ref sig .tc := ⟨.hbm, 1159, rfl⟩
abbrev main_v795 : Ref sig .tc := ⟨.hbm, 1160, rfl⟩
abbrev main_v796 : Ref sig .tc := ⟨.hbm, 1161, rfl⟩
abbrev main_c_258 : Ref sig .tc := ⟨.hbm, 1162, rfl⟩
abbrev main_v797 : Ref sig .tc := ⟨.hbm, 1163, rfl⟩
abbrev main_v798 : Ref sig .tc := ⟨.hbm, 1164, rfl⟩
abbrev main_v799 : Ref sig .tc := ⟨.hbm, 1165, rfl⟩
abbrev main_v800 : Ref sig .tc := ⟨.hbm, 1166, rfl⟩
abbrev main_c_259 : Ref sig .tc := ⟨.hbm, 1167, rfl⟩
abbrev main_v801 : Ref sig .tc := ⟨.hbm, 1168, rfl⟩
abbrev main_v802 : Ref sig .tc := ⟨.hbm, 1169, rfl⟩
abbrev main_c_260 : Ref sig .tc := ⟨.hbm, 1170, rfl⟩
abbrev main_v803 : Ref sig .tc := ⟨.hbm, 1171, rfl⟩
abbrev main_v804 : Ref sig .tc := ⟨.hbm, 1172, rfl⟩
abbrev main_c_261 : Ref sig .tc := ⟨.hbm, 1173, rfl⟩
abbrev main_v805 : Ref sig .tc := ⟨.hbm, 1174, rfl⟩
abbrev main_v806 : Ref sig .tc := ⟨.hbm, 1175, rfl⟩
abbrev main_v807 : Ref sig .tc := ⟨.hbm, 1176, rfl⟩
abbrev main_v808 : Ref sig .tc := ⟨.hbm, 1177, rfl⟩
abbrev main_v809 : Ref sig .tc := ⟨.hbm, 1178, rfl⟩
abbrev main_cst_262 : Ref sig .tc := ⟨.hbm, 1179, rfl⟩
abbrev main_call25_v0 : Ref sig .tc := ⟨.hbm, 1180, rfl⟩
abbrev main_call25_v1 : Ref sig .tc := ⟨.hbm, 1181, rfl⟩
abbrev main_call25_v2 : Ref sig .tc := ⟨.hbm, 1182, rfl⟩
abbrev main_v810 : Ref sig .tc := ⟨.hbm, 1183, rfl⟩
abbrev main_v811 : Ref sig .tc := ⟨.hbm, 1184, rfl⟩
abbrev main_v812 : Ref sig .tc := ⟨.hbm, 1185, rfl⟩
abbrev main_v813 : Ref sig .tc := ⟨.hbm, 1186, rfl⟩
abbrev main_v814 : Ref sig .tc := ⟨.hbm, 1187, rfl⟩
abbrev main_v815 : Ref sig .tc := ⟨.hbm, 1188, rfl⟩
abbrev main_v816 : Ref sig .tc := ⟨.hbm, 1189, rfl⟩
abbrev main_c_263 : Ref sig .tc := ⟨.hbm, 1190, rfl⟩
abbrev main_v817 : Ref sig .tc := ⟨.hbm, 1191, rfl⟩
abbrev main_v818 : Ref sig .tc := ⟨.hbm, 1192, rfl⟩
abbrev main_v819 : Ref sig .tc := ⟨.hbm, 1193, rfl⟩
abbrev main_v820 : Ref sig .tc := ⟨.hbm, 1194, rfl⟩
abbrev main_c_264 : Ref sig .tc := ⟨.hbm, 1195, rfl⟩
abbrev main_v821 : Ref sig .tc := ⟨.hbm, 1196, rfl⟩
abbrev main_v822 : Ref sig .tc := ⟨.hbm, 1197, rfl⟩
abbrev main_v823 : Ref sig .tc := ⟨.hbm, 1198, rfl⟩
abbrev main_v824 : Ref sig .tc := ⟨.hbm, 1199, rfl⟩
abbrev main_c_265 : Ref sig .tc := ⟨.hbm, 1200, rfl⟩
abbrev main_v825 : Ref sig .tc := ⟨.hbm, 1201, rfl⟩
abbrev main_v826 : Ref sig .tc := ⟨.hbm, 1202, rfl⟩
abbrev main_c_266 : Ref sig .tc := ⟨.hbm, 1203, rfl⟩
abbrev main_v827 : Ref sig .tc := ⟨.hbm, 1204, rfl⟩
abbrev main_v828 : Ref sig .tc := ⟨.hbm, 1205, rfl⟩
abbrev main_c_267 : Ref sig .tc := ⟨.hbm, 1206, rfl⟩
abbrev main_v829 : Ref sig .tc := ⟨.hbm, 1207, rfl⟩
abbrev main_v830 : Ref sig .tc := ⟨.hbm, 1208, rfl⟩
abbrev main_v831 : Ref sig .tc := ⟨.hbm, 1209, rfl⟩
abbrev main_c_268 : Ref sig .tc := ⟨.hbm, 1210, rfl⟩
abbrev main_v832 : Ref sig .tc := ⟨.hbm, 1211, rfl⟩
abbrev main_v833 : Ref sig .tc := ⟨.hbm, 1212, rfl⟩
abbrev main_v834 : Ref sig .tc := ⟨.hbm, 1213, rfl⟩
abbrev main_c_269 : Ref sig .tc := ⟨.hbm, 1214, rfl⟩
abbrev main_v835 : Ref sig .tc := ⟨.hbm, 1215, rfl⟩
abbrev main_v836 : Ref sig .tc := ⟨.hbm, 1216, rfl⟩
abbrev main_v837 : Ref sig .tc := ⟨.hbm, 1217, rfl⟩
abbrev main_c_270 : Ref sig .tc := ⟨.hbm, 1218, rfl⟩
abbrev main_v838 : Ref sig .tc := ⟨.hbm, 1219, rfl⟩
abbrev main_v839 : Ref sig .tc := ⟨.hbm, 1220, rfl⟩
abbrev main_v840 : Ref sig .tc := ⟨.hbm, 1221, rfl⟩
abbrev main_c_271 : Ref sig .tc := ⟨.hbm, 1222, rfl⟩
abbrev main_v841 : Ref sig .tc := ⟨.hbm, 1223, rfl⟩
abbrev main_v842 : Ref sig .tc := ⟨.hbm, 1224, rfl⟩
abbrev main_v843 : Ref sig .tc := ⟨.hbm, 1225, rfl⟩
abbrev main_c_272 : Ref sig .tc := ⟨.hbm, 1226, rfl⟩
abbrev main_v844 : Ref sig .tc := ⟨.hbm, 1227, rfl⟩
abbrev main_v845 : Ref sig .tc := ⟨.hbm, 1228, rfl⟩
abbrev main_v846 : Ref sig .tc := ⟨.hbm, 1229, rfl⟩
abbrev main_c_273 : Ref sig .tc := ⟨.hbm, 1230, rfl⟩
abbrev main_v847 : Ref sig .tc := ⟨.hbm, 1231, rfl⟩
abbrev main_v848 : Ref sig .tc := ⟨.hbm, 1232, rfl⟩
abbrev main_v849 : Ref sig .tc := ⟨.hbm, 1233, rfl⟩
abbrev main_c_274 : Ref sig .tc := ⟨.hbm, 1234, rfl⟩
abbrev main_c_275 : Ref sig .tc := ⟨.hbm, 1235, rfl⟩
abbrev main_call26_v0 : Ref sig .tc := ⟨.hbm, 1236, rfl⟩
abbrev main_call26_v1 : Ref sig .tc := ⟨.hbm, 1237, rfl⟩
abbrev main_call26_v2 : Ref sig .tc := ⟨.hbm, 1238, rfl⟩
abbrev main_call26_v3 : Ref sig .tc := ⟨.hbm, 1239, rfl⟩
abbrev main_call26_v4 : Ref sig .tc := ⟨.hbm, 1240, rfl⟩
abbrev main_v850 : Ref sig .tc := ⟨.hbm, 1241, rfl⟩
abbrev main_c_276 : Ref sig .tc := ⟨.hbm, 1242, rfl⟩
abbrev main_v851 : Ref sig .tc := ⟨.hbm, 1243, rfl⟩
abbrev main_v852 : Ref sig .tc := ⟨.hbm, 1244, rfl⟩
abbrev main_c_277 : Ref sig .tc := ⟨.hbm, 1245, rfl⟩
abbrev main_v853 : Ref sig .tc := ⟨.hbm, 1246, rfl⟩
abbrev main_v854 : Ref sig .tc := ⟨.hbm, 1247, rfl⟩
abbrev main_v855 : Ref sig .tc := ⟨.hbm, 1248, rfl⟩
abbrev main_v856 : Ref sig .tc := ⟨.hbm, 1249, rfl⟩
abbrev main_v857 : Ref sig .tc := ⟨.hbm, 1250, rfl⟩
abbrev main_c_278 : Ref sig .tc := ⟨.hbm, 1251, rfl⟩
abbrev main_v858 : Ref sig .tc := ⟨.hbm, 1252, rfl⟩
abbrev main_v859 : Ref sig .tc := ⟨.hbm, 1253, rfl⟩
abbrev main_v860 : Ref sig .tc := ⟨.hbm, 1254, rfl⟩
abbrev main_v861 : Ref sig .tc := ⟨.hbm, 1255, rfl⟩
abbrev main_c_279 : Ref sig .tc := ⟨.hbm, 1256, rfl⟩
abbrev main_v862 : Ref sig .tc := ⟨.hbm, 1257, rfl⟩
abbrev main_v863 : Ref sig .tc := ⟨.hbm, 1258, rfl⟩
abbrev main_c_280 : Ref sig .tc := ⟨.hbm, 1259, rfl⟩
abbrev main_v864 : Ref sig .tc := ⟨.hbm, 1260, rfl⟩
abbrev main_v865 : Ref sig .tc := ⟨.hbm, 1261, rfl⟩
abbrev main_c_281 : Ref sig .tc := ⟨.hbm, 1262, rfl⟩
abbrev main_v866 : Ref sig .tc := ⟨.hbm, 1263, rfl⟩
abbrev main_v867 : Ref sig .tc := ⟨.hbm, 1264, rfl⟩
abbrev main_v868 : Ref sig .tc := ⟨.hbm, 1265, rfl⟩
abbrev main_v869 : Ref sig .tc := ⟨.hbm, 1266, rfl⟩
abbrev main_v870 : Ref sig .tc := ⟨.hbm, 1267, rfl⟩
abbrev main_cst_282 : Ref sig .tc := ⟨.hbm, 1268, rfl⟩
abbrev main_call27_v0 : Ref sig .tc := ⟨.hbm, 1269, rfl⟩
abbrev main_call27_v1 : Ref sig .tc := ⟨.hbm, 1270, rfl⟩
abbrev main_call27_v2 : Ref sig .tc := ⟨.hbm, 1271, rfl⟩
abbrev main_v871 : Ref sig .tc := ⟨.hbm, 1272, rfl⟩
abbrev main_v872 : Ref sig .tc := ⟨.hbm, 1273, rfl⟩
abbrev main_v873 : Ref sig .tc := ⟨.hbm, 1274, rfl⟩
abbrev main_v874 : Ref sig .tc := ⟨.hbm, 1275, rfl⟩
abbrev main_v875 : Ref sig .tc := ⟨.hbm, 1276, rfl⟩
abbrev main_v876 : Ref sig .tc := ⟨.hbm, 1277, rfl⟩
abbrev main_v877 : Ref sig .tc := ⟨.hbm, 1278, rfl⟩
abbrev main_c_283 : Ref sig .tc := ⟨.hbm, 1279, rfl⟩
abbrev main_v878 : Ref sig .tc := ⟨.hbm, 1280, rfl⟩
abbrev main_v879 : Ref sig .tc := ⟨.hbm, 1281, rfl⟩
abbrev main_v880 : Ref sig .tc := ⟨.hbm, 1282, rfl⟩
abbrev main_v881 : Ref sig .tc := ⟨.hbm, 1283, rfl⟩
abbrev main_c_284 : Ref sig .tc := ⟨.hbm, 1284, rfl⟩
abbrev main_v882 : Ref sig .tc := ⟨.hbm, 1285, rfl⟩
abbrev main_v883 : Ref sig .tc := ⟨.hbm, 1286, rfl⟩
abbrev main_v884 : Ref sig .tc := ⟨.hbm, 1287, rfl⟩
abbrev main_v885 : Ref sig .tc := ⟨.hbm, 1288, rfl⟩
abbrev main_c_285 : Ref sig .tc := ⟨.hbm, 1289, rfl⟩
abbrev main_v886 : Ref sig .tc := ⟨.hbm, 1290, rfl⟩
abbrev main_v887 : Ref sig .tc := ⟨.hbm, 1291, rfl⟩
abbrev main_c_286 : Ref sig .tc := ⟨.hbm, 1292, rfl⟩
abbrev main_v888 : Ref sig .tc := ⟨.hbm, 1293, rfl⟩
abbrev main_v889 : Ref sig .tc := ⟨.hbm, 1294, rfl⟩
abbrev main_c_287 : Ref sig .tc := ⟨.hbm, 1295, rfl⟩
abbrev main_v890 : Ref sig .tc := ⟨.hbm, 1296, rfl⟩
abbrev main_v891 : Ref sig .tc := ⟨.hbm, 1297, rfl⟩
abbrev main_v892 : Ref sig .tc := ⟨.hbm, 1298, rfl⟩
abbrev main_c_288 : Ref sig .tc := ⟨.hbm, 1299, rfl⟩
abbrev main_v893 : Ref sig .tc := ⟨.hbm, 1300, rfl⟩
abbrev main_v894 : Ref sig .tc := ⟨.hbm, 1301, rfl⟩
abbrev main_v895 : Ref sig .tc := ⟨.hbm, 1302, rfl⟩
abbrev main_c_289 : Ref sig .tc := ⟨.hbm, 1303, rfl⟩
abbrev main_v896 : Ref sig .tc := ⟨.hbm, 1304, rfl⟩
abbrev main_v897 : Ref sig .tc := ⟨.hbm, 1305, rfl⟩
abbrev main_v898 : Ref sig .tc := ⟨.hbm, 1306, rfl⟩
abbrev main_c_290 : Ref sig .tc := ⟨.hbm, 1307, rfl⟩
abbrev main_v899 : Ref sig .tc := ⟨.hbm, 1308, rfl⟩
abbrev main_v900 : Ref sig .tc := ⟨.hbm, 1309, rfl⟩
abbrev main_v901 : Ref sig .tc := ⟨.hbm, 1310, rfl⟩
abbrev main_c_291 : Ref sig .tc := ⟨.hbm, 1311, rfl⟩
abbrev main_v902 : Ref sig .tc := ⟨.hbm, 1312, rfl⟩
abbrev main_v903 : Ref sig .tc := ⟨.hbm, 1313, rfl⟩
abbrev main_v904 : Ref sig .tc := ⟨.hbm, 1314, rfl⟩
abbrev main_c_292 : Ref sig .tc := ⟨.hbm, 1315, rfl⟩
abbrev main_v905 : Ref sig .tc := ⟨.hbm, 1316, rfl⟩
abbrev main_v906 : Ref sig .tc := ⟨.hbm, 1317, rfl⟩
abbrev main_v907 : Ref sig .tc := ⟨.hbm, 1318, rfl⟩
abbrev main_c_293 : Ref sig .tc := ⟨.hbm, 1319, rfl⟩
abbrev main_v908 : Ref sig .tc := ⟨.hbm, 1320, rfl⟩
abbrev main_v909 : Ref sig .tc := ⟨.hbm, 1321, rfl⟩
abbrev main_v910 : Ref sig .tc := ⟨.hbm, 1322, rfl⟩
abbrev main_c_294 : Ref sig .tc := ⟨.hbm, 1323, rfl⟩
abbrev main_c_295 : Ref sig .tc := ⟨.hbm, 1324, rfl⟩
abbrev main_call28_v0 : Ref sig .tc := ⟨.hbm, 1325, rfl⟩
abbrev main_call28_v1 : Ref sig .tc := ⟨.hbm, 1326, rfl⟩
abbrev main_call28_v2 : Ref sig .tc := ⟨.hbm, 1327, rfl⟩
abbrev main_call28_v3 : Ref sig .tc := ⟨.hbm, 1328, rfl⟩
abbrev main_call28_v4 : Ref sig .tc := ⟨.hbm, 1329, rfl⟩
abbrev main_v911 : Ref sig .tc := ⟨.hbm, 1330, rfl⟩
abbrev main_c_296 : Ref sig .tc := ⟨.hbm, 1331, rfl⟩
abbrev main_v912 : Ref sig .tc := ⟨.hbm, 1332, rfl⟩
abbrev main_v913 : Ref sig .tc := ⟨.hbm, 1333, rfl⟩
abbrev main_c_297 : Ref sig .tc := ⟨.hbm, 1334, rfl⟩
abbrev main_v914 : Ref sig .tc := ⟨.hbm, 1335, rfl⟩
abbrev main_v915 : Ref sig .tc := ⟨.hbm, 1336, rfl⟩
abbrev main_v916 : Ref sig .tc := ⟨.hbm, 1337, rfl⟩
abbrev main_v917 : Ref sig .tc := ⟨.hbm, 1338, rfl⟩
abbrev main_v918 : Ref sig .tc := ⟨.hbm, 1339, rfl⟩
abbrev main_c_298 : Ref sig .tc := ⟨.hbm, 1340, rfl⟩
abbrev main_v919 : Ref sig .tc := ⟨.hbm, 1341, rfl⟩
abbrev main_v920 : Ref sig .tc := ⟨.hbm, 1342, rfl⟩
abbrev main_v921 : Ref sig .tc := ⟨.hbm, 1343, rfl⟩
abbrev main_v922 : Ref sig .tc := ⟨.hbm, 1344, rfl⟩
abbrev main_c_299 : Ref sig .tc := ⟨.hbm, 1345, rfl⟩
abbrev main_v923 : Ref sig .tc := ⟨.hbm, 1346, rfl⟩
abbrev main_v924 : Ref sig .tc := ⟨.hbm, 1347, rfl⟩
abbrev main_c_300 : Ref sig .tc := ⟨.hbm, 1348, rfl⟩
abbrev main_v925 : Ref sig .tc := ⟨.hbm, 1349, rfl⟩
abbrev main_v926 : Ref sig .tc := ⟨.hbm, 1350, rfl⟩
abbrev main_c_301 : Ref sig .tc := ⟨.hbm, 1351, rfl⟩
abbrev main_v927 : Ref sig .tc := ⟨.hbm, 1352, rfl⟩
abbrev main_v928 : Ref sig .tc := ⟨.hbm, 1353, rfl⟩
abbrev main_v929 : Ref sig .tc := ⟨.hbm, 1354, rfl⟩
abbrev main_v930 : Ref sig .tc := ⟨.hbm, 1355, rfl⟩
abbrev main_v931 : Ref sig .tc := ⟨.hbm, 1356, rfl⟩
abbrev main_cst_302 : Ref sig .tc := ⟨.hbm, 1357, rfl⟩
abbrev main_call29_v0 : Ref sig .tc := ⟨.hbm, 1358, rfl⟩
abbrev main_call29_v1 : Ref sig .tc := ⟨.hbm, 1359, rfl⟩
abbrev main_call29_v2 : Ref sig .tc := ⟨.hbm, 1360, rfl⟩
abbrev main_v932 : Ref sig .tc := ⟨.hbm, 1361, rfl⟩
abbrev main_v933 : Ref sig .tc := ⟨.hbm, 1362, rfl⟩
abbrev main_v934 : Ref sig .tc := ⟨.hbm, 1363, rfl⟩
abbrev main_v935 : Ref sig .tc := ⟨.hbm, 1364, rfl⟩
abbrev main_v936 : Ref sig .tc := ⟨.hbm, 1365, rfl⟩
abbrev main_v937 : Ref sig .tc := ⟨.hbm, 1366, rfl⟩
abbrev main_v938 : Ref sig .tc := ⟨.hbm, 1367, rfl⟩
abbrev main_c_303 : Ref sig .tc := ⟨.hbm, 1368, rfl⟩
abbrev main_v939 : Ref sig .tc := ⟨.hbm, 1369, rfl⟩
abbrev main_v940 : Ref sig .tc := ⟨.hbm, 1370, rfl⟩
abbrev main_v941 : Ref sig .tc := ⟨.hbm, 1371, rfl⟩
abbrev main_v942 : Ref sig .tc := ⟨.hbm, 1372, rfl⟩
abbrev main_c_304 : Ref sig .tc := ⟨.hbm, 1373, rfl⟩
abbrev main_v943 : Ref sig .tc := ⟨.hbm, 1374, rfl⟩
abbrev main_v944 : Ref sig .tc := ⟨.hbm, 1375, rfl⟩
abbrev main_v945 : Ref sig .tc := ⟨.hbm, 1376, rfl⟩
abbrev main_v946 : Ref sig .tc := ⟨.hbm, 1377, rfl⟩
abbrev main_c_305 : Ref sig .tc := ⟨.hbm, 1378, rfl⟩
abbrev main_v947 : Ref sig .tc := ⟨.hbm, 1379, rfl⟩
abbrev main_v948 : Ref sig .tc := ⟨.hbm, 1380, rfl⟩
abbrev main_c_306 : Ref sig .tc := ⟨.hbm, 1381, rfl⟩
abbrev main_v949 : Ref sig .tc := ⟨.hbm, 1382, rfl⟩
abbrev main_v950 : Ref sig .tc := ⟨.hbm, 1383, rfl⟩
abbrev main_c_307 : Ref sig .tc := ⟨.hbm, 1384, rfl⟩
abbrev main_v951 : Ref sig .tc := ⟨.hbm, 1385, rfl⟩
abbrev main_v952 : Ref sig .tc := ⟨.hbm, 1386, rfl⟩
abbrev main_v953 : Ref sig .tc := ⟨.hbm, 1387, rfl⟩
abbrev main_c_308 : Ref sig .tc := ⟨.hbm, 1388, rfl⟩
abbrev main_v954 : Ref sig .tc := ⟨.hbm, 1389, rfl⟩
abbrev main_v955 : Ref sig .tc := ⟨.hbm, 1390, rfl⟩
abbrev main_v956 : Ref sig .tc := ⟨.hbm, 1391, rfl⟩
abbrev main_c_309 : Ref sig .tc := ⟨.hbm, 1392, rfl⟩
abbrev main_v957 : Ref sig .tc := ⟨.hbm, 1393, rfl⟩
abbrev main_v958 : Ref sig .tc := ⟨.hbm, 1394, rfl⟩
abbrev main_v959 : Ref sig .tc := ⟨.hbm, 1395, rfl⟩
abbrev main_c_310 : Ref sig .tc := ⟨.hbm, 1396, rfl⟩
abbrev main_v960 : Ref sig .tc := ⟨.hbm, 1397, rfl⟩
abbrev main_v961 : Ref sig .tc := ⟨.hbm, 1398, rfl⟩
abbrev main_v962 : Ref sig .tc := ⟨.hbm, 1399, rfl⟩
abbrev main_c_311 : Ref sig .tc := ⟨.hbm, 1400, rfl⟩
abbrev main_v963 : Ref sig .tc := ⟨.hbm, 1401, rfl⟩
abbrev main_v964 : Ref sig .tc := ⟨.hbm, 1402, rfl⟩
abbrev main_v965 : Ref sig .tc := ⟨.hbm, 1403, rfl⟩
abbrev main_c_312 : Ref sig .tc := ⟨.hbm, 1404, rfl⟩
abbrev main_v966 : Ref sig .tc := ⟨.hbm, 1405, rfl⟩
abbrev main_v967 : Ref sig .tc := ⟨.hbm, 1406, rfl⟩
abbrev main_v968 : Ref sig .tc := ⟨.hbm, 1407, rfl⟩
abbrev main_c_313 : Ref sig .tc := ⟨.hbm, 1408, rfl⟩
abbrev main_v969 : Ref sig .tc := ⟨.hbm, 1409, rfl⟩
abbrev main_v970 : Ref sig .tc := ⟨.hbm, 1410, rfl⟩
abbrev main_v971 : Ref sig .tc := ⟨.hbm, 1411, rfl⟩
abbrev main_c_314 : Ref sig .tc := ⟨.hbm, 1412, rfl⟩
abbrev main_c_315 : Ref sig .tc := ⟨.hbm, 1413, rfl⟩
abbrev main_call30_v0 : Ref sig .tc := ⟨.hbm, 1414, rfl⟩
abbrev main_call30_v1 : Ref sig .tc := ⟨.hbm, 1415, rfl⟩
abbrev main_call30_v2 : Ref sig .tc := ⟨.hbm, 1416, rfl⟩
abbrev main_call30_v3 : Ref sig .tc := ⟨.hbm, 1417, rfl⟩
abbrev main_call30_v4 : Ref sig .tc := ⟨.hbm, 1418, rfl⟩
abbrev main_v972 : Ref sig .tc := ⟨.hbm, 1419, rfl⟩
abbrev main_c_316 : Ref sig .tc := ⟨.hbm, 1420, rfl⟩
abbrev main_v973 : Ref sig .tc := ⟨.hbm, 1421, rfl⟩
abbrev main_v974 : Ref sig .tc := ⟨.hbm, 1422, rfl⟩
abbrev main_c_317 : Ref sig .tc := ⟨.hbm, 1423, rfl⟩
abbrev main_v975 : Ref sig .tc := ⟨.hbm, 1424, rfl⟩
abbrev main_v976 : Ref sig .tc := ⟨.hbm, 1425, rfl⟩
abbrev main_v977 : Ref sig .tc := ⟨.hbm, 1426, rfl⟩
abbrev main_v978 : Ref sig .tc := ⟨.hbm, 1427, rfl⟩
abbrev main_v979 : Ref sig .tc := ⟨.hbm, 1428, rfl⟩
abbrev main_c_318 : Ref sig .tc := ⟨.hbm, 1429, rfl⟩
abbrev main_v980 : Ref sig .tc := ⟨.hbm, 1430, rfl⟩
abbrev main_v981 : Ref sig .tc := ⟨.hbm, 1431, rfl⟩
abbrev main_v982 : Ref sig .tc := ⟨.hbm, 1432, rfl⟩
abbrev main_v983 : Ref sig .tc := ⟨.hbm, 1433, rfl⟩
abbrev main_c_319 : Ref sig .tc := ⟨.hbm, 1434, rfl⟩
abbrev main_v984 : Ref sig .tc := ⟨.hbm, 1435, rfl⟩
abbrev main_v985 : Ref sig .tc := ⟨.hbm, 1436, rfl⟩
abbrev main_c_320 : Ref sig .tc := ⟨.hbm, 1437, rfl⟩
abbrev main_v986 : Ref sig .tc := ⟨.hbm, 1438, rfl⟩
abbrev main_v987 : Ref sig .tc := ⟨.hbm, 1439, rfl⟩
abbrev main_c_321 : Ref sig .tc := ⟨.hbm, 1440, rfl⟩
abbrev main_v988 : Ref sig .tc := ⟨.hbm, 1441, rfl⟩
abbrev main_v989 : Ref sig .tc := ⟨.hbm, 1442, rfl⟩
abbrev main_v990 : Ref sig .tc := ⟨.hbm, 1443, rfl⟩
abbrev main_v991 : Ref sig .tc := ⟨.hbm, 1444, rfl⟩
abbrev main_v992 : Ref sig .tc := ⟨.hbm, 1445, rfl⟩
abbrev main_cst_322 : Ref sig .tc := ⟨.hbm, 1446, rfl⟩
abbrev main_call31_v0 : Ref sig .tc := ⟨.hbm, 1447, rfl⟩
abbrev main_call31_v1 : Ref sig .tc := ⟨.hbm, 1448, rfl⟩
abbrev main_call31_v2 : Ref sig .tc := ⟨.hbm, 1449, rfl⟩
abbrev main_v993 : Ref sig .tc := ⟨.hbm, 1450, rfl⟩
abbrev main_v994 : Ref sig .tc := ⟨.hbm, 1451, rfl⟩
abbrev main_v995 : Ref sig .tc := ⟨.hbm, 1452, rfl⟩
abbrev main_v996 : Ref sig .tc := ⟨.hbm, 1453, rfl⟩
abbrev main_v997 : Ref sig .tc := ⟨.hbm, 1454, rfl⟩
abbrev main_v998 : Ref sig .tc := ⟨.hbm, 1455, rfl⟩
abbrev main_v999 : Ref sig .tc := ⟨.hbm, 1456, rfl⟩
abbrev main_c_323 : Ref sig .tc := ⟨.hbm, 1457, rfl⟩
abbrev main_v1000 : Ref sig .tc := ⟨.hbm, 1458, rfl⟩
abbrev main_v1001 : Ref sig .tc := ⟨.hbm, 1459, rfl⟩
abbrev main_v1002 : Ref sig .tc := ⟨.hbm, 1460, rfl⟩
abbrev main_v1003 : Ref sig .tc := ⟨.hbm, 1461, rfl⟩
abbrev main_c_324 : Ref sig .tc := ⟨.hbm, 1462, rfl⟩
abbrev main_v1004 : Ref sig .tc := ⟨.hbm, 1463, rfl⟩
abbrev main_v1005 : Ref sig .tc := ⟨.hbm, 1464, rfl⟩
abbrev main_v1006 : Ref sig .tc := ⟨.hbm, 1465, rfl⟩
abbrev main_v1007 : Ref sig .tc := ⟨.hbm, 1466, rfl⟩
abbrev main_c_325 : Ref sig .tc := ⟨.hbm, 1467, rfl⟩
abbrev main_v1008 : Ref sig .tc := ⟨.hbm, 1468, rfl⟩
abbrev main_v1009 : Ref sig .tc := ⟨.hbm, 1469, rfl⟩
abbrev main_c_326 : Ref sig .tc := ⟨.hbm, 1470, rfl⟩
abbrev main_v1010 : Ref sig .tc := ⟨.hbm, 1471, rfl⟩
abbrev main_v1011 : Ref sig .tc := ⟨.hbm, 1472, rfl⟩
abbrev main_c_327 : Ref sig .tc := ⟨.hbm, 1473, rfl⟩
abbrev main_v1012 : Ref sig .tc := ⟨.hbm, 1474, rfl⟩
abbrev main_v1013 : Ref sig .tc := ⟨.hbm, 1475, rfl⟩
abbrev main_v1014 : Ref sig .tc := ⟨.hbm, 1476, rfl⟩
abbrev main_c_328 : Ref sig .tc := ⟨.hbm, 1477, rfl⟩
abbrev main_v1015 : Ref sig .tc := ⟨.hbm, 1478, rfl⟩
abbrev main_v1016 : Ref sig .tc := ⟨.hbm, 1479, rfl⟩
abbrev main_v1017 : Ref sig .tc := ⟨.hbm, 1480, rfl⟩
abbrev main_c_329 : Ref sig .tc := ⟨.hbm, 1481, rfl⟩
abbrev main_v1018 : Ref sig .tc := ⟨.hbm, 1482, rfl⟩
abbrev main_v1019 : Ref sig .tc := ⟨.hbm, 1483, rfl⟩
abbrev main_v1020 : Ref sig .tc := ⟨.hbm, 1484, rfl⟩
abbrev main_c_330 : Ref sig .tc := ⟨.hbm, 1485, rfl⟩
abbrev main_v1021 : Ref sig .tc := ⟨.hbm, 1486, rfl⟩
abbrev main_v1022 : Ref sig .tc := ⟨.hbm, 1487, rfl⟩
abbrev main_v1023 : Ref sig .tc := ⟨.hbm, 1488, rfl⟩
abbrev main_c_331 : Ref sig .tc := ⟨.hbm, 1489, rfl⟩
abbrev main_v1024 : Ref sig .tc := ⟨.hbm, 1490, rfl⟩
abbrev main_v1025 : Ref sig .tc := ⟨.hbm, 1491, rfl⟩
abbrev main_v1026 : Ref sig .tc := ⟨.hbm, 1492, rfl⟩
abbrev main_c_332 : Ref sig .tc := ⟨.hbm, 1493, rfl⟩
abbrev main_v1027 : Ref sig .tc := ⟨.hbm, 1494, rfl⟩
abbrev main_v1028 : Ref sig .tc := ⟨.hbm, 1495, rfl⟩
abbrev main_v1029 : Ref sig .tc := ⟨.hbm, 1496, rfl⟩
abbrev main_c_333 : Ref sig .tc := ⟨.hbm, 1497, rfl⟩
abbrev main_v1030 : Ref sig .tc := ⟨.hbm, 1498, rfl⟩
abbrev main_v1031 : Ref sig .tc := ⟨.hbm, 1499, rfl⟩
abbrev main_v1032 : Ref sig .tc := ⟨.hbm, 1500, rfl⟩
abbrev main_c_334 : Ref sig .tc := ⟨.hbm, 1501, rfl⟩
abbrev main_c_335 : Ref sig .tc := ⟨.hbm, 1502, rfl⟩
abbrev main_call32_v0 : Ref sig .tc := ⟨.hbm, 1503, rfl⟩
abbrev main_call32_v1 : Ref sig .tc := ⟨.hbm, 1504, rfl⟩
abbrev main_call32_v2 : Ref sig .tc := ⟨.hbm, 1505, rfl⟩
abbrev main_call32_v3 : Ref sig .tc := ⟨.hbm, 1506, rfl⟩
abbrev main_call32_v4 : Ref sig .tc := ⟨.hbm, 1507, rfl⟩
abbrev main_v1033 : Ref sig .tc := ⟨.hbm, 1508, rfl⟩
abbrev main_c_336 : Ref sig .tc := ⟨.hbm, 1509, rfl⟩
abbrev main_v1034 : Ref sig .tc := ⟨.hbm, 1510, rfl⟩
abbrev main_v1035 : Ref sig .tc := ⟨.hbm, 1511, rfl⟩
abbrev main_c_337 : Ref sig .tc := ⟨.hbm, 1512, rfl⟩
abbrev main_v1036 : Ref sig .tc := ⟨.hbm, 1513, rfl⟩
abbrev main_v1037 : Ref sig .tc := ⟨.hbm, 1514, rfl⟩
abbrev main_v1038 : Ref sig .tc := ⟨.hbm, 1515, rfl⟩
abbrev main_v1039 : Ref sig .tc := ⟨.hbm, 1516, rfl⟩
abbrev main_v1040 : Ref sig .tc := ⟨.hbm, 1517, rfl⟩
abbrev main_c_338 : Ref sig .tc := ⟨.hbm, 1518, rfl⟩
abbrev main_v1041 : Ref sig .tc := ⟨.hbm, 1519, rfl⟩
abbrev main_v1042 : Ref sig .tc := ⟨.hbm, 1520, rfl⟩
abbrev main_v1043 : Ref sig .tc := ⟨.hbm, 1521, rfl⟩
abbrev main_v1044 : Ref sig .tc := ⟨.hbm, 1522, rfl⟩
abbrev main_c_339 : Ref sig .tc := ⟨.hbm, 1523, rfl⟩
abbrev main_v1045 : Ref sig .tc := ⟨.hbm, 1524, rfl⟩
abbrev main_v1046 : Ref sig .tc := ⟨.hbm, 1525, rfl⟩
abbrev main_c_340 : Ref sig .tc := ⟨.hbm, 1526, rfl⟩
abbrev main_v1047 : Ref sig .tc := ⟨.hbm, 1527, rfl⟩
abbrev main_v1048 : Ref sig .tc := ⟨.hbm, 1528, rfl⟩
abbrev main_c_341 : Ref sig .tc := ⟨.hbm, 1529, rfl⟩
abbrev main_v1049 : Ref sig .tc := ⟨.hbm, 1530, rfl⟩
abbrev main_v1050 : Ref sig .tc := ⟨.hbm, 1531, rfl⟩
abbrev main_v1051 : Ref sig .tc := ⟨.hbm, 1532, rfl⟩
abbrev main_v1052 : Ref sig .tc := ⟨.hbm, 1533, rfl⟩
abbrev main_v1053 : Ref sig .tc := ⟨.hbm, 1534, rfl⟩
abbrev main_cst_342 : Ref sig .tc := ⟨.hbm, 1535, rfl⟩
abbrev main_call33_v0 : Ref sig .tc := ⟨.hbm, 1536, rfl⟩
abbrev main_call33_v1 : Ref sig .tc := ⟨.hbm, 1537, rfl⟩
abbrev main_call33_v2 : Ref sig .tc := ⟨.hbm, 1538, rfl⟩
abbrev main_v1054 : Ref sig .tc := ⟨.hbm, 1539, rfl⟩
abbrev main_v1055 : Ref sig .tc := ⟨.hbm, 1540, rfl⟩
abbrev main_v1056 : Ref sig .tc := ⟨.hbm, 1541, rfl⟩
abbrev main_v1057 : Ref sig .tc := ⟨.hbm, 1542, rfl⟩
abbrev main_v1058 : Ref sig .tc := ⟨.hbm, 1543, rfl⟩
abbrev main_v1059 : Ref sig .tc := ⟨.hbm, 1544, rfl⟩
abbrev main_v1060 : Ref sig .tc := ⟨.hbm, 1545, rfl⟩
abbrev main_c_343 : Ref sig .tc := ⟨.hbm, 1546, rfl⟩
abbrev main_v1061 : Ref sig .tc := ⟨.hbm, 1547, rfl⟩
abbrev main_v1062 : Ref sig .tc := ⟨.hbm, 1548, rfl⟩
abbrev main_v1063 : Ref sig .tc := ⟨.hbm, 1549, rfl⟩
abbrev main_v1064 : Ref sig .tc := ⟨.hbm, 1550, rfl⟩
abbrev main_c_344 : Ref sig .tc := ⟨.hbm, 1551, rfl⟩
abbrev main_v1065 : Ref sig .tc := ⟨.hbm, 1552, rfl⟩
abbrev main_v1066 : Ref sig .tc := ⟨.hbm, 1553, rfl⟩
abbrev main_v1067 : Ref sig .tc := ⟨.hbm, 1554, rfl⟩
abbrev main_v1068 : Ref sig .tc := ⟨.hbm, 1555, rfl⟩
abbrev main_c_345 : Ref sig .tc := ⟨.hbm, 1556, rfl⟩
abbrev main_v1069 : Ref sig .tc := ⟨.hbm, 1557, rfl⟩
abbrev main_v1070 : Ref sig .tc := ⟨.hbm, 1558, rfl⟩
abbrev main_c_346 : Ref sig .tc := ⟨.hbm, 1559, rfl⟩
abbrev main_v1071 : Ref sig .tc := ⟨.hbm, 1560, rfl⟩
abbrev main_v1072 : Ref sig .tc := ⟨.hbm, 1561, rfl⟩
abbrev main_c_347 : Ref sig .tc := ⟨.hbm, 1562, rfl⟩
abbrev main_v1073 : Ref sig .tc := ⟨.hbm, 1563, rfl⟩
abbrev main_v1074 : Ref sig .tc := ⟨.hbm, 1564, rfl⟩
abbrev main_v1075 : Ref sig .tc := ⟨.hbm, 1565, rfl⟩
abbrev main_c_348 : Ref sig .tc := ⟨.hbm, 1566, rfl⟩
abbrev main_v1076 : Ref sig .tc := ⟨.hbm, 1567, rfl⟩
abbrev main_v1077 : Ref sig .tc := ⟨.hbm, 1568, rfl⟩
abbrev main_v1078 : Ref sig .tc := ⟨.hbm, 1569, rfl⟩
abbrev main_c_349 : Ref sig .tc := ⟨.hbm, 1570, rfl⟩
abbrev main_v1079 : Ref sig .tc := ⟨.hbm, 1571, rfl⟩
abbrev main_v1080 : Ref sig .tc := ⟨.hbm, 1572, rfl⟩
abbrev main_v1081 : Ref sig .tc := ⟨.hbm, 1573, rfl⟩
abbrev main_c_350 : Ref sig .tc := ⟨.hbm, 1574, rfl⟩
abbrev main_v1082 : Ref sig .tc := ⟨.hbm, 1575, rfl⟩
abbrev main_v1083 : Ref sig .tc := ⟨.hbm, 1576, rfl⟩
abbrev main_v1084 : Ref sig .tc := ⟨.hbm, 1577, rfl⟩
abbrev main_c_351 : Ref sig .tc := ⟨.hbm, 1578, rfl⟩
abbrev main_v1085 : Ref sig .tc := ⟨.hbm, 1579, rfl⟩
abbrev main_v1086 : Ref sig .tc := ⟨.hbm, 1580, rfl⟩
abbrev main_v1087 : Ref sig .tc := ⟨.hbm, 1581, rfl⟩
abbrev main_c_352 : Ref sig .tc := ⟨.hbm, 1582, rfl⟩
abbrev main_v1088 : Ref sig .tc := ⟨.hbm, 1583, rfl⟩
abbrev main_v1089 : Ref sig .tc := ⟨.hbm, 1584, rfl⟩
abbrev main_v1090 : Ref sig .tc := ⟨.hbm, 1585, rfl⟩
abbrev main_c_353 : Ref sig .tc := ⟨.hbm, 1586, rfl⟩
abbrev main_v1091 : Ref sig .tc := ⟨.hbm, 1587, rfl⟩
abbrev main_v1092 : Ref sig .tc := ⟨.hbm, 1588, rfl⟩
abbrev main_v1093 : Ref sig .tc := ⟨.hbm, 1589, rfl⟩
abbrev main_c_354 : Ref sig .tc := ⟨.hbm, 1590, rfl⟩
abbrev main_c_355 : Ref sig .tc := ⟨.hbm, 1591, rfl⟩
abbrev main_call34_v0 : Ref sig .tc := ⟨.hbm, 1592, rfl⟩
abbrev main_call34_v1 : Ref sig .tc := ⟨.hbm, 1593, rfl⟩
abbrev main_call34_v2 : Ref sig .tc := ⟨.hbm, 1594, rfl⟩
abbrev main_call34_v3 : Ref sig .tc := ⟨.hbm, 1595, rfl⟩
abbrev main_call34_v4 : Ref sig .tc := ⟨.hbm, 1596, rfl⟩
abbrev main_v1094 : Ref sig .tc := ⟨.hbm, 1597, rfl⟩
abbrev main_c_356 : Ref sig .tc := ⟨.hbm, 1598, rfl⟩
abbrev main_v1095 : Ref sig .tc := ⟨.hbm, 1599, rfl⟩
abbrev main_v1096 : Ref sig .tc := ⟨.hbm, 1600, rfl⟩
abbrev main_c_357 : Ref sig .tc := ⟨.hbm, 1601, rfl⟩
abbrev main_v1097 : Ref sig .tc := ⟨.hbm, 1602, rfl⟩
abbrev main_v1098 : Ref sig .tc := ⟨.hbm, 1603, rfl⟩
abbrev main_v1099 : Ref sig .tc := ⟨.hbm, 1604, rfl⟩
abbrev main_v1100 : Ref sig .tc := ⟨.hbm, 1605, rfl⟩
abbrev main_v1101 : Ref sig .tc := ⟨.hbm, 1606, rfl⟩
abbrev main_c_358 : Ref sig .tc := ⟨.hbm, 1607, rfl⟩
abbrev main_v1102 : Ref sig .tc := ⟨.hbm, 1608, rfl⟩
abbrev main_v1103 : Ref sig .tc := ⟨.hbm, 1609, rfl⟩
abbrev main_v1104 : Ref sig .tc := ⟨.hbm, 1610, rfl⟩
abbrev main_v1105 : Ref sig .tc := ⟨.hbm, 1611, rfl⟩
abbrev main_c_359 : Ref sig .tc := ⟨.hbm, 1612, rfl⟩
abbrev main_v1106 : Ref sig .tc := ⟨.hbm, 1613, rfl⟩
abbrev main_v1107 : Ref sig .tc := ⟨.hbm, 1614, rfl⟩
abbrev main_c_360 : Ref sig .tc := ⟨.hbm, 1615, rfl⟩
abbrev main_v1108 : Ref sig .tc := ⟨.hbm, 1616, rfl⟩
abbrev main_v1109 : Ref sig .tc := ⟨.hbm, 1617, rfl⟩
abbrev main_c_361 : Ref sig .tc := ⟨.hbm, 1618, rfl⟩
abbrev main_v1110 : Ref sig .tc := ⟨.hbm, 1619, rfl⟩
abbrev main_v1111 : Ref sig .tc := ⟨.hbm, 1620, rfl⟩
abbrev main_v1112 : Ref sig .tc := ⟨.hbm, 1621, rfl⟩
abbrev main_v1113 : Ref sig .tc := ⟨.hbm, 1622, rfl⟩
abbrev main_v1114 : Ref sig .tc := ⟨.hbm, 1623, rfl⟩
abbrev main_cst_362 : Ref sig .tc := ⟨.hbm, 1624, rfl⟩
abbrev main_call35_v0 : Ref sig .tc := ⟨.hbm, 1625, rfl⟩
abbrev main_call35_v1 : Ref sig .tc := ⟨.hbm, 1626, rfl⟩
abbrev main_call35_v2 : Ref sig .tc := ⟨.hbm, 1627, rfl⟩
abbrev main_v1115 : Ref sig .tc := ⟨.hbm, 1628, rfl⟩
abbrev main_v1116 : Ref sig .tc := ⟨.hbm, 1629, rfl⟩
abbrev main_v1117 : Ref sig .tc := ⟨.hbm, 1630, rfl⟩
abbrev main_v1118 : Ref sig .tc := ⟨.hbm, 1631, rfl⟩
abbrev main_v1119 : Ref sig .tc := ⟨.hbm, 1632, rfl⟩
abbrev main_v1120 : Ref sig .tc := ⟨.hbm, 1633, rfl⟩
abbrev main_v1121 : Ref sig .tc := ⟨.hbm, 1634, rfl⟩
abbrev main_c_363 : Ref sig .tc := ⟨.hbm, 1635, rfl⟩
abbrev main_v1122 : Ref sig .tc := ⟨.hbm, 1636, rfl⟩
abbrev main_v1123 : Ref sig .tc := ⟨.hbm, 1637, rfl⟩
abbrev main_v1124 : Ref sig .tc := ⟨.hbm, 1638, rfl⟩
abbrev main_v1125 : Ref sig .tc := ⟨.hbm, 1639, rfl⟩
abbrev main_c_364 : Ref sig .tc := ⟨.hbm, 1640, rfl⟩
abbrev main_v1126 : Ref sig .tc := ⟨.hbm, 1641, rfl⟩
abbrev main_v1127 : Ref sig .tc := ⟨.hbm, 1642, rfl⟩
abbrev main_v1128 : Ref sig .tc := ⟨.hbm, 1643, rfl⟩
abbrev main_v1129 : Ref sig .tc := ⟨.hbm, 1644, rfl⟩
abbrev main_c_365 : Ref sig .tc := ⟨.hbm, 1645, rfl⟩
abbrev main_v1130 : Ref sig .tc := ⟨.hbm, 1646, rfl⟩
abbrev main_v1131 : Ref sig .tc := ⟨.hbm, 1647, rfl⟩
abbrev main_c_366 : Ref sig .tc := ⟨.hbm, 1648, rfl⟩
abbrev main_v1132 : Ref sig .tc := ⟨.hbm, 1649, rfl⟩
abbrev main_v1133 : Ref sig .tc := ⟨.hbm, 1650, rfl⟩
abbrev main_c_367 : Ref sig .tc := ⟨.hbm, 1651, rfl⟩
abbrev main_v1134 : Ref sig .tc := ⟨.hbm, 1652, rfl⟩
abbrev main_v1135 : Ref sig .tc := ⟨.hbm, 1653, rfl⟩
abbrev main_v1136 : Ref sig .tc := ⟨.hbm, 1654, rfl⟩
abbrev main_c_368 : Ref sig .tc := ⟨.hbm, 1655, rfl⟩
abbrev main_v1137 : Ref sig .tc := ⟨.hbm, 1656, rfl⟩
abbrev main_v1138 : Ref sig .tc := ⟨.hbm, 1657, rfl⟩
abbrev main_v1139 : Ref sig .tc := ⟨.hbm, 1658, rfl⟩
abbrev main_c_369 : Ref sig .tc := ⟨.hbm, 1659, rfl⟩
abbrev main_v1140 : Ref sig .tc := ⟨.hbm, 1660, rfl⟩
abbrev main_v1141 : Ref sig .tc := ⟨.hbm, 1661, rfl⟩
abbrev main_v1142 : Ref sig .tc := ⟨.hbm, 1662, rfl⟩
abbrev main_c_370 : Ref sig .tc := ⟨.hbm, 1663, rfl⟩
abbrev main_v1143 : Ref sig .tc := ⟨.hbm, 1664, rfl⟩
abbrev main_v1144 : Ref sig .tc := ⟨.hbm, 1665, rfl⟩
abbrev main_v1145 : Ref sig .tc := ⟨.hbm, 1666, rfl⟩
abbrev main_c_371 : Ref sig .tc := ⟨.hbm, 1667, rfl⟩
abbrev main_v1146 : Ref sig .tc := ⟨.hbm, 1668, rfl⟩
abbrev main_v1147 : Ref sig .tc := ⟨.hbm, 1669, rfl⟩
abbrev main_v1148 : Ref sig .tc := ⟨.hbm, 1670, rfl⟩
abbrev main_c_372 : Ref sig .tc := ⟨.hbm, 1671, rfl⟩
abbrev main_v1149 : Ref sig .tc := ⟨.hbm, 1672, rfl⟩
abbrev main_v1150 : Ref sig .tc := ⟨.hbm, 1673, rfl⟩
abbrev main_v1151 : Ref sig .tc := ⟨.hbm, 1674, rfl⟩
abbrev main_c_373 : Ref sig .tc := ⟨.hbm, 1675, rfl⟩
abbrev main_v1152 : Ref sig .tc := ⟨.hbm, 1676, rfl⟩
abbrev main_v1153 : Ref sig .tc := ⟨.hbm, 1677, rfl⟩
abbrev main_v1154 : Ref sig .tc := ⟨.hbm, 1678, rfl⟩
abbrev main_c_374 : Ref sig .tc := ⟨.hbm, 1679, rfl⟩
abbrev main_c_375 : Ref sig .tc := ⟨.hbm, 1680, rfl⟩
abbrev main_call36_v0 : Ref sig .tc := ⟨.hbm, 1681, rfl⟩
abbrev main_call36_v1 : Ref sig .tc := ⟨.hbm, 1682, rfl⟩
abbrev main_call36_v2 : Ref sig .tc := ⟨.hbm, 1683, rfl⟩
abbrev main_call36_v3 : Ref sig .tc := ⟨.hbm, 1684, rfl⟩
abbrev main_call36_v4 : Ref sig .tc := ⟨.hbm, 1685, rfl⟩
abbrev main_v1155 : Ref sig .tc := ⟨.hbm, 1686, rfl⟩
abbrev main_c_376 : Ref sig .tc := ⟨.hbm, 1687, rfl⟩
abbrev main_v1156 : Ref sig .tc := ⟨.hbm, 1688, rfl⟩
abbrev main_v1157 : Ref sig .tc := ⟨.hbm, 1689, rfl⟩
abbrev main_c_377 : Ref sig .tc := ⟨.hbm, 1690, rfl⟩
abbrev main_v1158 : Ref sig .tc := ⟨.hbm, 1691, rfl⟩
abbrev main_v1159 : Ref sig .tc := ⟨.hbm, 1692, rfl⟩
abbrev main_v1160 : Ref sig .tc := ⟨.hbm, 1693, rfl⟩
abbrev main_v1161 : Ref sig .tc := ⟨.hbm, 1694, rfl⟩
abbrev main_v1162 : Ref sig .tc := ⟨.hbm, 1695, rfl⟩
abbrev main_c_378 : Ref sig .tc := ⟨.hbm, 1696, rfl⟩
abbrev main_v1163 : Ref sig .tc := ⟨.hbm, 1697, rfl⟩
abbrev main_v1164 : Ref sig .tc := ⟨.hbm, 1698, rfl⟩
abbrev main_v1165 : Ref sig .tc := ⟨.hbm, 1699, rfl⟩
abbrev main_v1166 : Ref sig .tc := ⟨.hbm, 1700, rfl⟩
abbrev main_c_379 : Ref sig .tc := ⟨.hbm, 1701, rfl⟩
abbrev main_v1167 : Ref sig .tc := ⟨.hbm, 1702, rfl⟩
abbrev main_v1168 : Ref sig .tc := ⟨.hbm, 1703, rfl⟩
abbrev main_c_380 : Ref sig .tc := ⟨.hbm, 1704, rfl⟩
abbrev main_v1169 : Ref sig .tc := ⟨.hbm, 1705, rfl⟩
abbrev main_v1170 : Ref sig .tc := ⟨.hbm, 1706, rfl⟩
abbrev main_c_381 : Ref sig .tc := ⟨.hbm, 1707, rfl⟩
abbrev main_v1171 : Ref sig .tc := ⟨.hbm, 1708, rfl⟩
abbrev main_v1172 : Ref sig .tc := ⟨.hbm, 1709, rfl⟩
abbrev main_v1173 : Ref sig .tc := ⟨.hbm, 1710, rfl⟩
abbrev main_v1174 : Ref sig .tc := ⟨.hbm, 1711, rfl⟩
abbrev main_v1175 : Ref sig .tc := ⟨.hbm, 1712, rfl⟩
abbrev main_cst_382 : Ref sig .tc := ⟨.hbm, 1713, rfl⟩
abbrev main_call37_v0 : Ref sig .tc := ⟨.hbm, 1714, rfl⟩
abbrev main_call37_v1 : Ref sig .tc := ⟨.hbm, 1715, rfl⟩
abbrev main_call37_v2 : Ref sig .tc := ⟨.hbm, 1716, rfl⟩
abbrev main_v1176 : Ref sig .tc := ⟨.hbm, 1717, rfl⟩
abbrev main_v1177 : Ref sig .tc := ⟨.hbm, 1718, rfl⟩
abbrev main_v1178 : Ref sig .tc := ⟨.hbm, 1719, rfl⟩
abbrev main_v1179 : Ref sig .tc := ⟨.hbm, 1720, rfl⟩
abbrev main_v1180 : Ref sig .tc := ⟨.hbm, 1721, rfl⟩
abbrev main_v1181 : Ref sig .tc := ⟨.hbm, 1722, rfl⟩
abbrev main_v1182 : Ref sig .tc := ⟨.hbm, 1723, rfl⟩
abbrev main_c_383 : Ref sig .tc := ⟨.hbm, 1724, rfl⟩
abbrev main_v1183 : Ref sig .tc := ⟨.hbm, 1725, rfl⟩
abbrev main_v1184 : Ref sig .tc := ⟨.hbm, 1726, rfl⟩
abbrev main_v1185 : Ref sig .tc := ⟨.hbm, 1727, rfl⟩
abbrev main_v1186 : Ref sig .tc := ⟨.hbm, 1728, rfl⟩
abbrev main_c_384 : Ref sig .tc := ⟨.hbm, 1729, rfl⟩
abbrev main_v1187 : Ref sig .tc := ⟨.hbm, 1730, rfl⟩
abbrev main_v1188 : Ref sig .tc := ⟨.hbm, 1731, rfl⟩
abbrev main_v1189 : Ref sig .tc := ⟨.hbm, 1732, rfl⟩
abbrev main_v1190 : Ref sig .tc := ⟨.hbm, 1733, rfl⟩
abbrev main_c_385 : Ref sig .tc := ⟨.hbm, 1734, rfl⟩
abbrev main_v1191 : Ref sig .tc := ⟨.hbm, 1735, rfl⟩
abbrev main_v1192 : Ref sig .tc := ⟨.hbm, 1736, rfl⟩
abbrev main_c_386 : Ref sig .tc := ⟨.hbm, 1737, rfl⟩
abbrev main_v1193 : Ref sig .tc := ⟨.hbm, 1738, rfl⟩
abbrev main_v1194 : Ref sig .tc := ⟨.hbm, 1739, rfl⟩
abbrev main_c_387 : Ref sig .tc := ⟨.hbm, 1740, rfl⟩
abbrev main_v1195 : Ref sig .tc := ⟨.hbm, 1741, rfl⟩
abbrev main_v1196 : Ref sig .tc := ⟨.hbm, 1742, rfl⟩
abbrev main_v1197 : Ref sig .tc := ⟨.hbm, 1743, rfl⟩
abbrev main_c_388 : Ref sig .tc := ⟨.hbm, 1744, rfl⟩
abbrev main_v1198 : Ref sig .tc := ⟨.hbm, 1745, rfl⟩
abbrev main_v1199 : Ref sig .tc := ⟨.hbm, 1746, rfl⟩
abbrev main_v1200 : Ref sig .tc := ⟨.hbm, 1747, rfl⟩
abbrev main_c_389 : Ref sig .tc := ⟨.hbm, 1748, rfl⟩
abbrev main_v1201 : Ref sig .tc := ⟨.hbm, 1749, rfl⟩
abbrev main_v1202 : Ref sig .tc := ⟨.hbm, 1750, rfl⟩
abbrev main_v1203 : Ref sig .tc := ⟨.hbm, 1751, rfl⟩
abbrev main_c_390 : Ref sig .tc := ⟨.hbm, 1752, rfl⟩
abbrev main_v1204 : Ref sig .tc := ⟨.hbm, 1753, rfl⟩
abbrev main_v1205 : Ref sig .tc := ⟨.hbm, 1754, rfl⟩
abbrev main_v1206 : Ref sig .tc := ⟨.hbm, 1755, rfl⟩
abbrev main_c_391 : Ref sig .tc := ⟨.hbm, 1756, rfl⟩
abbrev main_v1207 : Ref sig .tc := ⟨.hbm, 1757, rfl⟩
abbrev main_v1208 : Ref sig .tc := ⟨.hbm, 1758, rfl⟩
abbrev main_v1209 : Ref sig .tc := ⟨.hbm, 1759, rfl⟩
abbrev main_c_392 : Ref sig .tc := ⟨.hbm, 1760, rfl⟩
abbrev main_v1210 : Ref sig .tc := ⟨.hbm, 1761, rfl⟩
abbrev main_v1211 : Ref sig .tc := ⟨.hbm, 1762, rfl⟩
abbrev main_v1212 : Ref sig .tc := ⟨.hbm, 1763, rfl⟩
abbrev main_c_393 : Ref sig .tc := ⟨.hbm, 1764, rfl⟩
abbrev main_v1213 : Ref sig .tc := ⟨.hbm, 1765, rfl⟩
abbrev main_v1214 : Ref sig .tc := ⟨.hbm, 1766, rfl⟩
abbrev main_v1215 : Ref sig .tc := ⟨.hbm, 1767, rfl⟩
abbrev main_c_394 : Ref sig .tc := ⟨.hbm, 1768, rfl⟩
abbrev main_c_395 : Ref sig .tc := ⟨.hbm, 1769, rfl⟩
abbrev main_call38_v0 : Ref sig .tc := ⟨.hbm, 1770, rfl⟩
abbrev main_call38_v1 : Ref sig .tc := ⟨.hbm, 1771, rfl⟩
abbrev main_call38_v2 : Ref sig .tc := ⟨.hbm, 1772, rfl⟩
abbrev main_call38_v3 : Ref sig .tc := ⟨.hbm, 1773, rfl⟩
abbrev main_call38_v4 : Ref sig .tc := ⟨.hbm, 1774, rfl⟩
abbrev main_v1216 : Ref sig .tc := ⟨.hbm, 1775, rfl⟩
abbrev main_c_396 : Ref sig .tc := ⟨.hbm, 1776, rfl⟩
abbrev main_v1217 : Ref sig .tc := ⟨.hbm, 1777, rfl⟩
abbrev main_v1218 : Ref sig .tc := ⟨.hbm, 1778, rfl⟩
abbrev main_c_397 : Ref sig .tc := ⟨.hbm, 1779, rfl⟩
abbrev main_v1219 : Ref sig .tc := ⟨.hbm, 1780, rfl⟩
abbrev main_v1220 : Ref sig .tc := ⟨.hbm, 1781, rfl⟩
abbrev main_v1221 : Ref sig .tc := ⟨.hbm, 1782, rfl⟩
abbrev main_v1222 : Ref sig .tc := ⟨.hbm, 1783, rfl⟩
abbrev main_v1223 : Ref sig .tc := ⟨.hbm, 1784, rfl⟩
abbrev main_c_398 : Ref sig .tc := ⟨.hbm, 1785, rfl⟩
abbrev main_v1224 : Ref sig .tc := ⟨.hbm, 1786, rfl⟩
abbrev main_v1225 : Ref sig .tc := ⟨.hbm, 1787, rfl⟩
abbrev main_v1226 : Ref sig .tc := ⟨.hbm, 1788, rfl⟩
abbrev main_v1227 : Ref sig .tc := ⟨.hbm, 1789, rfl⟩
abbrev main_c_399 : Ref sig .tc := ⟨.hbm, 1790, rfl⟩
abbrev main_v1228 : Ref sig .tc := ⟨.hbm, 1791, rfl⟩
abbrev main_v1229 : Ref sig .tc := ⟨.hbm, 1792, rfl⟩
abbrev main_c_400 : Ref sig .tc := ⟨.hbm, 1793, rfl⟩
abbrev main_v1230 : Ref sig .tc := ⟨.hbm, 1794, rfl⟩
abbrev main_v1231 : Ref sig .tc := ⟨.hbm, 1795, rfl⟩
abbrev main_c_401 : Ref sig .tc := ⟨.hbm, 1796, rfl⟩
abbrev main_v1232 : Ref sig .tc := ⟨.hbm, 1797, rfl⟩
abbrev main_v1233 : Ref sig .tc := ⟨.hbm, 1798, rfl⟩
abbrev main_v1234 : Ref sig .tc := ⟨.hbm, 1799, rfl⟩
abbrev main_v1235 : Ref sig .tc := ⟨.hbm, 1800, rfl⟩
abbrev main_v1236 : Ref sig .tc := ⟨.hbm, 1801, rfl⟩
abbrev main_cst_402 : Ref sig .tc := ⟨.hbm, 1802, rfl⟩
abbrev main_call39_v0 : Ref sig .tc := ⟨.hbm, 1803, rfl⟩
abbrev main_call39_v1 : Ref sig .tc := ⟨.hbm, 1804, rfl⟩
abbrev main_call39_v2 : Ref sig .tc := ⟨.hbm, 1805, rfl⟩
abbrev main_v1237 : Ref sig .tc := ⟨.hbm, 1806, rfl⟩
abbrev main_v1238 : Ref sig .tc := ⟨.hbm, 1807, rfl⟩
abbrev main_v1239 : Ref sig .tc := ⟨.hbm, 1808, rfl⟩
abbrev main_v1240 : Ref sig .tc := ⟨.hbm, 1809, rfl⟩
abbrev main_v1241 : Ref sig .tc := ⟨.hbm, 1810, rfl⟩
abbrev main_v1242 : Ref sig .tc := ⟨.hbm, 1811, rfl⟩
abbrev main_v1243 : Ref sig .tc := ⟨.hbm, 1812, rfl⟩
abbrev main_c_403 : Ref sig .tc := ⟨.hbm, 1813, rfl⟩
abbrev main_v1244 : Ref sig .tc := ⟨.hbm, 1814, rfl⟩
abbrev main_v1245 : Ref sig .tc := ⟨.hbm, 1815, rfl⟩
abbrev main_v1246 : Ref sig .tc := ⟨.hbm, 1816, rfl⟩
abbrev main_v1247 : Ref sig .tc := ⟨.hbm, 1817, rfl⟩
abbrev main_c_404 : Ref sig .tc := ⟨.hbm, 1818, rfl⟩
abbrev main_v1248 : Ref sig .tc := ⟨.hbm, 1819, rfl⟩
abbrev main_v1249 : Ref sig .tc := ⟨.hbm, 1820, rfl⟩
abbrev main_v1250 : Ref sig .tc := ⟨.hbm, 1821, rfl⟩
abbrev main_v1251 : Ref sig .tc := ⟨.hbm, 1822, rfl⟩
abbrev main_c_405 : Ref sig .tc := ⟨.hbm, 1823, rfl⟩
abbrev main_v1252 : Ref sig .tc := ⟨.hbm, 1824, rfl⟩
abbrev main_v1253 : Ref sig .tc := ⟨.hbm, 1825, rfl⟩
abbrev main_c_406 : Ref sig .tc := ⟨.hbm, 1826, rfl⟩
abbrev main_v1254 : Ref sig .tc := ⟨.hbm, 1827, rfl⟩
abbrev main_v1255 : Ref sig .tc := ⟨.hbm, 1828, rfl⟩
abbrev main_c_407 : Ref sig .tc := ⟨.hbm, 1829, rfl⟩
abbrev main_v1256 : Ref sig .tc := ⟨.hbm, 1830, rfl⟩
abbrev main_v1257 : Ref sig .tc := ⟨.hbm, 1831, rfl⟩
abbrev main_v1258 : Ref sig .tc := ⟨.hbm, 1832, rfl⟩
abbrev main_c_408 : Ref sig .tc := ⟨.hbm, 1833, rfl⟩
abbrev main_v1259 : Ref sig .tc := ⟨.hbm, 1834, rfl⟩
abbrev main_v1260 : Ref sig .tc := ⟨.hbm, 1835, rfl⟩
abbrev main_v1261 : Ref sig .tc := ⟨.hbm, 1836, rfl⟩
abbrev main_c_409 : Ref sig .tc := ⟨.hbm, 1837, rfl⟩
abbrev main_v1262 : Ref sig .tc := ⟨.hbm, 1838, rfl⟩
abbrev main_v1263 : Ref sig .tc := ⟨.hbm, 1839, rfl⟩
abbrev main_v1264 : Ref sig .tc := ⟨.hbm, 1840, rfl⟩
abbrev main_c_410 : Ref sig .tc := ⟨.hbm, 1841, rfl⟩
abbrev main_v1265 : Ref sig .tc := ⟨.hbm, 1842, rfl⟩
abbrev main_v1266 : Ref sig .tc := ⟨.hbm, 1843, rfl⟩
abbrev main_v1267 : Ref sig .tc := ⟨.hbm, 1844, rfl⟩
abbrev main_c_411 : Ref sig .tc := ⟨.hbm, 1845, rfl⟩
abbrev main_v1268 : Ref sig .tc := ⟨.hbm, 1846, rfl⟩
abbrev main_v1269 : Ref sig .tc := ⟨.hbm, 1847, rfl⟩
abbrev main_v1270 : Ref sig .tc := ⟨.hbm, 1848, rfl⟩
abbrev main_c_412 : Ref sig .tc := ⟨.hbm, 1849, rfl⟩
abbrev main_v1271 : Ref sig .tc := ⟨.hbm, 1850, rfl⟩
abbrev main_v1272 : Ref sig .tc := ⟨.hbm, 1851, rfl⟩
abbrev main_v1273 : Ref sig .tc := ⟨.hbm, 1852, rfl⟩
abbrev main_c_413 : Ref sig .tc := ⟨.hbm, 1853, rfl⟩
abbrev main_v1274 : Ref sig .tc := ⟨.hbm, 1854, rfl⟩
abbrev main_v1275 : Ref sig .tc := ⟨.hbm, 1855, rfl⟩
abbrev main_v1276 : Ref sig .tc := ⟨.hbm, 1856, rfl⟩
abbrev main_c_414 : Ref sig .tc := ⟨.hbm, 1857, rfl⟩
abbrev main_c_415 : Ref sig .tc := ⟨.hbm, 1858, rfl⟩
abbrev main_call40_v0 : Ref sig .tc := ⟨.hbm, 1859, rfl⟩
abbrev main_call40_v1 : Ref sig .tc := ⟨.hbm, 1860, rfl⟩
abbrev main_call40_v2 : Ref sig .tc := ⟨.hbm, 1861, rfl⟩
abbrev main_call40_v3 : Ref sig .tc := ⟨.hbm, 1862, rfl⟩
abbrev main_call40_v4 : Ref sig .tc := ⟨.hbm, 1863, rfl⟩
abbrev main_v1277 : Ref sig .tc := ⟨.hbm, 1864, rfl⟩
abbrev main_c_416 : Ref sig .tc := ⟨.hbm, 1865, rfl⟩
abbrev main_v1278 : Ref sig .tc := ⟨.hbm, 1866, rfl⟩
abbrev main_v1279 : Ref sig .tc := ⟨.hbm, 1867, rfl⟩
abbrev main_c_417 : Ref sig .tc := ⟨.hbm, 1868, rfl⟩
abbrev main_v1280 : Ref sig .tc := ⟨.hbm, 1869, rfl⟩
abbrev main_v1281 : Ref sig .tc := ⟨.hbm, 1870, rfl⟩
abbrev main_v1282 : Ref sig .tc := ⟨.hbm, 1871, rfl⟩
abbrev main_v1283 : Ref sig .tc := ⟨.hbm, 1872, rfl⟩
abbrev main_v1284 : Ref sig .tc := ⟨.hbm, 1873, rfl⟩
abbrev main_c_418 : Ref sig .tc := ⟨.hbm, 1874, rfl⟩
abbrev main_v1285 : Ref sig .tc := ⟨.hbm, 1875, rfl⟩
abbrev main_v1286 : Ref sig .tc := ⟨.hbm, 1876, rfl⟩
abbrev main_v1287 : Ref sig .tc := ⟨.hbm, 1877, rfl⟩
abbrev main_v1288 : Ref sig .tc := ⟨.hbm, 1878, rfl⟩
abbrev main_c_419 : Ref sig .tc := ⟨.hbm, 1879, rfl⟩
abbrev main_v1289 : Ref sig .tc := ⟨.hbm, 1880, rfl⟩
abbrev main_v1290 : Ref sig .tc := ⟨.hbm, 1881, rfl⟩
abbrev main_c_420 : Ref sig .tc := ⟨.hbm, 1882, rfl⟩
abbrev main_v1291 : Ref sig .tc := ⟨.hbm, 1883, rfl⟩
abbrev main_v1292 : Ref sig .tc := ⟨.hbm, 1884, rfl⟩
abbrev main_c_421 : Ref sig .tc := ⟨.hbm, 1885, rfl⟩
abbrev main_v1293 : Ref sig .tc := ⟨.hbm, 1886, rfl⟩
abbrev main_v1294 : Ref sig .tc := ⟨.hbm, 1887, rfl⟩
abbrev main_v1295 : Ref sig .tc := ⟨.hbm, 1888, rfl⟩
abbrev main_v1296 : Ref sig .tc := ⟨.hbm, 1889, rfl⟩
abbrev main_v1297 : Ref sig .tc := ⟨.hbm, 1890, rfl⟩
abbrev main_cst_422 : Ref sig .tc := ⟨.hbm, 1891, rfl⟩
abbrev main_call41_v0 : Ref sig .tc := ⟨.hbm, 1892, rfl⟩
abbrev main_call41_v1 : Ref sig .tc := ⟨.hbm, 1893, rfl⟩
abbrev main_call41_v2 : Ref sig .tc := ⟨.hbm, 1894, rfl⟩
abbrev main_v1298 : Ref sig .tc := ⟨.hbm, 1895, rfl⟩
abbrev main_v1299 : Ref sig .tc := ⟨.hbm, 1896, rfl⟩
abbrev main_v1300 : Ref sig .tc := ⟨.hbm, 1897, rfl⟩
abbrev main_v1301 : Ref sig .tc := ⟨.hbm, 1898, rfl⟩
abbrev main_v1302 : Ref sig .tc := ⟨.hbm, 1899, rfl⟩
abbrev main_v1303 : Ref sig .tc := ⟨.hbm, 1900, rfl⟩
abbrev main_v1304 : Ref sig .tc := ⟨.hbm, 1901, rfl⟩
abbrev main_c_423 : Ref sig .tc := ⟨.hbm, 1902, rfl⟩
abbrev main_v1305 : Ref sig .tc := ⟨.hbm, 1903, rfl⟩
abbrev main_v1306 : Ref sig .tc := ⟨.hbm, 1904, rfl⟩
abbrev main_v1307 : Ref sig .tc := ⟨.hbm, 1905, rfl⟩
abbrev main_v1308 : Ref sig .tc := ⟨.hbm, 1906, rfl⟩
abbrev main_c_424 : Ref sig .tc := ⟨.hbm, 1907, rfl⟩
abbrev main_v1309 : Ref sig .tc := ⟨.hbm, 1908, rfl⟩
abbrev main_v1310 : Ref sig .tc := ⟨.hbm, 1909, rfl⟩
abbrev main_v1311 : Ref sig .tc := ⟨.hbm, 1910, rfl⟩
abbrev main_v1312 : Ref sig .tc := ⟨.hbm, 1911, rfl⟩
abbrev main_c_425 : Ref sig .tc := ⟨.hbm, 1912, rfl⟩
abbrev main_v1313 : Ref sig .tc := ⟨.hbm, 1913, rfl⟩
abbrev main_v1314 : Ref sig .tc := ⟨.hbm, 1914, rfl⟩
abbrev main_c_426 : Ref sig .tc := ⟨.hbm, 1915, rfl⟩
abbrev main_v1315 : Ref sig .tc := ⟨.hbm, 1916, rfl⟩
abbrev main_v1316 : Ref sig .tc := ⟨.hbm, 1917, rfl⟩
abbrev main_c_427 : Ref sig .tc := ⟨.hbm, 1918, rfl⟩
abbrev main_v1317 : Ref sig .tc := ⟨.hbm, 1919, rfl⟩
abbrev main_v1318 : Ref sig .tc := ⟨.hbm, 1920, rfl⟩
abbrev main_v1319 : Ref sig .tc := ⟨.hbm, 1921, rfl⟩
abbrev main_c_428 : Ref sig .tc := ⟨.hbm, 1922, rfl⟩
abbrev main_v1320 : Ref sig .tc := ⟨.hbm, 1923, rfl⟩
abbrev main_v1321 : Ref sig .tc := ⟨.hbm, 1924, rfl⟩
abbrev main_v1322 : Ref sig .tc := ⟨.hbm, 1925, rfl⟩
abbrev main_c_429 : Ref sig .tc := ⟨.hbm, 1926, rfl⟩
abbrev main_v1323 : Ref sig .tc := ⟨.hbm, 1927, rfl⟩
abbrev main_v1324 : Ref sig .tc := ⟨.hbm, 1928, rfl⟩
abbrev main_v1325 : Ref sig .tc := ⟨.hbm, 1929, rfl⟩
abbrev main_c_430 : Ref sig .tc := ⟨.hbm, 1930, rfl⟩
abbrev main_v1326 : Ref sig .tc := ⟨.hbm, 1931, rfl⟩
abbrev main_v1327 : Ref sig .tc := ⟨.hbm, 1932, rfl⟩
abbrev main_v1328 : Ref sig .tc := ⟨.hbm, 1933, rfl⟩
abbrev main_c_431 : Ref sig .tc := ⟨.hbm, 1934, rfl⟩
abbrev main_v1329 : Ref sig .tc := ⟨.hbm, 1935, rfl⟩
abbrev main_v1330 : Ref sig .tc := ⟨.hbm, 1936, rfl⟩
abbrev main_v1331 : Ref sig .tc := ⟨.hbm, 1937, rfl⟩
abbrev main_c_432 : Ref sig .tc := ⟨.hbm, 1938, rfl⟩
abbrev main_v1332 : Ref sig .tc := ⟨.hbm, 1939, rfl⟩
abbrev main_v1333 : Ref sig .tc := ⟨.hbm, 1940, rfl⟩
abbrev main_v1334 : Ref sig .tc := ⟨.hbm, 1941, rfl⟩
abbrev main_c_433 : Ref sig .tc := ⟨.hbm, 1942, rfl⟩
abbrev main_v1335 : Ref sig .tc := ⟨.hbm, 1943, rfl⟩
abbrev main_v1336 : Ref sig .tc := ⟨.hbm, 1944, rfl⟩
abbrev main_v1337 : Ref sig .tc := ⟨.hbm, 1945, rfl⟩
abbrev main_c_434 : Ref sig .tc := ⟨.hbm, 1946, rfl⟩
abbrev main_c_435 : Ref sig .tc := ⟨.hbm, 1947, rfl⟩
abbrev main_call42_v0 : Ref sig .tc := ⟨.hbm, 1948, rfl⟩
abbrev main_call42_v1 : Ref sig .tc := ⟨.hbm, 1949, rfl⟩
abbrev main_call42_v2 : Ref sig .tc := ⟨.hbm, 1950, rfl⟩
abbrev main_call42_v3 : Ref sig .tc := ⟨.hbm, 1951, rfl⟩
abbrev main_call42_v4 : Ref sig .tc := ⟨.hbm, 1952, rfl⟩
abbrev main_v1338 : Ref sig .tc := ⟨.hbm, 1953, rfl⟩
abbrev main_c_436 : Ref sig .tc := ⟨.hbm, 1954, rfl⟩
abbrev main_v1339 : Ref sig .tc := ⟨.hbm, 1955, rfl⟩
abbrev main_v1340 : Ref sig .tc := ⟨.hbm, 1956, rfl⟩
abbrev main_c_437 : Ref sig .tc := ⟨.hbm, 1957, rfl⟩
abbrev main_v1341 : Ref sig .tc := ⟨.hbm, 1958, rfl⟩
abbrev main_v1342 : Ref sig .tc := ⟨.hbm, 1959, rfl⟩
abbrev main_v1343 : Ref sig .tc := ⟨.hbm, 1960, rfl⟩
abbrev main_v1344 : Ref sig .tc := ⟨.hbm, 1961, rfl⟩
abbrev main_v1345 : Ref sig .tc := ⟨.hbm, 1962, rfl⟩
abbrev main_c_438 : Ref sig .tc := ⟨.hbm, 1963, rfl⟩
abbrev main_v1346 : Ref sig .tc := ⟨.hbm, 1964, rfl⟩
abbrev main_v1347 : Ref sig .tc := ⟨.hbm, 1965, rfl⟩
abbrev main_v1348 : Ref sig .tc := ⟨.hbm, 1966, rfl⟩
abbrev main_v1349 : Ref sig .tc := ⟨.hbm, 1967, rfl⟩
abbrev main_c_439 : Ref sig .tc := ⟨.hbm, 1968, rfl⟩
abbrev main_v1350 : Ref sig .tc := ⟨.hbm, 1969, rfl⟩
abbrev main_v1351 : Ref sig .tc := ⟨.hbm, 1970, rfl⟩
abbrev main_c_440 : Ref sig .tc := ⟨.hbm, 1971, rfl⟩
abbrev main_v1352 : Ref sig .tc := ⟨.hbm, 1972, rfl⟩
abbrev main_v1353 : Ref sig .tc := ⟨.hbm, 1973, rfl⟩
abbrev main_c_441 : Ref sig .tc := ⟨.hbm, 1974, rfl⟩
abbrev main_v1354 : Ref sig .tc := ⟨.hbm, 1975, rfl⟩
abbrev main_v1355 : Ref sig .tc := ⟨.hbm, 1976, rfl⟩
abbrev main_v1356 : Ref sig .tc := ⟨.hbm, 1977, rfl⟩
abbrev main_v1357 : Ref sig .tc := ⟨.hbm, 1978, rfl⟩
abbrev main_v1358 : Ref sig .tc := ⟨.hbm, 1979, rfl⟩
abbrev main_cst_442 : Ref sig .tc := ⟨.hbm, 1980, rfl⟩
abbrev main_call43_v0 : Ref sig .tc := ⟨.hbm, 1981, rfl⟩
abbrev main_call43_v1 : Ref sig .tc := ⟨.hbm, 1982, rfl⟩
abbrev main_call43_v2 : Ref sig .tc := ⟨.hbm, 1983, rfl⟩
abbrev main_v1359 : Ref sig .tc := ⟨.hbm, 1984, rfl⟩
abbrev main_v1360 : Ref sig .tc := ⟨.hbm, 1985, rfl⟩
abbrev main_v1361 : Ref sig .tc := ⟨.hbm, 1986, rfl⟩
abbrev main_v1362 : Ref sig .tc := ⟨.hbm, 1987, rfl⟩
abbrev main_v1363 : Ref sig .tc := ⟨.hbm, 1988, rfl⟩
abbrev main_v1364 : Ref sig .tc := ⟨.hbm, 1989, rfl⟩
abbrev main_v1365 : Ref sig .tc := ⟨.hbm, 1990, rfl⟩
abbrev main_c_443 : Ref sig .tc := ⟨.hbm, 1991, rfl⟩
abbrev main_v1366 : Ref sig .tc := ⟨.hbm, 1992, rfl⟩
abbrev main_v1367 : Ref sig .tc := ⟨.hbm, 1993, rfl⟩
abbrev main_v1368 : Ref sig .tc := ⟨.hbm, 1994, rfl⟩
abbrev main_v1369 : Ref sig .tc := ⟨.hbm, 1995, rfl⟩
abbrev main_c_444 : Ref sig .tc := ⟨.hbm, 1996, rfl⟩
abbrev main_v1370 : Ref sig .tc := ⟨.hbm, 1997, rfl⟩
abbrev main_v1371 : Ref sig .tc := ⟨.hbm, 1998, rfl⟩
abbrev main_v1372 : Ref sig .tc := ⟨.hbm, 1999, rfl⟩
abbrev main_v1373 : Ref sig .tc := ⟨.hbm, 2000, rfl⟩
abbrev main_c_445 : Ref sig .tc := ⟨.hbm, 2001, rfl⟩
abbrev main_v1374 : Ref sig .tc := ⟨.hbm, 2002, rfl⟩
abbrev main_v1375 : Ref sig .tc := ⟨.hbm, 2003, rfl⟩
abbrev main_c_446 : Ref sig .tc := ⟨.hbm, 2004, rfl⟩
abbrev main_v1376 : Ref sig .tc := ⟨.hbm, 2005, rfl⟩
abbrev main_v1377 : Ref sig .tc := ⟨.hbm, 2006, rfl⟩
abbrev main_c_447 : Ref sig .tc := ⟨.hbm, 2007, rfl⟩
abbrev main_v1378 : Ref sig .tc := ⟨.hbm, 2008, rfl⟩
abbrev main_v1379 : Ref sig .tc := ⟨.hbm, 2009, rfl⟩
abbrev main_v1380 : Ref sig .tc := ⟨.hbm, 2010, rfl⟩
abbrev main_c_448 : Ref sig .tc := ⟨.hbm, 2011, rfl⟩
abbrev main_v1381 : Ref sig .tc := ⟨.hbm, 2012, rfl⟩
abbrev main_v1382 : Ref sig .tc := ⟨.hbm, 2013, rfl⟩
abbrev main_v1383 : Ref sig .tc := ⟨.hbm, 2014, rfl⟩
abbrev main_c_449 : Ref sig .tc := ⟨.hbm, 2015, rfl⟩
abbrev main_v1384 : Ref sig .tc := ⟨.hbm, 2016, rfl⟩
abbrev main_v1385 : Ref sig .tc := ⟨.hbm, 2017, rfl⟩
abbrev main_v1386 : Ref sig .tc := ⟨.hbm, 2018, rfl⟩
abbrev main_c_450 : Ref sig .tc := ⟨.hbm, 2019, rfl⟩
abbrev main_v1387 : Ref sig .tc := ⟨.hbm, 2020, rfl⟩
abbrev main_v1388 : Ref sig .tc := ⟨.hbm, 2021, rfl⟩
abbrev main_v1389 : Ref sig .tc := ⟨.hbm, 2022, rfl⟩
abbrev main_c_451 : Ref sig .tc := ⟨.hbm, 2023, rfl⟩
abbrev main_v1390 : Ref sig .tc := ⟨.hbm, 2024, rfl⟩
abbrev main_v1391 : Ref sig .tc := ⟨.hbm, 2025, rfl⟩
abbrev main_v1392 : Ref sig .tc := ⟨.hbm, 2026, rfl⟩
abbrev main_c_452 : Ref sig .tc := ⟨.hbm, 2027, rfl⟩
abbrev main_v1393 : Ref sig .tc := ⟨.hbm, 2028, rfl⟩
abbrev main_v1394 : Ref sig .tc := ⟨.hbm, 2029, rfl⟩
abbrev main_v1395 : Ref sig .tc := ⟨.hbm, 2030, rfl⟩
abbrev main_c_453 : Ref sig .tc := ⟨.hbm, 2031, rfl⟩
abbrev main_v1396 : Ref sig .tc := ⟨.hbm, 2032, rfl⟩
abbrev main_v1397 : Ref sig .tc := ⟨.hbm, 2033, rfl⟩
abbrev main_v1398 : Ref sig .tc := ⟨.hbm, 2034, rfl⟩
abbrev main_c_454 : Ref sig .tc := ⟨.hbm, 2035, rfl⟩
abbrev main_c_455 : Ref sig .tc := ⟨.hbm, 2036, rfl⟩
abbrev main_call44_v0 : Ref sig .tc := ⟨.hbm, 2037, rfl⟩
abbrev main_call44_v1 : Ref sig .tc := ⟨.hbm, 2038, rfl⟩
abbrev main_call44_v2 : Ref sig .tc := ⟨.hbm, 2039, rfl⟩
abbrev main_call44_v3 : Ref sig .tc := ⟨.hbm, 2040, rfl⟩
abbrev main_call44_v4 : Ref sig .tc := ⟨.hbm, 2041, rfl⟩
abbrev main_v1399 : Ref sig .tc := ⟨.hbm, 2042, rfl⟩
abbrev main_c_456 : Ref sig .tc := ⟨.hbm, 2043, rfl⟩
abbrev main_v1400 : Ref sig .tc := ⟨.hbm, 2044, rfl⟩
abbrev main_v1401 : Ref sig .tc := ⟨.hbm, 2045, rfl⟩
abbrev main_c_457 : Ref sig .tc := ⟨.hbm, 2046, rfl⟩
abbrev main_v1402 : Ref sig .tc := ⟨.hbm, 2047, rfl⟩
abbrev main_v1403 : Ref sig .tc := ⟨.hbm, 2048, rfl⟩
abbrev main_v1404 : Ref sig .tc := ⟨.hbm, 2049, rfl⟩
abbrev main_v1405 : Ref sig .tc := ⟨.hbm, 2050, rfl⟩
abbrev main_v1406 : Ref sig .tc := ⟨.hbm, 2051, rfl⟩
abbrev main_c_458 : Ref sig .tc := ⟨.hbm, 2052, rfl⟩
abbrev main_v1407 : Ref sig .tc := ⟨.hbm, 2053, rfl⟩
abbrev main_v1408 : Ref sig .tc := ⟨.hbm, 2054, rfl⟩
abbrev main_v1409 : Ref sig .tc := ⟨.hbm, 2055, rfl⟩
abbrev main_v1410 : Ref sig .tc := ⟨.hbm, 2056, rfl⟩
abbrev main_c_459 : Ref sig .tc := ⟨.hbm, 2057, rfl⟩
abbrev main_v1411 : Ref sig .tc := ⟨.hbm, 2058, rfl⟩
abbrev main_v1412 : Ref sig .tc := ⟨.hbm, 2059, rfl⟩
abbrev main_c_460 : Ref sig .tc := ⟨.hbm, 2060, rfl⟩
abbrev main_v1413 : Ref sig .tc := ⟨.hbm, 2061, rfl⟩
abbrev main_v1414 : Ref sig .tc := ⟨.hbm, 2062, rfl⟩
abbrev main_c_461 : Ref sig .tc := ⟨.hbm, 2063, rfl⟩
abbrev main_v1415 : Ref sig .tc := ⟨.hbm, 2064, rfl⟩
abbrev main_v1416 : Ref sig .tc := ⟨.hbm, 2065, rfl⟩
abbrev main_v1417 : Ref sig .tc := ⟨.hbm, 2066, rfl⟩
abbrev main_v1418 : Ref sig .tc := ⟨.hbm, 2067, rfl⟩
abbrev main_v1419 : Ref sig .tc := ⟨.hbm, 2068, rfl⟩
abbrev main_cst_462 : Ref sig .tc := ⟨.hbm, 2069, rfl⟩
abbrev main_call45_v0 : Ref sig .tc := ⟨.hbm, 2070, rfl⟩
abbrev main_call45_v1 : Ref sig .tc := ⟨.hbm, 2071, rfl⟩
abbrev main_call45_v2 : Ref sig .tc := ⟨.hbm, 2072, rfl⟩
abbrev main_v1420 : Ref sig .tc := ⟨.hbm, 2073, rfl⟩
abbrev main_v1421 : Ref sig .tc := ⟨.hbm, 2074, rfl⟩
abbrev main_v1422 : Ref sig .tc := ⟨.hbm, 2075, rfl⟩
abbrev main_v1423 : Ref sig .tc := ⟨.hbm, 2076, rfl⟩
abbrev main_v1424 : Ref sig .tc := ⟨.hbm, 2077, rfl⟩
abbrev main_v1425 : Ref sig .tc := ⟨.hbm, 2078, rfl⟩
abbrev main_v1426 : Ref sig .tc := ⟨.hbm, 2079, rfl⟩
abbrev main_c_463 : Ref sig .tc := ⟨.hbm, 2080, rfl⟩
abbrev main_v1427 : Ref sig .tc := ⟨.hbm, 2081, rfl⟩
abbrev main_v1428 : Ref sig .tc := ⟨.hbm, 2082, rfl⟩
abbrev main_v1429 : Ref sig .tc := ⟨.hbm, 2083, rfl⟩
abbrev main_v1430 : Ref sig .tc := ⟨.hbm, 2084, rfl⟩
abbrev main_c_464 : Ref sig .tc := ⟨.hbm, 2085, rfl⟩
abbrev main_v1431 : Ref sig .tc := ⟨.hbm, 2086, rfl⟩
abbrev main_v1432 : Ref sig .tc := ⟨.hbm, 2087, rfl⟩
abbrev main_v1433 : Ref sig .tc := ⟨.hbm, 2088, rfl⟩
abbrev main_v1434 : Ref sig .tc := ⟨.hbm, 2089, rfl⟩
abbrev main_c_465 : Ref sig .tc := ⟨.hbm, 2090, rfl⟩
abbrev main_v1435 : Ref sig .tc := ⟨.hbm, 2091, rfl⟩
abbrev main_v1436 : Ref sig .tc := ⟨.hbm, 2092, rfl⟩
abbrev main_c_466 : Ref sig .tc := ⟨.hbm, 2093, rfl⟩
abbrev main_v1437 : Ref sig .tc := ⟨.hbm, 2094, rfl⟩
abbrev main_v1438 : Ref sig .tc := ⟨.hbm, 2095, rfl⟩
abbrev main_c_467 : Ref sig .tc := ⟨.hbm, 2096, rfl⟩
abbrev main_v1439 : Ref sig .tc := ⟨.hbm, 2097, rfl⟩
abbrev main_v1440 : Ref sig .tc := ⟨.hbm, 2098, rfl⟩
abbrev main_v1441 : Ref sig .tc := ⟨.hbm, 2099, rfl⟩
abbrev main_c_468 : Ref sig .tc := ⟨.hbm, 2100, rfl⟩
abbrev main_v1442 : Ref sig .tc := ⟨.hbm, 2101, rfl⟩
abbrev main_v1443 : Ref sig .tc := ⟨.hbm, 2102, rfl⟩
abbrev main_v1444 : Ref sig .tc := ⟨.hbm, 2103, rfl⟩
abbrev main_c_469 : Ref sig .tc := ⟨.hbm, 2104, rfl⟩
abbrev main_v1445 : Ref sig .tc := ⟨.hbm, 2105, rfl⟩
abbrev main_v1446 : Ref sig .tc := ⟨.hbm, 2106, rfl⟩
abbrev main_v1447 : Ref sig .tc := ⟨.hbm, 2107, rfl⟩
abbrev main_c_470 : Ref sig .tc := ⟨.hbm, 2108, rfl⟩
abbrev main_v1448 : Ref sig .tc := ⟨.hbm, 2109, rfl⟩
abbrev main_v1449 : Ref sig .tc := ⟨.hbm, 2110, rfl⟩
abbrev main_v1450 : Ref sig .tc := ⟨.hbm, 2111, rfl⟩
abbrev main_c_471 : Ref sig .tc := ⟨.hbm, 2112, rfl⟩
abbrev main_v1451 : Ref sig .tc := ⟨.hbm, 2113, rfl⟩
abbrev main_v1452 : Ref sig .tc := ⟨.hbm, 2114, rfl⟩
abbrev main_v1453 : Ref sig .tc := ⟨.hbm, 2115, rfl⟩
abbrev main_c_472 : Ref sig .tc := ⟨.hbm, 2116, rfl⟩
abbrev main_v1454 : Ref sig .tc := ⟨.hbm, 2117, rfl⟩
abbrev main_v1455 : Ref sig .tc := ⟨.hbm, 2118, rfl⟩
abbrev main_v1456 : Ref sig .tc := ⟨.hbm, 2119, rfl⟩
abbrev main_c_473 : Ref sig .tc := ⟨.hbm, 2120, rfl⟩
abbrev main_v1457 : Ref sig .tc := ⟨.hbm, 2121, rfl⟩
abbrev main_v1458 : Ref sig .tc := ⟨.hbm, 2122, rfl⟩
abbrev main_v1459 : Ref sig .tc := ⟨.hbm, 2123, rfl⟩
abbrev main_c_474 : Ref sig .tc := ⟨.hbm, 2124, rfl⟩
abbrev main_c_475 : Ref sig .tc := ⟨.hbm, 2125, rfl⟩
abbrev main_call46_v0 : Ref sig .tc := ⟨.hbm, 2126, rfl⟩
abbrev main_call46_v1 : Ref sig .tc := ⟨.hbm, 2127, rfl⟩
abbrev main_call46_v2 : Ref sig .tc := ⟨.hbm, 2128, rfl⟩
abbrev main_call46_v3 : Ref sig .tc := ⟨.hbm, 2129, rfl⟩
abbrev main_call46_v4 : Ref sig .tc := ⟨.hbm, 2130, rfl⟩
abbrev main_v1460 : Ref sig .tc := ⟨.hbm, 2131, rfl⟩
abbrev main_c_476 : Ref sig .tc := ⟨.hbm, 2132, rfl⟩
abbrev main_v1461 : Ref sig .tc := ⟨.hbm, 2133, rfl⟩
abbrev main_v1462 : Ref sig .tc := ⟨.hbm, 2134, rfl⟩
abbrev main_c_477 : Ref sig .tc := ⟨.hbm, 2135, rfl⟩
abbrev main_v1463 : Ref sig .tc := ⟨.hbm, 2136, rfl⟩
abbrev main_v1464 : Ref sig .tc := ⟨.hbm, 2137, rfl⟩
abbrev main_v1465 : Ref sig .tc := ⟨.hbm, 2138, rfl⟩
abbrev main_v1466 : Ref sig .tc := ⟨.hbm, 2139, rfl⟩
abbrev main_v1467 : Ref sig .tc := ⟨.hbm, 2140, rfl⟩
abbrev main_c_478 : Ref sig .tc := ⟨.hbm, 2141, rfl⟩
abbrev main_v1468 : Ref sig .tc := ⟨.hbm, 2142, rfl⟩
abbrev main_v1469 : Ref sig .tc := ⟨.hbm, 2143, rfl⟩
abbrev main_v1470 : Ref sig .tc := ⟨.hbm, 2144, rfl⟩
abbrev main_v1471 : Ref sig .tc := ⟨.hbm, 2145, rfl⟩
abbrev main_c_479 : Ref sig .tc := ⟨.hbm, 2146, rfl⟩
abbrev main_v1472 : Ref sig .tc := ⟨.hbm, 2147, rfl⟩
abbrev main_v1473 : Ref sig .tc := ⟨.hbm, 2148, rfl⟩
abbrev main_c_480 : Ref sig .tc := ⟨.hbm, 2149, rfl⟩
abbrev main_v1474 : Ref sig .tc := ⟨.hbm, 2150, rfl⟩
abbrev main_v1475 : Ref sig .tc := ⟨.hbm, 2151, rfl⟩
abbrev main_c_481 : Ref sig .tc := ⟨.hbm, 2152, rfl⟩
abbrev main_v1476 : Ref sig .tc := ⟨.hbm, 2153, rfl⟩
abbrev main_v1477 : Ref sig .tc := ⟨.hbm, 2154, rfl⟩
abbrev main_v1478 : Ref sig .tc := ⟨.hbm, 2155, rfl⟩
abbrev main_v1479 : Ref sig .tc := ⟨.hbm, 2156, rfl⟩
abbrev main_v1480 : Ref sig .tc := ⟨.hbm, 2157, rfl⟩
abbrev main_cst_482 : Ref sig .tc := ⟨.hbm, 2158, rfl⟩
abbrev main_call47_v0 : Ref sig .tc := ⟨.hbm, 2159, rfl⟩
abbrev main_call47_v1 : Ref sig .tc := ⟨.hbm, 2160, rfl⟩
abbrev main_call47_v2 : Ref sig .tc := ⟨.hbm, 2161, rfl⟩
abbrev main_v1481 : Ref sig .tc := ⟨.hbm, 2162, rfl⟩
abbrev main_v1482 : Ref sig .tc := ⟨.hbm, 2163, rfl⟩
abbrev main_v1483 : Ref sig .tc := ⟨.hbm, 2164, rfl⟩
abbrev main_v1484 : Ref sig .tc := ⟨.hbm, 2165, rfl⟩
abbrev main_v1485 : Ref sig .tc := ⟨.hbm, 2166, rfl⟩
abbrev main_v1486 : Ref sig .tc := ⟨.hbm, 2167, rfl⟩
abbrev main_v1487 : Ref sig .tc := ⟨.hbm, 2168, rfl⟩
abbrev main_c_483 : Ref sig .tc := ⟨.hbm, 2169, rfl⟩
abbrev main_v1488 : Ref sig .tc := ⟨.hbm, 2170, rfl⟩
abbrev main_v1489 : Ref sig .tc := ⟨.hbm, 2171, rfl⟩
abbrev main_v1490 : Ref sig .tc := ⟨.hbm, 2172, rfl⟩
abbrev main_v1491 : Ref sig .tc := ⟨.hbm, 2173, rfl⟩
abbrev main_c_484 : Ref sig .tc := ⟨.hbm, 2174, rfl⟩
abbrev main_v1492 : Ref sig .tc := ⟨.hbm, 2175, rfl⟩
abbrev main_v1493 : Ref sig .tc := ⟨.hbm, 2176, rfl⟩
abbrev main_v1494 : Ref sig .tc := ⟨.hbm, 2177, rfl⟩
abbrev main_v1495 : Ref sig .tc := ⟨.hbm, 2178, rfl⟩
abbrev main_c_485 : Ref sig .tc := ⟨.hbm, 2179, rfl⟩
abbrev main_v1496 : Ref sig .tc := ⟨.hbm, 2180, rfl⟩
abbrev main_v1497 : Ref sig .tc := ⟨.hbm, 2181, rfl⟩
abbrev main_c_486 : Ref sig .tc := ⟨.hbm, 2182, rfl⟩
abbrev main_v1498 : Ref sig .tc := ⟨.hbm, 2183, rfl⟩
abbrev main_v1499 : Ref sig .tc := ⟨.hbm, 2184, rfl⟩
abbrev main_c_487 : Ref sig .tc := ⟨.hbm, 2185, rfl⟩
abbrev main_v1500 : Ref sig .tc := ⟨.hbm, 2186, rfl⟩
abbrev main_v1501 : Ref sig .tc := ⟨.hbm, 2187, rfl⟩
abbrev main_v1502 : Ref sig .tc := ⟨.hbm, 2188, rfl⟩
abbrev main_c_488 : Ref sig .tc := ⟨.hbm, 2189, rfl⟩
abbrev main_v1503 : Ref sig .tc := ⟨.hbm, 2190, rfl⟩
abbrev main_v1504 : Ref sig .tc := ⟨.hbm, 2191, rfl⟩
abbrev main_v1505 : Ref sig .tc := ⟨.hbm, 2192, rfl⟩
abbrev main_c_489 : Ref sig .tc := ⟨.hbm, 2193, rfl⟩
abbrev main_v1506 : Ref sig .tc := ⟨.hbm, 2194, rfl⟩
abbrev main_v1507 : Ref sig .tc := ⟨.hbm, 2195, rfl⟩
abbrev main_v1508 : Ref sig .tc := ⟨.hbm, 2196, rfl⟩
abbrev main_c_490 : Ref sig .tc := ⟨.hbm, 2197, rfl⟩
abbrev main_v1509 : Ref sig .tc := ⟨.hbm, 2198, rfl⟩
abbrev main_v1510 : Ref sig .tc := ⟨.hbm, 2199, rfl⟩
abbrev main_v1511 : Ref sig .tc := ⟨.hbm, 2200, rfl⟩
abbrev main_c_491 : Ref sig .tc := ⟨.hbm, 2201, rfl⟩
abbrev main_v1512 : Ref sig .tc := ⟨.hbm, 2202, rfl⟩
abbrev main_v1513 : Ref sig .tc := ⟨.hbm, 2203, rfl⟩
abbrev main_v1514 : Ref sig .tc := ⟨.hbm, 2204, rfl⟩
abbrev main_c_492 : Ref sig .tc := ⟨.hbm, 2205, rfl⟩
abbrev main_v1515 : Ref sig .tc := ⟨.hbm, 2206, rfl⟩
abbrev main_v1516 : Ref sig .tc := ⟨.hbm, 2207, rfl⟩
abbrev main_v1517 : Ref sig .tc := ⟨.hbm, 2208, rfl⟩
abbrev main_c_493 : Ref sig .tc := ⟨.hbm, 2209, rfl⟩
abbrev main_v1518 : Ref sig .tc := ⟨.hbm, 2210, rfl⟩
abbrev main_v1519 : Ref sig .tc := ⟨.hbm, 2211, rfl⟩
abbrev main_v1520 : Ref sig .tc := ⟨.hbm, 2212, rfl⟩
abbrev main_c_494 : Ref sig .tc := ⟨.hbm, 2213, rfl⟩
abbrev main_c_495 : Ref sig .tc := ⟨.hbm, 2214, rfl⟩
abbrev main_call48_v0 : Ref sig .tc := ⟨.hbm, 2215, rfl⟩
abbrev main_call48_v1 : Ref sig .tc := ⟨.hbm, 2216, rfl⟩
abbrev main_call48_v2 : Ref sig .tc := ⟨.hbm, 2217, rfl⟩
abbrev main_call48_v3 : Ref sig .tc := ⟨.hbm, 2218, rfl⟩
abbrev main_call48_v4 : Ref sig .tc := ⟨.hbm, 2219, rfl⟩
abbrev main_v1521 : Ref sig .tc := ⟨.hbm, 2220, rfl⟩
abbrev main_c_496 : Ref sig .tc := ⟨.hbm, 2221, rfl⟩
abbrev main_v1522 : Ref sig .tc := ⟨.hbm, 2222, rfl⟩
abbrev main_v1523 : Ref sig .tc := ⟨.hbm, 2223, rfl⟩
abbrev main_c_497 : Ref sig .tc := ⟨.hbm, 2224, rfl⟩
abbrev main_v1524 : Ref sig .tc := ⟨.hbm, 2225, rfl⟩
abbrev main_v1525 : Ref sig .tc := ⟨.hbm, 2226, rfl⟩
abbrev main_v1526 : Ref sig .tc := ⟨.hbm, 2227, rfl⟩
abbrev main_v1527 : Ref sig .tc := ⟨.hbm, 2228, rfl⟩
abbrev main_v1528 : Ref sig .tc := ⟨.hbm, 2229, rfl⟩
abbrev main_c_498 : Ref sig .tc := ⟨.hbm, 2230, rfl⟩
abbrev main_v1529 : Ref sig .tc := ⟨.hbm, 2231, rfl⟩
abbrev main_v1530 : Ref sig .tc := ⟨.hbm, 2232, rfl⟩
abbrev main_v1531 : Ref sig .tc := ⟨.hbm, 2233, rfl⟩
abbrev main_v1532 : Ref sig .tc := ⟨.hbm, 2234, rfl⟩
abbrev main_c_499 : Ref sig .tc := ⟨.hbm, 2235, rfl⟩
abbrev main_v1533 : Ref sig .tc := ⟨.hbm, 2236, rfl⟩
abbrev main_v1534 : Ref sig .tc := ⟨.hbm, 2237, rfl⟩
abbrev main_c_500 : Ref sig .tc := ⟨.hbm, 2238, rfl⟩
abbrev main_v1535 : Ref sig .tc := ⟨.hbm, 2239, rfl⟩
abbrev main_v1536 : Ref sig .tc := ⟨.hbm, 2240, rfl⟩
abbrev main_c_501 : Ref sig .tc := ⟨.hbm, 2241, rfl⟩
abbrev main_v1537 : Ref sig .tc := ⟨.hbm, 2242, rfl⟩
abbrev main_v1538 : Ref sig .tc := ⟨.hbm, 2243, rfl⟩
abbrev main_v1539 : Ref sig .tc := ⟨.hbm, 2244, rfl⟩
abbrev main_v1540 : Ref sig .tc := ⟨.hbm, 2245, rfl⟩
abbrev main_v1541 : Ref sig .tc := ⟨.hbm, 2246, rfl⟩
abbrev main_cst_502 : Ref sig .tc := ⟨.hbm, 2247, rfl⟩
abbrev main_call49_v0 : Ref sig .tc := ⟨.hbm, 2248, rfl⟩
abbrev main_call49_v1 : Ref sig .tc := ⟨.hbm, 2249, rfl⟩
abbrev main_call49_v2 : Ref sig .tc := ⟨.hbm, 2250, rfl⟩
abbrev main_v1542 : Ref sig .tc := ⟨.hbm, 2251, rfl⟩
abbrev main_v1543 : Ref sig .tc := ⟨.hbm, 2252, rfl⟩
abbrev main_v1544 : Ref sig .tc := ⟨.hbm, 2253, rfl⟩
abbrev main_v1545 : Ref sig .tc := ⟨.hbm, 2254, rfl⟩
abbrev main_v1546 : Ref sig .tc := ⟨.hbm, 2255, rfl⟩
abbrev main_v1547 : Ref sig .tc := ⟨.hbm, 2256, rfl⟩
abbrev main_v1548 : Ref sig .tc := ⟨.hbm, 2257, rfl⟩
abbrev main_c_503 : Ref sig .tc := ⟨.hbm, 2258, rfl⟩
abbrev main_v1549 : Ref sig .tc := ⟨.hbm, 2259, rfl⟩
abbrev main_v1550 : Ref sig .tc := ⟨.hbm, 2260, rfl⟩
abbrev main_v1551 : Ref sig .tc := ⟨.hbm, 2261, rfl⟩
abbrev main_v1552 : Ref sig .tc := ⟨.hbm, 2262, rfl⟩
abbrev main_c_504 : Ref sig .tc := ⟨.hbm, 2263, rfl⟩
abbrev main_v1553 : Ref sig .tc := ⟨.hbm, 2264, rfl⟩
abbrev main_v1554 : Ref sig .tc := ⟨.hbm, 2265, rfl⟩
abbrev main_v1555 : Ref sig .tc := ⟨.hbm, 2266, rfl⟩
abbrev main_v1556 : Ref sig .tc := ⟨.hbm, 2267, rfl⟩
abbrev main_c_505 : Ref sig .tc := ⟨.hbm, 2268, rfl⟩
abbrev main_v1557 : Ref sig .tc := ⟨.hbm, 2269, rfl⟩
abbrev main_v1558 : Ref sig .tc := ⟨.hbm, 2270, rfl⟩
abbrev main_c_506 : Ref sig .tc := ⟨.hbm, 2271, rfl⟩
abbrev main_v1559 : Ref sig .tc := ⟨.hbm, 2272, rfl⟩
abbrev main_v1560 : Ref sig .tc := ⟨.hbm, 2273, rfl⟩
abbrev main_c_507 : Ref sig .tc := ⟨.hbm, 2274, rfl⟩
abbrev main_v1561 : Ref sig .tc := ⟨.hbm, 2275, rfl⟩
abbrev main_v1562 : Ref sig .tc := ⟨.hbm, 2276, rfl⟩
abbrev main_v1563 : Ref sig .tc := ⟨.hbm, 2277, rfl⟩
abbrev main_c_508 : Ref sig .tc := ⟨.hbm, 2278, rfl⟩
abbrev main_v1564 : Ref sig .tc := ⟨.hbm, 2279, rfl⟩
abbrev main_v1565 : Ref sig .tc := ⟨.hbm, 2280, rfl⟩
abbrev main_v1566 : Ref sig .tc := ⟨.hbm, 2281, rfl⟩
abbrev main_c_509 : Ref sig .tc := ⟨.hbm, 2282, rfl⟩
abbrev main_v1567 : Ref sig .tc := ⟨.hbm, 2283, rfl⟩
abbrev main_v1568 : Ref sig .tc := ⟨.hbm, 2284, rfl⟩
abbrev main_v1569 : Ref sig .tc := ⟨.hbm, 2285, rfl⟩
abbrev main_c_510 : Ref sig .tc := ⟨.hbm, 2286, rfl⟩
abbrev main_v1570 : Ref sig .tc := ⟨.hbm, 2287, rfl⟩
abbrev main_v1571 : Ref sig .tc := ⟨.hbm, 2288, rfl⟩
abbrev main_v1572 : Ref sig .tc := ⟨.hbm, 2289, rfl⟩
abbrev main_c_511 : Ref sig .tc := ⟨.hbm, 2290, rfl⟩
abbrev main_v1573 : Ref sig .tc := ⟨.hbm, 2291, rfl⟩
abbrev main_v1574 : Ref sig .tc := ⟨.hbm, 2292, rfl⟩
abbrev main_v1575 : Ref sig .tc := ⟨.hbm, 2293, rfl⟩
abbrev main_c_512 : Ref sig .tc := ⟨.hbm, 2294, rfl⟩
abbrev main_v1576 : Ref sig .tc := ⟨.hbm, 2295, rfl⟩
abbrev main_v1577 : Ref sig .tc := ⟨.hbm, 2296, rfl⟩
abbrev main_v1578 : Ref sig .tc := ⟨.hbm, 2297, rfl⟩
abbrev main_c_513 : Ref sig .tc := ⟨.hbm, 2298, rfl⟩
abbrev main_v1579 : Ref sig .tc := ⟨.hbm, 2299, rfl⟩
abbrev main_v1580 : Ref sig .tc := ⟨.hbm, 2300, rfl⟩
abbrev main_v1581 : Ref sig .tc := ⟨.hbm, 2301, rfl⟩
abbrev main_c_514 : Ref sig .tc := ⟨.hbm, 2302, rfl⟩
abbrev main_c_515 : Ref sig .tc := ⟨.hbm, 2303, rfl⟩
abbrev main_call50_v0 : Ref sig .tc := ⟨.hbm, 2304, rfl⟩
abbrev main_call50_v1 : Ref sig .tc := ⟨.hbm, 2305, rfl⟩
abbrev main_call50_v2 : Ref sig .tc := ⟨.hbm, 2306, rfl⟩
abbrev main_call50_v3 : Ref sig .tc := ⟨.hbm, 2307, rfl⟩
abbrev main_call50_v4 : Ref sig .tc := ⟨.hbm, 2308, rfl⟩
abbrev main_v1582 : Ref sig .tc := ⟨.hbm, 2309, rfl⟩
abbrev main_c_516 : Ref sig .tc := ⟨.hbm, 2310, rfl⟩
abbrev main_v1583 : Ref sig .tc := ⟨.hbm, 2311, rfl⟩
abbrev main_v1584 : Ref sig .tc := ⟨.hbm, 2312, rfl⟩
abbrev main_c_517 : Ref sig .tc := ⟨.hbm, 2313, rfl⟩
abbrev main_v1585 : Ref sig .tc := ⟨.hbm, 2314, rfl⟩
abbrev main_v1586 : Ref sig .tc := ⟨.hbm, 2315, rfl⟩
abbrev main_v1587 : Ref sig .tc := ⟨.hbm, 2316, rfl⟩
abbrev main_v1588 : Ref sig .tc := ⟨.hbm, 2317, rfl⟩
abbrev main_v1589 : Ref sig .tc := ⟨.hbm, 2318, rfl⟩
abbrev main_c_518 : Ref sig .tc := ⟨.hbm, 2319, rfl⟩
abbrev main_v1590 : Ref sig .tc := ⟨.hbm, 2320, rfl⟩
abbrev main_v1591 : Ref sig .tc := ⟨.hbm, 2321, rfl⟩
abbrev main_v1592 : Ref sig .tc := ⟨.hbm, 2322, rfl⟩
abbrev main_v1593 : Ref sig .tc := ⟨.hbm, 2323, rfl⟩
abbrev main_c_519 : Ref sig .tc := ⟨.hbm, 2324, rfl⟩
abbrev main_v1594 : Ref sig .tc := ⟨.hbm, 2325, rfl⟩
abbrev main_v1595 : Ref sig .tc := ⟨.hbm, 2326, rfl⟩
abbrev main_c_520 : Ref sig .tc := ⟨.hbm, 2327, rfl⟩
abbrev main_v1596 : Ref sig .tc := ⟨.hbm, 2328, rfl⟩
abbrev main_v1597 : Ref sig .tc := ⟨.hbm, 2329, rfl⟩
abbrev main_c_521 : Ref sig .tc := ⟨.hbm, 2330, rfl⟩
abbrev main_v1598 : Ref sig .tc := ⟨.hbm, 2331, rfl⟩
abbrev main_v1599 : Ref sig .tc := ⟨.hbm, 2332, rfl⟩
abbrev main_v1600 : Ref sig .tc := ⟨.hbm, 2333, rfl⟩
abbrev main_v1601 : Ref sig .tc := ⟨.hbm, 2334, rfl⟩
abbrev main_v1602 : Ref sig .tc := ⟨.hbm, 2335, rfl⟩
abbrev main_cst_522 : Ref sig .tc := ⟨.hbm, 2336, rfl⟩
abbrev main_call51_v0 : Ref sig .tc := ⟨.hbm, 2337, rfl⟩
abbrev main_call51_v1 : Ref sig .tc := ⟨.hbm, 2338, rfl⟩
abbrev main_call51_v2 : Ref sig .tc := ⟨.hbm, 2339, rfl⟩
abbrev main_v1603 : Ref sig .tc := ⟨.hbm, 2340, rfl⟩
abbrev main_v1604 : Ref sig .tc := ⟨.hbm, 2341, rfl⟩
abbrev main_v1605 : Ref sig .tc := ⟨.hbm, 2342, rfl⟩
abbrev main_v1606 : Ref sig .tc := ⟨.hbm, 2343, rfl⟩
abbrev main_v1607 : Ref sig .tc := ⟨.hbm, 2344, rfl⟩
abbrev main_v1608 : Ref sig .tc := ⟨.hbm, 2345, rfl⟩
abbrev main_v1609 : Ref sig .tc := ⟨.hbm, 2346, rfl⟩
abbrev main_c_523 : Ref sig .tc := ⟨.hbm, 2347, rfl⟩
abbrev main_v1610 : Ref sig .tc := ⟨.hbm, 2348, rfl⟩
abbrev main_v1611 : Ref sig .tc := ⟨.hbm, 2349, rfl⟩
abbrev main_v1612 : Ref sig .tc := ⟨.hbm, 2350, rfl⟩
abbrev main_v1613 : Ref sig .tc := ⟨.hbm, 2351, rfl⟩
abbrev main_c_524 : Ref sig .tc := ⟨.hbm, 2352, rfl⟩
abbrev main_v1614 : Ref sig .tc := ⟨.hbm, 2353, rfl⟩
abbrev main_v1615 : Ref sig .tc := ⟨.hbm, 2354, rfl⟩
abbrev main_v1616 : Ref sig .tc := ⟨.hbm, 2355, rfl⟩
abbrev main_v1617 : Ref sig .tc := ⟨.hbm, 2356, rfl⟩
abbrev main_c_525 : Ref sig .tc := ⟨.hbm, 2357, rfl⟩
abbrev main_v1618 : Ref sig .tc := ⟨.hbm, 2358, rfl⟩
abbrev main_v1619 : Ref sig .tc := ⟨.hbm, 2359, rfl⟩
abbrev main_c_526 : Ref sig .tc := ⟨.hbm, 2360, rfl⟩
abbrev main_v1620 : Ref sig .tc := ⟨.hbm, 2361, rfl⟩
abbrev main_v1621 : Ref sig .tc := ⟨.hbm, 2362, rfl⟩
abbrev main_c_527 : Ref sig .tc := ⟨.hbm, 2363, rfl⟩
abbrev main_v1622 : Ref sig .tc := ⟨.hbm, 2364, rfl⟩
abbrev main_v1623 : Ref sig .tc := ⟨.hbm, 2365, rfl⟩
abbrev main_v1624 : Ref sig .tc := ⟨.hbm, 2366, rfl⟩
abbrev main_c_528 : Ref sig .tc := ⟨.hbm, 2367, rfl⟩
abbrev main_v1625 : Ref sig .tc := ⟨.hbm, 2368, rfl⟩
abbrev main_v1626 : Ref sig .tc := ⟨.hbm, 2369, rfl⟩
abbrev main_v1627 : Ref sig .tc := ⟨.hbm, 2370, rfl⟩
abbrev main_c_529 : Ref sig .tc := ⟨.hbm, 2371, rfl⟩
abbrev main_v1628 : Ref sig .tc := ⟨.hbm, 2372, rfl⟩
abbrev main_v1629 : Ref sig .tc := ⟨.hbm, 2373, rfl⟩
abbrev main_v1630 : Ref sig .tc := ⟨.hbm, 2374, rfl⟩
abbrev main_c_530 : Ref sig .tc := ⟨.hbm, 2375, rfl⟩
abbrev main_v1631 : Ref sig .tc := ⟨.hbm, 2376, rfl⟩
abbrev main_v1632 : Ref sig .tc := ⟨.hbm, 2377, rfl⟩
abbrev main_v1633 : Ref sig .tc := ⟨.hbm, 2378, rfl⟩
abbrev main_c_531 : Ref sig .tc := ⟨.hbm, 2379, rfl⟩
abbrev main_v1634 : Ref sig .tc := ⟨.hbm, 2380, rfl⟩
abbrev main_v1635 : Ref sig .tc := ⟨.hbm, 2381, rfl⟩
abbrev main_v1636 : Ref sig .tc := ⟨.hbm, 2382, rfl⟩
abbrev main_c_532 : Ref sig .tc := ⟨.hbm, 2383, rfl⟩
abbrev main_v1637 : Ref sig .tc := ⟨.hbm, 2384, rfl⟩
abbrev main_v1638 : Ref sig .tc := ⟨.hbm, 2385, rfl⟩
abbrev main_v1639 : Ref sig .tc := ⟨.hbm, 2386, rfl⟩
abbrev main_c_533 : Ref sig .tc := ⟨.hbm, 2387, rfl⟩
abbrev main_v1640 : Ref sig .tc := ⟨.hbm, 2388, rfl⟩
abbrev main_v1641 : Ref sig .tc := ⟨.hbm, 2389, rfl⟩
abbrev main_v1642 : Ref sig .tc := ⟨.hbm, 2390, rfl⟩
abbrev main_c_534 : Ref sig .tc := ⟨.hbm, 2391, rfl⟩
abbrev main_c_535 : Ref sig .tc := ⟨.hbm, 2392, rfl⟩
abbrev main_call52_v0 : Ref sig .tc := ⟨.hbm, 2393, rfl⟩
abbrev main_call52_v1 : Ref sig .tc := ⟨.hbm, 2394, rfl⟩
abbrev main_call52_v2 : Ref sig .tc := ⟨.hbm, 2395, rfl⟩
abbrev main_call52_v3 : Ref sig .tc := ⟨.hbm, 2396, rfl⟩
abbrev main_call52_v4 : Ref sig .tc := ⟨.hbm, 2397, rfl⟩
abbrev main_v1643 : Ref sig .tc := ⟨.hbm, 2398, rfl⟩
abbrev main_c_536 : Ref sig .tc := ⟨.hbm, 2399, rfl⟩
abbrev main_v1644 : Ref sig .tc := ⟨.hbm, 2400, rfl⟩
abbrev main_v1645 : Ref sig .tc := ⟨.hbm, 2401, rfl⟩
abbrev main_c_537 : Ref sig .tc := ⟨.hbm, 2402, rfl⟩
abbrev main_v1646 : Ref sig .tc := ⟨.hbm, 2403, rfl⟩
abbrev main_v1647 : Ref sig .tc := ⟨.hbm, 2404, rfl⟩
abbrev main_v1648 : Ref sig .tc := ⟨.hbm, 2405, rfl⟩
abbrev main_v1649 : Ref sig .tc := ⟨.hbm, 2406, rfl⟩
abbrev main_v1650 : Ref sig .tc := ⟨.hbm, 2407, rfl⟩
abbrev main_c_538 : Ref sig .tc := ⟨.hbm, 2408, rfl⟩
abbrev main_v1651 : Ref sig .tc := ⟨.hbm, 2409, rfl⟩
abbrev main_v1652 : Ref sig .tc := ⟨.hbm, 2410, rfl⟩
abbrev main_v1653 : Ref sig .tc := ⟨.hbm, 2411, rfl⟩
abbrev main_v1654 : Ref sig .tc := ⟨.hbm, 2412, rfl⟩
abbrev main_c_539 : Ref sig .tc := ⟨.hbm, 2413, rfl⟩
abbrev main_v1655 : Ref sig .tc := ⟨.hbm, 2414, rfl⟩
abbrev main_v1656 : Ref sig .tc := ⟨.hbm, 2415, rfl⟩
abbrev main_c_540 : Ref sig .tc := ⟨.hbm, 2416, rfl⟩
abbrev main_v1657 : Ref sig .tc := ⟨.hbm, 2417, rfl⟩
abbrev main_v1658 : Ref sig .tc := ⟨.hbm, 2418, rfl⟩
abbrev main_c_541 : Ref sig .tc := ⟨.hbm, 2419, rfl⟩
abbrev main_v1659 : Ref sig .tc := ⟨.hbm, 2420, rfl⟩
abbrev main_v1660 : Ref sig .tc := ⟨.hbm, 2421, rfl⟩
abbrev main_v1661 : Ref sig .tc := ⟨.hbm, 2422, rfl⟩
abbrev main_v1662 : Ref sig .tc := ⟨.hbm, 2423, rfl⟩
abbrev main_v1663 : Ref sig .tc := ⟨.hbm, 2424, rfl⟩
abbrev main_cst_542 : Ref sig .tc := ⟨.hbm, 2425, rfl⟩
abbrev main_call53_v0 : Ref sig .tc := ⟨.hbm, 2426, rfl⟩
abbrev main_call53_v1 : Ref sig .tc := ⟨.hbm, 2427, rfl⟩
abbrev main_call53_v2 : Ref sig .tc := ⟨.hbm, 2428, rfl⟩
abbrev main_v1664 : Ref sig .tc := ⟨.hbm, 2429, rfl⟩
abbrev main_v1665 : Ref sig .tc := ⟨.hbm, 2430, rfl⟩
abbrev main_v1666 : Ref sig .tc := ⟨.hbm, 2431, rfl⟩
abbrev main_v1667 : Ref sig .tc := ⟨.hbm, 2432, rfl⟩
abbrev main_v1668 : Ref sig .tc := ⟨.hbm, 2433, rfl⟩

abbrev nD : Nat := 1
abbrev τ : Topo := Topo.v7x

variable {F : FTy → Type} [FloatOps F]

class Facts₀ : Prop where
  slices_S200000x3_S200000x1_0_0 : S200000x3.Slices ![0, 0] S200000x1
  shapeCasts_S200000x1_S200000 : S200000x1.ShapeCasts S200000
  bcast_S_S200000 : S_.BroadcastsInDim S200000 (![] : Fin 0 → Fin S200000.rank)
  slices_S200000x3_S200000x1_0_1 : S200000x3.Slices ![0, 1] S200000x1
  slices_S200000x3_S200000x1_0_2 : S200000x3.Slices ![0, 2] S200000x1
  bcast_S_S5529600 : S_.BroadcastsInDim S5529600 (![] : Fin 0 → Fin S5529600.rank)
  bcast_S200000_S200000x1_0 : S200000.BroadcastsInDim S200000x1 (![0] : Fin 1 → Fin S200000x1.rank)
  bcast_S20_S200000x20_1 : S20.BroadcastsInDim S200000x20 (![1] : Fin 1 → Fin S200000x20.rank)
  bcast_S200000x1_S200000x128_0_1 : S200000x1.BroadcastsInDim S200000x128 (![0, 1] : Fin 2 → Fin S200000x128.rank)
  bcast_S_S200000x128 : S_.BroadcastsInDim S200000x128 (![] : Fin 0 → Fin S200000x128.rank)
  slices_S27x128x20_S1x128x20_0_0_0 : S27x128x20.Slices ![0, 0, 0] S1x128x20
  shapeCasts_S1x128x20_S128x20 : S1x128x20.ShapeCasts S128x20
  slices_S27x128x20_S1x128x20_1_0_0 : S27x128x20.Slices ![1, 0, 0] S1x128x20
  slices_S27x128x20_S1x128x20_2_0_0 : S27x128x20.Slices ![2, 0, 0] S1x128x20
  slices_S27x128x20_S1x128x20_3_0_0 : S27x128x20.Slices ![3, 0, 0] S1x128x20
  slices_S27x128x20_S1x128x20_4_0_0 : S27x128x20.Slices ![4, 0, 0] S1x128x20
  slices_S27x128x20_S1x128x20_5_0_0 : S27x128x20.Slices ![5, 0, 0] S1x128x20
  slices_S27x128x20_S1x128x20_6_0_0 : S27x128x20.Slices ![6, 0, 0] S1x128x20
  slices_S27x128x20_S1x128x20_7_0_0 : S27x128x20.Slices ![7, 0, 0] S1x128x20
  slices_S27x128x20_S1x128x20_8_0_0 : S27x128x20.Slices ![8, 0, 0] S1x128x20
  slices_S27x128x20_S1x128x20_9_0_0 : S27x128x20.Slices ![9, 0, 0] S1x128x20
  slices_S27x128x20_S1x128x20_10_0_0 : S27x128x20.Slices ![10, 0, 0] S1x128x20
  slices_S27x128x20_S1x128x20_11_0_0 : S27x128x20.Slices ![11, 0, 0] S1x128x20
  slices_S27x128x20_S1x128x20_12_0_0 : S27x128x20.Slices ![12, 0, 0] S1x128x20
  slices_S27x128x20_S1x128x20_13_0_0 : S27x128x20.Slices ![13, 0, 0] S1x128x20
  slices_S27x128x20_S1x128x20_14_0_0 : S27x128x20.Slices ![14, 0, 0] S1x128x20
  slices_S27x128x20_S1x128x20_15_0_0 : S27x128x20.Slices ![15, 0, 0] S1x128x20
  slices_S27x128x20_S1x128x20_16_0_0 : S27x128x20.Slices ![16, 0, 0] S1x128x20
  slices_S27x128x20_S1x128x20_17_0_0 : S27x128x20.Slices ![17, 0, 0] S1x128x20
  slices_S27x128x20_S1x128x20_18_0_0 : S27x128x20.Slices ![18, 0, 0] S1x128x20
  slices_S27x128x20_S1x128x20_19_0_0 : S27x128x20.Slices ![19, 0, 0] S1x128x20
  slices_S27x128x20_S1x128x20_20_0_0 : S27x128x20.Slices ![20, 0, 0] S1x128x20
  slices_S27x128x20_S1x128x20_21_0_0 : S27x128x20.Slices ![21, 0, 0] S1x128x20
  slices_S27x128x20_S1x128x20_22_0_0 : S27x128x20.Slices ![22, 0, 0] S1x128x20
  slices_S27x128x20_S1x128x20_23_0_0 : S27x128x20.Slices ![23, 0, 0] S1x128x20
  slices_S27x128x20_S1x128x20_24_0_0 : S27x128x20.Slices ![24, 0, 0] S1x128x20
  slices_S27x128x20_S1x128x20_25_0_0 : S27x128x20.Slices ![25, 0, 0] S1x128x20
  slices_S27x128x20_S1x128x20_26_0_0 : S27x128x20.Slices ![26, 0, 0] S1x128x20
  scatter_S5529600_S200000x1_S200000_n_0_0_1_wf : ScatterDims.WF S5529600 S200000x1 S200000 [] [0] [0] 1
  gather_S5529600_S200000x1_S200000_n_0_n_n_0_1_1_wf : GatherDims.WF S5529600 S200000x1 S200000 [] [0] [] [0] [] 1 ![1]
  gather_S200000x128_S200000x1_S200000x128_1_0_n_n_0_1_1128_wf : GatherDims.WF S200000x128 S200000x1 S200000x128 [1] [0] [] [0] [] 1 ![1, 128]
  dot_S200000x128_S128x20_S200000x20_1_0_0_1_n_n_wf : DotDims.WF S200000x128 S128x20 S200000x20 [1] [0] [0] [1] [] []

variable [Facts₀]

def scatter_S5529600_S200000x1_S200000_n_0_0_1 : ScatterDims S5529600 S200000x1 S200000 where
  updateWindowDims := []
  insertedWindowDims := [0]
  scatterDimsToOperandDims := [0]
  indexVectorDim := 1
  wf := scatter_S5529600_S200000x1_S200000_n_0_0_1_wf
def gather_S5529600_S200000x1_S200000_n_0_n_n_0_1_1 : GatherDims S5529600 S200000x1 S200000 where
  offsetDims := []
  collapsedSliceDims := [0]
  operandBatchingDims := []
  startIndicesBatchingDims := []
  startIndexMap := [0]
  indexVectorDim := 1
  sliceSizes := ![1]
  wf := gather_S5529600_S200000x1_S200000_n_0_n_n_0_1_1_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def dot_S200000x128_S128x20_S200000x20_1_0_0_1_n_n : DotDims S200000x128 S128x20 S200000x20 where
  lhsContracting := [1]
  rhsContracting := [0]
  lhsNonContracting := [0]
  rhsNonContracting := [1]
  lhsBatch := []
  rhsBatch := []
  wf := dot_S200000x128_S128x20_S200000x20_1_0_0_1_n_n_wf

class Facts : Prop extends Facts₀ where

variable [Facts]
-- ==== Proof.FramePrefix.lean ====
/-
  The program around its one region: the host lines before it, the region, the host lines after it.

  Before the region the program runs 111 stretches of host operations; after it one stretch of 382.
  None of the earlier ones allocates a buffer, and each touches TensorCore buffers only. The region is entered at the
  contents the earlier stretches leave; the program is the chain of the earlier stretches, the region and the later one.
-/
import proofs.«120445_j5549097746519_2_alg».proof.Proof.LaunchKIP
import Idealize.ShloMosaic.Lib.Pipeline.FrameSuffix

set_option maxRecDepth 16384

noncomputable section

namespace Cert.KernelIdeal.Frame

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Cert.KernelIdeal Cert.KernelIdeal.Gen Cert.KernelIdeal.GenP

variable {F : FTy → Type} [FloatOps F]

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor
theorem hostOps0_59_fresh : (hostOps0_59 : List (HloOp τ sig (Elt F))).Forall fun op => op.fresh = ∅ := by
  simp only [List.Forall]; repeat' constructor
theorem hostOps0_60_fresh : (hostOps0_60 : List (HloOp τ sig (Elt F))).Forall fun op => op.fresh = ∅ := by
  simp only [List.Forall]; repeat' constructor
theorem hostOps0_61_fresh : (hostOps0_61 : List (HloOp τ sig (Elt F))).Forall fun op => op.fresh = ∅ := by
  simp only [List.Forall]; repeat' constructor
theorem hostOps0_62_fresh : (hostOps0_62 : List (HloOp τ sig (Elt F))).Forall fun op => op.fresh = ∅ := by
  simp only [List.Forall]; repeat' constructor
theorem hostOps0_63_fresh : (hostOps0_63 : List (HloOp τ sig (Elt F))).Forall fun op => op.fresh = ∅ := by
  simp only [List.Forall]; repeat' constructor
theorem hostOps0_64_fresh : (hostOps0_64 : List (HloOp τ sig (Elt F))).Forall fun op => op.fresh = ∅ := by
  simp only [List.Forall]; repeat' constructor
theorem hostOps0_65_fresh : (hostOps0_65 : List (HloOp τ sig (Elt F))).Forall fun op => op.fresh = ∅ := by
  simp only [List.Forall]; repeat' constructor
theorem hostOps0_66_fresh : (hostOps0_66 : List (HloOp τ sig (Elt F))).Forall fun op => op.fresh = ∅ := by
  simp only [List.Forall]; repeat' constructor
theorem hostOps0_67_fresh : (hostOps0_67 : List (HloOp τ sig (Elt F))).Forall fun op => op.fresh = ∅ := by
  simp only [List.Forall]; repeat' constructor
theorem hostOps0_68_fresh : (hostOps0_68 : List (HloOp τ sig (Elt F))).Forall fun op => op.fresh = ∅ := by
  simp only [List.Forall]; repeat' constructor
theorem hostOps0_69_fresh : (hostOps0_69 : List (HloOp τ sig (Elt F))).Forall fun op => op.fresh = ∅ := by
  simp only [List.Forall]; repeat' constructor
theorem hostOps0_70_fresh : (hostOps0_70 : List (HloOp τ sig (Elt F))).Forall fun op => op.fresh = ∅ := by
  simp only [List.Forall]; repeat' constructor
theorem hostOps0_71_fresh : (hostOps0_71 : List (HloOp τ sig (Elt F))).Forall fun op => op.fresh = ∅ := by
  simp only [List.Forall]; repeat' constructor
theorem hostOps0_72_fresh : (hostOps0_72 : List (HloOp τ sig (Elt F))).Forall fun op => op.fresh = ∅ := by
  simp only [List.Forall]; repeat' constructor
theorem hostOps0_73_fresh : (hostOps0_73 : List (HloOp τ sig (Elt F))).Forall fun op => op.fresh = ∅ := by
  simp only [List.Forall]; repeat' constructor
theorem hostOps0_74_fresh : (hostOps0_74 : List (HloOp τ sig (Elt F))).Forall fun op => op.fresh = ∅ := by
  simp only [List.Forall]; repeat' constructor
theorem hostOps0_75_fresh : (hostOps0_75 : List (HloOp τ sig (Elt F))).Forall fun op => op.fresh = ∅ := by
  simp only [List.Forall]; repeat' constructor
theorem hostOps0_76_fresh : (hostOps0_76 : List (HloOp τ sig (Elt F))).Forall fun op => op.fresh = ∅ := by
  simp only [List.Forall]; repeat' constructor
theorem hostOps0_77_fresh : (hostOps0_77 : List (HloOp τ sig (Elt F))).Forall fun op => op.fresh = ∅ := by
  simp only [List.Forall]; repeat' constructor
theorem hostOps0_78_fresh : (hostOps0_78 : List (HloOp τ sig (Elt F))).Forall fun op => op.fresh = ∅ := by
  simp only [List.Forall]; repeat' constructor
theorem hostOps0_79_fresh : (hostOps0_79 : List (HloOp τ sig (Elt F))).Forall fun op => op.fresh = ∅ := by
  simp only [List.Forall]; repeat' constructor
theorem hostOps0_80_fresh : (hostOps0_80 : List (HloOp τ sig (Elt F))).Forall fun op => op.fresh = ∅ := by
  simp only [List.Forall]; repeat' constructor
theorem hostOps0_81_fresh : (hostOps0_81 : List (HloOp τ sig (Elt F))).Forall fun op => op.fresh = ∅ := by
  simp only [List.Forall]; repeat' constructor
theorem hostOps0_82_fresh : (hostOps0_82 : List (HloOp τ sig (Elt F))).Forall fun op => op.fresh = ∅ := by
  simp only [List.Forall]; repeat' constructor
theorem hostOps0_83_fresh : (hostOps0_83 : List (HloOp τ sig (Elt F))).Forall fun op => op.fresh = ∅ := by
  simp only [List.Forall]; repeat' constructor
theorem hostOps0_84_fresh : (hostOps0_84 : List (HloOp τ sig (Elt F))).Forall fun op => op.fresh = ∅ := by
  simp only [List.Forall]; repeat' constructor
theorem hostOps0_85_fresh : (hostOps0_85 : List (HloOp τ sig (Elt F))).Forall fun op => op.fresh = ∅ := by
  simp only [List.Forall]; repeat' constructor
theorem hostOps0_86_fresh : (hostOps0_86 : List (HloOp τ sig (Elt F))).Forall fun op => op.fresh = ∅ := by
  simp only [List.Forall]; repeat' constructor
theorem hostOps0_87_fresh : (hostOps0_87 : List (HloOp τ sig (Elt F))).Forall fun op => op.fresh = ∅ := by
  simp only [List.Forall]; repeat' constructor
theorem hostOps0_88_fresh : (hostOps0_88 : List (HloOp τ sig (Elt F))).Forall fun op => op.fresh = ∅ := by
  simp only [List.Forall]; repeat' constructor
theorem hostOps0_89_fresh : (hostOps0_89 : List (HloOp τ sig (Elt F))).Forall fun op => op.fresh = ∅ := by
  simp only [List.Forall]; repeat' constructor
theorem hostOps0_90_fresh : (hostOps0_90 : List (HloOp τ sig (Elt F))).Forall fun op => op.fresh = ∅ := by
  simp only [List.Forall]; repeat' constructor
theorem hostOps0_91_fresh : (hostOps0_91 : List (HloOp τ sig (Elt F))).Forall fun op => op.fresh = ∅ := by
  simp only [List.Forall]; repeat' constructor
theorem hostOps0_92_fresh : (hostOps0_92 : List (HloOp τ sig (Elt F))).Forall fun op => op.fresh = ∅ := by
  simp only [List.Forall]; repeat' constructor
theorem hostOps0_93_fresh : (hostOps0_93 : List (HloOp τ sig (Elt F))).Forall fun op => op.fresh = ∅ := by
  simp only [List.Forall]; repeat' constructor
theorem hostOps0_94_fresh : (hostOps0_94 : List (HloOp τ sig (Elt F))).Forall fun op => op.fresh = ∅ := by
  simp only [List.Forall]; repeat' constructor
theorem hostOps0_95_fresh : (hostOps0_95 : List (HloOp τ sig (Elt F))).Forall fun op => op.fresh = ∅ := by
  simp only [List.Forall]; repeat' constructor
theorem hostOps0_96_fresh : (hostOps0_96 : List (HloOp τ sig (Elt F))).Forall fun op => op.fresh = ∅ := by
  simp only [List.Forall]; repeat' constructor
theorem hostOps0_97_fresh : (hostOps0_97 : List (HloOp τ sig (Elt F))).Forall fun op => op.fresh = ∅ := by
  simp only [List.Forall]; repeat' constructor
theorem hostOps0_98_fresh : (hostOps0_98 : List (HloOp τ sig (Elt F))).Forall fun op => op.fresh = ∅ := by
  simp only [List.Forall]; repeat' constructor
theorem hostOps0_99_fresh : (hostOps0_99 : List (HloOp τ sig (Elt F))).Forall fun op => op.fresh = ∅ := by
  simp only [List.Forall]; repeat' constructor
theorem hostOps0_100_fresh : (hostOps0_100 : List (HloOp τ sig (Elt F))).Forall fun op => op.fresh = ∅ := by
  simp only [List.Forall]; repeat' constructor
theorem hostOps0_101_fresh : (hostOps0_101 : List (HloOp τ sig (Elt F))).Forall fun op => op.fresh = ∅ := by
  simp only [List.Forall]; repeat' constructor
theorem hostOps0_102_fresh : (hostOps0_102 : List (HloOp τ sig (Elt F))).Forall fun op => op.fresh = ∅ := by
  simp only [List.Forall]; repeat' constructor
theorem hostOps0_103_fresh : (hostOps0_103 : List (HloOp τ sig (Elt F))).Forall fun op => op.fresh = ∅ := by
  simp only [List.Forall]; repeat' constructor
theorem hostOps0_104_fresh : (hostOps0_104 : List (HloOp τ sig (Elt F))).Forall fun op => op.fresh = ∅ := by
  simp only [List.Forall]; repeat' constructor
theorem hostOps0_105_fresh : (hostOps0_105 : List (HloOp τ sig (Elt F))).Forall fun op => op.fresh = ∅ := by
  simp only [List.Forall]; repeat' constructor
theorem hostOps0_106_fresh : (hostOps0_106 : List (HloOp τ sig (Elt F))).Forall fun op => op.fresh = ∅ := by
  simp only [List.Forall]; repeat' constructor
theorem hostOps0_107_fresh : (hostOps0_107 : List (HloOp τ sig (Elt F))).Forall fun op => op.fresh = ∅ := by
  simp only [List.Forall]; repeat' constructor
theorem hostOps0_108_fresh : (hostOps0_108 : List (HloOp τ sig (Elt F))).Forall fun op => op.fresh = ∅ := by
  simp only [List.Forall]; repeat' constructor
theorem hostOps0_109_fresh : (hostOps0_109 : List (HloOp τ sig (Elt F))).Forall fun op => op.fresh = ∅ := by
  simp only [List.Forall]; repeat' constructor
theorem hostOps0_110_fresh : (hostOps0_110 : List (HloOp τ sig (Elt F))).Forall fun op => op.fresh = ∅ := by
  simp only [List.Forall]; repeat' constructor

/-! ## The stretches before the region -/

/-- The stretches of host operations before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110]

theorem prefixOps_sub : (prefixOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub, hostOps0_65_sub, hostOps0_66_sub, hostOps0_67_sub, hostOps0_68_sub, hostOps0_69_sub, hostOps0_70_sub, hostOps0_71_sub, hostOps0_72_sub, hostOps0_73_sub, hostOps0_74_sub, hostOps0_75_sub, hostOps0_76_sub, hostOps0_77_sub, hostOps0_78_sub, hostOps0_79_sub, hostOps0_80_sub, hostOps0_81_sub, hostOps0_82_sub, hostOps0_83_sub, hostOps0_84_sub, hostOps0_85_sub, hostOps0_86_sub, hostOps0_87_sub, hostOps0_88_sub, hostOps0_89_sub, hostOps0_90_sub, hostOps0_91_sub, hostOps0_92_sub, hostOps0_93_sub, hostOps0_94_sub, hostOps0_95_sub, hostOps0_96_sub, hostOps0_97_sub, hostOps0_98_sub, hostOps0_99_sub, hostOps0_100_sub, hostOps0_101_sub, hostOps0_102_sub, hostOps0_103_sub, hostOps0_104_sub, hostOps0_105_sub, hostOps0_106_sub, hostOps0_107_sub, hostOps0_108_sub, hostOps0_109_sub, hostOps0_110_sub⟩

theorem prefixOps_fresh : (prefixOps : List (List (HloOp τ sig (Elt F)))).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh, hostOps0_55_fresh, hostOps0_56_fresh, hostOps0_57_fresh, hostOps0_58_fresh, hostOps0_59_fresh, hostOps0_60_fresh, hostOps0_61_fresh, hostOps0_62_fresh, hostOps0_63_fresh, hostOps0_64_fresh, hostOps0_65_fresh, hostOps0_66_fresh, hostOps0_67_fresh, hostOps0_68_fresh, hostOps0_69_fresh, hostOps0_70_fresh, hostOps0_71_fresh, hostOps0_72_fresh, hostOps0_73_fresh, hostOps0_74_fresh, hostOps0_75_fresh, hostOps0_76_fresh, hostOps0_77_fresh, hostOps0_78_fresh, hostOps0_79_fresh, hostOps0_80_fresh, hostOps0_81_fresh, hostOps0_82_fresh, hostOps0_83_fresh, hostOps0_84_fresh, hostOps0_85_fresh, hostOps0_86_fresh, hostOps0_87_fresh, hostOps0_88_fresh, hostOps0_89_fresh, hostOps0_90_fresh, hostOps0_91_fresh, hostOps0_92_fresh, hostOps0_93_fresh, hostOps0_94_fresh, hostOps0_95_fresh, hostOps0_96_fresh, hostOps0_97_fresh, hostOps0_98_fresh, hostOps0_99_fresh, hostOps0_100_fresh, hostOps0_101_fresh, hostOps0_102_fresh, hostOps0_103_fresh, hostOps0_104_fresh, hostOps0_105_fresh, hostOps0_106_fresh, hostOps0_107_fresh, hostOps0_108_fresh, hostOps0_109_fresh, hostOps0_110_fresh⟩

variable (m : (ℓ : Loc nD τ sig) → Buf (Elt F) ℓ)

/-- Core `c`'s TensorCore buffer contents when the region is entered, as a valuation: after the host operations before
    the region. -/
abbrev V0 (c : Dev nD) : Valuation τ sig (Elt F) := StableHlo.after (List.flatten prefixOps) (fun b => m (c, b))
/-- The same read at a TensorCore reference. -/
abbrev V (c : Dev nD) (b : Ref sig .tc) : Buf (Elt F) ((c : Thread nD τ).loc b) := V0 m c (Proc.devRef .tc b)

/-- The program is the chain of the earlier stretches, the region and the later stretch, the stretches written as a
    list mapped to programs: the two spellings of the chain unfold to the same sequence. -/
theorem main_eq (c : Dev nD) : main (F := F) c = (Pipeline.chain
    ((prefixOps.map StableHlo.seq ++ [Prog.lift (.customCall (Pipeline.entry 0) ())]) ++ [hostOps1].map StableHlo.seq) : Prog (TpuEff nD τ sig (Elt F) (Pipeline.Sig Λ₀ (Fin 1) fun p => (pcfgs (F := F) p).Adm) .tc) PUnit) := by
  rewrite [main_chain c]
  chain_rfl

end Cert.KernelIdeal.Frame

end
-- ==== Proof.FrameAround.lean ====
/-
  The program reduces to its region: holding the unscoped buffers at the launch contents, it runs the host lines before
  the region, enters the region at the contents those lines leave, and continues with the host lines after it.
-/
import proofs.«120445_j5549097746519_2_alg».proof.Proof.FramePrefix

set_option maxRecDepth 16384

noncomputable section

namespace Cert.KernelIdeal.Frame

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Cert.KernelIdeal Cert.KernelIdeal.Gen Cert.KernelIdeal.GenP

variable {F : FTy → Type} [FloatOps F]

variable (m : (ℓ : Loc nD τ sig) → Buf (Elt F) ℓ)

set_option maxHeartbeats 1000000 in
/-- The program around the region: it reduces to the region, entered at `V`, continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main prefixOps [hostOps1] prefixOps_sub prefixOps_fresh main_eq

end Cert.KernelIdeal.Frame

end
-- ==== Proof.LibSsaAfter.lean ====
/-
  Reading ONE operation of a straight line of host operations.

  `StableHlo.after ops V` is what the buffers hold after the operations `ops` have run in order from contents `V`: a
  fold. When the line is in single-assignment form — every operation writes one buffer, later operations write
  buffers of larger index, and an operation touches no buffer of larger index than the one it writes — what a
  buffer holds at the END of the line is what its own operation left in it, and that operation read its operands at
  what they hold at the end of the line as well. So the final contents `W = after ops V` satisfy, operation by
  operation, `W y = f (W x₁) (W x₂) …`: the line can be read one step at a time, in any order, without composing the
  fold. The single-assignment property (`Rising`) is a recursive predicate over the list, proved once per list with
  one small obligation per operation.
-/
import Idealize.ShloMosaic.Lib.StableHlo.Run

noncomputable section

namespace Cert.LibSsaAfter

open Idealize.ShloMosaic Idealize.ShloMosaic.StableHlo

variable {τ : Topo} {sig : RefSig} {Val : EltTy → Type}

/-- A buffer's rank: its index in its table. Buffers of different ranks are different buffers. -/
def rk (b : DevRef τ sig) : ℕ := b.idx.val

/-- `Rising lo hi ops`: each operation of the line writes exactly ONE buffer; its rank is at least `lo`, at least the
    rank of every buffer the operation touches, and below the ranks the later operations write; all below `hi`. -/
def Rising : ℕ → ℕ → List (HloOp τ sig Val) → Prop
  | lo, hi, [] => lo ≤ hi
  | lo, hi, op :: ops =>
      ∃ y : DevRef τ sig, op.writes = {y} ∧ lo ≤ rk y ∧ (∀ b ∈ op.bufs, rk b ≤ rk y) ∧ Rising (rk y + 1) hi ops

/-- The lower bound may be lowered. -/
theorem Rising.anti {lo lo' hi : ℕ} (h : lo' ≤ lo) : ∀ {ops : List (HloOp τ sig Val)}, Rising lo hi ops → Rising lo' hi ops
  | [], hr => Nat.le_trans h hr
  | _ :: _, ⟨y, hw, hl, hb, hr⟩ => ⟨y, hw, Nat.le_trans h hl, hb, hr⟩

/-- The bounds are in order. -/
theorem Rising.le : ∀ {lo hi : ℕ} {ops : List (HloOp τ sig Val)}, Rising lo hi ops → lo ≤ hi
  | _, _, [], hr => hr
  | _, _, _ :: _, ⟨_, _, hl, _, hr⟩ => Nat.le_trans hl (Nat.le_trans (Nat.le_succ _) hr.le)

/-- Every buffer the line writes has its rank within the bounds. -/
theorem Rising.writes_mem : ∀ {lo hi : ℕ} {ops : List (HloOp τ sig Val)}, Rising lo hi ops →
    ∀ op ∈ ops, ∀ b ∈ op.writes, lo ≤ rk b ∧ rk b < hi
  | _, _, [], _, _, hop, _, _ => absurd hop List.not_mem_nil
  | _, _, o :: os, ⟨y, hw, hl, _, hr⟩, op, hop, b, hbw => by
      rcases List.mem_cons.mp hop with rfl | hop'
      · rw [hw] at hbw
        rw [Finset.mem_singleton.mp hbw]
        exact ⟨hl, Nat.lt_of_succ_le hr.le⟩
      · have := hr.writes_mem op hop' b hbw
        exact ⟨Nat.le_trans hl (Nat.le_trans (Nat.le_succ _) this.1), this.2⟩

/-- Two rising lines, the second starting where the first stops, make one. -/
theorem Rising.append {mid hi : ℕ} {l₂ : List (HloOp τ sig Val)} (h₂ : Rising mid hi l₂) :
    ∀ {lo : ℕ} {l₁ : List (HloOp τ sig Val)}, Rising lo mid l₁ → Rising lo hi (l₁ ++ l₂)
  | _, [], h₁ => h₂.anti h₁
  | _, _ :: _, ⟨y, hw, hl, hb, hr⟩ => ⟨y, hw, hl, hb, Rising.append h₂ hr⟩

/-- A buffer ranked below everything the line writes keeps its contents. -/
theorem after_of_lt {lo hi : ℕ} {ops : List (HloOp τ sig Val)} (h : Rising lo hi ops) (V : Valuation τ sig Val)
    {b : DevRef τ sig} (hb : rk b < lo) : after ops V b = V b :=
  after_of_forall_not_mem ops V fun op hop hmem =>
    absurd (h.writes_mem op hop b hmem).1 (Nat.not_le.mpr hb)

/-- A buffer ranked at or above the upper bound keeps its contents too. -/
theorem after_of_ge {lo hi : ℕ} {ops : List (HloOp τ sig Val)} (h : Rising lo hi ops) (V : Valuation τ sig Val)
    {b : DevRef τ sig} (hb : hi ≤ rk b) : after ops V b = V b :=
  after_of_forall_not_mem ops V fun op hop hmem =>
    absurd (h.writes_mem op hop b hmem).2 (Nat.not_lt.mpr hb)

private theorem after_app : ∀ (l₁ l₂ : List (HloOp τ sig Val)) (V : Valuation τ sig Val),
    after (l₁ ++ l₂) V = after l₂ (after l₁ V)
  | [], _, _ => rfl
  | op :: l₁, l₂, V => after_app l₁ l₂ (op.result V)

private theorem Rising.tail : ∀ {lo hi : ℕ} (l₁ : List (HloOp τ sig Val)) {l₂ : List (HloOp τ sig Val)},
    Rising lo hi (l₁ ++ l₂) → ∃ lo', Rising lo' hi l₂
  | lo, _, [], _, h => ⟨lo, h⟩
  | _, _, _ :: l₁, _, ⟨_, _, _, _, hr⟩ => Rising.tail l₁ hr

/-- THE STEP. At the end of a rising line, a buffer an operation touches holds what that operation left in it, run
    from the contents the operations BEFORE it produced: nothing later writes it. -/
theorem after_at_op {lo hi : ℕ} {l₁ l₂ : List (HloOp τ sig Val)} {op : HloOp τ sig Val}
    (h : Rising lo hi (l₁ ++ op :: l₂)) (V : Valuation τ sig Val) {b : DevRef τ sig} (hb : b ∈ op.bufs) :
    after (l₁ ++ op :: l₂) V b = op.result (after l₁ V) b := by
  obtain ⟨_, y, _, _, hbs, hr⟩ := Rising.tail l₁ h
  rw [after_app, after_cons]
  exact after_of_lt hr _ (Nat.lt_succ_of_le (hbs b hb))

/-- An operand the operation does not write holds at the end what it held when the operation ran. -/
theorem after_operand {lo hi : ℕ} {l₁ l₂ : List (HloOp τ sig Val)} {op : HloOp τ sig Val}
    (h : Rising lo hi (l₁ ++ op :: l₂)) (V : Valuation τ sig Val) {b : DevRef τ sig} (hb : b ∈ op.bufs)
    (hnw : b ∉ op.writes) : after (l₁ ++ op :: l₂) V b = after l₁ V b := by
  rw [after_at_op h V hb, op.result_of_not_mem _ hnw]

/-! ## The step, builder by builder

For an operation of a rising line `ops` built by one of Lib/StableHlo.lean's builders, with its operands other
buffers than its result: the final contents `W = after ops V` satisfy `W y = f (W x) …`. -/

section Builders

variable {x a b c y : Ref sig .tc}

theorem nullary_at {lo hi : ℕ} {ops : List (HloOp τ sig Val)} (h : Rising lo hi ops) (V : Valuation τ sig Val)
    (v : y.ty.Contents Val) (hy) (hop : nullary (τ := τ) y v hy ∈ ops) :
    after ops V (Proc.devRef .tc y) = v := by
  obtain ⟨l₁, l₂, rfl⟩ := List.append_of_mem hop
  rw [after_at_op h V (b := Proc.devRef .tc y) (by simp [nullary]), nullary_result]

theorem unary_at {lo hi : ℕ} {ops : List (HloOp τ sig Val)} (h : Rising lo hi ops) (V : Valuation τ sig Val)
    (f : x.ty.Contents Val → y.ty.Contents Val) (hx hy) (hop : unary (τ := τ) x y f hx hy ∈ ops) (hxy : x ≠ y) :
    after ops V (Proc.devRef .tc y) = f (after ops V (Proc.devRef .tc x)) := by
  obtain ⟨l₁, l₂, rfl⟩ := List.append_of_mem hop
  rw [after_at_op h V (b := Proc.devRef .tc y) (by simp [unary]), unary_result,
    after_operand h V (b := Proc.devRef .tc x) (by simp [unary]) (by simp [unary, devRef_ne_of_ne hxy])]

theorem binary_at {lo hi : ℕ} {ops : List (HloOp τ sig Val)} (h : Rising lo hi ops) (V : Valuation τ sig Val)
    (f : a.ty.Contents Val → b.ty.Contents Val → y.ty.Contents Val) (ha hb hy)
    (hop : binary (τ := τ) a b y f ha hb hy ∈ ops) (hay : a ≠ y) (hby : b ≠ y) :
    after ops V (Proc.devRef .tc y) = f (after ops V (Proc.devRef .tc a)) (after ops V (Proc.devRef .tc b)) := by
  obtain ⟨l₁, l₂, rfl⟩ := List.append_of_mem hop
  rw [after_at_op h V (b := Proc.devRef .tc y) (by simp [binary]), binary_result,
    after_operand h V (b := Proc.devRef .tc a) (by simp [binary]) (by simp [binary, devRef_ne_of_ne hay]),
    after_operand h V (b := Proc.devRef .tc b) (by simp [binary]) (by simp [binary, devRef_ne_of_ne hby])]

theorem ternary_at {lo hi : ℕ} {ops : List (HloOp τ sig Val)} (h : Rising lo hi ops) (V : Valuation τ sig Val)
    (f : c.ty.Contents Val → a.ty.Contents Val → b.ty.Contents Val → y.ty.Contents Val) (hc ha hb hy)
    (hop : ternary (τ := τ) c a b y f hc ha hb hy ∈ ops) (hcy : c ≠ y) (hay : a ≠ y) (hby : b ≠ y) :
    after ops V (Proc.devRef .tc y)
      = f (after ops V (Proc.devRef .tc c)) (after ops V (Proc.devRef .tc a)) (after ops V (Proc.devRef .tc b)) := by
  obtain ⟨l₁, l₂, rfl⟩ := List.append_of_mem hop
  rw [after_at_op h V (b := Proc.devRef .tc y) (by simp [ternary]), ternary_result,
    after_operand h V (b := Proc.devRef .tc c) (by simp [ternary]) (by simp [ternary, devRef_ne_of_ne hcy]),
    after_operand h V (b := Proc.devRef .tc a) (by simp [ternary]) (by simp [ternary, devRef_ne_of_ne hay]),
    after_operand h V (b := Proc.devRef .tc b) (by simp [ternary]) (by simp [ternary, devRef_ne_of_ne hby])]

theorem nary4_at {lo hi : ℕ} {ops : List (HloOp τ sig Val)} (h : Rising lo hi ops) (V : Valuation τ sig Val)
    (f : ((k : Fin 4) → ((![x, a, b, c] : Fin 4 → Ref sig .tc) k).ty.Contents Val) → y.ty.Contents Val) (hxs hy)
    (hop : nary (τ := τ) ![x, a, b, c] y f hxs hy ∈ ops) (hxy : x ≠ y) (hay : a ≠ y) (hby : b ≠ y) (hcy : c ≠ y) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  obtain ⟨l₁, l₂, rfl⟩ := List.append_of_mem hop
  have hm : ∀ k : Fin 4, (Proc.devRef .tc ((![x, a, b, c] : Fin 4 → Ref sig .tc) k) : DevRef τ sig) ∈ (nary (τ := τ) ![x, a, b, c] y f hxs hy).bufs :=
    fun k => Finset.mem_insert_of_mem (Finset.mem_image_of_mem _ (Finset.mem_univ k))
  rw [after_at_op h V (b := Proc.devRef .tc y) (by simp [nary]), nary4_result,
    after_operand h V (b := Proc.devRef .tc x) (hm 0) (by simp [nary, devRef_ne_of_ne hxy]),
    after_operand h V (b := Proc.devRef .tc a) (hm 1) (by simp [nary, devRef_ne_of_ne hay]),
    after_operand h V (b := Proc.devRef .tc b) (hm 2) (by simp [nary, devRef_ne_of_ne hby]),
    after_operand h V (b := Proc.devRef .tc c) (hm 3) (by simp [nary, devRef_ne_of_ne hcy])]

theorem reshape_at {lo hi : ℕ} {ops : List (HloOp τ sig Val)} (h : Rising lo hi ops) (V : Valuation τ sig Val)
    (he hn hx hy) (hop : reshape (τ := τ) (Val := Val) x y he hn hx hy ∈ ops) (hxy : x ≠ y) :
    after ops V (Proc.devRef .tc y) = fun i => he ▸ shapeCast y.ty.shape (after ops V (Proc.devRef .tc x)) hn i := by
  obtain ⟨l₁, l₂, rfl⟩ := List.append_of_mem hop
  rw [after_at_op h V (b := Proc.devRef .tc y) (by simp [reshape]), reshape_result,
    after_operand h V (b := Proc.devRef .tc x) (by simp [reshape]) (by simp [reshape, devRef_ne_of_ne hxy])]

end Builders

/-! ## Proving a literal line rising, one operation at a time -/

section Cons

variable {x a b c y : Ref sig .tc} {lo hi : ℕ} {ops : List (HloOp τ sig Val)}

/-- A TensorCore reference's rank, as a device buffer. -/
abbrev rkR (τ : Topo) (r : Ref sig .tc) : ℕ := rk (Proc.devRef .tc r : DevRef τ sig)

theorem Rising.nil (h : lo ≤ hi) : Rising (τ := τ) (sig := sig) (Val := Val) lo hi [] := h

theorem Rising.cons_nullary {v : y.ty.Contents Val} {hy} (hlo : lo ≤ rkR τ y) (h : Rising (rkR τ y + 1) hi ops) :
    Rising lo hi (nullary (τ := τ) y v hy :: ops) :=
  ⟨Proc.devRef .tc y, rfl, hlo, fun d hd => by
    simp only [nullary, Finset.mem_singleton] at hd; subst hd; exact Nat.le_refl _, h⟩

theorem Rising.cons_unary {f : x.ty.Contents Val → y.ty.Contents Val} {hx hy} (hlo : lo ≤ rkR τ y)
    (h1 : rkR τ x ≤ rkR τ y) (h : Rising (rkR τ y + 1) hi ops) : Rising lo hi (unary (τ := τ) x y f hx hy :: ops) :=
  ⟨Proc.devRef .tc y, rfl, hlo, fun d hd => by
    simp only [unary, Finset.mem_insert, Finset.mem_singleton] at hd
    rcases hd with rfl | rfl
    · exact h1
    · exact Nat.le_refl _, h⟩

theorem Rising.cons_reshape {he hn hx hy} (hlo : lo ≤ rkR τ y) (h1 : rkR τ x ≤ rkR τ y)
    (h : Rising (rkR τ y + 1) hi ops) : Rising lo hi (reshape (τ := τ) (Val := Val) x y he hn hx hy :: ops) :=
  ⟨Proc.devRef .tc y, rfl, hlo, fun d hd => by
    simp only [reshape, Finset.mem_insert, Finset.mem_singleton] at hd
    rcases hd with rfl | rfl
    · exact h1
    · exact Nat.le_refl _, h⟩

theorem Rising.cons_binary {f : a.ty.Contents Val → b.ty.Contents Val → y.ty.Contents Val} {ha hb hy}
    (hlo : lo ≤ rkR τ y) (h1 : rkR τ a ≤ rkR τ y) (h2 : rkR τ b ≤ rkR τ y) (h : Rising (rkR τ y + 1) hi ops) :
    Rising lo hi (binary (τ := τ) a b y f ha hb hy :: ops) :=
  ⟨Proc.devRef .tc y, rfl, hlo, fun d hd => by
    simp only [binary, Finset.mem_insert, Finset.mem_singleton] at hd
    rcases hd with rfl | rfl | rfl
    · exact h1
    · exact h2
    · exact Nat.le_refl _, h⟩

theorem Rising.cons_ternary {f : c.ty.Contents Val → a.ty.Contents Val → b.ty.Contents Val → y.ty.Contents Val}
    {hc ha hb hy} (hlo : lo ≤ rkR τ y) (h0 : rkR τ c ≤ rkR τ y) (h1 : rkR τ a ≤ rkR τ y) (h2 : rkR τ b ≤ rkR τ y)
    (h : Rising (rkR τ y + 1) hi ops) : Rising lo hi (ternary (τ := τ) c a b y f hc ha hb hy :: ops) :=
  ⟨Proc.devRef .tc y, rfl, hlo, fun d hd => by
    simp only [ternary, Finset.mem_insert, Finset.mem_singleton] at hd
    rcases hd with rfl | rfl | rfl | rfl
    · exact h0
    · exact h1
    · exact h2
    · exact Nat.le_refl _, h⟩

theorem Rising.cons_nary {n : ℕ} {xs : Fin n → Ref sig .tc}
    {f : ((k : Fin n) → (xs k).ty.Contents Val) → y.ty.Contents Val} {hxs hy} (hlo : lo ≤ rkR τ y)
    (h1 : ∀ k, rkR τ (xs k) ≤ rkR τ y) (h : Rising (rkR τ y + 1) hi ops) :
    Rising lo hi (nary (τ := τ) xs y f hxs hy :: ops) :=
  ⟨Proc.devRef .tc y, rfl, hlo, fun d hd => by
    simp only [nary, Finset.mem_insert, Finset.mem_image, Finset.mem_univ, true_and] at hd
    rcases hd with rfl | ⟨k, rfl⟩
    · exact Nat.le_refl _
    · exact h1 k, h⟩

end Cons

/-- Closes `Rising lo hi ops` for a LITERAL list of the builders' operations over literal references: one rule per
    operation, its rank comparisons decided. -/
macro "rising_line" : tactic =>
  `(tactic| repeat (first
      | with_reducible exact Rising.nil (by decide)
      | with_reducible refine Rising.cons_nullary (by decide) ?_
      | with_reducible refine Rising.cons_unary (by decide) (by decide) ?_
      | with_reducible refine Rising.cons_reshape (by decide) (by decide) ?_
      | with_reducible refine Rising.cons_binary (by decide) (by decide) (by decide) ?_
      | with_reducible refine Rising.cons_ternary (by decide) (by decide) (by decide) (by decide) ?_
      | with_reducible refine Rising.cons_nary (by decide) (by decide) ?_))

/-! ## The step, by position in a literal line -/

section AtIdx

variable {x a b c y : Ref sig .tc} {lo hi : ℕ} {ops : List (HloOp τ sig Val)}

theorem nullary_at_idx (h : Rising lo hi ops) (V : Valuation τ sig Val) (i : ℕ) {v : y.ty.Contents Val} {hy}
    (hi' : ops[i]? = some (nullary (τ := τ) y v hy)) : after ops V (Proc.devRef .tc y) = v :=
  nullary_at h V v hy (List.mem_of_getElem? hi')

theorem unary_at_idx (h : Rising lo hi ops) (V : Valuation τ sig Val) (i : ℕ)
    {f : x.ty.Contents Val → y.ty.Contents Val} {hx hy} (hi' : ops[i]? = some (unary (τ := τ) x y f hx hy))
    (hxy : x ≠ y := by decide) : after ops V (Proc.devRef .tc y) = f (after ops V (Proc.devRef .tc x)) :=
  unary_at h V f hx hy (List.mem_of_getElem? hi') hxy

theorem reshape_at_idx (h : Rising lo hi ops) (V : Valuation τ sig Val) (i : ℕ) {he hn hx hy}
    (hi' : ops[i]? = some (reshape (τ := τ) (Val := Val) x y he hn hx hy)) (hxy : x ≠ y := by decide) :
    after ops V (Proc.devRef .tc y) = fun j => he ▸ shapeCast y.ty.shape (after ops V (Proc.devRef .tc x)) hn j :=
  reshape_at h V he hn hx hy (List.mem_of_getElem? hi') hxy

theorem binary_at_idx (h : Rising lo hi ops) (V : Valuation τ sig Val) (i : ℕ)
    {f : a.ty.Contents Val → b.ty.Contents Val → y.ty.Contents Val} {ha hb hy}
    (hi' : ops[i]? = some (binary (τ := τ) a b y f ha hb hy)) (hay : a ≠ y := by decide) (hby : b ≠ y := by decide) :
    after ops V (Proc.devRef .tc y) = f (after ops V (Proc.devRef .tc a)) (after ops V (Proc.devRef .tc b)) :=
  binary_at h V f ha hb hy (List.mem_of_getElem? hi') hay hby

theorem ternary_at_idx (h : Rising lo hi ops) (V : Valuation τ sig Val) (i : ℕ)
    {f : c.ty.Contents Val → a.ty.Contents Val → b.ty.Contents Val → y.ty.Contents Val} {hc ha hb hy}
    (hi' : ops[i]? = some (ternary (τ := τ) c a b y f hc ha hb hy)) (hcy : c ≠ y := by decide)
    (hay : a ≠ y := by decide) (hby : b ≠ y := by decide) :
    after ops V (Proc.devRef .tc y)
      = f (after ops V (Proc.devRef .tc c)) (after ops V (Proc.devRef .tc a)) (after ops V (Proc.devRef .tc b)) :=
  ternary_at h V f hc ha hb hy (List.mem_of_getElem? hi') hcy hay hby

theorem nary4_at_idx (h : Rising lo hi ops) (V : Valuation τ sig Val) (i : ℕ)
    {f : ((k : Fin 4) → ((![x, a, b, c] : Fin 4 → Ref sig .tc) k).ty.Contents Val) → y.ty.Contents Val} {hxs hy}
    (hi' : ops[i]? = some (nary (τ := τ) ![x, a, b, c] y f hxs hy)) (hxy : x ≠ y := by decide)
    (hay : a ≠ y := by decide) (hby : b ≠ y := by decide) (hcy : c ≠ y := by decide) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) :=
  nary4_at h V f hxs hy (List.mem_of_getElem? hi') hxy hay hby hcy

end AtIdx

end Cert.LibSsaAfter

end
-- ==== Proof.FrameSuffixLines.lean ====
/-
  The host lines after the region: what they touch, that they allocate nothing, and that they write no array the
  region's pipeline stages.

  The 382 operations after the region are in single-assignment order: each writes one buffer, of a larger index than
  every buffer written before it and at least the index of every buffer it reads. The first writes buffer 1955; the
  three arrays the pipeline stages (the features as bf16, the flattened weights, the product) are buffers 1947, 1953
  and 1954. So no later operation writes any of them.
-/
import proofs.«120445_j5549097746519_2_alg».proof.Proof.LaunchKIP
import proofs.«120445_j5549097746519_2_alg».proof.Proof.LibSsaAfter
import Idealize.ShloMosaic.Lib.Pipeline.FrameSuffix

set_option maxRecDepth 16384

noncomputable section

namespace Cert.KernelIdeal.Frame

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Cert.KernelIdeal Cert.KernelIdeal.Gen Cert.KernelIdeal.GenP Cert.LibSsaAfter

variable {F : FTy → Type} [FloatOps F]

theorem hostOps1_fresh : (hostOps1 : List (HloOp τ sig (Elt F))).Forall fun op => op.fresh = ∅ := by
  simp only [List.Forall]; repeat' constructor

set_option maxHeartbeats 40000000 in
/-- The later lines are in single-assignment order, writing buffers 1955 to 2336. -/
theorem hostOps1_rising : Rising (τ := τ) 1955 2337 (hostOps1 : List (HloOp τ sig (Elt F))) := by
  rising_line

/-- The later lines touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- The three staged arrays rank below everything the later lines write. -/
theorem arr_rank_lt (w : Fin 3) : rk (Proc.devRef (τ := τ) .tc (Pipeline.arrRef spec0 w)) < 1955 := by
  fin_cases w <;> decide

/-- And they write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  exact absurd (hostOps1_rising.writes_mem op hop _ hmem).1 (Nat.not_le.mpr (arr_rank_lt w))

end Cert.KernelIdeal.Frame

end
-- ==== Proof.FrameKernelBody.lean ====
/-
  The kernel body of the dense product, at any grid point, and the proof data of its pipeline.

  At each of the grid's points the body is handed three staging buffers: a block of 4000 feature rows, the whole
  flattened weight matrix, and the output block's buffer. It loads all three (the output buffer's old contents are
  not used), multiplies the first two and stores the product over the whole output buffer. So after the body the two
  input buffers hold what they held, and the output buffer holds the product of the two input blocks, whatever it held
  before. The proof data below say this point by point: each input window's buffer at its block of the array as the
  region finds it, the output window's at the product of the two blocks.
-/
import proofs.«120445_j5549097746519_2_alg».proof.Proof.Gen.KernelIdeal.Skeleton
import proofs.«120445_j5549097746519_2_alg».proof.Proof.Gen.KernelIdeal.Points
import proofs.«120445_j5549097746519_2_alg».proof.Proof.LaunchKIP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

-- what the TensorCore buffers of each core hold when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point, for any proof data whose array is the
    region-entry contents and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's current staging buffer holds its block at every point, fetched there (the first point) or not
    (every later point: its index does not move). -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rIn0 : Rect S4000x128 := Rect.unit (s := S4000x128) ![0, 0] S4000x128.size inb_S4000x128_S4000x128_0_0
abbrev rIn1 : Rect S128x640 := Rect.unit (s := S128x640) ![0, 0] S128x640.size inb_S128x640_S128x640_0_0
abbrev rOut : Rect S4000x640 := Rect.unit (s := S4000x640) ![0, 0] S4000x640.size inb_S4000x640_S4000x640_0_0

/-! ## What the body leaves in the output window's buffer -/

/-- The output buffer after the body, from the two input blocks: its one store, of the product, over the whole buffer. -/
def outBlock (x0 : Vec F S4000x128 .bf16) (x1 : Vec F S128x640 .bf16) : Vec F S4000x640 .bf16 :=
  View.canon [⟨rOut, k0_pay1 (View.ld x0 rIn0) (View.ld x1 rIn1)⟩]

/-- The one store covers the buffer. -/
theorem coverOut (p0 : Vec F S4000x640 .bf16) (y : S4000x640.Idx) :
    ∃ pc ∈ ([⟨rOut, p0⟩] : List (View.Piece (Elt F) S4000x640 .bf16)), y ∈ pc.1.set :=
  View.cover_of_tiled [⟨rOut, p0⟩] S4000x640.size (by rfl) y

/-! ## The body's triple -/

set_option maxHeartbeats 1000000 in
/-- The kernel body on whole staging memrefs, the inputs' at contents `x0`, `x1` and the output's at anything, runs to the
    continuation holding the inputs' as they were and the output's at the product of the two. -/
theorem sound_kernel (c : Dev nD) (E : Set ℕ) (i : grid0.Coords) (arg1 : Memref sig .tc .vmem S4000x128 .bf16) (harg1 : arg1.IsWhole)
    (arg2 : Memref sig .tc .vmem S128x640 .bf16) (harg2 : arg2.IsWhole) (arg3 : Memref sig .tc .vmem S4000x640 .bf16) (harg3 : arg3.IsWhole)
    (x0 : Vec F S4000x128 .bf16) (x1 : Vec F S128x640 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- The proof data of the one pipeline on core `c`: the arrays as the region finds them; after the body at point `t`
    each input's buffer at its block and the output's at the product of the two blocks; the invariant the scoped rest and
    the generator register, untouched; nothing owed; full shares. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlock (iblk V c 0 t) (iblk V c 1 t)
  Φ _ := Pipeline.ΦA spec0 c
  q _ := fullShare
  owed _ := 0

/-- The proof data's arrays are the region-entry contents. -/
theorem A_eq (c : Dev nD) (w : Fin cfg0.W) : (dats V 0 c).A w = V c (Pipeline.arrRef spec0 w) := by
  dsimp only [dats]

/-- What the body leaves, window by window. -/
theorem after0 (c : Dev nD) (t : Fin cfg0.N) : (dats V 0 c).after 0 t = iblk V c 0 t := by dsimp only [dats]
theorem after1 (c : Dev nD) (t : Fin cfg0.N) : (dats V 0 c).after 1 t = iblk V c 1 t := by dsimp only [dats]
theorem after2 (c : Dev nD) (t : Fin cfg0.N) : (dats V 0 c).after 2 t = outBlock (iblk V c 0 t) (iblk V c 1 t) := by dsimp only [dats]

/-- Each input's current staging buffer holds its block at every point, fetched there or not. -/
theorem before0 (c : Dev nD) (t : Fin cfg0.N) (d) : (dats V 0 c).before 0 t d = iblk V c 0 t :=
  before0_of V (dats V 0 c) (A_eq V c 0) (after0 V c) t d
theorem before1 (c : Dev nD) (t : Fin cfg0.N) (d) : (dats V 0 c).before 1 t d = iblk V c 1 t :=
  before1_of V (dats V 0 c) (A_eq V c 1) (after1 V c) t d

/-! ## The body obligation, at a generic point -/

/-- What the body is called with at point `t`, the windows one by one, -/
def bodyPre (c : Dev nD) (t : Fin cfg0.N) : sProp 𝕄 :=
  iprop((dats V 0 c).Φ t.castSucc ∗ (dats V 0 c).owesAt () t.castSucc
    ∗ (∃ d, owns (c : Thread nD τ) (st0_0 t) fullShare ((dats V 0 c).before 0 t d))
    ∗ (∃ d, owns (c : Thread nD τ) (st0_1 t) fullShare ((dats V 0 c).before 1 t d))
    ∗ (∃ d, owns (c : Thread nD τ) (st0_2 t) fullShare ((dats V 0 c).before 2 t d)))

/-- and what it returns. -/
def bodyPost (c : Dev nD) (t : Fin cfg0.N) : sProp 𝕄 :=
  iprop((dats V 0 c).Φ t.succ ∗ (dats V 0 c).owesAt () t.succ
    ∗ owns (c : Thread nD τ) (st0_0 t) fullShare ((dats V 0 c).after 0 t)
    ∗ owns (c : Thread nD τ) (st0_1 t) fullShare ((dats V 0 c).after 1 t)
    ∗ owns (c : Thread nD τ) (st0_2 t) fullShare ((dats V 0 c).after 2 t))

/-- The body at any point: the inputs' memrefs hold their blocks, the output's anything, so the body's triple applies;
    the invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dats V 0 c).Φ t.succ = (dats V 0 c).Φ t.castSucc from rfl,
    show (dats V 0 c).owesAt () t.succ = (dats V 0 c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) V 0 c) (defs₀ (F := F)) Variants.none () Set.univ := fun t => by
  rw [bigSep_W0, bigSep_W0]
  exact sound_body V c t

end Cert.KernelIdeal.Frame

end
-- ==== Proof.FramePrefixRising.lean ====
/-
  The host lines before the region are in single-assignment order.

  Each of the 111 stretches writes one buffer per operation, of increasing index, and an operation reads no buffer of
  a larger index than the one it writes; stretch by stretch the indices continue where the stretch before stopped, from
  buffer 4 (the first after the four argument arrays) to buffer 1953 (the last before the region's result, 1954). So
  the whole line before the region is rising from 4 to 1954: what a buffer holds when the region is entered is what its
  own operation left in it, and the four argument arrays are written by none.
-/
import proofs.«120445_j5549097746519_2_alg».proof.Proof.FramePrefix
import proofs.«120445_j5549097746519_2_alg».proof.Proof.LibSsaAfter

set_option maxRecDepth 16384

noncomputable section

namespace Cert.KernelIdeal.Frame

open Idealize.ShloMosaic Idealize.ShloMosaic.TcCoe
open Idealize.SL.Sem
open Cert.KernelIdeal Cert.KernelIdeal.Gen Cert.KernelIdeal.GenP Cert.LibSsaAfter

variable {F : FTy → Type} [FloatOps F]

set_option maxHeartbeats 40000000

theorem hostOps0_rising : Rising (τ := τ) 4 78 (hostOps0 : List (HloOp τ sig (Elt F))) := by
  rising_line
theorem hostOps0_1_rising : Rising (τ := τ) 78 84 (hostOps0_1 : List (HloOp τ sig (Elt F))) := by
  rising_line
theorem hostOps0_2_rising : Rising (τ := τ) 84 98 (hostOps0_2 : List (HloOp τ sig (Elt F))) := by
  rising_line
theorem hostOps0_3_rising : Rising (τ := τ) 98 101 (hostOps0_3 : List (HloOp τ sig (Elt F))) := by
  rising_line
theorem hostOps0_4_rising : Rising (τ := τ) 101 149 (hostOps0_4 : List (HloOp τ sig (Elt F))) := by
  rising_line
theorem hostOps0_5_rising : Rising (τ := τ) 149 155 (hostOps0_5 : List (HloOp τ sig (Elt F))) := by
  rising_line
theorem hostOps0_6_rising : Rising (τ := τ) 155 169 (hostOps0_6 : List (HloOp τ sig (Elt F))) := by
  rising_line
theorem hostOps0_7_rising : Rising (τ := τ) 169 172 (hostOps0_7 : List (HloOp τ sig (Elt F))) := by
  rising_line
theorem hostOps0_8_rising : Rising (τ := τ) 172 220 (hostOps0_8 : List (HloOp τ sig (Elt F))) := by
  rising_line
theorem hostOps0_9_rising : Rising (τ := τ) 220 226 (hostOps0_9 : List (HloOp τ sig (Elt F))) := by
  rising_line
theorem hostOps0_10_rising : Rising (τ := τ) 226 240 (hostOps0_10 : List (HloOp τ sig (Elt F))) := by
  rising_line
theorem hostOps0_11_rising : Rising (τ := τ) 240 243 (hostOps0_11 : List (HloOp τ sig (Elt F))) := by
  rising_line
theorem hostOps0_12_rising : Rising (τ := τ) 243 291 (hostOps0_12 : List (HloOp τ sig (Elt F))) := by
  rising_line
theorem hostOps0_13_rising : Rising (τ := τ) 291 297 (hostOps0_13 : List (HloOp τ sig (Elt F))) := by
  rising_line
theorem hostOps0_14_rising : Rising (τ := τ) 297 311 (hostOps0_14 : List (HloOp τ sig (Elt F))) := by
  rising_line
theorem hostOps0_15_rising : Rising (τ := τ) 311 314 (hostOps0_15 : List (HloOp τ sig (Elt F))) := by
  rising_line
theorem hostOps0_16_rising : Rising (τ := τ) 314 362 (hostOps0_16 : List (HloOp τ sig (Elt F))) := by
  rising_line
theorem hostOps0_17_rising : Rising (τ := τ) 362 368 (hostOps0_17 : List (HloOp τ sig (Elt F))) := by
  rising_line
theorem hostOps0_18_rising : Rising (τ := τ) 368 382 (hostOps0_18 : List (HloOp τ sig (Elt F))) := by
  rising_line
theorem hostOps0_19_rising : Rising (τ := τ) 382 385 (hostOps0_19 : List (HloOp τ sig (Elt F))) := by
  rising_line
theorem hostOps0_20_rising : Rising (τ := τ) 385 433 (hostOps0_20 : List (HloOp τ sig (Elt F))) := by
  rising_line
theorem hostOps0_21_rising : Rising (τ := τ) 433 439 (hostOps0_21 : List (HloOp τ sig (Elt F))) := by
  rising_line
theorem hostOps0_22_rising : Rising (τ := τ) 439 453 (hostOps0_22 : List (HloOp τ sig (Elt F))) := by
  rising_line
theorem hostOps0_23_rising : Rising (τ := τ) 453 456 (hostOps0_23 : List (HloOp τ sig (Elt F))) := by
  rising_line
theorem hostOps0_24_rising : Rising (τ := τ) 456 504 (hostOps0_24 : List (HloOp τ sig (Elt F))) := by
  rising_line
theorem hostOps0_25_rising : Rising (τ := τ) 504 510 (hostOps0_25 : List (HloOp τ sig (Elt F))) := by
  rising_line
theorem hostOps0_26_rising : Rising (τ := τ) 510 524 (hostOps0_26 : List (HloOp τ sig (Elt F))) := by
  rising_line
theorem hostOps0_27_rising : Rising (τ := τ) 524 527 (hostOps0_27 : List (HloOp τ sig (Elt F))) := by
  rising_line
theorem hostOps0_28_rising : Rising (τ := τ) 527 575 (hostOps0_28 : List (HloOp τ sig (Elt F))) := by
  rising_line
theorem hostOps0_29_rising : Rising (τ := τ) 575 581 (hostOps0_29 : List (HloOp τ sig (Elt F))) := by
  rising_line
theorem hostOps0_30_rising : Rising (τ := τ) 581 595 (hostOps0_30 : List (HloOp τ sig (Elt F))) := by
  rising_line
theorem hostOps0_31_rising : Rising (τ := τ) 595 598 (hostOps0_31 : List (HloOp τ sig (Elt F))) := by
  rising_line
theorem hostOps0_32_rising : Rising (τ := τ) 598 646 (hostOps0_32 : List (HloOp τ sig (Elt F))) := by
  rising_line
theorem hostOps0_33_rising : Rising (τ := τ) 646 652 (hostOps0_33 : List (HloOp τ sig (Elt F))) := by
  rising_line
theorem hostOps0_34_rising : Rising (τ := τ) 652 666 (hostOps0_34 : List (HloOp τ sig (Elt F))) := by
  rising_line
theorem hostOps0_35_rising : Rising (τ := τ) 666 669 (hostOps0_35 : List (HloOp τ sig (Elt F))) := by
  rising_line
theorem hostOps0_36_rising : Rising (τ := τ) 669 717 (hostOps0_36 : List (HloOp τ sig (Elt F))) := by
  rising_line
theorem hostOps0_37_rising : Rising (τ := τ) 717 723 (hostOps0_37 : List (HloOp τ sig (Elt F))) := by
  rising_line
theorem hostOps0_38_rising : Rising (τ := τ) 723 737 (hostOps0_38 : List (HloOp τ sig (Elt F))) := by
  rising_line
theorem hostOps0_39_rising : Rising (τ := τ) 737 740 (hostOps0_39 : List (HloOp τ sig (Elt F))) := by
  rising_line
theorem hostOps0_40_rising : Rising (τ := τ) 740 788 (hostOps0_40 : List (HloOp τ sig (Elt F))) := by
  rising_line
theorem hostOps0_41_rising : Rising (τ := τ) 788 794 (hostOps0_41 : List (HloOp τ sig (Elt F))) := by
  rising_line
theorem hostOps0_42_rising : Rising (τ := τ) 794 808 (hostOps0_42 : List (HloOp τ sig (Elt F))) := by
  rising_line
theorem hostOps0_43_rising : Rising (τ := τ) 808 811 (hostOps0_43 : List (HloOp τ sig (Elt F))) := by
  rising_line
theorem hostOps0_44_rising : Rising (τ := τ) 811 859 (hostOps0_44 : List (HloOp τ sig (Elt F))) := by
  rising_line
theorem hostOps0_45_rising : Rising (τ := τ) 859 865 (hostOps0_45 : List (HloOp τ sig (Elt F))) := by
  rising_line
theorem hostOps0_46_rising : Rising (τ := τ) 865 879 (hostOps0_46 : List (HloOp τ sig (Elt F))) := by
  rising_line
theorem hostOps0_47_rising : Rising (τ := τ) 879 882 (hostOps0_47 : List (HloOp τ sig (Elt F))) := by
  rising_line
theorem hostOps0_48_rising : Rising (τ := τ) 882 930 (hostOps0_48 : List (HloOp τ sig (Elt F))) := by
  rising_line
theorem hostOps0_49_rising : Rising (τ := τ) 930 936 (hostOps0_49 : List (HloOp τ sig (Elt F))) := by
  rising_line
theorem hostOps0_50_rising : Rising (τ := τ) 936 950 (hostOps0_50 : List (HloOp τ sig (Elt F))) := by
  rising_line
theorem hostOps0_51_rising : Rising (τ := τ) 950 953 (hostOps0_51 : List (HloOp τ sig (Elt F))) := by
  rising_line
theorem hostOps0_52_rising : Rising (τ := τ) 953 1001 (hostOps0_52 : List (HloOp τ sig (Elt F))) := by
  rising_line
theorem hostOps0_53_rising : Rising (τ := τ) 1001 1007 (hostOps0_53 : List (HloOp τ sig (Elt F))) := by
  rising_line
theorem hostOps0_54_rising : Rising (τ := τ) 1007 1021 (hostOps0_54 : List (HloOp τ sig (Elt F))) := by
  rising_line
theorem hostOps0_55_rising : Rising (τ := τ) 1021 1024 (hostOps0_55 : List (HloOp τ sig (Elt F))) := by
  rising_line
theorem hostOps0_56_rising : Rising (τ := τ) 1024 1072 (hostOps0_56 : List (HloOp τ sig (Elt F))) := by
  rising_line
theorem hostOps0_57_rising : Rising (τ := τ) 1072 1078 (hostOps0_57 : List (HloOp τ sig (Elt F))) := by
  rising_line
theorem hostOps0_58_rising : Rising (τ := τ) 1078 1092 (hostOps0_58 : List (HloOp τ sig (Elt F))) := by
  rising_line
theorem hostOps0_59_rising : Rising (τ := τ) 1092 1095 (hostOps0_59 : List (HloOp τ sig (Elt F))) := by
  rising_line
theorem hostOps0_60_rising : Rising (τ := τ) 1095 1143 (hostOps0_60 : List (HloOp τ sig (Elt F))) := by
  rising_line
theorem hostOps0_61_rising : Rising (τ := τ) 1143 1149 (hostOps0_61 : List (HloOp τ sig (Elt F))) := by
  rising_line
theorem hostOps0_62_rising : Rising (τ := τ) 1149 1163 (hostOps0_62 : List (HloOp τ sig (Elt F))) := by
  rising_line
theorem hostOps0_63_rising : Rising (τ := τ) 1163 1166 (hostOps0_63 : List (HloOp τ sig (Elt F))) := by
  rising_line
theorem hostOps0_64_rising : Rising (τ := τ) 1166 1214 (hostOps0_64 : List (HloOp τ sig (Elt F))) := by
  rising_line
theorem hostOps0_65_rising : Rising (τ := τ) 1214 1220 (hostOps0_65 : List (HloOp τ sig (Elt F))) := by
  rising_line
theorem hostOps0_66_rising : Rising (τ := τ) 1220 1234 (hostOps0_66 : List (HloOp τ sig (Elt F))) := by
  rising_line
theorem hostOps0_67_rising : Rising (τ := τ) 1234 1237 (hostOps0_67 : List (HloOp τ sig (Elt F))) := by
  rising_line
theorem hostOps0_68_rising : Rising (τ := τ) 1237 1285 (hostOps0_68 : List (HloOp τ sig (Elt F))) := by
  rising_line
theorem hostOps0_69_rising : Rising (τ := τ) 1285 1291 (hostOps0_69 : List (HloOp τ sig (Elt F))) := by
  rising_line
theorem hostOps0_70_rising : Rising (τ := τ) 1291 1305 (hostOps0_70 : List (HloOp τ sig (Elt F))) := by
  rising_line
theorem hostOps0_71_rising : Rising (τ := τ) 1305 1308 (hostOps0_71 : List (HloOp τ sig (Elt F))) := by
  rising_line
theorem hostOps0_72_rising : Rising (τ := τ) 1308 1356 (hostOps0_72 : List (HloOp τ sig (Elt F))) := by
  rising_line
theorem hostOps0_73_rising : Rising (τ := τ) 1356 1362 (hostOps0_73 : List (HloOp τ sig (Elt F))) := by
  rising_line
theorem hostOps0_74_rising : Rising (τ := τ) 1362 1376 (hostOps0_74 : List (HloOp τ sig (Elt F))) := by
  rising_line
theorem hostOps0_75_rising : Rising (τ := τ) 1376 1379 (hostOps0_75 : List (HloOp τ sig (Elt F))) := by
  rising_line
theorem hostOps0_76_rising : Rising (τ := τ) 1379 1427 (hostOps0_76 : List (HloOp τ sig (Elt F))) := by
  rising_line
theorem hostOps0_77_rising : Rising (τ := τ) 1427 1433 (hostOps0_77 : List (HloOp τ sig (Elt F))) := by
  rising_line
theorem hostOps0_78_rising : Rising (τ := τ) 1433 1447 (hostOps0_78 : List (HloOp τ sig (Elt F))) := by
  rising_line
theorem hostOps0_79_rising : Rising (τ := τ) 1447 1450 (hostOps0_79 : List (HloOp τ sig (Elt F))) := by
  rising_line
theorem hostOps0_80_rising : Rising (τ := τ) 1450 1498 (hostOps0_80 : List (HloOp τ sig (Elt F))) := by
  rising_line
theorem hostOps0_81_rising : Rising (τ := τ) 1498 1504 (hostOps0_81 : List (HloOp τ sig (Elt F))) := by
  rising_line
theorem hostOps0_82_rising : Rising (τ := τ) 1504 1518 (hostOps0_82 : List (HloOp τ sig (Elt F))) := by
  rising_line
theorem hostOps0_83_rising : Rising (τ := τ) 1518 1521 (hostOps0_83 : List (HloOp τ sig (Elt F))) := by
  rising_line
theorem hostOps0_84_rising : Rising (τ := τ) 1521 1569 (hostOps0_84 : List (HloOp τ sig (Elt F))) := by
  rising_line
theorem hostOps0_85_rising : Rising (τ := τ) 1569 1575 (hostOps0_85 : List (HloOp τ sig (Elt F))) := by
  rising_line
theorem hostOps0_86_rising : Rising (τ := τ) 1575 1589 (hostOps0_86 : List (HloOp τ sig (Elt F))) := by
  rising_line
theorem hostOps0_87_rising : Rising (τ := τ) 1589 1592 (hostOps0_87 : List (HloOp τ sig (Elt F))) := by
  rising_line
theorem hostOps0_88_rising : Rising (τ := τ) 1592 1640 (hostOps0_88 : List (HloOp τ sig (Elt F))) := by
  rising_line
theorem hostOps0_89_rising : Rising (τ := τ) 1640 1646 (hostOps0_89 : List (HloOp τ sig (Elt F))) := by
  rising_line
theorem hostOps0_90_rising : Rising (τ := τ) 1646 1660 (hostOps0_90 : List (HloOp τ sig (Elt F))) := by
  rising_line
theorem hostOps0_91_rising : Rising (τ := τ) 1660 1663 (hostOps0_91 : List (HloOp τ sig (Elt F))) := by
  rising_line
theorem hostOps0_92_rising : Rising (τ := τ) 1663 1711 (hostOps0_92 : List (HloOp τ sig (Elt F))) := by
  rising_line
theorem hostOps0_93_rising : Rising (τ := τ) 1711 1717 (hostOps0_93 : List (HloOp τ sig (Elt F))) := by
  rising_line
theorem hostOps0_94_rising : Rising (τ := τ) 1717 1731 (hostOps0_94 : List (HloOp τ sig (Elt F))) := by
  rising_line
theorem hostOps0_95_rising : Rising (τ := τ) 1731 1734 (hostOps0_95 : List (HloOp τ sig (Elt F))) := by
  rising_line
theorem hostOps0_96_rising : Rising (τ := τ) 1734 1782 (hostOps0_96 : List (HloOp τ sig (Elt F))) := by
  rising_line
theorem hostOps0_97_rising : Rising (τ := τ) 1782 1788 (hostOps0_97 : List (HloOp τ sig (Elt F))) := by
  rising_line
theorem hostOps0_98_rising : Rising (τ := τ) 1788 1802 (hostOps0_98 : List (HloOp τ sig (Elt F))) := by
  rising_line
theorem hostOps0_99_rising : Rising (τ := τ) 1802 1805 (hostOps0_99 : List (HloOp τ sig (Elt F))) := by
  rising_line
theorem hostOps0_100_rising : Rising (τ := τ) 1805 1853 (hostOps0_100 : List (HloOp τ sig (Elt F))) := by
  rising_line
theorem hostOps0_101_rising : Rising (τ := τ) 1853 1859 (hostOps0_101 : List (HloOp τ sig (Elt F))) := by
  rising_line
theorem hostOps0_102_rising : Rising (τ := τ) 1859 1873 (hostOps0_102 : List (HloOp τ sig (Elt F))) := by
  rising_line
theorem hostOps0_103_rising : Rising (τ := τ) 1873 1876 (hostOps0_103 : List (HloOp τ sig (Elt F))) := by
  rising_line
theorem hostOps0_104_rising : Rising (τ := τ) 1876 1924 (hostOps0_104 : List (HloOp τ sig (Elt F))) := by
  rising_line
theorem hostOps0_105_rising : Rising (τ := τ) 1924 1930 (hostOps0_105 : List (HloOp τ sig (Elt F))) := by
  rising_line
theorem hostOps0_106_rising : Rising (τ := τ) 1930 1944 (hostOps0_106 : List (HloOp τ sig (Elt F))) := by
  rising_line
theorem hostOps0_107_rising : Rising (τ := τ) 1944 1947 (hostOps0_107 : List (HloOp τ sig (Elt F))) := by
  rising_line
theorem hostOps0_108_rising : Rising (τ := τ) 1947 1951 (hostOps0_108 : List (HloOp τ sig (Elt F))) := by
  rising_line
theorem hostOps0_109_rising : Rising (τ := τ) 1951 1953 (hostOps0_109 : List (HloOp τ sig (Elt F))) := by
  rising_line
theorem hostOps0_110_rising : Rising (τ := τ) 1953 1954 (hostOps0_110 : List (HloOp τ sig (Elt F))) := by
  rising_line

/-- The whole line before the region, the stretches one after the other, is rising from buffer 4 to buffer 1954. -/
theorem prefix_rising : Rising (τ := τ) 4 1954 (List.flatten (prefixOps : List (List (HloOp τ sig (Elt F))))) :=
  (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.nil (Nat.le_refl 1954)) hostOps0_110_rising) hostOps0_109_rising) hostOps0_108_rising) hostOps0_107_rising) hostOps0_106_rising) hostOps0_105_rising) hostOps0_104_rising) hostOps0_103_rising) hostOps0_102_rising) hostOps0_101_rising) hostOps0_100_rising) hostOps0_99_rising) hostOps0_98_rising) hostOps0_97_rising) hostOps0_96_rising) hostOps0_95_rising) hostOps0_94_rising) hostOps0_93_rising) hostOps0_92_rising) hostOps0_91_rising) hostOps0_90_rising) hostOps0_89_rising) hostOps0_88_rising) hostOps0_87_rising) hostOps0_86_rising) hostOps0_85_rising) hostOps0_84_rising) hostOps0_83_rising) hostOps0_82_rising) hostOps0_81_rising) hostOps0_80_rising) hostOps0_79_rising) hostOps0_78_rising) hostOps0_77_rising) hostOps0_76_rising) hostOps0_75_rising) hostOps0_74_rising) hostOps0_73_rising) hostOps0_72_rising) hostOps0_71_rising) hostOps0_70_rising) hostOps0_69_rising) hostOps0_68_rising) hostOps0_67_rising) hostOps0_66_rising) hostOps0_65_rising) hostOps0_64_rising) hostOps0_63_rising) hostOps0_62_rising) hostOps0_61_rising) hostOps0_60_rising) hostOps0_59_rising) hostOps0_58_rising) hostOps0_57_rising) hostOps0_56_rising) hostOps0_55_rising) hostOps0_54_rising) hostOps0_53_rising) hostOps0_52_rising) hostOps0_51_rising) hostOps0_50_rising) hostOps0_49_rising) hostOps0_48_rising) hostOps0_47_rising) hostOps0_46_rising) hostOps0_45_rising) hostOps0_44_rising) hostOps0_43_rising) hostOps0_42_rising) hostOps0_41_rising) hostOps0_40_rising) hostOps0_39_rising) hostOps0_38_rising) hostOps0_37_rising) hostOps0_36_rising) hostOps0_35_rising) hostOps0_34_rising) hostOps0_33_rising) hostOps0_32_rising) hostOps0_31_rising) hostOps0_30_rising) hostOps0_29_rising) hostOps0_28_rising) hostOps0_27_rising) hostOps0_26_rising) hostOps0_25_rising) hostOps0_24_rising) hostOps0_23_rising) hostOps0_22_rising) hostOps0_21_rising) hostOps0_20_rising) hostOps0_19_rising) hostOps0_18_rising) hostOps0_17_rising) hostOps0_16_rising) hostOps0_15_rising) hostOps0_14_rising) hostOps0_13_rising) hostOps0_12_rising) hostOps0_11_rising) hostOps0_10_rising) hostOps0_9_rising) hostOps0_8_rising) hostOps0_7_rising) hostOps0_6_rising) hostOps0_5_rising) hostOps0_4_rising) hostOps0_3_rising) hostOps0_2_rising) hostOps0_1_rising) hostOps0_rising)

/-- A buffer ranked below 4 — an argument array — holds at the region's entry what it held at launch. -/
theorem V0_of_lt (m : (ℓ : Loc nD τ sig) → Buf (Elt F) ℓ) (c : Dev nD) {b : DevRef τ sig} (hb : rk b < 4) :
    V0 m c b = m (c, b) :=
  after_of_lt prefix_rising _ hb

end Cert.KernelIdeal.Frame

end
-- ==== Proof.KernelFrame.lean ====
/-
  THE FRAME of the idealized kernel program, for any float instance.

  From any memory with zero semaphore counters, every weakly fair execution of the program on the TensorCores
  terminates, nothing faulting, and in every final state the result array holds what the host lines after the region
  compute from the region's exit contents, and the four argument arrays hold what they held at launch.

  The run is the frame run of a program whose one region is followed by host lines: the pipeline's three arrays end at
  what the proof data give, and every other unscoped buffer at what the later lines leave in it. An argument array is
  no array of the pipeline; the later lines write buffers 1955 to 2336 only and the earlier lines buffers 4 to 1953
  only, so the argument arrays (buffers 0 to 3) are written by none.
-/
import proofs.«120445_j5549097746519_2_alg».proof.Proof.FrameAround
import proofs.«120445_j5549097746519_2_alg».proof.Proof.FrameSuffixLines
import proofs.«120445_j5549097746519_2_alg».proof.Proof.FrameKernelBody
import proofs.«120445_j5549097746519_2_alg».proof.Proof.FramePrefixRising

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP Cert.LibSsaAfter

variable {F : FTy → Type} [FloatOps F]

variable (m : (ℓ : Loc nD τ sig) → Buf (Elt F) ℓ) (ρ : Dev nD → PrngReg)

/-! ## The run -/

set_option backward.isDefEq.respectTransparency.types false in
/-- At the compiled mesh, for any values, from any memory with zero counters: every weakly fair execution of the program
    on the TensorCores terminates, and every final state has every array of the pipeline at what the library computes
    from the proof data and every other unscoped buffer as the lines after the region leave it. -/
theorem run_main : θ_run defs (onTc (τ := τ) (main (F := F))) (s₀ m ρ)
    (Pipeline.FramePost cfgs (dats (V m)) 0 (Pipeline.afterTail₀ cfgs (dats (V m)) 0 (V0 m) [hostOps1])) :=
  Pipeline.θ_run_frame_around cfgs (dats (V m)) (0 : Fin 1) launch0 defs₀ Variants.none m ρ main
    (hbody := fun c => (body_obligation (V m) c).loose) (hshare := fun c => (dats (V m) 0 c).share_full fun _ => rfl)
    (howed := fun _ _ => rfl) (V₀ := V0 m) (opss := [hostOps1]) (hsub := sfx_sub) (hfresh := sfx_fresh) (hkeep := sfx_keeps)
    (hmain := hmain m Variants.none) (hA := A_eq (V m)) (hΦ := fun _ _ => rfl)

/-! ## The buffers the later lines do not write -/

/-- An unscoped buffer that is no array of the pipeline and ranks below everything the later lines write holds at the
    end what it held when the region was entered. -/
theorem afterTail_of_lt (c : Dev nD) (b : Ref sig .tc) (harr : ∀ w, Pipeline.arrRef spec0 w ≠ b)
    (hb : rk (Proc.devRef (τ := τ) .tc b) < 1955) :
    Pipeline.afterTail₀ cfgs (dats (V m)) 0 (V0 m) [hostOps1] c b = V0 m c (Proc.devRef .tc b) := by
  unfold Pipeline.afterTail₀
  rw [StableHlo.after_of_forall_not_mem _ _ fun op hop hw => ?_, Pipeline.withArrays_of_ne _ c (V0 m c) _ b harr]
  obtain ⟨ops, hops, hop'⟩ := List.mem_flatten.mp hop
  simp only [List.mem_cons, List.mem_nil_iff, or_false] at hops
  subst hops
  exact absurd (hostOps1_rising.writes_mem op hop' _ hw).1 (Nat.not_le.mpr hb)

/-- An argument array — a buffer ranked below 4, no array of the pipeline — holds at the end what it held at launch. -/
theorem afterTail_arg (c : Dev nD) (b : Ref sig .tc) (harr : ∀ w, Pipeline.arrRef spec0 w ≠ b)
    (hb : rk (Proc.devRef (τ := τ) .tc b) < 4) :
    Pipeline.afterTail₀ cfgs (dats (V m)) 0 (V0 m) [hostOps1] c b = m ((c.tc : Thread nD τ).loc b) :=
  (afterTail_of_lt m c b harr (Nat.lt_trans hb (by decide))).trans (V0_of_lt m c hb)

/-! ## The frame -/

theorem mem_rest_arg0 : main_arg0 ∈ Pipeline.restRefs sig spec0 := Pipeline.mem_restRefs_of main_arg0 rfl (by decide)
theorem mem_rest_arg1 : main_arg1 ∈ Pipeline.restRefs sig spec0 := Pipeline.mem_restRefs_of main_arg1 rfl (by decide)
theorem mem_rest_arg2 : main_arg2 ∈ Pipeline.restRefs sig spec0 := Pipeline.mem_restRefs_of main_arg2 rfl (by decide)
theorem mem_rest_arg3 : main_arg3 ∈ Pipeline.restRefs sig spec0 := Pipeline.mem_restRefs_of main_arg3 rfl (by decide)
theorem mem_rest_result : main_v1595 ∈ Pipeline.restRefs sig spec0 := Pipeline.mem_restRefs_of main_v1595 rfl (by decide)

/-- THE FRAME: the program runs, its result array ends at what the later lines compute from the region's exit contents,
    and its four argument arrays end unchanged. -/
theorem frame_run : θ_run defs (onTc (τ := τ) (main (F := F))) ⟨m, fun _ => 0, ρ⟩ (fun r => ∀ c : Dev nD,
      r.2.mem ((c.tc : Thread nD τ).loc main_v1595) = Pipeline.afterTail₀ cfgs (dats (V m)) 0 (V0 m) [hostOps1] c main_v1595
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v1595 mem_rest_result,
     ((h c).2 main_arg0 mem_rest_arg0).trans (afterTail_arg m c main_arg0 (by decide) (by decide)),
     ((h c).2 main_arg1 mem_rest_arg1).trans (afterTail_arg m c main_arg1 (by decide) (by decide)),
     ((h c).2 main_arg2 mem_rest_arg2).trans (afterTail_arg m c main_arg2 (by decide) (by decide)),
     ((h c).2 main_arg3 mem_rest_arg3).trans (afterTail_arg m c main_arg3 (by decide) (by decide))⟩) (run_main m ρ)

end Cert.KernelIdeal.Frame

end
-- ==== Proof.FrameWPrefix.lean ====
/-
  The program around its one region: the host lines before it, the region, the host lines after it.

  Before the region the program runs 111 stretches of host operations; after it one stretch of 382.
  None of the earlier ones allocates a buffer, and each touches TensorCore buffers only. The region is entered at the
  contents the earlier stretches leave; the program is the chain of the earlier stretches, the region and the later one.
-/
import proofs.«120445_j5549097746519_2_alg».proof.Proof.LaunchKP
import Idealize.ShloMosaic.Lib.Pipeline.FrameSuffix

set_option maxRecDepth 16384

noncomputable section

namespace Cert.Kernel.Frame

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Cert.Kernel Cert.Kernel.Gen Cert.Kernel.GenP

variable {F : FTy → Type} [FloatOps F]

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor
theorem hostOps0_59_fresh : (hostOps0_59 : List (HloOp τ sig (Elt F))).Forall fun op => op.fresh = ∅ := by
  simp only [List.Forall]; repeat' constructor
theorem hostOps0_60_fresh : (hostOps0_60 : List (HloOp τ sig (Elt F))).Forall fun op => op.fresh = ∅ := by
  simp only [List.Forall]; repeat' constructor
theorem hostOps0_61_fresh : (hostOps0_61 : List (HloOp τ sig (Elt F))).Forall fun op => op.fresh = ∅ := by
  simp only [List.Forall]; repeat' constructor
theorem hostOps0_62_fresh : (hostOps0_62 : List (HloOp τ sig (Elt F))).Forall fun op => op.fresh = ∅ := by
  simp only [List.Forall]; repeat' constructor
theorem hostOps0_63_fresh : (hostOps0_63 : List (HloOp τ sig (Elt F))).Forall fun op => op.fresh = ∅ := by
  simp only [List.Forall]; repeat' constructor
theorem hostOps0_64_fresh : (hostOps0_64 : List (HloOp τ sig (Elt F))).Forall fun op => op.fresh = ∅ := by
  simp only [List.Forall]; repeat' constructor
theorem hostOps0_65_fresh : (hostOps0_65 : List (HloOp τ sig (Elt F))).Forall fun op => op.fresh = ∅ := by
  simp only [List.Forall]; repeat' constructor
theorem hostOps0_66_fresh : (hostOps0_66 : List (HloOp τ sig (Elt F))).Forall fun op => op.fresh = ∅ := by
  simp only [List.Forall]; repeat' constructor
theorem hostOps0_67_fresh : (hostOps0_67 : List (HloOp τ sig (Elt F))).Forall fun op => op.fresh = ∅ := by
  simp only [List.Forall]; repeat' constructor
theorem hostOps0_68_fresh : (hostOps0_68 : List (HloOp τ sig (Elt F))).Forall fun op => op.fresh = ∅ := by
  simp only [List.Forall]; repeat' constructor
theorem hostOps0_69_fresh : (hostOps0_69 : List (HloOp τ sig (Elt F))).Forall fun op => op.fresh = ∅ := by
  simp only [List.Forall]; repeat' constructor
theorem hostOps0_70_fresh : (hostOps0_70 : List (HloOp τ sig (Elt F))).Forall fun op => op.fresh = ∅ := by
  simp only [List.Forall]; repeat' constructor
theorem hostOps0_71_fresh : (hostOps0_71 : List (HloOp τ sig (Elt F))).Forall fun op => op.fresh = ∅ := by
  simp only [List.Forall]; repeat' constructor
theorem hostOps0_72_fresh : (hostOps0_72 : List (HloOp τ sig (Elt F))).Forall fun op => op.fresh = ∅ := by
  simp only [List.Forall]; repeat' constructor
theorem hostOps0_73_fresh : (hostOps0_73 : List (HloOp τ sig (Elt F))).Forall fun op => op.fresh = ∅ := by
  simp only [List.Forall]; repeat' constructor
theorem hostOps0_74_fresh : (hostOps0_74 : List (HloOp τ sig (Elt F))).Forall fun op => op.fresh = ∅ := by
  simp only [List.Forall]; repeat' constructor
theorem hostOps0_75_fresh : (hostOps0_75 : List (HloOp τ sig (Elt F))).Forall fun op => op.fresh = ∅ := by
  simp only [List.Forall]; repeat' constructor
theorem hostOps0_76_fresh : (hostOps0_76 : List (HloOp τ sig (Elt F))).Forall fun op => op.fresh = ∅ := by
  simp only [List.Forall]; repeat' constructor
theorem hostOps0_77_fresh : (hostOps0_77 : List (HloOp τ sig (Elt F))).Forall fun op => op.fresh = ∅ := by
  simp only [List.Forall]; repeat' constructor
theorem hostOps0_78_fresh : (hostOps0_78 : List (HloOp τ sig (Elt F))).Forall fun op => op.fresh = ∅ := by
  simp only [List.Forall]; repeat' constructor
theorem hostOps0_79_fresh : (hostOps0_79 : List (HloOp τ sig (Elt F))).Forall fun op => op.fresh = ∅ := by
  simp only [List.Forall]; repeat' constructor
theorem hostOps0_80_fresh : (hostOps0_80 : List (HloOp τ sig (Elt F))).Forall fun op => op.fresh = ∅ := by
  simp only [List.Forall]; repeat' constructor
theorem hostOps0_81_fresh : (hostOps0_81 : List (HloOp τ sig (Elt F))).Forall fun op => op.fresh = ∅ := by
  simp only [List.Forall]; repeat' constructor
theorem hostOps0_82_fresh : (hostOps0_82 : List (HloOp τ sig (Elt F))).Forall fun op => op.fresh = ∅ := by
  simp only [List.Forall]; repeat' constructor
theorem hostOps0_83_fresh : (hostOps0_83 : List (HloOp τ sig (Elt F))).Forall fun op => op.fresh = ∅ := by
  simp only [List.Forall]; repeat' constructor
theorem hostOps0_84_fresh : (hostOps0_84 : List (HloOp τ sig (Elt F))).Forall fun op => op.fresh = ∅ := by
  simp only [List.Forall]; repeat' constructor
theorem hostOps0_85_fresh : (hostOps0_85 : List (HloOp τ sig (Elt F))).Forall fun op => op.fresh = ∅ := by
  simp only [List.Forall]; repeat' constructor
theorem hostOps0_86_fresh : (hostOps0_86 : List (HloOp τ sig (Elt F))).Forall fun op => op.fresh = ∅ := by
  simp only [List.Forall]; repeat' constructor
theorem hostOps0_87_fresh : (hostOps0_87 : List (HloOp τ sig (Elt F))).Forall fun op => op.fresh = ∅ := by
  simp only [List.Forall]; repeat' constructor
theorem hostOps0_88_fresh : (hostOps0_88 : List (HloOp τ sig (Elt F))).Forall fun op => op.fresh = ∅ := by
  simp only [List.Forall]; repeat' constructor
theorem hostOps0_89_fresh : (hostOps0_89 : List (HloOp τ sig (Elt F))).Forall fun op => op.fresh = ∅ := by
  simp only [List.Forall]; repeat' constructor
theorem hostOps0_90_fresh : (hostOps0_90 : List (HloOp τ sig (Elt F))).Forall fun op => op.fresh = ∅ := by
  simp only [List.Forall]; repeat' constructor
theorem hostOps0_91_fresh : (hostOps0_91 : List (HloOp τ sig (Elt F))).Forall fun op => op.fresh = ∅ := by
  simp only [List.Forall]; repeat' constructor
theorem hostOps0_92_fresh : (hostOps0_92 : List (HloOp τ sig (Elt F))).Forall fun op => op.fresh = ∅ := by
  simp only [List.Forall]; repeat' constructor
theorem hostOps0_93_fresh : (hostOps0_93 : List (HloOp τ sig (Elt F))).Forall fun op => op.fresh = ∅ := by
  simp only [List.Forall]; repeat' constructor
theorem hostOps0_94_fresh : (hostOps0_94 : List (HloOp τ sig (Elt F))).Forall fun op => op.fresh = ∅ := by
  simp only [List.Forall]; repeat' constructor
theorem hostOps0_95_fresh : (hostOps0_95 : List (HloOp τ sig (Elt F))).Forall fun op => op.fresh = ∅ := by
  simp only [List.Forall]; repeat' constructor
theorem hostOps0_96_fresh : (hostOps0_96 : List (HloOp τ sig (Elt F))).Forall fun op => op.fresh = ∅ := by
  simp only [List.Forall]; repeat' constructor
theorem hostOps0_97_fresh : (hostOps0_97 : List (HloOp τ sig (Elt F))).Forall fun op => op.fresh = ∅ := by
  simp only [List.Forall]; repeat' constructor
theorem hostOps0_98_fresh : (hostOps0_98 : List (HloOp τ sig (Elt F))).Forall fun op => op.fresh = ∅ := by
  simp only [List.Forall]; repeat' constructor
theorem hostOps0_99_fresh : (hostOps0_99 : List (HloOp τ sig (Elt F))).Forall fun op => op.fresh = ∅ := by
  simp only [List.Forall]; repeat' constructor
theorem hostOps0_100_fresh : (hostOps0_100 : List (HloOp τ sig (Elt F))).Forall fun op => op.fresh = ∅ := by
  simp only [List.Forall]; repeat' constructor
theorem hostOps0_101_fresh : (hostOps0_101 : List (HloOp τ sig (Elt F))).Forall fun op => op.fresh = ∅ := by
  simp only [List.Forall]; repeat' constructor
theorem hostOps0_102_fresh : (hostOps0_102 : List (HloOp τ sig (Elt F))).Forall fun op => op.fresh = ∅ := by
  simp only [List.Forall]; repeat' constructor
theorem hostOps0_103_fresh : (hostOps0_103 : List (HloOp τ sig (Elt F))).Forall fun op => op.fresh = ∅ := by
  simp only [List.Forall]; repeat' constructor
theorem hostOps0_104_fresh : (hostOps0_104 : List (HloOp τ sig (Elt F))).Forall fun op => op.fresh = ∅ := by
  simp only [List.Forall]; repeat' constructor
theorem hostOps0_105_fresh : (hostOps0_105 : List (HloOp τ sig (Elt F))).Forall fun op => op.fresh = ∅ := by
  simp only [List.Forall]; repeat' constructor
theorem hostOps0_106_fresh : (hostOps0_106 : List (HloOp τ sig (Elt F))).Forall fun op => op.fresh = ∅ := by
  simp only [List.Forall]; repeat' constructor
theorem hostOps0_107_fresh : (hostOps0_107 : List (HloOp τ sig (Elt F))).Forall fun op => op.fresh = ∅ := by
  simp only [List.Forall]; repeat' constructor
theorem hostOps0_108_fresh : (hostOps0_108 : List (HloOp τ sig (Elt F))).Forall fun op => op.fresh = ∅ := by
  simp only [List.Forall]; repeat' constructor
theorem hostOps0_109_fresh : (hostOps0_109 : List (HloOp τ sig (Elt F))).Forall fun op => op.fresh = ∅ := by
  simp only [List.Forall]; repeat' constructor
theorem hostOps0_110_fresh : (hostOps0_110 : List (HloOp τ sig (Elt F))).Forall fun op => op.fresh = ∅ := by
  simp only [List.Forall]; repeat' constructor

/-! ## The stretches before the region -/

/-- The stretches of host operations before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110]

theorem prefixOps_sub : (prefixOps : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub, hostOps0_65_sub, hostOps0_66_sub, hostOps0_67_sub, hostOps0_68_sub, hostOps0_69_sub, hostOps0_70_sub, hostOps0_71_sub, hostOps0_72_sub, hostOps0_73_sub, hostOps0_74_sub, hostOps0_75_sub, hostOps0_76_sub, hostOps0_77_sub, hostOps0_78_sub, hostOps0_79_sub, hostOps0_80_sub, hostOps0_81_sub, hostOps0_82_sub, hostOps0_83_sub, hostOps0_84_sub, hostOps0_85_sub, hostOps0_86_sub, hostOps0_87_sub, hostOps0_88_sub, hostOps0_89_sub, hostOps0_90_sub, hostOps0_91_sub, hostOps0_92_sub, hostOps0_93_sub, hostOps0_94_sub, hostOps0_95_sub, hostOps0_96_sub, hostOps0_97_sub, hostOps0_98_sub, hostOps0_99_sub, hostOps0_100_sub, hostOps0_101_sub, hostOps0_102_sub, hostOps0_103_sub, hostOps0_104_sub, hostOps0_105_sub, hostOps0_106_sub, hostOps0_107_sub, hostOps0_108_sub, hostOps0_109_sub, hostOps0_110_sub⟩

theorem prefixOps_fresh : (prefixOps : List (List (HloOp τ sig (Elt F)))).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh, hostOps0_55_fresh, hostOps0_56_fresh, hostOps0_57_fresh, hostOps0_58_fresh, hostOps0_59_fresh, hostOps0_60_fresh, hostOps0_61_fresh, hostOps0_62_fresh, hostOps0_63_fresh, hostOps0_64_fresh, hostOps0_65_fresh, hostOps0_66_fresh, hostOps0_67_fresh, hostOps0_68_fresh, hostOps0_69_fresh, hostOps0_70_fresh, hostOps0_71_fresh, hostOps0_72_fresh, hostOps0_73_fresh, hostOps0_74_fresh, hostOps0_75_fresh, hostOps0_76_fresh, hostOps0_77_fresh, hostOps0_78_fresh, hostOps0_79_fresh, hostOps0_80_fresh, hostOps0_81_fresh, hostOps0_82_fresh, hostOps0_83_fresh, hostOps0_84_fresh, hostOps0_85_fresh, hostOps0_86_fresh, hostOps0_87_fresh, hostOps0_88_fresh, hostOps0_89_fresh, hostOps0_90_fresh, hostOps0_91_fresh, hostOps0_92_fresh, hostOps0_93_fresh, hostOps0_94_fresh, hostOps0_95_fresh, hostOps0_96_fresh, hostOps0_97_fresh, hostOps0_98_fresh, hostOps0_99_fresh, hostOps0_100_fresh, hostOps0_101_fresh, hostOps0_102_fresh, hostOps0_103_fresh, hostOps0_104_fresh, hostOps0_105_fresh, hostOps0_106_fresh, hostOps0_107_fresh, hostOps0_108_fresh, hostOps0_109_fresh, hostOps0_110_fresh⟩

variable (m : (ℓ : Loc nD τ sig) → Buf (Elt F) ℓ)

/-- Core `c`'s TensorCore buffer contents when the region is entered, as a valuation: after the host operations before
    the region. -/
abbrev V0 (c : Dev nD) : Valuation τ sig (Elt F) := StableHlo.after (List.flatten prefixOps) (fun b => m (c, b))
/-- The same read at a TensorCore reference. -/
abbrev V (c : Dev nD) (b : Ref sig .tc) : Buf (Elt F) ((c : Thread nD τ).loc b) := V0 m c (Proc.devRef .tc b)

/-- The program is the chain of the earlier stretches, the region and the later stretch, the stretches written as a
    list mapped to programs: the two spellings of the chain unfold to the same sequence. -/
theorem main_eq (c : Dev nD) : main (F := F) c = (Pipeline.chain
    ((prefixOps.map StableHlo.seq ++ [Prog.lift (.customCall (Pipeline.entry 0) ())]) ++ [hostOps1].map StableHlo.seq) : Prog (TpuEff nD τ sig (Elt F) (Pipeline.Sig Λ₀ (Fin 1) fun p => (pcfgs (F := F) p).Adm) .tc) PUnit) := by
  rewrite [main_chain c]
  chain_rfl

end Cert.Kernel.Frame

end
-- ==== Proof.FrameWAround.lean ====
/-
  The program reduces to its region: holding the unscoped buffers at the launch contents, it runs the host lines before
  the region, enters the region at the contents those lines leave, and continues with the host lines after it.
-/
import proofs.«120445_j5549097746519_2_alg».proof.Proof.FrameWPrefix

set_option maxRecDepth 16384

noncomputable section

namespace Cert.Kernel.Frame

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Cert.Kernel Cert.Kernel.Gen Cert.Kernel.GenP

variable {F : FTy → Type} [FloatOps F]

variable (m : (ℓ : Loc nD τ sig) → Buf (Elt F) ℓ)

set_option maxHeartbeats 1000000 in
/-- The program around the region: it reduces to the region, entered at `V`, continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main prefixOps [hostOps1] prefixOps_sub prefixOps_fresh main_eq

end Cert.Kernel.Frame

end
-- ==== Proof.FrameWSuffixLines.lean ====
/-
  The host lines after the region: what they touch, that they allocate nothing, and that they write no array the
  region's pipeline stages.

  The 382 operations after the region are in single-assignment order: each writes one buffer, of a larger index than
  every buffer written before it and at least the index of every buffer it reads. The first writes buffer 1955; the
  three arrays the pipeline stages (the features as bf16, the flattened weights, the product) are buffers 1947, 1953
  and 1954. So no later operation writes any of them.
-/
import proofs.«120445_j5549097746519_2_alg».proof.Proof.LaunchKP
import proofs.«120445_j5549097746519_2_alg».proof.Proof.LibSsaAfter
import Idealize.ShloMosaic.Lib.Pipeline.FrameSuffix

set_option maxRecDepth 16384

noncomputable section

namespace Cert.Kernel.Frame

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Cert.Kernel Cert.Kernel.Gen Cert.Kernel.GenP Cert.LibSsaAfter

variable {F : FTy → Type} [FloatOps F]

theorem hostOps1_fresh : (hostOps1 : List (HloOp τ sig (Elt F))).Forall fun op => op.fresh = ∅ := by
  simp only [List.Forall]; repeat' constructor

set_option maxHeartbeats 40000000 in
/-- The later lines are in single-assignment order, writing buffers 1955 to 2336. -/
theorem hostOps1_rising : Rising (τ := τ) 1955 2337 (hostOps1 : List (HloOp τ sig (Elt F))) := by
  rising_line

/-- The later lines touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- The three staged arrays rank below everything the later lines write. -/
theorem arr_rank_lt (w : Fin 3) : rk (Proc.devRef (τ := τ) .tc (Pipeline.arrRef spec0 w)) < 1955 := by
  fin_cases w <;> decide

/-- And they write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  exact absurd (hostOps1_rising.writes_mem op hop _ hmem).1 (Nat.not_le.mpr (arr_rank_lt w))

end Cert.Kernel.Frame

end
-- ==== Proof.FrameWKernelBody.lean ====
/-
  The kernel body of the dense product, at any grid point, and the proof data of its pipeline.

  At each of the grid's points the body is handed three staging buffers: a block of 4000 feature rows, the whole
  flattened weight matrix, and the output block's buffer. It loads all three (the output buffer's old contents are
  not used), multiplies the first two and stores the product over the whole output buffer. So after the body the two
  input buffers hold what they held, and the output buffer holds the product of the two input blocks, whatever it held
  before. The proof data below say this point by point: each input window's buffer at its block of the array as the
  region finds it, the output window's at the product of the two blocks.
-/
import proofs.«120445_j5549097746519_2_alg».proof.Proof.Gen.Kernel.Skeleton
import proofs.«120445_j5549097746519_2_alg».proof.Proof.Gen.Kernel.Points
import proofs.«120445_j5549097746519_2_alg».proof.Proof.LaunchKP
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

-- what the TensorCore buffers of each core hold when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point, for any proof data whose array is the
    region-entry contents and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's current staging buffer holds its block at every point, fetched there (the first point) or not
    (every later point: its index does not move). -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rIn0 : Rect S4000x128 := Rect.unit (s := S4000x128) ![0, 0] S4000x128.size inb_S4000x128_S4000x128_0_0
abbrev rIn1 : Rect S128x640 := Rect.unit (s := S128x640) ![0, 0] S128x640.size inb_S128x640_S128x640_0_0
abbrev rOut : Rect S4000x640 := Rect.unit (s := S4000x640) ![0, 0] S4000x640.size inb_S4000x640_S4000x640_0_0

/-! ## What the body leaves in the output window's buffer -/

/-- The output buffer after the body, from the two input blocks: its one store, of the product, over the whole buffer. -/
def outBlock (x0 : Vec F S4000x128 .bf16) (x1 : Vec F S128x640 .bf16) : Vec F S4000x640 .bf16 :=
  View.canon [⟨rOut, k0_pay1 (View.ld x0 rIn0) (View.ld x1 rIn1)⟩]

/-- The one store covers the buffer. -/
theorem coverOut (p0 : Vec F S4000x640 .bf16) (y : S4000x640.Idx) :
    ∃ pc ∈ ([⟨rOut, p0⟩] : List (View.Piece (Elt F) S4000x640 .bf16)), y ∈ pc.1.set :=
  View.cover_of_tiled [⟨rOut, p0⟩] S4000x640.size (by rfl) y

/-! ## The body's triple -/

set_option maxHeartbeats 1000000 in
/-- The kernel body on whole staging memrefs, the inputs' at contents `x0`, `x1` and the output's at anything, runs to the
    continuation holding the inputs' as they were and the output's at the product of the two. -/
theorem sound_kernel (c : Dev nD) (E : Set ℕ) (i : grid0.Coords) (arg1 : Memref sig .tc .vmem S4000x128 .bf16) (harg1 : arg1.IsWhole)
    (arg2 : Memref sig .tc .vmem S128x640 .bf16) (harg2 : arg2.IsWhole) (arg3 : Memref sig .tc .vmem S4000x640 .bf16) (harg3 : arg3.IsWhole)
    (x0 : Vec F S4000x128 .bf16) (x1 : Vec F S128x640 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0__dense_matmul_kernel i arg1 harg1 arg2 harg2 arg3 harg3) K := by
  simp only [cc0__dense_matmul_kernel_eq_skeleton]; unfold cc0__dense_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- The proof data of the one pipeline on core `c`: the arrays as the region finds them; after the body at point `t`
    each input's buffer at its block and the output's at the product of the two blocks; the invariant the scoped rest and
    the generator register, untouched; nothing owed; full shares. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlock (iblk V c 0 t) (iblk V c 1 t)
  Φ _ := Pipeline.ΦA spec0 c
  q _ := fullShare
  owed _ := 0

/-- The proof data's arrays are the region-entry contents. -/
theorem A_eq (c : Dev nD) (w : Fin cfg0.W) : (dats V 0 c).A w = V c (Pipeline.arrRef spec0 w) := by
  dsimp only [dats]

/-- What the body leaves, window by window. -/
theorem after0 (c : Dev nD) (t : Fin cfg0.N) : (dats V 0 c).after 0 t = iblk V c 0 t := by dsimp only [dats]
theorem after1 (c : Dev nD) (t : Fin cfg0.N) : (dats V 0 c).after 1 t = iblk V c 1 t := by dsimp only [dats]
theorem after2 (c : Dev nD) (t : Fin cfg0.N) : (dats V 0 c).after 2 t = outBlock (iblk V c 0 t) (iblk V c 1 t) := by dsimp only [dats]

/-- Each input's current staging buffer holds its block at every point, fetched there or not. -/
theorem before0 (c : Dev nD) (t : Fin cfg0.N) (d) : (dats V 0 c).before 0 t d = iblk V c 0 t :=
  before0_of V (dats V 0 c) (A_eq V c 0) (after0 V c) t d
theorem before1 (c : Dev nD) (t : Fin cfg0.N) (d) : (dats V 0 c).before 1 t d = iblk V c 1 t :=
  before1_of V (dats V 0 c) (A_eq V c 1) (after1 V c) t d

/-! ## The body obligation, at a generic point -/

/-- What the body is called with at point `t`, the windows one by one, -/
def bodyPre (c : Dev nD) (t : Fin cfg0.N) : sProp 𝕄 :=
  iprop((dats V 0 c).Φ t.castSucc ∗ (dats V 0 c).owesAt () t.castSucc
    ∗ (∃ d, owns (c : Thread nD τ) (st0_0 t) fullShare ((dats V 0 c).before 0 t d))
    ∗ (∃ d, owns (c : Thread nD τ) (st0_1 t) fullShare ((dats V 0 c).before 1 t d))
    ∗ (∃ d, owns (c : Thread nD τ) (st0_2 t) fullShare ((dats V 0 c).before 2 t d)))

/-- and what it returns. -/
def bodyPost (c : Dev nD) (t : Fin cfg0.N) : sProp 𝕄 :=
  iprop((dats V 0 c).Φ t.succ ∗ (dats V 0 c).owesAt () t.succ
    ∗ owns (c : Thread nD τ) (st0_0 t) fullShare ((dats V 0 c).after 0 t)
    ∗ owns (c : Thread nD τ) (st0_1 t) fullShare ((dats V 0 c).after 1 t)
    ∗ owns (c : Thread nD τ) (st0_2 t) fullShare ((dats V 0 c).after 2 t))

/-- The body at any point: the inputs' memrefs hold their blocks, the output's anything, so the body's triple applies;
    the invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dats V 0 c).Φ t.succ = (dats V 0 c).Φ t.castSucc from rfl,
    show (dats V 0 c).owesAt () t.succ = (dats V 0 c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) V 0 c) (defs₀ (F := F)) Variants.none () Set.univ := fun t => by
  rw [bigSep_W0, bigSep_W0]
  exact sound_body V c t

end Cert.Kernel.Frame

end
-- ==== Proof.FrameWPrefixRising.lean ====
/-
  The host lines before the region are in single-assignment order.

  Each of the 111 stretches writes one buffer per operation, of increasing index, and an operation reads no buffer of
  a larger index than the one it writes; stretch by stretch the indices continue where the stretch before stopped, from
  buffer 4 (the first after the four argument arrays) to buffer 1953 (the last before the region's result, 1954). So
  the whole line before the region is rising from 4 to 1954: what a buffer holds when the region is entered is what its
  own operation left in it, and the four argument arrays are written by none.
-/
import proofs.«120445_j5549097746519_2_alg».proof.Proof.FrameWPrefix
import proofs.«120445_j5549097746519_2_alg».proof.Proof.LibSsaAfter

set_option maxRecDepth 16384

noncomputable section

namespace Cert.Kernel.Frame

open Idealize.ShloMosaic Idealize.ShloMosaic.TcCoe
open Idealize.SL.Sem
open Cert.Kernel Cert.Kernel.Gen Cert.Kernel.GenP Cert.LibSsaAfter

variable {F : FTy → Type} [FloatOps F]

set_option maxHeartbeats 40000000

theorem hostOps0_rising : Rising (τ := τ) 4 78 (hostOps0 : List (HloOp τ sig (Elt F))) := by
  rising_line
theorem hostOps0_1_rising : Rising (τ := τ) 78 84 (hostOps0_1 : List (HloOp τ sig (Elt F))) := by
  rising_line
theorem hostOps0_2_rising : Rising (τ := τ) 84 98 (hostOps0_2 : List (HloOp τ sig (Elt F))) := by
  rising_line
theorem hostOps0_3_rising : Rising (τ := τ) 98 101 (hostOps0_3 : List (HloOp τ sig (Elt F))) := by
  rising_line
theorem hostOps0_4_rising : Rising (τ := τ) 101 149 (hostOps0_4 : List (HloOp τ sig (Elt F))) := by
  rising_line
theorem hostOps0_5_rising : Rising (τ := τ) 149 155 (hostOps0_5 : List (HloOp τ sig (Elt F))) := by
  rising_line
theorem hostOps0_6_rising : Rising (τ := τ) 155 169 (hostOps0_6 : List (HloOp τ sig (Elt F))) := by
  rising_line
theorem hostOps0_7_rising : Rising (τ := τ) 169 172 (hostOps0_7 : List (HloOp τ sig (Elt F))) := by
  rising_line
theorem hostOps0_8_rising : Rising (τ := τ) 172 220 (hostOps0_8 : List (HloOp τ sig (Elt F))) := by
  rising_line
theorem hostOps0_9_rising : Rising (τ := τ) 220 226 (hostOps0_9 : List (HloOp τ sig (Elt F))) := by
  rising_line
theorem hostOps0_10_rising : Rising (τ := τ) 226 240 (hostOps0_10 : List (HloOp τ sig (Elt F))) := by
  rising_line
theorem hostOps0_11_rising : Rising (τ := τ) 240 243 (hostOps0_11 : List (HloOp τ sig (Elt F))) := by
  rising_line
theorem hostOps0_12_rising : Rising (τ := τ) 243 291 (hostOps0_12 : List (HloOp τ sig (Elt F))) := by
  rising_line
theorem hostOps0_13_rising : Rising (τ := τ) 291 297 (hostOps0_13 : List (HloOp τ sig (Elt F))) := by
  rising_line
theorem hostOps0_14_rising : Rising (τ := τ) 297 311 (hostOps0_14 : List (HloOp τ sig (Elt F))) := by
  rising_line
theorem hostOps0_15_rising : Rising (τ := τ) 311 314 (hostOps0_15 : List (HloOp τ sig (Elt F))) := by
  rising_line
theorem hostOps0_16_rising : Rising (τ := τ) 314 362 (hostOps0_16 : List (HloOp τ sig (Elt F))) := by
  rising_line
theorem hostOps0_17_rising : Rising (τ := τ) 362 368 (hostOps0_17 : List (HloOp τ sig (Elt F))) := by
  rising_line
theorem hostOps0_18_rising : Rising (τ := τ) 368 382 (hostOps0_18 : List (HloOp τ sig (Elt F))) := by
  rising_line
theorem hostOps0_19_rising : Rising (τ := τ) 382 385 (hostOps0_19 : List (HloOp τ sig (Elt F))) := by
  rising_line
theorem hostOps0_20_rising : Rising (τ := τ) 385 433 (hostOps0_20 : List (HloOp τ sig (Elt F))) := by
  rising_line
theorem hostOps0_21_rising : Rising (τ := τ) 433 439 (hostOps0_21 : List (HloOp τ sig (Elt F))) := by
  rising_line
theorem hostOps0_22_rising : Rising (τ := τ) 439 453 (hostOps0_22 : List (HloOp τ sig (Elt F))) := by
  rising_line
theorem hostOps0_23_rising : Rising (τ := τ) 453 456 (hostOps0_23 : List (HloOp τ sig (Elt F))) := by
  rising_line
theorem hostOps0_24_rising : Rising (τ := τ) 456 504 (hostOps0_24 : List (HloOp τ sig (Elt F))) := by
  rising_line
theorem hostOps0_25_rising : Rising (τ := τ) 504 510 (hostOps0_25 : List (HloOp τ sig (Elt F))) := by
  rising_line
theorem hostOps0_26_rising : Rising (τ := τ) 510 524 (hostOps0_26 : List (HloOp τ sig (Elt F))) := by
  rising_line
theorem hostOps0_27_rising : Rising (τ := τ) 524 527 (hostOps0_27 : List (HloOp τ sig (Elt F))) := by
  rising_line
theorem hostOps0_28_rising : Rising (τ := τ) 527 575 (hostOps0_28 : List (HloOp τ sig (Elt F))) := by
  rising_line
theorem hostOps0_29_rising : Rising (τ := τ) 575 581 (hostOps0_29 : List (HloOp τ sig (Elt F))) := by
  rising_line
theorem hostOps0_30_rising : Rising (τ := τ) 581 595 (hostOps0_30 : List (HloOp τ sig (Elt F))) := by
  rising_line
theorem hostOps0_31_rising : Rising (τ := τ) 595 598 (hostOps0_31 : List (HloOp τ sig (Elt F))) := by
  rising_line
theorem hostOps0_32_rising : Rising (τ := τ) 598 646 (hostOps0_32 : List (HloOp τ sig (Elt F))) := by
  rising_line
theorem hostOps0_33_rising : Rising (τ := τ) 646 652 (hostOps0_33 : List (HloOp τ sig (Elt F))) := by
  rising_line
theorem hostOps0_34_rising : Rising (τ := τ) 652 666 (hostOps0_34 : List (HloOp τ sig (Elt F))) := by
  rising_line
theorem hostOps0_35_rising : Rising (τ := τ) 666 669 (hostOps0_35 : List (HloOp τ sig (Elt F))) := by
  rising_line
theorem hostOps0_36_rising : Rising (τ := τ) 669 717 (hostOps0_36 : List (HloOp τ sig (Elt F))) := by
  rising_line
theorem hostOps0_37_rising : Rising (τ := τ) 717 723 (hostOps0_37 : List (HloOp τ sig (Elt F))) := by
  rising_line
theorem hostOps0_38_rising : Rising (τ := τ) 723 737 (hostOps0_38 : List (HloOp τ sig (Elt F))) := by
  rising_line
theorem hostOps0_39_rising : Rising (τ := τ) 737 740 (hostOps0_39 : List (HloOp τ sig (Elt F))) := by
  rising_line
theorem hostOps0_40_rising : Rising (τ := τ) 740 788 (hostOps0_40 : List (HloOp τ sig (Elt F))) := by
  rising_line
theorem hostOps0_41_rising : Rising (τ := τ) 788 794 (hostOps0_41 : List (HloOp τ sig (Elt F))) := by
  rising_line
theorem hostOps0_42_rising : Rising (τ := τ) 794 808 (hostOps0_42 : List (HloOp τ sig (Elt F))) := by
  rising_line
theorem hostOps0_43_rising : Rising (τ := τ) 808 811 (hostOps0_43 : List (HloOp τ sig (Elt F))) := by
  rising_line
theorem hostOps0_44_rising : Rising (τ := τ) 811 859 (hostOps0_44 : List (HloOp τ sig (Elt F))) := by
  rising_line
theorem hostOps0_45_rising : Rising (τ := τ) 859 865 (hostOps0_45 : List (HloOp τ sig (Elt F))) := by
  rising_line
theorem hostOps0_46_rising : Rising (τ := τ) 865 879 (hostOps0_46 : List (HloOp τ sig (Elt F))) := by
  rising_line
theorem hostOps0_47_rising : Rising (τ := τ) 879 882 (hostOps0_47 : List (HloOp τ sig (Elt F))) := by
  rising_line
theorem hostOps0_48_rising : Rising (τ := τ) 882 930 (hostOps0_48 : List (HloOp τ sig (Elt F))) := by
  rising_line
theorem hostOps0_49_rising : Rising (τ := τ) 930 936 (hostOps0_49 : List (HloOp τ sig (Elt F))) := by
  rising_line
theorem hostOps0_50_rising : Rising (τ := τ) 936 950 (hostOps0_50 : List (HloOp τ sig (Elt F))) := by
  rising_line
theorem hostOps0_51_rising : Rising (τ := τ) 950 953 (hostOps0_51 : List (HloOp τ sig (Elt F))) := by
  rising_line
theorem hostOps0_52_rising : Rising (τ := τ) 953 1001 (hostOps0_52 : List (HloOp τ sig (Elt F))) := by
  rising_line
theorem hostOps0_53_rising : Rising (τ := τ) 1001 1007 (hostOps0_53 : List (HloOp τ sig (Elt F))) := by
  rising_line
theorem hostOps0_54_rising : Rising (τ := τ) 1007 1021 (hostOps0_54 : List (HloOp τ sig (Elt F))) := by
  rising_line
theorem hostOps0_55_rising : Rising (τ := τ) 1021 1024 (hostOps0_55 : List (HloOp τ sig (Elt F))) := by
  rising_line
theorem hostOps0_56_rising : Rising (τ := τ) 1024 1072 (hostOps0_56 : List (HloOp τ sig (Elt F))) := by
  rising_line
theorem hostOps0_57_rising : Rising (τ := τ) 1072 1078 (hostOps0_57 : List (HloOp τ sig (Elt F))) := by
  rising_line
theorem hostOps0_58_rising : Rising (τ := τ) 1078 1092 (hostOps0_58 : List (HloOp τ sig (Elt F))) := by
  rising_line
theorem hostOps0_59_rising : Rising (τ := τ) 1092 1095 (hostOps0_59 : List (HloOp τ sig (Elt F))) := by
  rising_line
theorem hostOps0_60_rising : Rising (τ := τ) 1095 1143 (hostOps0_60 : List (HloOp τ sig (Elt F))) := by
  rising_line
theorem hostOps0_61_rising : Rising (τ := τ) 1143 1149 (hostOps0_61 : List (HloOp τ sig (Elt F))) := by
  rising_line
theorem hostOps0_62_rising : Rising (τ := τ) 1149 1163 (hostOps0_62 : List (HloOp τ sig (Elt F))) := by
  rising_line
theorem hostOps0_63_rising : Rising (τ := τ) 1163 1166 (hostOps0_63 : List (HloOp τ sig (Elt F))) := by
  rising_line
theorem hostOps0_64_rising : Rising (τ := τ) 1166 1214 (hostOps0_64 : List (HloOp τ sig (Elt F))) := by
  rising_line
theorem hostOps0_65_rising : Rising (τ := τ) 1214 1220 (hostOps0_65 : List (HloOp τ sig (Elt F))) := by
  rising_line
theorem hostOps0_66_rising : Rising (τ := τ) 1220 1234 (hostOps0_66 : List (HloOp τ sig (Elt F))) := by
  rising_line
theorem hostOps0_67_rising : Rising (τ := τ) 1234 1237 (hostOps0_67 : List (HloOp τ sig (Elt F))) := by
  rising_line
theorem hostOps0_68_rising : Rising (τ := τ) 1237 1285 (hostOps0_68 : List (HloOp τ sig (Elt F))) := by
  rising_line
theorem hostOps0_69_rising : Rising (τ := τ) 1285 1291 (hostOps0_69 : List (HloOp τ sig (Elt F))) := by
  rising_line
theorem hostOps0_70_rising : Rising (τ := τ) 1291 1305 (hostOps0_70 : List (HloOp τ sig (Elt F))) := by
  rising_line
theorem hostOps0_71_rising : Rising (τ := τ) 1305 1308 (hostOps0_71 : List (HloOp τ sig (Elt F))) := by
  rising_line
theorem hostOps0_72_rising : Rising (τ := τ) 1308 1356 (hostOps0_72 : List (HloOp τ sig (Elt F))) := by
  rising_line
theorem hostOps0_73_rising : Rising (τ := τ) 1356 1362 (hostOps0_73 : List (HloOp τ sig (Elt F))) := by
  rising_line
theorem hostOps0_74_rising : Rising (τ := τ) 1362 1376 (hostOps0_74 : List (HloOp τ sig (Elt F))) := by
  rising_line
theorem hostOps0_75_rising : Rising (τ := τ) 1376 1379 (hostOps0_75 : List (HloOp τ sig (Elt F))) := by
  rising_line
theorem hostOps0_76_rising : Rising (τ := τ) 1379 1427 (hostOps0_76 : List (HloOp τ sig (Elt F))) := by
  rising_line
theorem hostOps0_77_rising : Rising (τ := τ) 1427 1433 (hostOps0_77 : List (HloOp τ sig (Elt F))) := by
  rising_line
theorem hostOps0_78_rising : Rising (τ := τ) 1433 1447 (hostOps0_78 : List (HloOp τ sig (Elt F))) := by
  rising_line
theorem hostOps0_79_rising : Rising (τ := τ) 1447 1450 (hostOps0_79 : List (HloOp τ sig (Elt F))) := by
  rising_line
theorem hostOps0_80_rising : Rising (τ := τ) 1450 1498 (hostOps0_80 : List (HloOp τ sig (Elt F))) := by
  rising_line
theorem hostOps0_81_rising : Rising (τ := τ) 1498 1504 (hostOps0_81 : List (HloOp τ sig (Elt F))) := by
  rising_line
theorem hostOps0_82_rising : Rising (τ := τ) 1504 1518 (hostOps0_82 : List (HloOp τ sig (Elt F))) := by
  rising_line
theorem hostOps0_83_rising : Rising (τ := τ) 1518 1521 (hostOps0_83 : List (HloOp τ sig (Elt F))) := by
  rising_line
theorem hostOps0_84_rising : Rising (τ := τ) 1521 1569 (hostOps0_84 : List (HloOp τ sig (Elt F))) := by
  rising_line
theorem hostOps0_85_rising : Rising (τ := τ) 1569 1575 (hostOps0_85 : List (HloOp τ sig (Elt F))) := by
  rising_line
theorem hostOps0_86_rising : Rising (τ := τ) 1575 1589 (hostOps0_86 : List (HloOp τ sig (Elt F))) := by
  rising_line
theorem hostOps0_87_rising : Rising (τ := τ) 1589 1592 (hostOps0_87 : List (HloOp τ sig (Elt F))) := by
  rising_line
theorem hostOps0_88_rising : Rising (τ := τ) 1592 1640 (hostOps0_88 : List (HloOp τ sig (Elt F))) := by
  rising_line
theorem hostOps0_89_rising : Rising (τ := τ) 1640 1646 (hostOps0_89 : List (HloOp τ sig (Elt F))) := by
  rising_line
theorem hostOps0_90_rising : Rising (τ := τ) 1646 1660 (hostOps0_90 : List (HloOp τ sig (Elt F))) := by
  rising_line
theorem hostOps0_91_rising : Rising (τ := τ) 1660 1663 (hostOps0_91 : List (HloOp τ sig (Elt F))) := by
  rising_line
theorem hostOps0_92_rising : Rising (τ := τ) 1663 1711 (hostOps0_92 : List (HloOp τ sig (Elt F))) := by
  rising_line
theorem hostOps0_93_rising : Rising (τ := τ) 1711 1717 (hostOps0_93 : List (HloOp τ sig (Elt F))) := by
  rising_line
theorem hostOps0_94_rising : Rising (τ := τ) 1717 1731 (hostOps0_94 : List (HloOp τ sig (Elt F))) := by
  rising_line
theorem hostOps0_95_rising : Rising (τ := τ) 1731 1734 (hostOps0_95 : List (HloOp τ sig (Elt F))) := by
  rising_line
theorem hostOps0_96_rising : Rising (τ := τ) 1734 1782 (hostOps0_96 : List (HloOp τ sig (Elt F))) := by
  rising_line
theorem hostOps0_97_rising : Rising (τ := τ) 1782 1788 (hostOps0_97 : List (HloOp τ sig (Elt F))) := by
  rising_line
theorem hostOps0_98_rising : Rising (τ := τ) 1788 1802 (hostOps0_98 : List (HloOp τ sig (Elt F))) := by
  rising_line
theorem hostOps0_99_rising : Rising (τ := τ) 1802 1805 (hostOps0_99 : List (HloOp τ sig (Elt F))) := by
  rising_line
theorem hostOps0_100_rising : Rising (τ := τ) 1805 1853 (hostOps0_100 : List (HloOp τ sig (Elt F))) := by
  rising_line
theorem hostOps0_101_rising : Rising (τ := τ) 1853 1859 (hostOps0_101 : List (HloOp τ sig (Elt F))) := by
  rising_line
theorem hostOps0_102_rising : Rising (τ := τ) 1859 1873 (hostOps0_102 : List (HloOp τ sig (Elt F))) := by
  rising_line
theorem hostOps0_103_rising : Rising (τ := τ) 1873 1876 (hostOps0_103 : List (HloOp τ sig (Elt F))) := by
  rising_line
theorem hostOps0_104_rising : Rising (τ := τ) 1876 1924 (hostOps0_104 : List (HloOp τ sig (Elt F))) := by
  rising_line
theorem hostOps0_105_rising : Rising (τ := τ) 1924 1930 (hostOps0_105 : List (HloOp τ sig (Elt F))) := by
  rising_line
theorem hostOps0_106_rising : Rising (τ := τ) 1930 1944 (hostOps0_106 : List (HloOp τ sig (Elt F))) := by
  rising_line
theorem hostOps0_107_rising : Rising (τ := τ) 1944 1947 (hostOps0_107 : List (HloOp τ sig (Elt F))) := by
  rising_line
theorem hostOps0_108_rising : Rising (τ := τ) 1947 1951 (hostOps0_108 : List (HloOp τ sig (Elt F))) := by
  rising_line
theorem hostOps0_109_rising : Rising (τ := τ) 1951 1953 (hostOps0_109 : List (HloOp τ sig (Elt F))) := by
  rising_line
theorem hostOps0_110_rising : Rising (τ := τ) 1953 1954 (hostOps0_110 : List (HloOp τ sig (Elt F))) := by
  rising_line

/-- The whole line before the region, the stretches one after the other, is rising from buffer 4 to buffer 1954. -/
theorem prefix_rising : Rising (τ := τ) 4 1954 (List.flatten (prefixOps : List (List (HloOp τ sig (Elt F))))) :=
  (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.append (Rising.nil (Nat.le_refl 1954)) hostOps0_110_rising) hostOps0_109_rising) hostOps0_108_rising) hostOps0_107_rising) hostOps0_106_rising) hostOps0_105_rising) hostOps0_104_rising) hostOps0_103_rising) hostOps0_102_rising) hostOps0_101_rising) hostOps0_100_rising) hostOps0_99_rising) hostOps0_98_rising) hostOps0_97_rising) hostOps0_96_rising) hostOps0_95_rising) hostOps0_94_rising) hostOps0_93_rising) hostOps0_92_rising) hostOps0_91_rising) hostOps0_90_rising) hostOps0_89_rising) hostOps0_88_rising) hostOps0_87_rising) hostOps0_86_rising) hostOps0_85_rising) hostOps0_84_rising) hostOps0_83_rising) hostOps0_82_rising) hostOps0_81_rising) hostOps0_80_rising) hostOps0_79_rising) hostOps0_78_rising) hostOps0_77_rising) hostOps0_76_rising) hostOps0_75_rising) hostOps0_74_rising) hostOps0_73_rising) hostOps0_72_rising) hostOps0_71_rising) hostOps0_70_rising) hostOps0_69_rising) hostOps0_68_rising) hostOps0_67_rising) hostOps0_66_rising) hostOps0_65_rising) hostOps0_64_rising) hostOps0_63_rising) hostOps0_62_rising) hostOps0_61_rising) hostOps0_60_rising) hostOps0_59_rising) hostOps0_58_rising) hostOps0_57_rising) hostOps0_56_rising) hostOps0_55_rising) hostOps0_54_rising) hostOps0_53_rising) hostOps0_52_rising) hostOps0_51_rising) hostOps0_50_rising) hostOps0_49_rising) hostOps0_48_rising) hostOps0_47_rising) hostOps0_46_rising) hostOps0_45_rising) hostOps0_44_rising) hostOps0_43_rising) hostOps0_42_rising) hostOps0_41_rising) hostOps0_40_rising) hostOps0_39_rising) hostOps0_38_rising) hostOps0_37_rising) hostOps0_36_rising) hostOps0_35_rising) hostOps0_34_rising) hostOps0_33_rising) hostOps0_32_rising) hostOps0_31_rising) hostOps0_30_rising) hostOps0_29_rising) hostOps0_28_rising) hostOps0_27_rising) hostOps0_26_rising) hostOps0_25_rising) hostOps0_24_rising) hostOps0_23_rising) hostOps0_22_rising) hostOps0_21_rising) hostOps0_20_rising) hostOps0_19_rising) hostOps0_18_rising) hostOps0_17_rising) hostOps0_16_rising) hostOps0_15_rising) hostOps0_14_rising) hostOps0_13_rising) hostOps0_12_rising) hostOps0_11_rising) hostOps0_10_rising) hostOps0_9_rising) hostOps0_8_rising) hostOps0_7_rising) hostOps0_6_rising) hostOps0_5_rising) hostOps0_4_rising) hostOps0_3_rising) hostOps0_2_rising) hostOps0_1_rising) hostOps0_rising)

/-- A buffer ranked below 4 — an argument array — holds at the region's entry what it held at launch. -/
theorem V0_of_lt (m : (ℓ : Loc nD τ sig) → Buf (Elt F) ℓ) (c : Dev nD) {b : DevRef τ sig} (hb : rk b < 4) :
    V0 m c b = m (c, b) :=
  after_of_lt prefix_rising _ hb

end Cert.Kernel.Frame

end
-- ==== Proof.KernelWFrame.lean ====
/-
  THE FRAME of the kernel program as printed, for any float instance.

  From any memory with zero semaphore counters, every weakly fair execution of the program on the TensorCores
  terminates, nothing faulting, and in every final state the result array holds what the host lines after the region
  compute from the region's exit contents, and the four argument arrays hold what they held at launch.

  The run is the frame run of a program whose one region is followed by host lines: the pipeline's three arrays end at
  what the proof data give, and every other unscoped buffer at what the later lines leave in it. An argument array is
  no array of the pipeline; the later lines write buffers 1955 to 2336 only and the earlier lines buffers 4 to 1953
  only, so the argument arrays (buffers 0 to 3) are written by none.
-/
import proofs.«120445_j5549097746519_2_alg».proof.Proof.FrameWAround
import proofs.«120445_j5549097746519_2_alg».proof.Proof.FrameWSuffixLines
import proofs.«120445_j5549097746519_2_alg».proof.Proof.FrameWKernelBody
import proofs.«120445_j5549097746519_2_alg».proof.Proof.FrameWPrefixRising

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP Cert.LibSsaAfter

variable {F : FTy → Type} [FloatOps F]

variable (m : (ℓ : Loc nD τ sig) → Buf (Elt F) ℓ) (ρ : Dev nD → PrngReg)

/-! ## The run -/

set_option backward.isDefEq.respectTransparency.types false in
/-- At the compiled mesh, for any values, from any memory with zero counters: every weakly fair execution of the program
    on the TensorCores terminates, and every final state has every array of the pipeline at what the library computes
    from the proof data and every other unscoped buffer as the lines after the region leave it. -/
theorem run_main : θ_run defs (onTc (τ := τ) (main (F := F))) (s₀ m ρ)
    (Pipeline.FramePost cfgs (dats (V m)) 0 (Pipeline.afterTail₀ cfgs (dats (V m)) 0 (V0 m) [hostOps1])) :=
  Pipeline.θ_run_frame_around cfgs (dats (V m)) (0 : Fin 1) launch0 defs₀ Variants.none m ρ main
    (hbody := fun c => (body_obligation (V m) c).loose) (hshare := fun c => (dats (V m) 0 c).share_full fun _ => rfl)
    (howed := fun _ _ => rfl) (V₀ := V0 m) (opss := [hostOps1]) (hsub := sfx_sub) (hfresh := sfx_fresh) (hkeep := sfx_keeps)
    (hmain := hmain m Variants.none) (hA := A_eq (V m)) (hΦ := fun _ _ => rfl)

/-! ## The buffers the later lines do not write -/

/-- An unscoped buffer that is no array of the pipeline and ranks below everything the later lines write holds at the
    end what it held when the region was entered. -/
theorem afterTail_of_lt (c : Dev nD) (b : Ref sig .tc) (harr : ∀ w, Pipeline.arrRef spec0 w ≠ b)
    (hb : rk (Proc.devRef (τ := τ) .tc b) < 1955) :
    Pipeline.afterTail₀ cfgs (dats (V m)) 0 (V0 m) [hostOps1] c b = V0 m c (Proc.devRef .tc b) := by
  unfold Pipeline.afterTail₀
  rw [StableHlo.after_of_forall_not_mem _ _ fun op hop hw => ?_, Pipeline.withArrays_of_ne _ c (V0 m c) _ b harr]
  obtain ⟨ops, hops, hop'⟩ := List.mem_flatten.mp hop
  simp only [List.mem_cons, List.mem_nil_iff, or_false] at hops
  subst hops
  exact absurd (hostOps1_rising.writes_mem op hop' _ hw).1 (Nat.not_le.mpr hb)

/-- An argument array — a buffer ranked below 4, no array of the pipeline — holds at the end what it held at launch. -/
theorem afterTail_arg (c : Dev nD) (b : Ref sig .tc) (harr : ∀ w, Pipeline.arrRef spec0 w ≠ b)
    (hb : rk (Proc.devRef (τ := τ) .tc b) < 4) :
    Pipeline.afterTail₀ cfgs (dats (V m)) 0 (V0 m) [hostOps1] c b = m ((c.tc : Thread nD τ).loc b) :=
  (afterTail_of_lt m c b harr (Nat.lt_trans hb (by decide))).trans (V0_of_lt m c hb)

/-! ## The frame -/

theorem mem_rest_arg0 : main_arg0 ∈ Pipeline.restRefs sig spec0 := Pipeline.mem_restRefs_of main_arg0 rfl (by decide)
theorem mem_rest_arg1 : main_arg1 ∈ Pipeline.restRefs sig spec0 := Pipeline.mem_restRefs_of main_arg1 rfl (by decide)
theorem mem_rest_arg2 : main_arg2 ∈ Pipeline.restRefs sig spec0 := Pipeline.mem_restRefs_of main_arg2 rfl (by decide)
theorem mem_rest_arg3 : main_arg3 ∈ Pipeline.restRefs sig spec0 := Pipeline.mem_restRefs_of main_arg3 rfl (by decide)
theorem mem_rest_result : main_v1595 ∈ Pipeline.restRefs sig spec0 := Pipeline.mem_restRefs_of main_v1595 rfl (by decide)

/-- THE FRAME: the program runs, its result array ends at what the later lines compute from the region's exit contents,
    and its four argument arrays end unchanged. -/
theorem frame_run : θ_run defs (onTc (τ := τ) (main (F := F))) ⟨m, fun _ => 0, ρ⟩ (fun r => ∀ c : Dev nD,
      r.2.mem ((c.tc : Thread nD τ).loc main_v1595) = Pipeline.afterTail₀ cfgs (dats (V m)) 0 (V0 m) [hostOps1] c main_v1595
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v1595 mem_rest_result,
     ((h c).2 main_arg0 mem_rest_arg0).trans (afterTail_arg m c main_arg0 (by decide) (by decide)),
     ((h c).2 main_arg1 mem_rest_arg1).trans (afterTail_arg m c main_arg1 (by decide) (by decide)),
     ((h c).2 main_arg2 mem_rest_arg2).trans (afterTail_arg m c main_arg2 (by decide) (by decide)),
     ((h c).2 main_arg3 mem_rest_arg3).trans (afterTail_arg m c main_arg3 (by decide) (by decide))⟩) (run_main m ρ)

end Cert.Kernel.Frame

end
-- ==== Proof.FrameClaims.lean ====
/-
  THE FRAME CLAIMS of the kernel program, as printed and idealized: from any memory of which the precondition holds,
  with zero semaphore counters, every weakly fair execution terminates, nothing faulting, and the four argument arrays
  end unchanged. Each is the frame run of its program (which holds from any memory, and also names the result array)
  read at the arguments.
-/
import proofs.«120445_j5549097746519_2_alg».proof.Defs
import proofs.«120445_j5549097746519_2_alg».proof.Proof.Gen.Kernel
import proofs.«120445_j5549097746519_2_alg».proof.Proof.Gen.KernelIdeal
import proofs.«120445_j5549097746519_2_alg».proof.Proof.Gen.Pre_finite_inputs
import proofs.«120445_j5549097746519_2_alg».proof.Proof.KernelFrame
import proofs.«120445_j5549097746519_2_alg».proof.Proof.KernelWFrame

noncomputable section

namespace Cert.Proof.Claims

open Idealize.ShloMosaic Idealize.SL.Sem

/-- The frame of the kernel program as printed, at the bit-exact instance. -/
theorem frame_k : Cert.frame_Kernel := fun m ρ _ =>
  (θ_run _ _ _).mono (fun _ h c => (h c).2) (Cert.Kernel.Frame.frame_run (F := Bits) m ρ)

/-- The frame of the idealized kernel program, at the ideal instance. -/
theorem frame_ki : Cert.frame_KernelIdeal := fun m ρ _ =>
  (θ_run _ _ _).mono (fun _ h c => (h c).2) (Cert.KernelIdeal.Frame.frame_run (F := Ideal) m ρ)

end Cert.Proof.Claims

end
-- ==== Proof.LibBlockGather.lean ====
/-
  A `stablehlo.gather` that takes, for each start index, a short block of ONE row of a matrix.

  The operand is a matrix `x : [N, C]`; the start indices are pairs `idx : [E, 2]` — a row and a first column —; the
  result `[E, B]` holds, in row `e`, the `B` consecutive entries of the operand's row `idx[e, 0]` that begin at column
  `idx[e, 1]`. Both components are read signed and clamped so that the block lies inside the operand: the row into
  `[0, N − 1]`, the first column into `[0, C − B]`. This is how a narrow slice of a wide row is fetched without
  fetching the row: `y[rows, k·B : (k+1)·B]` for a fixed `k`.
-/
import Idealize.ShloMosaic.Lib.ValueIdx

noncomputable section

namespace Cert.LibBlockGather

open Idealize.ShloMosaic Idealize.ShloMosaic.ValueIdx

variable {α : Type}

/-- The dimension numbers of "for each pair `idx[e, ·] = (row, col)`, the `B` entries of `x : [N, C]` at row `row`
    from column `col` on", result `[E, B]`: offset_dims `[1]`, collapsed_slice_dims `[0]`, start_index_map `[0, 1]`,
    index_vector_dim 1, slice_sizes `[1, B]`. Their conditions `wf` are decided on literal shapes. -/
abbrev blockGatherDims (N C E B : Nat)
    (wf : GatherDims.WF ⟨2, ![N, C]⟩ ⟨2, ![E, 2]⟩ ⟨2, ![E, B]⟩ [1] [0] [] [0, 1] [] 1 ![1, B]) :
    GatherDims ⟨2, ![N, C]⟩ ⟨2, ![E, 2]⟩ ⟨2, ![E, B]⟩ where
  offsetDims := [1]
  collapsedSliceDims := [0]
  operandBatchingDims := []
  startIndicesBatchingDims := []
  startIndexMap := [0, 1]
  indexVectorDim := 1
  sliceSizes := ![1, B]
  wf := wf

/-- THE BLOCK GATHER READ AT `(e, f)`: entry `f` of the block is the operand's entry at row `idx[e, 0]` (signed,
    clamped into `[0, N − 1]`) and column `idx[e, 1]` (signed, clamped into `[0, C − B]`) plus `f`. On axis 0, a
    collapsed axis, the operand coordinate is the clamped start alone; on axis 1 it is the clamped start plus the
    offset coordinate `f`. -/
theorem blockGather_apply {N C E B w : Nat} (hN : 0 < N) (hB : B ≤ C)
    (wf : GatherDims.WF ⟨2, ![N, C]⟩ ⟨2, ![E, 2]⟩ ⟨2, ![E, B]⟩ [1] [0] [] [0, 1] [] 1 ![1, B])
    (x : (⟨2, ![N, C]⟩ : Shape).Idx → α) (idx : IVec ⟨2, ![E, 2]⟩ w) (e : Fin E) (f : Fin B) :
    Host.gather (blockGatherDims N C E B wf) x idx (ix2 e f)
      = x (ix2 (⟨min (idx (ix2 e (0 : Fin 2))).toInt.toNat (N - 1), by omega⟩ : Fin N)
            (⟨min (idx (ix2 e (1 : Fin 2))).toInt.toNat (C - B) + f.val, by have := f.isLt; omega⟩ : Fin C)) := by
  unfold Host.gather
  congr 1
  funext a
  refine Fin.ext ?_
  have h0 : (0 : Fin 2) ∈ ([0, 1] : List (Fin 2)) := by decide
  have h1 : (1 : Fin 2) ∈ ([0, 1] : List (Fin 2)) := by decide
  have hsi0 : (blockGatherDims N C E B wf).siIdx (ix2 e f) ⟨List.idxOf (0 : Fin 2) (blockGatherDims N C E B wf).startIndexMap,
      List.idxOf_lt_length_iff.2 h0⟩ = ix2 e (0 : Fin 2) := by
    funext b; refine Fin.ext ?_
    match b with
    | ⟨0, _⟩ => rfl
    | ⟨1, _⟩ => rfl
  have hsi1 : (blockGatherDims N C E B wf).siIdx (ix2 e f) ⟨List.idxOf (1 : Fin 2) (blockGatherDims N C E B wf).startIndexMap,
      List.idxOf_lt_length_iff.2 h1⟩ = ix2 e (1 : Fin 2) := by
    funext b; refine Fin.ext ?_
    match b with
    | ⟨0, _⟩ => rfl
    | ⟨1, _⟩ => rfl
  match a with
  | ⟨0, _⟩ =>
    show (blockGatherDims N C E B wf).start (ix2 e f) idx (0 : Fin 2) + (blockGatherDims N C E B wf).batchCoord (ix2 e f) (0 : Fin 2)
      + (blockGatherDims N C E B wf).offCoord (ix2 e f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (blockGatherDims N C E B wf).startIndexMap from h0), hsi0]
    rfl
  | ⟨1, _⟩ =>
    show (blockGatherDims N C E B wf).start (ix2 e f) idx (1 : Fin 2) + (blockGatherDims N C E B wf).batchCoord (ix2 e f) (1 : Fin 2)
      + (blockGatherDims N C E B wf).offCoord (ix2 e f) (1 : Fin 2) = _
    have hs : (blockGatherDims N C E B wf).start (ix2 e f) idx (1 : Fin 2)
        = min (idx (ix2 e (1 : Fin 2))).toInt.toNat (C - B) := by
      unfold GatherDims.start
      rw [dif_pos (show (1 : Fin 2) ∈ (blockGatherDims N C E B wf).startIndexMap from h1), hsi1]
      rfl
    have ho : (blockGatherDims N C E B wf).offCoord (ix2 e f) (1 : Fin 2) = f.val := by
      unfold GatherDims.offCoord
      rw [dif_pos ((GatherDims.mem_sKept _ _).mpr ⟨show (1 : Fin 2) ∉ ([0] : List (Fin 2)) by decide, List.not_mem_nil⟩)]
      rfl
    rw [hs, GatherDims.batchCoord_eq_zero _ _ _ List.not_mem_nil, ho]
    simp only [Nat.add_zero]

end Cert.LibBlockGather

end
-- ==== Proof.KerTap.lean ====
/-
  One tap of a sparse 3×3×3 convolution computed from ONE dense product, and the two layout facts around that product,
  each read at an index, over the extended reals.

  The weights `W : [27, 128, 20]` (tap, input channel, output channel) are laid side by side as one matrix
  `[128, 640]`: column `20·k + c` of row `j` holds `W[k, j, c]`, and the columns from 540 on are zero
  (`wflat_apply`, `wflat_pad`). The features times this matrix is `Y : [200000, 640]`, whose columns
  `20·k … 20·k + 19` are the features times tap `k`'s weights. A zero row is appended, row 200000 (`ypad_apply`).
  Tap `k` then reads, for every voxel `p`, the 20-wide block of the padded product at row `idx[p]` — the neighbour's
  voxel index where the tap is valid, else 200000, the zero row — from column `20·k` on (`kerTap_apply`): the wrap
  of negative indices and the gather's clamps are the identity, because `0 ≤ idx[p] ≤ 200000` and `20·k ≤ 620`. Read through the appended row
  (`kerTap_ypad_apply`), the tap's entry `(p, c)` is `Y[idx[p], 20·k + c]` where `idx[p] < 200000` and zero otherwise.

  Every statement spells the operations out as the program does, over literal shapes; the side conditions of the shape
  operations are hypotheses.
-/
import Idealize.ShloMosaic.Lib.ValueLayout
import Idealize.ShloMosaic.Lib.KernelVsHost
import proofs.«120445_j5549097746519_2_alg».proof.Proof.LibBlockGather

noncomputable section

namespace Cert.KerTap

open Idealize.ShloMosaic Idealize.ShloMosaic.ValueIdx Cert.LibBlockGather

/-! ## The shapes of this part of the program, written out -/

local notation "S_" => (⟨0, ![]⟩ : Shape)
local notation "S200000" => (⟨1, ![200000]⟩ : Shape)
local notation "S200000x1" => (⟨2, ![200000, 1]⟩ : Shape)
local notation "S200000x2" => (⟨2, ![200000, 2]⟩ : Shape)
local notation "S200000x20" => (⟨2, ![200000, 20]⟩ : Shape)
local notation "S200000x640" => (⟨2, ![200000, 640]⟩ : Shape)
local notation "S1x640" => (⟨2, ![1, 640]⟩ : Shape)
local notation "S200001x640" => (⟨2, ![200001, 640]⟩ : Shape)
local notation "S27x128x20" => (⟨3, ![27, 128, 20]⟩ : Shape)
local notation "S128x27x20" => (⟨3, ![128, 27, 20]⟩ : Shape)
local notation "S128x540" => (⟨2, ![128, 540]⟩ : Shape)
local notation "S128x640" => (⟨2, ![128, 640]⟩ : Shape)

/-! ## Words and constants -/

/-- The integer zero converted to a float is the extended real zero. -/
theorem sitofp_zero_apply (i : (S_).Idx) :
    (sitofp (F := Ideal) .f32 (constantI S_ 32 0#32) : FVec Ideal S_ .f32) i = 0 := by
  show (((0#32 : BitVec 32).toInt : ℝ) : EReal) = 0
  simp

/-- The all-zero bf16 pattern denotes the extended real zero. -/
theorem ofBits_zero_bf16 : Ideal.ofBits .bf16 0x0000#16 = 0 := by simp [Ideal.ofBits, Ideal.ieee]

/-- A signed comparison "below zero" of a word that is not negative is the bit 0. -/
theorem cmpi_slt_zero_of_nonneg (x : BitVec 32) (h : 0 ≤ x.toInt) : IntOp.cmpi .slt x 0#32 = 0#1 := by
  have h0 : (0#32 : BitVec 32).toInt = 0 := by decide
  have hs : x.slt 0#32 = false := by
    rw [BitVec.slt, h0]
    exact decide_eq_false (by omega)
  show BitVec.ofBool (x.slt 0#32) = 0#1
  rw [hs]
  rfl

/-! ## The flattened, padded weights, read at an index

The weights `W : [27, 128, 20]` (tap, input channel, output channel) are transposed to `[128, 27, 20]`, flattened to
`[128, 540]` — column `20·k + c` of row `j` is `W[k, j, c]` —, padded with zero columns to `[128, 640]` and
narrowed (the identity on extended reals). -/

section Weights

variable (W : FVec Ideal S27x128x20 .f32)
  (htr : (S27x128x20).Transposes [1, 0, 2] S128x27x20)
  (hsc : (S128x27x20).ShapeCasts S128x540)
  (hpad : (S128x540).Pads (![0, 0] : Fin 2 → Nat) ![0, 100] ![0, 0] S128x640)
  (hS : 0 < (S_).numel)
  (hbits : FTy.bits .bf16 < FTy.bits .f32)

/-- The transposed weights at `(j, k, c)` are the weights at `(k, j, c)`. -/
theorem wT_apply (j : Fin 128) (k : Fin 27) (c : Fin 20) :
    transpose S128x27x20 [1, 0, 2] W htr (ix3 j k c) = W (ix3 k j c) :=
  transpose_apply _ W htr _ _ fun b => match b with | ⟨0, _⟩ => rfl | ⟨1, _⟩ => rfl | ⟨2, _⟩ => rfl

/-- The flattened weights at `(j, 20·k + c)` are the transposed weights at `(j, k, c)`: the two indices have the same
    row-major position, `(j·27 + k)·20 + c = j·540 + (20·k + c)`. -/
theorem wFlat_apply (j : Fin 128) (k : Fin 27) (c : Fin 20) :
    shapeCast S128x540 (transpose S128x27x20 [1, 0, 2] W htr) hsc
        (ix2 j (⟨20 * k.val + c.val, by have := k.isLt; have := c.isLt; omega⟩ : Fin 540))
      = W (ix3 k j c) := by
  refine (shapeCast_apply _ hsc _ (ix3 j k c) ?_).trans (wT_apply W htr j k c)
  rw [Shape.rowMajor_val_three, Shape.rowMajor_val_two]
  show (j.val * 27 + k.val) * 20 + c.val = j.val * 540 + (20 * k.val + c.val)
  omega

/-- THE PADDED, FLATTENED WEIGHTS AT `(j, 20·k + c)`, a column below 540, are `W[k, j, c]`. -/
theorem wflat_apply (j : Fin 128) (k : Fin 27) (c : Fin 20) :
    truncf .bf16
        (pad S128x640 ![0, 0] ![0, 100] ![0, 0]
          (shapeCast S128x540 (transpose S128x27x20 [1, 0, 2] W htr) hsc)
          (sitofp (F := Ideal) .f32 (constantI S_ 32 0#32)) hpad hS) hbits
        (ix2 j (⟨20 * k.val + c.val, by have := k.isLt; have := c.isLt; omega⟩ : Fin 640))
      = W (ix3 k j c) := by
  rw [truncf_apply]
  refine (pad_apply_of_inside _ _ _ _ _ hpad hS _
    (ix2 j (⟨20 * k.val + c.val, by have := k.isLt; have := c.isLt; omega⟩ : Fin 540)) ?_).trans
    (wFlat_apply W htr hsc j k c)
  intro a
  match a with
  | ⟨0, _⟩ => show j.val = 0 + j.val * (0 + 1); omega
  | ⟨1, _⟩ => show 20 * k.val + c.val = 0 + (20 * k.val + c.val) * (0 + 1); omega

/-- THE PADDED, FLATTENED WEIGHTS AT A COLUMN FROM 540 ON are zero: the column lies in the high padding. -/
theorem wflat_pad (j : Fin 128) (col : Fin 640) (hcol : 540 ≤ col.val) :
    truncf .bf16
        (pad S128x640 ![0, 0] ![0, 100] ![0, 0]
          (shapeCast S128x540 (transpose S128x27x20 [1, 0, 2] W htr) hsc)
          (sitofp (F := Ideal) .f32 (constantI S_ 32 0#32)) hpad hS) hbits
        (ix2 j col)
      = 0 := by
  rw [truncf_apply]
  refine (pad_apply_of_not_inside _ _ _ _ _ hpad hS _ (⟨1, by decide⟩ : Fin 2) ?_).trans (sitofp_zero_apply _)
  intro h
  have h3 : (col.val - 0) / (0 + 1) < 540 := h.2.2
  omega

end Weights

/-! ## The product with a zero row appended, read at an index -/

section ZeroRow

variable (Y : FVec Ideal S200000x640 .bf16)
  (hb : (S_).BroadcastsInDim S1x640 (![] : Fin 0 → Fin (S1x640).rank))
  (hcat : Shape.Concatenates [S200000x640, S1x640] S200001x640 0)

/-- The appended row is zero everywhere. -/
theorem zeroRow_apply (i : (S1x640).Idx) :
    broadcastInDim S1x640 ![] hb (constant (F := Ideal) S_ .bf16 0x0000#16) i = 0 :=
  ofBits_zero_bf16

/-- THE PRODUCT WITH A ZERO ROW APPENDED: rows below 200000 are the product's, row 200000 is zero. -/
theorem ypad_apply (r : Fin 200001) (col : Fin 640) :
    concatenate S200001x640 0
        [⟨S200000x640, Y⟩, ⟨S1x640, broadcastInDim S1x640 ![] hb (constant (F := Ideal) S_ .bf16 0x0000#16)⟩] hcat
        (ix2 r col)
      = if h : r.val < 200000 then Y (ix2 (⟨r.val, h⟩ : Fin 200000) col) else 0 := by
  by_cases h : r.val < 200000
  · rw [dif_pos h]
    refine concatenate_pair_apply_left _ _ _ hcat _ rfl (ix2 (⟨r.val, h⟩ : Fin 200000) col) fun b => ?_
    match b with
    | ⟨0, _⟩ => rfl
    | ⟨1, _⟩ => rfl
  · rw [dif_neg h]
    refine (concatenate_pair_apply_right _ _ _ hcat _ rfl rfl (ix2 (0 : Fin 1) col) (fun b hb' => ?_) ?_).trans
      (zeroRow_apply hb _)
    · match b with
      | ⟨0, _⟩ => exact absurd rfl hb'
      | ⟨1, _⟩ => rfl
    · show 0 + 200000 = r.val
      have := r.isLt
      omega

end ZeroRow

/-! ## One tap: the 20-wide block of the padded product at the neighbour's row

For a tap `k`, every voxel `p` has a row index `idx[p]` into the padded product — the neighbour's voxel index where
the tap is valid there, else 200000, the zero row. A negative index would be wrapped by adding the row count; none is
negative, so the wrap is the identity. The start indices are the pairs `(idx[p], 20·k)`, and the block gather reads the
20 entries of row `idx[p]` from column `20·k` on; its clamps — the row into `[0, 200000]`, the first column into
`[0, 620]` — are the identity on these pairs. -/

section Tap

variable (idx : IVec S200000 32) (colw : BitVec 32) (Ypad : FVec Ideal S200001x640 .bf16)
  (hb0 : (S_).BroadcastsInDim S200000 (![] : Fin 0 → Fin (S200000).rank))
  (hb1 : (S200000).BroadcastsInDim S200000x1 (![0] : Fin 1 → Fin (S200000x1).rank))
  (hb2 : (S_).BroadcastsInDim S200000x1 (![] : Fin 0 → Fin (S200000x1).rank))
  (hcat : Shape.Concatenates [S200000x1, S200000x1] S200000x2 1)
  (wf : GatherDims.WF S200001x640 S200000x2 S200000x20 [1] [0] [] [0, 1] [] 1 ![1, 20])
  (hbits : FTy.bits .bf16 < FTy.bits .f32)

/-- The wrap of negative indices leaves an index that is not negative as it is. -/
theorem wrap_apply (p : Fin 200000) (h : 0 ≤ (idx (ix1 p)).toInt) :
    select (cmpi .slt idx (broadcastInDim S200000 ![] hb0 (constantI S_ 32 0#32)))
        (addi idx (broadcastInDim S200000 ![] hb0 (constantI S_ 32 200001#32))) idx (ix1 p)
      = idx (ix1 p) := by
  rw [select_apply]
  show Scalar.select (IntOp.cmpi .slt (idx (ix1 p)) 0#32) _ _ = _
  rw [cmpi_slt_zero_of_nonneg _ h, select_zero]

/-- The wrapped indices as a column: entry `(p, 0)` is entry `p`. -/
theorem wrapCol_apply (p : Fin 200000) (u : Fin 1) (h : 0 ≤ (idx (ix1 p)).toInt) :
    broadcastInDim S200000x1 ![0] hb1
        (select (cmpi .slt idx (broadcastInDim S200000 ![] hb0 (constantI S_ 32 0#32)))
          (addi idx (broadcastInDim S200000 ![] hb0 (constantI S_ 32 200001#32))) idx) (ix2 p u)
      = idx (ix1 p) := by
  refine (broadcastInDim_apply _ hb1 _ _ (ix1 p) fun a => ?_).trans (wrap_apply idx hb0 p h)
  match a with
  | ⟨0, _⟩ => rfl

/-- The start indices' first component at `p` is the row index `idx[p]`. -/
theorem start_row (p : Fin 200000) (h : 0 ≤ (idx (ix1 p)).toInt) :
    concatenate S200000x2 1
        [⟨S200000x1, broadcastInDim S200000x1 ![0] hb1
            (select (cmpi .slt idx (broadcastInDim S200000 ![] hb0 (constantI S_ 32 0#32)))
              (addi idx (broadcastInDim S200000 ![] hb0 (constantI S_ 32 200001#32))) idx)⟩,
         ⟨S200000x1, broadcastInDim S200000x1 ![] hb2 (constantI S_ 32 colw)⟩] hcat
        (ix2 p (0 : Fin 2))
      = idx (ix1 p) := by
  refine (concatenate_pair_apply_left _ _ _ hcat _ rfl (ix2 p (0 : Fin 1)) fun b => ?_).trans
    (wrapCol_apply idx hb0 hb1 p 0 h)
  match b with
  | ⟨0, _⟩ => rfl
  | ⟨1, _⟩ => rfl

/-- The start indices' second component is the tap's first column, the same word at every `p`. -/
theorem start_col (p : Fin 200000) :
    concatenate S200000x2 1
        [⟨S200000x1, broadcastInDim S200000x1 ![0] hb1
            (select (cmpi .slt idx (broadcastInDim S200000 ![] hb0 (constantI S_ 32 0#32)))
              (addi idx (broadcastInDim S200000 ![] hb0 (constantI S_ 32 200001#32))) idx)⟩,
         ⟨S200000x1, broadcastInDim S200000x1 ![] hb2 (constantI S_ 32 colw)⟩] hcat
        (ix2 p (1 : Fin 2))
      = colw := by
  refine concatenate_pair_apply_right _ _ _ hcat _ rfl rfl (ix2 p (0 : Fin 1)) (fun b hb' => ?_) ?_
  · match b with
    | ⟨0, _⟩ => rfl
    | ⟨1, _⟩ => exact absurd rfl hb'
  · rfl

/-- Two rank-2 indices with equal coordinates are equal. -/
theorem ix2_congr {n0 n1 : Nat} {a a' : Fin n0} {b b' : Fin n1} (ha : a = a') (hb : b = b') : ix2 a b = ix2 a' b' := by
  rw [ha, hb]

/-- ONE TAP OF THE KERNEL'S TAIL, for a first column given as a word `colw` that reads `20·k`: entry `(p, c)` is the
    padded product at row `idx[p]` and column `20·k + c`. -/
theorem kerTap_apply (k : Fin 27) (hcolw : colw.toInt = ((20 * k.val : ℕ) : ℤ))
    (hidx : ∀ p : Fin 200000, 0 ≤ (idx (ix1 p)).toInt ∧ (idx (ix1 p)).toInt ≤ 200000)
    (p : Fin 200000) (c : Fin 20) :
    extf .f32
        (Host.gather (blockGatherDims 200001 640 200000 20 wf) Ypad
          (concatenate S200000x2 1
            [⟨S200000x1, broadcastInDim S200000x1 ![0] hb1
                (select (cmpi .slt idx (broadcastInDim S200000 ![] hb0 (constantI S_ 32 0#32)))
                  (addi idx (broadcastInDim S200000 ![] hb0 (constantI S_ 32 200001#32))) idx)⟩,
             ⟨S200000x1, broadcastInDim S200000x1 ![] hb2 (constantI S_ 32 colw)⟩] hcat)) hbits
        (ix2 p c)
      = Ypad (ix2 (⟨(idx (ix1 p)).toInt.toNat, by have := (hidx p).2; omega⟩ : Fin 200001)
          (⟨20 * k.val + c.val, by have := k.isLt; have := c.isLt; omega⟩ : Fin 640)) := by
  rw [extf_apply]
  refine (blockGather_apply (by decide) (by decide) wf Ypad _ p c).trans (congrArg Ypad (ix2_congr (Fin.ext ?_) (Fin.ext ?_)))
  · show min (_ : BitVec 32).toInt.toNat (200001 - 1) = (idx (ix1 p)).toInt.toNat
    rw [start_row idx colw hb0 hb1 hb2 hcat p (hidx p).1]
    have := (hidx p).2
    omega
  · show min (_ : BitVec 32).toInt.toNat (640 - 20) + c.val = 20 * k.val + c.val
    rw [start_col idx colw hb0 hb1 hb2 hcat p, hcolw]
    have := k.isLt
    omega

/-- ONE TAP OF THE KERNEL'S TAIL, for tap `k` with the first column the literal word `20·k`. -/
theorem kerTap_apply_ofNat (k : Fin 27)
    (hidx : ∀ p : Fin 200000, 0 ≤ (idx (ix1 p)).toInt ∧ (idx (ix1 p)).toInt ≤ 200000)
    (p : Fin 200000) (c : Fin 20) :
    extf .f32
        (Host.gather (blockGatherDims 200001 640 200000 20 wf) Ypad
          (concatenate S200000x2 1
            [⟨S200000x1, broadcastInDim S200000x1 ![0] hb1
                (select (cmpi .slt idx (broadcastInDim S200000 ![] hb0 (constantI S_ 32 0#32)))
                  (addi idx (broadcastInDim S200000 ![] hb0 (constantI S_ 32 200001#32))) idx)⟩,
             ⟨S200000x1, broadcastInDim S200000x1 ![] hb2 (constantI S_ 32 (BitVec.ofNat 32 (20 * k.val)))⟩] hcat)) hbits
        (ix2 p c)
      = Ypad (ix2 (⟨(idx (ix1 p)).toInt.toNat, by have := (hidx p).2; omega⟩ : Fin 200001)
          (⟨20 * k.val + c.val, by have := k.isLt; have := c.isLt; omega⟩ : Fin 640)) := by
  refine kerTap_apply idx _ Ypad hb0 hb1 hb2 hcat wf hbits k ?_ hidx p c
  have hk := k.isLt
  have h2 : (BitVec.ofNat 32 (20 * k.val)).toNat = 20 * k.val := by
    rw [BitVec.toNat_ofNat]
    omega
  rw [BitVec.toInt_eq_toNat_of_lt (by rw [h2]; omega), h2]

/-- ONE TAP READ THROUGH THE APPENDED ZERO ROW: entry `(p, c)` is the product's entry at row `idx[p]` and column
    `20·k + c` where `idx[p]` is a row of the product, and zero where it is 200000. -/
theorem kerTap_ypad_apply (Y : FVec Ideal S200000x640 .bf16)
    (hbz : (S_).BroadcastsInDim S1x640 (![] : Fin 0 → Fin (S1x640).rank))
    (hcat0 : Shape.Concatenates [S200000x640, S1x640] S200001x640 0)
    (k : Fin 27) (hcolw : colw.toInt = ((20 * k.val : ℕ) : ℤ))
    (hidx : ∀ p : Fin 200000, 0 ≤ (idx (ix1 p)).toInt ∧ (idx (ix1 p)).toInt ≤ 200000)
    (p : Fin 200000) (c : Fin 20) :
    extf .f32
        (Host.gather (blockGatherDims 200001 640 200000 20 wf)
          (concatenate S200001x640 0
            [⟨S200000x640, Y⟩, ⟨S1x640, broadcastInDim S1x640 ![] hbz (constant (F := Ideal) S_ .bf16 0x0000#16)⟩] hcat0)
          (concatenate S200000x2 1
            [⟨S200000x1, broadcastInDim S200000x1 ![0] hb1
                (select (cmpi .slt idx (broadcastInDim S200000 ![] hb0 (constantI S_ 32 0#32)))
                  (addi idx (broadcastInDim S200000 ![] hb0 (constantI S_ 32 200001#32))) idx)⟩,
             ⟨S200000x1, broadcastInDim S200000x1 ![] hb2 (constantI S_ 32 colw)⟩] hcat)) hbits
        (ix2 p c)
      = if h : (idx (ix1 p)).toInt.toNat < 200000 then
          Y (ix2 (⟨(idx (ix1 p)).toInt.toNat, h⟩ : Fin 200000)
            (⟨20 * k.val + c.val, by have := k.isLt; have := c.isLt; omega⟩ : Fin 640))
        else 0 :=
  (kerTap_apply idx colw _ hb0 hb1 hb2 hcat wf hbits k hcolw hidx p c).trans (ypad_apply Y hbz hcat0 _ _)

end Tap

end Cert.KerTap

end
-- ==== Proof.LibScatter2.lean ====
/-
  The accumulating scatter, the overwriting scatter and the gather of StableHLO READ AT AN INDEX, at the exact
  (extended-real) reading of floats, for the dimension numbers that assembling a matrix from per-element blocks uses.

  * `scatterAdd_congr`, `scatterAdd_mul_mask`, `scatterAdd_zero_mul_mask` (and the `mask_mul` forms): the accumulating
    scatter sends each update to one entry of the operand and adds up what lands there. If every update that lands on
    entry `i` carries the factor `g i ∈ {0, 1}`, the factor comes out of the sum: masking the updates BEFORE the
    scatter is masking the assembled entry AFTER it.
  * `scatter_set_induction`, `scatter_set_mem`, `scatter_set_zero_one`, `one_sub_mask`: every entry of the OVERWRITING
    scatter is the operand's entry or one of the updates; ones written into zeros leave a `0`/`1` array, and so does
    its complement `1 - ·`.
  * `elemScatterDims`, `elemScatter_resultIdx`, `elemScatter_resultIdx_eq_some` (`_iff`): the scatter that sends update
    `(e, a, b)` to the matrix entry `(idx[e, a, b, 0], idx[e, a, b, 1])` — both components read signed, not clamped, the
    update dropped when either is outside the matrix.
  * `gather_take_eq`, `gather_take_inrange`: the gather of entries of a vector at an in-range index is the entry there.
  * `elemScatterAdd_rowmask`: the three together — a `0`/`1` row mask gathered by the row index and multiplied into
    the updates before the two-index accumulating scatter is the mask multiplied into the assembled rows after it.
-/
import Idealize.ShloMosaic.PureOps.Ideal
import Idealize.ShloMosaic.PureOps.Dims
import Idealize.ShloMosaic.PureOps.Ideal.Laws
import Idealize.ShloMosaic.Lib.ValueIdx

noncomputable section

open scoped BigOperators

namespace Cert.LibScatter2

open Idealize.ShloMosaic Idealize.ShloMosaic.ValueIdx

/-! ## The accumulating scatter and a 0/1 mask -/

section ScatterAdd
variable {s si su : Shape} (d : ScatterDims s si su) {w : Nat}

/-- The accumulating scatter read at entry `i`: the operand's entry plus the sum of the updates landing on `i`. -/
theorem scatterAdd_apply (x : s.Idx → EReal) (idx : IVec si w) (upd : su.Idx → EReal) (i : s.Idx) :
    Ideal.hostScatterAdd d x idx upd i
      = x i + ∑ j ∈ Finset.univ.filter (fun j => d.resultIdx? j idx = some i), upd j := rfl

/-- Entry `i` of an accumulating scatter depends only on the operand's entry `i` and on the updates that land on `i`:
    two operands equal at `i` and two families of updates equal wherever they land on `i` give the same entry. -/
theorem scatterAdd_congr_at (x x' : s.Idx → EReal) (idx : IVec si w) (upd upd' : su.Idx → EReal) (i : s.Idx)
    (hx : x i = x' i) (hu : ∀ j, d.resultIdx? j idx = some i → upd j = upd' j) :
    Ideal.hostScatterAdd d x idx upd i = Ideal.hostScatterAdd d x' idx upd' i := by
  unfold Ideal.hostScatterAdd
  rw [hx]
  congr 1
  exact Finset.sum_congr rfl (fun j hj => hu j (Finset.mem_filter.1 hj).2)

/-- Pointwise equal updates give the same accumulating scatter, entry by entry. -/
theorem scatterAdd_congr (x : s.Idx → EReal) (idx : IVec si w) (upd upd' : su.Idx → EReal)
    (hu : ∀ j, upd j = upd' j) (i : s.Idx) :
    Ideal.hostScatterAdd d x idx upd i = Ideal.hostScatterAdd d x idx upd' i :=
  scatterAdd_congr_at d x x idx upd upd' i rfl (fun j _ => hu j)

/-- A factor `c ∈ {0, 1}` comes out of a finite sum of extended reals (multiplication by `0` or `1` is additive on
    the extended reals, where multiplication does not distribute over addition in general). -/
theorem sum_mul_zero_one {ι : Type*} (t : Finset ι) (f : ι → EReal) (c : EReal) (hc : c = 0 ∨ c = 1) :
    ∑ j ∈ t, f j * c = (∑ j ∈ t, f j) * c := by
  rcases hc with rfl | rfl
  · simp only [mul_zero, Finset.sum_const_zero]
  · simp only [mul_one]

/-- MASK BEFORE = MASK AFTER, general operand. If every update landing on entry `i` is multiplied by a factor `h j`
    equal to `g i`, and `g i` is `0` or `1`, then entry `i` of the accumulating scatter of the masked updates is the
    operand's entry plus `g i` times the sum of the unmasked updates landing on `i`. -/
theorem scatterAdd_mul_mask (x : s.Idx → EReal) (idx : IVec si w) (upd h : su.Idx → EReal) (g : s.Idx → EReal)
    (i : s.Idx) (hg : g i = 0 ∨ g i = 1) (hh : ∀ j, d.resultIdx? j idx = some i → h j = g i) :
    Ideal.hostScatterAdd d x idx (fun j => upd j * h j) i
      = x i + Ideal.hostScatterAdd d (fun _ => 0) idx upd i * g i := by
  unfold Ideal.hostScatterAdd
  rw [zero_add, ← sum_mul_zero_one _ _ _ hg]
  congr 1
  exact Finset.sum_congr rfl (fun j hj => by
    show upd j * h j = upd j * g i
    rw [hh j (Finset.mem_filter.1 hj).2])

/-- MASK BEFORE = MASK AFTER, into a zero operand. Scattering-and-adding the updates `upd j * h j` into zeros, where
    every update landing on entry `i` has `h j = g i` and `g` takes the values `0` and `1` only, is
    scattering-and-adding `upd` into zeros and then multiplying entry `i` by `g i`. -/
theorem scatterAdd_zero_mul_mask (idx : IVec si w) (upd h : su.Idx → EReal) (g : s.Idx → EReal)
    (hg : ∀ i, g i = 0 ∨ g i = 1) (hh : ∀ j i, d.resultIdx? j idx = some i → h j = g i) (i : s.Idx) :
    Ideal.hostScatterAdd d (fun _ => 0) idx (fun j => upd j * h j) i
      = Ideal.hostScatterAdd d (fun _ => 0) idx upd i * g i := by
  rw [scatterAdd_mul_mask d (fun _ => 0) idx upd h g i (hg i) (fun j hj => hh j i hj), zero_add]

/-- The same with the factor written on the left of each update: `h j * upd j`. -/
theorem scatterAdd_mask_mul (x : s.Idx → EReal) (idx : IVec si w) (upd h : su.Idx → EReal) (g : s.Idx → EReal)
    (i : s.Idx) (hg : g i = 0 ∨ g i = 1) (hh : ∀ j, d.resultIdx? j idx = some i → h j = g i) :
    Ideal.hostScatterAdd d x idx (fun j => h j * upd j) i
      = x i + g i * Ideal.hostScatterAdd d (fun _ => 0) idx upd i := by
  rw [mul_comm (g i), ← scatterAdd_mul_mask d x idx upd h g i hg hh]
  exact scatterAdd_congr d x idx _ _ (fun j => mul_comm _ _) i

/-- The same into a zero operand, the factor on the left. -/
theorem scatterAdd_zero_mask_mul (idx : IVec si w) (upd h : su.Idx → EReal) (g : s.Idx → EReal)
    (hg : ∀ i, g i = 0 ∨ g i = 1) (hh : ∀ j i, d.resultIdx? j idx = some i → h j = g i) (i : s.Idx) :
    Ideal.hostScatterAdd d (fun _ => 0) idx (fun j => h j * upd j) i
      = g i * Ideal.hostScatterAdd d (fun _ => 0) idx upd i := by
  rw [scatterAdd_mask_mul d (fun _ => 0) idx upd h g i (hg i) (fun j hj => hh j i hj), zero_add]

end ScatterAdd

/-! ## The overwriting scatter: every entry is the operand's or an update -/

section ScatterSet
variable {α : Type} {s si u : Shape} {w : Nat}

/-- The overwriting scatter (its body returns the update) takes the updates one by one and puts each at the entry it
    lands on. So a property that holds of every entry of the operand and of every update holds of every entry of the
    result. -/
theorem scatter_set_induction (P : α → Prop) (d : ScatterDims s si u) (x : s.Idx → α) (idx : IVec si w)
    (upd : u.Idx → α) (hx : ∀ i, P (x i)) (hu : ∀ j, P (upd j)) (i : s.Idx) :
    P (Host.scatter d (fun _ b => b) x idx upd i) := by
  unfold Host.scatter
  generalize List.finRange u.numel = l
  induction l generalizing x with
  | nil => exact hx i
  | cons n l ih =>
    rw [List.foldl_cons]
    apply ih
    intro i'
    cases hr : d.resultIdx? (u.rowMajor.symm n) idx with
    | none => exact hx i'
    | some i0 =>
      show P (if i' = i0 then upd (u.rowMajor.symm n) else x i')
      by_cases h : i' = i0
      · rw [if_pos h]; exact hu _
      · rw [if_neg h]; exact hx i'

/-- Every entry of an overwriting scatter is the operand's entry there or one of the updates. -/
theorem scatter_set_mem (d : ScatterDims s si u) (x : s.Idx → α) (idx : IVec si w) (upd : u.Idx → α) (i : s.Idx) :
    Host.scatter d (fun _ b => b) x idx upd i = x i ∨ ∃ j, Host.scatter d (fun _ b => b) x idx upd i = upd j := by
  unfold Host.scatter
  generalize List.finRange u.numel = l
  suffices H : ∀ (l : List (Fin u.numel)) (r : s.Idx → α), (∀ i, r i = x i ∨ ∃ j, r i = upd j) →
      ∀ i, (l.foldl (fun r n =>
        match d.resultIdx? (u.rowMajor.symm n) idx with
        | some i => fun i' => if i' = i then (fun _ b => b) (r i) (upd (u.rowMajor.symm n)) else r i'
        | none => r) r) i = x i ∨ ∃ j, (l.foldl (fun r n =>
        match d.resultIdx? (u.rowMajor.symm n) idx with
        | some i => fun i' => if i' = i then (fun _ b => b) (r i) (upd (u.rowMajor.symm n)) else r i'
        | none => r) r) i = upd j from H l x (fun i => Or.inl rfl) i
  intro l
  induction l with
  | nil => intro r hr i; exact hr i
  | cons n l ih =>
    intro r hr i
    rw [List.foldl_cons]
    apply ih
    intro i'
    cases hres : d.resultIdx? (u.rowMajor.symm n) idx with
    | none => exact hr i'
    | some i0 =>
      show (if i' = i0 then upd (u.rowMajor.symm n) else r i') = x i' ∨ ∃ j, (if i' = i0 then upd (u.rowMajor.symm n) else r i') = upd j
      by_cases h : i' = i0
      · rw [if_pos h]; exact Or.inr ⟨_, rfl⟩
      · rw [if_neg h]; exact hr i'

/-- Zeros overwritten by ones: every entry of the overwriting scatter of updates that are all `1` into an operand
    that is all `0` is `0` or `1` (it is `1` exactly where some update lands). -/
theorem scatter_set_zero_one (d : ScatterDims s si u) (x : s.Idx → EReal) (idx : IVec si w) (upd : u.Idx → EReal)
    (hx : ∀ i, x i = 0) (hu : ∀ j, upd j = 1) (i : s.Idx) :
    Host.scatter d (fun _ b => b) x idx upd i = 0 ∨ Host.scatter d (fun _ b => b) x idx upd i = 1 :=
  scatter_set_induction (fun v => v = 0 ∨ v = 1) d x idx upd (fun i => Or.inl (hx i)) (fun j => Or.inr (hu j)) i

/-- The complement of a `0`/`1` value is a `0`/`1` value: `1 - 0 = 1` and `1 - 1 = 0` on the extended reals. -/
theorem one_sub_mask (x : EReal) (h : x = 0 ∨ x = 1) : (1 : EReal) - x = 0 ∨ (1 : EReal) - x = 1 := by
  rcases h with rfl | rfl
  · right; exact sub_zero _
  · left
    rw [← EReal.coe_one, ← EReal.coe_sub, sub_self, EReal.coe_zero]

/-- The same, read the other way round: `1 - x` is `1` where `x = 0` and `0` where `x = 1`. -/
theorem one_sub_mask' (x : EReal) (h : x = 0 ∨ x = 1) : (1 : EReal) - x = 1 ∨ (1 : EReal) - x = 0 :=
  (one_sub_mask x h).symm

/-- `1 - (overwriting scatter of ones into zeros)` is `0` or `1` at every entry: the keep-mask of the rows that no
    update names. -/
theorem one_sub_scatter_set_zero_one (d : ScatterDims s si u) (x : s.Idx → EReal) (idx : IVec si w)
    (upd : u.Idx → EReal) (hx : ∀ i, x i = 0) (hu : ∀ j, upd j = 1) (i : s.Idx) :
    (1 : EReal) - Host.scatter d (fun _ b => b) x idx upd i = 0
      ∨ (1 : EReal) - Host.scatter d (fun _ b => b) x idx upd i = 1 :=
  one_sub_mask _ (scatter_set_zero_one d x idx upd hx hu i)

end ScatterSet

/-! ## Where an update of the two-index scatter lands

The scatter that adds entry `(e, a, b)` of the updates `[E, A, B]` to entry `(idx[e, a, b, 0], idx[e, a, b, 1])` of an
operand `[N, M]`: update_window_dims `[]`, inserted_window_dims `[0, 1]`, scatter_dims_to_operand_dims `[0, 1]`,
index_vector_dim 3 over indices `[E, A, B, 2]`. Both index components are read SIGNED and are not clamped: an update
whose row or column index is outside the operand is dropped. -/

section ElemScatter

/-- Those dimension numbers; their conditions `wf` are decided on literal shapes. The record is reducible, so a
    structure literal with the same lists and any proof of the same conditions is definitionally this record. -/
abbrev elemScatterDims (N M E A B : Nat)
    (wf : ScatterDims.WF ⟨2, ![N, M]⟩ ⟨4, ![E, A, B, 2]⟩ ⟨3, ![E, A, B]⟩ [] [0, 1] [0, 1] 3) :
    ScatterDims ⟨2, ![N, M]⟩ ⟨4, ![E, A, B, 2]⟩ ⟨3, ![E, A, B]⟩ where
  updateWindowDims := []
  insertedWindowDims := [0, 1]
  scatterDimsToOperandDims := [0, 1]
  indexVectorDim := 3
  wf := wf

variable {N M E A B w : Nat}
  (wf : ScatterDims.WF ⟨2, ![N, M]⟩ ⟨4, ![E, A, B, 2]⟩ ⟨3, ![E, A, B]⟩ [] [0, 1] [0, 1] 3)
  (idx : IVec ⟨4, ![E, A, B, 2]⟩ w) (e : Fin E) (a : Fin A) (b : Fin B)

/-- On operand axis 0 (rows) the window of update `(e, a, b)` starts at `idx[e, a, b, 0]`, read signed, not clamped. -/
theorem elemScatter_start0 :
    (elemScatterDims N M E A B wf).start (ix3 e a b) idx (0 : Fin 2) = (idx (ix4 e a b (0 : Fin 2))).toInt := by
  unfold ScatterDims.start
  have hm : (0 : Fin 2) ∈ (elemScatterDims N M E A B wf).scatterDimsToOperandDims :=
    show (0 : Fin 2) ∈ ([0, 1] : List (Fin 2)) by decide
  rw [dif_pos hm]
  have hsi : (elemScatterDims N M E A B wf).siIdx (ix3 e a b)
      ⟨List.idxOf (0 : Fin 2) (elemScatterDims N M E A B wf).scatterDimsToOperandDims,
        List.idxOf_lt_length_iff.2 hm⟩ = ix4 e a b (0 : Fin 2) := by
    funext c; refine Fin.ext ?_
    match c with
    | ⟨0, _⟩ => rfl
    | ⟨1, _⟩ => rfl
    | ⟨2, _⟩ => rfl
    | ⟨3, _⟩ => rfl
  rw [hsi]

/-- On operand axis 1 (columns) it starts at `idx[e, a, b, 1]`, read signed, not clamped. -/
theorem elemScatter_start1 :
    (elemScatterDims N M E A B wf).start (ix3 e a b) idx (1 : Fin 2) = (idx (ix4 e a b (1 : Fin 2))).toInt := by
  unfold ScatterDims.start
  have hm : (1 : Fin 2) ∈ (elemScatterDims N M E A B wf).scatterDimsToOperandDims :=
    show (1 : Fin 2) ∈ ([0, 1] : List (Fin 2)) by decide
  rw [dif_pos hm]
  have hsi : (elemScatterDims N M E A B wf).siIdx (ix3 e a b)
      ⟨List.idxOf (1 : Fin 2) (elemScatterDims N M E A B wf).scatterDimsToOperandDims,
        List.idxOf_lt_length_iff.2 hm⟩ = ix4 e a b (1 : Fin 2) := by
    funext c; refine Fin.ext ?_
    match c with
    | ⟨0, _⟩ => rfl
    | ⟨1, _⟩ => rfl
    | ⟨2, _⟩ => rfl
    | ⟨3, _⟩ => rfl
  rw [hsi]

/-- Both operand axes are inserted axes (the updates have no window axis): the window coordinate is 0 on each. -/
theorem elemScatter_window (c : Fin 2) : (elemScatterDims N M E A B wf).window (ix3 e a b) c = 0 := by
  unfold ScatterDims.window
  have hk : c ∉ (elemScatterDims N M E A B wf).sKept := by
    show c ∉ (List.finRange 2).filter (· ∉ ([0, 1] : List (Fin 2)))
    revert c; decide
  rw [dif_neg hk]

/-- WHERE UPDATE `(e, a, b)` LANDS: with `r = idx[e, a, b, 0]` and `c = idx[e, a, b, 1]` read signed, at `(r, c)` when
    `0 ≤ r < N` and `0 ≤ c < M`; otherwise the update is dropped. -/
theorem elemScatter_resultIdx :
    (elemScatterDims N M E A B wf).resultIdx? (ix3 e a b) idx
      = if h : (0 ≤ (idx (ix4 e a b (0 : Fin 2))).toInt ∧ (idx (ix4 e a b (0 : Fin 2))).toInt < (N : Int)) ∧
            (0 ≤ (idx (ix4 e a b (1 : Fin 2))).toInt ∧ (idx (ix4 e a b (1 : Fin 2))).toInt < (M : Int)) then
          some (ix2 (⟨(idx (ix4 e a b (0 : Fin 2))).toInt.toNat, by omega⟩ : Fin N)
                    (⟨(idx (ix4 e a b (1 : Fin 2))).toInt.toNat, by omega⟩ : Fin M))
        else none := by
  unfold ScatterDims.resultIdx?
  by_cases h : (0 ≤ (idx (ix4 e a b (0 : Fin 2))).toInt ∧ (idx (ix4 e a b (0 : Fin 2))).toInt < (N : Int)) ∧
      (0 ≤ (idx (ix4 e a b (1 : Fin 2))).toInt ∧ (idx (ix4 e a b (1 : Fin 2))).toInt < (M : Int))
  · have H : ∀ c : Fin 2,
        0 ≤ (elemScatterDims N M E A B wf).start (ix3 e a b) idx c + ((elemScatterDims N M E A B wf).window (ix3 e a b) c : Int) ∧
        (elemScatterDims N M E A B wf).start (ix3 e a b) idx c + ((elemScatterDims N M E A B wf).window (ix3 e a b) c : Int)
          < ((⟨2, ![N, M]⟩ : Shape).size c : Int) := by
      intro c
      match c with
      | ⟨0, _⟩ =>
        show 0 ≤ (elemScatterDims N M E A B wf).start (ix3 e a b) idx (0 : Fin 2) + ((elemScatterDims N M E A B wf).window (ix3 e a b) (0 : Fin 2) : Int) ∧
          (elemScatterDims N M E A B wf).start (ix3 e a b) idx (0 : Fin 2) + ((elemScatterDims N M E A B wf).window (ix3 e a b) (0 : Fin 2) : Int) < (N : Int)
        rw [elemScatter_start0, elemScatter_window]
        omega
      | ⟨1, _⟩ =>
        show 0 ≤ (elemScatterDims N M E A B wf).start (ix3 e a b) idx (1 : Fin 2) + ((elemScatterDims N M E A B wf).window (ix3 e a b) (1 : Fin 2) : Int) ∧
          (elemScatterDims N M E A B wf).start (ix3 e a b) idx (1 : Fin 2) + ((elemScatterDims N M E A B wf).window (ix3 e a b) (1 : Fin 2) : Int) < (M : Int)
        rw [elemScatter_start1, elemScatter_window]
        omega
    rw [dif_pos H, dif_pos h]
    congr 1
    funext c
    refine Fin.ext ?_
    match c with
    | ⟨0, _⟩ =>
      show ((elemScatterDims N M E A B wf).start (ix3 e a b) idx (0 : Fin 2) + ((elemScatterDims N M E A B wf).window (ix3 e a b) (0 : Fin 2) : Int)).toNat
        = (idx (ix4 e a b (0 : Fin 2))).toInt.toNat
      rw [elemScatter_start0, elemScatter_window]
      simp
    | ⟨1, _⟩ =>
      show ((elemScatterDims N M E A B wf).start (ix3 e a b) idx (1 : Fin 2) + ((elemScatterDims N M E A B wf).window (ix3 e a b) (1 : Fin 2) : Int)).toNat
        = (idx (ix4 e a b (1 : Fin 2))).toInt.toNat
      rw [elemScatter_start1, elemScatter_window]
      simp
  · rw [dif_neg h, dif_neg]
    intro H
    apply h
    have H0 := H (0 : Fin 2)
    have H1 := H (1 : Fin 2)
    rw [elemScatter_start0, elemScatter_window] at H0
    rw [elemScatter_start1, elemScatter_window] at H1
    have h0 : (idx (ix4 e a b (0 : Fin 2))).toInt + ((0 : Nat) : Int) < (N : Int) := H0.2
    have h1 : (idx (ix4 e a b (1 : Fin 2))).toInt + ((0 : Nat) : Int) < (M : Int) := H1.2
    have h0' := H0.1
    have h1' := H1.1
    omega

/-- Update `(e, a, b)` lands on operand entry `p` only if its two index components, read signed, are `p`'s row and
    column. -/
theorem elemScatter_resultIdx_eq_some (p : (⟨2, ![N, M]⟩ : Shape).Idx)
    (hp : (elemScatterDims N M E A B wf).resultIdx? (ix3 e a b) idx = some p) :
    (idx (ix4 e a b (0 : Fin 2))).toInt = ((p 0).val : Int) ∧ (idx (ix4 e a b (1 : Fin 2))).toInt = ((p 1).val : Int) := by
  rw [elemScatter_resultIdx] at hp
  by_cases h : (0 ≤ (idx (ix4 e a b (0 : Fin 2))).toInt ∧ (idx (ix4 e a b (0 : Fin 2))).toInt < (N : Int)) ∧
      (0 ≤ (idx (ix4 e a b (1 : Fin 2))).toInt ∧ (idx (ix4 e a b (1 : Fin 2))).toInt < (M : Int))
  · rw [dif_pos h] at hp
    have hp' := Option.some.inj hp
    have h0 : (idx (ix4 e a b (0 : Fin 2))).toInt.toNat = (p 0).val := congrArg Fin.val (congrFun hp' (0 : Fin 2))
    have h1 : (idx (ix4 e a b (1 : Fin 2))).toInt.toNat = (p 1).val := congrArg Fin.val (congrFun hp' (1 : Fin 2))
    omega
  · rw [dif_neg h] at hp; cases hp

/-- Update `(e, a, b)` lands on operand entry `(r, c)` exactly when its index components `idx[e, a, b, 0]` and
    `idx[e, a, b, 1]`, read signed, are `r` and `c`. -/
theorem elemScatter_resultIdx_eq_some_iff (r : Fin N) (c : Fin M) :
    (elemScatterDims N M E A B wf).resultIdx? (ix3 e a b) idx = some (ix2 r c)
      ↔ (idx (ix4 e a b (0 : Fin 2))).toInt = (r.val : Int) ∧ (idx (ix4 e a b (1 : Fin 2))).toInt = (c.val : Int) := by
  constructor
  · intro H; exact elemScatter_resultIdx_eq_some wf idx e a b (ix2 r c) H
  · rintro ⟨hr, hc⟩
    rw [elemScatter_resultIdx]
    have h : (0 ≤ (idx (ix4 e a b (0 : Fin 2))).toInt ∧ (idx (ix4 e a b (0 : Fin 2))).toInt < (N : Int)) ∧
        (0 ≤ (idx (ix4 e a b (1 : Fin 2))).toInt ∧ (idx (ix4 e a b (1 : Fin 2))).toInt < (M : Int)) := by
      have := r.isLt; have := c.isLt; omega
    rw [dif_pos h]
    have e0 : (⟨(idx (ix4 e a b (0 : Fin 2))).toInt.toNat, by omega⟩ : Fin N) = r := Fin.ext (by
      show (idx (ix4 e a b (0 : Fin 2))).toInt.toNat = r.val; omega)
    have e1 : (⟨(idx (ix4 e a b (1 : Fin 2))).toInt.toNat, by omega⟩ : Fin M) = c := Fin.ext (by
      show (idx (ix4 e a b (1 : Fin 2))).toInt.toNat = c.val; omega)
    rw [e0, e1]

end ElemScatter

/-! ## The gather of entries of a vector at an array of indices, where the index is in range -/

section Take
variable {α : Type}

/-- The start-indices index of result index `(e, i)` is `[e, i, 0]`. -/
theorem takeIdx_ix2 {R C : Nat} (e : Fin R) (i : Fin C) : takeIdx (ix2 e i) = ix3 e i (0 : Fin 1) := by
  funext a
  refine Fin.ext ?_
  match a with
  | ⟨0, _⟩ => rfl
  | ⟨1, _⟩ => rfl
  | ⟨2, _⟩ => rfl

/-- The gather of entries of `x : [N]` at the indices `idx : [R, C, 1]`, read at `(e, i)`: when `idx[e, i, 0]`, read
    signed, is `n < N`, the clamping does nothing and the entry is `x[n]`. -/
theorem gather_take_eq {N R C w : Nat}
    (wf : GatherDims.WF ⟨1, ![N]⟩ ⟨3, ![R, C, 1]⟩ ⟨2, ![R, C]⟩ [] [0] [] [0] [] 2 ![1])
    (x : (⟨1, ![N]⟩ : Shape).Idx → α) (idx : IVec ⟨3, ![R, C, 1]⟩ w) (e : Fin R) (i : Fin C) (n : Fin N)
    (h : (idx (ix3 e i (0 : Fin 1))).toInt = (n.val : Int)) :
    Host.gather (takeDims N R C wf) x idx (ix2 e i) = x (ix1 n) := by
  have hN : 0 < N := Nat.lt_of_le_of_lt (Nat.zero_le _) n.isLt
  refine (gather_take_apply hN wf x idx (ix2 e i)).trans (congrArg x ?_)
  funext a
  obtain rfl : a = 0 := Subsingleton.elim _ _
  refine Fin.ext ?_
  show min (idx (takeIdx (ix2 e i))).toInt.toNat (N - 1) = n.val
  rw [takeIdx_ix2, h]
  have := n.isLt
  omega

/-- The same with the range stated on the index: if `0 ≤ idx[e, i, 0] < N` (read signed) the gathered entry is the
    operand's at that index. -/
theorem gather_take_inrange {N R C w : Nat}
    (wf : GatherDims.WF ⟨1, ![N]⟩ ⟨3, ![R, C, 1]⟩ ⟨2, ![R, C]⟩ [] [0] [] [0] [] 2 ![1])
    (x : (⟨1, ![N]⟩ : Shape).Idx → α) (idx : IVec ⟨3, ![R, C, 1]⟩ w) (e : Fin R) (i : Fin C)
    (h0 : 0 ≤ (idx (ix3 e i (0 : Fin 1))).toInt) (h1 : (idx (ix3 e i (0 : Fin 1))).toInt < (N : Int)) :
    Host.gather (takeDims N R C wf) x idx (ix2 e i)
      = x (ix1 (⟨(idx (ix3 e i (0 : Fin 1))).toInt.toNat, by omega⟩ : Fin N)) :=
  gather_take_eq wf x idx e i ⟨(idx (ix3 e i (0 : Fin 1))).toInt.toNat, by omega⟩ (by
    show (idx (ix3 e i (0 : Fin 1))).toInt = (((idx (ix3 e i (0 : Fin 1))).toInt.toNat : Nat) : Int)
    omega)

end Take

/-! ## A row mask applied before the two-index scatter is the row mask applied after it -/

section RowMask

/-- ASSEMBLY WITH A ROW MASK. Updates `[E, A, B]` are added into a zero matrix `[N, M]` at `(idx[e,a,b,0], idx[e,a,b,1])`.
    Suppose update `(e, a, b)` is first multiplied by `keep[rowidx[e, a, 0]]` (a gather of the `0`/`1` vector `keep`),
    where `rowidx[e, a, 0]` is, as a signed integer, the update's own row index `idx[e, a, b, 0]`. Then entry `(r, c)` of
    the assembled matrix is the unmasked assembly's entry times `keep[r]`: every update landing in row `r` carried the
    factor `keep[r]`, which is `0` or `1` and so comes out of the sum. -/
theorem elemScatterAdd_rowmask {N M E A B w w' : Nat}
    (wf : ScatterDims.WF ⟨2, ![N, M]⟩ ⟨4, ![E, A, B, 2]⟩ ⟨3, ![E, A, B]⟩ [] [0, 1] [0, 1] 3)
    (wfg : GatherDims.WF ⟨1, ![N]⟩ ⟨3, ![E, A, 1]⟩ ⟨2, ![E, A]⟩ [] [0] [] [0] [] 2 ![1])
    (idx : IVec ⟨4, ![E, A, B, 2]⟩ w) (rowidx : IVec ⟨3, ![E, A, 1]⟩ w')
    (keep : (⟨1, ![N]⟩ : Shape).Idx → EReal) (hkeep : ∀ n, keep n = 0 ∨ keep n = 1)
    (hrow : ∀ (e : Fin E) (a : Fin A) (b : Fin B),
      (idx (ix4 e a b (0 : Fin 2))).toInt = (rowidx (ix3 e a (0 : Fin 1))).toInt)
    (upd h : (⟨3, ![E, A, B]⟩ : Shape).Idx → EReal)
    (hh : ∀ (e : Fin E) (a : Fin A) (b : Fin B),
      h (ix3 e a b) = Host.gather (takeDims N E A wfg) keep rowidx (ix2 e a))
    (r : Fin N) (c : Fin M) :
    Ideal.hostScatterAdd (elemScatterDims N M E A B wf) (fun _ => 0) idx (fun j => upd j * h j) (ix2 r c)
      = Ideal.hostScatterAdd (elemScatterDims N M E A B wf) (fun _ => 0) idx upd (ix2 r c) * keep (ix1 r) := by
  have key := scatterAdd_mul_mask (elemScatterDims N M E A B wf) (fun _ => 0) idx upd h (fun _ => keep (ix1 r))
    (ix2 r c) (hkeep (ix1 r)) (by
      intro j hj
      obtain ⟨e, a, b, rfl⟩ : ∃ (e : Fin E) (a : Fin A) (b : Fin B), j = ix3 e a b := ⟨j 0, j 1, j 2, eq_ix3 j⟩
      have hv := ((elemScatter_resultIdx_eq_some_iff wf idx e a b r c).1 hj).1
      rw [hh e a b]
      exact gather_take_eq wfg keep rowidx e a r (by rw [← hrow e a b]; exact hv))
  rw [key, zero_add]

end RowMask

end Cert.LibScatter2

end
-- ==== Proof.LibGatherScatter.lean ====
/-
  StableHLO's gather and scatter READ AT AN INDEX, for the dimension numbers that picking rows of a matrix (or entries
  of a vector) by a column of indices, and summing rows into segments named by a column of indices, are written with.

  Throughout, the indices are an array `idx : [E, 1]` of `w`-bit words; entry `e`'s index is `idx[e, 0]` read as a
  SIGNED integer.
  * `rowGather_apply`: the gather of rows of `x : [N, C]` at `idx` is, at `(e, f)`, `x[clamp(idx[e, 0]), f]`, the
    index clamped into `[0, N − 1]`.
  * `nodeGather_apply`: the gather of entries of `x : [N]` at `idx` is, at `e`, `x[clamp(idx[e, 0])]`.
  * `rowScatter_resultIdx` / `rowScatter_resultIdx_eq_some_iff`: the scatter of the rows of updates `[E, C]` into an
    operand `[N, C]` sends update element `(e, f)` to operand element `(idx[e, 0], f)` when `0 ≤ idx[e, 0] < N` (the
    index is NOT clamped) and drops it otherwise; so it lands on `(n, g)` exactly when `idx[e, 0] = n` and `f = g`.
  * `nodeScatter_resultIdx` / `nodeScatter_resultIdx_eq_some_iff`: the same for updates `[E]` into an operand `[N]`.
  The records take their well-formedness proof as a parameter and are reducible, so a structure literal with the same
  lists and any proof of the same conditions is definitionally the record here.
-/
import Idealize.ShloMosaic.Lib.ValueIdx

noncomputable section

namespace Cert.LibGatherScatter

open Idealize.ShloMosaic Idealize.ShloMosaic.ValueIdx

/-! ## `stablehlo.gather` of the rows of a matrix at a column of start indices -/

section RowGather
variable {α : Type}

/-- The dimension numbers of "rows of `x : [N, C]` picked by `idx : [E, 1]`", result `[E, C]`: offset_dims `[1]`,
    collapsed_slice_dims `[0]`, start_index_map `[0]`, index_vector_dim 1, slice_sizes `[1, C]` (one whole row per
    start index). Their conditions `wf` are decided on literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: column `f` of the operand's row `idx[e, 0]`, that index read signed and clamped
    into `[0, N − 1]`. (On axis 0 the operand coordinate is the clamped start, the axis being collapsed; on axis 1 the
    start is 0 and the offset coordinate is `f`.) -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N C E wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N C E wf).start (ix2 e f) idx (0 : Fin 2) + (rowGatherDims N C E wf).batchCoord (ix2 e f) (0 : Fin 2)
      + (rowGatherDims N C E wf).offCoord (ix2 e f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e f) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e f) idx (1 : Fin 2) + (rowGatherDims N C E wf).batchCoord (ix2 e f) (1 : Fin 2)
      + (rowGatherDims N C E wf).offCoord (ix2 e f) (1 : Fin 2) = f.val
    have hs : (rowGatherDims N C E wf).start (ix2 e f) idx (1 : Fin 2) = 0 := by
      unfold GatherDims.start
      rw [dif_neg (show (1 : Fin 2) ∉ ([0] : List (Fin 2)) by decide)]
    have ho : (rowGatherDims N C E wf).offCoord (ix2 e f) (1 : Fin 2) = f.val := by
      unfold GatherDims.offCoord
      rw [dif_pos ((GatherDims.mem_sKept _ _).mpr ⟨show (1 : Fin 2) ∉ ([0] : List (Fin 2)) by decide, List.not_mem_nil⟩)]
      rfl
    rw [hs, GatherDims.batchCoord_eq_zero _ _ _ List.not_mem_nil, ho]
    simp only [Nat.zero_add, Nat.add_zero]

end RowGather

/-! ## `stablehlo.gather` of the entries of a vector at a column of start indices -/

section NodeGather
variable {α : Type}

/-- The dimension numbers of "entries of `x : [N]` picked by `idx : [E, 1]`", result `[E]`: offset_dims `[]`,
    collapsed_slice_dims `[0]`, start_index_map `[0]`, index_vector_dim 1, slice_sizes `[1]`. -/
abbrev nodeGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand's entry `idx[e, 0]`, that index read signed and clamped into
    `[0, N − 1]`. -/
theorem nodeGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (nodeGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (nodeGatherDims N E wf).start (ix1 e) idx 0 + (nodeGatherDims N E wf).batchCoord (ix1 e) 0
    + (nodeGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (nodeGatherDims N E wf).startIndexMap from List.mem_singleton.mpr rfl)]
  have hsi : (nodeGatherDims N E wf).siIdx (ix1 e) ⟨List.idxOf (0 : Fin 1) (nodeGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end NodeGather

/-! ## `stablehlo.scatter` of rows of updates into the rows of a matrix named by a column of indices -/

section RowScatter

/-- The dimension numbers of "row `e` of the updates `[E, C]` goes to row `idx[e, 0]` of the operand `[N, C]`":
    update_window_dims `[1]`, inserted_window_dims `[0]`, scatter_dims_to_operand_dims `[0]`, index_vector_dim 1. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)
  (idx : IVec ⟨2, ![E, 1]⟩ w) (e : Fin E) (f : Fin C)

/-- On operand axis 0 the window of update `(e, f)` starts at `idx[e, 0]`, read signed and not clamped. -/
theorem rowScatter_start0 :
    (rowScatterDims N C E wf).start (ix2 e f) idx (0 : Fin 2) = (idx (ix2 e (0 : Fin 1))).toInt := by
  unfold ScatterDims.start
  rw [dif_pos (show (0 : Fin 2) ∈ (rowScatterDims N C E wf).scatterDimsToOperandDims from List.mem_singleton.mpr rfl)]
  have hsi : (rowScatterDims N C E wf).siIdx (ix2 e f)
      ⟨List.idxOf (0 : Fin 2) (rowScatterDims N C E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the index map does not name, the window starts at 0. -/
theorem rowScatter_start1 : (rowScatterDims N C E wf).start (ix2 e f) idx (1 : Fin 2) = 0 := by
  unfold ScatterDims.start
  rw [dif_neg (show (1 : Fin 2) ∉ ([0] : List (Fin 2)) by decide)]

/-- Operand axis 0 is an inserted axis: the window coordinate there is 0. -/
theorem rowScatter_window0 : (rowScatterDims N C E wf).window (ix2 e f) (0 : Fin 2) = 0 := by
  unfold ScatterDims.window
  have hk : (0 : Fin 2) ∉ (rowScatterDims N C E wf).sKept :=
    show (0 : Fin 2) ∉ (List.finRange 2).filter (· ∉ ([0] : List (Fin 2))) by decide
  rw [dif_neg hk]

/-- On operand axis 1 the window coordinate of update `(e, f)` is `f`. -/
theorem rowScatter_window1 : (rowScatterDims N C E wf).window (ix2 e f) (1 : Fin 2) = f.val := by
  unfold ScatterDims.window
  have hk : (1 : Fin 2) ∈ (rowScatterDims N C E wf).sKept :=
    show (1 : Fin 2) ∈ (List.finRange 2).filter (· ∉ ([0] : List (Fin 2))) by decide
  rw [dif_pos hk]
  rfl

/-- WHERE UPDATE `(e, f)` LANDS: with `v = idx[e, 0]` read signed, at `(v, f)` when `0 ≤ v < N`; otherwise the
    update is dropped. -/
theorem rowScatter_resultIdx :
    (rowScatterDims N C E wf).resultIdx? (ix2 e f) idx
      = if h : 0 ≤ (idx (ix2 e (0 : Fin 1))).toInt ∧ (idx (ix2 e (0 : Fin 1))).toInt < (N : Int) then
          some (ix2 (⟨(idx (ix2 e (0 : Fin 1))).toInt.toNat, by omega⟩ : Fin N) f)
        else none := by
  unfold ScatterDims.resultIdx?
  by_cases h : 0 ≤ (idx (ix2 e (0 : Fin 1))).toInt ∧ (idx (ix2 e (0 : Fin 1))).toInt < (N : Int)
  · have H : ∀ a : Fin 2, 0 ≤ (rowScatterDims N C E wf).start (ix2 e f) idx a + ((rowScatterDims N C E wf).window (ix2 e f) a : Int) ∧
        (rowScatterDims N C E wf).start (ix2 e f) idx a + ((rowScatterDims N C E wf).window (ix2 e f) a : Int)
          < ((⟨2, ![N, C]⟩ : Shape).size a : Int) := by
      intro a
      match a with
      | ⟨0, _⟩ =>
        show 0 ≤ (rowScatterDims N C E wf).start (ix2 e f) idx (0 : Fin 2) + ((rowScatterDims N C E wf).window (ix2 e f) (0 : Fin 2) : Int) ∧
          (rowScatterDims N C E wf).start (ix2 e f) idx (0 : Fin 2) + ((rowScatterDims N C E wf).window (ix2 e f) (0 : Fin 2) : Int) < (N : Int)
        rw [rowScatter_start0, rowScatter_window0]
        omega
      | ⟨1, _⟩ =>
        show 0 ≤ (rowScatterDims N C E wf).start (ix2 e f) idx (1 : Fin 2) + ((rowScatterDims N C E wf).window (ix2 e f) (1 : Fin 2) : Int) ∧
          (rowScatterDims N C E wf).start (ix2 e f) idx (1 : Fin 2) + ((rowScatterDims N C E wf).window (ix2 e f) (1 : Fin 2) : Int) < (C : Int)
        rw [rowScatter_start1, rowScatter_window1]
        have := f.isLt
        omega
    rw [dif_pos H, dif_pos h]
    congr 1
    funext a
    refine Fin.ext ?_
    match a with
    | ⟨0, _⟩ =>
      show ((rowScatterDims N C E wf).start (ix2 e f) idx (0 : Fin 2) + ((rowScatterDims N C E wf).window (ix2 e f) (0 : Fin 2) : Int)).toNat
        = (idx (ix2 e (0 : Fin 1))).toInt.toNat
      rw [rowScatter_start0, rowScatter_window0]
      simp
    | ⟨1, _⟩ =>
      show ((rowScatterDims N C E wf).start (ix2 e f) idx (1 : Fin 2) + ((rowScatterDims N C E wf).window (ix2 e f) (1 : Fin 2) : Int)).toNat
        = f.val
      rw [rowScatter_start1, rowScatter_window1]
      simp
  · rw [dif_neg h, dif_neg]
    intro H
    apply h
    have := H (0 : Fin 2)
    rw [rowScatter_start0, rowScatter_window0] at this
    have h2 : (idx (ix2 e (0 : Fin 1))).toInt + ((0 : Nat) : Int) < (N : Int) := this.2
    omega

/-- Update `(e, f)` lands on operand element `(n, g)` exactly when its index `idx[e, 0]`, read signed, is `n` and
    `f = g`. -/
theorem rowScatter_resultIdx_eq_some_iff (n : Fin N) (g : Fin C) :
    (rowScatterDims N C E wf).resultIdx? (ix2 e f) idx = some (ix2 n g)
      ↔ (idx (ix2 e (0 : Fin 1))).toInt = (n.val : Int) ∧ f = g := by
  rw [rowScatter_resultIdx]
  by_cases h : 0 ≤ (idx (ix2 e (0 : Fin 1))).toInt ∧ (idx (ix2 e (0 : Fin 1))).toInt < (N : Int)
  · rw [dif_pos h]
    constructor
    · intro H
      have H' := Option.some.inj H
      have h0 : (idx (ix2 e (0 : Fin 1))).toInt.toNat = n.val := congrArg Fin.val (congrFun H' (0 : Fin 2))
      have h1 : f = g := congrFun H' (1 : Fin 2)
      exact ⟨by omega, h1⟩
    · rintro ⟨hv, rfl⟩
      have : (⟨(idx (ix2 e (0 : Fin 1))).toInt.toNat, by omega⟩ : Fin N) = n := Fin.ext (by show (idx (ix2 e (0 : Fin 1))).toInt.toNat = n.val; omega)
      rw [this]
  · rw [dif_neg h]
    constructor
    · intro H; cases H
    · rintro ⟨hv, _⟩
      exact absurd ⟨by omega, by have := n.isLt; omega⟩ h

end RowScatter

/-! ## `stablehlo.scatter` of a vector of updates into the entries of a vector named by a column of indices -/

section NodeScatter

/-- The dimension numbers of "entry `e` of the updates `[E]` goes to entry `idx[e, 0]` of the operand `[N]`":
    update_window_dims `[]`, inserted_window_dims `[0]`, scatter_dims_to_operand_dims `[0]`, index_vector_dim 1. -/
abbrev nodeScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window of update `e` starts at `idx[e, 0]`, read signed and not clamped. -/
theorem nodeScatter_start0 :
    (nodeScatterDims N E wf).start (ix1 e) idx (0 : Fin 1) = (idx (ix2 e (0 : Fin 1))).toInt := by
  unfold ScatterDims.start
  rw [dif_pos (show (0 : Fin 1) ∈ (nodeScatterDims N E wf).scatterDimsToOperandDims from List.mem_singleton.mpr rfl)]
  have hsi : (nodeScatterDims N E wf).siIdx (ix1 e)
      ⟨List.idxOf (0 : Fin 1) (nodeScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted axis: the window coordinate there is 0. -/
theorem nodeScatter_window0 : (nodeScatterDims N E wf).window (ix1 e) (0 : Fin 1) = 0 := by
  unfold ScatterDims.window
  have hk : (0 : Fin 1) ∉ (nodeScatterDims N E wf).sKept :=
    show (0 : Fin 1) ∉ (List.finRange 1).filter (· ∉ ([0] : List (Fin 1))) by decide
  rw [dif_neg hk]

/-- WHERE UPDATE `e` LANDS: with `v = idx[e, 0]` read signed, at `v` when `0 ≤ v < N`; otherwise the update is
    dropped. -/
theorem nodeScatter_resultIdx :
    (nodeScatterDims N E wf).resultIdx? (ix1 e) idx
      = if h : 0 ≤ (idx (ix2 e (0 : Fin 1))).toInt ∧ (idx (ix2 e (0 : Fin 1))).toInt < (N : Int) then
          some (ix1 (⟨(idx (ix2 e (0 : Fin 1))).toInt.toNat, by omega⟩ : Fin N))
        else none := by
  unfold ScatterDims.resultIdx?
  by_cases h : 0 ≤ (idx (ix2 e (0 : Fin 1))).toInt ∧ (idx (ix2 e (0 : Fin 1))).toInt < (N : Int)
  · have H : ∀ a : Fin 1, 0 ≤ (nodeScatterDims N E wf).start (ix1 e) idx a + ((nodeScatterDims N E wf).window (ix1 e) a : Int) ∧
        (nodeScatterDims N E wf).start (ix1 e) idx a + ((nodeScatterDims N E wf).window (ix1 e) a : Int)
          < ((⟨1, ![N]⟩ : Shape).size a : Int) := by
      intro a
      obtain rfl : a = 0 := Subsingleton.elim _ _
      show 0 ≤ (nodeScatterDims N E wf).start (ix1 e) idx (0 : Fin 1) + ((nodeScatterDims N E wf).window (ix1 e) (0 : Fin 1) : Int) ∧
        (nodeScatterDims N E wf).start (ix1 e) idx (0 : Fin 1) + ((nodeScatterDims N E wf).window (ix1 e) (0 : Fin 1) : Int) < (N : Int)
      rw [nodeScatter_start0, nodeScatter_window0]
      omega
    rw [dif_pos H, dif_pos h]
    congr 1
    funext a
    obtain rfl : a = 0 := Subsingleton.elim _ _
    refine Fin.ext ?_
    show ((nodeScatterDims N E wf).start (ix1 e) idx (0 : Fin 1) + ((nodeScatterDims N E wf).window (ix1 e) (0 : Fin 1) : Int)).toNat
      = (idx (ix2 e (0 : Fin 1))).toInt.toNat
    rw [nodeScatter_start0, nodeScatter_window0]
    simp
  · rw [dif_neg h, dif_neg]
    intro H
    apply h
    have := H (0 : Fin 1)
    rw [nodeScatter_start0, nodeScatter_window0] at this
    have h2 : (idx (ix2 e (0 : Fin 1))).toInt + ((0 : Nat) : Int) < (N : Int) := this.2
    omega

/-- Update `e` lands on operand entry `n` exactly when its index `idx[e, 0]`, read signed, is `n`. -/
theorem nodeScatter_resultIdx_eq_some_iff (n : Fin N) :
    (nodeScatterDims N E wf).resultIdx? (ix1 e) idx = some (ix1 n)
      ↔ (idx (ix2 e (0 : Fin 1))).toInt = (n.val : Int) := by
  rw [nodeScatter_resultIdx]
  by_cases h : 0 ≤ (idx (ix2 e (0 : Fin 1))).toInt ∧ (idx (ix2 e (0 : Fin 1))).toInt < (N : Int)
  · rw [dif_pos h]
    constructor
    · intro H
      have H' := Option.some.inj H
      have h0 : (idx (ix2 e (0 : Fin 1))).toInt.toNat = n.val := congrArg Fin.val (congrFun H' (0 : Fin 1))
      omega
    · intro hv
      have : (⟨(idx (ix2 e (0 : Fin 1))).toInt.toNat, by omega⟩ : Fin N) = n :=
        Fin.ext (by show (idx (ix2 e (0 : Fin 1))).toInt.toNat = n.val; omega)
      rw [this]
  · rw [dif_neg h]
    constructor
    · intro H; cases H
    · intro hv
      exact absurd ⟨by omega, by have := n.isLt; omega⟩ h

end NodeScatter

end Cert.LibGatherScatter

end
-- ==== Proof.IdxMap.lean ====
/-
  The coordinate map of a sparse voxel grid, and what can be read out of it.

  The map has one slot per cell of the dense grid. It starts with the word −1 in every slot ("no voxel here") and
  voxel number `e` is then written, for `e = 0, 1, …, n − 1`, into the slot of voxel `e`'s cell (an overwriting
  scatter: writes that fall outside the grid are dropped, and when two voxels share a cell one of them wins).
  Whatever the cells are, every slot therefore holds −1 or a voxel number below `n`; and so does every word looked
  up in the map, at any position. A looked-up word that is not negative is a voxel number below `n`.
-/
import Idealize.ShloMosaic.Lib.ValueIdx
import proofs.«120445_j5549097746519_2_alg».proof.Proof.LibScatter2
import proofs.«120445_j5549097746519_2_alg».proof.Proof.LibGatherScatter

noncomputable section

namespace Cert.IdxMap

open Idealize.ShloMosaic Idealize.ShloMosaic.ValueIdx

/-- A slot's word: −1 (empty), or a voxel number in `[0, n)` (read signed). -/
def Slot (n : Nat) (v : BitVec 32) : Prop := v = 4294967295#32 ∨ (0 ≤ v.toInt ∧ v.toInt < (n : Int))

/-- The word of a number below 2³¹ reads, signed, as that number. -/
theorem toInt_ofNat_small {k : Nat} (hk : k < 2147483648) : (BitVec.ofNat 32 k).toInt = (k : Int) := by
  have h1 : (BitVec.ofNat 32 k).toNat = k := by
    rw [BitVec.toNat_ofNat]; exact Nat.mod_eq_of_lt (by omega)
  rw [BitVec.toInt_eq_toNat_cond, h1]
  have : 2 * k < 2 ^ 32 := by omega
  rw [if_pos this]

/-- A voxel number is a slot word. -/
theorem slot_ofNat {n k : Nat} (hn : n ≤ 2147483648) (hk : k < n) : Slot n (BitVec.ofNat 32 k) :=
  Or.inr (by rw [toInt_ofNat_small (by omega)]; exact ⟨Int.natCast_nonneg k, by exact_mod_cast hk⟩)

/-- A slot word that is not negative is a voxel number below `n`. -/
theorem Slot.lt_of_nonneg {n : Nat} {v : BitVec 32} (h : Slot n v) (h0 : 0 ≤ v.toInt) : v.toInt < (n : Int) := by
  rcases h with rfl | h
  · exact absurd h0 (by decide)
  · exact h.2

/-- EVERY SLOT OF THE MAP IS A SLOT WORD: the map is an overwriting scatter of the voxel numbers `0, …, n − 1` (an iota
    along the one axis) into a table filled with −1, at whatever positions `lin`. -/
theorem map_slot {G n : Nat} (hn : n ≤ 2147483648)
    (d : ScatterDims (⟨1, ![G]⟩ : Shape) ⟨2, ![n, 1]⟩ ⟨1, ![n]⟩)
    (hb : (⟨0, ![]⟩ : Shape).BroadcastsInDim ⟨1, ![G]⟩ ![])
    (lin : IVec ⟨2, ![n, 1]⟩ 32) (i : (⟨1, ![G]⟩ : Shape).Idx) :
    Slot n (Host.scatter d (fun _ b => b)
      (broadcastInDim (⟨1, ![G]⟩ : Shape) ![] hb (constantI ⟨0, ![]⟩ 32 4294967295#32)) lin
      (iotaInDim (⟨1, ![n]⟩ : Shape) 32 0) i) :=
  Cert.LibScatter2.scatter_set_induction (Slot n) d _ lin _ (fun _ => Or.inl rfl)
    (fun j => slot_ofNat hn (j 0).isLt) i

/-- EVERY WORD LOOKED UP IN THE MAP IS A SLOT WORD: a gather of single entries of a table whose entries are slot
    words, at whatever positions. -/
theorem lookup_slot {G E n : Nat} (hG : 0 < G)
    (wf : GatherDims.WF (⟨1, ![G]⟩ : Shape) ⟨2, ![E, 1]⟩ ⟨1, ![E]⟩ [] [0] [] [0] [] 1 ![1])
    (M : IVec ⟨1, ![G]⟩ 32) (hM : ∀ i, Slot n (M i)) (q : IVec ⟨2, ![E, 1]⟩ 32) (p : Fin E) :
    Slot n (Host.gather (Cert.LibGatherScatter.nodeGatherDims G E wf) M q (ix1 p)) := by
  rw [Cert.LibGatherScatter.nodeGather_apply hG wf M q p]
  exact hM _

/-- EVERY WORD LOOKED UP IN THE COORDINATE MAP IS A SLOT WORD, with the map spelt out: the table of −1 overwritten with
    the voxel numbers at positions `lin`, looked up at positions `q`. Whatever the coordinates of the voxels and of
    the neighbours are, a looked-up word is −1 or a voxel number below `n`. -/
theorem lookup_map_slot {G E n : Nat} (hG : 0 < G) (hn : n ≤ 2147483648)
    (d : ScatterDims (⟨1, ![G]⟩ : Shape) ⟨2, ![n, 1]⟩ ⟨1, ![n]⟩)
    (hb : (⟨0, ![]⟩ : Shape).BroadcastsInDim ⟨1, ![G]⟩ ![])
    (wf : GatherDims.WF (⟨1, ![G]⟩ : Shape) ⟨2, ![E, 1]⟩ ⟨1, ![E]⟩ [] [0] [] [0] [] 1 ![1])
    (lin : IVec ⟨2, ![n, 1]⟩ 32) (q : IVec ⟨2, ![E, 1]⟩ 32) (p : Fin E) :
    Slot n (Host.gather (Cert.LibGatherScatter.nodeGatherDims G E wf)
      (Host.scatter d (fun _ b => b)
        (broadcastInDim (⟨1, ![G]⟩ : Shape) ![] hb (constantI ⟨0, ![]⟩ 32 4294967295#32)) lin
        (iotaInDim (⟨1, ![n]⟩ : Shape) 32 0)) q (ix1 p)) :=
  lookup_slot hG wf _ (map_slot hn d hb lin) q p

end Cert.IdxMap

end
-- ==== Proof.NbrIdx.lean ====
/-
  THE NEIGHBOUR LOOK-UP of a sparse 3×3×3 stencil, as pure functions of the voxel coordinates.

  Every voxel `p` has integer coordinates `(z, y, x)` in a dense grid of 480 × 360 × 32 cells. Its cell has the linear
  number `(z·360 + y)·32 + x`. The COORDINATE MAP is a table over the 5529600 cells holding, in each cell, the number
  of a voxel that lies there, or −1: it starts at −1 everywhere and voxel `e` is written into its own cell (a negative
  cell number counts from the end; a number outside the table is dropped).

  For one tap — an offset `(dz, dy, dx)`, each of −1, 0, 1, given as 32-bit words — the neighbour of `p` has coordinates
  `(z + dz, y + dy, x + dx)`. The bit INSIDE says that these lie in the grid; the neighbour's linear cell number is
  clipped into the table, passed through "a negative index counts from the end", and looked up in the map: the word
  NIDX. Both programs compute exactly this sequence of operations, for each of the 27 taps; written once here, over
  variables for the arrays, so that each program's buffers can be identified with these terms one operation at a time
  (`lin_compose`, `nbr_compose`: if each buffer holds its operation of the buffers before it, the last ones hold the
  composed terms).

  Whatever the coordinates are, NIDX is −1 or a voxel number below 200000 (`nidx_slot`).
-/
import proofs.«120445_j5549097746519_2_alg».proof.Proof.IdxMap

noncomputable section

namespace Cert.NbrIdx

open Idealize.ShloMosaic Idealize.ShloMosaic.ValueIdx Cert.LibGatherScatter Cert.IdxMap

local notation "S_" => (⟨0, ![]⟩ : Shape)
local notation "S200000" => (⟨1, ![200000]⟩ : Shape)
local notation "S200000x1" => (⟨2, ![200000, 1]⟩ : Shape)
local notation "S200000x3" => (⟨2, ![200000, 3]⟩ : Shape)
local notation "S5529600" => (⟨1, ![5529600]⟩ : Shape)

section Terms

variable
  (hs0 : (S200000x3).Slices ![0, 0] S200000x1) (hs1 : (S200000x3).Slices ![0, 1] S200000x1)
  (hs2 : (S200000x3).Slices ![0, 2] S200000x1) (hc : (S200000x1).ShapeCasts S200000)
  (hb0 : (S_).BroadcastsInDim S200000 (![] : Fin 0 → Fin (S200000).rank))
  (hb1 : (S200000).BroadcastsInDim S200000x1 (![0] : Fin 1 → Fin (S200000x1).rank))
  (hbG : (S_).BroadcastsInDim S5529600 (![] : Fin 0 → Fin (S5529600).rank))
  (dS : ScatterDims S5529600 S200000x1 S200000)
  (wfN : GatherDims.WF S5529600 S200000x1 S200000 [] [0] [] [0] [] 1 ![1])
  (coords : IVec S200000x3 32)

/-- A 32-bit word spread over the voxels. -/
abbrev spread (w : BitVec 32) : IVec S200000 32 := broadcastInDim S200000 ![] hb0 (constantI S_ 32 w)

/-- Column `a` of the coordinates as a vector: the slice `[0:200000, a:a+1]` without its unit axis. -/
abbrev zcol : IVec S200000 32 := shapeCast S200000 (extractStridedSlice S200000x1 ![0, 0] coords hs0) hc
abbrev ycol : IVec S200000 32 := shapeCast S200000 (extractStridedSlice S200000x1 ![0, 1] coords hs1) hc
abbrev xcol : IVec S200000 32 := shapeCast S200000 (extractStridedSlice S200000x1 ![0, 2] coords hs2) hc

/-- The voxels' own linear cell numbers, `(z·360 + y)·32 + x`. -/
abbrev lin : IVec S200000 32 :=
  addi (muli (addi (muli (zcol hs0 hc coords) (spread hb0 360#32)) (ycol hs1 hc coords)) (spread hb0 32#32))
    (xcol hs2 hc coords)

/-- The same after "a negative index counts from the end", as a column: the scatter's positions. -/
abbrev linCol : IVec S200000x1 32 :=
  broadcastInDim S200000x1 ![0] hb1
    (select (cmpi .slt (lin hs0 hs1 hs2 hc hb0 coords) (spread hb0 0#32))
      (addi (lin hs0 hs1 hs2 hc hb0 coords) (spread hb0 5529600#32)) (lin hs0 hs1 hs2 hc hb0 coords))

/-- THE COORDINATE MAP: −1 everywhere, then voxel `e` written into its cell. -/
abbrev coordMap : IVec S5529600 32 :=
  Host.scatter dS (fun _ b => b) (broadcastInDim S5529600 ![] hbG (constantI S_ 32 4294967295#32))
    (linCol hs0 hs1 hs2 hc hb0 hb1 coords) (iotaInDim S200000 32 0)

variable (dz dy dx : BitVec 32)

/-- The neighbour's coordinates. -/
abbrev nz : IVec S200000 32 := addi (zcol hs0 hc coords) (spread hb0 dz)
abbrev ny : IVec S200000 32 := addi (ycol hs1 hc coords) (spread hb0 dy)
abbrev nx : IVec S200000 32 := addi (xcol hs2 hc coords) (spread hb0 dx)

/-- INSIDE: `0 ≤ nz < 480 ∧ 0 ≤ ny < 360 ∧ 0 ≤ nx < 32`, the conjunction taken in this order. -/
abbrev inside : IVec S200000 1 :=
  andi (andi (andi (andi (andi
    (cmpi .sge (nz hs0 hc hb0 coords dz) (spread hb0 0#32)) (cmpi .slt (nz hs0 hc hb0 coords dz) (spread hb0 480#32)))
    (cmpi .sge (ny hs1 hc hb0 coords dy) (spread hb0 0#32))) (cmpi .slt (ny hs1 hc hb0 coords dy) (spread hb0 360#32)))
    (cmpi .sge (nx hs2 hc hb0 coords dx) (spread hb0 0#32))) (cmpi .slt (nx hs2 hc hb0 coords dx) (spread hb0 32#32))

/-- The neighbour's linear cell number, `(nz·360 + ny)·32 + nx`. -/
abbrev nlin : IVec S200000 32 :=
  addi (muli (addi (muli (nz hs0 hc hb0 coords dz) (spread hb0 360#32)) (ny hs1 hc hb0 coords dy)) (spread hb0 32#32))
    (nx hs2 hc hb0 coords dx)

/-- Clipped into the table: `min(5529599, max(0, nlin))`. -/
abbrev clipped : IVec S200000 32 :=
  minsi (broadcastInDim S200000 ![] hb0 (id (constantI S_ 32 5529599#32)))
    (maxsi (broadcastInDim S200000 ![] hb0 (id (constantI S_ 32 0#32))) (nlin hs0 hs1 hs2 hc hb0 coords dz dy dx))

/-- The look-up positions: the clipped number after "a negative index counts from the end", as a column. -/
abbrev lookupCol : IVec S200000x1 32 :=
  broadcastInDim S200000x1 ![0] hb1
    (select (cmpi .slt (clipped hs0 hs1 hs2 hc hb0 coords dz dy dx) (spread hb0 0#32))
      (addi (clipped hs0 hs1 hs2 hc hb0 coords dz dy dx) (spread hb0 5529600#32))
      (clipped hs0 hs1 hs2 hc hb0 coords dz dy dx))

/-- NIDX: the neighbour's voxel number, or −1: the map looked up at the neighbour's cell. -/
abbrev nidx (M : IVec S5529600 32) : IVec S200000 32 :=
  Host.gather (nodeGatherDims 5529600 200000 wfN) M (lookupCol hs0 hs1 hs2 hc hb0 hb1 coords dz dy dx)

/-- WHATEVER THE COORDINATES ARE, NIDX looked up in the coordinate map is −1 or a voxel number below 200000. -/
theorem nidx_slot (p : Fin 200000) :
    Slot 200000 (nidx hs0 hs1 hs2 hc hb0 hb1 wfN coords dz dy dx (coordMap hs0 hs1 hs2 hc hb0 hb1 hbG dS coords) (ix1 p)) :=
  lookup_map_slot (by decide) (by decide) dS hbG wfN _ _ p

end Terms

end Cert.NbrIdx

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«120445_j5549097746519_2_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.RefTap.lean ====
/-
  ONE TAP OF A SUBMANIFOLD SPARSE CONVOLUTION'S REFERENCE, READ AT AN INDEX, over the extended reals.

  For one of the 27 taps the reference has, per output voxel p, the index nidx[p] of the neighbouring voxel in that
  direction (or −1 when there is none) and a bit inb[p] saying that the neighbour's coordinates are inside the grid.
  It forms the bit valid[p] = inb[p] ∧ (nidx[p] ≥ 0), gathers the neighbour's 128 features with the index
  max(nidx[p], 0) — passed through the "a negative index counts from the end" select and then clamped by the gather
  into [0, 199999] —, replaces the gathered row by zeros where valid[p] is off, and multiplies the masked [200000, 128]
  matrix by the tap's [128, 20] weights.

  Read at (p, c) the result is
  * the sum over j of X[nidx[p], j] · W[j, c] when valid[p] is on and nidx[p] < 200000: then nidx[p] ≥ 0, the
    maximum with 0, the wrap-around select and the clamp are all the identity;
  * 0 when valid[p] is off: the masked row is all zeros, and 0 · w = 0 for every extended real w, the infinite
    ones included, so nothing is asked of the weights.

  First come the general pieces (words; broadcasts of a vector to a column and of a column along rows, of any sizes),
  then the tap's operations one by one, each read at an index, then the two cases and both at once.
-/
import Idealize.ShloMosaic.Lib.ValueIdx
import Idealize.ShloMosaic.Lib.IdealHost
import Idealize.ShloMosaic.Lib.Pipeline.Value
import Idealize.ShloMosaic.PureOps.Ideal.Laws
import proofs.«120445_j5549097746519_2_alg».proof.Proof.LibGatherScatter
import proofs.«120445_j5549097746519_2_alg».proof.Proof.LibHostDot

noncomputable section

namespace Cert.RefTap

open Idealize.ShloMosaic Idealize.ShloMosaic.ValueIdx Cert.LibGatherScatter Cert.LibPlainMatmul
open scoped BigOperators

/-! ## Words: a one-bit conjunction, and signed comparisons of a 32-bit word with zero -/

/-- The conjunction of two bits is on exactly when both are. -/
theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

/-- The signed comparison "x ≥ 0" is on exactly when x, read signed, is not negative. -/
theorem cmpi_sge_zero_eq_one_iff (x : BitVec 32) : IntOp.cmpi .sge x 0#32 = 1#1 ↔ 0 ≤ x.toInt := by
  unfold IntOp.cmpi
  simp only [BitVec.sle, BitVec.toInt_zero]
  by_cases h : 0 ≤ x.toInt
  · simp [h]
  · simp [h]

/-- The signed maximum of a non-negative word and zero is the word. -/
theorem maxsi_zero_of_nonneg (x : BitVec 32) (h : 0 ≤ x.toInt) : IntOp.maxsi x 0#32 = x := by
  unfold IntOp.maxsi
  split
  · rfl
  · rename_i hn
    have : x.toInt = 0 := by
      simp [BitVec.slt] at hn
      omega
    exact (BitVec.eq_of_toInt_eq (by simpa using this)).symm

/-- The signed maximum of a word and zero is not negative. -/
theorem maxsi_zero_nonneg (x : BitVec 32) : 0 ≤ (IntOp.maxsi x 0#32).toInt := by
  unfold IntOp.maxsi
  split
  · rename_i hp
    simp [BitVec.slt] at hp
    omega
  · simp

/-- The signed comparison "x < 0" is off for a non-negative word. -/
theorem cmpi_slt_zero_of_nonneg (x : BitVec 32) (h : 0 ≤ x.toInt) : IntOp.cmpi .slt x 0#32 = 0#1 := by
  unfold IntOp.cmpi
  simp only [BitVec.slt, BitVec.toInt_zero]
  have : ¬ x.toInt < 0 := by omega
  simp [this]

/-! ## Broadcasts read at an index, of any sizes -/

section Layout
variable {α : Type}

/-- An integer scalar constant broadcast to any shape reads the constant everywhere. -/
theorem broadcastInDim_constantI_apply {T : Shape} {w : Nat} (h : (⟨0, ![]⟩ : Shape).BroadcastsInDim T ![])
    (c : BitVec w) (j : T.Idx) : broadcastInDim T ![] h (constantI ⟨0, ![]⟩ w c) j = c := rfl

/-- A vector [n] broadcast to the column [n, 1] reads, at (e, z), the vector at e. -/
theorem broadcastInDim_col_apply {n : Nat}
    (h : (⟨1, ![n]⟩ : Shape).BroadcastsInDim ⟨2, ![n, 1]⟩ (![0] : Fin 1 → Fin (⟨2, ![n, 1]⟩ : Shape).rank))
    (x : (⟨1, ![n]⟩ : Shape).Idx → α) (e : Fin n) (z : Fin 1) :
    broadcastInDim ⟨2, ![n, 1]⟩ ![0] h x (ix2 e z) = x (ix1 e) := by
  refine broadcastInDim_apply _ h x (ix2 e z) (ix1 e) fun a => ?_
  match a with
  | ⟨0, _⟩ =>
    show e.val = if n = 1 then 0 else e.val
    split
    · have := e.isLt; omega
    · rfl

/-- A column [n, 1] broadcast along rows to [n, m] reads, at (p, j), the column at (p, 0). -/
theorem broadcastInDim_rows_apply {n m : Nat}
    (h : (⟨2, ![n, 1]⟩ : Shape).BroadcastsInDim ⟨2, ![n, m]⟩ (![0, 1] : Fin 2 → Fin (⟨2, ![n, m]⟩ : Shape).rank))
    (x : (⟨2, ![n, 1]⟩ : Shape).Idx → α) (p : Fin n) (j : Fin m) :
    broadcastInDim ⟨2, ![n, m]⟩ ![0, 1] h x (ix2 p j) = x (ix2 p (0 : Fin 1)) := by
  refine broadcastInDim_apply _ h x (ix2 p j) (ix2 p (0 : Fin 1)) fun a => ?_
  match a with
  | ⟨0, _⟩ =>
    show p.val = if n = 1 then 0 else p.val
    split
    · have := p.isLt; omega
    · rfl
  | ⟨1, _⟩ => rfl

end Layout

/-! ## The tap's operations, in the program's order, and each read at an index -/

section Tap

variable
  (hb0 : (⟨0, ![]⟩ : Shape).BroadcastsInDim ⟨1, ![200000]⟩ (![] : Fin 0 → Fin (⟨1, ![200000]⟩ : Shape).rank))
  (hb1 : (⟨1, ![200000]⟩ : Shape).BroadcastsInDim ⟨2, ![200000, 1]⟩
    (![0] : Fin 1 → Fin (⟨2, ![200000, 1]⟩ : Shape).rank))
  (hb2 : (⟨2, ![200000, 1]⟩ : Shape).BroadcastsInDim ⟨2, ![200000, 128]⟩
    (![0, 1] : Fin 2 → Fin (⟨2, ![200000, 128]⟩ : Shape).rank))
  (hb3 : (⟨0, ![]⟩ : Shape).BroadcastsInDim ⟨2, ![200000, 128]⟩ (![] : Fin 0 → Fin (⟨2, ![200000, 128]⟩ : Shape).rank))
  (wfg : GatherDims.WF ⟨2, ![200000, 128]⟩ ⟨2, ![200000, 1]⟩ ⟨2, ![200000, 128]⟩ [1] [0] [] [0] [] 1 ![1, 128])
  (wfd : DotDims.WF (⟨2, ![200000, 128]⟩ : Shape) ⟨2, ![128, 20]⟩ ⟨2, ![200000, 20]⟩ [1] [0] [0] [1] [] [])
  (nidx : IVec ⟨1, ![200000]⟩ 32) (inb : IVec ⟨1, ![200000]⟩ 1)
  (X : FVec Ideal ⟨2, ![200000, 128]⟩ .f32) (Wk : FVec Ideal ⟨2, ![128, 20]⟩ .f32)

/-- The vector of zeros the neighbour index is compared with (a scalar 0 broadcast). -/
abbrev zeros : IVec ⟨1, ![200000]⟩ 32 :=
  broadcastInDim ⟨1, ![200000]⟩ ![] hb0 (constantI ⟨0, ![]⟩ 32 0#32)

/-- "There is a neighbour": nidx ≥ 0, signed. -/
abbrev nonneg : IVec ⟨1, ![200000]⟩ 1 := cmpi .sge nidx (zeros hb0)

/-- The tap is taken at p: the neighbour's coordinates are inside the grid and there is a neighbour. -/
abbrev valid : IVec ⟨1, ![200000]⟩ 1 := andi inb (nonneg hb0 nidx)

/-- The same bits as a column. -/
abbrev validCol : IVec ⟨2, ![200000, 1]⟩ 1 := broadcastInDim ⟨2, ![200000, 1]⟩ ![0] hb1 (valid hb0 nidx inb)

/-- max(nidx, 0), signed. -/
abbrev atLeast0 : IVec ⟨1, ![200000]⟩ 32 := maxsi nidx (zeros hb0)

/-- "The index is negative", asked of max(nidx, 0). -/
abbrev isNeg : IVec ⟨1, ![200000]⟩ 1 := cmpi .slt (atLeast0 hb0 nidx) (zeros hb0)

/-- The index counted from the end: max(nidx, 0) + 200000. -/
abbrev fromEnd : IVec ⟨1, ![200000]⟩ 32 :=
  addi (atLeast0 hb0 nidx) (broadcastInDim ⟨1, ![200000]⟩ ![] hb0 (constantI ⟨0, ![]⟩ 32 200000#32))

/-- The index after "a negative index counts from the end". -/
abbrev wrapped : IVec ⟨1, ![200000]⟩ 32 := select (isNeg hb0 nidx) (fromEnd hb0 nidx) (atLeast0 hb0 nidx)

/-- The same indices as a column: the gather's start indices. -/
abbrev idxCol : IVec ⟨2, ![200000, 1]⟩ 32 := broadcastInDim ⟨2, ![200000, 1]⟩ ![0] hb1 (wrapped hb0 nidx)

/-- The neighbours' feature rows. -/
abbrev gathered : FVec Ideal ⟨2, ![200000, 128]⟩ .f32 :=
  Host.gather (rowGatherDims 200000 128 200000 wfg) X (idxCol hb0 hb1 nidx)

/-- The validity bits spread along each row. -/
abbrev mask : IVec ⟨2, ![200000, 128]⟩ 1 :=
  broadcastInDim ⟨2, ![200000, 128]⟩ ![0, 1] hb2 (validCol hb0 hb1 nidx inb)

/-- The matrix of zeros that replaces the rows not taken (a scalar 0.0 broadcast). -/
abbrev zeroRows : FVec Ideal ⟨2, ![200000, 128]⟩ .f32 :=
  broadcastInDim ⟨2, ![200000, 128]⟩ ![] hb3 (id (constant (F := Ideal) ⟨0, ![]⟩ .f32 0x00000000#32))

/-- The neighbours' feature rows, zero where the tap is not taken. -/
abbrev masked : FVec Ideal ⟨2, ![200000, 128]⟩ .f32 :=
  select (mask hb0 hb1 hb2 nidx inb) (gathered hb0 hb1 wfg nidx X) (zeroRows hb3)

/-- THE TAP: the masked rows times the tap's weights. -/
abbrev tap : FVec Ideal ⟨2, ![200000, 20]⟩ .f32 :=
  Host.dotGeneral (plainDims wfd) none (masked hb0 hb1 hb2 hb3 wfg nidx inb X) Wk

/-- The zeros read 0 everywhere. -/
theorem zeros_apply (i : (⟨1, ![200000]⟩ : Shape).Idx) : zeros hb0 i = 0#32 := rfl

/-- The validity bit at an index is the conjunction of the inside-the-grid bit and "nidx ≥ 0". -/
theorem valid_apply (i : (⟨1, ![200000]⟩ : Shape).Idx) :
    valid hb0 nidx inb i = IntOp.andi (inb i) (IntOp.cmpi .sge (nidx i) 0#32) := rfl

/-- The tap is taken at an index exactly when the inside-the-grid bit is on and the neighbour index, read signed, is
    not negative. -/
theorem valid_eq_one_iff (i : (⟨1, ![200000]⟩ : Shape).Idx) :
    valid hb0 nidx inb i = 1#1 ↔ inb i = 1#1 ∧ 0 ≤ (nidx i).toInt := by
  rw [valid_apply, andi_eq_one_iff, cmpi_sge_zero_eq_one_iff]

/-- The wrap-around select never fires: max(nidx, 0) is not negative, so the wrapped index is max(nidx, 0). -/
theorem wrapped_apply (i : (⟨1, ![200000]⟩ : Shape).Idx) : wrapped hb0 nidx i = IntOp.maxsi (nidx i) 0#32 := by
  show Scalar.select (IntOp.cmpi .slt (IntOp.maxsi (nidx i) 0#32) 0#32)
    (IntOp.addi (IntOp.maxsi (nidx i) 0#32) 200000#32) (IntOp.maxsi (nidx i) 0#32) = IntOp.maxsi (nidx i) 0#32
  rw [cmpi_slt_zero_of_nonneg _ (maxsi_zero_nonneg _), select_zero]

/-- Where the neighbour index is not negative, the maximum with 0 and the wrap-around select leave it alone. -/
theorem wrapped_apply_of_nonneg (i : (⟨1, ![200000]⟩ : Shape).Idx) (h : 0 ≤ (nidx i).toInt) :
    wrapped hb0 nidx i = nidx i := by
  rw [wrapped_apply, maxsi_zero_of_nonneg _ h]

/-- The start-index column at (e, z) is the wrapped index at e. -/
theorem idxCol_apply (e : Fin 200000) (z : Fin 1) :
    idxCol hb0 hb1 nidx (ix2 e z) = wrapped hb0 nidx (ix1 e) :=
  broadcastInDim_col_apply hb1 _ e z

/-- The gathered matrix at (e, f): column f of the features' row "wrapped index at e, clamped into [0, 199999]". -/
theorem gathered_apply (e : Fin 200000) (f : Fin 128) :
    gathered hb0 hb1 wfg nidx X (ix2 e f)
      = X (ix2 (⟨min (wrapped hb0 nidx (ix1 e)).toInt.toNat (200000 - 1), by omega⟩ : Fin 200000) f) := by
  refine (rowGather_apply (by decide : 0 < 200000) wfg X (idxCol hb0 hb1 nidx) e f).trans ?_
  refine congrArg (fun r => X (ix2 r f)) (Fin.ext ?_)
  show min (idxCol hb0 hb1 nidx (ix2 e (0 : Fin 1))).toInt.toNat (200000 - 1)
    = min (wrapped hb0 nidx (ix1 e)).toInt.toNat (200000 - 1)
  rw [idxCol_apply]

/-- Where the neighbour index lies in [0, 200000) the clamp is the identity too: the gathered row is the features' row
    nidx[e]. -/
theorem gathered_apply_of_inRange (e : Fin 200000) (f : Fin 128) (h0 : 0 ≤ (nidx (ix1 e)).toInt)
    (hlt : (nidx (ix1 e)).toInt < 200000) :
    gathered hb0 hb1 wfg nidx X (ix2 e f)
      = X (ix2 (⟨(nidx (ix1 e)).toInt.toNat, by omega⟩ : Fin 200000) f) := by
  rw [gathered_apply]
  refine congrArg (fun r => X (ix2 r f)) (Fin.ext ?_)
  show min (wrapped hb0 nidx (ix1 e)).toInt.toNat (200000 - 1) = (nidx (ix1 e)).toInt.toNat
  rw [wrapped_apply_of_nonneg hb0 nidx _ h0]
  omega

/-- The mask at (p, j) is the validity bit at p. -/
theorem mask_apply (p : Fin 200000) (j : Fin 128) :
    mask hb0 hb1 hb2 nidx inb (ix2 p j) = valid hb0 nidx inb (ix1 p) :=
  (broadcastInDim_rows_apply hb2 _ p j).trans (broadcastInDim_col_apply hb1 _ p 0)

/-- The zero matrix reads the extended real 0 everywhere. -/
theorem zeroRows_apply (i : (⟨2, ![200000, 128]⟩ : Shape).Idx) : zeroRows hb3 i = 0 :=
  Ideal.ofBits_zero_f32

/-- The masked matrix at (p, j): the gathered entry where the tap is taken, 0 where it is not. -/
theorem masked_apply (p : Fin 200000) (j : Fin 128) :
    masked hb0 hb1 hb2 hb3 wfg nidx inb X (ix2 p j)
      = Scalar.select (valid hb0 nidx inb (ix1 p)) (gathered hb0 hb1 wfg nidx X (ix2 p j)) 0 := by
  show Scalar.select (mask hb0 hb1 hb2 nidx inb (ix2 p j)) (gathered hb0 hb1 wfg nidx X (ix2 p j))
    (zeroRows hb3 (ix2 p j)) = _
  rw [mask_apply, zeroRows_apply]

/-- The tap at (p, c) is the sum over the 128 features of the masked row p times column c of the weights. -/
theorem tap_eq_sum (p : Fin 200000) (c : Fin 20) :
    tap hb0 hb1 hb2 hb3 wfg wfd nidx inb X Wk (ix2 p c)
      = ∑ j : Fin 128, masked hb0 hb1 hb2 hb3 wfg nidx inb X (ix2 p j) * Wk (ix2 j c) :=
  Cert.LibHostDot.dotGeneral_plain wfd .single _ _ p c

/-! ## The two cases -/

/-- WHERE THE TAP IS NOT TAKEN the result is 0, whatever the weights are: the masked row is all zeros, and zero times
    any extended real, an infinite one included, is zero. -/
theorem refTap_invalid (p : Fin 200000) (c : Fin 20) (hv : valid hb0 nidx inb (ix1 p) ≠ 1#1) :
    tap hb0 hb1 hb2 hb3 wfg wfd nidx inb X Wk (ix2 p c) = 0 := by
  rw [tap_eq_sum]
  refine Finset.sum_eq_zero fun j _ => ?_
  rw [masked_apply, eq_zero_of_ne_one hv, select_zero, zero_mul]

/-- WHERE THE TAP IS TAKEN and the neighbour index is below 200000, the result at (p, c) is row nidx[p] of the
    features times column c of the weights. -/
theorem refTap_valid (p : Fin 200000) (c : Fin 20) (hv : valid hb0 nidx inb (ix1 p) = 1#1)
    (hlt : (nidx (ix1 p)).toInt < 200000) :
    tap hb0 hb1 hb2 hb3 wfg wfd nidx inb X Wk (ix2 p c)
      = ∑ j : Fin 128, X (ix2 (⟨(nidx (ix1 p)).toInt.toNat, by omega⟩ : Fin 200000) j) * Wk (ix2 j c) := by
  have h0 : 0 ≤ (nidx (ix1 p)).toInt := ((valid_eq_one_iff hb0 nidx inb _).mp hv).2
  rw [tap_eq_sum]
  refine Finset.sum_congr rfl fun j _ => ?_
  rw [masked_apply, hv, select_one, gathered_apply_of_inRange hb0 hb1 wfg nidx X p j h0 hlt]

/-- BOTH AT ONCE, under the hypothesis that a taken tap's neighbour index is below 200000. -/
theorem refTap_apply (hr : ∀ p : Fin 200000, valid hb0 nidx inb (ix1 p) = 1#1 → (nidx (ix1 p)).toInt < 200000)
    (p : Fin 200000) (c : Fin 20) :
    tap hb0 hb1 hb2 hb3 wfg wfd nidx inb X Wk (ix2 p c)
      = if h : valid hb0 nidx inb (ix1 p) = 1#1 then
          ∑ j : Fin 128, X (ix2 (⟨(nidx (ix1 p)).toInt.toNat, by have := hr p h; omega⟩ : Fin 200000) j) * Wk (ix2 j c)
        else 0 := by
  by_cases h : valid hb0 nidx inb (ix1 p) = 1#1
  · rw [dif_pos h]
    exact refTap_valid hb0 hb1 hb2 hb3 wfg wfd nidx inb X Wk p c h (hr p h)
  · rw [dif_neg h]
    exact refTap_invalid hb0 hb1 hb2 hb3 wfg wfd nidx inb X Wk p c h

end Tap

end Cert.RefTap
end
-- ==== Proof.RefWeight.lean ====
/-
  THE WEIGHTS OF ONE TAP OF A 3×3×3 CONVOLUTION, READ AT AN INDEX.

  The 27 taps' weights are stored as one [27, 128, 20] array. For tap k the reference cuts out the slab
  [k : k + 1, 0 : 128, 0 : 20], a [1, 128, 20] array, and drops its leading unit axis by a reshape to [128, 20].
  Read at (j, c) the result is the weights at (k, j, c): the slab at (0, j, c) is the array at (k + 0, 0 + j, 0 + c),
  and dropping a leading unit axis does not move an element in row-major order.

  The general statement is for an [n, a, b] array of any element type; the tap's is its instance at [27, 128, 20],
  with the tap given either as a number below 27 or as an element of Fin 27 (the start vector then written with its
  value, so that the start vector of each literal tap is an instance as it stands).
-/
import Idealize.ShloMosaic.Lib.ValueIdx
import Idealize.ShloMosaic.Lib.Pipeline.Value
import Idealize.ShloMosaic.Lib.ValueLayout

noncomputable section

namespace Cert.RefWeight

open Idealize.ShloMosaic Idealize.ShloMosaic.ValueIdx

/-! ## The k-th slab of a rank-3 array, of any sizes and element type -/

section General
variable {α : Type}

/-- The [1, a, b] slab of an [n, a, b] array that starts at (k, 0, 0) reads, at (z, i, j), the array at (k, i, j). -/
theorem slab_apply {n a b : Nat} (k : Nat) (hk : k < n) (X : (⟨3, ![n, a, b]⟩ : Shape).Idx → α)
    (hs : (⟨3, ![n, a, b]⟩ : Shape).Slices ![k, 0, 0] ⟨3, ![1, a, b]⟩) (z : Fin 1) (i : Fin a) (j : Fin b) :
    extractStridedSlice ⟨3, ![1, a, b]⟩ ![k, 0, 0] X hs (ix3 z i j) = X (ix3 (⟨k, hk⟩ : Fin n) i j) :=
  extractStridedSlice_apply _ _ _ _ _ (fun ax => by
    match ax with
    | ⟨0, _⟩ =>
      show k = k + z.val
      omega
    | ⟨1, _⟩ => exact (Nat.zero_add _).symm
    | ⟨2, _⟩ => exact (Nat.zero_add _).symm)

/-- That slab with its leading unit axis dropped reads, at (i, j), the array at (k, i, j). -/
theorem slabCast_apply {n a b : Nat} (k : Nat) (hk : k < n) (X : (⟨3, ![n, a, b]⟩ : Shape).Idx → α)
    (hs : (⟨3, ![n, a, b]⟩ : Shape).Slices ![k, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![k, 0, 0] X hs) hc (ix2 i j)
      = X (ix3 (⟨k, hk⟩ : Fin n) i j) :=
  (shapeCast_1ab_ab_apply _ hc i j).trans (slab_apply k hk X hs 0 i j)

end General

/-! ## The tap's weights -/

section Weights
variable (W : FVec Ideal ⟨3, ![27, 128, 20]⟩ .f32)

/-- Tap k's slab of the weights, [1, 128, 20]. -/
abbrev slab (k : Nat) (hs : (⟨3, ![27, 128, 20]⟩ : Shape).Slices ![k, 0, 0] ⟨3, ![1, 128, 20]⟩) :
    FVec Ideal ⟨3, ![1, 128, 20]⟩ .f32 :=
  extractStridedSlice ⟨3, ![1, 128, 20]⟩ ![k, 0, 0] W hs

/-- Tap k's weights, [128, 20]: the slab without its unit axis. -/
abbrev wslice (k : Nat) (hs : (⟨3, ![27, 128, 20]⟩ : Shape).Slices ![k, 0, 0] ⟨3, ![1, 128, 20]⟩)
    (hc : (⟨3, ![1, 128, 20]⟩ : Shape).ShapeCasts ⟨2, ![128, 20]⟩) : FVec Ideal ⟨2, ![128, 20]⟩ .f32 :=
  shapeCast ⟨2, ![128, 20]⟩ (slab W k hs) hc

/-- Tap k's weights at (j, c) are the weights at (k, j, c); the tap a number below 27. -/
theorem wslice_apply_nat (k : Nat) (hk : k < 27)
    (hs : (⟨3, ![27, 128, 20]⟩ : Shape).Slices ![k, 0, 0] ⟨3, ![1, 128, 20]⟩)
    (hc : (⟨3, ![1, 128, 20]⟩ : Shape).ShapeCasts ⟨2, ![128, 20]⟩) (j : Fin 128) (c : Fin 20) :
    wslice W k hs hc (ix2 j c) = W (ix3 (⟨k, hk⟩ : Fin 27) j c) :=
  slabCast_apply k hk W hs hc j c

/-- TAP k's WEIGHTS AT (j, c) ARE THE WEIGHTS AT (k, j, c); the tap an element of Fin 27 and the start vector written
    with its value. -/
theorem wslice_apply (k : Fin 27)
    (hs : (⟨3, ![27, 128, 20]⟩ : Shape).Slices ![k.val, 0, 0] ⟨3, ![1, 128, 20]⟩)
    (hc : (⟨3, ![1, 128, 20]⟩ : Shape).ShapeCasts ⟨2, ![128, 20]⟩) (j : Fin 128) (c : Fin 20) :
    wslice W k.val hs hc (ix2 j c) = W (ix3 k j c) :=
  slabCast_apply k.val k.isLt W hs hc j c

end Weights

end Cert.RefWeight
end
-- ==== Proof.RefReadCompose.lean ====
/-
  A STRAIGHT-LINE PROGRAM'S BUFFERS, COMPOSED INTO TERMS: the reference of a sparse 3×3×3 convolution.

  At the end of a program in single-assignment form every buffer holds its own operation of what its operands hold.
  These are equations between the buffers' contents, one per operation. Composing them — substituting each into the
  next — gives the contents of the buffers that matter as closed terms of the program's arguments. The composition is
  the same for every program whose operations are these, so it is written once, over variables for the contents, with
  one hypothesis per operation in the program's order; for a given program it is applied to that program's equations.

  Four compositions:
  * the coordinate map (26 operations): the table of −1 with each voxel's number written into its cell;
  * a tap's neighbour look-up (63 operations): its INSIDE bits and its NIDX words;
  * a tap's value (25 operations): the masked gather of the neighbours' rows times the tap's weights;
  * the accumulation (27 additions): the bias plus the taps in order.
  Each proof substitutes the equations and ends by unfolding: the composed terms are, operation for operation, the terms
  the look-up, the tap and the map are defined as. (The scatter's own equation is not substituted but used as it
  stands, after the others: it is the goal.)
-/
import proofs.«120445_j5549097746519_2_alg».proof.Proof.NbrIdx
import proofs.«120445_j5549097746519_2_alg».proof.Proof.RefTap
import proofs.«120445_j5549097746519_2_alg».proof.Proof.RefWeight

set_option maxRecDepth 16384

noncomputable section

namespace Cert.ReferenceIdeal.Read

open Idealize.ShloMosaic Idealize.ShloMosaic.ValueIdx Cert.LibGatherScatter Cert.LibPlainMatmul
open Cert.NbrIdx Cert.RefTap Cert.RefWeight

local notation "S_" => (⟨0, ![]⟩ : Shape)
local notation "S20" => (⟨1, ![20]⟩ : Shape)
local notation "S200000" => (⟨1, ![200000]⟩ : Shape)
local notation "S5529600" => (⟨1, ![5529600]⟩ : Shape)
local notation "S200000x1" => (⟨2, ![200000, 1]⟩ : Shape)
local notation "S200000x3" => (⟨2, ![200000, 3]⟩ : Shape)
local notation "S200000x20" => (⟨2, ![200000, 20]⟩ : Shape)
local notation "S200000x128" => (⟨2, ![200000, 128]⟩ : Shape)
local notation "S128x20" => (⟨2, ![128, 20]⟩ : Shape)
local notation "S1x128x20" => (⟨3, ![1, 128, 20]⟩ : Shape)
local notation "S27x128x20" => (⟨3, ![27, 128, 20]⟩ : Shape)

section Compose

variable
  {hs0 : (S200000x3).Slices ![0, 0] S200000x1} {hs1 : (S200000x3).Slices ![0, 1] S200000x1}
  {hs2 : (S200000x3).Slices ![0, 2] S200000x1} {hc : (S200000x1).ShapeCasts S200000}
  {hb0 : (S_).BroadcastsInDim S200000 (![] : Fin 0 → Fin (S200000).rank)}
  {hb1 : (S200000).BroadcastsInDim S200000x1 (![0] : Fin 1 → Fin (S200000x1).rank)}
  {hbG : (S_).BroadcastsInDim S5529600 (![] : Fin 0 → Fin (S5529600).rank)}
  {dS : ScatterDims S5529600 S200000x1 S200000}
  {wfN : GatherDims.WF S5529600 S200000x1 S200000 [] [0] [] [0] [] 1 ![1]}
  {hb2 : (S200000x1).BroadcastsInDim S200000x128 (![0, 1] : Fin 2 → Fin (S200000x128).rank)}
  {hb3 : (S_).BroadcastsInDim S200000x128 (![] : Fin 0 → Fin (S200000x128).rank)}
  {wfg : GatherDims.WF S200000x128 S200000x1 S200000x128 [1] [0] [] [0] [] 1 ![1, 128]}
  {wfd : DotDims.WF S200000x128 S128x20 S200000x20 [1] [0] [0] [1] [] []}
  {k : Nat} {hsW : (S27x128x20).Slices ![k, 0, 0] S1x128x20} {hcW : (S1x128x20).ShapeCasts S128x20}
  {coords : IVec S200000x3 32} {M : IVec S5529600 32} {dz dy dx : BitVec 32}
  {ni : IVec S200000 32} {inb : IVec S200000 1} {X : FVec Ideal S200000x128 .f32} {Wt : FVec Ideal S27x128x20 .f32}

/-- THE COORDINATE MAP, COMPOSED. Twenty-six equations, one per operation — the voxels' linear cell numbers, the table
    of −1, the voxel numbers, the "negative counts from the end" select, the column of positions, the scatter — compose
    to the coordinate map as one term of the coordinates. -/
theorem map_compose
    {t0 : IVec S200000x1 32} {t1 : IVec S200000 32} {t2 : IVec S_ 32} {t3 : IVec S200000 32} {t4 : IVec S200000 32}
    {t5 : IVec S200000x1 32} {t6 : IVec S200000 32} {t7 : IVec S200000 32} {t8 : IVec S_ 32} {t9 : IVec S200000 32}
    {t10 : IVec S200000 32} {t11 : IVec S200000x1 32} {t12 : IVec S200000 32} {t13 : IVec S200000 32}
    {t14 : IVec S_ 32} {t15 : IVec S5529600 32} {t16 : IVec S200000 32} {t17 : IVec S_ 32} {t18 : IVec S200000 32}
    {t19 : IVec S200000 1} {t20 : IVec S_ 32} {t21 : IVec S200000 32} {t22 : IVec S200000 32} {t23 : IVec S200000 32}
    {t24 : IVec S200000x1 32} {t25 : IVec S5529600 32}
    (h0 : t0 = extractStridedSlice S200000x1 ![0, 0] coords hs0) (h1 : t1 = shapeCast S200000 t0 hc)
    (h2 : t2 = constantI S_ 32 360#32) (h3 : t3 = broadcastInDim S200000 ![] hb0 t2) (h4 : t4 = muli t1 t3)
    (h5 : t5 = extractStridedSlice S200000x1 ![0, 1] coords hs1) (h6 : t6 = shapeCast S200000 t5 hc)
    (h7 : t7 = addi t4 t6) (h8 : t8 = constantI S_ 32 32#32) (h9 : t9 = broadcastInDim S200000 ![] hb0 t8)
    (h10 : t10 = muli t7 t9) (h11 : t11 = extractStridedSlice S200000x1 ![0, 2] coords hs2)
    (h12 : t12 = shapeCast S200000 t11 hc) (h13 : t13 = addi t10 t12) (h14 : t14 = constantI S_ 32 4294967295#32)
    (h15 : t15 = broadcastInDim S5529600 ![] hbG t14) (h16 : t16 = iotaInDim S200000 32 0)
    (h17 : t17 = constantI S_ 32 0#32) (h18 : t18 = broadcastInDim S200000 ![] hb0 t17)
    (h19 : t19 = cmpi .slt t13 t18) (h20 : t20 = constantI S_ 32 5529600#32)
    (h21 : t21 = broadcastInDim S200000 ![] hb0 t20) (h22 : t22 = addi t13 t21) (h23 : t23 = select t19 t22 t13)
    (h24 : t24 = broadcastInDim S200000x1 ![0] hb1 t23) (h25 : t25 = Host.scatter dS (fun _ b => b) t15 t24 t16) :
    t25 = coordMap hs0 hs1 hs2 hc hb0 hb1 hbG dS coords := by
  subst h24 h23 h22 h21 h20 h19 h18 h17 h16 h15 h14 h13 h12 h11 h10 h9 h8 h7 h6 h5 h4 h3 h2 h1 h0
  exact h25

/-- THE NEIGHBOUR LOOK-UP, COMPOSED. Sixty-three equations, one per operation of a tap's first part, each giving a
    buffer's contents from its operands' contents — the three neighbour coordinates, the six comparisons with the
    grid's bounds and their conjunction, the linear cell number, its clipping (two inlined calls' conversions are the
    identity), the "negative counts from the end" select, the column of positions and the look-up in the map `M` —
    compose to the two terms INSIDE and NIDX of the coordinates and the tap's offset words. -/
theorem nbr_compose
    {t0 : IVec S200000x1 32} {t1 : IVec S200000 32} {t2 : IVec S_ 32} {t3 : IVec S200000 32} {t4 : IVec S200000 32}
    {t5 : IVec S200000x1 32} {t6 : IVec S200000 32} {t7 : IVec S_ 32} {t8 : IVec S200000 32} {t9 : IVec S200000 32}
    {t10 : IVec S200000x1 32} {t11 : IVec S200000 32} {t12 : IVec S_ 32} {t13 : IVec S200000 32}
    {t14 : IVec S200000 32} {t15 : IVec S_ 32} {t16 : IVec S200000 32} {t17 : IVec S200000 1} {t18 : IVec S_ 32}
    {t19 : IVec S200000 32} {t20 : IVec S200000 1} {t21 : IVec S200000 1} {t22 : IVec S_ 32} {t23 : IVec S200000 32}
    {t24 : IVec S200000 1} {t25 : IVec S200000 1} {t26 : IVec S_ 32} {t27 : IVec S200000 32} {t28 : IVec S200000 1}
    {t29 : IVec S200000 1} {t30 : IVec S_ 32} {t31 : IVec S200000 32} {t32 : IVec S200000 1} {t33 : IVec S200000 1}
    {t34 : IVec S_ 32} {t35 : IVec S200000 32} {t36 : IVec S200000 1} {t37 : IVec S200000 1} {t38 : IVec S_ 32}
    {t39 : IVec S200000 32} {t40 : IVec S200000 32} {t41 : IVec S200000 32} {t42 : IVec S_ 32} {t43 : IVec S200000 32}
    {t44 : IVec S200000 32} {t45 : IVec S200000 32} {t46 : IVec S_ 32} {t47 : IVec S_ 32} {t48 : IVec S_ 32}
    {t49 : IVec S200000 32} {t50 : IVec S200000 32} {t51 : IVec S_ 32} {t52 : IVec S200000 32} {t53 : IVec S200000 32}
    {t54 : IVec S_ 32} {t55 : IVec S200000 32} {t56 : IVec S200000 1} {t57 : IVec S_ 32} {t58 : IVec S200000 32}
    {t59 : IVec S200000 32} {t60 : IVec S200000 32} {t61 : IVec S200000x1 32} {t62 : IVec S200000 32}
    (h0 : t0 = extractStridedSlice S200000x1 ![0, 0] coords hs0) (h1 : t1 = shapeCast S200000 t0 hc)
    (h2 : t2 = constantI S_ 32 dz) (h3 : t3 = broadcastInDim S200000 ![] hb0 t2) (h4 : t4 = addi t1 t3)
    (h5 : t5 = extractStridedSlice S200000x1 ![0, 1] coords hs1) (h6 : t6 = shapeCast S200000 t5 hc)
    (h7 : t7 = constantI S_ 32 dy) (h8 : t8 = broadcastInDim S200000 ![] hb0 t7) (h9 : t9 = addi t6 t8)
    (h10 : t10 = extractStridedSlice S200000x1 ![0, 2] coords hs2) (h11 : t11 = shapeCast S200000 t10 hc)
    (h12 : t12 = constantI S_ 32 dx) (h13 : t13 = broadcastInDim S200000 ![] hb0 t12) (h14 : t14 = addi t11 t13)
    (h15 : t15 = constantI S_ 32 0#32) (h16 : t16 = broadcastInDim S200000 ![] hb0 t15) (h17 : t17 = cmpi .sge t4 t16)
    (h18 : t18 = constantI S_ 32 480#32) (h19 : t19 = broadcastInDim S200000 ![] hb0 t18)
    (h20 : t20 = cmpi .slt t4 t19) (h21 : t21 = andi t17 t20) (h22 : t22 = constantI S_ 32 0#32)
    (h23 : t23 = broadcastInDim S200000 ![] hb0 t22) (h24 : t24 = cmpi .sge t9 t23) (h25 : t25 = andi t21 t24)
    (h26 : t26 = constantI S_ 32 360#32) (h27 : t27 = broadcastInDim S200000 ![] hb0 t26)
    (h28 : t28 = cmpi .slt t9 t27) (h29 : t29 = andi t25 t28) (h30 : t30 = constantI S_ 32 0#32)
    (h31 : t31 = broadcastInDim S200000 ![] hb0 t30) (h32 : t32 = cmpi .sge t14 t31) (h33 : t33 = andi t29 t32)
    (h34 : t34 = constantI S_ 32 32#32) (h35 : t35 = broadcastInDim S200000 ![] hb0 t34)
    (h36 : t36 = cmpi .slt t14 t35) (h37 : t37 = andi t33 t36) (h38 : t38 = constantI S_ 32 360#32)
    (h39 : t39 = broadcastInDim S200000 ![] hb0 t38) (h40 : t40 = muli t4 t39) (h41 : t41 = addi t40 t9)
    (h42 : t42 = constantI S_ 32 32#32) (h43 : t43 = broadcastInDim S200000 ![] hb0 t42) (h44 : t44 = muli t41 t43)
    (h45 : t45 = addi t44 t14) (h46 : t46 = constantI S_ 32 0#32) (h47 : t47 = constantI S_ 32 5529599#32)
    (h48 : t48 = id t46) (h49 : t49 = broadcastInDim S200000 ![] hb0 t48) (h50 : t50 = maxsi t49 t45)
    (h51 : t51 = id t47) (h52 : t52 = broadcastInDim S200000 ![] hb0 t51) (h53 : t53 = minsi t52 t50)
    (h54 : t54 = constantI S_ 32 0#32) (h55 : t55 = broadcastInDim S200000 ![] hb0 t54)
    (h56 : t56 = cmpi .slt t53 t55) (h57 : t57 = constantI S_ 32 5529600#32)
    (h58 : t58 = broadcastInDim S200000 ![] hb0 t57) (h59 : t59 = addi t53 t58) (h60 : t60 = select t56 t59 t53)
    (h61 : t61 = broadcastInDim S200000x1 ![0] hb1 t60)
    (h62 : t62 = Host.gather (nodeGatherDims 5529600 200000 wfN) M t61) :
    t37 = inside hs0 hs1 hs2 hc hb0 coords dz dy dx ∧
      t62 = nidx hs0 hs1 hs2 hc hb0 hb1 wfN coords dz dy dx M := by
  subst h62 h61 h60 h59 h58 h57 h56 h55 h54 h53 h52 h51 h50 h49 h48 h47 h46 h45 h44 h43 h42 h41 h40 h39 h38 h37 h36
    h35 h34 h33 h32 h31 h30 h29 h28 h27 h26 h25 h24 h23 h22 h21 h20 h19 h18 h17 h16 h15 h14 h13 h12 h11 h10 h9 h8 h7
    h6 h5 h4 h3 h2 h1 h0
  exact ⟨rfl, rfl⟩

/-- THE TAP'S VALUE, COMPOSED. Twenty-five equations, one per operation of a tap's second part — "there is a
    neighbour", the validity bit and its column, the row index (maximum with 0, wrap-around select, column), the gather
    of the feature rows, the mask and the zero rows (an inlined call's three operations), the select, the slab of the
    weights without its unit axis, the product — compose to the tap as one term of NIDX, INSIDE, the features and the
    weights. -/
theorem tap_compose
    {t0 : IVec S_ 32} {t1 : IVec S200000 32} {t2 : IVec S200000 1} {t3 : IVec S200000 1} {t4 : IVec S200000x1 1}
    {t5 : IVec S_ 32} {t6 : IVec S200000 32} {t7 : IVec S200000 32} {t8 : IVec S_ 32} {t9 : IVec S200000 32}
    {t10 : IVec S200000 1} {t11 : IVec S_ 32} {t12 : IVec S200000 32} {t13 : IVec S200000 32} {t14 : IVec S200000 32}
    {t15 : IVec S200000x1 32} {t16 : FVec Ideal S200000x128 .f32} {t17 : FVec Ideal S_ .f32}
    {t18 : FVec Ideal S_ .f32} {t19 : IVec S200000x128 1} {t20 : FVec Ideal S200000x128 .f32}
    {t21 : FVec Ideal S200000x128 .f32} {t22 : FVec Ideal S1x128x20 .f32} {t23 : FVec Ideal S128x20 .f32}
    {t24 : FVec Ideal S200000x20 .f32}
    (h0 : t0 = constantI S_ 32 0#32) (h1 : t1 = broadcastInDim S200000 ![] hb0 t0) (h2 : t2 = cmpi .sge ni t1)
    (h3 : t3 = andi inb t2) (h4 : t4 = broadcastInDim S200000x1 ![0] hb1 t3) (h5 : t5 = constantI S_ 32 0#32)
    (h6 : t6 = broadcastInDim S200000 ![] hb0 t5) (h7 : t7 = maxsi ni t6) (h8 : t8 = constantI S_ 32 0#32)
    (h9 : t9 = broadcastInDim S200000 ![] hb0 t8) (h10 : t10 = cmpi .slt t7 t9)
    (h11 : t11 = constantI S_ 32 200000#32) (h12 : t12 = broadcastInDim S200000 ![] hb0 t11) (h13 : t13 = addi t7 t12)
    (h14 : t14 = select t10 t13 t7) (h15 : t15 = broadcastInDim S200000x1 ![0] hb1 t14)
    (h16 : t16 = Host.gather (rowGatherDims 200000 128 200000 wfg) X t15)
    (h17 : t17 = constant (F := Ideal) S_ .f32 0x00000000#32) (h18 : t18 = id t17)
    (h19 : t19 = broadcastInDim S200000x128 ![0, 1] hb2 t4) (h20 : t20 = broadcastInDim S200000x128 ![] hb3 t18)
    (h21 : t21 = select t19 t16 t20) (h22 : t22 = extractStridedSlice S1x128x20 ![k, 0, 0] Wt hsW)
    (h23 : t23 = shapeCast S128x20 t22 hcW) (h24 : t24 = Host.dotGeneral (plainDims wfd) none t21 t23) :
    t24 = tap hb0 hb1 hb2 hb3 wfg wfd ni inb X (wslice Wt k hsW hcW) := by
  subst h24 h23 h22 h21 h20 h19 h18 h17 h16 h15 h14 h13 h12 h11 h10 h9 h8 h7 h6 h5 h4 h3 h2 h1 h0
  exact rfl

/-- THE ACCUMULATION, COMPOSED. Twenty-seven equations "the running sum after tap k is the running sum before it plus
    tap k" compose to the last running sum as the bias plus the taps, added one at a time in order. -/
theorem acc_compose {b : FVec Ideal S200000x20 .f32}
    {t0 t1 t2 t3 t4 t5 t6 t7 t8 t9 t10 t11 t12 t13 t14 t15 t16 t17 t18 t19 t20 t21 t22 t23 t24 t25 t26 : FVec Ideal S200000x20 .f32}
    {a0 a1 a2 a3 a4 a5 a6 a7 a8 a9 a10 a11 a12 a13 a14 a15 a16 a17 a18 a19 a20 a21 a22 a23 a24 a25 a26 : FVec Ideal S200000x20 .f32}
    (h0 : a0 = addf b t0) (h1 : a1 = addf a0 t1) (h2 : a2 = addf a1 t2) (h3 : a3 = addf a2 t3) (h4 : a4 = addf a3
    t4) (h5 : a5 = addf a4 t5) (h6 : a6 = addf a5 t6) (h7 : a7 = addf a6 t7) (h8 : a8 = addf a7 t8) (h9 : a9 = addf
    a8 t9) (h10 : a10 = addf a9 t10) (h11 : a11 = addf a10 t11) (h12 : a12 = addf a11 t12) (h13 : a13 = addf a12
    t13) (h14 : a14 = addf a13 t14) (h15 : a15 = addf a14 t15) (h16 : a16 = addf a15 t16) (h17 : a17 = addf a16 t17)
    (h18 : a18 = addf a17 t18) (h19 : a19 = addf a18 t19) (h20 : a20 = addf a19 t20) (h21 : a21 = addf a20 t21) (h22
    : a22 = addf a21 t22) (h23 : a23 = addf a22 t23) (h24 : a24 = addf a23 t24) (h25 : a25 = addf a24 t25) (h26 :
    a26 = addf a25 t26) :
    a26 = List.foldl addf b [t0, t1, t2, t3, t4, t5, t6, t7, t8, t9, t10, t11, t12, t13, t14, t15, t16, t17, t18, t19, t20, t21, t22, t23, t24, t25, t26] := by
  subst h26 h25 h24 h23 h22 h21 h20 h19 h18 h17 h16 h15 h14 h13 h12 h11 h10 h9 h8 h7 h6 h5 h4 h3 h2 h1 h0
  exact rfl

/-- A tap stated over names for NIDX and INSIDE is the tap of the terms they are equal to. -/
theorem tap_of_nbr {ni' : IVec S200000 32} {inb' : IVec S200000 1} {t : FVec Ideal S200000x20 .f32}
    {Wk : FVec Ideal S128x20 .f32} (hn : inb = inb' ∧ ni = ni') (ht : t = tap hb0 hb1 hb2 hb3 wfg wfd ni inb X Wk) :
    t = tap hb0 hb1 hb2 hb3 wfg wfd ni' inb' X Wk := by
  obtain ⟨rfl, rfl⟩ := hn
  exact ht

end Compose

end Cert.ReferenceIdeal.Read

end
-- ==== Proof.KerHeadIn.lean ====
/-
  The kernel program's host lines before the region, read back as terms of the arguments, over the extended reals.

  The line before the region is in single-assignment form, so at the region's entry every buffer holds its own
  operation of what its operands hold there. Read this way, operation by operation:
  * the four argument arrays hold what they held at launch;
  * the feature array handed to the region is the features narrowed to bf16 (the identity on extended reals);
  * the weight matrix handed to the region is the weights transposed to [128, 27, 20], flattened to [128, 540], padded
    with 100 zero columns and narrowed;
  * the coordinate map — the table of −1 with each voxel's number written into its cell — is the map of the
    coordinates, as one term.
-/
import proofs.«120445_j5549097746519_2_alg».proof.Proof.FramePrefixRising
import proofs.«120445_j5549097746519_2_alg».proof.Proof.KerTap
import proofs.«120445_j5549097746519_2_alg».proof.Proof.NbrIdx
import proofs.«120445_j5549097746519_2_alg».proof.Proof.RefReadCompose

set_option maxRecDepth 16384

noncomputable section

namespace Cert.KernelIdeal.Head

open Cert.KernelIdeal Cert.KernelIdeal.Gen Cert.KernelIdeal.GenP Cert.KernelIdeal.Frame
open Idealize.ShloMosaic Idealize.ShloMosaic.TcCoe Idealize.SL.Sem Idealize.ShloMosaic.StableHlo
open Idealize.ShloMosaic.ValueIdx Cert.LibSsaAfter
open scoped BigOperators

/-! ## Reading one operation through a stretch of the line -/

section Window

variable {τ : Topo} {sig : RefSig} {Val : EltTy → Type}
variable {x a b c y : Ref sig .tc} {lo hi : ℕ} {ops win : List (HloOp τ sig Val)}

theorem nullary_win (h : Rising lo hi ops) {W V : Valuation τ sig Val} (hW : W = after ops V) (hw : win ⊆ ops) (i : ℕ)
    {v : y.ty.Contents Val} {hy} (hi' : win[i]? = some (nullary (τ := τ) y v hy)) :
    W (Proc.devRef .tc y) = v := by
  subst hW; exact nullary_at h V v hy (hw (List.mem_of_getElem? hi'))

theorem unary_win (h : Rising lo hi ops) {W V : Valuation τ sig Val} (hW : W = after ops V) (hw : win ⊆ ops) (i : ℕ)
    {f : x.ty.Contents Val → y.ty.Contents Val} {hx hy} (hi' : win[i]? = some (unary (τ := τ) x y f hx hy))
    (hxy : x ≠ y := by decide) : W (Proc.devRef .tc y) = f (W (Proc.devRef .tc x)) := by
  subst hW; exact unary_at h V f hx hy (hw (List.mem_of_getElem? hi')) hxy

theorem reshape_win (h : Rising lo hi ops) {W V : Valuation τ sig Val} (hW : W = after ops V) (hw : win ⊆ ops) (i : ℕ) {he hn hx hy}
    (hi' : win[i]? = some (reshape (τ := τ) (Val := Val) x y he hn hx hy)) (hxy : x ≠ y := by decide) :
    W (Proc.devRef .tc y) = fun j => he ▸ shapeCast y.ty.shape (W (Proc.devRef .tc x)) hn j := by
  subst hW; exact reshape_at h V he hn hx hy (hw (List.mem_of_getElem? hi')) hxy

theorem binary_win (h : Rising lo hi ops) {W V : Valuation τ sig Val} (hW : W = after ops V) (hw : win ⊆ ops) (i : ℕ)
    {f : a.ty.Contents Val → b.ty.Contents Val → y.ty.Contents Val} {ha hb hy}
    (hi' : win[i]? = some (binary (τ := τ) a b y f ha hb hy)) (hay : a ≠ y := by decide) (hby : b ≠ y := by decide) :
    W (Proc.devRef .tc y) = f (W (Proc.devRef .tc a)) (W (Proc.devRef .tc b)) := by
  subst hW; exact binary_at h V f ha hb hy (hw (List.mem_of_getElem? hi')) hay hby

theorem ternary_win (h : Rising lo hi ops) {W V : Valuation τ sig Val} (hW : W = after ops V) (hw : win ⊆ ops) (i : ℕ)
    {f : c.ty.Contents Val → a.ty.Contents Val → b.ty.Contents Val → y.ty.Contents Val} {hc ha hb hy}
    (hi' : win[i]? = some (ternary (τ := τ) c a b y f hc ha hb hy)) (hcy : c ≠ y := by decide)
    (hay : a ≠ y := by decide) (hby : b ≠ y := by decide) :
    W (Proc.devRef .tc y) = f (W (Proc.devRef .tc c)) (W (Proc.devRef .tc a)) (W (Proc.devRef .tc b)) := by
  subst hW; exact ternary_at h V f hc ha hb hy (hw (List.mem_of_getElem? hi')) hcy hay hby

end Window

/-! ## The stretches read here are stretches of the line -/

theorem sub_first : (hostOps0 : List (HloOp τ sig (Elt Ideal))) ⊆ (prefixOps (F := Ideal)).flatten :=
  fun _ hx => List.mem_flatten.mpr ⟨_, (List.Mem.head _), hx⟩
theorem sub_108 : (hostOps0_108 : List (HloOp τ sig (Elt Ideal))) ⊆ (prefixOps (F := Ideal)).flatten :=
  fun _ hx => List.mem_flatten.mpr ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))))))))))))))))))))))))))))))))))))))))))))))))))))))))))), hx⟩
theorem sub_109 : (hostOps0_109 : List (HloOp τ sig (Elt Ideal))) ⊆ (prefixOps (F := Ideal)).flatten :=
  fun _ hx => List.mem_flatten.mpr ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))))))))))))))))))))))))))))))))))))))))))))))))))))))))))), hx⟩
theorem sub_110 : (hostOps0_110 : List (HloOp τ sig (Elt Ideal))) ⊆ (prefixOps (F := Ideal)).flatten :=
  fun _ hx => List.mem_flatten.mpr ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))))))))))))))))))))))))))))))))))))))))))))))))))))))))))))), hx⟩

variable (m : (ℓ : Loc nD τ sig) → Buf (Elt Ideal) ℓ) (c : Dev nD)

/-! ## The arguments -/

/-- The argument arrays, as launched, at their types. -/
abbrev argX : FVec Ideal S200000x128 .f32 := m (c, Proc.devRef .tc main_arg0)
abbrev argW : FVec Ideal S27x128x20 .f32 := m (c, Proc.devRef .tc main_arg1)
abbrev argCoords : IVec S200000x3 32 := m (c, Proc.devRef .tc main_arg3)

theorem V0_arg0 : V0 m c (Proc.devRef .tc main_arg0) = m (c, Proc.devRef .tc main_arg0) := V0_of_lt m c (by decide)
theorem V0_arg1 : V0 m c (Proc.devRef .tc main_arg1) = m (c, Proc.devRef .tc main_arg1) := V0_of_lt m c (by decide)
theorem V0_arg2 : V0 m c (Proc.devRef .tc main_arg2) = m (c, Proc.devRef .tc main_arg2) := V0_of_lt m c (by decide)
theorem V0_arg3 : V0 m c (Proc.devRef .tc main_arg3) = m (c, Proc.devRef .tc main_arg3) := V0_of_lt m c (by decide)

-- the contents at the region's entry, under a name
variable {W : Valuation τ sig (Elt Ideal)} (hW : W = V0 m c)

include hW in
theorem W_arg0 : W (Proc.devRef .tc main_arg0) = argX m c := by rw [hW]; exact V0_arg0 m c
include hW in
theorem W_arg1 : W (Proc.devRef .tc main_arg1) = argW m c := by rw [hW]; exact V0_arg1 m c
include hW in
theorem W_arg3 : W (Proc.devRef .tc main_arg3) = argCoords m c := by rw [hW]; exact V0_arg3 m c

/-! ## The region's two inputs -/

include hW in
/-- The feature array handed to the region: the features, narrowed. -/
theorem W_features : (W (Proc.devRef .tc main_v1290) : FVec Ideal S200000x128 .bf16)
    = truncf .bf16 (argX m c) bitsLt_bf16_f32 := by
  have e := unary_win prefix_rising hW sub_108 0 (hi' := rfl)
  rw [W_arg0 m c hW] at e
  exact e

include hW in
/-- The weight matrix handed to the region: the weights transposed, flattened, padded with zero columns and narrowed. -/
theorem W_weights : (W (Proc.devRef .tc main_v1294) : FVec Ideal S128x640 .bf16)
    = truncf .bf16
        (pad S128x640 ![0, 0] ![0, 100] ![0, 0]
          (shapeCast S128x540 (transpose S128x27x20 [1, 0, 2] (argW m c) transposes_S27x128x20_S128x27x20_1_0_2) shapeCasts_S128x27x20_S128x540)
          (sitofp (F := Ideal) .f32 (constantI S_ 32 0#32)) pads_S128x540_S128x640_000_01000 h_S_) bitsLt_bf16_f32 := by
  have e1 := unary_win prefix_rising hW sub_108 1 (hi' := rfl)
  have e2 := reshape_win prefix_rising hW sub_108 2 (hi' := rfl)
  have e3 := nullary_win prefix_rising hW sub_108 3 (hi' := rfl)
  have e4 := unary_win prefix_rising hW sub_109 0 (hi' := rfl)
  have e5 := binary_win prefix_rising hW sub_109 1 (hi' := rfl)
  have e6 := unary_win prefix_rising hW sub_110 0 (hi' := rfl)
  rw [W_arg1 m c hW] at e1
  rw [e6, e5, e4, e3, e2, e1]
  rfl

/-! ## The coordinate map -/

include hW in
/-- The coordinate map at the region's entry is the map of the coordinates: the first 26 operations of the line, read
    one by one and composed. -/
theorem W_coordMap : (W (Proc.devRef .tc main_v20) : IVec S5529600 32)
    = Cert.NbrIdx.coordMap slices_S200000x3_S200000x1_0_0 slices_S200000x3_S200000x1_0_1 slices_S200000x3_S200000x1_0_2
        shapeCasts_S200000x1_S200000 bcast_S_S200000 bcast_S200000_S200000x1_0 bcast_S_S5529600
        scatter_S5529600_S200000x1_S200000_n_0_0_1 (argCoords m c) := by
  have e0 := unary_win prefix_rising hW sub_first 0 (hi' := rfl)
  have e1 := reshape_win prefix_rising hW sub_first 1 (hi' := rfl)
  have e2 := nullary_win prefix_rising hW sub_first 2 (hi' := rfl)
  have e3 := unary_win prefix_rising hW sub_first 3 (hi' := rfl)
  have e4 := binary_win prefix_rising hW sub_first 4 (hi' := rfl)
  have e5 := unary_win prefix_rising hW sub_first 5 (hi' := rfl)
  have e6 := reshape_win prefix_rising hW sub_first 6 (hi' := rfl)
  have e7 := binary_win prefix_rising hW sub_first 7 (hi' := rfl)
  have e8 := nullary_win prefix_rising hW sub_first 8 (hi' := rfl)
  have e9 := unary_win prefix_rising hW sub_first 9 (hi' := rfl)
  have e10 := binary_win prefix_rising hW sub_first 10 (hi' := rfl)
  have e11 := unary_win prefix_rising hW sub_first 11 (hi' := rfl)
  have e12 := reshape_win prefix_rising hW sub_first 12 (hi' := rfl)
  have e13 := binary_win prefix_rising hW sub_first 13 (hi' := rfl)
  have e14 := nullary_win prefix_rising hW sub_first 14 (hi' := rfl)
  have e15 := unary_win prefix_rising hW sub_first 15 (hi' := rfl)
  have e16 := nullary_win prefix_rising hW sub_first 16 (hi' := rfl)
  have e17 := nullary_win prefix_rising hW sub_first 17 (hi' := rfl)
  have e18 := unary_win prefix_rising hW sub_first 18 (hi' := rfl)
  have e19 := binary_win prefix_rising hW sub_first 19 (hi' := rfl)
  have e20 := nullary_win prefix_rising hW sub_first 20 (hi' := rfl)
  have e21 := unary_win prefix_rising hW sub_first 21 (hi' := rfl)
  have e22 := binary_win prefix_rising hW sub_first 22 (hi' := rfl)
  have e23 := ternary_win prefix_rising hW sub_first 23 (hi' := rfl)
  have e24 := unary_win prefix_rising hW sub_first 24 (hi' := rfl)
  have e25 := ternary_win prefix_rising hW sub_first 25 (hi' := rfl)
  rw [W_arg3 m c hW] at e0 e5 e11
  exact Cert.ReferenceIdeal.Read.map_compose e0 e1 e2 e3 e4 e5 e6 e7 e8 e9 e10 e11 e12 e13 e14 e15 e16 e17 e18 e19 e20 e21 e22 e23 e24 e25

end Cert.KernelIdeal.Head

end
-- ==== Proof.DenseBlock.lean ====
/-
  One block of the dense product, read at an index.

  At each grid point the kernel body loads a block of 4000 feature rows (4000 × 128) and the whole flattened weight
  matrix (128 × 640), multiplies them into a zero accumulator and stores the product (4000 × 640). Over the extended
  reals the changes of float format around the product are the identity and the casts of a shape to itself do nothing,
  so the stored value at (r, col) is the plain sum over the 128 input channels of feature entry (r, j) times weight
  entry (j, col).
-/
import proofs.«120445_j5549097746519_2_alg».proof.Proof.Gen.KernelIdeal.Skeleton
import proofs.«120445_j5549097746519_2_alg».proof.Proof.LibPlainMatmul

noncomputable section

namespace Cert.KernelIdeal.DenseBlock

open Idealize.ShloMosaic Idealize.ShloMosaic.ValueIdx Cert.KernelIdeal Cert.KernelIdeal.Gen Cert.LibPlainMatmul
open scoped BigOperators

variable [Cert.KernelIdeal.Facts]

/-- The value the body stores, at row `r` and column `col` of its block: the product row. The narrowing of the
    product is the identity on extended reals; the product into the zero accumulator is the sum over the shared axis;
    and each operand, cast to its own shape, is itself. -/
theorem stored_apply (v0 : Vec Ideal S4000x128 .bf16) (v2 : Vec Ideal S128x640 .bf16) (r : Fin 4000) (col : Fin 640) :
    k0_pay1 (F := Ideal) v0 v2 (ix2 r col) = ∑ j : Fin 128, v0 (ix2 r j) * v2 (ix2 j col) := by
  unfold k0_pay1
  refine (truncf_apply (φ := .f32) (ψ := .bf16) _ bitsLt_bf16_f32 (ix2 r col)).trans ?_
  refine (matmul_zero_plain _ _ _ r col).trans ?_
  refine Finset.sum_congr rfl fun j _ => ?_
  exact congrArg₂ (· * ·) (congrFun (shapeCast_self v0 _) (ix2 r j)) (congrFun (shapeCast_self v2 _) (ix2 j col))

end Cert.KernelIdeal.DenseBlock

end
-- ==== Proof.RegionValue.lean ====
/-
  The region's value: the product array after the run, index by index, over the extended reals.

  At grid point t the body is handed rows 4000·t … 4000·t + 3999 of the feature array and the whole weight matrix,
  and what it stores — the plain product of the two blocks — is written back as rows 4000·t … 4000·t + 3999 of the
  product array. The fifty points' blocks tile the array, so after the run the array at (q, col) is the sum over the
  128 input channels of feature entry (q, j) times weight entry (j, col), the arrays read as the region finds them.
-/
import proofs.«120445_j5549097746519_2_alg».proof.Proof.FrameKernelBody
import proofs.«120445_j5549097746519_2_alg».proof.Proof.DenseBlock
import Idealize.ShloMosaic.Lib.Pipeline.Value

set_option maxRecDepth 16384

noncomputable section

namespace Cert.KernelIdeal.Frame

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open scoped BigOperators

-- what the TensorCore buffers of each core hold when the region is entered
variable (V : (c : Dev nD) → (b : Ref sig .tc) → Buf (Elt Ideal) ((c : Thread nD τ).loc b))

/-- The feature array (as bf16) and the flattened weight matrix, as the region finds them on core c. -/
abbrev featArr (c : Dev nD) : Vec Ideal S200000x128 .bf16 := V c main_v1290
abbrev wgtArr (c : Dev nD) : Vec Ideal S128x640 .bf16 := V c main_v1294

/-- The plain product of a feature array and a weight matrix, index by index. -/
def prodArr (a0 : Vec Ideal S200000x128 .bf16) (a1 : Vec Ideal S128x640 .bf16) : Vec Ideal S200000x640 .bf16 :=
  fun i => ∑ j : Fin 128, a0 (ix2 (i 0) j) * a1 (ix2 j (i 1))

theorem hz2 : (![0, 0] : Fin 2 → Nat) = fun _ => 0 := funext fun a => by fin_cases a <;> rfl

/-- The index maps over the grid: the feature window and the product window are at block row t, column 0; the weight
    window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the product of the two arrays as the region finds them. -/
theorem flushed2_eq (c : Dev nD) (t : Fin cfg0.N) :
    (dats V 0 c).flushed 2 t = ((cfg0.win 2).blk t).view.read (Elt Ideal) (prodArr (featArr V c) (wgtArr V c)) := by
  show (cfg0.win 2).cut (grid0.coords t) ((dats V 0 c).after 2 t) = _
  rw [after2]
  unfold outBlock
  rw [View.canon_unit_zero hz2]
  simp only [View.ld_unit_zero (S := S4000x128) hz2, View.ld_unit_zero (S := S128x640) hz2]
  obtain ⟨e0, e1, e2, e3, e4, e5⟩ := idx_facts t
  funext j
  obtain ⟨r, col, rfl⟩ : ∃ (r : Fin 4000) (col : Fin 640), j = ix2 r col := ⟨j 0, j 1, eq_ix2 j⟩
  show k0_pay1 (F := Ideal) (iblk V c 0 t) (iblk V c 1 t) (ix2 r col)
    = prodArr (featArr V c) (wgtArr V c) (((cfg0.win 2).blk t).view.emb (ix2 r col))
  refine (Cert.KernelIdeal.DenseBlock.stored_apply (iblk V c 0 t) (iblk V c 1 t) r col).trans ?_
  unfold prodArr
  refine Finset.sum_congr rfl fun jj _ => ?_
  show featArr V c (((cfg0.win 0).blk t).view.emb (ix2 r jj)) * wgtArr V c (((cfg0.win 1).blk t).view.emb (ix2 jj col))
    = featArr V c (ix2 ((((cfg0.win 2).blk t).view.emb (ix2 r col)) 0) jj) * wgtArr V c (ix2 jj ((((cfg0.win 2).blk t).view.emb (ix2 r col)) 1))
  have h0 : ((cfg0.win 0).blk t).view.emb (ix2 r jj) = ix2 ((((cfg0.win 2).blk t).view.emb (ix2 r col)) 0) jj := by
    funext a; apply Fin.ext
    match a with
    | ⟨0, _⟩ => show win0_0.index t (0 : Fin 2) * 4000 + 1 * r.val = win0_2.index t (0 : Fin 2) * 4000 + 1 * r.val; omega
    | ⟨1, _⟩ => show win0_0.index t (1 : Fin 2) * 128 + 1 * jj.val = jj.val; omega
  have h1 : ((cfg0.win 1).blk t).view.emb (ix2 jj col) = ix2 jj ((((cfg0.win 2).blk t).view.emb (ix2 r col)) 1) := by
    funext a; apply Fin.ext
    match a with
    | ⟨0, _⟩ => show win0_1.index t (0 : Fin 2) * 128 + 1 * jj.val = jj.val; omega
    | ⟨1, _⟩ => show win0_1.index t (1 : Fin 2) * 640 + 1 * col.val = win0_2.index t (1 : Fin 2) * 640 + 1 * col.val; omega
  exact congrArg₂ (· * ·) (congrArg (featArr V c) h0) (congrArg (wgtArr V c) h1)

/-- An index of the product array is in point t's block iff each coordinate is in the block's range on its axis. -/
theorem mem_blk2 (t : Fin cfg0.N) (i : S200000x640.Idx) :
    i ∈ ((cfg0.win 2).blk t).view.set ↔ ∀ a : Fin 2, win0_2.index t a * S4000x640.size a ≤ (i a).val ∧ (i a).val < win0_2.index t a * S4000x640.size a + S4000x640.size a := by
  show i ∈ ((View.whole main_v1295).slice (win0_2.rect t)).set ↔ _
  rw [View.set_slice_whole, Rect.mem_set_unit]
  exact Iff.rfl

/-- Every index of the product array is in some point's block: row q in point q / 4000's. -/
theorem cover2 (i : S200000x640.Idx) : ∃ t : Fin cfg0.N, (cfg0.win 2).flush t = true ∧ i ∈ ((cfg0.win 2).blk t).view.set := by
  have hi0 : (i 0).val < 200000 := (i 0).isLt
  have hi1 : (i 1).val < 640 := (i 1).isLt
  have hN : cfg0.N = 50 := N_0
  let t : Fin cfg0.N := ⟨(i 0).val / 4000, by rw [hN]; omega⟩
  obtain ⟨e0, e1, e2, e3, e4, e5⟩ := idx_facts t
  have e4' : win0_2.index t (0 : Fin 2) = (i 0).val / 4000 := e4
  refine ⟨t, flush0_2 t, ?_⟩
  rw [mem_blk2]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 640 ≤ (i 1).val ∧ (i 1).val < win0_2.index t (1 : Fin 2) * 640 + 640; omega

/-- THE PRODUCT ARRAY after the run is the plain product of the feature array and the weight matrix as the region finds
    them. -/
theorem arrAt2_eq (c : Dev nD) :
    (dats V 0 c).arrAt 2 cfg0.N = prodArr (featArr V c) (wgtArr V c) :=
  (dats V 0 c).arrAt_eq_of_cover 2 _ (fun t _ => flushed2_eq V c t) cover2

/-- The same at an index: entry (q, col) is the sum over the 128 input channels. -/
theorem arrAt2_apply (c : Dev nD) (q : Fin 200000) (col : Fin 640) :
    ((dats V 0 c).arrAt 2 cfg0.N : Vec Ideal S200000x640 .bf16) (ix2 q col) = ∑ j : Fin 128, featArr V c (ix2 q j) * wgtArr V c (ix2 j col) := by
  rw [arrAt2_eq]
  rfl

end Cert.KernelIdeal.Frame

end
-- ==== Proof.RegionExit.lean ====
/-
  The buffers when the region is left, and the result array read off them, over the extended reals.

  When the region is left the product array holds the plain product of the feature array and the weight matrix, the
  two staged input arrays hold what they held, and every other buffer holds what it held when the region was entered.
  The result array at the end of the program is what the 382 host operations after the region compute from these
  contents.
-/
import proofs.«120445_j5549097746519_2_alg».proof.Proof.KernelFrame
import proofs.«120445_j5549097746519_2_alg».proof.Proof.RegionValue

set_option maxRecDepth 16384

noncomputable section

namespace Cert.KernelIdeal.Frame

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Cert.LibSsaAfter
open scoped BigOperators

variable (m : (ℓ : Loc nD τ sig) → Buf (Elt Ideal) ℓ) (ρ : Dev nD → PrngReg)

/-- Core c's buffer contents when the region is left: the pipeline's arrays at what the run leaves in them, every other
    buffer at its region-entry contents. -/
abbrev Wexit (c : Dev nD) : Valuation τ sig (Elt Ideal) :=
  Pipeline.withArrays spec0 c (V0 m c) fun w => (dats (V m) 0 c).arrAt w cfg0.N

/-- The product array when the region is left: the plain product. -/
theorem Wexit_product (c : Dev nD) :
    Wexit m c (Proc.devRef .tc main_v1295) = prodArr (featArr (V m) c) (wgtArr (V m) c) :=
  (Pipeline.withArrays_arr spec0 launch0.win.arr_inj c (V0 m c) _ (2 : Fin 3)).trans (arrAt2_eq (V m) c)

/-- The same at an index. -/
theorem Wexit_product_apply (c : Dev nD) (q : Fin 200000) (col : Fin 640) :
    (Wexit m c (Proc.devRef .tc main_v1295) : Vec Ideal S200000x640 .bf16) (ix2 q col)
      = ∑ j : Fin 128, featArr (V m) c (ix2 q j) * wgtArr (V m) c (ix2 j col) := by
  rw [Wexit_product]
  rfl

/-- The staged feature array is as the region found it. -/
theorem Wexit_features (c : Dev nD) : Wexit m c (Proc.devRef .tc main_v1290) = V0 m c (Proc.devRef .tc main_v1290) :=
  (Pipeline.withArrays_arr spec0 launch0.win.arr_inj c (V0 m c) _ (0 : Fin 3)).trans
    (((dats (V m) 0 c).arrAt_in 0 rfl _).trans (A_eq (V m) c 0))

/-- The staged weight matrix is as the region found it. -/
theorem Wexit_weights (c : Dev nD) : Wexit m c (Proc.devRef .tc main_v1294) = V0 m c (Proc.devRef .tc main_v1294) :=
  (Pipeline.withArrays_arr spec0 launch0.win.arr_inj c (V0 m c) _ (1 : Fin 3)).trans
    (((dats (V m) 0 c).arrAt_in 1 rfl _).trans (A_eq (V m) c 1))

/-- Every buffer that is no array of the pipeline is as the region found it. -/
theorem Wexit_of_ne (c : Dev nD) (b : Ref sig .tc) (hb : ∀ w, Pipeline.arrRef spec0 w ≠ b) :
    Wexit m c (Proc.devRef .tc b) = V0 m c (Proc.devRef .tc b) :=
  Pipeline.withArrays_of_ne spec0 c (V0 m c) _ b hb

/-- What a buffer holds at the end of the program: what the later lines leave in it, run from the region's exit
    contents. -/
theorem afterTail_eq (c : Dev nD) (b : Ref sig .tc) :
    Pipeline.afterTail₀ cfgs (dats (V m)) 0 (V0 m) [hostOps1] c b = StableHlo.after hostOps1 (Wexit m c) (Proc.devRef .tc b) := by
  unfold Pipeline.afterTail₀
  rw [show ([hostOps1] : List (List (HloOp τ sig (Elt Ideal)))).flatten = hostOps1 from by
    simp only [List.flatten_cons, List.flatten_nil, List.append_nil]]

/-- THE RUN, READ: the result array ends at what the later lines compute from the region's exit contents, and the four
    argument arrays end unchanged. -/
theorem value_run : θ_run defs (onTc (τ := τ) (main (F := Ideal))) ⟨m, fun _ => 0, ρ⟩ (fun r => ∀ c : Dev nD,
      r.2.mem ((c.tc : Thread nD τ).loc main_v1595) = StableHlo.after hostOps1 (Wexit m c) (Proc.devRef .tc main_v1595)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (afterTail_eq m c main_v1595), (h c).2⟩) (frame_run m ρ)

end Cert.KernelIdeal.Frame

end
-- ==== Proof.KerHeadProduct.lean ====
/-
  The product array when the region is left, entry by entry, as a term of the arguments, over the extended reals.

  The region multiplies the feature array and the weight matrix it is handed; read back through the host lines before
  it, these are the features narrowed to bf16 and the weights transposed, flattened, padded with zero columns and
  narrowed. So entry (q, col) of the product array is the sum over the 128 input channels of narrowed feature entry
  (q, j) times narrowed padded weight entry (j, col).
-/
import proofs.«120445_j5549097746519_2_alg».proof.Proof.KerHeadIn
import proofs.«120445_j5549097746519_2_alg».proof.Proof.RegionExit

set_option maxRecDepth 16384

noncomputable section

namespace Cert.KernelIdeal.Head

open Cert.KernelIdeal Cert.KernelIdeal.Gen Cert.KernelIdeal.GenP Cert.KernelIdeal.Frame
open Idealize.ShloMosaic Idealize.ShloMosaic.TcCoe Idealize.SL.Sem
open Idealize.ShloMosaic.ValueIdx
open scoped BigOperators

variable (m : (ℓ : Loc nD τ sig) → Buf (Elt Ideal) ℓ) (c : Dev nD)

/-- The feature array the region is handed, as a term of the features. -/
theorem featArr_eq : featArr (V m) c = truncf .bf16 (argX m c) bitsLt_bf16_f32 :=
  W_features m c (W := V0 m c) rfl

/-- The weight matrix the region is handed, as a term of the weights. -/
theorem wgtArr_eq : wgtArr (V m) c
    = truncf .bf16
        (pad S128x640 ![0, 0] ![0, 100] ![0, 0]
          (shapeCast S128x540 (transpose S128x27x20 [1, 0, 2] (argW m c) transposes_S27x128x20_S128x27x20_1_0_2) shapeCasts_S128x27x20_S128x540)
          (sitofp (F := Ideal) .f32 (constantI S_ 32 0#32)) pads_S128x540_S128x640_000_01000 h_S_) bitsLt_bf16_f32 :=
  W_weights m c (W := V0 m c) rfl

/-- THE PRODUCT ARRAY when the region is left, entry by entry. -/
theorem product_entries (q : Fin 200000) (col : Fin 640) :
    (Wexit m c (Proc.devRef .tc main_v1295) : FVec Ideal S200000x640 .bf16) (ix2 q col)
      = ∑ j : Fin 128, truncf .bf16 (argX m c) bitsLt_bf16_f32 (ix2 q j)
          * truncf .bf16
              (pad S128x640 ![0, 0] ![0, 100] ![0, 0]
                (shapeCast S128x540 (transpose S128x27x20 [1, 0, 2] (argW m c) transposes_S27x128x20_S128x27x20_1_0_2) shapeCasts_S128x27x20_S128x540)
                (sitofp (F := Ideal) .f32 (constantI S_ 32 0#32)) pads_S128x540_S128x640_000_01000 h_S_) bitsLt_bf16_f32 (ix2 j col) := by
  refine (Wexit_product_apply m c q col).trans ?_
  rw [featArr_eq, wgtArr_eq]

end Cert.KernelIdeal.Head

end
-- ==== Proof.KerTail.lean ====
/-
  THE KERNEL PROGRAM'S HOST OPERATIONS AFTER ITS REGION, READ BACK.

  After the dense product Y = features × flattened weights ([200000, 640]) the program runs 382 host operations: it
  appends a zero row to Y (the padded product, [200001, 640]), spreads the bias over the rows, and then, for each of
  the 27 taps in turn, fourteen operations: the tap's row indices (written before the region: the neighbour's voxel
  number where the tap is taken, else 200000) are passed through "a negative index counts from the end", laid out as a
  column beside the column of the tap's first column 20·k, and used as the start positions of a gather of 1 × 20 blocks
  of the padded product; the block matrix is widened and added to the running sum.

  The operations are in single-assignment form: each writes one buffer, of rank one more than the one before, and reads
  only buffers of smaller rank. So the contents W at the end satisfy each operation's equation on its own (W y = f (W x) …),
  buffers the tail does not write keep their contents, and the equations compose:
  * each tap's value is ONE term of its row indices and the padded product (the same term for every tap, with the tap's
    word 20·k);
  * the result is the bias plus the 27 taps' values, added in order;
  * over the extended reals, at (p, c), a tap's entry is the product's entry Y[idx[p], 20·k + c] where idx[p] is a row of
    the product and 0 where it is the appended row, so the result's entry is the bias entry plus those 27 entries in order.
-/
import proofs.«120445_j5549097746519_2_alg».proof.Proof.LaunchKIP
import proofs.«120445_j5549097746519_2_alg».proof.Proof.LibSsaAfter
import proofs.«120445_j5549097746519_2_alg».proof.Proof.KerTap

set_option maxRecDepth 12936
set_option Elab.async false

noncomputable section

namespace Cert.KernelIdeal.Tail

open Cert.KernelIdeal.Gen Cert.KernelIdeal.GenP
open Idealize.ShloMosaic Idealize.ShloMosaic.TcCoe Idealize.ShloMosaic.StableHlo Idealize.ShloMosaic.ValueIdx
open Cert.LibSsaAfter

variable {F : FTy → Type} [FloatOps F]

/-! ## The tail is in single-assignment form -/

set_option maxHeartbeats 4000000 in
/-- The 382 operations write the buffers of ranks 1955 … 2336 one after the other, each reading only buffers of
    smaller rank. -/
theorem hostOps1_rising : Rising (τ := τ) 1955 2337 (hostOps1 (F := F)) := by
  rising_line

section ReadBack
variable (V0 : Valuation τ sig (Elt F))

/-- The buffers' contents after the tail, from any contents `V0` before it. -/
abbrev W : Valuation τ sig (Elt F) := after (hostOps1 (F := F)) V0

/-! ## The first four operations, and the buffers the tail leaves alone -/

/-- The product was written by the region, before the tail. -/
theorem W_v1295 : W V0 (main_v1295 : DevRef τ sig) = V0 (main_v1295 : DevRef τ sig) :=
  after_of_lt hostOps1_rising V0 (by decide)

/-- The bias is an argument of the program. -/
theorem W_arg2 : W V0 (main_arg2 : DevRef τ sig) = V0 (main_arg2 : DevRef τ sig) :=
  after_of_lt hostOps1_rising V0 (by decide)

theorem W_cst : W V0 (main_cst : DevRef τ sig) = constant S_ .bf16 0x0000#16 :=
  nullary_at_idx hostOps1_rising V0 0 rfl

theorem W_v1296 : W V0 (main_v1296 : DevRef τ sig) = broadcastInDim S1x640 ![] bcast_S_S1x640 (W V0 (main_cst : DevRef τ sig)) :=
  unary_at_idx hostOps1_rising V0 1 rfl

theorem W_v1297 : W V0 (main_v1297 : DevRef τ sig)
    = concatenate S200001x640 0 [⟨S200000x640, W V0 (main_v1295 : DevRef τ sig)⟩, ⟨S1x640, W V0 (main_v1296 : DevRef τ sig)⟩]
        concatenates_S200000x640_S1x640_S200001x640_d0 :=
  binary_at_idx hostOps1_rising V0 2 rfl

theorem W_v1298 : W V0 (main_v1298 : DevRef τ sig) = broadcastInDim S200000x20 ![1] bcast_S20_S200000x20_1 (W V0 (main_arg2 : DevRef τ sig)) :=
  unary_at_idx hostOps1_rising V0 3 rfl

/-- The product with a row of zeros appended, as one term of the product. -/
abbrev ypadTerm (Y : FVec F S200000x640 .bf16) : FVec F S200001x640 .bf16 :=
  concatenate S200001x640 0
    [⟨S200000x640, Y⟩, ⟨S1x640, broadcastInDim S1x640 ![] bcast_S_S1x640 (constant S_ .bf16 0x0000#16)⟩]
    concatenates_S200000x640_S1x640_S200001x640_d0

/-- The bias spread over the rows, as one term of the bias. -/
abbrev biasTerm (b : FVec F S20 .f32) : FVec F S200000x20 .f32 :=
  broadcastInDim S200000x20 ![1] bcast_S20_S200000x20_1 b

/-- The padded product the taps read is the region's product with a zero row appended. -/
theorem W_ypad : W V0 (main_v1297 : DevRef τ sig) = ypadTerm (V0 (main_v1295 : DevRef τ sig)) := by
  rw [W_v1297, W_v1296, W_cst, W_v1295]

/-- The running sum starts from the bias spread over the rows. -/
theorem W_bias : W V0 (main_v1298 : DevRef τ sig) = biasTerm (V0 (main_arg2 : DevRef τ sig)) := by
  rw [W_v1298, W_arg2]

/-! ## One tap's operations composed

Thirteen of a tap's fourteen operations build its value: the row indices are compared with zero and, where negative,
moved up by the row count of the padded product (a wrap that never fires on row indices that are not negative); they
are laid out as a column, the tap's first column as a second column, and the pair of columns is the list of start
positions of a gather of 1 × 20 blocks of the padded product, whose result is widened. Written as one term: -/

/-- One tap's value as one term of its row indices `idx`, the padded product `ypad` and the word `colw` of its first
    column. -/
abbrev tapTerm (idx : IVec S200000 32) (ypad : FVec F S200001x640 .bf16) (colw : BitVec 32) : FVec F S200000x20 .f32 :=
  extf .f32
    (Host.gather gather_S200001x640_S200000x2_S200000x20_1_0_n_n_01_1_120 ypad
      (concatenate S200000x2 1
        [⟨S200000x1, broadcastInDim S200000x1 ![0] bcast_S200000_S200000x1_0
            (select (cmpi .slt idx (broadcastInDim S200000 ![] bcast_S_S200000 (constantI S_ 32 0#32)))
              (addi idx (broadcastInDim S200000 ![] bcast_S_S200000 (constantI S_ 32 200001#32))) idx)⟩,
         ⟨S200000x1, broadcastInDim S200000x1 ![] bcast_S_S200000x1 (constantI S_ 32 colw)⟩]
        concatenates_S200000x1_S200000x1_S200000x2_d1))
    bitsLt_bf16_f32

/-- Thirteen equations, one per operation, each giving a buffer's contents from its operands' contents, compose to the
    tap's value as one term. -/
theorem tap_compose {idx z off sum sel : IVec S200000 32} {lt : IVec S200000 1} {c0 c1 c2 : IVec S_ 32}
    {col colb : IVec S200000x1 32} {cat : IVec S200000x2 32} {ypad : FVec F S200001x640 .bf16}
    {g : FVec F S200000x20 .bf16} {e : FVec F S200000x20 .f32} {colw : BitVec 32}
    (h1 : c0 = constantI S_ 32 0#32)
    (h2 : z = broadcastInDim S200000 ![] bcast_S_S200000 c0)
    (h3 : lt = cmpi .slt idx z)
    (h4 : c1 = constantI S_ 32 200001#32)
    (h5 : off = broadcastInDim S200000 ![] bcast_S_S200000 c1)
    (h6 : sum = addi idx off)
    (h7 : sel = select lt sum idx)
    (h8 : col = broadcastInDim S200000x1 ![0] bcast_S200000_S200000x1_0 sel)
    (h9 : c2 = constantI S_ 32 colw)
    (h10 : colb = broadcastInDim S200000x1 ![] bcast_S_S200000x1 c2)
    (h11 : cat = concatenate S200000x2 1 [⟨S200000x1, col⟩, ⟨S200000x1, colb⟩] concatenates_S200000x1_S200000x1_S200000x2_d1)
    (h12 : g = Host.gather gather_S200001x640_S200000x2_S200000x20_1_0_n_n_01_1_120 ypad cat)
    (h13 : e = extf .f32 g bitsLt_bf16_f32) :
    e = tapTerm idx ypad colw := by
  subst h13 h12 h11 h10 h9 h8 h7 h6 h5 h4 h3 h2 h1
  rfl

/-! ## The 27 taps, one after the other

Tap k's fourteen operations are operations 4 + 14·k … 17 + 14·k of the line. -/

/-- Tap 0: its value as one term of its row indices, the padded product and the word 0. -/
theorem W_tap0 : W V0 (main_v1308 : DevRef τ sig) = tapTerm (W V0 (main_v67 : DevRef τ sig)) (W V0 (main_v1297 : DevRef τ sig)) 0#32 :=
  tap_compose (idx := W V0 (main_v67 : DevRef τ sig)) (ypad := W V0 (main_v1297 : DevRef τ sig)) (colw := 0#32)
    (c0 := W V0 (main_c_464 : DevRef τ sig)) (z := W V0 (main_v1299 : DevRef τ sig)) (lt := W V0 (main_v1300 : DevRef τ sig))
    (c1 := W V0 (main_c_465 : DevRef τ sig)) (off := W V0 (main_v1301 : DevRef τ sig)) (sum := W V0 (main_v1302 : DevRef τ sig))
    (sel := W V0 (main_v1303 : DevRef τ sig)) (col := W V0 (main_v1304 : DevRef τ sig)) (c2 := W V0 (main_c_466 : DevRef τ sig))
    (colb := W V0 (main_v1305 : DevRef τ sig)) (cat := W V0 (main_v1306 : DevRef τ sig)) (g := W V0 (main_v1307 : DevRef τ sig))
    (e := W V0 (main_v1308 : DevRef τ sig))
    (nullary_at_idx hostOps1_rising V0 4 rfl) (unary_at_idx hostOps1_rising V0 5 rfl) (binary_at_idx hostOps1_rising V0 6 rfl)
    (nullary_at_idx hostOps1_rising V0 7 rfl) (unary_at_idx hostOps1_rising V0 8 rfl) (binary_at_idx hostOps1_rising V0 9 rfl)
    (ternary_at_idx hostOps1_rising V0 10 rfl) (unary_at_idx hostOps1_rising V0 11 rfl) (nullary_at_idx hostOps1_rising V0 12 rfl)
    (unary_at_idx hostOps1_rising V0 13 rfl) (binary_at_idx hostOps1_rising V0 14 rfl) (binary_at_idx hostOps1_rising V0 15 rfl)
    (unary_at_idx hostOps1_rising V0 16 rfl)

/-- Tap 0 is added to the running sum. -/
theorem W_acc0 : W V0 (main_v1309 : DevRef τ sig) = addf (W V0 (main_v1298 : DevRef τ sig)) (W V0 (main_v1308 : DevRef τ sig)) :=
  binary_at_idx hostOps1_rising V0 17 rfl

/-- Tap 0's row indices were written before the tail and are left alone. -/
theorem W_idx0 : W V0 (main_v67 : DevRef τ sig) = V0 (main_v67 : DevRef τ sig) :=
  after_of_lt hostOps1_rising V0 (by decide)

/-- Tap 1: its value as one term of its row indices, the padded product and the word 20. -/
theorem W_tap1 : W V0 (main_v1319 : DevRef τ sig) = tapTerm (W V0 (main_v114 : DevRef τ sig)) (W V0 (main_v1297 : DevRef τ sig)) 20#32 :=
  tap_compose (idx := W V0 (main_v114 : DevRef τ sig)) (ypad := W V0 (main_v1297 : DevRef τ sig)) (colw := 20#32)
    (c0 := W V0 (main_c_467 : DevRef τ sig)) (z := W V0 (main_v1310 : DevRef τ sig)) (lt := W V0 (main_v1311 : DevRef τ sig))
    (c1 := W V0 (main_c_468 : DevRef τ sig)) (off := W V0 (main_v1312 : DevRef τ sig)) (sum := W V0 (main_v1313 : DevRef τ sig))
    (sel := W V0 (main_v1314 : DevRef τ sig)) (col := W V0 (main_v1315 : DevRef τ sig)) (c2 := W V0 (main_c_469 : DevRef τ sig))
    (colb := W V0 (main_v1316 : DevRef τ sig)) (cat := W V0 (main_v1317 : DevRef τ sig)) (g := W V0 (main_v1318 : DevRef τ sig))
    (e := W V0 (main_v1319 : DevRef τ sig))
    (nullary_at_idx hostOps1_rising V0 18 rfl) (unary_at_idx hostOps1_rising V0 19 rfl) (binary_at_idx hostOps1_rising V0 20 rfl)
    (nullary_at_idx hostOps1_rising V0 21 rfl) (unary_at_idx hostOps1_rising V0 22 rfl) (binary_at_idx hostOps1_rising V0 23 rfl)
    (ternary_at_idx hostOps1_rising V0 24 rfl) (unary_at_idx hostOps1_rising V0 25 rfl) (nullary_at_idx hostOps1_rising V0 26 rfl)
    (unary_at_idx hostOps1_rising V0 27 rfl) (binary_at_idx hostOps1_rising V0 28 rfl) (binary_at_idx hostOps1_rising V0 29 rfl)
    (unary_at_idx hostOps1_rising V0 30 rfl)

/-- Tap 1 is added to the running sum. -/
theorem W_acc1 : W V0 (main_v1320 : DevRef τ sig) = addf (W V0 (main_v1309 : DevRef τ sig)) (W V0 (main_v1319 : DevRef τ sig)) :=
  binary_at_idx hostOps1_rising V0 31 rfl

/-- Tap 1's row indices were written before the tail and are left alone. -/
theorem W_idx1 : W V0 (main_v114 : DevRef τ sig) = V0 (main_v114 : DevRef τ sig) :=
  after_of_lt hostOps1_rising V0 (by decide)

/-- Tap 2: its value as one term of its row indices, the padded product and the word 40. -/
theorem W_tap2 : W V0 (main_v1330 : DevRef τ sig) = tapTerm (W V0 (main_v161 : DevRef τ sig)) (W V0 (main_v1297 : DevRef τ sig)) 40#32 :=
  tap_compose (idx := W V0 (main_v161 : DevRef τ sig)) (ypad := W V0 (main_v1297 : DevRef τ sig)) (colw := 40#32)
    (c0 := W V0 (main_c_470 : DevRef τ sig)) (z := W V0 (main_v1321 : DevRef τ sig)) (lt := W V0 (main_v1322 : DevRef τ sig))
    (c1 := W V0 (main_c_471 : DevRef τ sig)) (off := W V0 (main_v1323 : DevRef τ sig)) (sum := W V0 (main_v1324 : DevRef τ sig))
    (sel := W V0 (main_v1325 : DevRef τ sig)) (col := W V0 (main_v1326 : DevRef τ sig)) (c2 := W V0 (main_c_472 : DevRef τ sig))
    (colb := W V0 (main_v1327 : DevRef τ sig)) (cat := W V0 (main_v1328 : DevRef τ sig)) (g := W V0 (main_v1329 : DevRef τ sig))
    (e := W V0 (main_v1330 : DevRef τ sig))
    (nullary_at_idx hostOps1_rising V0 32 rfl) (unary_at_idx hostOps1_rising V0 33 rfl) (binary_at_idx hostOps1_rising V0 34 rfl)
    (nullary_at_idx hostOps1_rising V0 35 rfl) (unary_at_idx hostOps1_rising V0 36 rfl) (binary_at_idx hostOps1_rising V0 37 rfl)
    (ternary_at_idx hostOps1_rising V0 38 rfl) (unary_at_idx hostOps1_rising V0 39 rfl) (nullary_at_idx hostOps1_rising V0 40 rfl)
    (unary_at_idx hostOps1_rising V0 41 rfl) (binary_at_idx hostOps1_rising V0 42 rfl) (binary_at_idx hostOps1_rising V0 43 rfl)
    (unary_at_idx hostOps1_rising V0 44 rfl)

/-- Tap 2 is added to the running sum. -/
theorem W_acc2 : W V0 (main_v1331 : DevRef τ sig) = addf (W V0 (main_v1320 : DevRef τ sig)) (W V0 (main_v1330 : DevRef τ sig)) :=
  binary_at_idx hostOps1_rising V0 45 rfl

/-- Tap 2's row indices were written before the tail and are left alone. -/
theorem W_idx2 : W V0 (main_v161 : DevRef τ sig) = V0 (main_v161 : DevRef τ sig) :=
  after_of_lt hostOps1_rising V0 (by decide)

/-- Tap 3: its value as one term of its row indices, the padded product and the word 60. -/
theorem W_tap3 : W V0 (main_v1341 : DevRef τ sig) = tapTerm (W V0 (main_v208 : DevRef τ sig)) (W V0 (main_v1297 : DevRef τ sig)) 60#32 :=
  tap_compose (idx := W V0 (main_v208 : DevRef τ sig)) (ypad := W V0 (main_v1297 : DevRef τ sig)) (colw := 60#32)
    (c0 := W V0 (main_c_473 : DevRef τ sig)) (z := W V0 (main_v1332 : DevRef τ sig)) (lt := W V0 (main_v1333 : DevRef τ sig))
    (c1 := W V0 (main_c_474 : DevRef τ sig)) (off := W V0 (main_v1334 : DevRef τ sig)) (sum := W V0 (main_v1335 : DevRef τ sig))
    (sel := W V0 (main_v1336 : DevRef τ sig)) (col := W V0 (main_v1337 : DevRef τ sig)) (c2 := W V0 (main_c_475 : DevRef τ sig))
    (colb := W V0 (main_v1338 : DevRef τ sig)) (cat := W V0 (main_v1339 : DevRef τ sig)) (g := W V0 (main_v1340 : DevRef τ sig))
    (e := W V0 (main_v1341 : DevRef τ sig))
    (nullary_at_idx hostOps1_rising V0 46 rfl) (unary_at_idx hostOps1_rising V0 47 rfl) (binary_at_idx hostOps1_rising V0 48 rfl)
    (nullary_at_idx hostOps1_rising V0 49 rfl) (unary_at_idx hostOps1_rising V0 50 rfl) (binary_at_idx hostOps1_rising V0 51 rfl)
    (ternary_at_idx hostOps1_rising V0 52 rfl) (unary_at_idx hostOps1_rising V0 53 rfl) (nullary_at_idx hostOps1_rising V0 54 rfl)
    (unary_at_idx hostOps1_rising V0 55 rfl) (binary_at_idx hostOps1_rising V0 56 rfl) (binary_at_idx hostOps1_rising V0 57 rfl)
    (unary_at_idx hostOps1_rising V0 58 rfl)

/-- Tap 3 is added to the running sum. -/
theorem W_acc3 : W V0 (main_v1342 : DevRef τ sig) = addf (W V0 (main_v1331 : DevRef τ sig)) (W V0 (main_v1341 : DevRef τ sig)) :=
  binary_at_idx hostOps1_rising V0 59 rfl

/-- Tap 3's row indices were written before the tail and are left alone. -/
theorem W_idx3 : W V0 (main_v208 : DevRef τ sig) = V0 (main_v208 : DevRef τ sig) :=
  after_of_lt hostOps1_rising V0 (by decide)

/-- Tap 4: its value as one term of its row indices, the padded product and the word 80. -/
theorem W_tap4 : W V0 (main_v1352 : DevRef τ sig) = tapTerm (W V0 (main_v255 : DevRef τ sig)) (W V0 (main_v1297 : DevRef τ sig)) 80#32 :=
  tap_compose (idx := W V0 (main_v255 : DevRef τ sig)) (ypad := W V0 (main_v1297 : DevRef τ sig)) (colw := 80#32)
    (c0 := W V0 (main_c_476 : DevRef τ sig)) (z := W V0 (main_v1343 : DevRef τ sig)) (lt := W V0 (main_v1344 : DevRef τ sig))
    (c1 := W V0 (main_c_477 : DevRef τ sig)) (off := W V0 (main_v1345 : DevRef τ sig)) (sum := W V0 (main_v1346 : DevRef τ sig))
    (sel := W V0 (main_v1347 : DevRef τ sig)) (col := W V0 (main_v1348 : DevRef τ sig)) (c2 := W V0 (main_c_478 : DevRef τ sig))
    (colb := W V0 (main_v1349 : DevRef τ sig)) (cat := W V0 (main_v1350 : DevRef τ sig)) (g := W V0 (main_v1351 : DevRef τ sig))
    (e := W V0 (main_v1352 : DevRef τ sig))
    (nullary_at_idx hostOps1_rising V0 60 rfl) (unary_at_idx hostOps1_rising V0 61 rfl) (binary_at_idx hostOps1_rising V0 62 rfl)
    (nullary_at_idx hostOps1_rising V0 63 rfl) (unary_at_idx hostOps1_rising V0 64 rfl) (binary_at_idx hostOps1_rising V0 65 rfl)
    (ternary_at_idx hostOps1_rising V0 66 rfl) (unary_at_idx hostOps1_rising V0 67 rfl) (nullary_at_idx hostOps1_rising V0 68 rfl)
    (unary_at_idx hostOps1_rising V0 69 rfl) (binary_at_idx hostOps1_rising V0 70 rfl) (binary_at_idx hostOps1_rising V0 71 rfl)
    (unary_at_idx hostOps1_rising V0 72 rfl)

/-- Tap 4 is added to the running sum. -/
theorem W_acc4 : W V0 (main_v1353 : DevRef τ sig) = addf (W V0 (main_v1342 : DevRef τ sig)) (W V0 (main_v1352 : DevRef τ sig)) :=
  binary_at_idx hostOps1_rising V0 73 rfl

/-- Tap 4's row indices were written before the tail and are left alone. -/
theorem W_idx4 : W V0 (main_v255 : DevRef τ sig) = V0 (main_v255 : DevRef τ sig) :=
  after_of_lt hostOps1_rising V0 (by decide)

/-- Tap 5: its value as one term of its row indices, the padded product and the word 100. -/
theorem W_tap5 : W V0 (main_v1363 : DevRef τ sig) = tapTerm (W V0 (main_v302 : DevRef τ sig)) (W V0 (main_v1297 : DevRef τ sig)) 100#32 :=
  tap_compose (idx := W V0 (main_v302 : DevRef τ sig)) (ypad := W V0 (main_v1297 : DevRef τ sig)) (colw := 100#32)
    (c0 := W V0 (main_c_479 : DevRef τ sig)) (z := W V0 (main_v1354 : DevRef τ sig)) (lt := W V0 (main_v1355 : DevRef τ sig))
    (c1 := W V0 (main_c_480 : DevRef τ sig)) (off := W V0 (main_v1356 : DevRef τ sig)) (sum := W V0 (main_v1357 : DevRef τ sig))
    (sel := W V0 (main_v1358 : DevRef τ sig)) (col := W V0 (main_v1359 : DevRef τ sig)) (c2 := W V0 (main_c_481 : DevRef τ sig))
    (colb := W V0 (main_v1360 : DevRef τ sig)) (cat := W V0 (main_v1361 : DevRef τ sig)) (g := W V0 (main_v1362 : DevRef τ sig))
    (e := W V0 (main_v1363 : DevRef τ sig))
    (nullary_at_idx hostOps1_rising V0 74 rfl) (unary_at_idx hostOps1_rising V0 75 rfl) (binary_at_idx hostOps1_rising V0 76 rfl)
    (nullary_at_idx hostOps1_rising V0 77 rfl) (unary_at_idx hostOps1_rising V0 78 rfl) (binary_at_idx hostOps1_rising V0 79 rfl)
    (ternary_at_idx hostOps1_rising V0 80 rfl) (unary_at_idx hostOps1_rising V0 81 rfl) (nullary_at_idx hostOps1_rising V0 82 rfl)
    (unary_at_idx hostOps1_rising V0 83 rfl) (binary_at_idx hostOps1_rising V0 84 rfl) (binary_at_idx hostOps1_rising V0 85 rfl)
    (unary_at_idx hostOps1_rising V0 86 rfl)

/-- Tap 5 is added to the running sum. -/
theorem W_acc5 : W V0 (main_v1364 : DevRef τ sig) = addf (W V0 (main_v1353 : DevRef τ sig)) (W V0 (main_v1363 : DevRef τ sig)) :=
  binary_at_idx hostOps1_rising V0 87 rfl

/-- Tap 5's row indices were written before the tail and are left alone. -/
theorem W_idx5 : W V0 (main_v302 : DevRef τ sig) = V0 (main_v302 : DevRef τ sig) :=
  after_of_lt hostOps1_rising V0 (by decide)

/-- Tap 6: its value as one term of its row indices, the padded product and the word 120. -/
theorem W_tap6 : W V0 (main_v1374 : DevRef τ sig) = tapTerm (W V0 (main_v349 : DevRef τ sig)) (W V0 (main_v1297 : DevRef τ sig)) 120#32 :=
  tap_compose (idx := W V0 (main_v349 : DevRef τ sig)) (ypad := W V0 (main_v1297 : DevRef τ sig)) (colw := 120#32)
    (c0 := W V0 (main_c_482 : DevRef τ sig)) (z := W V0 (main_v1365 : DevRef τ sig)) (lt := W V0 (main_v1366 : DevRef τ sig))
    (c1 := W V0 (main_c_483 : DevRef τ sig)) (off := W V0 (main_v1367 : DevRef τ sig)) (sum := W V0 (main_v1368 : DevRef τ sig))
    (sel := W V0 (main_v1369 : DevRef τ sig)) (col := W V0 (main_v1370 : DevRef τ sig)) (c2 := W V0 (main_c_484 : DevRef τ sig))
    (colb := W V0 (main_v1371 : DevRef τ sig)) (cat := W V0 (main_v1372 : DevRef τ sig)) (g := W V0 (main_v1373 : DevRef τ sig))
    (e := W V0 (main_v1374 : DevRef τ sig))
    (nullary_at_idx hostOps1_rising V0 88 rfl) (unary_at_idx hostOps1_rising V0 89 rfl) (binary_at_idx hostOps1_rising V0 90 rfl)
    (nullary_at_idx hostOps1_rising V0 91 rfl) (unary_at_idx hostOps1_rising V0 92 rfl) (binary_at_idx hostOps1_rising V0 93 rfl)
    (ternary_at_idx hostOps1_rising V0 94 rfl) (unary_at_idx hostOps1_rising V0 95 rfl) (nullary_at_idx hostOps1_rising V0 96 rfl)
    (unary_at_idx hostOps1_rising V0 97 rfl) (binary_at_idx hostOps1_rising V0 98 rfl) (binary_at_idx hostOps1_rising V0 99 rfl)
    (unary_at_idx hostOps1_rising V0 100 rfl)

/-- Tap 6 is added to the running sum. -/
theorem W_acc6 : W V0 (main_v1375 : DevRef τ sig) = addf (W V0 (main_v1364 : DevRef τ sig)) (W V0 (main_v1374 : DevRef τ sig)) :=
  binary_at_idx hostOps1_rising V0 101 rfl

/-- Tap 6's row indices were written before the tail and are left alone. -/
theorem W_idx6 : W V0 (main_v349 : DevRef τ sig) = V0 (main_v349 : DevRef τ sig) :=
  after_of_lt hostOps1_rising V0 (by decide)

/-- Tap 7: its value as one term of its row indices, the padded product and the word 140. -/
theorem W_tap7 : W V0 (main_v1385 : DevRef τ sig) = tapTerm (W V0 (main_v396 : DevRef τ sig)) (W V0 (main_v1297 : DevRef τ sig)) 140#32 :=
  tap_compose (idx := W V0 (main_v396 : DevRef τ sig)) (ypad := W V0 (main_v1297 : DevRef τ sig)) (colw := 140#32)
    (c0 := W V0 (main_c_485 : DevRef τ sig)) (z := W V0 (main_v1376 : DevRef τ sig)) (lt := W V0 (main_v1377 : DevRef τ sig))
    (c1 := W V0 (main_c_486 : DevRef τ sig)) (off := W V0 (main_v1378 : DevRef τ sig)) (sum := W V0 (main_v1379 : DevRef τ sig))
    (sel := W V0 (main_v1380 : DevRef τ sig)) (col := W V0 (main_v1381 : DevRef τ sig)) (c2 := W V0 (main_c_487 : DevRef τ sig))
    (colb := W V0 (main_v1382 : DevRef τ sig)) (cat := W V0 (main_v1383 : DevRef τ sig)) (g := W V0 (main_v1384 : DevRef τ sig))
    (e := W V0 (main_v1385 : DevRef τ sig))
    (nullary_at_idx hostOps1_rising V0 102 rfl) (unary_at_idx hostOps1_rising V0 103 rfl) (binary_at_idx hostOps1_rising V0 104 rfl)
    (nullary_at_idx hostOps1_rising V0 105 rfl) (unary_at_idx hostOps1_rising V0 106 rfl) (binary_at_idx hostOps1_rising V0 107 rfl)
    (ternary_at_idx hostOps1_rising V0 108 rfl) (unary_at_idx hostOps1_rising V0 109 rfl) (nullary_at_idx hostOps1_rising V0 110 rfl)
    (unary_at_idx hostOps1_rising V0 111 rfl) (binary_at_idx hostOps1_rising V0 112 rfl) (binary_at_idx hostOps1_rising V0 113 rfl)
    (unary_at_idx hostOps1_rising V0 114 rfl)

/-- Tap 7 is added to the running sum. -/
theorem W_acc7 : W V0 (main_v1386 : DevRef τ sig) = addf (W V0 (main_v1375 : DevRef τ sig)) (W V0 (main_v1385 : DevRef τ sig)) :=
  binary_at_idx hostOps1_rising V0 115 rfl

/-- Tap 7's row indices were written before the tail and are left alone. -/
theorem W_idx7 : W V0 (main_v396 : DevRef τ sig) = V0 (main_v396 : DevRef τ sig) :=
  after_of_lt hostOps1_rising V0 (by decide)

/-- Tap 8: its value as one term of its row indices, the padded product and the word 160. -/
theorem W_tap8 : W V0 (main_v1396 : DevRef τ sig) = tapTerm (W V0 (main_v443 : DevRef τ sig)) (W V0 (main_v1297 : DevRef τ sig)) 160#32 :=
  tap_compose (idx := W V0 (main_v443 : DevRef τ sig)) (ypad := W V0 (main_v1297 : DevRef τ sig)) (colw := 160#32)
    (c0 := W V0 (main_c_488 : DevRef τ sig)) (z := W V0 (main_v1387 : DevRef τ sig)) (lt := W V0 (main_v1388 : DevRef τ sig))
    (c1 := W V0 (main_c_489 : DevRef τ sig)) (off := W V0 (main_v1389 : DevRef τ sig)) (sum := W V0 (main_v1390 : DevRef τ sig))
    (sel := W V0 (main_v1391 : DevRef τ sig)) (col := W V0 (main_v1392 : DevRef τ sig)) (c2 := W V0 (main_c_490 : DevRef τ sig))
    (colb := W V0 (main_v1393 : DevRef τ sig)) (cat := W V0 (main_v1394 : DevRef τ sig)) (g := W V0 (main_v1395 : DevRef τ sig))
    (e := W V0 (main_v1396 : DevRef τ sig))
    (nullary_at_idx hostOps1_rising V0 116 rfl) (unary_at_idx hostOps1_rising V0 117 rfl) (binary_at_idx hostOps1_rising V0 118 rfl)
    (nullary_at_idx hostOps1_rising V0 119 rfl) (unary_at_idx hostOps1_rising V0 120 rfl) (binary_at_idx hostOps1_rising V0 121 rfl)
    (ternary_at_idx hostOps1_rising V0 122 rfl) (unary_at_idx hostOps1_rising V0 123 rfl) (nullary_at_idx hostOps1_rising V0 124 rfl)
    (unary_at_idx hostOps1_rising V0 125 rfl) (binary_at_idx hostOps1_rising V0 126 rfl) (binary_at_idx hostOps1_rising V0 127 rfl)
    (unary_at_idx hostOps1_rising V0 128 rfl)

/-- Tap 8 is added to the running sum. -/
theorem W_acc8 : W V0 (main_v1397 : DevRef τ sig) = addf (W V0 (main_v1386 : DevRef τ sig)) (W V0 (main_v1396 : DevRef τ sig)) :=
  binary_at_idx hostOps1_rising V0 129 rfl

/-- Tap 8's row indices were written before the tail and are left alone. -/
theorem W_idx8 : W V0 (main_v443 : DevRef τ sig) = V0 (main_v443 : DevRef τ sig) :=
  after_of_lt hostOps1_rising V0 (by decide)

/-- Tap 9: its value as one term of its row indices, the padded product and the word 180. -/
theorem W_tap9 : W V0 (main_v1407 : DevRef τ sig) = tapTerm (W V0 (main_v490 : DevRef τ sig)) (W V0 (main_v1297 : DevRef τ sig)) 180#32 :=
  tap_compose (idx := W V0 (main_v490 : DevRef τ sig)) (ypad := W V0 (main_v1297 : DevRef τ sig)) (colw := 180#32)
    (c0 := W V0 (main_c_491 : DevRef τ sig)) (z := W V0 (main_v1398 : DevRef τ sig)) (lt := W V0 (main_v1399 : DevRef τ sig))
    (c1 := W V0 (main_c_492 : DevRef τ sig)) (off := W V0 (main_v1400 : DevRef τ sig)) (sum := W V0 (main_v1401 : DevRef τ sig))
    (sel := W V0 (main_v1402 : DevRef τ sig)) (col := W V0 (main_v1403 : DevRef τ sig)) (c2 := W V0 (main_c_493 : DevRef τ sig))
    (colb := W V0 (main_v1404 : DevRef τ sig)) (cat := W V0 (main_v1405 : DevRef τ sig)) (g := W V0 (main_v1406 : DevRef τ sig))
    (e := W V0 (main_v1407 : DevRef τ sig))
    (nullary_at_idx hostOps1_rising V0 130 rfl) (unary_at_idx hostOps1_rising V0 131 rfl) (binary_at_idx hostOps1_rising V0 132 rfl)
    (nullary_at_idx hostOps1_rising V0 133 rfl) (unary_at_idx hostOps1_rising V0 134 rfl) (binary_at_idx hostOps1_rising V0 135 rfl)
    (ternary_at_idx hostOps1_rising V0 136 rfl) (unary_at_idx hostOps1_rising V0 137 rfl) (nullary_at_idx hostOps1_rising V0 138 rfl)
    (unary_at_idx hostOps1_rising V0 139 rfl) (binary_at_idx hostOps1_rising V0 140 rfl) (binary_at_idx hostOps1_rising V0 141 rfl)
    (unary_at_idx hostOps1_rising V0 142 rfl)

/-- Tap 9 is added to the running sum. -/
theorem W_acc9 : W V0 (main_v1408 : DevRef τ sig) = addf (W V0 (main_v1397 : DevRef τ sig)) (W V0 (main_v1407 : DevRef τ sig)) :=
  binary_at_idx hostOps1_rising V0 143 rfl

/-- Tap 9's row indices were written before the tail and are left alone. -/
theorem W_idx9 : W V0 (main_v490 : DevRef τ sig) = V0 (main_v490 : DevRef τ sig) :=
  after_of_lt hostOps1_rising V0 (by decide)

/-- Tap 10: its value as one term of its row indices, the padded product and the word 200. -/
theorem W_tap10 : W V0 (main_v1418 : DevRef τ sig) = tapTerm (W V0 (main_v537 : DevRef τ sig)) (W V0 (main_v1297 : DevRef τ sig)) 200#32 :=
  tap_compose (idx := W V0 (main_v537 : DevRef τ sig)) (ypad := W V0 (main_v1297 : DevRef τ sig)) (colw := 200#32)
    (c0 := W V0 (main_c_494 : DevRef τ sig)) (z := W V0 (main_v1409 : DevRef τ sig)) (lt := W V0 (main_v1410 : DevRef τ sig))
    (c1 := W V0 (main_c_495 : DevRef τ sig)) (off := W V0 (main_v1411 : DevRef τ sig)) (sum := W V0 (main_v1412 : DevRef τ sig))
    (sel := W V0 (main_v1413 : DevRef τ sig)) (col := W V0 (main_v1414 : DevRef τ sig)) (c2 := W V0 (main_c_496 : DevRef τ sig))
    (colb := W V0 (main_v1415 : DevRef τ sig)) (cat := W V0 (main_v1416 : DevRef τ sig)) (g := W V0 (main_v1417 : DevRef τ sig))
    (e := W V0 (main_v1418 : DevRef τ sig))
    (nullary_at_idx hostOps1_rising V0 144 rfl) (unary_at_idx hostOps1_rising V0 145 rfl) (binary_at_idx hostOps1_rising V0 146 rfl)
    (nullary_at_idx hostOps1_rising V0 147 rfl) (unary_at_idx hostOps1_rising V0 148 rfl) (binary_at_idx hostOps1_rising V0 149 rfl)
    (ternary_at_idx hostOps1_rising V0 150 rfl) (unary_at_idx hostOps1_rising V0 151 rfl) (nullary_at_idx hostOps1_rising V0 152 rfl)
    (unary_at_idx hostOps1_rising V0 153 rfl) (binary_at_idx hostOps1_rising V0 154 rfl) (binary_at_idx hostOps1_rising V0 155 rfl)
    (unary_at_idx hostOps1_rising V0 156 rfl)

/-- Tap 10 is added to the running sum. -/
theorem W_acc10 : W V0 (main_v1419 : DevRef τ sig) = addf (W V0 (main_v1408 : DevRef τ sig)) (W V0 (main_v1418 : DevRef τ sig)) :=
  binary_at_idx hostOps1_rising V0 157 rfl

/-- Tap 10's row indices were written before the tail and are left alone. -/
theorem W_idx10 : W V0 (main_v537 : DevRef τ sig) = V0 (main_v537 : DevRef τ sig) :=
  after_of_lt hostOps1_rising V0 (by decide)

/-- Tap 11: its value as one term of its row indices, the padded product and the word 220. -/
theorem W_tap11 : W V0 (main_v1429 : DevRef τ sig) = tapTerm (W V0 (main_v584 : DevRef τ sig)) (W V0 (main_v1297 : DevRef τ sig)) 220#32 :=
  tap_compose (idx := W V0 (main_v584 : DevRef τ sig)) (ypad := W V0 (main_v1297 : DevRef τ sig)) (colw := 220#32)
    (c0 := W V0 (main_c_497 : DevRef τ sig)) (z := W V0 (main_v1420 : DevRef τ sig)) (lt := W V0 (main_v1421 : DevRef τ sig))
    (c1 := W V0 (main_c_498 : DevRef τ sig)) (off := W V0 (main_v1422 : DevRef τ sig)) (sum := W V0 (main_v1423 : DevRef τ sig))
    (sel := W V0 (main_v1424 : DevRef τ sig)) (col := W V0 (main_v1425 : DevRef τ sig)) (c2 := W V0 (main_c_499 : DevRef τ sig))
    (colb := W V0 (main_v1426 : DevRef τ sig)) (cat := W V0 (main_v1427 : DevRef τ sig)) (g := W V0 (main_v1428 : DevRef τ sig))
    (e := W V0 (main_v1429 : DevRef τ sig))
    (nullary_at_idx hostOps1_rising V0 158 rfl) (unary_at_idx hostOps1_rising V0 159 rfl) (binary_at_idx hostOps1_rising V0 160 rfl)
    (nullary_at_idx hostOps1_rising V0 161 rfl) (unary_at_idx hostOps1_rising V0 162 rfl) (binary_at_idx hostOps1_rising V0 163 rfl)
    (ternary_at_idx hostOps1_rising V0 164 rfl) (unary_at_idx hostOps1_rising V0 165 rfl) (nullary_at_idx hostOps1_rising V0 166 rfl)
    (unary_at_idx hostOps1_rising V0 167 rfl) (binary_at_idx hostOps1_rising V0 168 rfl) (binary_at_idx hostOps1_rising V0 169 rfl)
    (unary_at_idx hostOps1_rising V0 170 rfl)

/-- Tap 11 is added to the running sum. -/
theorem W_acc11 : W V0 (main_v1430 : DevRef τ sig) = addf (W V0 (main_v1419 : DevRef τ sig)) (W V0 (main_v1429 : DevRef τ sig)) :=
  binary_at_idx hostOps1_rising V0 171 rfl

/-- Tap 11's row indices were written before the tail and are left alone. -/
theorem W_idx11 : W V0 (main_v584 : DevRef τ sig) = V0 (main_v584 : DevRef τ sig) :=
  after_of_lt hostOps1_rising V0 (by decide)

/-- Tap 12: its value as one term of its row indices, the padded product and the word 240. -/
theorem W_tap12 : W V0 (main_v1440 : DevRef τ sig) = tapTerm (W V0 (main_v631 : DevRef τ sig)) (W V0 (main_v1297 : DevRef τ sig)) 240#32 :=
  tap_compose (idx := W V0 (main_v631 : DevRef τ sig)) (ypad := W V0 (main_v1297 : DevRef τ sig)) (colw := 240#32)
    (c0 := W V0 (main_c_500 : DevRef τ sig)) (z := W V0 (main_v1431 : DevRef τ sig)) (lt := W V0 (main_v1432 : DevRef τ sig))
    (c1 := W V0 (main_c_501 : DevRef τ sig)) (off := W V0 (main_v1433 : DevRef τ sig)) (sum := W V0 (main_v1434 : DevRef τ sig))
    (sel := W V0 (main_v1435 : DevRef τ sig)) (col := W V0 (main_v1436 : DevRef τ sig)) (c2 := W V0 (main_c_502 : DevRef τ sig))
    (colb := W V0 (main_v1437 : DevRef τ sig)) (cat := W V0 (main_v1438 : DevRef τ sig)) (g := W V0 (main_v1439 : DevRef τ sig))
    (e := W V0 (main_v1440 : DevRef τ sig))
    (nullary_at_idx hostOps1_rising V0 172 rfl) (unary_at_idx hostOps1_rising V0 173 rfl) (binary_at_idx hostOps1_rising V0 174 rfl)
    (nullary_at_idx hostOps1_rising V0 175 rfl) (unary_at_idx hostOps1_rising V0 176 rfl) (binary_at_idx hostOps1_rising V0 177 rfl)
    (ternary_at_idx hostOps1_rising V0 178 rfl) (unary_at_idx hostOps1_rising V0 179 rfl) (nullary_at_idx hostOps1_rising V0 180 rfl)
    (unary_at_idx hostOps1_rising V0 181 rfl) (binary_at_idx hostOps1_rising V0 182 rfl) (binary_at_idx hostOps1_rising V0 183 rfl)
    (unary_at_idx hostOps1_rising V0 184 rfl)

/-- Tap 12 is added to the running sum. -/
theorem W_acc12 : W V0 (main_v1441 : DevRef τ sig) = addf (W V0 (main_v1430 : DevRef τ sig)) (W V0 (main_v1440 : DevRef τ sig)) :=
  binary_at_idx hostOps1_rising V0 185 rfl

/-- Tap 12's row indices were written before the tail and are left alone. -/
theorem W_idx12 : W V0 (main_v631 : DevRef τ sig) = V0 (main_v631 : DevRef τ sig) :=
  after_of_lt hostOps1_rising V0 (by decide)

/-- Tap 13: its value as one term of its row indices, the padded product and the word 260. -/
theorem W_tap13 : W V0 (main_v1451 : DevRef τ sig) = tapTerm (W V0 (main_v678 : DevRef τ sig)) (W V0 (main_v1297 : DevRef τ sig)) 260#32 :=
  tap_compose (idx := W V0 (main_v678 : DevRef τ sig)) (ypad := W V0 (main_v1297 : DevRef τ sig)) (colw := 260#32)
    (c0 := W V0 (main_c_503 : DevRef τ sig)) (z := W V0 (main_v1442 : DevRef τ sig)) (lt := W V0 (main_v1443 : DevRef τ sig))
    (c1 := W V0 (main_c_504 : DevRef τ sig)) (off := W V0 (main_v1444 : DevRef τ sig)) (sum := W V0 (main_v1445 : DevRef τ sig))
    (sel := W V0 (main_v1446 : DevRef τ sig)) (col := W V0 (main_v1447 : DevRef τ sig)) (c2 := W V0 (main_c_505 : DevRef τ sig))
    (colb := W V0 (main_v1448 : DevRef τ sig)) (cat := W V0 (main_v1449 : DevRef τ sig)) (g := W V0 (main_v1450 : DevRef τ sig))
    (e := W V0 (main_v1451 : DevRef τ sig))
    (nullary_at_idx hostOps1_rising V0 186 rfl) (unary_at_idx hostOps1_rising V0 187 rfl) (binary_at_idx hostOps1_rising V0 188 rfl)
    (nullary_at_idx hostOps1_rising V0 189 rfl) (unary_at_idx hostOps1_rising V0 190 rfl) (binary_at_idx hostOps1_rising V0 191 rfl)
    (ternary_at_idx hostOps1_rising V0 192 rfl) (unary_at_idx hostOps1_rising V0 193 rfl) (nullary_at_idx hostOps1_rising V0 194 rfl)
    (unary_at_idx hostOps1_rising V0 195 rfl) (binary_at_idx hostOps1_rising V0 196 rfl) (binary_at_idx hostOps1_rising V0 197 rfl)
    (unary_at_idx hostOps1_rising V0 198 rfl)

/-- Tap 13 is added to the running sum. -/
theorem W_acc13 : W V0 (main_v1452 : DevRef τ sig) = addf (W V0 (main_v1441 : DevRef τ sig)) (W V0 (main_v1451 : DevRef τ sig)) :=
  binary_at_idx hostOps1_rising V0 199 rfl

/-- Tap 13's row indices were written before the tail and are left alone. -/
theorem W_idx13 : W V0 (main_v678 : DevRef τ sig) = V0 (main_v678 : DevRef τ sig) :=
  after_of_lt hostOps1_rising V0 (by decide)

/-- Tap 14: its value as one term of its row indices, the padded product and the word 280. -/
theorem W_tap14 : W V0 (main_v1462 : DevRef τ sig) = tapTerm (W V0 (main_v725 : DevRef τ sig)) (W V0 (main_v1297 : DevRef τ sig)) 280#32 :=
  tap_compose (idx := W V0 (main_v725 : DevRef τ sig)) (ypad := W V0 (main_v1297 : DevRef τ sig)) (colw := 280#32)
    (c0 := W V0 (main_c_506 : DevRef τ sig)) (z := W V0 (main_v1453 : DevRef τ sig)) (lt := W V0 (main_v1454 : DevRef τ sig))
    (c1 := W V0 (main_c_507 : DevRef τ sig)) (off := W V0 (main_v1455 : DevRef τ sig)) (sum := W V0 (main_v1456 : DevRef τ sig))
    (sel := W V0 (main_v1457 : DevRef τ sig)) (col := W V0 (main_v1458 : DevRef τ sig)) (c2 := W V0 (main_c_508 : DevRef τ sig))
    (colb := W V0 (main_v1459 : DevRef τ sig)) (cat := W V0 (main_v1460 : DevRef τ sig)) (g := W V0 (main_v1461 : DevRef τ sig))
    (e := W V0 (main_v1462 : DevRef τ sig))
    (nullary_at_idx hostOps1_rising V0 200 rfl) (unary_at_idx hostOps1_rising V0 201 rfl) (binary_at_idx hostOps1_rising V0 202 rfl)
    (nullary_at_idx hostOps1_rising V0 203 rfl) (unary_at_idx hostOps1_rising V0 204 rfl) (binary_at_idx hostOps1_rising V0 205 rfl)
    (ternary_at_idx hostOps1_rising V0 206 rfl) (unary_at_idx hostOps1_rising V0 207 rfl) (nullary_at_idx hostOps1_rising V0 208 rfl)
    (unary_at_idx hostOps1_rising V0 209 rfl) (binary_at_idx hostOps1_rising V0 210 rfl) (binary_at_idx hostOps1_rising V0 211 rfl)
    (unary_at_idx hostOps1_rising V0 212 rfl)

/-- Tap 14 is added to the running sum. -/
theorem W_acc14 : W V0 (main_v1463 : DevRef τ sig) = addf (W V0 (main_v1452 : DevRef τ sig)) (W V0 (main_v1462 : DevRef τ sig)) :=
  binary_at_idx hostOps1_rising V0 213 rfl

/-- Tap 14's row indices were written before the tail and are left alone. -/
theorem W_idx14 : W V0 (main_v725 : DevRef τ sig) = V0 (main_v725 : DevRef τ sig) :=
  after_of_lt hostOps1_rising V0 (by decide)

/-- Tap 15: its value as one term of its row indices, the padded product and the word 300. -/
theorem W_tap15 : W V0 (main_v1473 : DevRef τ sig) = tapTerm (W V0 (main_v772 : DevRef τ sig)) (W V0 (main_v1297 : DevRef τ sig)) 300#32 :=
  tap_compose (idx := W V0 (main_v772 : DevRef τ sig)) (ypad := W V0 (main_v1297 : DevRef τ sig)) (colw := 300#32)
    (c0 := W V0 (main_c_509 : DevRef τ sig)) (z := W V0 (main_v1464 : DevRef τ sig)) (lt := W V0 (main_v1465 : DevRef τ sig))
    (c1 := W V0 (main_c_510 : DevRef τ sig)) (off := W V0 (main_v1466 : DevRef τ sig)) (sum := W V0 (main_v1467 : DevRef τ sig))
    (sel := W V0 (main_v1468 : DevRef τ sig)) (col := W V0 (main_v1469 : DevRef τ sig)) (c2 := W V0 (main_c_511 : DevRef τ sig))
    (colb := W V0 (main_v1470 : DevRef τ sig)) (cat := W V0 (main_v1471 : DevRef τ sig)) (g := W V0 (main_v1472 : DevRef τ sig))
    (e := W V0 (main_v1473 : DevRef τ sig))
    (nullary_at_idx hostOps1_rising V0 214 rfl) (unary_at_idx hostOps1_rising V0 215 rfl) (binary_at_idx hostOps1_rising V0 216 rfl)
    (nullary_at_idx hostOps1_rising V0 217 rfl) (unary_at_idx hostOps1_rising V0 218 rfl) (binary_at_idx hostOps1_rising V0 219 rfl)
    (ternary_at_idx hostOps1_rising V0 220 rfl) (unary_at_idx hostOps1_rising V0 221 rfl) (nullary_at_idx hostOps1_rising V0 222 rfl)
    (unary_at_idx hostOps1_rising V0 223 rfl) (binary_at_idx hostOps1_rising V0 224 rfl) (binary_at_idx hostOps1_rising V0 225 rfl)
    (unary_at_idx hostOps1_rising V0 226 rfl)

/-- Tap 15 is added to the running sum. -/
theorem W_acc15 : W V0 (main_v1474 : DevRef τ sig) = addf (W V0 (main_v1463 : DevRef τ sig)) (W V0 (main_v1473 : DevRef τ sig)) :=
  binary_at_idx hostOps1_rising V0 227 rfl

/-- Tap 15's row indices were written before the tail and are left alone. -/
theorem W_idx15 : W V0 (main_v772 : DevRef τ sig) = V0 (main_v772 : DevRef τ sig) :=
  after_of_lt hostOps1_rising V0 (by decide)

/-- Tap 16: its value as one term of its row indices, the padded product and the word 320. -/
theorem W_tap16 : W V0 (main_v1484 : DevRef τ sig) = tapTerm (W V0 (main_v819 : DevRef τ sig)) (W V0 (main_v1297 : DevRef τ sig)) 320#32 :=
  tap_compose (idx := W V0 (main_v819 : DevRef τ sig)) (ypad := W V0 (main_v1297 : DevRef τ sig)) (colw := 320#32)
    (c0 := W V0 (main_c_512 : DevRef τ sig)) (z := W V0 (main_v1475 : DevRef τ sig)) (lt := W V0 (main_v1476 : DevRef τ sig))
    (c1 := W V0 (main_c_513 : DevRef τ sig)) (off := W V0 (main_v1477 : DevRef τ sig)) (sum := W V0 (main_v1478 : DevRef τ sig))
    (sel := W V0 (main_v1479 : DevRef τ sig)) (col := W V0 (main_v1480 : DevRef τ sig)) (c2 := W V0 (main_c_514 : DevRef τ sig))
    (colb := W V0 (main_v1481 : DevRef τ sig)) (cat := W V0 (main_v1482 : DevRef τ sig)) (g := W V0 (main_v1483 : DevRef τ sig))
    (e := W V0 (main_v1484 : DevRef τ sig))
    (nullary_at_idx hostOps1_rising V0 228 rfl) (unary_at_idx hostOps1_rising V0 229 rfl) (binary_at_idx hostOps1_rising V0 230 rfl)
    (nullary_at_idx hostOps1_rising V0 231 rfl) (unary_at_idx hostOps1_rising V0 232 rfl) (binary_at_idx hostOps1_rising V0 233 rfl)
    (ternary_at_idx hostOps1_rising V0 234 rfl) (unary_at_idx hostOps1_rising V0 235 rfl) (nullary_at_idx hostOps1_rising V0 236 rfl)
    (unary_at_idx hostOps1_rising V0 237 rfl) (binary_at_idx hostOps1_rising V0 238 rfl) (binary_at_idx hostOps1_rising V0 239 rfl)
    (unary_at_idx hostOps1_rising V0 240 rfl)

/-- Tap 16 is added to the running sum. -/
theorem W_acc16 : W V0 (main_v1485 : DevRef τ sig) = addf (W V0 (main_v1474 : DevRef τ sig)) (W V0 (main_v1484 : DevRef τ sig)) :=
  binary_at_idx hostOps1_rising V0 241 rfl

/-- Tap 16's row indices were written before the tail and are left alone. -/
theorem W_idx16 : W V0 (main_v819 : DevRef τ sig) = V0 (main_v819 : DevRef τ sig) :=
  after_of_lt hostOps1_rising V0 (by decide)

/-- Tap 17: its value as one term of its row indices, the padded product and the word 340. -/
theorem W_tap17 : W V0 (main_v1495 : DevRef τ sig) = tapTerm (W V0 (main_v866 : DevRef τ sig)) (W V0 (main_v1297 : DevRef τ sig)) 340#32 :=
  tap_compose (idx := W V0 (main_v866 : DevRef τ sig)) (ypad := W V0 (main_v1297 : DevRef τ sig)) (colw := 340#32)
    (c0 := W V0 (main_c_515 : DevRef τ sig)) (z := W V0 (main_v1486 : DevRef τ sig)) (lt := W V0 (main_v1487 : DevRef τ sig))
    (c1 := W V0 (main_c_516 : DevRef τ sig)) (off := W V0 (main_v1488 : DevRef τ sig)) (sum := W V0 (main_v1489 : DevRef τ sig))
    (sel := W V0 (main_v1490 : DevRef τ sig)) (col := W V0 (main_v1491 : DevRef τ sig)) (c2 := W V0 (main_c_517 : DevRef τ sig))
    (colb := W V0 (main_v1492 : DevRef τ sig)) (cat := W V0 (main_v1493 : DevRef τ sig)) (g := W V0 (main_v1494 : DevRef τ sig))
    (e := W V0 (main_v1495 : DevRef τ sig))
    (nullary_at_idx hostOps1_rising V0 242 rfl) (unary_at_idx hostOps1_rising V0 243 rfl) (binary_at_idx hostOps1_rising V0 244 rfl)
    (nullary_at_idx hostOps1_rising V0 245 rfl) (unary_at_idx hostOps1_rising V0 246 rfl) (binary_at_idx hostOps1_rising V0 247 rfl)
    (ternary_at_idx hostOps1_rising V0 248 rfl) (unary_at_idx hostOps1_rising V0 249 rfl) (nullary_at_idx hostOps1_rising V0 250 rfl)
    (unary_at_idx hostOps1_rising V0 251 rfl) (binary_at_idx hostOps1_rising V0 252 rfl) (binary_at_idx hostOps1_rising V0 253 rfl)
    (unary_at_idx hostOps1_rising V0 254 rfl)

/-- Tap 17 is added to the running sum. -/
theorem W_acc17 : W V0 (main_v1496 : DevRef τ sig) = addf (W V0 (main_v1485 : DevRef τ sig)) (W V0 (main_v1495 : DevRef τ sig)) :=
  binary_at_idx hostOps1_rising V0 255 rfl

/-- Tap 17's row indices were written before the tail and are left alone. -/
theorem W_idx17 : W V0 (main_v866 : DevRef τ sig) = V0 (main_v866 : DevRef τ sig) :=
  after_of_lt hostOps1_rising V0 (by decide)

/-- Tap 18: its value as one term of its row indices, the padded product and the word 360. -/
theorem W_tap18 : W V0 (main_v1506 : DevRef τ sig) = tapTerm (W V0 (main_v913 : DevRef τ sig)) (W V0 (main_v1297 : DevRef τ sig)) 360#32 :=
  tap_compose (idx := W V0 (main_v913 : DevRef τ sig)) (ypad := W V0 (main_v1297 : DevRef τ sig)) (colw := 360#32)
    (c0 := W V0 (main_c_518 : DevRef τ sig)) (z := W V0 (main_v1497 : DevRef τ sig)) (lt := W V0 (main_v1498 : DevRef τ sig))
    (c1 := W V0 (main_c_519 : DevRef τ sig)) (off := W V0 (main_v1499 : DevRef τ sig)) (sum := W V0 (main_v1500 : DevRef τ sig))
    (sel := W V0 (main_v1501 : DevRef τ sig)) (col := W V0 (main_v1502 : DevRef τ sig)) (c2 := W V0 (main_c_520 : DevRef τ sig))
    (colb := W V0 (main_v1503 : DevRef τ sig)) (cat := W V0 (main_v1504 : DevRef τ sig)) (g := W V0 (main_v1505 : DevRef τ sig))
    (e := W V0 (main_v1506 : DevRef τ sig))
    (nullary_at_idx hostOps1_rising V0 256 rfl) (unary_at_idx hostOps1_rising V0 257 rfl) (binary_at_idx hostOps1_rising V0 258 rfl)
    (nullary_at_idx hostOps1_rising V0 259 rfl) (unary_at_idx hostOps1_rising V0 260 rfl) (binary_at_idx hostOps1_rising V0 261 rfl)
    (ternary_at_idx hostOps1_rising V0 262 rfl) (unary_at_idx hostOps1_rising V0 263 rfl) (nullary_at_idx hostOps1_rising V0 264 rfl)
    (unary_at_idx hostOps1_rising V0 265 rfl) (binary_at_idx hostOps1_rising V0 266 rfl) (binary_at_idx hostOps1_rising V0 267 rfl)
    (unary_at_idx hostOps1_rising V0 268 rfl)

/-- Tap 18 is added to the running sum. -/
theorem W_acc18 : W V0 (main_v1507 : DevRef τ sig) = addf (W V0 (main_v1496 : DevRef τ sig)) (W V0 (main_v1506 : DevRef τ sig)) :=
  binary_at_idx hostOps1_rising V0 269 rfl

/-- Tap 18's row indices were written before the tail and are left alone. -/
theorem W_idx18 : W V0 (main_v913 : DevRef τ sig) = V0 (main_v913 : DevRef τ sig) :=
  after_of_lt hostOps1_rising V0 (by decide)

/-- Tap 19: its value as one term of its row indices, the padded product and the word 380. -/
theorem W_tap19 : W V0 (main_v1517 : DevRef τ sig) = tapTerm (W V0 (main_v960 : DevRef τ sig)) (W V0 (main_v1297 : DevRef τ sig)) 380#32 :=
  tap_compose (idx := W V0 (main_v960 : DevRef τ sig)) (ypad := W V0 (main_v1297 : DevRef τ sig)) (colw := 380#32)
    (c0 := W V0 (main_c_521 : DevRef τ sig)) (z := W V0 (main_v1508 : DevRef τ sig)) (lt := W V0 (main_v1509 : DevRef τ sig))
    (c1 := W V0 (main_c_522 : DevRef τ sig)) (off := W V0 (main_v1510 : DevRef τ sig)) (sum := W V0 (main_v1511 : DevRef τ sig))
    (sel := W V0 (main_v1512 : DevRef τ sig)) (col := W V0 (main_v1513 : DevRef τ sig)) (c2 := W V0 (main_c_523 : DevRef τ sig))
    (colb := W V0 (main_v1514 : DevRef τ sig)) (cat := W V0 (main_v1515 : DevRef τ sig)) (g := W V0 (main_v1516 : DevRef τ sig))
    (e := W V0 (main_v1517 : DevRef τ sig))
    (nullary_at_idx hostOps1_rising V0 270 rfl) (unary_at_idx hostOps1_rising V0 271 rfl) (binary_at_idx hostOps1_rising V0 272 rfl)
    (nullary_at_idx hostOps1_rising V0 273 rfl) (unary_at_idx hostOps1_rising V0 274 rfl) (binary_at_idx hostOps1_rising V0 275 rfl)
    (ternary_at_idx hostOps1_rising V0 276 rfl) (unary_at_idx hostOps1_rising V0 277 rfl) (nullary_at_idx hostOps1_rising V0 278 rfl)
    (unary_at_idx hostOps1_rising V0 279 rfl) (binary_at_idx hostOps1_rising V0 280 rfl) (binary_at_idx hostOps1_rising V0 281 rfl)
    (unary_at_idx hostOps1_rising V0 282 rfl)

/-- Tap 19 is added to the running sum. -/
theorem W_acc19 : W V0 (main_v1518 : DevRef τ sig) = addf (W V0 (main_v1507 : DevRef τ sig)) (W V0 (main_v1517 : DevRef τ sig)) :=
  binary_at_idx hostOps1_rising V0 283 rfl

/-- Tap 19's row indices were written before the tail and are left alone. -/
theorem W_idx19 : W V0 (main_v960 : DevRef τ sig) = V0 (main_v960 : DevRef τ sig) :=
  after_of_lt hostOps1_rising V0 (by decide)

/-- Tap 20: its value as one term of its row indices, the padded product and the word 400. -/
theorem W_tap20 : W V0 (main_v1528 : DevRef τ sig) = tapTerm (W V0 (main_v1007 : DevRef τ sig)) (W V0 (main_v1297 : DevRef τ sig)) 400#32 :=
  tap_compose (idx := W V0 (main_v1007 : DevRef τ sig)) (ypad := W V0 (main_v1297 : DevRef τ sig)) (colw := 400#32)
    (c0 := W V0 (main_c_524 : DevRef τ sig)) (z := W V0 (main_v1519 : DevRef τ sig)) (lt := W V0 (main_v1520 : DevRef τ sig))
    (c1 := W V0 (main_c_525 : DevRef τ sig)) (off := W V0 (main_v1521 : DevRef τ sig)) (sum := W V0 (main_v1522 : DevRef τ sig))
    (sel := W V0 (main_v1523 : DevRef τ sig)) (col := W V0 (main_v1524 : DevRef τ sig)) (c2 := W V0 (main_c_526 : DevRef τ sig))
    (colb := W V0 (main_v1525 : DevRef τ sig)) (cat := W V0 (main_v1526 : DevRef τ sig)) (g := W V0 (main_v1527 : DevRef τ sig))
    (e := W V0 (main_v1528 : DevRef τ sig))
    (nullary_at_idx hostOps1_rising V0 284 rfl) (unary_at_idx hostOps1_rising V0 285 rfl) (binary_at_idx hostOps1_rising V0 286 rfl)
    (nullary_at_idx hostOps1_rising V0 287 rfl) (unary_at_idx hostOps1_rising V0 288 rfl) (binary_at_idx hostOps1_rising V0 289 rfl)
    (ternary_at_idx hostOps1_rising V0 290 rfl) (unary_at_idx hostOps1_rising V0 291 rfl) (nullary_at_idx hostOps1_rising V0 292 rfl)
    (unary_at_idx hostOps1_rising V0 293 rfl) (binary_at_idx hostOps1_rising V0 294 rfl) (binary_at_idx hostOps1_rising V0 295 rfl)
    (unary_at_idx hostOps1_rising V0 296 rfl)

/-- Tap 20 is added to the running sum. -/
theorem W_acc20 : W V0 (main_v1529 : DevRef τ sig) = addf (W V0 (main_v1518 : DevRef τ sig)) (W V0 (main_v1528 : DevRef τ sig)) :=
  binary_at_idx hostOps1_rising V0 297 rfl

/-- Tap 20's row indices were written before the tail and are left alone. -/
theorem W_idx20 : W V0 (main_v1007 : DevRef τ sig) = V0 (main_v1007 : DevRef τ sig) :=
  after_of_lt hostOps1_rising V0 (by decide)

/-- Tap 21: its value as one term of its row indices, the padded product and the word 420. -/
theorem W_tap21 : W V0 (main_v1539 : DevRef τ sig) = tapTerm (W V0 (main_v1054 : DevRef τ sig)) (W V0 (main_v1297 : DevRef τ sig)) 420#32 :=
  tap_compose (idx := W V0 (main_v1054 : DevRef τ sig)) (ypad := W V0 (main_v1297 : DevRef τ sig)) (colw := 420#32)
    (c0 := W V0 (main_c_527 : DevRef τ sig)) (z := W V0 (main_v1530 : DevRef τ sig)) (lt := W V0 (main_v1531 : DevRef τ sig))
    (c1 := W V0 (main_c_528 : DevRef τ sig)) (off := W V0 (main_v1532 : DevRef τ sig)) (sum := W V0 (main_v1533 : DevRef τ sig))
    (sel := W V0 (main_v1534 : DevRef τ sig)) (col := W V0 (main_v1535 : DevRef τ sig)) (c2 := W V0 (main_c_529 : DevRef τ sig))
    (colb := W V0 (main_v1536 : DevRef τ sig)) (cat := W V0 (main_v1537 : DevRef τ sig)) (g := W V0 (main_v1538 : DevRef τ sig))
    (e := W V0 (main_v1539 : DevRef τ sig))
    (nullary_at_idx hostOps1_rising V0 298 rfl) (unary_at_idx hostOps1_rising V0 299 rfl) (binary_at_idx hostOps1_rising V0 300 rfl)
    (nullary_at_idx hostOps1_rising V0 301 rfl) (unary_at_idx hostOps1_rising V0 302 rfl) (binary_at_idx hostOps1_rising V0 303 rfl)
    (ternary_at_idx hostOps1_rising V0 304 rfl) (unary_at_idx hostOps1_rising V0 305 rfl) (nullary_at_idx hostOps1_rising V0 306 rfl)
    (unary_at_idx hostOps1_rising V0 307 rfl) (binary_at_idx hostOps1_rising V0 308 rfl) (binary_at_idx hostOps1_rising V0 309 rfl)
    (unary_at_idx hostOps1_rising V0 310 rfl)

/-- Tap 21 is added to the running sum. -/
theorem W_acc21 : W V0 (main_v1540 : DevRef τ sig) = addf (W V0 (main_v1529 : DevRef τ sig)) (W V0 (main_v1539 : DevRef τ sig)) :=
  binary_at_idx hostOps1_rising V0 311 rfl

/-- Tap 21's row indices were written before the tail and are left alone. -/
theorem W_idx21 : W V0 (main_v1054 : DevRef τ sig) = V0 (main_v1054 : DevRef τ sig) :=
  after_of_lt hostOps1_rising V0 (by decide)

/-- Tap 22: its value as one term of its row indices, the padded product and the word 440. -/
theorem W_tap22 : W V0 (main_v1550 : DevRef τ sig) = tapTerm (W V0 (main_v1101 : DevRef τ sig)) (W V0 (main_v1297 : DevRef τ sig)) 440#32 :=
  tap_compose (idx := W V0 (main_v1101 : DevRef τ sig)) (ypad := W V0 (main_v1297 : DevRef τ sig)) (colw := 440#32)
    (c0 := W V0 (main_c_530 : DevRef τ sig)) (z := W V0 (main_v1541 : DevRef τ sig)) (lt := W V0 (main_v1542 : DevRef τ sig))
    (c1 := W V0 (main_c_531 : DevRef τ sig)) (off := W V0 (main_v1543 : DevRef τ sig)) (sum := W V0 (main_v1544 : DevRef τ sig))
    (sel := W V0 (main_v1545 : DevRef τ sig)) (col := W V0 (main_v1546 : DevRef τ sig)) (c2 := W V0 (main_c_532 : DevRef τ sig))
    (colb := W V0 (main_v1547 : DevRef τ sig)) (cat := W V0 (main_v1548 : DevRef τ sig)) (g := W V0 (main_v1549 : DevRef τ sig))
    (e := W V0 (main_v1550 : DevRef τ sig))
    (nullary_at_idx hostOps1_rising V0 312 rfl) (unary_at_idx hostOps1_rising V0 313 rfl) (binary_at_idx hostOps1_rising V0 314 rfl)
    (nullary_at_idx hostOps1_rising V0 315 rfl) (unary_at_idx hostOps1_rising V0 316 rfl) (binary_at_idx hostOps1_rising V0 317 rfl)
    (ternary_at_idx hostOps1_rising V0 318 rfl) (unary_at_idx hostOps1_rising V0 319 rfl) (nullary_at_idx hostOps1_rising V0 320 rfl)
    (unary_at_idx hostOps1_rising V0 321 rfl) (binary_at_idx hostOps1_rising V0 322 rfl) (binary_at_idx hostOps1_rising V0 323 rfl)
    (unary_at_idx hostOps1_rising V0 324 rfl)

/-- Tap 22 is added to the running sum. -/
theorem W_acc22 : W V0 (main_v1551 : DevRef τ sig) = addf (W V0 (main_v1540 : DevRef τ sig)) (W V0 (main_v1550 : DevRef τ sig)) :=
  binary_at_idx hostOps1_rising V0 325 rfl

/-- Tap 22's row indices were written before the tail and are left alone. -/
theorem W_idx22 : W V0 (main_v1101 : DevRef τ sig) = V0 (main_v1101 : DevRef τ sig) :=
  after_of_lt hostOps1_rising V0 (by decide)

/-- Tap 23: its value as one term of its row indices, the padded product and the word 460. -/
theorem W_tap23 : W V0 (main_v1561 : DevRef τ sig) = tapTerm (W V0 (main_v1148 : DevRef τ sig)) (W V0 (main_v1297 : DevRef τ sig)) 460#32 :=
  tap_compose (idx := W V0 (main_v1148 : DevRef τ sig)) (ypad := W V0 (main_v1297 : DevRef τ sig)) (colw := 460#32)
    (c0 := W V0 (main_c_533 : DevRef τ sig)) (z := W V0 (main_v1552 : DevRef τ sig)) (lt := W V0 (main_v1553 : DevRef τ sig))
    (c1 := W V0 (main_c_534 : DevRef τ sig)) (off := W V0 (main_v1554 : DevRef τ sig)) (sum := W V0 (main_v1555 : DevRef τ sig))
    (sel := W V0 (main_v1556 : DevRef τ sig)) (col := W V0 (main_v1557 : DevRef τ sig)) (c2 := W V0 (main_c_535 : DevRef τ sig))
    (colb := W V0 (main_v1558 : DevRef τ sig)) (cat := W V0 (main_v1559 : DevRef τ sig)) (g := W V0 (main_v1560 : DevRef τ sig))
    (e := W V0 (main_v1561 : DevRef τ sig))
    (nullary_at_idx hostOps1_rising V0 326 rfl) (unary_at_idx hostOps1_rising V0 327 rfl) (binary_at_idx hostOps1_rising V0 328 rfl)
    (nullary_at_idx hostOps1_rising V0 329 rfl) (unary_at_idx hostOps1_rising V0 330 rfl) (binary_at_idx hostOps1_rising V0 331 rfl)
    (ternary_at_idx hostOps1_rising V0 332 rfl) (unary_at_idx hostOps1_rising V0 333 rfl) (nullary_at_idx hostOps1_rising V0 334 rfl)
    (unary_at_idx hostOps1_rising V0 335 rfl) (binary_at_idx hostOps1_rising V0 336 rfl) (binary_at_idx hostOps1_rising V0 337 rfl)
    (unary_at_idx hostOps1_rising V0 338 rfl)

/-- Tap 23 is added to the running sum. -/
theorem W_acc23 : W V0 (main_v1562 : DevRef τ sig) = addf (W V0 (main_v1551 : DevRef τ sig)) (W V0 (main_v1561 : DevRef τ sig)) :=
  binary_at_idx hostOps1_rising V0 339 rfl

/-- Tap 23's row indices were written before the tail and are left alone. -/
theorem W_idx23 : W V0 (main_v1148 : DevRef τ sig) = V0 (main_v1148 : DevRef τ sig) :=
  after_of_lt hostOps1_rising V0 (by decide)

/-- Tap 24: its value as one term of its row indices, the padded product and the word 480. -/
theorem W_tap24 : W V0 (main_v1572 : DevRef τ sig) = tapTerm (W V0 (main_v1195 : DevRef τ sig)) (W V0 (main_v1297 : DevRef τ sig)) 480#32 :=
  tap_compose (idx := W V0 (main_v1195 : DevRef τ sig)) (ypad := W V0 (main_v1297 : DevRef τ sig)) (colw := 480#32)
    (c0 := W V0 (main_c_536 : DevRef τ sig)) (z := W V0 (main_v1563 : DevRef τ sig)) (lt := W V0 (main_v1564 : DevRef τ sig))
    (c1 := W V0 (main_c_537 : DevRef τ sig)) (off := W V0 (main_v1565 : DevRef τ sig)) (sum := W V0 (main_v1566 : DevRef τ sig))
    (sel := W V0 (main_v1567 : DevRef τ sig)) (col := W V0 (main_v1568 : DevRef τ sig)) (c2 := W V0 (main_c_538 : DevRef τ sig))
    (colb := W V0 (main_v1569 : DevRef τ sig)) (cat := W V0 (main_v1570 : DevRef τ sig)) (g := W V0 (main_v1571 : DevRef τ sig))
    (e := W V0 (main_v1572 : DevRef τ sig))
    (nullary_at_idx hostOps1_rising V0 340 rfl) (unary_at_idx hostOps1_rising V0 341 rfl) (binary_at_idx hostOps1_rising V0 342 rfl)
    (nullary_at_idx hostOps1_rising V0 343 rfl) (unary_at_idx hostOps1_rising V0 344 rfl) (binary_at_idx hostOps1_rising V0 345 rfl)
    (ternary_at_idx hostOps1_rising V0 346 rfl) (unary_at_idx hostOps1_rising V0 347 rfl) (nullary_at_idx hostOps1_rising V0 348 rfl)
    (unary_at_idx hostOps1_rising V0 349 rfl) (binary_at_idx hostOps1_rising V0 350 rfl) (binary_at_idx hostOps1_rising V0 351 rfl)
    (unary_at_idx hostOps1_rising V0 352 rfl)

/-- Tap 24 is added to the running sum. -/
theorem W_acc24 : W V0 (main_v1573 : DevRef τ sig) = addf (W V0 (main_v1562 : DevRef τ sig)) (W V0 (main_v1572 : DevRef τ sig)) :=
  binary_at_idx hostOps1_rising V0 353 rfl

/-- Tap 24's row indices were written before the tail and are left alone. -/
theorem W_idx24 : W V0 (main_v1195 : DevRef τ sig) = V0 (main_v1195 : DevRef τ sig) :=
  after_of_lt hostOps1_rising V0 (by decide)

/-- Tap 25: its value as one term of its row indices, the padded product and the word 500. -/
theorem W_tap25 : W V0 (main_v1583 : DevRef τ sig) = tapTerm (W V0 (main_v1242 : DevRef τ sig)) (W V0 (main_v1297 : DevRef τ sig)) 500#32 :=
  tap_compose (idx := W V0 (main_v1242 : DevRef τ sig)) (ypad := W V0 (main_v1297 : DevRef τ sig)) (colw := 500#32)
    (c0 := W V0 (main_c_539 : DevRef τ sig)) (z := W V0 (main_v1574 : DevRef τ sig)) (lt := W V0 (main_v1575 : DevRef τ sig))
    (c1 := W V0 (main_c_540 : DevRef τ sig)) (off := W V0 (main_v1576 : DevRef τ sig)) (sum := W V0 (main_v1577 : DevRef τ sig))
    (sel := W V0 (main_v1578 : DevRef τ sig)) (col := W V0 (main_v1579 : DevRef τ sig)) (c2 := W V0 (main_c_541 : DevRef τ sig))
    (colb := W V0 (main_v1580 : DevRef τ sig)) (cat := W V0 (main_v1581 : DevRef τ sig)) (g := W V0 (main_v1582 : DevRef τ sig))
    (e := W V0 (main_v1583 : DevRef τ sig))
    (nullary_at_idx hostOps1_rising V0 354 rfl) (unary_at_idx hostOps1_rising V0 355 rfl) (binary_at_idx hostOps1_rising V0 356 rfl)
    (nullary_at_idx hostOps1_rising V0 357 rfl) (unary_at_idx hostOps1_rising V0 358 rfl) (binary_at_idx hostOps1_rising V0 359 rfl)
    (ternary_at_idx hostOps1_rising V0 360 rfl) (unary_at_idx hostOps1_rising V0 361 rfl) (nullary_at_idx hostOps1_rising V0 362 rfl)
    (unary_at_idx hostOps1_rising V0 363 rfl) (binary_at_idx hostOps1_rising V0 364 rfl) (binary_at_idx hostOps1_rising V0 365 rfl)
    (unary_at_idx hostOps1_rising V0 366 rfl)

/-- Tap 25 is added to the running sum. -/
theorem W_acc25 : W V0 (main_v1584 : DevRef τ sig) = addf (W V0 (main_v1573 : DevRef τ sig)) (W V0 (main_v1583 : DevRef τ sig)) :=
  binary_at_idx hostOps1_rising V0 367 rfl

/-- Tap 25's row indices were written before the tail and are left alone. -/
theorem W_idx25 : W V0 (main_v1242 : DevRef τ sig) = V0 (main_v1242 : DevRef τ sig) :=
  after_of_lt hostOps1_rising V0 (by decide)

/-- Tap 26: its value as one term of its row indices, the padded product and the word 520. -/
theorem W_tap26 : W V0 (main_v1594 : DevRef τ sig) = tapTerm (W V0 (main_v1289 : DevRef τ sig)) (W V0 (main_v1297 : DevRef τ sig)) 520#32 :=
  tap_compose (idx := W V0 (main_v1289 : DevRef τ sig)) (ypad := W V0 (main_v1297 : DevRef τ sig)) (colw := 520#32)
    (c0 := W V0 (main_c_542 : DevRef τ sig)) (z := W V0 (main_v1585 : DevRef τ sig)) (lt := W V0 (main_v1586 : DevRef τ sig))
    (c1 := W V0 (main_c_543 : DevRef τ sig)) (off := W V0 (main_v1587 : DevRef τ sig)) (sum := W V0 (main_v1588 : DevRef τ sig))
    (sel := W V0 (main_v1589 : DevRef τ sig)) (col := W V0 (main_v1590 : DevRef τ sig)) (c2 := W V0 (main_c_544 : DevRef τ sig))
    (colb := W V0 (main_v1591 : DevRef τ sig)) (cat := W V0 (main_v1592 : DevRef τ sig)) (g := W V0 (main_v1593 : DevRef τ sig))
    (e := W V0 (main_v1594 : DevRef τ sig))
    (nullary_at_idx hostOps1_rising V0 368 rfl) (unary_at_idx hostOps1_rising V0 369 rfl) (binary_at_idx hostOps1_rising V0 370 rfl)
    (nullary_at_idx hostOps1_rising V0 371 rfl) (unary_at_idx hostOps1_rising V0 372 rfl) (binary_at_idx hostOps1_rising V0 373 rfl)
    (ternary_at_idx hostOps1_rising V0 374 rfl) (unary_at_idx hostOps1_rising V0 375 rfl) (nullary_at_idx hostOps1_rising V0 376 rfl)
    (unary_at_idx hostOps1_rising V0 377 rfl) (binary_at_idx hostOps1_rising V0 378 rfl) (binary_at_idx hostOps1_rising V0 379 rfl)
    (unary_at_idx hostOps1_rising V0 380 rfl)

/-- Tap 26 is added to the running sum. -/
theorem W_acc26 : W V0 (main_v1595 : DevRef τ sig) = addf (W V0 (main_v1584 : DevRef τ sig)) (W V0 (main_v1594 : DevRef τ sig)) :=
  binary_at_idx hostOps1_rising V0 381 rfl

/-- Tap 26's row indices were written before the tail and are left alone. -/
theorem W_idx26 : W V0 (main_v1289 : DevRef τ sig) = V0 (main_v1289 : DevRef τ sig) :=
  after_of_lt hostOps1_rising V0 (by decide)

/-! ## The result: the bias plus the 27 taps, in order -/

/-- Tap k's row indices, as the buffers held them before the tail. -/
abbrev idxOf : Fin 27 → IVec S200000 32 :=
  ![V0 (main_v67 : DevRef τ sig), V0 (main_v114 : DevRef τ sig), V0 (main_v161 : DevRef τ sig),
    V0 (main_v208 : DevRef τ sig), V0 (main_v255 : DevRef τ sig), V0 (main_v302 : DevRef τ sig),
    V0 (main_v349 : DevRef τ sig), V0 (main_v396 : DevRef τ sig), V0 (main_v443 : DevRef τ sig),
    V0 (main_v490 : DevRef τ sig), V0 (main_v537 : DevRef τ sig), V0 (main_v584 : DevRef τ sig),
    V0 (main_v631 : DevRef τ sig), V0 (main_v678 : DevRef τ sig), V0 (main_v725 : DevRef τ sig),
    V0 (main_v772 : DevRef τ sig), V0 (main_v819 : DevRef τ sig), V0 (main_v866 : DevRef τ sig),
    V0 (main_v913 : DevRef τ sig), V0 (main_v960 : DevRef τ sig), V0 (main_v1007 : DevRef τ sig),
    V0 (main_v1054 : DevRef τ sig), V0 (main_v1101 : DevRef τ sig), V0 (main_v1148 : DevRef τ sig),
    V0 (main_v1195 : DevRef τ sig), V0 (main_v1242 : DevRef τ sig), V0 (main_v1289 : DevRef τ sig)]

/-- Tap k's value in terms of the contents before the tail: the one term, at the tap's row indices, the padded product
    and the word 20·k. -/
abbrev tapOf (k : Fin 27) : FVec F S200000x20 .f32 :=
  tapTerm (idxOf V0 k) (ypadTerm (V0 (main_v1295 : DevRef τ sig))) (BitVec.ofNat 32 (20 * k.val))

/-- The 27 taps in order. -/
theorem finRange27 : List.finRange 27 = [0, 1, 2, 3, 4, 5, 6, 7, 8, 9, 10, 11, 12, 13, 14, 15, 16, 17, 18, 19, 20, 21, 22, 23, 24, 25, 26] := by
  decide

/-- Tap 0's value from the contents before the tail. -/
theorem W_tap0' : W V0 (main_v1308 : DevRef τ sig) = tapOf V0 (0 : Fin 27) :=
  (W_tap0 V0).trans (congrArg₂ (fun i y => tapTerm i y 0#32) (W_idx0 V0) (W_ypad V0))

/-- Tap 1's value from the contents before the tail. -/
theorem W_tap1' : W V0 (main_v1319 : DevRef τ sig) = tapOf V0 (1 : Fin 27) :=
  (W_tap1 V0).trans (congrArg₂ (fun i y => tapTerm i y 20#32) (W_idx1 V0) (W_ypad V0))

/-- Tap 2's value from the contents before the tail. -/
theorem W_tap2' : W V0 (main_v1330 : DevRef τ sig) = tapOf V0 (2 : Fin 27) :=
  (W_tap2 V0).trans (congrArg₂ (fun i y => tapTerm i y 40#32) (W_idx2 V0) (W_ypad V0))

/-- Tap 3's value from the contents before the tail. -/
theorem W_tap3' : W V0 (main_v1341 : DevRef τ sig) = tapOf V0 (3 : Fin 27) :=
  (W_tap3 V0).trans (congrArg₂ (fun i y => tapTerm i y 60#32) (W_idx3 V0) (W_ypad V0))

/-- Tap 4's value from the contents before the tail. -/
theorem W_tap4' : W V0 (main_v1352 : DevRef τ sig) = tapOf V0 (4 : Fin 27) :=
  (W_tap4 V0).trans (congrArg₂ (fun i y => tapTerm i y 80#32) (W_idx4 V0) (W_ypad V0))

/-- Tap 5's value from the contents before the tail. -/
theorem W_tap5' : W V0 (main_v1363 : DevRef τ sig) = tapOf V0 (5 : Fin 27) :=
  (W_tap5 V0).trans (congrArg₂ (fun i y => tapTerm i y 100#32) (W_idx5 V0) (W_ypad V0))

/-- Tap 6's value from the contents before the tail. -/
theorem W_tap6' : W V0 (main_v1374 : DevRef τ sig) = tapOf V0 (6 : Fin 27) :=
  (W_tap6 V0).trans (congrArg₂ (fun i y => tapTerm i y 120#32) (W_idx6 V0) (W_ypad V0))

/-- Tap 7's value from the contents before the tail. -/
theorem W_tap7' : W V0 (main_v1385 : DevRef τ sig) = tapOf V0 (7 : Fin 27) :=
  (W_tap7 V0).trans (congrArg₂ (fun i y => tapTerm i y 140#32) (W_idx7 V0) (W_ypad V0))

/-- Tap 8's value from the contents before the tail. -/
theorem W_tap8' : W V0 (main_v1396 : DevRef τ sig) = tapOf V0 (8 : Fin 27) :=
  (W_tap8 V0).trans (congrArg₂ (fun i y => tapTerm i y 160#32) (W_idx8 V0) (W_ypad V0))

/-- Tap 9's value from the contents before the tail. -/
theorem W_tap9' : W V0 (main_v1407 : DevRef τ sig) = tapOf V0 (9 : Fin 27) :=
  (W_tap9 V0).trans (congrArg₂ (fun i y => tapTerm i y 180#32) (W_idx9 V0) (W_ypad V0))

/-- Tap 10's value from the contents before the tail. -/
theorem W_tap10' : W V0 (main_v1418 : DevRef τ sig) = tapOf V0 (10 : Fin 27) :=
  (W_tap10 V0).trans (congrArg₂ (fun i y => tapTerm i y 200#32) (W_idx10 V0) (W_ypad V0))

/-- Tap 11's value from the contents before the tail. -/
theorem W_tap11' : W V0 (main_v1429 : DevRef τ sig) = tapOf V0 (11 : Fin 27) :=
  (W_tap11 V0).trans (congrArg₂ (fun i y => tapTerm i y 220#32) (W_idx11 V0) (W_ypad V0))

/-- Tap 12's value from the contents before the tail. -/
theorem W_tap12' : W V0 (main_v1440 : DevRef τ sig) = tapOf V0 (12 : Fin 27) :=
  (W_tap12 V0).trans (congrArg₂ (fun i y => tapTerm i y 240#32) (W_idx12 V0) (W_ypad V0))

/-- Tap 13's value from the contents before the tail. -/
theorem W_tap13' : W V0 (main_v1451 : DevRef τ sig) = tapOf V0 (13 : Fin 27) :=
  (W_tap13 V0).trans (congrArg₂ (fun i y => tapTerm i y 260#32) (W_idx13 V0) (W_ypad V0))

/-- Tap 14's value from the contents before the tail. -/
theorem W_tap14' : W V0 (main_v1462 : DevRef τ sig) = tapOf V0 (14 : Fin 27) :=
  (W_tap14 V0).trans (congrArg₂ (fun i y => tapTerm i y 280#32) (W_idx14 V0) (W_ypad V0))

/-- Tap 15's value from the contents before the tail. -/
theorem W_tap15' : W V0 (main_v1473 : DevRef τ sig) = tapOf V0 (15 : Fin 27) :=
  (W_tap15 V0).trans (congrArg₂ (fun i y => tapTerm i y 300#32) (W_idx15 V0) (W_ypad V0))

/-- Tap 16's value from the contents before the tail. -/
theorem W_tap16' : W V0 (main_v1484 : DevRef τ sig) = tapOf V0 (16 : Fin 27) :=
  (W_tap16 V0).trans (congrArg₂ (fun i y => tapTerm i y 320#32) (W_idx16 V0) (W_ypad V0))

/-- Tap 17's value from the contents before the tail. -/
theorem W_tap17' : W V0 (main_v1495 : DevRef τ sig) = tapOf V0 (17 : Fin 27) :=
  (W_tap17 V0).trans (congrArg₂ (fun i y => tapTerm i y 340#32) (W_idx17 V0) (W_ypad V0))

/-- Tap 18's value from the contents before the tail. -/
theorem W_tap18' : W V0 (main_v1506 : DevRef τ sig) = tapOf V0 (18 : Fin 27) :=
  (W_tap18 V0).trans (congrArg₂ (fun i y => tapTerm i y 360#32) (W_idx18 V0) (W_ypad V0))

/-- Tap 19's value from the contents before the tail. -/
theorem W_tap19' : W V0 (main_v1517 : DevRef τ sig) = tapOf V0 (19 : Fin 27) :=
  (W_tap19 V0).trans (congrArg₂ (fun i y => tapTerm i y 380#32) (W_idx19 V0) (W_ypad V0))

/-- Tap 20's value from the contents before the tail. -/
theorem W_tap20' : W V0 (main_v1528 : DevRef τ sig) = tapOf V0 (20 : Fin 27) :=
  (W_tap20 V0).trans (congrArg₂ (fun i y => tapTerm i y 400#32) (W_idx20 V0) (W_ypad V0))

/-- Tap 21's value from the contents before the tail. -/
theorem W_tap21' : W V0 (main_v1539 : DevRef τ sig) = tapOf V0 (21 : Fin 27) :=
  (W_tap21 V0).trans (congrArg₂ (fun i y => tapTerm i y 420#32) (W_idx21 V0) (W_ypad V0))

/-- Tap 22's value from the contents before the tail. -/
theorem W_tap22' : W V0 (main_v1550 : DevRef τ sig) = tapOf V0 (22 : Fin 27) :=
  (W_tap22 V0).trans (congrArg₂ (fun i y => tapTerm i y 440#32) (W_idx22 V0) (W_ypad V0))

/-- Tap 23's value from the contents before the tail. -/
theorem W_tap23' : W V0 (main_v1561 : DevRef τ sig) = tapOf V0 (23 : Fin 27) :=
  (W_tap23 V0).trans (congrArg₂ (fun i y => tapTerm i y 460#32) (W_idx23 V0) (W_ypad V0))

/-- Tap 24's value from the contents before the tail. -/
theorem W_tap24' : W V0 (main_v1572 : DevRef τ sig) = tapOf V0 (24 : Fin 27) :=
  (W_tap24 V0).trans (congrArg₂ (fun i y => tapTerm i y 480#32) (W_idx24 V0) (W_ypad V0))

/-- Tap 25's value from the contents before the tail. -/
theorem W_tap25' : W V0 (main_v1583 : DevRef τ sig) = tapOf V0 (25 : Fin 27) :=
  (W_tap25 V0).trans (congrArg₂ (fun i y => tapTerm i y 500#32) (W_idx25 V0) (W_ypad V0))

/-- Tap 26's value from the contents before the tail. -/
theorem W_tap26' : W V0 (main_v1594 : DevRef τ sig) = tapOf V0 (26 : Fin 27) :=
  (W_tap26 V0).trans (congrArg₂ (fun i y => tapTerm i y 520#32) (W_idx26 V0) (W_ypad V0))

/-- THE RESULT: the bias spread over the rows plus the 27 taps' values, added in order. -/
theorem W_result : W V0 (main_v1595 : DevRef τ sig)
    = (List.finRange 27).foldl (fun acc k => addf acc (tapOf V0 k)) (biasTerm (V0 (main_arg2 : DevRef τ sig))) := by
  rw [finRange27]
  simp only [List.foldl_cons, List.foldl_nil]
  rw [
    W_acc26, W_tap26', W_acc25, W_tap25', W_acc24, W_tap24', W_acc23, W_tap23',
    W_acc22, W_tap22', W_acc21, W_tap21', W_acc20, W_tap20', W_acc19, W_tap19',
    W_acc18, W_tap18', W_acc17, W_tap17', W_acc16, W_tap16', W_acc15, W_tap15',
    W_acc14, W_tap14', W_acc13, W_tap13', W_acc12, W_tap12', W_acc11, W_tap11',
    W_acc10, W_tap10', W_acc9, W_tap9', W_acc8, W_tap8', W_acc7, W_tap7',
    W_acc6, W_tap6', W_acc5, W_tap5', W_acc4, W_tap4', W_acc3, W_tap3',
    W_acc2, W_tap2', W_acc1, W_tap1', W_acc0, W_tap0',
    W_bias]

end ReadBack

/-! ## The result at an index, over the extended reals -/

section AtIdeal
variable (V0 : Valuation τ sig (Elt Ideal))

/-- A running sum of arrays, read at an index, is the running sum of the entries. -/
theorem foldl_addf_apply {α : Type} {s : Shape} {φ : FTy} (t : α → FVec Ideal s φ) (i : s.Idx) :
    ∀ (l : List α) (b : FVec Ideal s φ),
      (l.foldl (fun acc k => addf acc (t k)) b) i = l.foldl (fun acc k => acc + t k i) (b i)
  | [], _ => rfl
  | k :: l, b => foldl_addf_apply t i l (addf b (t k))

/-- The bias spread over the rows reads, at (p, c), the bias at c. -/
theorem biasTerm_apply (b : FVec Ideal S20 .f32) (p : Fin 200000) (c : Fin 20) :
    biasTerm b (ix2 p c) = b (ix1 c) :=
  broadcastInDim_apply _ bcast_S20_S200000x20_1 b (ix2 p c) (ix1 c) fun a =>
    match a with
    | ⟨0, _⟩ => rfl

/-- The word 20·k, k below 27, reads 20·k as a signed integer. -/
theorem colw_toInt (k : Fin 27) : (BitVec.ofNat 32 (20 * k.val)).toInt = ((20 * k.val : ℕ) : ℤ) := by
  have hk := k.isLt
  have h2 : (BitVec.ofNat 32 (20 * k.val)).toNat = 20 * k.val := by
    rw [BitVec.toNat_ofNat]
    omega
  rw [BitVec.toInt_eq_toNat_of_lt (by rw [h2]; omega), h2]

/-- Tap k's entry (p, c): the product's entry at row idx[p] and column 20·k + c where idx[p] is a row of the product,
    zero where it is the appended row. -/
def tapEntry (k : Fin 27) (p : Fin 200000) (c : Fin 20) : EReal :=
  if h : (idxOf V0 k (ix1 p)).toInt.toNat < 200000 then
    V0 (main_v1295 : DevRef τ sig) (ix2 (⟨(idxOf V0 k (ix1 p)).toInt.toNat, h⟩ : Fin 200000)
      (⟨20 * k.val + c.val, by have := k.isLt; have := c.isLt; omega⟩ : Fin 640))
  else 0

/-- Tap k's value at (p, c), when its row indices lie in [0, 200000]. -/
theorem tapOf_apply (k : Fin 27)
    (hidx : ∀ p : Fin 200000, 0 ≤ (idxOf V0 k (ix1 p)).toInt ∧ (idxOf V0 k (ix1 p)).toInt ≤ 200000)
    (p : Fin 200000) (c : Fin 20) :
    tapOf V0 k (ix2 p c) = tapEntry V0 k p c :=
  Cert.KerTap.kerTap_ypad_apply (idxOf V0 k) (BitVec.ofNat 32 (20 * k.val)) bcast_S_S200000 bcast_S200000_S200000x1_0
    bcast_S_S200000x1 concatenates_S200000x1_S200000x1_S200000x2_d1
    gather_S200001x640_S200000x2_S200000x20_1_0_n_n_01_1_120_wf bitsLt_bf16_f32 (V0 (main_v1295 : DevRef τ sig))
    bcast_S_S1x640 concatenates_S200000x640_S1x640_S200001x640_d0 k (colw_toInt k) hidx p c

/-- THE RESULT AT (p, c): the bias at c plus the 27 taps' entries, added in order. -/
theorem result_apply
    (hidx : ∀ (k : Fin 27) (p : Fin 200000),
      0 ≤ (idxOf V0 k (ix1 p)).toInt ∧ (idxOf V0 k (ix1 p)).toInt ≤ 200000)
    (p : Fin 200000) (c : Fin 20) :
    W V0 (main_v1595 : DevRef τ sig) (ix2 p c)
      = (List.finRange 27).foldl (fun acc k => acc + tapEntry V0 k p c) (V0 (main_arg2 : DevRef τ sig) (ix1 c)) := by
  rw [W_result, foldl_addf_apply, biasTerm_apply]
  have h : (fun (acc : EReal) (k : Fin 27) => acc + tapOf V0 k (ix2 p c))
      = fun acc k => acc + tapEntry V0 k p c :=
    funext fun acc => funext fun k => by rw [tapOf_apply V0 k (hidx k) p c]
  rw [h]

end AtIdeal

end Cert.KernelIdeal.Tail
end
-- ==== Proof.TapBridge.lean ====
/-
  ONE TAP, BOTH WAYS: the dense-product-then-narrow-gather of the kernel equals the gather-mask-then-multiply of the
  reference, entry by entry, over the extended reals.

  For one tap `k` of the 3×3×3 stencil both programs hold, per output voxel `p`, the neighbour's voxel number
  `nidx[p]` (a word looked up in the coordinate map: −1, or a voxel number below 200000) and the bit `inb[p]`; the tap
  is taken at `p` when `valid[p] = inb[p] ∧ (nidx[p] ≥ 0)`.

  * The reference multiplies the neighbour's feature row, replaced by zeros where the tap is not taken, by the tap's
    128 × 20 weights `W[k]`.
  * The kernel has multiplied ALL feature rows by ALL taps' weights at once — `Y[q, 20·k' + c] = Σ_j X[q, j] · W[k', j, c]`,
    a 200000 × 640 matrix — and appended a row of zeros (row 200000). For the tap it reads the block
    `Y_pad[idx[p], 20·k : 20·k + 20]` with `idx[p] = nidx[p]` where the tap is taken and `idx[p] = 200000` elsewhere.

  Where the tap is taken, `0 ≤ nidx[p] < 200000`, the block is a block of `Y`'s row `nidx[p]`, and its entry `c` is
  `Σ_j X[nidx[p], j] · W[k, j, c]`: the reference's product row. Where it is not taken the kernel reads the zero row
  and the reference multiplies a row of zeros: both are 0 (0 · w = 0 for every extended real w). No finiteness of
  the inputs is used.
-/
import proofs.«120445_j5549097746519_2_alg».proof.Proof.RefTap
import proofs.«120445_j5549097746519_2_alg».proof.Proof.KerTap
import proofs.«120445_j5549097746519_2_alg».proof.Proof.IdxMap
import proofs.«120445_j5549097746519_2_alg».proof.Proof.RefWeight

noncomputable section

namespace Cert.TapBridge

open Idealize.ShloMosaic Idealize.ShloMosaic.ValueIdx Cert.LibBlockGather Cert.LibGatherScatter Cert.LibPlainMatmul
open Cert.RefTap Cert.KerTap Cert.IdxMap Cert.RefWeight
open scoped BigOperators

local notation "S_" => (⟨0, ![]⟩ : Shape)
local notation "S200000" => (⟨1, ![200000]⟩ : Shape)
local notation "S200000x1" => (⟨2, ![200000, 1]⟩ : Shape)
local notation "S200000x2" => (⟨2, ![200000, 2]⟩ : Shape)
local notation "S200000x20" => (⟨2, ![200000, 20]⟩ : Shape)
local notation "S200000x128" => (⟨2, ![200000, 128]⟩ : Shape)
local notation "S200000x640" => (⟨2, ![200000, 640]⟩ : Shape)
local notation "S1x640" => (⟨2, ![1, 640]⟩ : Shape)
local notation "S200001x640" => (⟨2, ![200001, 640]⟩ : Shape)
local notation "S128x20" => (⟨2, ![128, 20]⟩ : Shape)
local notation "S128x640" => (⟨2, ![128, 640]⟩ : Shape)
local notation "S27x128x20" => (⟨3, ![27, 128, 20]⟩ : Shape)
local notation "S128x27x20" => (⟨3, ![128, 27, 20]⟩ : Shape)
local notation "S128x540" => (⟨2, ![128, 540]⟩ : Shape)
local notation "S1x128x20" => (⟨3, ![1, 128, 20]⟩ : Shape)

section Tap

variable
  (hb0 : (S_).BroadcastsInDim S200000 (![] : Fin 0 → Fin (S200000).rank))
  (hb1 : (S200000).BroadcastsInDim S200000x1 (![0] : Fin 1 → Fin (S200000x1).rank))
  (hb2 : (S_).BroadcastsInDim S200000x1 (![] : Fin 0 → Fin (S200000x1).rank))
  (hcat : Shape.Concatenates [S200000x1, S200000x1] S200000x2 1)
  (wf : GatherDims.WF S200001x640 S200000x2 S200000x20 [1] [0] [] [0, 1] [] 1 ![1, 20])
  (hbits : FTy.bits .bf16 < FTy.bits .f32)
  (hbz : (S_).BroadcastsInDim S1x640 (![] : Fin 0 → Fin (S1x640).rank))
  (hcat0 : Shape.Concatenates [S200000x640, S1x640] S200001x640 0)
  (hbr2 : (S200000x1).BroadcastsInDim S200000x128 (![0, 1] : Fin 2 → Fin (S200000x128).rank))
  (hbr3 : (S_).BroadcastsInDim S200000x128 (![] : Fin 0 → Fin (S200000x128).rank))
  (wfg : GatherDims.WF S200000x128 S200000x1 S200000x128 [1] [0] [] [0] [] 1 ![1, 128])
  (wfd : DotDims.WF (S200000x128) S128x20 S200000x20 [1] [0] [0] [1] [] [])
  (nidx : IVec S200000 32) (inb : IVec S200000 1)

/-- The kernel's row index for the tap: the neighbour's voxel number where the tap is taken, else 200000, the
    appended row of zeros. -/
abbrev rowIdx : IVec S200000 32 :=
  select (valid hb0 nidx inb) nidx (broadcastInDim S200000 ![] hb0 (id (constantI S_ 32 200000#32)))

/-- At an index the row index is a choice between the neighbour's number and 200000. -/
theorem rowIdx_apply (i : (S200000).Idx) :
    rowIdx hb0 nidx inb i = Scalar.select (valid hb0 nidx inb i) (nidx i) 200000#32 := rfl

/-- Where the tap is taken the row index is the neighbour's number … -/
theorem rowIdx_of_valid (i : (S200000).Idx) (hv : valid hb0 nidx inb i = 1#1) : rowIdx hb0 nidx inb i = nidx i := by
  rw [rowIdx_apply, hv, select_one]

/-- … and where it is not, it is 200000. -/
theorem rowIdx_of_invalid (i : (S200000).Idx) (hv : valid hb0 nidx inb i ≠ 1#1) :
    rowIdx hb0 nidx inb i = 200000#32 := by
  rw [rowIdx_apply, eq_zero_of_ne_one hv, select_zero]

/-- The row index is a row of the padded product: between 0 and 200000, when every looked-up word is a slot word. -/
theorem rowIdx_range (hslot : ∀ p : Fin 200000, Slot 200000 (nidx (ix1 p))) (p : Fin 200000) :
    0 ≤ (rowIdx hb0 nidx inb (ix1 p)).toInt ∧ (rowIdx hb0 nidx inb (ix1 p)).toInt ≤ 200000 := by
  by_cases hv : valid hb0 nidx inb (ix1 p) = 1#1
  · rw [rowIdx_of_valid hb0 nidx inb _ hv]
    have h0 := ((valid_eq_one_iff hb0 nidx inb (ix1 p)).mp hv).2
    have := (hslot p).lt_of_nonneg h0
    omega
  · rw [rowIdx_of_invalid hb0 nidx inb _ hv]
    decide

/-- THE TAP, BOTH WAYS. `Y` is the dense product of the features (in any float format: over the extended reals the
    change of format is the identity) with a 128 × 640 matrix `Wf` whose column `20·k' + c` is tap `k'`'s weight
    column `c`; `Wk` is tap `k`'s 128 × 20 weight matrix; `colw` is the word `20·k`. Then the kernel's narrow gather of
    the padded product and the reference's masked product agree at every `(p, c)`. -/
theorem tap_eq (X : FVec Ideal S200000x128 .f32) (W : FVec Ideal S27x128x20 .f32)
    (Xb : FVec Ideal S200000x128 .bf16) (hXb : ∀ i, Xb i = X i)
    (Wf : FVec Ideal S128x640 .bf16)
    (hWf : ∀ (j : Fin 128) (k : Fin 27) (c : Fin 20),
      Wf (ix2 j (⟨20 * k.val + c.val, by have := k.isLt; have := c.isLt; omega⟩ : Fin 640)) = W (ix3 k j c))
    (Y : FVec Ideal S200000x640 .bf16)
    (hY : ∀ (q : Fin 200000) (col : Fin 640), Y (ix2 q col) = ∑ j : Fin 128, Xb (ix2 q j) * Wf (ix2 j col))
    (hslot : ∀ p : Fin 200000, Slot 200000 (nidx (ix1 p)))
    (k : Fin 27) (colw : BitVec 32) (hcolw : colw.toInt = ((20 * k.val : ℕ) : ℤ))
    (Wk : FVec Ideal S128x20 .f32) (hWk : ∀ (j : Fin 128) (c : Fin 20), Wk (ix2 j c) = W (ix3 k j c))
    (p : Fin 200000) (c : Fin 20) :
    extf .f32
        (Host.gather (blockGatherDims 200001 640 200000 20 wf)
          (concatenate S200001x640 0
            [⟨S200000x640, Y⟩, ⟨S1x640, broadcastInDim S1x640 ![] hbz (constant (F := Ideal) S_ .bf16 0x0000#16)⟩] hcat0)
          (concatenate S200000x2 1
            [⟨S200000x1, broadcastInDim S200000x1 ![0] hb1
                (select (cmpi .slt (rowIdx hb0 nidx inb) (broadcastInDim S200000 ![] hb0 (constantI S_ 32 0#32)))
                  (addi (rowIdx hb0 nidx inb) (broadcastInDim S200000 ![] hb0 (constantI S_ 32 200001#32)))
                  (rowIdx hb0 nidx inb))⟩,
             ⟨S200000x1, broadcastInDim S200000x1 ![] hb2 (constantI S_ 32 colw)⟩] hcat)) hbits
        (ix2 p c)
      = tap hb0 hb1 hbr2 hbr3 wfg wfd nidx inb X Wk (ix2 p c) := by
  refine (kerTap_ypad_apply (rowIdx hb0 nidx inb) colw hb0 hb1 hb2 hcat wf hbits Y hbz hcat0 k hcolw
    (rowIdx_range hb0 nidx inb hslot) p c).trans ?_
  by_cases hv : valid hb0 nidx inb (ix1 p) = 1#1
  · have h0 := ((valid_eq_one_iff hb0 nidx inb (ix1 p)).mp hv).2
    have hlt := (hslot p).lt_of_nonneg h0
    have hrow := rowIdx_of_valid hb0 nidx inb (ix1 p) hv
    have hlt' : (rowIdx hb0 nidx inb (ix1 p)).toInt.toNat < 200000 := by rw [hrow]; omega
    rw [dif_pos hlt', refTap_valid hb0 hb1 hbr2 hbr3 wfg wfd nidx inb X Wk p c hv hlt, hY]
    refine Finset.sum_congr rfl fun j _ => ?_
    rw [hWf j k c, hWk j c, hXb]
    refine congrArg (fun r => X (ix2 r j) * W (ix3 k j c)) (Fin.ext ?_)
    show (rowIdx hb0 nidx inb (ix1 p)).toInt.toNat = (nidx (ix1 p)).toInt.toNat
    rw [hrow]
  · have hrow := rowIdx_of_invalid hb0 nidx inb (ix1 p) hv
    have hge : ¬ (rowIdx hb0 nidx inb (ix1 p)).toInt.toNat < 200000 := by rw [hrow]; decide
    rw [dif_neg hge, refTap_invalid hb0 hb1 hbr2 hbr3 wfg wfd nidx inb X Wk p c hv]

/-- THE TAP, BOTH WAYS, WITH THE TWO PROGRAMS' OWN WEIGHT LAYOUTS: the kernel's 128 × 640 matrix is the weights transposed
    to [128, 27, 20], flattened to [128, 540] and padded with 100 zero columns (entry `(j, 20·k + c)` is `W[k, j, c]`:
    the two indices have the same row-major position); the reference's tap matrix is slab `k` of the weights without
    its unit axis. What is left as a hypothesis is only that `Y` is the dense product, entry by entry. -/
theorem tap_eq_layouts (X : FVec Ideal S200000x128 .f32) (W : FVec Ideal S27x128x20 .f32)
    (htr : (S27x128x20).Transposes [1, 0, 2] S128x27x20) (hsc : (S128x27x20).ShapeCasts S128x540)
    (hpad : (S128x540).Pads (![0, 0] : Fin 2 → Nat) ![0, 100] ![0, 0] S128x640) (hS : 0 < (S_).numel)
    (Y : FVec Ideal S200000x640 .bf16)
    (hY : ∀ (q : Fin 200000) (col : Fin 640), Y (ix2 q col)
      = ∑ j : Fin 128, truncf .bf16 X hbits (ix2 q j)
          * truncf .bf16
              (pad S128x640 ![0, 0] ![0, 100] ![0, 0]
                (shapeCast S128x540 (transpose S128x27x20 [1, 0, 2] W htr) hsc)
                (sitofp (F := Ideal) .f32 (constantI S_ 32 0#32)) hpad hS) hbits (ix2 j col))
    (hslot : ∀ p : Fin 200000, Slot 200000 (nidx (ix1 p)))
    (k : Fin 27) (colw : BitVec 32) (hcolw : colw.toInt = ((20 * k.val : ℕ) : ℤ))
    (hs : (S27x128x20).Slices ![k.val, 0, 0] S1x128x20) (hc : (S1x128x20).ShapeCasts S128x20)
    (p : Fin 200000) (c : Fin 20) :
    extf .f32
        (Host.gather (blockGatherDims 200001 640 200000 20 wf)
          (concatenate S200001x640 0
            [⟨S200000x640, Y⟩, ⟨S1x640, broadcastInDim S1x640 ![] hbz (constant (F := Ideal) S_ .bf16 0x0000#16)⟩] hcat0)
          (concatenate S200000x2 1
            [⟨S200000x1, broadcastInDim S200000x1 ![0] hb1
                (select (cmpi .slt (rowIdx hb0 nidx inb) (broadcastInDim S200000 ![] hb0 (constantI S_ 32 0#32)))
                  (addi (rowIdx hb0 nidx inb) (broadcastInDim S200000 ![] hb0 (constantI S_ 32 200001#32)))
                  (rowIdx hb0 nidx inb))⟩,
             ⟨S200000x1, broadcastInDim S200000x1 ![] hb2 (constantI S_ 32 colw)⟩] hcat)) hbits
        (ix2 p c)
      = tap hb0 hb1 hbr2 hbr3 wfg wfd nidx inb X (wslice W k.val hs hc) (ix2 p c) :=
  tap_eq hb0 hb1 hb2 hcat wf hbits hbz hcat0 hbr2 hbr3 wfg wfd nidx inb X W (truncf .bf16 X hbits) (fun _ => rfl) _
    (wflat_apply W htr hsc hpad hS hbits) Y hY hslot k colw hcolw (wslice W k.val hs hc) (wslice_apply W k hs hc) p c

/-- THE ACCUMULATION. Both programs start from the bias spread over the rows and add the 27 taps in the same order;
    taps that agree entry by entry give results that agree entry by entry. -/
theorem accumulate_eq (b : FVec Ideal S200000x20 .f32) (tK tR : Fin 27 → FVec Ideal S200000x20 .f32)
    (h : ∀ k i, tK k i = tR k i) :
    (List.finRange 27).foldl (fun acc k => addf acc (tK k)) b
      = (List.finRange 27).foldl (fun acc k => addf acc (tR k)) b := by
  have : tK = tR := funext fun k => funext (h k)
  rw [this]

end Tap

end Cert.TapBridge

end
-- ==== Proof.Spec.lean ====
/-
  THE TWO PROGRAMS' RESULTS AS PURE FUNCTIONS OF THE FOUR INPUT ARRAYS, AND THEIR EQUALITY.

  Inputs: the features `X` (200000 × 128), the weights `Wt` (27 × 128 × 20), the bias `b` (20) and the voxels' integer
  coordinates `coords` (200000 × 3). Tap `k = 9·iz + 3·iy + ix` of the 3×3×3 stencil has the offset
  `(iz − 1, iy − 1, ix − 1)`.

  * `refOut`: the bias spread over the rows, plus, tap after tap, the neighbours' feature rows (zeros where there is no
    neighbour) times the tap's 128 × 20 weights.
  * `kerOut`: the bias spread over the rows, plus, tap after tap, the 20-wide block `[20·k, 20·k + 20)` of row
    `idx_k[p]` of the dense product of ALL feature rows with ALL taps' weights side by side, a zero row appended, where
    `idx_k[p]` is the neighbour's voxel number or, where there is none, the appended row.

  They are the same array (`kerOut_eq_refOut`): tap by tap the two terms agree at every entry (the module TapBridge),
  whatever the inputs — no finiteness is needed —, and the taps are added in the same order.

  The side conditions of the shape operations are decided here once, on the literal shapes.
-/
import proofs.«120445_j5549097746519_2_alg».proof.Proof.TapBridge
import proofs.«120445_j5549097746519_2_alg».proof.Proof.NbrIdx

noncomputable section

namespace Cert.Spec

open Idealize.ShloMosaic Idealize.ShloMosaic.ValueIdx Cert.LibBlockGather Cert.LibGatherScatter Cert.LibPlainMatmul
open Cert.RefTap Cert.KerTap Cert.IdxMap Cert.RefWeight Cert.TapBridge
open scoped BigOperators

local notation "S_" => (⟨0, ![]⟩ : Shape)
local notation "S20" => (⟨1, ![20]⟩ : Shape)
local notation "S200000" => (⟨1, ![200000]⟩ : Shape)
local notation "S5529600" => (⟨1, ![5529600]⟩ : Shape)
local notation "S200000x1" => (⟨2, ![200000, 1]⟩ : Shape)
local notation "S200000x2" => (⟨2, ![200000, 2]⟩ : Shape)
local notation "S200000x3" => (⟨2, ![200000, 3]⟩ : Shape)
local notation "S200000x20" => (⟨2, ![200000, 20]⟩ : Shape)
local notation "S200000x128" => (⟨2, ![200000, 128]⟩ : Shape)
local notation "S200000x640" => (⟨2, ![200000, 640]⟩ : Shape)
local notation "S1x640" => (⟨2, ![1, 640]⟩ : Shape)
local notation "S200001x640" => (⟨2, ![200001, 640]⟩ : Shape)
local notation "S128x20" => (⟨2, ![128, 20]⟩ : Shape)
local notation "S128x540" => (⟨2, ![128, 540]⟩ : Shape)
local notation "S128x640" => (⟨2, ![128, 640]⟩ : Shape)
local notation "S27x128x20" => (⟨3, ![27, 128, 20]⟩ : Shape)
local notation "S128x27x20" => (⟨3, ![128, 27, 20]⟩ : Shape)
local notation "S1x128x20" => (⟨3, ![1, 128, 20]⟩ : Shape)

/-! ## The side conditions, decided on the literal shapes -/

theorem hb0 : (S_).BroadcastsInDim S200000 (![] : Fin 0 → Fin (S200000).rank) := by decide
theorem hb1 : (S200000).BroadcastsInDim S200000x1 (![0] : Fin 1 → Fin (S200000x1).rank) := by decide
theorem hb2 : (S_).BroadcastsInDim S200000x1 (![] : Fin 0 → Fin (S200000x1).rank) := by decide
theorem hbG : (S_).BroadcastsInDim S5529600 (![] : Fin 0 → Fin (S5529600).rank) := by decide
theorem hbz : (S_).BroadcastsInDim S1x640 (![] : Fin 0 → Fin (S1x640).rank) := by decide
theorem hbr2 : (S200000x1).BroadcastsInDim S200000x128 (![0, 1] : Fin 2 → Fin (S200000x128).rank) := by decide
theorem hbr3 : (S_).BroadcastsInDim S200000x128 (![] : Fin 0 → Fin (S200000x128).rank) := by decide
theorem hbb : (S20).BroadcastsInDim S200000x20 (![1] : Fin 1 → Fin (S200000x20).rank) := by decide
theorem hcat : Shape.Concatenates [S200000x1, S200000x1] S200000x2 1 := by decide
theorem hcat0 : Shape.Concatenates [S200000x640, S1x640] S200001x640 0 := by decide
theorem wfB : GatherDims.WF S200001x640 S200000x2 S200000x20 [1] [0] [] [0, 1] [] 1 ![1, 20] := by decide
theorem wfg : GatherDims.WF S200000x128 S200000x1 S200000x128 [1] [0] [] [0] [] 1 ![1, 128] := by decide
theorem wfN : GatherDims.WF S5529600 S200000x1 S200000 [] [0] [] [0] [] 1 ![1] := by decide
theorem wfd : DotDims.WF (S200000x128) S128x20 S200000x20 [1] [0] [0] [1] [] [] := by decide
theorem wfS : ScatterDims.WF S5529600 S200000x1 S200000 [] [0] [0] 1 := by decide
theorem hbits : FTy.bits .bf16 < FTy.bits .f32 := by decide
theorem hs0 : (S200000x3).Slices ![0, 0] S200000x1 := by decide
theorem hs1 : (S200000x3).Slices ![0, 1] S200000x1 := by decide
theorem hs2 : (S200000x3).Slices ![0, 2] S200000x1 := by decide
theorem hc : (S200000x1).ShapeCasts S200000 := by decide
theorem htr : (S27x128x20).Transposes [1, 0, 2] S128x27x20 := by decide
theorem hsc : (S128x27x20).ShapeCasts S128x540 := by decide
theorem hpad : (S128x540).Pads (![0, 0] : Fin 2 → Nat) ![0, 100] ![0, 0] S128x640 := by decide
theorem hS : 0 < (S_).numel := by decide
theorem hcw : (S1x128x20).ShapeCasts S128x20 := by decide
theorem hsl : ∀ k : Fin 27, (S27x128x20).Slices ![k.val, 0, 0] S1x128x20 := by decide

/-- The scatter's dimension numbers: voxel `e`'s number goes to the cell `lin[e, 0]` of the table. -/
abbrev dS : ScatterDims S5529600 S200000x1 S200000 :=
  { updateWindowDims := [], insertedWindowDims := [0], scatterDimsToOperandDims := [0], indexVectorDim := 1, wf := wfS }

/-! ## The taps' offsets, as words -/

/-- Tap `k`'s offset along each axis: −1, 0 or 1 as a 32-bit word, in the order of the triple loop. -/
def dz : Fin 27 → BitVec 32 := ![4294967295#32, 4294967295#32, 4294967295#32, 4294967295#32, 4294967295#32, 4294967295#32, 4294967295#32, 4294967295#32, 4294967295#32, 0#32, 0#32, 0#32, 0#32, 0#32, 0#32, 0#32, 0#32, 0#32, 1#32, 1#32, 1#32, 1#32, 1#32, 1#32, 1#32, 1#32, 1#32]
def dy : Fin 27 → BitVec 32 := ![4294967295#32, 4294967295#32, 4294967295#32, 0#32, 0#32, 0#32, 1#32, 1#32, 1#32, 4294967295#32, 4294967295#32, 4294967295#32, 0#32, 0#32, 0#32, 1#32, 1#32, 1#32, 4294967295#32, 4294967295#32, 4294967295#32, 0#32, 0#32, 0#32, 1#32, 1#32, 1#32]
def dx : Fin 27 → BitVec 32 := ![4294967295#32, 0#32, 1#32, 4294967295#32, 0#32, 1#32, 4294967295#32, 0#32, 1#32, 4294967295#32, 0#32, 1#32, 4294967295#32, 0#32, 1#32, 4294967295#32, 0#32, 1#32, 4294967295#32, 0#32, 1#32, 4294967295#32, 0#32, 1#32, 4294967295#32, 0#32, 1#32]

section Terms

variable (X : FVec Ideal S200000x128 .f32) (Wt : FVec Ideal S27x128x20 .f32) (b : FVec Ideal S20 .f32)
  (coords : IVec S200000x3 32)

/-- The coordinate map of these voxels. -/
abbrev cmap : IVec S5529600 32 := NbrIdx.coordMap hs0 hs1 hs2 hc hb0 hb1 hbG dS coords

/-- Tap `k`'s neighbour numbers and inside-the-grid bits. -/
abbrev nidxOf (k : Fin 27) : IVec S200000 32 :=
  NbrIdx.nidx hs0 hs1 hs2 hc hb0 hb1 wfN coords (dz k) (dy k) (dx k) (cmap coords)
abbrev insideOf (k : Fin 27) : IVec S200000 1 := NbrIdx.inside hs0 hs1 hs2 hc hb0 coords (dz k) (dy k) (dx k)

/-- The bias spread over the rows. -/
abbrev biasRows : FVec Ideal S200000x20 .f32 := broadcastInDim S200000x20 ![1] hbb b

/-- THE REFERENCE'S TAP `k`. -/
abbrev refTapOf (k : Fin 27) : FVec Ideal S200000x20 .f32 :=
  tap hb0 hb1 hbr2 hbr3 wfg wfd (nidxOf coords k) (insideOf coords k) X (wslice Wt k.val (hsl k) hcw)

/-- THE REFERENCE'S RESULT. -/
abbrev refOut : FVec Ideal S200000x20 .f32 :=
  (List.finRange 27).foldl (fun acc k => addf acc (refTapOf X Wt coords k)) (biasRows b)

/-- The kernel's flattened, padded weights, 128 × 640. -/
abbrev wflat : FVec Ideal S128x640 .bf16 :=
  truncf .bf16
    (pad S128x640 ![0, 0] ![0, 100] ![0, 0] (shapeCast S128x540 (transpose S128x27x20 [1, 0, 2] Wt htr) hsc)
      (sitofp (F := Ideal) .f32 (constantI S_ 32 0#32)) hpad hS) hbits

/-- The dense product: every feature row times every tap's weights. -/
abbrev product : FVec Ideal S200000x640 .bf16 :=
  fun i => ∑ j : Fin 128, truncf .bf16 X hbits (ix2 (i 0) j) * wflat Wt (ix2 j (i 1))

/-- THE KERNEL'S TAP `k`: the block `[20·k, 20·k + 20)` of the rows `rowIdx` of the product with a zero row appended. -/
abbrev kerTapOf (k : Fin 27) : FVec Ideal S200000x20 .f32 :=
  extf .f32
    (Host.gather (blockGatherDims 200001 640 200000 20 wfB)
      (concatenate S200001x640 0
        [⟨S200000x640, product X Wt⟩,
         ⟨S1x640, broadcastInDim S1x640 ![] hbz (constant (F := Ideal) S_ .bf16 0x0000#16)⟩] hcat0)
      (concatenate S200000x2 1
        [⟨S200000x1, broadcastInDim S200000x1 ![0] hb1
            (select (cmpi .slt (rowIdx hb0 (nidxOf coords k) (insideOf coords k))
                (broadcastInDim S200000 ![] hb0 (constantI S_ 32 0#32)))
              (addi (rowIdx hb0 (nidxOf coords k) (insideOf coords k))
                (broadcastInDim S200000 ![] hb0 (constantI S_ 32 200001#32)))
              (rowIdx hb0 (nidxOf coords k) (insideOf coords k)))⟩,
         ⟨S200000x1, broadcastInDim S200000x1 ![] hb2 (constantI S_ 32 (BitVec.ofNat 32 (20 * k.val)))⟩] hcat)) hbits

/-- THE KERNEL'S RESULT. -/
abbrev kerOut : FVec Ideal S200000x20 .f32 :=
  (List.finRange 27).foldl (fun acc k => addf acc (kerTapOf X Wt coords k)) (biasRows b)

/-- The word `20·k` reads `20·k`. -/
theorem colw_toInt (k : Fin 27) : (BitVec.ofNat 32 (20 * k.val)).toInt = ((20 * k.val : ℕ) : ℤ) :=
  toInt_ofNat_small (by have := k.isLt; omega)

/-- TAP BY TAP the two programs' terms are the same array. -/
theorem kerTapOf_eq_refTapOf (k : Fin 27) : kerTapOf X Wt coords k = refTapOf X Wt coords k := by
  funext i
  obtain ⟨p, c, rfl⟩ : ∃ (p : Fin 200000) (c : Fin 20), i = ix2 p c := ⟨i 0, i 1, eq_ix2 i⟩
  exact tap_eq_layouts hb0 hb1 hb2 hcat wfB hbits hbz hcat0 hbr2 hbr3 wfg wfd (nidxOf coords k) (insideOf coords k)
    X Wt htr hsc hpad hS (product X Wt) (fun q col => rfl)
    (fun p => NbrIdx.nidx_slot hs0 hs1 hs2 hc hb0 hb1 hbG dS wfN coords (dz k) (dy k) (dx k) p)
    k (BitVec.ofNat 32 (20 * k.val)) (colw_toInt k) (hsl k) hcw p c

/-- THE TWO RESULTS ARE THE SAME ARRAY. -/
theorem kerOut_eq_refOut : kerOut X Wt b coords = refOut X Wt b coords :=
  accumulate_eq (biasRows b) (kerTapOf X Wt coords) (refTapOf X Wt coords)
    (fun k i => congrFun (kerTapOf_eq_refTapOf X Wt coords k) i)

end Terms

end Cert.Spec

end
-- ==== Proof.KerValue.lean ====
/-
  THE KERNEL PROGRAM'S VALUE, over the extended reals: its result array as one term of the four argument arrays.

  The program runs; when its one region is left the product array holds the dense product of the narrowed features
  with the flattened, padded, narrowed weights; the 382 host operations after the region append a zero row to it and
  add to the bias, tap after tap, the 20-wide blocks the taps' row indices select. The row indices were computed before
  the region from the coordinates; that each is the row index of its tap's neighbour look-up is a hypothesis here (one
  equation per tap). Under it the result array is the kernel's result as a function of the arguments, and the four
  argument arrays end unchanged.
-/
import proofs.«120445_j5549097746519_2_alg».proof.Proof.KerHeadProduct
import proofs.«120445_j5549097746519_2_alg».proof.Proof.KerTail
import proofs.«120445_j5549097746519_2_alg».proof.Proof.Spec

set_option maxRecDepth 16384

noncomputable section

namespace Cert.KernelIdeal.Value

open Cert.KernelIdeal Cert.KernelIdeal.Gen Cert.KernelIdeal.GenP Cert.KernelIdeal.Frame Cert.KernelIdeal.Head
open Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg) (c : Dev nD)

/-- The bias argument, as launched, at its type. -/
abbrev argBias : FVec Ideal S20 .f32 := m (c, Proc.devRef .tc main_arg2)

/-- The product array when the region is left is the dense product of the arguments' narrowed features and flattened
    weights. -/
theorem Wexit_product_eq : (Wexit m c (Proc.devRef .tc main_v1295) : FVec Ideal S200000x640 .bf16)
    = Cert.Spec.product (argX m c) (argW m c) := by
  funext i
  obtain ⟨q, col, rfl⟩ : ∃ (q : Fin 200000) (col : Fin 640), i = ix2 q col := ⟨i 0, i 1, eq_ix2 i⟩
  exact product_entries m c q col

/-- The bias when the region is left is the bias argument. -/
theorem Wexit_bias : (Wexit m c (Proc.devRef .tc main_arg2) : FVec Ideal S20 .f32) = argBias m c :=
  (Wexit_of_ne m c main_arg2 (by decide)).trans (V0_arg2 m c)

/-- Two valuations that agree on every buffer that is no array of the pipeline give the taps the same row indices. -/
theorem idxOf_congr {A B : Valuation τ sig (Elt Ideal)}
    (h : ∀ b : Ref sig .tc, (∀ w, Pipeline.arrRef spec0 w ≠ b) → A (Proc.devRef .tc b) = B (Proc.devRef .tc b)) (k : Fin 27) :
    Cert.KernelIdeal.Tail.idxOf A k = Cert.KernelIdeal.Tail.idxOf B k := by
  fin_cases k <;> exact h _ (by decide)

/-- A tap of the tail from contents whose row indices and product are named. -/
theorem tapOf_congr {A : Valuation τ sig (Elt Ideal)} (k : Fin 27) {idx : IVec S200000 32} {Y : FVec Ideal S200000x640 .bf16}
    (hi : Cert.KernelIdeal.Tail.idxOf A k = idx) (hy : A (Proc.devRef .tc main_v1295) = Y) :
    Cert.KernelIdeal.Tail.tapOf A k
      = Cert.KernelIdeal.Tail.tapTerm idx (Cert.KernelIdeal.Tail.ypadTerm Y) (BitVec.ofNat 32 (20 * k.val)) := by
  subst hi hy
  rfl

/-- The taps' row indices when the region is left are what they were when it was entered: the region writes none of
    them. -/
theorem idxOf_Wexit (k : Fin 27) : Cert.KernelIdeal.Tail.idxOf (Wexit m c) k = Cert.KernelIdeal.Tail.idxOf (V0 m c) k :=
  idxOf_congr (Wexit_of_ne m c) k

/-- One tap of the tail, from the region's exit contents, is the kernel's tap as a term of the arguments — given that
    the tap's row indices are the row indices of its neighbour look-up. -/
theorem tapOf_eq (k : Fin 27)
    (hidx : Cert.KernelIdeal.Tail.idxOf (V0 m c) k
      = Cert.TapBridge.rowIdx Cert.Spec.hb0 (Cert.Spec.nidxOf (argCoords m c) k) (Cert.Spec.insideOf (argCoords m c) k)) :
    Cert.KernelIdeal.Tail.tapOf (Wexit m c) k = Cert.Spec.kerTapOf (argX m c) (argW m c) (argCoords m c) k := by
  refine (tapOf_congr k ((idxOf_Wexit m c k).trans hidx) (Wexit_product_eq m c)).trans ?_
  rfl

/-- The result array after the tail, from the region's exit contents, is the kernel's result as a term of the
    arguments. -/
theorem result_eq
    (hidx : ∀ k : Fin 27, Cert.KernelIdeal.Tail.idxOf (V0 m c) k
      = Cert.TapBridge.rowIdx Cert.Spec.hb0 (Cert.Spec.nidxOf (argCoords m c) k) (Cert.Spec.insideOf (argCoords m c) k)) :
    StableHlo.after hostOps1 (Wexit m c) (Proc.devRef .tc main_v1595)
      = Cert.Spec.kerOut (argX m c) (argW m c) (argBias m c) (argCoords m c) := by
  refine (Cert.KernelIdeal.Tail.W_result (Wexit m c)).trans ?_
  have hf : (fun (acc : FVec Ideal S200000x20 .f32) (k : Fin 27) => addf acc (Cert.KernelIdeal.Tail.tapOf (Wexit m c) k))
      = fun acc k => addf acc (Cert.Spec.kerTapOf (argX m c) (argW m c) (argCoords m c) k) :=
    funext fun acc => funext fun k => congrArg (addf acc) (tapOf_eq m c k (hidx k))
  have hb : Cert.KernelIdeal.Tail.biasTerm (Wexit m c (Proc.devRef .tc main_arg2)) = Cert.Spec.biasRows (argBias m c) :=
    congrArg Cert.KernelIdeal.Tail.biasTerm (Wexit_bias m c)
  exact congrArg₂ (fun f b => (List.finRange 27).foldl f b) hf hb

/-- THE KERNEL PROGRAM'S VALUE: the program runs, its result array ends at the kernel's result as a function of the
    four arguments, and the arguments end unchanged — given, per device and tap, that the tap's row-index buffer holds
    at the region's entry the row indices of its neighbour look-up. -/
theorem kernel_value
    (hidx : ∀ (c : Dev nD) (k : Fin 27), Cert.KernelIdeal.Tail.idxOf (V0 m c) k
      = Cert.TapBridge.rowIdx Cert.Spec.hb0 (Cert.Spec.nidxOf (argCoords m c) k) (Cert.Spec.insideOf (argCoords m c) k)) :
    θ_run defs (onTc (τ := τ) (main (F := Ideal))) ⟨m, fun _ => 0, ρ⟩ (fun r => ∀ c : Dev nD,
      r.2.mem ((c.tc : Thread nD τ).loc main_v1595) = Cert.Spec.kerOut (argX m c) (argW m c) (argBias m c) (argCoords m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m c (hidx c)), (h c).2⟩) (value_run m ρ)

end Cert.KernelIdeal.Value

end
-- ==== Proof.KerHead.lean ====
/-
  THE KERNEL PROGRAM'S HOST OPERATIONS BEFORE ITS REGION, READ BACK.

  Before the dense product the program prepares, from the voxels' integer coordinates (z, y, x):
  * the coordinate map — a table over the 480 × 360 × 32 cells of the dense grid holding in each cell the number of
    a voxel lying there, or −1 (26 operations);
  * for each of the 27 taps, an offset (dz, dy, dx) with entries −1, 0, 1: the bit "the neighbour's coordinates are
    inside the grid", the neighbour's linear cell number clipped into the table and looked up in the map (the
    neighbour's voxel number, or −1), and the row index the tap reads later: the neighbour's number where the tap
    is taken, 200000 elsewhere (71 operations per tap, the same 71 with other buffers and other offset words);
  * the region's two inputs: the features narrowed, and the weights transposed, flattened, padded with zero columns
    and narrowed (7 operations).

  The operations are in single-assignment form, so the contents when the region is entered satisfy each operation's
  equation on its own; the equations of one group, composed, say that the group's last buffers hold the composed
  terms. The composition is written once over variables for the buffers' contents (each hypothesis one operation's
  equation; the conclusion by substitution) and instantiated at the program's buffers, 27 times for the taps.
-/
import proofs.«120445_j5549097746519_2_alg».proof.Proof.FramePrefixRising
import proofs.«120445_j5549097746519_2_alg».proof.Proof.NbrIdx
import proofs.«120445_j5549097746519_2_alg».proof.Proof.TapBridge
import proofs.«120445_j5549097746519_2_alg».proof.Proof.KerTail
import proofs.«120445_j5549097746519_2_alg».proof.Proof.Spec

set_option maxRecDepth 16384
set_option Elab.async false

noncomputable section

namespace Cert.KernelIdeal.Head

open Cert.KernelIdeal Cert.KernelIdeal.Gen Cert.KernelIdeal.GenP Cert.KernelIdeal.Frame
open Idealize.ShloMosaic Idealize.ShloMosaic.TcCoe Idealize.ShloMosaic.StableHlo Idealize.ShloMosaic.ValueIdx
open Idealize.SL.Sem
open Cert.LibSsaAfter

variable {F : FTy → Type} [FloatOps F]

/-! ## One operation of the line before the region, found by its stretch and its position in the stretch

The contents when the region is entered are named by a variable `Wv` (with `hW : Wv = V0 m c`): every statement
below is about `Wv` applied to buffers. -/

attribute [local irreducible] StableHlo.after

section Pre
variable (m : (ℓ : Loc nD τ sig) → Buf (Elt F) ℓ) (c : Dev nD)
variable {Wv : Valuation τ sig (Elt F)} (hW : Wv = V0 m c)
variable {x a b cnd y : Ref sig .tc} {ops : List (HloOp τ sig (Elt F))}

/-- An operation at position j of stretch k is an operation of the whole line. -/
theorem mem_prefix {op : HloOp τ sig (Elt F)} (k j : ℕ) (hk : (prefixOps (F := F))[k]? = some ops)
    (hj : ops[j]? = some op) : op ∈ List.flatten (prefixOps (F := F)) :=
  List.mem_flatten.mpr ⟨ops, List.mem_of_getElem? hk, List.mem_of_getElem? hj⟩

include hW in
theorem nullary_pre (k j : ℕ) {v : y.ty.Contents (Elt F)} {hy} (hk : (prefixOps (F := F))[k]? = some ops)
    (hj : ops[j]? = some (nullary (τ := τ) y v hy)) : Wv (Proc.devRef .tc y) = v := by
  subst hW
  exact nullary_at prefix_rising _ v hy (mem_prefix k j hk hj)

include hW in
theorem unary_pre (k j : ℕ) {f : x.ty.Contents (Elt F) → y.ty.Contents (Elt F)} {hx hy}
    (hk : (prefixOps (F := F))[k]? = some ops) (hj : ops[j]? = some (unary (τ := τ) x y f hx hy))
    (hxy : x ≠ y := by decide) : Wv (Proc.devRef .tc y) = f (Wv (Proc.devRef .tc x)) := by
  subst hW
  exact unary_at prefix_rising _ f hx hy (mem_prefix k j hk hj) hxy

include hW in
theorem reshape_pre (k j : ℕ) {he hn hx hy} (hk : (prefixOps (F := F))[k]? = some ops)
    (hj : ops[j]? = some (reshape (τ := τ) (Val := Elt F) x y he hn hx hy)) (hxy : x ≠ y := by decide) :
    Wv (Proc.devRef .tc y) = fun i => he ▸ shapeCast y.ty.shape (Wv (Proc.devRef .tc x)) hn i := by
  subst hW
  exact reshape_at prefix_rising _ he hn hx hy (mem_prefix k j hk hj) hxy

include hW in
theorem binary_pre (k j : ℕ) {f : a.ty.Contents (Elt F) → b.ty.Contents (Elt F) → y.ty.Contents (Elt F)} {ha hb hy}
    (hk : (prefixOps (F := F))[k]? = some ops) (hj : ops[j]? = some (binary (τ := τ) a b y f ha hb hy))
    (hay : a ≠ y := by decide) (hby : b ≠ y := by decide) :
    Wv (Proc.devRef .tc y) = f (Wv (Proc.devRef .tc a)) (Wv (Proc.devRef .tc b)) := by
  subst hW
  exact binary_at prefix_rising _ f ha hb hy (mem_prefix k j hk hj) hay hby

include hW in
theorem ternary_pre (k j : ℕ)
    {f : cnd.ty.Contents (Elt F) → a.ty.Contents (Elt F) → b.ty.Contents (Elt F) → y.ty.Contents (Elt F)} {hc ha hb hy}
    (hk : (prefixOps (F := F))[k]? = some ops) (hj : ops[j]? = some (ternary (τ := τ) cnd a b y f hc ha hb hy))
    (hcy : cnd ≠ y := by decide) (hay : a ≠ y := by decide) (hby : b ≠ y := by decide) :
    Wv (Proc.devRef .tc y)
      = f (Wv (Proc.devRef .tc cnd)) (Wv (Proc.devRef .tc a)) (Wv (Proc.devRef .tc b)) := by
  subst hW
  exact ternary_at prefix_rising _ f hc ha hb hy (mem_prefix k j hk hj) hcy hay hby

end Pre

/-! ## The look-up's terms at the program's own side conditions -/

/-- INSIDE for the offset words (dz, dy, dx), of the coordinates. -/
abbrev insideT (coords : IVec S200000x3 32) (dz dy dx : BitVec 32) : IVec S200000 1 :=
  Cert.NbrIdx.inside slices_S200000x3_S200000x1_0_0 slices_S200000x3_S200000x1_0_1 slices_S200000x3_S200000x1_0_2
    shapeCasts_S200000x1_S200000 bcast_S_S200000 coords dz dy dx

/-- The neighbour's linear cell number. -/
abbrev nlinT (coords : IVec S200000x3 32) (dz dy dx : BitVec 32) : IVec S200000 32 :=
  Cert.NbrIdx.nlin slices_S200000x3_S200000x1_0_0 slices_S200000x3_S200000x1_0_1 slices_S200000x3_S200000x1_0_2
    shapeCasts_S200000x1_S200000 bcast_S_S200000 coords dz dy dx

/-- NIDX for the offset words, of the coordinates and a table `M`. -/
abbrev nidxT (coords : IVec S200000x3 32) (dz dy dx : BitVec 32) (M : IVec S5529600 32) : IVec S200000 32 :=
  Cert.NbrIdx.nidx slices_S200000x3_S200000x1_0_0 slices_S200000x3_S200000x1_0_1 slices_S200000x3_S200000x1_0_2
    shapeCasts_S200000x1_S200000 bcast_S_S200000 bcast_S200000_S200000x1_0
    gather_S5529600_S200000x1_S200000_n_0_n_n_0_1_1_wf coords dz dy dx M

/-- The row index the tap reads later: NIDX where the tap is taken, 200000 elsewhere. -/
abbrev rowT (coords : IVec S200000x3 32) (dz dy dx : BitVec 32) (M : IVec S5529600 32) : IVec S200000 32 :=
  Cert.TapBridge.rowIdx bcast_S_S200000 (nidxT coords dz dy dx M) (insideT coords dz dy dx)

/-! ## A tap's 71 operations, composed in three steps

Over variables for the buffers' contents, one hypothesis per operation in the program's order; each conclusion by
substituting the equations into one another. -/

section Compose
variable {coords : IVec S200000x3 32} {dz dy dx : BitVec 32} {M : IVec S5529600 32}

/-- The first 46 operations — the three neighbour coordinates, the six comparisons with the grid's bounds and their
    conjunction, the neighbour's linear cell number — compose to INSIDE and to that number. -/
theorem inside_compose
    {a0 : IVec S200000x1 32} {a1 : IVec S200000 32} {a2 : IVec S_ 32} {a3 : IVec S200000 32}
    {a4 : IVec S200000 32} {a5 : IVec S200000x1 32} {a6 : IVec S200000 32} {a7 : IVec S_ 32}
    {a8 : IVec S200000 32} {a9 : IVec S200000 32} {a10 : IVec S200000x1 32} {a11 : IVec S200000 32}
    {a12 : IVec S_ 32} {a13 : IVec S200000 32} {a14 : IVec S200000 32} {a15 : IVec S_ 32}
    {a16 : IVec S200000 32} {a17 : IVec S200000 1} {a18 : IVec S_ 32} {a19 : IVec S200000 32}
    {a20 : IVec S200000 1} {a21 : IVec S200000 1} {a22 : IVec S_ 32} {a23 : IVec S200000 32}
    {a24 : IVec S200000 1} {a25 : IVec S200000 1} {a26 : IVec S_ 32} {a27 : IVec S200000 32}
    {a28 : IVec S200000 1} {a29 : IVec S200000 1} {a30 : IVec S_ 32} {a31 : IVec S200000 32}
    {a32 : IVec S200000 1} {a33 : IVec S200000 1} {a34 : IVec S_ 32} {a35 : IVec S200000 32}
    {a36 : IVec S200000 1} {a37 : IVec S200000 1} {a38 : IVec S_ 32} {a39 : IVec S200000 32}
    {a40 : IVec S200000 32} {a41 : IVec S200000 32} {a42 : IVec S_ 32} {a43 : IVec S200000 32}
    {a44 : IVec S200000 32} {a45 : IVec S200000 32}
    (e0 : a0 = extractStridedSlice S200000x1 ![0, 0] coords slices_S200000x3_S200000x1_0_0) (e1 : a1 = shapeCast S200000 a0 shapeCasts_S200000x1_S200000)
    (e2 : a2 = constantI S_ 32 dz) (e3 : a3 = broadcastInDim S200000 ![] bcast_S_S200000 a2)
    (e4 : a4 = addi a1 a3) (e5 : a5 = extractStridedSlice S200000x1 ![0, 1] coords slices_S200000x3_S200000x1_0_1)
    (e6 : a6 = shapeCast S200000 a5 shapeCasts_S200000x1_S200000) (e7 : a7 = constantI S_ 32 dy)
    (e8 : a8 = broadcastInDim S200000 ![] bcast_S_S200000 a7) (e9 : a9 = addi a6 a8)
    (e10 : a10 = extractStridedSlice S200000x1 ![0, 2] coords slices_S200000x3_S200000x1_0_2) (e11 : a11 = shapeCast S200000 a10 shapeCasts_S200000x1_S200000)
    (e12 : a12 = constantI S_ 32 dx) (e13 : a13 = broadcastInDim S200000 ![] bcast_S_S200000 a12)
    (e14 : a14 = addi a11 a13) (e15 : a15 = constantI S_ 32 0#32)
    (e16 : a16 = broadcastInDim S200000 ![] bcast_S_S200000 a15) (e17 : a17 = cmpi .sge a4 a16)
    (e18 : a18 = constantI S_ 32 480#32) (e19 : a19 = broadcastInDim S200000 ![] bcast_S_S200000 a18)
    (e20 : a20 = cmpi .slt a4 a19) (e21 : a21 = andi a17 a20)
    (e22 : a22 = constantI S_ 32 0#32) (e23 : a23 = broadcastInDim S200000 ![] bcast_S_S200000 a22)
    (e24 : a24 = cmpi .sge a9 a23) (e25 : a25 = andi a21 a24)
    (e26 : a26 = constantI S_ 32 360#32) (e27 : a27 = broadcastInDim S200000 ![] bcast_S_S200000 a26)
    (e28 : a28 = cmpi .slt a9 a27) (e29 : a29 = andi a25 a28)
    (e30 : a30 = constantI S_ 32 0#32) (e31 : a31 = broadcastInDim S200000 ![] bcast_S_S200000 a30)
    (e32 : a32 = cmpi .sge a14 a31) (e33 : a33 = andi a29 a32)
    (e34 : a34 = constantI S_ 32 32#32) (e35 : a35 = broadcastInDim S200000 ![] bcast_S_S200000 a34)
    (e36 : a36 = cmpi .slt a14 a35) (e37 : a37 = andi a33 a36)
    (e38 : a38 = constantI S_ 32 360#32) (e39 : a39 = broadcastInDim S200000 ![] bcast_S_S200000 a38)
    (e40 : a40 = muli a4 a39) (e41 : a41 = addi a40 a9)
    (e42 : a42 = constantI S_ 32 32#32) (e43 : a43 = broadcastInDim S200000 ![] bcast_S_S200000 a42)
    (e44 : a44 = muli a41 a43) (e45 : a45 = addi a44 a14) :
    a37 = insideT coords dz dy dx ∧ a45 = nlinT coords dz dy dx := by
  subst e45 e44 e43 e42 e41 e40 e39 e38 e37 e36 e35 e34 e33 e32 e31 e30 e29 e28 e27 e26 e25 e24 e23 e22 e21 e20 e19 e18 e17 e16 e15 e14 e13 e12 e11 e10 e9 e8 e7 e6 e5 e4 e3 e2 e1 e0
  exact ⟨rfl, rfl⟩

/-- The next 17 operations — the two bounds of the table, the clipping (an inlined call whose two conversions are the
    identity), the "negative counts from the end" select, the column of positions, the look-up in the table — compose,
    after the linear cell number, to NIDX. -/
theorem nidx_compose {a45 : IVec S200000 32}
    {a46 : IVec S_ 32} {a47 : IVec S_ 32} {q0 : IVec S_ 32} {q1 : IVec S200000 32}
    {q2 : IVec S200000 32} {q3 : IVec S_ 32} {q4 : IVec S200000 32} {q5 : IVec S200000 32}
    {b0 : IVec S_ 32} {b1 : IVec S200000 32} {b2 : IVec S200000 1} {b3 : IVec S_ 32}
    {b4 : IVec S200000 32} {b5 : IVec S200000 32} {b6 : IVec S200000 32} {b7 : IVec S200000x1 32}
    {b8 : IVec S200000 32}
    (hlin : a45 = nlinT coords dz dy dx)
    (e46 : a46 = constantI S_ 32 0#32) (e47 : a47 = constantI S_ 32 5529599#32)
    (c0 : q0 = id a46) (c1 : q1 = broadcastInDim S200000 ![] bcast_S_S200000 q0)
    (c2 : q2 = maxsi q1 a45) (c3 : q3 = id a47)
    (c4 : q4 = broadcastInDim S200000 ![] bcast_S_S200000 q3) (c5 : q5 = minsi q4 q2)
    (f0 : b0 = constantI S_ 32 0#32) (f1 : b1 = broadcastInDim S200000 ![] bcast_S_S200000 b0)
    (f2 : b2 = cmpi .slt q5 b1) (f3 : b3 = constantI S_ 32 5529600#32)
    (f4 : b4 = broadcastInDim S200000 ![] bcast_S_S200000 b3) (f5 : b5 = addi q5 b4)
    (f6 : b6 = select b2 b5 q5) (f7 : b7 = broadcastInDim S200000x1 ![0] bcast_S200000_S200000x1_0 b6)
    (f8 : b8 = Host.gather gather_S5529600_S200000x1_S200000_n_0_n_n_0_1_1 M b7) :
    b8 = nidxT coords dz dy dx M := by
  subst f8 f7 f6 f5 f4 f3 f2 f1 f0 c5 c4 c3 c2 c1 c0 e47 e46 hlin
  rfl

/-- The last 8 operations — "there is a neighbour", its conjunction with INSIDE, the word 200000 spread (an inlined
    call) and the select — compose to the row index of NIDX and INSIDE. -/
theorem row_compose {a37 : IVec S200000 1} {b8 : IVec S200000 32}
    {b9 : IVec S_ 32} {b10 : IVec S200000 32} {b11 : IVec S200000 1} {b12 : IVec S200000 1}
    {b13 : IVec S_ 32} {w0 : IVec S_ 32} {w1 : IVec S200000 32} {w2 : IVec S200000 32}
    (f9 : b9 = constantI S_ 32 0#32) (f10 : b10 = broadcastInDim S200000 ![] bcast_S_S200000 b9)
    (f11 : b11 = cmpi .sge b8 b10) (f12 : b12 = andi a37 b11)
    (f13 : b13 = constantI S_ 32 200000#32) (g0 : w0 = id b13)
    (g1 : w1 = broadcastInDim S200000 ![] bcast_S_S200000 w0) (g2 : w2 = select b12 b8 w1) :
    w2 = Cert.TapBridge.rowIdx bcast_S_S200000 b8 a37 := by
  subst g2 g1 g0 f13 f12 f11 f10 f9
  rfl

end Compose

/-! ## The 27 taps -/

section Taps
variable (m : (ℓ : Loc nD τ sig) → Buf (Elt F) ℓ) (c : Dev nD)
variable {Wv : Valuation τ sig (Elt F)} (hW : Wv = V0 m c)

/-! ### Tap 0: offset words (4294967295, 4294967295, 4294967295) -/

include hW in
/-- Tap 0: INSIDE and the neighbour's linear cell number. -/
theorem tap0_inside : Wv (main_v49 : DevRef τ sig) = insideT (Wv (main_arg3 : DevRef τ sig)) 4294967295#32 4294967295#32 4294967295#32
    ∧ Wv (main_v55 : DevRef τ sig) = nlinT (Wv (main_arg3 : DevRef τ sig)) 4294967295#32 4294967295#32 4294967295#32 :=
  inside_compose (coords := Wv (main_arg3 : DevRef τ sig)) (dz := 4294967295#32) (dy := 4294967295#32) (dx := 4294967295#32)
    (a0 := Wv (main_v21 : DevRef τ sig)) (a1 := Wv (main_v22 : DevRef τ sig)) (a2 := Wv (main_c_4 : DevRef τ sig))
    (a3 := Wv (main_v23 : DevRef τ sig)) (a4 := Wv (main_v24 : DevRef τ sig)) (a5 := Wv (main_v25 : DevRef τ sig))
    (a6 := Wv (main_v26 : DevRef τ sig)) (a7 := Wv (main_c_5 : DevRef τ sig)) (a8 := Wv (main_v27 : DevRef τ sig))
    (a9 := Wv (main_v28 : DevRef τ sig)) (a10 := Wv (main_v29 : DevRef τ sig)) (a11 := Wv (main_v30 : DevRef τ sig))
    (a12 := Wv (main_c_6 : DevRef τ sig)) (a13 := Wv (main_v31 : DevRef τ sig)) (a14 := Wv (main_v32 : DevRef τ sig))
    (a15 := Wv (main_c_7 : DevRef τ sig)) (a16 := Wv (main_v33 : DevRef τ sig)) (a17 := Wv (main_v34 : DevRef τ sig))
    (a18 := Wv (main_c_8 : DevRef τ sig)) (a19 := Wv (main_v35 : DevRef τ sig)) (a20 := Wv (main_v36 : DevRef τ sig))
    (a21 := Wv (main_v37 : DevRef τ sig)) (a22 := Wv (main_c_9 : DevRef τ sig)) (a23 := Wv (main_v38 : DevRef τ sig))
    (a24 := Wv (main_v39 : DevRef τ sig)) (a25 := Wv (main_v40 : DevRef τ sig)) (a26 := Wv (main_c_10 : DevRef τ sig))
    (a27 := Wv (main_v41 : DevRef τ sig)) (a28 := Wv (main_v42 : DevRef τ sig)) (a29 := Wv (main_v43 : DevRef τ sig))
    (a30 := Wv (main_c_11 : DevRef τ sig)) (a31 := Wv (main_v44 : DevRef τ sig)) (a32 := Wv (main_v45 : DevRef τ sig))
    (a33 := Wv (main_v46 : DevRef τ sig)) (a34 := Wv (main_c_12 : DevRef τ sig)) (a35 := Wv (main_v47 : DevRef τ sig))
    (a36 := Wv (main_v48 : DevRef τ sig)) (a37 := Wv (main_v49 : DevRef τ sig)) (a38 := Wv (main_c_13 : DevRef τ sig))
    (a39 := Wv (main_v50 : DevRef τ sig)) (a40 := Wv (main_v51 : DevRef τ sig)) (a41 := Wv (main_v52 : DevRef τ sig))
    (a42 := Wv (main_c_14 : DevRef τ sig)) (a43 := Wv (main_v53 : DevRef τ sig)) (a44 := Wv (main_v54 : DevRef τ sig))
    (a45 := Wv (main_v55 : DevRef τ sig))
    (unary_pre m c hW 0 26 rfl rfl) (reshape_pre m c hW 0 27 rfl rfl) (nullary_pre m c hW 0 28 rfl rfl)
    (unary_pre m c hW 0 29 rfl rfl) (binary_pre m c hW 0 30 rfl rfl) (unary_pre m c hW 0 31 rfl rfl)
    (reshape_pre m c hW 0 32 rfl rfl) (nullary_pre m c hW 0 33 rfl rfl) (unary_pre m c hW 0 34 rfl rfl)
    (binary_pre m c hW 0 35 rfl rfl) (unary_pre m c hW 0 36 rfl rfl) (reshape_pre m c hW 0 37 rfl rfl)
    (nullary_pre m c hW 0 38 rfl rfl) (unary_pre m c hW 0 39 rfl rfl) (binary_pre m c hW 0 40 rfl rfl)
    (nullary_pre m c hW 0 41 rfl rfl) (unary_pre m c hW 0 42 rfl rfl) (binary_pre m c hW 0 43 rfl rfl)
    (nullary_pre m c hW 0 44 rfl rfl) (unary_pre m c hW 0 45 rfl rfl) (binary_pre m c hW 0 46 rfl rfl)
    (binary_pre m c hW 0 47 rfl rfl) (nullary_pre m c hW 0 48 rfl rfl) (unary_pre m c hW 0 49 rfl rfl)
    (binary_pre m c hW 0 50 rfl rfl) (binary_pre m c hW 0 51 rfl rfl) (nullary_pre m c hW 0 52 rfl rfl)
    (unary_pre m c hW 0 53 rfl rfl) (binary_pre m c hW 0 54 rfl rfl) (binary_pre m c hW 0 55 rfl rfl)
    (nullary_pre m c hW 0 56 rfl rfl) (unary_pre m c hW 0 57 rfl rfl) (binary_pre m c hW 0 58 rfl rfl)
    (binary_pre m c hW 0 59 rfl rfl) (nullary_pre m c hW 0 60 rfl rfl) (unary_pre m c hW 0 61 rfl rfl)
    (binary_pre m c hW 0 62 rfl rfl) (binary_pre m c hW 0 63 rfl rfl) (nullary_pre m c hW 0 64 rfl rfl)
    (unary_pre m c hW 0 65 rfl rfl) (binary_pre m c hW 0 66 rfl rfl) (binary_pre m c hW 0 67 rfl rfl)
    (nullary_pre m c hW 0 68 rfl rfl) (unary_pre m c hW 0 69 rfl rfl) (binary_pre m c hW 0 70 rfl rfl)
    (binary_pre m c hW 0 71 rfl rfl)

include hW in
/-- Tap 0: NIDX, looked up in the table the program holds in its map buffer. -/
theorem tap0_nidx : Wv (main_v63 : DevRef τ sig) = nidxT (Wv (main_arg3 : DevRef τ sig)) 4294967295#32 4294967295#32 4294967295#32 (Wv (main_v20 : DevRef τ sig)) :=
  nidx_compose (coords := Wv (main_arg3 : DevRef τ sig)) (dz := 4294967295#32) (dy := 4294967295#32) (dx := 4294967295#32) (M := Wv (main_v20 : DevRef τ sig))
    (a45 := Wv (main_v55 : DevRef τ sig))
    (a46 := Wv (main_c_15 : DevRef τ sig)) (a47 := Wv (main_c_16 : DevRef τ sig)) (q0 := Wv (main_call0_v0 : DevRef τ sig))
    (q1 := Wv (main_call0_v1 : DevRef τ sig)) (q2 := Wv (main_call0_v2 : DevRef τ sig)) (q3 := Wv (main_call0_v3 : DevRef τ sig))
    (q4 := Wv (main_call0_v4 : DevRef τ sig)) (q5 := Wv (main_v56 : DevRef τ sig)) (b0 := Wv (main_c_17 : DevRef τ sig))
    (b1 := Wv (main_v57 : DevRef τ sig)) (b2 := Wv (main_v58 : DevRef τ sig)) (b3 := Wv (main_c_18 : DevRef τ sig))
    (b4 := Wv (main_v59 : DevRef τ sig)) (b5 := Wv (main_v60 : DevRef τ sig)) (b6 := Wv (main_v61 : DevRef τ sig))
    (b7 := Wv (main_v62 : DevRef τ sig)) (b8 := Wv (main_v63 : DevRef τ sig))
    (tap0_inside m c hW).2
    (nullary_pre m c hW 0 72 rfl rfl) (nullary_pre m c hW 0 73 rfl rfl) (unary_pre m c hW 1 0 rfl rfl)
    (unary_pre m c hW 1 1 rfl rfl) (binary_pre m c hW 1 2 rfl rfl) (unary_pre m c hW 1 3 rfl rfl)
    (unary_pre m c hW 1 4 rfl rfl) (binary_pre m c hW 1 5 rfl rfl) (nullary_pre m c hW 2 0 rfl rfl)
    (unary_pre m c hW 2 1 rfl rfl) (binary_pre m c hW 2 2 rfl rfl) (nullary_pre m c hW 2 3 rfl rfl)
    (unary_pre m c hW 2 4 rfl rfl) (binary_pre m c hW 2 5 rfl rfl) (ternary_pre m c hW 2 6 rfl rfl)
    (unary_pre m c hW 2 7 rfl rfl) (binary_pre m c hW 2 8 rfl rfl)

include hW in
/-- Tap 0: the row index, of NIDX and INSIDE as the buffers hold them. -/
theorem tap0_row_buf : Wv (main_v67 : DevRef τ sig)
    = Cert.TapBridge.rowIdx bcast_S_S200000 (Wv (main_v63 : DevRef τ sig)) (Wv (main_v49 : DevRef τ sig)) :=
  row_compose (a37 := Wv (main_v49 : DevRef τ sig)) (b8 := Wv (main_v63 : DevRef τ sig))
    (b9 := Wv (main_c_19 : DevRef τ sig)) (b10 := Wv (main_v64 : DevRef τ sig)) (b11 := Wv (main_v65 : DevRef τ sig))
    (b12 := Wv (main_v66 : DevRef τ sig)) (b13 := Wv (main_c_20 : DevRef τ sig)) (w0 := Wv (main_call1_v0 : DevRef τ sig))
    (w1 := Wv (main_call1_v1 : DevRef τ sig)) (w2 := Wv (main_v67 : DevRef τ sig))
    (nullary_pre m c hW 2 9 rfl rfl) (unary_pre m c hW 2 10 rfl rfl) (binary_pre m c hW 2 11 rfl rfl)
    (binary_pre m c hW 2 12 rfl rfl) (nullary_pre m c hW 2 13 rfl rfl) (unary_pre m c hW 3 0 rfl rfl)
    (unary_pre m c hW 3 1 rfl rfl) (ternary_pre m c hW 3 2 rfl rfl)

include hW in
/-- TAP 0's ROW INDEX as one term of the coordinates, the offset words and the table. -/
theorem tap0_row : Wv (main_v67 : DevRef τ sig) = rowT (Wv (main_arg3 : DevRef τ sig)) 4294967295#32 4294967295#32 4294967295#32 (Wv (main_v20 : DevRef τ sig)) := by
  rw [tap0_row_buf m c hW, tap0_nidx m c hW, (tap0_inside m c hW).1]

/-! ### Tap 1: offset words (4294967295, 4294967295, 0) -/

include hW in
/-- Tap 1: INSIDE and the neighbour's linear cell number. -/
theorem tap1_inside : Wv (main_v96 : DevRef τ sig) = insideT (Wv (main_arg3 : DevRef τ sig)) 4294967295#32 4294967295#32 0#32
    ∧ Wv (main_v102 : DevRef τ sig) = nlinT (Wv (main_arg3 : DevRef τ sig)) 4294967295#32 4294967295#32 0#32 :=
  inside_compose (coords := Wv (main_arg3 : DevRef τ sig)) (dz := 4294967295#32) (dy := 4294967295#32) (dx := 0#32)
    (a0 := Wv (main_v68 : DevRef τ sig)) (a1 := Wv (main_v69 : DevRef τ sig)) (a2 := Wv (main_c_21 : DevRef τ sig))
    (a3 := Wv (main_v70 : DevRef τ sig)) (a4 := Wv (main_v71 : DevRef τ sig)) (a5 := Wv (main_v72 : DevRef τ sig))
    (a6 := Wv (main_v73 : DevRef τ sig)) (a7 := Wv (main_c_22 : DevRef τ sig)) (a8 := Wv (main_v74 : DevRef τ sig))
    (a9 := Wv (main_v75 : DevRef τ sig)) (a10 := Wv (main_v76 : DevRef τ sig)) (a11 := Wv (main_v77 : DevRef τ sig))
    (a12 := Wv (main_c_23 : DevRef τ sig)) (a13 := Wv (main_v78 : DevRef τ sig)) (a14 := Wv (main_v79 : DevRef τ sig))
    (a15 := Wv (main_c_24 : DevRef τ sig)) (a16 := Wv (main_v80 : DevRef τ sig)) (a17 := Wv (main_v81 : DevRef τ sig))
    (a18 := Wv (main_c_25 : DevRef τ sig)) (a19 := Wv (main_v82 : DevRef τ sig)) (a20 := Wv (main_v83 : DevRef τ sig))
    (a21 := Wv (main_v84 : DevRef τ sig)) (a22 := Wv (main_c_26 : DevRef τ sig)) (a23 := Wv (main_v85 : DevRef τ sig))
    (a24 := Wv (main_v86 : DevRef τ sig)) (a25 := Wv (main_v87 : DevRef τ sig)) (a26 := Wv (main_c_27 : DevRef τ sig))
    (a27 := Wv (main_v88 : DevRef τ sig)) (a28 := Wv (main_v89 : DevRef τ sig)) (a29 := Wv (main_v90 : DevRef τ sig))
    (a30 := Wv (main_c_28 : DevRef τ sig)) (a31 := Wv (main_v91 : DevRef τ sig)) (a32 := Wv (main_v92 : DevRef τ sig))
    (a33 := Wv (main_v93 : DevRef τ sig)) (a34 := Wv (main_c_29 : DevRef τ sig)) (a35 := Wv (main_v94 : DevRef τ sig))
    (a36 := Wv (main_v95 : DevRef τ sig)) (a37 := Wv (main_v96 : DevRef τ sig)) (a38 := Wv (main_c_30 : DevRef τ sig))
    (a39 := Wv (main_v97 : DevRef τ sig)) (a40 := Wv (main_v98 : DevRef τ sig)) (a41 := Wv (main_v99 : DevRef τ sig))
    (a42 := Wv (main_c_31 : DevRef τ sig)) (a43 := Wv (main_v100 : DevRef τ sig)) (a44 := Wv (main_v101 : DevRef τ sig))
    (a45 := Wv (main_v102 : DevRef τ sig))
    (unary_pre m c hW 4 0 rfl rfl) (reshape_pre m c hW 4 1 rfl rfl) (nullary_pre m c hW 4 2 rfl rfl)
    (unary_pre m c hW 4 3 rfl rfl) (binary_pre m c hW 4 4 rfl rfl) (unary_pre m c hW 4 5 rfl rfl)
    (reshape_pre m c hW 4 6 rfl rfl) (nullary_pre m c hW 4 7 rfl rfl) (unary_pre m c hW 4 8 rfl rfl)
    (binary_pre m c hW 4 9 rfl rfl) (unary_pre m c hW 4 10 rfl rfl) (reshape_pre m c hW 4 11 rfl rfl)
    (nullary_pre m c hW 4 12 rfl rfl) (unary_pre m c hW 4 13 rfl rfl) (binary_pre m c hW 4 14 rfl rfl)
    (nullary_pre m c hW 4 15 rfl rfl) (unary_pre m c hW 4 16 rfl rfl) (binary_pre m c hW 4 17 rfl rfl)
    (nullary_pre m c hW 4 18 rfl rfl) (unary_pre m c hW 4 19 rfl rfl) (binary_pre m c hW 4 20 rfl rfl)
    (binary_pre m c hW 4 21 rfl rfl) (nullary_pre m c hW 4 22 rfl rfl) (unary_pre m c hW 4 23 rfl rfl)
    (binary_pre m c hW 4 24 rfl rfl) (binary_pre m c hW 4 25 rfl rfl) (nullary_pre m c hW 4 26 rfl rfl)
    (unary_pre m c hW 4 27 rfl rfl) (binary_pre m c hW 4 28 rfl rfl) (binary_pre m c hW 4 29 rfl rfl)
    (nullary_pre m c hW 4 30 rfl rfl) (unary_pre m c hW 4 31 rfl rfl) (binary_pre m c hW 4 32 rfl rfl)
    (binary_pre m c hW 4 33 rfl rfl) (nullary_pre m c hW 4 34 rfl rfl) (unary_pre m c hW 4 35 rfl rfl)
    (binary_pre m c hW 4 36 rfl rfl) (binary_pre m c hW 4 37 rfl rfl) (nullary_pre m c hW 4 38 rfl rfl)
    (unary_pre m c hW 4 39 rfl rfl) (binary_pre m c hW 4 40 rfl rfl) (binary_pre m c hW 4 41 rfl rfl)
    (nullary_pre m c hW 4 42 rfl rfl) (unary_pre m c hW 4 43 rfl rfl) (binary_pre m c hW 4 44 rfl rfl)
    (binary_pre m c hW 4 45 rfl rfl)

include hW in
/-- Tap 1: NIDX, looked up in the table the program holds in its map buffer. -/
theorem tap1_nidx : Wv (main_v110 : DevRef τ sig) = nidxT (Wv (main_arg3 : DevRef τ sig)) 4294967295#32 4294967295#32 0#32 (Wv (main_v20 : DevRef τ sig)) :=
  nidx_compose (coords := Wv (main_arg3 : DevRef τ sig)) (dz := 4294967295#32) (dy := 4294967295#32) (dx := 0#32) (M := Wv (main_v20 : DevRef τ sig))
    (a45 := Wv (main_v102 : DevRef τ sig))
    (a46 := Wv (main_c_32 : DevRef τ sig)) (a47 := Wv (main_c_33 : DevRef τ sig)) (q0 := Wv (main_call2_v0 : DevRef τ sig))
    (q1 := Wv (main_call2_v1 : DevRef τ sig)) (q2 := Wv (main_call2_v2 : DevRef τ sig)) (q3 := Wv (main_call2_v3 : DevRef τ sig))
    (q4 := Wv (main_call2_v4 : DevRef τ sig)) (q5 := Wv (main_v103 : DevRef τ sig)) (b0 := Wv (main_c_34 : DevRef τ sig))
    (b1 := Wv (main_v104 : DevRef τ sig)) (b2 := Wv (main_v105 : DevRef τ sig)) (b3 := Wv (main_c_35 : DevRef τ sig))
    (b4 := Wv (main_v106 : DevRef τ sig)) (b5 := Wv (main_v107 : DevRef τ sig)) (b6 := Wv (main_v108 : DevRef τ sig))
    (b7 := Wv (main_v109 : DevRef τ sig)) (b8 := Wv (main_v110 : DevRef τ sig))
    (tap1_inside m c hW).2
    (nullary_pre m c hW 4 46 rfl rfl) (nullary_pre m c hW 4 47 rfl rfl) (unary_pre m c hW 5 0 rfl rfl)
    (unary_pre m c hW 5 1 rfl rfl) (binary_pre m c hW 5 2 rfl rfl) (unary_pre m c hW 5 3 rfl rfl)
    (unary_pre m c hW 5 4 rfl rfl) (binary_pre m c hW 5 5 rfl rfl) (nullary_pre m c hW 6 0 rfl rfl)
    (unary_pre m c hW 6 1 rfl rfl) (binary_pre m c hW 6 2 rfl rfl) (nullary_pre m c hW 6 3 rfl rfl)
    (unary_pre m c hW 6 4 rfl rfl) (binary_pre m c hW 6 5 rfl rfl) (ternary_pre m c hW 6 6 rfl rfl)
    (unary_pre m c hW 6 7 rfl rfl) (binary_pre m c hW 6 8 rfl rfl)

include hW in
/-- Tap 1: the row index, of NIDX and INSIDE as the buffers hold them. -/
theorem tap1_row_buf : Wv (main_v114 : DevRef τ sig)
    = Cert.TapBridge.rowIdx bcast_S_S200000 (Wv (main_v110 : DevRef τ sig)) (Wv (main_v96 : DevRef τ sig)) :=
  row_compose (a37 := Wv (main_v96 : DevRef τ sig)) (b8 := Wv (main_v110 : DevRef τ sig))
    (b9 := Wv (main_c_36 : DevRef τ sig)) (b10 := Wv (main_v111 : DevRef τ sig)) (b11 := Wv (main_v112 : DevRef τ sig))
    (b12 := Wv (main_v113 : DevRef τ sig)) (b13 := Wv (main_c_37 : DevRef τ sig)) (w0 := Wv (main_call3_v0 : DevRef τ sig))
    (w1 := Wv (main_call3_v1 : DevRef τ sig)) (w2 := Wv (main_v114 : DevRef τ sig))
    (nullary_pre m c hW 6 9 rfl rfl) (unary_pre m c hW 6 10 rfl rfl) (binary_pre m c hW 6 11 rfl rfl)
    (binary_pre m c hW 6 12 rfl rfl) (nullary_pre m c hW 6 13 rfl rfl) (unary_pre m c hW 7 0 rfl rfl)
    (unary_pre m c hW 7 1 rfl rfl) (ternary_pre m c hW 7 2 rfl rfl)

include hW in
/-- TAP 1's ROW INDEX as one term of the coordinates, the offset words and the table. -/
theorem tap1_row : Wv (main_v114 : DevRef τ sig) = rowT (Wv (main_arg3 : DevRef τ sig)) 4294967295#32 4294967295#32 0#32 (Wv (main_v20 : DevRef τ sig)) := by
  rw [tap1_row_buf m c hW, tap1_nidx m c hW, (tap1_inside m c hW).1]

/-! ### Tap 2: offset words (4294967295, 4294967295, 1) -/

include hW in
/-- Tap 2: INSIDE and the neighbour's linear cell number. -/
theorem tap2_inside : Wv (main_v143 : DevRef τ sig) = insideT (Wv (main_arg3 : DevRef τ sig)) 4294967295#32 4294967295#32 1#32
    ∧ Wv (main_v149 : DevRef τ sig) = nlinT (Wv (main_arg3 : DevRef τ sig)) 4294967295#32 4294967295#32 1#32 :=
  inside_compose (coords := Wv (main_arg3 : DevRef τ sig)) (dz := 4294967295#32) (dy := 4294967295#32) (dx := 1#32)
    (a0 := Wv (main_v115 : DevRef τ sig)) (a1 := Wv (main_v116 : DevRef τ sig)) (a2 := Wv (main_c_38 : DevRef τ sig))
    (a3 := Wv (main_v117 : DevRef τ sig)) (a4 := Wv (main_v118 : DevRef τ sig)) (a5 := Wv (main_v119 : DevRef τ sig))
    (a6 := Wv (main_v120 : DevRef τ sig)) (a7 := Wv (main_c_39 : DevRef τ sig)) (a8 := Wv (main_v121 : DevRef τ sig))
    (a9 := Wv (main_v122 : DevRef τ sig)) (a10 := Wv (main_v123 : DevRef τ sig)) (a11 := Wv (main_v124 : DevRef τ sig))
    (a12 := Wv (main_c_40 : DevRef τ sig)) (a13 := Wv (main_v125 : DevRef τ sig)) (a14 := Wv (main_v126 : DevRef τ sig))
    (a15 := Wv (main_c_41 : DevRef τ sig)) (a16 := Wv (main_v127 : DevRef τ sig)) (a17 := Wv (main_v128 : DevRef τ sig))
    (a18 := Wv (main_c_42 : DevRef τ sig)) (a19 := Wv (main_v129 : DevRef τ sig)) (a20 := Wv (main_v130 : DevRef τ sig))
    (a21 := Wv (main_v131 : DevRef τ sig)) (a22 := Wv (main_c_43 : DevRef τ sig)) (a23 := Wv (main_v132 : DevRef τ sig))
    (a24 := Wv (main_v133 : DevRef τ sig)) (a25 := Wv (main_v134 : DevRef τ sig)) (a26 := Wv (main_c_44 : DevRef τ sig))
    (a27 := Wv (main_v135 : DevRef τ sig)) (a28 := Wv (main_v136 : DevRef τ sig)) (a29 := Wv (main_v137 : DevRef τ sig))
    (a30 := Wv (main_c_45 : DevRef τ sig)) (a31 := Wv (main_v138 : DevRef τ sig)) (a32 := Wv (main_v139 : DevRef τ sig))
    (a33 := Wv (main_v140 : DevRef τ sig)) (a34 := Wv (main_c_46 : DevRef τ sig)) (a35 := Wv (main_v141 : DevRef τ sig))
    (a36 := Wv (main_v142 : DevRef τ sig)) (a37 := Wv (main_v143 : DevRef τ sig)) (a38 := Wv (main_c_47 : DevRef τ sig))
    (a39 := Wv (main_v144 : DevRef τ sig)) (a40 := Wv (main_v145 : DevRef τ sig)) (a41 := Wv (main_v146 : DevRef τ sig))
    (a42 := Wv (main_c_48 : DevRef τ sig)) (a43 := Wv (main_v147 : DevRef τ sig)) (a44 := Wv (main_v148 : DevRef τ sig))
    (a45 := Wv (main_v149 : DevRef τ sig))
    (unary_pre m c hW 8 0 rfl rfl) (reshape_pre m c hW 8 1 rfl rfl) (nullary_pre m c hW 8 2 rfl rfl)
    (unary_pre m c hW 8 3 rfl rfl) (binary_pre m c hW 8 4 rfl rfl) (unary_pre m c hW 8 5 rfl rfl)
    (reshape_pre m c hW 8 6 rfl rfl) (nullary_pre m c hW 8 7 rfl rfl) (unary_pre m c hW 8 8 rfl rfl)
    (binary_pre m c hW 8 9 rfl rfl) (unary_pre m c hW 8 10 rfl rfl) (reshape_pre m c hW 8 11 rfl rfl)
    (nullary_pre m c hW 8 12 rfl rfl) (unary_pre m c hW 8 13 rfl rfl) (binary_pre m c hW 8 14 rfl rfl)
    (nullary_pre m c hW 8 15 rfl rfl) (unary_pre m c hW 8 16 rfl rfl) (binary_pre m c hW 8 17 rfl rfl)
    (nullary_pre m c hW 8 18 rfl rfl) (unary_pre m c hW 8 19 rfl rfl) (binary_pre m c hW 8 20 rfl rfl)
    (binary_pre m c hW 8 21 rfl rfl) (nullary_pre m c hW 8 22 rfl rfl) (unary_pre m c hW 8 23 rfl rfl)
    (binary_pre m c hW 8 24 rfl rfl) (binary_pre m c hW 8 25 rfl rfl) (nullary_pre m c hW 8 26 rfl rfl)
    (unary_pre m c hW 8 27 rfl rfl) (binary_pre m c hW 8 28 rfl rfl) (binary_pre m c hW 8 29 rfl rfl)
    (nullary_pre m c hW 8 30 rfl rfl) (unary_pre m c hW 8 31 rfl rfl) (binary_pre m c hW 8 32 rfl rfl)
    (binary_pre m c hW 8 33 rfl rfl) (nullary_pre m c hW 8 34 rfl rfl) (unary_pre m c hW 8 35 rfl rfl)
    (binary_pre m c hW 8 36 rfl rfl) (binary_pre m c hW 8 37 rfl rfl) (nullary_pre m c hW 8 38 rfl rfl)
    (unary_pre m c hW 8 39 rfl rfl) (binary_pre m c hW 8 40 rfl rfl) (binary_pre m c hW 8 41 rfl rfl)
    (nullary_pre m c hW 8 42 rfl rfl) (unary_pre m c hW 8 43 rfl rfl) (binary_pre m c hW 8 44 rfl rfl)
    (binary_pre m c hW 8 45 rfl rfl)

include hW in
/-- Tap 2: NIDX, looked up in the table the program holds in its map buffer. -/
theorem tap2_nidx : Wv (main_v157 : DevRef τ sig) = nidxT (Wv (main_arg3 : DevRef τ sig)) 4294967295#32 4294967295#32 1#32 (Wv (main_v20 : DevRef τ sig)) :=
  nidx_compose (coords := Wv (main_arg3 : DevRef τ sig)) (dz := 4294967295#32) (dy := 4294967295#32) (dx := 1#32) (M := Wv (main_v20 : DevRef τ sig))
    (a45 := Wv (main_v149 : DevRef τ sig))
    (a46 := Wv (main_c_49 : DevRef τ sig)) (a47 := Wv (main_c_50 : DevRef τ sig)) (q0 := Wv (main_call4_v0 : DevRef τ sig))
    (q1 := Wv (main_call4_v1 : DevRef τ sig)) (q2 := Wv (main_call4_v2 : DevRef τ sig)) (q3 := Wv (main_call4_v3 : DevRef τ sig))
    (q4 := Wv (main_call4_v4 : DevRef τ sig)) (q5 := Wv (main_v150 : DevRef τ sig)) (b0 := Wv (main_c_51 : DevRef τ sig))
    (b1 := Wv (main_v151 : DevRef τ sig)) (b2 := Wv (main_v152 : DevRef τ sig)) (b3 := Wv (main_c_52 : DevRef τ sig))
    (b4 := Wv (main_v153 : DevRef τ sig)) (b5 := Wv (main_v154 : DevRef τ sig)) (b6 := Wv (main_v155 : DevRef τ sig))
    (b7 := Wv (main_v156 : DevRef τ sig)) (b8 := Wv (main_v157 : DevRef τ sig))
    (tap2_inside m c hW).2
    (nullary_pre m c hW 8 46 rfl rfl) (nullary_pre m c hW 8 47 rfl rfl) (unary_pre m c hW 9 0 rfl rfl)
    (unary_pre m c hW 9 1 rfl rfl) (binary_pre m c hW 9 2 rfl rfl) (unary_pre m c hW 9 3 rfl rfl)
    (unary_pre m c hW 9 4 rfl rfl) (binary_pre m c hW 9 5 rfl rfl) (nullary_pre m c hW 10 0 rfl rfl)
    (unary_pre m c hW 10 1 rfl rfl) (binary_pre m c hW 10 2 rfl rfl) (nullary_pre m c hW 10 3 rfl rfl)
    (unary_pre m c hW 10 4 rfl rfl) (binary_pre m c hW 10 5 rfl rfl) (ternary_pre m c hW 10 6 rfl rfl)
    (unary_pre m c hW 10 7 rfl rfl) (binary_pre m c hW 10 8 rfl rfl)

include hW in
/-- Tap 2: the row index, of NIDX and INSIDE as the buffers hold them. -/
theorem tap2_row_buf : Wv (main_v161 : DevRef τ sig)
    = Cert.TapBridge.rowIdx bcast_S_S200000 (Wv (main_v157 : DevRef τ sig)) (Wv (main_v143 : DevRef τ sig)) :=
  row_compose (a37 := Wv (main_v143 : DevRef τ sig)) (b8 := Wv (main_v157 : DevRef τ sig))
    (b9 := Wv (main_c_53 : DevRef τ sig)) (b10 := Wv (main_v158 : DevRef τ sig)) (b11 := Wv (main_v159 : DevRef τ sig))
    (b12 := Wv (main_v160 : DevRef τ sig)) (b13 := Wv (main_c_54 : DevRef τ sig)) (w0 := Wv (main_call5_v0 : DevRef τ sig))
    (w1 := Wv (main_call5_v1 : DevRef τ sig)) (w2 := Wv (main_v161 : DevRef τ sig))
    (nullary_pre m c hW 10 9 rfl rfl) (unary_pre m c hW 10 10 rfl rfl) (binary_pre m c hW 10 11 rfl rfl)
    (binary_pre m c hW 10 12 rfl rfl) (nullary_pre m c hW 10 13 rfl rfl) (unary_pre m c hW 11 0 rfl rfl)
    (unary_pre m c hW 11 1 rfl rfl) (ternary_pre m c hW 11 2 rfl rfl)

include hW in
/-- TAP 2's ROW INDEX as one term of the coordinates, the offset words and the table. -/
theorem tap2_row : Wv (main_v161 : DevRef τ sig) = rowT (Wv (main_arg3 : DevRef τ sig)) 4294967295#32 4294967295#32 1#32 (Wv (main_v20 : DevRef τ sig)) := by
  rw [tap2_row_buf m c hW, tap2_nidx m c hW, (tap2_inside m c hW).1]

/-! ### Tap 3: offset words (4294967295, 0, 4294967295) -/

include hW in
/-- Tap 3: INSIDE and the neighbour's linear cell number. -/
theorem tap3_inside : Wv (main_v190 : DevRef τ sig) = insideT (Wv (main_arg3 : DevRef τ sig)) 4294967295#32 0#32 4294967295#32
    ∧ Wv (main_v196 : DevRef τ sig) = nlinT (Wv (main_arg3 : DevRef τ sig)) 4294967295#32 0#32 4294967295#32 :=
  inside_compose (coords := Wv (main_arg3 : DevRef τ sig)) (dz := 4294967295#32) (dy := 0#32) (dx := 4294967295#32)
    (a0 := Wv (main_v162 : DevRef τ sig)) (a1 := Wv (main_v163 : DevRef τ sig)) (a2 := Wv (main_c_55 : DevRef τ sig))
    (a3 := Wv (main_v164 : DevRef τ sig)) (a4 := Wv (main_v165 : DevRef τ sig)) (a5 := Wv (main_v166 : DevRef τ sig))
    (a6 := Wv (main_v167 : DevRef τ sig)) (a7 := Wv (main_c_56 : DevRef τ sig)) (a8 := Wv (main_v168 : DevRef τ sig))
    (a9 := Wv (main_v169 : DevRef τ sig)) (a10 := Wv (main_v170 : DevRef τ sig)) (a11 := Wv (main_v171 : DevRef τ sig))
    (a12 := Wv (main_c_57 : DevRef τ sig)) (a13 := Wv (main_v172 : DevRef τ sig)) (a14 := Wv (main_v173 : DevRef τ sig))
    (a15 := Wv (main_c_58 : DevRef τ sig)) (a16 := Wv (main_v174 : DevRef τ sig)) (a17 := Wv (main_v175 : DevRef τ sig))
    (a18 := Wv (main_c_59 : DevRef τ sig)) (a19 := Wv (main_v176 : DevRef τ sig)) (a20 := Wv (main_v177 : DevRef τ sig))
    (a21 := Wv (main_v178 : DevRef τ sig)) (a22 := Wv (main_c_60 : DevRef τ sig)) (a23 := Wv (main_v179 : DevRef τ sig))
    (a24 := Wv (main_v180 : DevRef τ sig)) (a25 := Wv (main_v181 : DevRef τ sig)) (a26 := Wv (main_c_61 : DevRef τ sig))
    (a27 := Wv (main_v182 : DevRef τ sig)) (a28 := Wv (main_v183 : DevRef τ sig)) (a29 := Wv (main_v184 : DevRef τ sig))
    (a30 := Wv (main_c_62 : DevRef τ sig)) (a31 := Wv (main_v185 : DevRef τ sig)) (a32 := Wv (main_v186 : DevRef τ sig))
    (a33 := Wv (main_v187 : DevRef τ sig)) (a34 := Wv (main_c_63 : DevRef τ sig)) (a35 := Wv (main_v188 : DevRef τ sig))
    (a36 := Wv (main_v189 : DevRef τ sig)) (a37 := Wv (main_v190 : DevRef τ sig)) (a38 := Wv (main_c_64 : DevRef τ sig))
    (a39 := Wv (main_v191 : DevRef τ sig)) (a40 := Wv (main_v192 : DevRef τ sig)) (a41 := Wv (main_v193 : DevRef τ sig))
    (a42 := Wv (main_c_65 : DevRef τ sig)) (a43 := Wv (main_v194 : DevRef τ sig)) (a44 := Wv (main_v195 : DevRef τ sig))
    (a45 := Wv (main_v196 : DevRef τ sig))
    (unary_pre m c hW 12 0 rfl rfl) (reshape_pre m c hW 12 1 rfl rfl) (nullary_pre m c hW 12 2 rfl rfl)
    (unary_pre m c hW 12 3 rfl rfl) (binary_pre m c hW 12 4 rfl rfl) (unary_pre m c hW 12 5 rfl rfl)
    (reshape_pre m c hW 12 6 rfl rfl) (nullary_pre m c hW 12 7 rfl rfl) (unary_pre m c hW 12 8 rfl rfl)
    (binary_pre m c hW 12 9 rfl rfl) (unary_pre m c hW 12 10 rfl rfl) (reshape_pre m c hW 12 11 rfl rfl)
    (nullary_pre m c hW 12 12 rfl rfl) (unary_pre m c hW 12 13 rfl rfl) (binary_pre m c hW 12 14 rfl rfl)
    (nullary_pre m c hW 12 15 rfl rfl) (unary_pre m c hW 12 16 rfl rfl) (binary_pre m c hW 12 17 rfl rfl)
    (nullary_pre m c hW 12 18 rfl rfl) (unary_pre m c hW 12 19 rfl rfl) (binary_pre m c hW 12 20 rfl rfl)
    (binary_pre m c hW 12 21 rfl rfl) (nullary_pre m c hW 12 22 rfl rfl) (unary_pre m c hW 12 23 rfl rfl)
    (binary_pre m c hW 12 24 rfl rfl) (binary_pre m c hW 12 25 rfl rfl) (nullary_pre m c hW 12 26 rfl rfl)
    (unary_pre m c hW 12 27 rfl rfl) (binary_pre m c hW 12 28 rfl rfl) (binary_pre m c hW 12 29 rfl rfl)
    (nullary_pre m c hW 12 30 rfl rfl) (unary_pre m c hW 12 31 rfl rfl) (binary_pre m c hW 12 32 rfl rfl)
    (binary_pre m c hW 12 33 rfl rfl) (nullary_pre m c hW 12 34 rfl rfl) (unary_pre m c hW 12 35 rfl rfl)
    (binary_pre m c hW 12 36 rfl rfl) (binary_pre m c hW 12 37 rfl rfl) (nullary_pre m c hW 12 38 rfl rfl)
    (unary_pre m c hW 12 39 rfl rfl) (binary_pre m c hW 12 40 rfl rfl) (binary_pre m c hW 12 41 rfl rfl)
    (nullary_pre m c hW 12 42 rfl rfl) (unary_pre m c hW 12 43 rfl rfl) (binary_pre m c hW 12 44 rfl rfl)
    (binary_pre m c hW 12 45 rfl rfl)

include hW in
/-- Tap 3: NIDX, looked up in the table the program holds in its map buffer. -/
theorem tap3_nidx : Wv (main_v204 : DevRef τ sig) = nidxT (Wv (main_arg3 : DevRef τ sig)) 4294967295#32 0#32 4294967295#32 (Wv (main_v20 : DevRef τ sig)) :=
  nidx_compose (coords := Wv (main_arg3 : DevRef τ sig)) (dz := 4294967295#32) (dy := 0#32) (dx := 4294967295#32) (M := Wv (main_v20 : DevRef τ sig))
    (a45 := Wv (main_v196 : DevRef τ sig))
    (a46 := Wv (main_c_66 : DevRef τ sig)) (a47 := Wv (main_c_67 : DevRef τ sig)) (q0 := Wv (main_call6_v0 : DevRef τ sig))
    (q1 := Wv (main_call6_v1 : DevRef τ sig)) (q2 := Wv (main_call6_v2 : DevRef τ sig)) (q3 := Wv (main_call6_v3 : DevRef τ sig))
    (q4 := Wv (main_call6_v4 : DevRef τ sig)) (q5 := Wv (main_v197 : DevRef τ sig)) (b0 := Wv (main_c_68 : DevRef τ sig))
    (b1 := Wv (main_v198 : DevRef τ sig)) (b2 := Wv (main_v199 : DevRef τ sig)) (b3 := Wv (main_c_69 : DevRef τ sig))
    (b4 := Wv (main_v200 : DevRef τ sig)) (b5 := Wv (main_v201 : DevRef τ sig)) (b6 := Wv (main_v202 : DevRef τ sig))
    (b7 := Wv (main_v203 : DevRef τ sig)) (b8 := Wv (main_v204 : DevRef τ sig))
    (tap3_inside m c hW).2
    (nullary_pre m c hW 12 46 rfl rfl) (nullary_pre m c hW 12 47 rfl rfl) (unary_pre m c hW 13 0 rfl rfl)
    (unary_pre m c hW 13 1 rfl rfl) (binary_pre m c hW 13 2 rfl rfl) (unary_pre m c hW 13 3 rfl rfl)
    (unary_pre m c hW 13 4 rfl rfl) (binary_pre m c hW 13 5 rfl rfl) (nullary_pre m c hW 14 0 rfl rfl)
    (unary_pre m c hW 14 1 rfl rfl) (binary_pre m c hW 14 2 rfl rfl) (nullary_pre m c hW 14 3 rfl rfl)
    (unary_pre m c hW 14 4 rfl rfl) (binary_pre m c hW 14 5 rfl rfl) (ternary_pre m c hW 14 6 rfl rfl)
    (unary_pre m c hW 14 7 rfl rfl) (binary_pre m c hW 14 8 rfl rfl)

include hW in
/-- Tap 3: the row index, of NIDX and INSIDE as the buffers hold them. -/
theorem tap3_row_buf : Wv (main_v208 : DevRef τ sig)
    = Cert.TapBridge.rowIdx bcast_S_S200000 (Wv (main_v204 : DevRef τ sig)) (Wv (main_v190 : DevRef τ sig)) :=
  row_compose (a37 := Wv (main_v190 : DevRef τ sig)) (b8 := Wv (main_v204 : DevRef τ sig))
    (b9 := Wv (main_c_70 : DevRef τ sig)) (b10 := Wv (main_v205 : DevRef τ sig)) (b11 := Wv (main_v206 : DevRef τ sig))
    (b12 := Wv (main_v207 : DevRef τ sig)) (b13 := Wv (main_c_71 : DevRef τ sig)) (w0 := Wv (main_call7_v0 : DevRef τ sig))
    (w1 := Wv (main_call7_v1 : DevRef τ sig)) (w2 := Wv (main_v208 : DevRef τ sig))
    (nullary_pre m c hW 14 9 rfl rfl) (unary_pre m c hW 14 10 rfl rfl) (binary_pre m c hW 14 11 rfl rfl)
    (binary_pre m c hW 14 12 rfl rfl) (nullary_pre m c hW 14 13 rfl rfl) (unary_pre m c hW 15 0 rfl rfl)
    (unary_pre m c hW 15 1 rfl rfl) (ternary_pre m c hW 15 2 rfl rfl)

include hW in
/-- TAP 3's ROW INDEX as one term of the coordinates, the offset words and the table. -/
theorem tap3_row : Wv (main_v208 : DevRef τ sig) = rowT (Wv (main_arg3 : DevRef τ sig)) 4294967295#32 0#32 4294967295#32 (Wv (main_v20 : DevRef τ sig)) := by
  rw [tap3_row_buf m c hW, tap3_nidx m c hW, (tap3_inside m c hW).1]

/-! ### Tap 4: offset words (4294967295, 0, 0) -/

include hW in
/-- Tap 4: INSIDE and the neighbour's linear cell number. -/
theorem tap4_inside : Wv (main_v237 : DevRef τ sig) = insideT (Wv (main_arg3 : DevRef τ sig)) 4294967295#32 0#32 0#32
    ∧ Wv (main_v243 : DevRef τ sig) = nlinT (Wv (main_arg3 : DevRef τ sig)) 4294967295#32 0#32 0#32 :=
  inside_compose (coords := Wv (main_arg3 : DevRef τ sig)) (dz := 4294967295#32) (dy := 0#32) (dx := 0#32)
    (a0 := Wv (main_v209 : DevRef τ sig)) (a1 := Wv (main_v210 : DevRef τ sig)) (a2 := Wv (main_c_72 : DevRef τ sig))
    (a3 := Wv (main_v211 : DevRef τ sig)) (a4 := Wv (main_v212 : DevRef τ sig)) (a5 := Wv (main_v213 : DevRef τ sig))
    (a6 := Wv (main_v214 : DevRef τ sig)) (a7 := Wv (main_c_73 : DevRef τ sig)) (a8 := Wv (main_v215 : DevRef τ sig))
    (a9 := Wv (main_v216 : DevRef τ sig)) (a10 := Wv (main_v217 : DevRef τ sig)) (a11 := Wv (main_v218 : DevRef τ sig))
    (a12 := Wv (main_c_74 : DevRef τ sig)) (a13 := Wv (main_v219 : DevRef τ sig)) (a14 := Wv (main_v220 : DevRef τ sig))
    (a15 := Wv (main_c_75 : DevRef τ sig)) (a16 := Wv (main_v221 : DevRef τ sig)) (a17 := Wv (main_v222 : DevRef τ sig))
    (a18 := Wv (main_c_76 : DevRef τ sig)) (a19 := Wv (main_v223 : DevRef τ sig)) (a20 := Wv (main_v224 : DevRef τ sig))
    (a21 := Wv (main_v225 : DevRef τ sig)) (a22 := Wv (main_c_77 : DevRef τ sig)) (a23 := Wv (main_v226 : DevRef τ sig))
    (a24 := Wv (main_v227 : DevRef τ sig)) (a25 := Wv (main_v228 : DevRef τ sig)) (a26 := Wv (main_c_78 : DevRef τ sig))
    (a27 := Wv (main_v229 : DevRef τ sig)) (a28 := Wv (main_v230 : DevRef τ sig)) (a29 := Wv (main_v231 : DevRef τ sig))
    (a30 := Wv (main_c_79 : DevRef τ sig)) (a31 := Wv (main_v232 : DevRef τ sig)) (a32 := Wv (main_v233 : DevRef τ sig))
    (a33 := Wv (main_v234 : DevRef τ sig)) (a34 := Wv (main_c_80 : DevRef τ sig)) (a35 := Wv (main_v235 : DevRef τ sig))
    (a36 := Wv (main_v236 : DevRef τ sig)) (a37 := Wv (main_v237 : DevRef τ sig)) (a38 := Wv (main_c_81 : DevRef τ sig))
    (a39 := Wv (main_v238 : DevRef τ sig)) (a40 := Wv (main_v239 : DevRef τ sig)) (a41 := Wv (main_v240 : DevRef τ sig))
    (a42 := Wv (main_c_82 : DevRef τ sig)) (a43 := Wv (main_v241 : DevRef τ sig)) (a44 := Wv (main_v242 : DevRef τ sig))
    (a45 := Wv (main_v243 : DevRef τ sig))
    (unary_pre m c hW 16 0 rfl rfl) (reshape_pre m c hW 16 1 rfl rfl) (nullary_pre m c hW 16 2 rfl rfl)
    (unary_pre m c hW 16 3 rfl rfl) (binary_pre m c hW 16 4 rfl rfl) (unary_pre m c hW 16 5 rfl rfl)
    (reshape_pre m c hW 16 6 rfl rfl) (nullary_pre m c hW 16 7 rfl rfl) (unary_pre m c hW 16 8 rfl rfl)
    (binary_pre m c hW 16 9 rfl rfl) (unary_pre m c hW 16 10 rfl rfl) (reshape_pre m c hW 16 11 rfl rfl)
    (nullary_pre m c hW 16 12 rfl rfl) (unary_pre m c hW 16 13 rfl rfl) (binary_pre m c hW 16 14 rfl rfl)
    (nullary_pre m c hW 16 15 rfl rfl) (unary_pre m c hW 16 16 rfl rfl) (binary_pre m c hW 16 17 rfl rfl)
    (nullary_pre m c hW 16 18 rfl rfl) (unary_pre m c hW 16 19 rfl rfl) (binary_pre m c hW 16 20 rfl rfl)
    (binary_pre m c hW 16 21 rfl rfl) (nullary_pre m c hW 16 22 rfl rfl) (unary_pre m c hW 16 23 rfl rfl)
    (binary_pre m c hW 16 24 rfl rfl) (binary_pre m c hW 16 25 rfl rfl) (nullary_pre m c hW 16 26 rfl rfl)
    (unary_pre m c hW 16 27 rfl rfl) (binary_pre m c hW 16 28 rfl rfl) (binary_pre m c hW 16 29 rfl rfl)
    (nullary_pre m c hW 16 30 rfl rfl) (unary_pre m c hW 16 31 rfl rfl) (binary_pre m c hW 16 32 rfl rfl)
    (binary_pre m c hW 16 33 rfl rfl) (nullary_pre m c hW 16 34 rfl rfl) (unary_pre m c hW 16 35 rfl rfl)
    (binary_pre m c hW 16 36 rfl rfl) (binary_pre m c hW 16 37 rfl rfl) (nullary_pre m c hW 16 38 rfl rfl)
    (unary_pre m c hW 16 39 rfl rfl) (binary_pre m c hW 16 40 rfl rfl) (binary_pre m c hW 16 41 rfl rfl)
    (nullary_pre m c hW 16 42 rfl rfl) (unary_pre m c hW 16 43 rfl rfl) (binary_pre m c hW 16 44 rfl rfl)
    (binary_pre m c hW 16 45 rfl rfl)

include hW in
/-- Tap 4: NIDX, looked up in the table the program holds in its map buffer. -/
theorem tap4_nidx : Wv (main_v251 : DevRef τ sig) = nidxT (Wv (main_arg3 : DevRef τ sig)) 4294967295#32 0#32 0#32 (Wv (main_v20 : DevRef τ sig)) :=
  nidx_compose (coords := Wv (main_arg3 : DevRef τ sig)) (dz := 4294967295#32) (dy := 0#32) (dx := 0#32) (M := Wv (main_v20 : DevRef τ sig))
    (a45 := Wv (main_v243 : DevRef τ sig))
    (a46 := Wv (main_c_83 : DevRef τ sig)) (a47 := Wv (main_c_84 : DevRef τ sig)) (q0 := Wv (main_call8_v0 : DevRef τ sig))
    (q1 := Wv (main_call8_v1 : DevRef τ sig)) (q2 := Wv (main_call8_v2 : DevRef τ sig)) (q3 := Wv (main_call8_v3 : DevRef τ sig))
    (q4 := Wv (main_call8_v4 : DevRef τ sig)) (q5 := Wv (main_v244 : DevRef τ sig)) (b0 := Wv (main_c_85 : DevRef τ sig))
    (b1 := Wv (main_v245 : DevRef τ sig)) (b2 := Wv (main_v246 : DevRef τ sig)) (b3 := Wv (main_c_86 : DevRef τ sig))
    (b4 := Wv (main_v247 : DevRef τ sig)) (b5 := Wv (main_v248 : DevRef τ sig)) (b6 := Wv (main_v249 : DevRef τ sig))
    (b7 := Wv (main_v250 : DevRef τ sig)) (b8 := Wv (main_v251 : DevRef τ sig))
    (tap4_inside m c hW).2
    (nullary_pre m c hW 16 46 rfl rfl) (nullary_pre m c hW 16 47 rfl rfl) (unary_pre m c hW 17 0 rfl rfl)
    (unary_pre m c hW 17 1 rfl rfl) (binary_pre m c hW 17 2 rfl rfl) (unary_pre m c hW 17 3 rfl rfl)
    (unary_pre m c hW 17 4 rfl rfl) (binary_pre m c hW 17 5 rfl rfl) (nullary_pre m c hW 18 0 rfl rfl)
    (unary_pre m c hW 18 1 rfl rfl) (binary_pre m c hW 18 2 rfl rfl) (nullary_pre m c hW 18 3 rfl rfl)
    (unary_pre m c hW 18 4 rfl rfl) (binary_pre m c hW 18 5 rfl rfl) (ternary_pre m c hW 18 6 rfl rfl)
    (unary_pre m c hW 18 7 rfl rfl) (binary_pre m c hW 18 8 rfl rfl)

include hW in
/-- Tap 4: the row index, of NIDX and INSIDE as the buffers hold them. -/
theorem tap4_row_buf : Wv (main_v255 : DevRef τ sig)
    = Cert.TapBridge.rowIdx bcast_S_S200000 (Wv (main_v251 : DevRef τ sig)) (Wv (main_v237 : DevRef τ sig)) :=
  row_compose (a37 := Wv (main_v237 : DevRef τ sig)) (b8 := Wv (main_v251 : DevRef τ sig))
    (b9 := Wv (main_c_87 : DevRef τ sig)) (b10 := Wv (main_v252 : DevRef τ sig)) (b11 := Wv (main_v253 : DevRef τ sig))
    (b12 := Wv (main_v254 : DevRef τ sig)) (b13 := Wv (main_c_88 : DevRef τ sig)) (w0 := Wv (main_call9_v0 : DevRef τ sig))
    (w1 := Wv (main_call9_v1 : DevRef τ sig)) (w2 := Wv (main_v255 : DevRef τ sig))
    (nullary_pre m c hW 18 9 rfl rfl) (unary_pre m c hW 18 10 rfl rfl) (binary_pre m c hW 18 11 rfl rfl)
    (binary_pre m c hW 18 12 rfl rfl) (nullary_pre m c hW 18 13 rfl rfl) (unary_pre m c hW 19 0 rfl rfl)
    (unary_pre m c hW 19 1 rfl rfl) (ternary_pre m c hW 19 2 rfl rfl)

include hW in
/-- TAP 4's ROW INDEX as one term of the coordinates, the offset words and the table. -/
theorem tap4_row : Wv (main_v255 : DevRef τ sig) = rowT (Wv (main_arg3 : DevRef τ sig)) 4294967295#32 0#32 0#32 (Wv (main_v20 : DevRef τ sig)) := by
  rw [tap4_row_buf m c hW, tap4_nidx m c hW, (tap4_inside m c hW).1]

/-! ### Tap 5: offset words (4294967295, 0, 1) -/

include hW in
/-- Tap 5: INSIDE and the neighbour's linear cell number. -/
theorem tap5_inside : Wv (main_v284 : DevRef τ sig) = insideT (Wv (main_arg3 : DevRef τ sig)) 4294967295#32 0#32 1#32
    ∧ Wv (main_v290 : DevRef τ sig) = nlinT (Wv (main_arg3 : DevRef τ sig)) 4294967295#32 0#32 1#32 :=
  inside_compose (coords := Wv (main_arg3 : DevRef τ sig)) (dz := 4294967295#32) (dy := 0#32) (dx := 1#32)
    (a0 := Wv (main_v256 : DevRef τ sig)) (a1 := Wv (main_v257 : DevRef τ sig)) (a2 := Wv (main_c_89 : DevRef τ sig))
    (a3 := Wv (main_v258 : DevRef τ sig)) (a4 := Wv (main_v259 : DevRef τ sig)) (a5 := Wv (main_v260 : DevRef τ sig))
    (a6 := Wv (main_v261 : DevRef τ sig)) (a7 := Wv (main_c_90 : DevRef τ sig)) (a8 := Wv (main_v262 : DevRef τ sig))
    (a9 := Wv (main_v263 : DevRef τ sig)) (a10 := Wv (main_v264 : DevRef τ sig)) (a11 := Wv (main_v265 : DevRef τ sig))
    (a12 := Wv (main_c_91 : DevRef τ sig)) (a13 := Wv (main_v266 : DevRef τ sig)) (a14 := Wv (main_v267 : DevRef τ sig))
    (a15 := Wv (main_c_92 : DevRef τ sig)) (a16 := Wv (main_v268 : DevRef τ sig)) (a17 := Wv (main_v269 : DevRef τ sig))
    (a18 := Wv (main_c_93 : DevRef τ sig)) (a19 := Wv (main_v270 : DevRef τ sig)) (a20 := Wv (main_v271 : DevRef τ sig))
    (a21 := Wv (main_v272 : DevRef τ sig)) (a22 := Wv (main_c_94 : DevRef τ sig)) (a23 := Wv (main_v273 : DevRef τ sig))
    (a24 := Wv (main_v274 : DevRef τ sig)) (a25 := Wv (main_v275 : DevRef τ sig)) (a26 := Wv (main_c_95 : DevRef τ sig))
    (a27 := Wv (main_v276 : DevRef τ sig)) (a28 := Wv (main_v277 : DevRef τ sig)) (a29 := Wv (main_v278 : DevRef τ sig))
    (a30 := Wv (main_c_96 : DevRef τ sig)) (a31 := Wv (main_v279 : DevRef τ sig)) (a32 := Wv (main_v280 : DevRef τ sig))
    (a33 := Wv (main_v281 : DevRef τ sig)) (a34 := Wv (main_c_97 : DevRef τ sig)) (a35 := Wv (main_v282 : DevRef τ sig))
    (a36 := Wv (main_v283 : DevRef τ sig)) (a37 := Wv (main_v284 : DevRef τ sig)) (a38 := Wv (main_c_98 : DevRef τ sig))
    (a39 := Wv (main_v285 : DevRef τ sig)) (a40 := Wv (main_v286 : DevRef τ sig)) (a41 := Wv (main_v287 : DevRef τ sig))
    (a42 := Wv (main_c_99 : DevRef τ sig)) (a43 := Wv (main_v288 : DevRef τ sig)) (a44 := Wv (main_v289 : DevRef τ sig))
    (a45 := Wv (main_v290 : DevRef τ sig))
    (unary_pre m c hW 20 0 rfl rfl) (reshape_pre m c hW 20 1 rfl rfl) (nullary_pre m c hW 20 2 rfl rfl)
    (unary_pre m c hW 20 3 rfl rfl) (binary_pre m c hW 20 4 rfl rfl) (unary_pre m c hW 20 5 rfl rfl)
    (reshape_pre m c hW 20 6 rfl rfl) (nullary_pre m c hW 20 7 rfl rfl) (unary_pre m c hW 20 8 rfl rfl)
    (binary_pre m c hW 20 9 rfl rfl) (unary_pre m c hW 20 10 rfl rfl) (reshape_pre m c hW 20 11 rfl rfl)
    (nullary_pre m c hW 20 12 rfl rfl) (unary_pre m c hW 20 13 rfl rfl) (binary_pre m c hW 20 14 rfl rfl)
    (nullary_pre m c hW 20 15 rfl rfl) (unary_pre m c hW 20 16 rfl rfl) (binary_pre m c hW 20 17 rfl rfl)
    (nullary_pre m c hW 20 18 rfl rfl) (unary_pre m c hW 20 19 rfl rfl) (binary_pre m c hW 20 20 rfl rfl)
    (binary_pre m c hW 20 21 rfl rfl) (nullary_pre m c hW 20 22 rfl rfl) (unary_pre m c hW 20 23 rfl rfl)
    (binary_pre m c hW 20 24 rfl rfl) (binary_pre m c hW 20 25 rfl rfl) (nullary_pre m c hW 20 26 rfl rfl)
    (unary_pre m c hW 20 27 rfl rfl) (binary_pre m c hW 20 28 rfl rfl) (binary_pre m c hW 20 29 rfl rfl)
    (nullary_pre m c hW 20 30 rfl rfl) (unary_pre m c hW 20 31 rfl rfl) (binary_pre m c hW 20 32 rfl rfl)
    (binary_pre m c hW 20 33 rfl rfl) (nullary_pre m c hW 20 34 rfl rfl) (unary_pre m c hW 20 35 rfl rfl)
    (binary_pre m c hW 20 36 rfl rfl) (binary_pre m c hW 20 37 rfl rfl) (nullary_pre m c hW 20 38 rfl rfl)
    (unary_pre m c hW 20 39 rfl rfl) (binary_pre m c hW 20 40 rfl rfl) (binary_pre m c hW 20 41 rfl rfl)
    (nullary_pre m c hW 20 42 rfl rfl) (unary_pre m c hW 20 43 rfl rfl) (binary_pre m c hW 20 44 rfl rfl)
    (binary_pre m c hW 20 45 rfl rfl)

include hW in
/-- Tap 5: NIDX, looked up in the table the program holds in its map buffer. -/
theorem tap5_nidx : Wv (main_v298 : DevRef τ sig) = nidxT (Wv (main_arg3 : DevRef τ sig)) 4294967295#32 0#32 1#32 (Wv (main_v20 : DevRef τ sig)) :=
  nidx_compose (coords := Wv (main_arg3 : DevRef τ sig)) (dz := 4294967295#32) (dy := 0#32) (dx := 1#32) (M := Wv (main_v20 : DevRef τ sig))
    (a45 := Wv (main_v290 : DevRef τ sig))
    (a46 := Wv (main_c_100 : DevRef τ sig)) (a47 := Wv (main_c_101 : DevRef τ sig)) (q0 := Wv (main_call10_v0 : DevRef τ sig))
    (q1 := Wv (main_call10_v1 : DevRef τ sig)) (q2 := Wv (main_call10_v2 : DevRef τ sig)) (q3 := Wv (main_call10_v3 : DevRef τ sig))
    (q4 := Wv (main_call10_v4 : DevRef τ sig)) (q5 := Wv (main_v291 : DevRef τ sig)) (b0 := Wv (main_c_102 : DevRef τ sig))
    (b1 := Wv (main_v292 : DevRef τ sig)) (b2 := Wv (main_v293 : DevRef τ sig)) (b3 := Wv (main_c_103 : DevRef τ sig))
    (b4 := Wv (main_v294 : DevRef τ sig)) (b5 := Wv (main_v295 : DevRef τ sig)) (b6 := Wv (main_v296 : DevRef τ sig))
    (b7 := Wv (main_v297 : DevRef τ sig)) (b8 := Wv (main_v298 : DevRef τ sig))
    (tap5_inside m c hW).2
    (nullary_pre m c hW 20 46 rfl rfl) (nullary_pre m c hW 20 47 rfl rfl) (unary_pre m c hW 21 0 rfl rfl)
    (unary_pre m c hW 21 1 rfl rfl) (binary_pre m c hW 21 2 rfl rfl) (unary_pre m c hW 21 3 rfl rfl)
    (unary_pre m c hW 21 4 rfl rfl) (binary_pre m c hW 21 5 rfl rfl) (nullary_pre m c hW 22 0 rfl rfl)
    (unary_pre m c hW 22 1 rfl rfl) (binary_pre m c hW 22 2 rfl rfl) (nullary_pre m c hW 22 3 rfl rfl)
    (unary_pre m c hW 22 4 rfl rfl) (binary_pre m c hW 22 5 rfl rfl) (ternary_pre m c hW 22 6 rfl rfl)
    (unary_pre m c hW 22 7 rfl rfl) (binary_pre m c hW 22 8 rfl rfl)

include hW in
/-- Tap 5: the row index, of NIDX and INSIDE as the buffers hold them. -/
theorem tap5_row_buf : Wv (main_v302 : DevRef τ sig)
    = Cert.TapBridge.rowIdx bcast_S_S200000 (Wv (main_v298 : DevRef τ sig)) (Wv (main_v284 : DevRef τ sig)) :=
  row_compose (a37 := Wv (main_v284 : DevRef τ sig)) (b8 := Wv (main_v298 : DevRef τ sig))
    (b9 := Wv (main_c_104 : DevRef τ sig)) (b10 := Wv (main_v299 : DevRef τ sig)) (b11 := Wv (main_v300 : DevRef τ sig))
    (b12 := Wv (main_v301 : DevRef τ sig)) (b13 := Wv (main_c_105 : DevRef τ sig)) (w0 := Wv (main_call11_v0 : DevRef τ sig))
    (w1 := Wv (main_call11_v1 : DevRef τ sig)) (w2 := Wv (main_v302 : DevRef τ sig))
    (nullary_pre m c hW 22 9 rfl rfl) (unary_pre m c hW 22 10 rfl rfl) (binary_pre m c hW 22 11 rfl rfl)
    (binary_pre m c hW 22 12 rfl rfl) (nullary_pre m c hW 22 13 rfl rfl) (unary_pre m c hW 23 0 rfl rfl)
    (unary_pre m c hW 23 1 rfl rfl) (ternary_pre m c hW 23 2 rfl rfl)

include hW in
/-- TAP 5's ROW INDEX as one term of the coordinates, the offset words and the table. -/
theorem tap5_row : Wv (main_v302 : DevRef τ sig) = rowT (Wv (main_arg3 : DevRef τ sig)) 4294967295#32 0#32 1#32 (Wv (main_v20 : DevRef τ sig)) := by
  rw [tap5_row_buf m c hW, tap5_nidx m c hW, (tap5_inside m c hW).1]

/-! ### Tap 6: offset words (4294967295, 1, 4294967295) -/

include hW in
/-- Tap 6: INSIDE and the neighbour's linear cell number. -/
theorem tap6_inside : Wv (main_v331 : DevRef τ sig) = insideT (Wv (main_arg3 : DevRef τ sig)) 4294967295#32 1#32 4294967295#32
    ∧ Wv (main_v337 : DevRef τ sig) = nlinT (Wv (main_arg3 : DevRef τ sig)) 4294967295#32 1#32 4294967295#32 :=
  inside_compose (coords := Wv (main_arg3 : DevRef τ sig)) (dz := 4294967295#32) (dy := 1#32) (dx := 4294967295#32)
    (a0 := Wv (main_v303 : DevRef τ sig)) (a1 := Wv (main_v304 : DevRef τ sig)) (a2 := Wv (main_c_106 : DevRef τ sig))
    (a3 := Wv (main_v305 : DevRef τ sig)) (a4 := Wv (main_v306 : DevRef τ sig)) (a5 := Wv (main_v307 : DevRef τ sig))
    (a6 := Wv (main_v308 : DevRef τ sig)) (a7 := Wv (main_c_107 : DevRef τ sig)) (a8 := Wv (main_v309 : DevRef τ sig))
    (a9 := Wv (main_v310 : DevRef τ sig)) (a10 := Wv (main_v311 : DevRef τ sig)) (a11 := Wv (main_v312 : DevRef τ sig))
    (a12 := Wv (main_c_108 : DevRef τ sig)) (a13 := Wv (main_v313 : DevRef τ sig)) (a14 := Wv (main_v314 : DevRef τ sig))
    (a15 := Wv (main_c_109 : DevRef τ sig)) (a16 := Wv (main_v315 : DevRef τ sig)) (a17 := Wv (main_v316 : DevRef τ sig))
    (a18 := Wv (main_c_110 : DevRef τ sig)) (a19 := Wv (main_v317 : DevRef τ sig)) (a20 := Wv (main_v318 : DevRef τ sig))
    (a21 := Wv (main_v319 : DevRef τ sig)) (a22 := Wv (main_c_111 : DevRef τ sig)) (a23 := Wv (main_v320 : DevRef τ sig))
    (a24 := Wv (main_v321 : DevRef τ sig)) (a25 := Wv (main_v322 : DevRef τ sig)) (a26 := Wv (main_c_112 : DevRef τ sig))
    (a27 := Wv (main_v323 : DevRef τ sig)) (a28 := Wv (main_v324 : DevRef τ sig)) (a29 := Wv (main_v325 : DevRef τ sig))
    (a30 := Wv (main_c_113 : DevRef τ sig)) (a31 := Wv (main_v326 : DevRef τ sig)) (a32 := Wv (main_v327 : DevRef τ sig))
    (a33 := Wv (main_v328 : DevRef τ sig)) (a34 := Wv (main_c_114 : DevRef τ sig)) (a35 := Wv (main_v329 : DevRef τ sig))
    (a36 := Wv (main_v330 : DevRef τ sig)) (a37 := Wv (main_v331 : DevRef τ sig)) (a38 := Wv (main_c_115 : DevRef τ sig))
    (a39 := Wv (main_v332 : DevRef τ sig)) (a40 := Wv (main_v333 : DevRef τ sig)) (a41 := Wv (main_v334 : DevRef τ sig))
    (a42 := Wv (main_c_116 : DevRef τ sig)) (a43 := Wv (main_v335 : DevRef τ sig)) (a44 := Wv (main_v336 : DevRef τ sig))
    (a45 := Wv (main_v337 : DevRef τ sig))
    (unary_pre m c hW 24 0 rfl rfl) (reshape_pre m c hW 24 1 rfl rfl) (nullary_pre m c hW 24 2 rfl rfl)
    (unary_pre m c hW 24 3 rfl rfl) (binary_pre m c hW 24 4 rfl rfl) (unary_pre m c hW 24 5 rfl rfl)
    (reshape_pre m c hW 24 6 rfl rfl) (nullary_pre m c hW 24 7 rfl rfl) (unary_pre m c hW 24 8 rfl rfl)
    (binary_pre m c hW 24 9 rfl rfl) (unary_pre m c hW 24 10 rfl rfl) (reshape_pre m c hW 24 11 rfl rfl)
    (nullary_pre m c hW 24 12 rfl rfl) (unary_pre m c hW 24 13 rfl rfl) (binary_pre m c hW 24 14 rfl rfl)
    (nullary_pre m c hW 24 15 rfl rfl) (unary_pre m c hW 24 16 rfl rfl) (binary_pre m c hW 24 17 rfl rfl)
    (nullary_pre m c hW 24 18 rfl rfl) (unary_pre m c hW 24 19 rfl rfl) (binary_pre m c hW 24 20 rfl rfl)
    (binary_pre m c hW 24 21 rfl rfl) (nullary_pre m c hW 24 22 rfl rfl) (unary_pre m c hW 24 23 rfl rfl)
    (binary_pre m c hW 24 24 rfl rfl) (binary_pre m c hW 24 25 rfl rfl) (nullary_pre m c hW 24 26 rfl rfl)
    (unary_pre m c hW 24 27 rfl rfl) (binary_pre m c hW 24 28 rfl rfl) (binary_pre m c hW 24 29 rfl rfl)
    (nullary_pre m c hW 24 30 rfl rfl) (unary_pre m c hW 24 31 rfl rfl) (binary_pre m c hW 24 32 rfl rfl)
    (binary_pre m c hW 24 33 rfl rfl) (nullary_pre m c hW 24 34 rfl rfl) (unary_pre m c hW 24 35 rfl rfl)
    (binary_pre m c hW 24 36 rfl rfl) (binary_pre m c hW 24 37 rfl rfl) (nullary_pre m c hW 24 38 rfl rfl)
    (unary_pre m c hW 24 39 rfl rfl) (binary_pre m c hW 24 40 rfl rfl) (binary_pre m c hW 24 41 rfl rfl)
    (nullary_pre m c hW 24 42 rfl rfl) (unary_pre m c hW 24 43 rfl rfl) (binary_pre m c hW 24 44 rfl rfl)
    (binary_pre m c hW 24 45 rfl rfl)

include hW in
/-- Tap 6: NIDX, looked up in the table the program holds in its map buffer. -/
theorem tap6_nidx : Wv (main_v345 : DevRef τ sig) = nidxT (Wv (main_arg3 : DevRef τ sig)) 4294967295#32 1#32 4294967295#32 (Wv (main_v20 : DevRef τ sig)) :=
  nidx_compose (coords := Wv (main_arg3 : DevRef τ sig)) (dz := 4294967295#32) (dy := 1#32) (dx := 4294967295#32) (M := Wv (main_v20 : DevRef τ sig))
    (a45 := Wv (main_v337 : DevRef τ sig))
    (a46 := Wv (main_c_117 : DevRef τ sig)) (a47 := Wv (main_c_118 : DevRef τ sig)) (q0 := Wv (main_call12_v0 : DevRef τ sig))
    (q1 := Wv (main_call12_v1 : DevRef τ sig)) (q2 := Wv (main_call12_v2 : DevRef τ sig)) (q3 := Wv (main_call12_v3 : DevRef τ sig))
    (q4 := Wv (main_call12_v4 : DevRef τ sig)) (q5 := Wv (main_v338 : DevRef τ sig)) (b0 := Wv (main_c_119 : DevRef τ sig))
    (b1 := Wv (main_v339 : DevRef τ sig)) (b2 := Wv (main_v340 : DevRef τ sig)) (b3 := Wv (main_c_120 : DevRef τ sig))
    (b4 := Wv (main_v341 : DevRef τ sig)) (b5 := Wv (main_v342 : DevRef τ sig)) (b6 := Wv (main_v343 : DevRef τ sig))
    (b7 := Wv (main_v344 : DevRef τ sig)) (b8 := Wv (main_v345 : DevRef τ sig))
    (tap6_inside m c hW).2
    (nullary_pre m c hW 24 46 rfl rfl) (nullary_pre m c hW 24 47 rfl rfl) (unary_pre m c hW 25 0 rfl rfl)
    (unary_pre m c hW 25 1 rfl rfl) (binary_pre m c hW 25 2 rfl rfl) (unary_pre m c hW 25 3 rfl rfl)
    (unary_pre m c hW 25 4 rfl rfl) (binary_pre m c hW 25 5 rfl rfl) (nullary_pre m c hW 26 0 rfl rfl)
    (unary_pre m c hW 26 1 rfl rfl) (binary_pre m c hW 26 2 rfl rfl) (nullary_pre m c hW 26 3 rfl rfl)
    (unary_pre m c hW 26 4 rfl rfl) (binary_pre m c hW 26 5 rfl rfl) (ternary_pre m c hW 26 6 rfl rfl)
    (unary_pre m c hW 26 7 rfl rfl) (binary_pre m c hW 26 8 rfl rfl)

include hW in
/-- Tap 6: the row index, of NIDX and INSIDE as the buffers hold them. -/
theorem tap6_row_buf : Wv (main_v349 : DevRef τ sig)
    = Cert.TapBridge.rowIdx bcast_S_S200000 (Wv (main_v345 : DevRef τ sig)) (Wv (main_v331 : DevRef τ sig)) :=
  row_compose (a37 := Wv (main_v331 : DevRef τ sig)) (b8 := Wv (main_v345 : DevRef τ sig))
    (b9 := Wv (main_c_121 : DevRef τ sig)) (b10 := Wv (main_v346 : DevRef τ sig)) (b11 := Wv (main_v347 : DevRef τ sig))
    (b12 := Wv (main_v348 : DevRef τ sig)) (b13 := Wv (main_c_122 : DevRef τ sig)) (w0 := Wv (main_call13_v0 : DevRef τ sig))
    (w1 := Wv (main_call13_v1 : DevRef τ sig)) (w2 := Wv (main_v349 : DevRef τ sig))
    (nullary_pre m c hW 26 9 rfl rfl) (unary_pre m c hW 26 10 rfl rfl) (binary_pre m c hW 26 11 rfl rfl)
    (binary_pre m c hW 26 12 rfl rfl) (nullary_pre m c hW 26 13 rfl rfl) (unary_pre m c hW 27 0 rfl rfl)
    (unary_pre m c hW 27 1 rfl rfl) (ternary_pre m c hW 27 2 rfl rfl)

include hW in
/-- TAP 6's ROW INDEX as one term of the coordinates, the offset words and the table. -/
theorem tap6_row : Wv (main_v349 : DevRef τ sig) = rowT (Wv (main_arg3 : DevRef τ sig)) 4294967295#32 1#32 4294967295#32 (Wv (main_v20 : DevRef τ sig)) := by
  rw [tap6_row_buf m c hW, tap6_nidx m c hW, (tap6_inside m c hW).1]

/-! ### Tap 7: offset words (4294967295, 1, 0) -/

include hW in
/-- Tap 7: INSIDE and the neighbour's linear cell number. -/
theorem tap7_inside : Wv (main_v378 : DevRef τ sig) = insideT (Wv (main_arg3 : DevRef τ sig)) 4294967295#32 1#32 0#32
    ∧ Wv (main_v384 : DevRef τ sig) = nlinT (Wv (main_arg3 : DevRef τ sig)) 4294967295#32 1#32 0#32 :=
  inside_compose (coords := Wv (main_arg3 : DevRef τ sig)) (dz := 4294967295#32) (dy := 1#32) (dx := 0#32)
    (a0 := Wv (main_v350 : DevRef τ sig)) (a1 := Wv (main_v351 : DevRef τ sig)) (a2 := Wv (main_c_123 : DevRef τ sig))
    (a3 := Wv (main_v352 : DevRef τ sig)) (a4 := Wv (main_v353 : DevRef τ sig)) (a5 := Wv (main_v354 : DevRef τ sig))
    (a6 := Wv (main_v355 : DevRef τ sig)) (a7 := Wv (main_c_124 : DevRef τ sig)) (a8 := Wv (main_v356 : DevRef τ sig))
    (a9 := Wv (main_v357 : DevRef τ sig)) (a10 := Wv (main_v358 : DevRef τ sig)) (a11 := Wv (main_v359 : DevRef τ sig))
    (a12 := Wv (main_c_125 : DevRef τ sig)) (a13 := Wv (main_v360 : DevRef τ sig)) (a14 := Wv (main_v361 : DevRef τ sig))
    (a15 := Wv (main_c_126 : DevRef τ sig)) (a16 := Wv (main_v362 : DevRef τ sig)) (a17 := Wv (main_v363 : DevRef τ sig))
    (a18 := Wv (main_c_127 : DevRef τ sig)) (a19 := Wv (main_v364 : DevRef τ sig)) (a20 := Wv (main_v365 : DevRef τ sig))
    (a21 := Wv (main_v366 : DevRef τ sig)) (a22 := Wv (main_c_128 : DevRef τ sig)) (a23 := Wv (main_v367 : DevRef τ sig))
    (a24 := Wv (main_v368 : DevRef τ sig)) (a25 := Wv (main_v369 : DevRef τ sig)) (a26 := Wv (main_c_129 : DevRef τ sig))
    (a27 := Wv (main_v370 : DevRef τ sig)) (a28 := Wv (main_v371 : DevRef τ sig)) (a29 := Wv (main_v372 : DevRef τ sig))
    (a30 := Wv (main_c_130 : DevRef τ sig)) (a31 := Wv (main_v373 : DevRef τ sig)) (a32 := Wv (main_v374 : DevRef τ sig))
    (a33 := Wv (main_v375 : DevRef τ sig)) (a34 := Wv (main_c_131 : DevRef τ sig)) (a35 := Wv (main_v376 : DevRef τ sig))
    (a36 := Wv (main_v377 : DevRef τ sig)) (a37 := Wv (main_v378 : DevRef τ sig)) (a38 := Wv (main_c_132 : DevRef τ sig))
    (a39 := Wv (main_v379 : DevRef τ sig)) (a40 := Wv (main_v380 : DevRef τ sig)) (a41 := Wv (main_v381 : DevRef τ sig))
    (a42 := Wv (main_c_133 : DevRef τ sig)) (a43 := Wv (main_v382 : DevRef τ sig)) (a44 := Wv (main_v383 : DevRef τ sig))
    (a45 := Wv (main_v384 : DevRef τ sig))
    (unary_pre m c hW 28 0 rfl rfl) (reshape_pre m c hW 28 1 rfl rfl) (nullary_pre m c hW 28 2 rfl rfl)
    (unary_pre m c hW 28 3 rfl rfl) (binary_pre m c hW 28 4 rfl rfl) (unary_pre m c hW 28 5 rfl rfl)
    (reshape_pre m c hW 28 6 rfl rfl) (nullary_pre m c hW 28 7 rfl rfl) (unary_pre m c hW 28 8 rfl rfl)
    (binary_pre m c hW 28 9 rfl rfl) (unary_pre m c hW 28 10 rfl rfl) (reshape_pre m c hW 28 11 rfl rfl)
    (nullary_pre m c hW 28 12 rfl rfl) (unary_pre m c hW 28 13 rfl rfl) (binary_pre m c hW 28 14 rfl rfl)
    (nullary_pre m c hW 28 15 rfl rfl) (unary_pre m c hW 28 16 rfl rfl) (binary_pre m c hW 28 17 rfl rfl)
    (nullary_pre m c hW 28 18 rfl rfl) (unary_pre m c hW 28 19 rfl rfl) (binary_pre m c hW 28 20 rfl rfl)
    (binary_pre m c hW 28 21 rfl rfl) (nullary_pre m c hW 28 22 rfl rfl) (unary_pre m c hW 28 23 rfl rfl)
    (binary_pre m c hW 28 24 rfl rfl) (binary_pre m c hW 28 25 rfl rfl) (nullary_pre m c hW 28 26 rfl rfl)
    (unary_pre m c hW 28 27 rfl rfl) (binary_pre m c hW 28 28 rfl rfl) (binary_pre m c hW 28 29 rfl rfl)
    (nullary_pre m c hW 28 30 rfl rfl) (unary_pre m c hW 28 31 rfl rfl) (binary_pre m c hW 28 32 rfl rfl)
    (binary_pre m c hW 28 33 rfl rfl) (nullary_pre m c hW 28 34 rfl rfl) (unary_pre m c hW 28 35 rfl rfl)
    (binary_pre m c hW 28 36 rfl rfl) (binary_pre m c hW 28 37 rfl rfl) (nullary_pre m c hW 28 38 rfl rfl)
    (unary_pre m c hW 28 39 rfl rfl) (binary_pre m c hW 28 40 rfl rfl) (binary_pre m c hW 28 41 rfl rfl)
    (nullary_pre m c hW 28 42 rfl rfl) (unary_pre m c hW 28 43 rfl rfl) (binary_pre m c hW 28 44 rfl rfl)
    (binary_pre m c hW 28 45 rfl rfl)

include hW in
/-- Tap 7: NIDX, looked up in the table the program holds in its map buffer. -/
theorem tap7_nidx : Wv (main_v392 : DevRef τ sig) = nidxT (Wv (main_arg3 : DevRef τ sig)) 4294967295#32 1#32 0#32 (Wv (main_v20 : DevRef τ sig)) :=
  nidx_compose (coords := Wv (main_arg3 : DevRef τ sig)) (dz := 4294967295#32) (dy := 1#32) (dx := 0#32) (M := Wv (main_v20 : DevRef τ sig))
    (a45 := Wv (main_v384 : DevRef τ sig))
    (a46 := Wv (main_c_134 : DevRef τ sig)) (a47 := Wv (main_c_135 : DevRef τ sig)) (q0 := Wv (main_call14_v0 : DevRef τ sig))
    (q1 := Wv (main_call14_v1 : DevRef τ sig)) (q2 := Wv (main_call14_v2 : DevRef τ sig)) (q3 := Wv (main_call14_v3 : DevRef τ sig))
    (q4 := Wv (main_call14_v4 : DevRef τ sig)) (q5 := Wv (main_v385 : DevRef τ sig)) (b0 := Wv (main_c_136 : DevRef τ sig))
    (b1 := Wv (main_v386 : DevRef τ sig)) (b2 := Wv (main_v387 : DevRef τ sig)) (b3 := Wv (main_c_137 : DevRef τ sig))
    (b4 := Wv (main_v388 : DevRef τ sig)) (b5 := Wv (main_v389 : DevRef τ sig)) (b6 := Wv (main_v390 : DevRef τ sig))
    (b7 := Wv (main_v391 : DevRef τ sig)) (b8 := Wv (main_v392 : DevRef τ sig))
    (tap7_inside m c hW).2
    (nullary_pre m c hW 28 46 rfl rfl) (nullary_pre m c hW 28 47 rfl rfl) (unary_pre m c hW 29 0 rfl rfl)
    (unary_pre m c hW 29 1 rfl rfl) (binary_pre m c hW 29 2 rfl rfl) (unary_pre m c hW 29 3 rfl rfl)
    (unary_pre m c hW 29 4 rfl rfl) (binary_pre m c hW 29 5 rfl rfl) (nullary_pre m c hW 30 0 rfl rfl)
    (unary_pre m c hW 30 1 rfl rfl) (binary_pre m c hW 30 2 rfl rfl) (nullary_pre m c hW 30 3 rfl rfl)
    (unary_pre m c hW 30 4 rfl rfl) (binary_pre m c hW 30 5 rfl rfl) (ternary_pre m c hW 30 6 rfl rfl)
    (unary_pre m c hW 30 7 rfl rfl) (binary_pre m c hW 30 8 rfl rfl)

include hW in
/-- Tap 7: the row index, of NIDX and INSIDE as the buffers hold them. -/
theorem tap7_row_buf : Wv (main_v396 : DevRef τ sig)
    = Cert.TapBridge.rowIdx bcast_S_S200000 (Wv (main_v392 : DevRef τ sig)) (Wv (main_v378 : DevRef τ sig)) :=
  row_compose (a37 := Wv (main_v378 : DevRef τ sig)) (b8 := Wv (main_v392 : DevRef τ sig))
    (b9 := Wv (main_c_138 : DevRef τ sig)) (b10 := Wv (main_v393 : DevRef τ sig)) (b11 := Wv (main_v394 : DevRef τ sig))
    (b12 := Wv (main_v395 : DevRef τ sig)) (b13 := Wv (main_c_139 : DevRef τ sig)) (w0 := Wv (main_call15_v0 : DevRef τ sig))
    (w1 := Wv (main_call15_v1 : DevRef τ sig)) (w2 := Wv (main_v396 : DevRef τ sig))
    (nullary_pre m c hW 30 9 rfl rfl) (unary_pre m c hW 30 10 rfl rfl) (binary_pre m c hW 30 11 rfl rfl)
    (binary_pre m c hW 30 12 rfl rfl) (nullary_pre m c hW 30 13 rfl rfl) (unary_pre m c hW 31 0 rfl rfl)
    (unary_pre m c hW 31 1 rfl rfl) (ternary_pre m c hW 31 2 rfl rfl)

include hW in
/-- TAP 7's ROW INDEX as one term of the coordinates, the offset words and the table. -/
theorem tap7_row : Wv (main_v396 : DevRef τ sig) = rowT (Wv (main_arg3 : DevRef τ sig)) 4294967295#32 1#32 0#32 (Wv (main_v20 : DevRef τ sig)) := by
  rw [tap7_row_buf m c hW, tap7_nidx m c hW, (tap7_inside m c hW).1]

/-! ### Tap 8: offset words (4294967295, 1, 1) -/

include hW in
/-- Tap 8: INSIDE and the neighbour's linear cell number. -/
theorem tap8_inside : Wv (main_v425 : DevRef τ sig) = insideT (Wv (main_arg3 : DevRef τ sig)) 4294967295#32 1#32 1#32
    ∧ Wv (main_v431 : DevRef τ sig) = nlinT (Wv (main_arg3 : DevRef τ sig)) 4294967295#32 1#32 1#32 :=
  inside_compose (coords := Wv (main_arg3 : DevRef τ sig)) (dz := 4294967295#32) (dy := 1#32) (dx := 1#32)
    (a0 := Wv (main_v397 : DevRef τ sig)) (a1 := Wv (main_v398 : DevRef τ sig)) (a2 := Wv (main_c_140 : DevRef τ sig))
    (a3 := Wv (main_v399 : DevRef τ sig)) (a4 := Wv (main_v400 : DevRef τ sig)) (a5 := Wv (main_v401 : DevRef τ sig))
    (a6 := Wv (main_v402 : DevRef τ sig)) (a7 := Wv (main_c_141 : DevRef τ sig)) (a8 := Wv (main_v403 : DevRef τ sig))
    (a9 := Wv (main_v404 : DevRef τ sig)) (a10 := Wv (main_v405 : DevRef τ sig)) (a11 := Wv (main_v406 : DevRef τ sig))
    (a12 := Wv (main_c_142 : DevRef τ sig)) (a13 := Wv (main_v407 : DevRef τ sig)) (a14 := Wv (main_v408 : DevRef τ sig))
    (a15 := Wv (main_c_143 : DevRef τ sig)) (a16 := Wv (main_v409 : DevRef τ sig)) (a17 := Wv (main_v410 : DevRef τ sig))
    (a18 := Wv (main_c_144 : DevRef τ sig)) (a19 := Wv (main_v411 : DevRef τ sig)) (a20 := Wv (main_v412 : DevRef τ sig))
    (a21 := Wv (main_v413 : DevRef τ sig)) (a22 := Wv (main_c_145 : DevRef τ sig)) (a23 := Wv (main_v414 : DevRef τ sig))
    (a24 := Wv (main_v415 : DevRef τ sig)) (a25 := Wv (main_v416 : DevRef τ sig)) (a26 := Wv (main_c_146 : DevRef τ sig))
    (a27 := Wv (main_v417 : DevRef τ sig)) (a28 := Wv (main_v418 : DevRef τ sig)) (a29 := Wv (main_v419 : DevRef τ sig))
    (a30 := Wv (main_c_147 : DevRef τ sig)) (a31 := Wv (main_v420 : DevRef τ sig)) (a32 := Wv (main_v421 : DevRef τ sig))
    (a33 := Wv (main_v422 : DevRef τ sig)) (a34 := Wv (main_c_148 : DevRef τ sig)) (a35 := Wv (main_v423 : DevRef τ sig))
    (a36 := Wv (main_v424 : DevRef τ sig)) (a37 := Wv (main_v425 : DevRef τ sig)) (a38 := Wv (main_c_149 : DevRef τ sig))
    (a39 := Wv (main_v426 : DevRef τ sig)) (a40 := Wv (main_v427 : DevRef τ sig)) (a41 := Wv (main_v428 : DevRef τ sig))
    (a42 := Wv (main_c_150 : DevRef τ sig)) (a43 := Wv (main_v429 : DevRef τ sig)) (a44 := Wv (main_v430 : DevRef τ sig))
    (a45 := Wv (main_v431 : DevRef τ sig))
    (unary_pre m c hW 32 0 rfl rfl) (reshape_pre m c hW 32 1 rfl rfl) (nullary_pre m c hW 32 2 rfl rfl)
    (unary_pre m c hW 32 3 rfl rfl) (binary_pre m c hW 32 4 rfl rfl) (unary_pre m c hW 32 5 rfl rfl)
    (reshape_pre m c hW 32 6 rfl rfl) (nullary_pre m c hW 32 7 rfl rfl) (unary_pre m c hW 32 8 rfl rfl)
    (binary_pre m c hW 32 9 rfl rfl) (unary_pre m c hW 32 10 rfl rfl) (reshape_pre m c hW 32 11 rfl rfl)
    (nullary_pre m c hW 32 12 rfl rfl) (unary_pre m c hW 32 13 rfl rfl) (binary_pre m c hW 32 14 rfl rfl)
    (nullary_pre m c hW 32 15 rfl rfl) (unary_pre m c hW 32 16 rfl rfl) (binary_pre m c hW 32 17 rfl rfl)
    (nullary_pre m c hW 32 18 rfl rfl) (unary_pre m c hW 32 19 rfl rfl) (binary_pre m c hW 32 20 rfl rfl)
    (binary_pre m c hW 32 21 rfl rfl) (nullary_pre m c hW 32 22 rfl rfl) (unary_pre m c hW 32 23 rfl rfl)
    (binary_pre m c hW 32 24 rfl rfl) (binary_pre m c hW 32 25 rfl rfl) (nullary_pre m c hW 32 26 rfl rfl)
    (unary_pre m c hW 32 27 rfl rfl) (binary_pre m c hW 32 28 rfl rfl) (binary_pre m c hW 32 29 rfl rfl)
    (nullary_pre m c hW 32 30 rfl rfl) (unary_pre m c hW 32 31 rfl rfl) (binary_pre m c hW 32 32 rfl rfl)
    (binary_pre m c hW 32 33 rfl rfl) (nullary_pre m c hW 32 34 rfl rfl) (unary_pre m c hW 32 35 rfl rfl)
    (binary_pre m c hW 32 36 rfl rfl) (binary_pre m c hW 32 37 rfl rfl) (nullary_pre m c hW 32 38 rfl rfl)
    (unary_pre m c hW 32 39 rfl rfl) (binary_pre m c hW 32 40 rfl rfl) (binary_pre m c hW 32 41 rfl rfl)
    (nullary_pre m c hW 32 42 rfl rfl) (unary_pre m c hW 32 43 rfl rfl) (binary_pre m c hW 32 44 rfl rfl)
    (binary_pre m c hW 32 45 rfl rfl)

include hW in
/-- Tap 8: NIDX, looked up in the table the program holds in its map buffer. -/
theorem tap8_nidx : Wv (main_v439 : DevRef τ sig) = nidxT (Wv (main_arg3 : DevRef τ sig)) 4294967295#32 1#32 1#32 (Wv (main_v20 : DevRef τ sig)) :=
  nidx_compose (coords := Wv (main_arg3 : DevRef τ sig)) (dz := 4294967295#32) (dy := 1#32) (dx := 1#32) (M := Wv (main_v20 : DevRef τ sig))
    (a45 := Wv (main_v431 : DevRef τ sig))
    (a46 := Wv (main_c_151 : DevRef τ sig)) (a47 := Wv (main_c_152 : DevRef τ sig)) (q0 := Wv (main_call16_v0 : DevRef τ sig))
    (q1 := Wv (main_call16_v1 : DevRef τ sig)) (q2 := Wv (main_call16_v2 : DevRef τ sig)) (q3 := Wv (main_call16_v3 : DevRef τ sig))
    (q4 := Wv (main_call16_v4 : DevRef τ sig)) (q5 := Wv (main_v432 : DevRef τ sig)) (b0 := Wv (main_c_153 : DevRef τ sig))
    (b1 := Wv (main_v433 : DevRef τ sig)) (b2 := Wv (main_v434 : DevRef τ sig)) (b3 := Wv (main_c_154 : DevRef τ sig))
    (b4 := Wv (main_v435 : DevRef τ sig)) (b5 := Wv (main_v436 : DevRef τ sig)) (b6 := Wv (main_v437 : DevRef τ sig))
    (b7 := Wv (main_v438 : DevRef τ sig)) (b8 := Wv (main_v439 : DevRef τ sig))
    (tap8_inside m c hW).2
    (nullary_pre m c hW 32 46 rfl rfl) (nullary_pre m c hW 32 47 rfl rfl) (unary_pre m c hW 33 0 rfl rfl)
    (unary_pre m c hW 33 1 rfl rfl) (binary_pre m c hW 33 2 rfl rfl) (unary_pre m c hW 33 3 rfl rfl)
    (unary_pre m c hW 33 4 rfl rfl) (binary_pre m c hW 33 5 rfl rfl) (nullary_pre m c hW 34 0 rfl rfl)
    (unary_pre m c hW 34 1 rfl rfl) (binary_pre m c hW 34 2 rfl rfl) (nullary_pre m c hW 34 3 rfl rfl)
    (unary_pre m c hW 34 4 rfl rfl) (binary_pre m c hW 34 5 rfl rfl) (ternary_pre m c hW 34 6 rfl rfl)
    (unary_pre m c hW 34 7 rfl rfl) (binary_pre m c hW 34 8 rfl rfl)

include hW in
/-- Tap 8: the row index, of NIDX and INSIDE as the buffers hold them. -/
theorem tap8_row_buf : Wv (main_v443 : DevRef τ sig)
    = Cert.TapBridge.rowIdx bcast_S_S200000 (Wv (main_v439 : DevRef τ sig)) (Wv (main_v425 : DevRef τ sig)) :=
  row_compose (a37 := Wv (main_v425 : DevRef τ sig)) (b8 := Wv (main_v439 : DevRef τ sig))
    (b9 := Wv (main_c_155 : DevRef τ sig)) (b10 := Wv (main_v440 : DevRef τ sig)) (b11 := Wv (main_v441 : DevRef τ sig))
    (b12 := Wv (main_v442 : DevRef τ sig)) (b13 := Wv (main_c_156 : DevRef τ sig)) (w0 := Wv (main_call17_v0 : DevRef τ sig))
    (w1 := Wv (main_call17_v1 : DevRef τ sig)) (w2 := Wv (main_v443 : DevRef τ sig))
    (nullary_pre m c hW 34 9 rfl rfl) (unary_pre m c hW 34 10 rfl rfl) (binary_pre m c hW 34 11 rfl rfl)
    (binary_pre m c hW 34 12 rfl rfl) (nullary_pre m c hW 34 13 rfl rfl) (unary_pre m c hW 35 0 rfl rfl)
    (unary_pre m c hW 35 1 rfl rfl) (ternary_pre m c hW 35 2 rfl rfl)

include hW in
/-- TAP 8's ROW INDEX as one term of the coordinates, the offset words and the table. -/
theorem tap8_row : Wv (main_v443 : DevRef τ sig) = rowT (Wv (main_arg3 : DevRef τ sig)) 4294967295#32 1#32 1#32 (Wv (main_v20 : DevRef τ sig)) := by
  rw [tap8_row_buf m c hW, tap8_nidx m c hW, (tap8_inside m c hW).1]

/-! ### Tap 9: offset words (0, 4294967295, 4294967295) -/

include hW in
/-- Tap 9: INSIDE and the neighbour's linear cell number. -/
theorem tap9_inside : Wv (main_v472 : DevRef τ sig) = insideT (Wv (main_arg3 : DevRef τ sig)) 0#32 4294967295#32 4294967295#32
    ∧ Wv (main_v478 : DevRef τ sig) = nlinT (Wv (main_arg3 : DevRef τ sig)) 0#32 4294967295#32 4294967295#32 :=
  inside_compose (coords := Wv (main_arg3 : DevRef τ sig)) (dz := 0#32) (dy := 4294967295#32) (dx := 4294967295#32)
    (a0 := Wv (main_v444 : DevRef τ sig)) (a1 := Wv (main_v445 : DevRef τ sig)) (a2 := Wv (main_c_157 : DevRef τ sig))
    (a3 := Wv (main_v446 : DevRef τ sig)) (a4 := Wv (main_v447 : DevRef τ sig)) (a5 := Wv (main_v448 : DevRef τ sig))
    (a6 := Wv (main_v449 : DevRef τ sig)) (a7 := Wv (main_c_158 : DevRef τ sig)) (a8 := Wv (main_v450 : DevRef τ sig))
    (a9 := Wv (main_v451 : DevRef τ sig)) (a10 := Wv (main_v452 : DevRef τ sig)) (a11 := Wv (main_v453 : DevRef τ sig))
    (a12 := Wv (main_c_159 : DevRef τ sig)) (a13 := Wv (main_v454 : DevRef τ sig)) (a14 := Wv (main_v455 : DevRef τ sig))
    (a15 := Wv (main_c_160 : DevRef τ sig)) (a16 := Wv (main_v456 : DevRef τ sig)) (a17 := Wv (main_v457 : DevRef τ sig))
    (a18 := Wv (main_c_161 : DevRef τ sig)) (a19 := Wv (main_v458 : DevRef τ sig)) (a20 := Wv (main_v459 : DevRef τ sig))
    (a21 := Wv (main_v460 : DevRef τ sig)) (a22 := Wv (main_c_162 : DevRef τ sig)) (a23 := Wv (main_v461 : DevRef τ sig))
    (a24 := Wv (main_v462 : DevRef τ sig)) (a25 := Wv (main_v463 : DevRef τ sig)) (a26 := Wv (main_c_163 : DevRef τ sig))
    (a27 := Wv (main_v464 : DevRef τ sig)) (a28 := Wv (main_v465 : DevRef τ sig)) (a29 := Wv (main_v466 : DevRef τ sig))
    (a30 := Wv (main_c_164 : DevRef τ sig)) (a31 := Wv (main_v467 : DevRef τ sig)) (a32 := Wv (main_v468 : DevRef τ sig))
    (a33 := Wv (main_v469 : DevRef τ sig)) (a34 := Wv (main_c_165 : DevRef τ sig)) (a35 := Wv (main_v470 : DevRef τ sig))
    (a36 := Wv (main_v471 : DevRef τ sig)) (a37 := Wv (main_v472 : DevRef τ sig)) (a38 := Wv (main_c_166 : DevRef τ sig))
    (a39 := Wv (main_v473 : DevRef τ sig)) (a40 := Wv (main_v474 : DevRef τ sig)) (a41 := Wv (main_v475 : DevRef τ sig))
    (a42 := Wv (main_c_167 : DevRef τ sig)) (a43 := Wv (main_v476 : DevRef τ sig)) (a44 := Wv (main_v477 : DevRef τ sig))
    (a45 := Wv (main_v478 : DevRef τ sig))
    (unary_pre m c hW 36 0 rfl rfl) (reshape_pre m c hW 36 1 rfl rfl) (nullary_pre m c hW 36 2 rfl rfl)
    (unary_pre m c hW 36 3 rfl rfl) (binary_pre m c hW 36 4 rfl rfl) (unary_pre m c hW 36 5 rfl rfl)
    (reshape_pre m c hW 36 6 rfl rfl) (nullary_pre m c hW 36 7 rfl rfl) (unary_pre m c hW 36 8 rfl rfl)
    (binary_pre m c hW 36 9 rfl rfl) (unary_pre m c hW 36 10 rfl rfl) (reshape_pre m c hW 36 11 rfl rfl)
    (nullary_pre m c hW 36 12 rfl rfl) (unary_pre m c hW 36 13 rfl rfl) (binary_pre m c hW 36 14 rfl rfl)
    (nullary_pre m c hW 36 15 rfl rfl) (unary_pre m c hW 36 16 rfl rfl) (binary_pre m c hW 36 17 rfl rfl)
    (nullary_pre m c hW 36 18 rfl rfl) (unary_pre m c hW 36 19 rfl rfl) (binary_pre m c hW 36 20 rfl rfl)
    (binary_pre m c hW 36 21 rfl rfl) (nullary_pre m c hW 36 22 rfl rfl) (unary_pre m c hW 36 23 rfl rfl)
    (binary_pre m c hW 36 24 rfl rfl) (binary_pre m c hW 36 25 rfl rfl) (nullary_pre m c hW 36 26 rfl rfl)
    (unary_pre m c hW 36 27 rfl rfl) (binary_pre m c hW 36 28 rfl rfl) (binary_pre m c hW 36 29 rfl rfl)
    (nullary_pre m c hW 36 30 rfl rfl) (unary_pre m c hW 36 31 rfl rfl) (binary_pre m c hW 36 32 rfl rfl)
    (binary_pre m c hW 36 33 rfl rfl) (nullary_pre m c hW 36 34 rfl rfl) (unary_pre m c hW 36 35 rfl rfl)
    (binary_pre m c hW 36 36 rfl rfl) (binary_pre m c hW 36 37 rfl rfl) (nullary_pre m c hW 36 38 rfl rfl)
    (unary_pre m c hW 36 39 rfl rfl) (binary_pre m c hW 36 40 rfl rfl) (binary_pre m c hW 36 41 rfl rfl)
    (nullary_pre m c hW 36 42 rfl rfl) (unary_pre m c hW 36 43 rfl rfl) (binary_pre m c hW 36 44 rfl rfl)
    (binary_pre m c hW 36 45 rfl rfl)

include hW in
/-- Tap 9: NIDX, looked up in the table the program holds in its map buffer. -/
theorem tap9_nidx : Wv (main_v486 : DevRef τ sig) = nidxT (Wv (main_arg3 : DevRef τ sig)) 0#32 4294967295#32 4294967295#32 (Wv (main_v20 : DevRef τ sig)) :=
  nidx_compose (coords := Wv (main_arg3 : DevRef τ sig)) (dz := 0#32) (dy := 4294967295#32) (dx := 4294967295#32) (M := Wv (main_v20 : DevRef τ sig))
    (a45 := Wv (main_v478 : DevRef τ sig))
    (a46 := Wv (main_c_168 : DevRef τ sig)) (a47 := Wv (main_c_169 : DevRef τ sig)) (q0 := Wv (main_call18_v0 : DevRef τ sig))
    (q1 := Wv (main_call18_v1 : DevRef τ sig)) (q2 := Wv (main_call18_v2 : DevRef τ sig)) (q3 := Wv (main_call18_v3 : DevRef τ sig))
    (q4 := Wv (main_call18_v4 : DevRef τ sig)) (q5 := Wv (main_v479 : DevRef τ sig)) (b0 := Wv (main_c_170 : DevRef τ sig))
    (b1 := Wv (main_v480 : DevRef τ sig)) (b2 := Wv (main_v481 : DevRef τ sig)) (b3 := Wv (main_c_171 : DevRef τ sig))
    (b4 := Wv (main_v482 : DevRef τ sig)) (b5 := Wv (main_v483 : DevRef τ sig)) (b6 := Wv (main_v484 : DevRef τ sig))
    (b7 := Wv (main_v485 : DevRef τ sig)) (b8 := Wv (main_v486 : DevRef τ sig))
    (tap9_inside m c hW).2
    (nullary_pre m c hW 36 46 rfl rfl) (nullary_pre m c hW 36 47 rfl rfl) (unary_pre m c hW 37 0 rfl rfl)
    (unary_pre m c hW 37 1 rfl rfl) (binary_pre m c hW 37 2 rfl rfl) (unary_pre m c hW 37 3 rfl rfl)
    (unary_pre m c hW 37 4 rfl rfl) (binary_pre m c hW 37 5 rfl rfl) (nullary_pre m c hW 38 0 rfl rfl)
    (unary_pre m c hW 38 1 rfl rfl) (binary_pre m c hW 38 2 rfl rfl) (nullary_pre m c hW 38 3 rfl rfl)
    (unary_pre m c hW 38 4 rfl rfl) (binary_pre m c hW 38 5 rfl rfl) (ternary_pre m c hW 38 6 rfl rfl)
    (unary_pre m c hW 38 7 rfl rfl) (binary_pre m c hW 38 8 rfl rfl)

include hW in
/-- Tap 9: the row index, of NIDX and INSIDE as the buffers hold them. -/
theorem tap9_row_buf : Wv (main_v490 : DevRef τ sig)
    = Cert.TapBridge.rowIdx bcast_S_S200000 (Wv (main_v486 : DevRef τ sig)) (Wv (main_v472 : DevRef τ sig)) :=
  row_compose (a37 := Wv (main_v472 : DevRef τ sig)) (b8 := Wv (main_v486 : DevRef τ sig))
    (b9 := Wv (main_c_172 : DevRef τ sig)) (b10 := Wv (main_v487 : DevRef τ sig)) (b11 := Wv (main_v488 : DevRef τ sig))
    (b12 := Wv (main_v489 : DevRef τ sig)) (b13 := Wv (main_c_173 : DevRef τ sig)) (w0 := Wv (main_call19_v0 : DevRef τ sig))
    (w1 := Wv (main_call19_v1 : DevRef τ sig)) (w2 := Wv (main_v490 : DevRef τ sig))
    (nullary_pre m c hW 38 9 rfl rfl) (unary_pre m c hW 38 10 rfl rfl) (binary_pre m c hW 38 11 rfl rfl)
    (binary_pre m c hW 38 12 rfl rfl) (nullary_pre m c hW 38 13 rfl rfl) (unary_pre m c hW 39 0 rfl rfl)
    (unary_pre m c hW 39 1 rfl rfl) (ternary_pre m c hW 39 2 rfl rfl)

include hW in
/-- TAP 9's ROW INDEX as one term of the coordinates, the offset words and the table. -/
theorem tap9_row : Wv (main_v490 : DevRef τ sig) = rowT (Wv (main_arg3 : DevRef τ sig)) 0#32 4294967295#32 4294967295#32 (Wv (main_v20 : DevRef τ sig)) := by
  rw [tap9_row_buf m c hW, tap9_nidx m c hW, (tap9_inside m c hW).1]

/-! ### Tap 10: offset words (0, 4294967295, 0) -/

include hW in
/-- Tap 10: INSIDE and the neighbour's linear cell number. -/
theorem tap10_inside : Wv (main_v519 : DevRef τ sig) = insideT (Wv (main_arg3 : DevRef τ sig)) 0#32 4294967295#32 0#32
    ∧ Wv (main_v525 : DevRef τ sig) = nlinT (Wv (main_arg3 : DevRef τ sig)) 0#32 4294967295#32 0#32 :=
  inside_compose (coords := Wv (main_arg3 : DevRef τ sig)) (dz := 0#32) (dy := 4294967295#32) (dx := 0#32)
    (a0 := Wv (main_v491 : DevRef τ sig)) (a1 := Wv (main_v492 : DevRef τ sig)) (a2 := Wv (main_c_174 : DevRef τ sig))
    (a3 := Wv (main_v493 : DevRef τ sig)) (a4 := Wv (main_v494 : DevRef τ sig)) (a5 := Wv (main_v495 : DevRef τ sig))
    (a6 := Wv (main_v496 : DevRef τ sig)) (a7 := Wv (main_c_175 : DevRef τ sig)) (a8 := Wv (main_v497 : DevRef τ sig))
    (a9 := Wv (main_v498 : DevRef τ sig)) (a10 := Wv (main_v499 : DevRef τ sig)) (a11 := Wv (main_v500 : DevRef τ sig))
    (a12 := Wv (main_c_176 : DevRef τ sig)) (a13 := Wv (main_v501 : DevRef τ sig)) (a14 := Wv (main_v502 : DevRef τ sig))
    (a15 := Wv (main_c_177 : DevRef τ sig)) (a16 := Wv (main_v503 : DevRef τ sig)) (a17 := Wv (main_v504 : DevRef τ sig))
    (a18 := Wv (main_c_178 : DevRef τ sig)) (a19 := Wv (main_v505 : DevRef τ sig)) (a20 := Wv (main_v506 : DevRef τ sig))
    (a21 := Wv (main_v507 : DevRef τ sig)) (a22 := Wv (main_c_179 : DevRef τ sig)) (a23 := Wv (main_v508 : DevRef τ sig))
    (a24 := Wv (main_v509 : DevRef τ sig)) (a25 := Wv (main_v510 : DevRef τ sig)) (a26 := Wv (main_c_180 : DevRef τ sig))
    (a27 := Wv (main_v511 : DevRef τ sig)) (a28 := Wv (main_v512 : DevRef τ sig)) (a29 := Wv (main_v513 : DevRef τ sig))
    (a30 := Wv (main_c_181 : DevRef τ sig)) (a31 := Wv (main_v514 : DevRef τ sig)) (a32 := Wv (main_v515 : DevRef τ sig))
    (a33 := Wv (main_v516 : DevRef τ sig)) (a34 := Wv (main_c_182 : DevRef τ sig)) (a35 := Wv (main_v517 : DevRef τ sig))
    (a36 := Wv (main_v518 : DevRef τ sig)) (a37 := Wv (main_v519 : DevRef τ sig)) (a38 := Wv (main_c_183 : DevRef τ sig))
    (a39 := Wv (main_v520 : DevRef τ sig)) (a40 := Wv (main_v521 : DevRef τ sig)) (a41 := Wv (main_v522 : DevRef τ sig))
    (a42 := Wv (main_c_184 : DevRef τ sig)) (a43 := Wv (main_v523 : DevRef τ sig)) (a44 := Wv (main_v524 : DevRef τ sig))
    (a45 := Wv (main_v525 : DevRef τ sig))
    (unary_pre m c hW 40 0 rfl rfl) (reshape_pre m c hW 40 1 rfl rfl) (nullary_pre m c hW 40 2 rfl rfl)
    (unary_pre m c hW 40 3 rfl rfl) (binary_pre m c hW 40 4 rfl rfl) (unary_pre m c hW 40 5 rfl rfl)
    (reshape_pre m c hW 40 6 rfl rfl) (nullary_pre m c hW 40 7 rfl rfl) (unary_pre m c hW 40 8 rfl rfl)
    (binary_pre m c hW 40 9 rfl rfl) (unary_pre m c hW 40 10 rfl rfl) (reshape_pre m c hW 40 11 rfl rfl)
    (nullary_pre m c hW 40 12 rfl rfl) (unary_pre m c hW 40 13 rfl rfl) (binary_pre m c hW 40 14 rfl rfl)
    (nullary_pre m c hW 40 15 rfl rfl) (unary_pre m c hW 40 16 rfl rfl) (binary_pre m c hW 40 17 rfl rfl)
    (nullary_pre m c hW 40 18 rfl rfl) (unary_pre m c hW 40 19 rfl rfl) (binary_pre m c hW 40 20 rfl rfl)
    (binary_pre m c hW 40 21 rfl rfl) (nullary_pre m c hW 40 22 rfl rfl) (unary_pre m c hW 40 23 rfl rfl)
    (binary_pre m c hW 40 24 rfl rfl) (binary_pre m c hW 40 25 rfl rfl) (nullary_pre m c hW 40 26 rfl rfl)
    (unary_pre m c hW 40 27 rfl rfl) (binary_pre m c hW 40 28 rfl rfl) (binary_pre m c hW 40 29 rfl rfl)
    (nullary_pre m c hW 40 30 rfl rfl) (unary_pre m c hW 40 31 rfl rfl) (binary_pre m c hW 40 32 rfl rfl)
    (binary_pre m c hW 40 33 rfl rfl) (nullary_pre m c hW 40 34 rfl rfl) (unary_pre m c hW 40 35 rfl rfl)
    (binary_pre m c hW 40 36 rfl rfl) (binary_pre m c hW 40 37 rfl rfl) (nullary_pre m c hW 40 38 rfl rfl)
    (unary_pre m c hW 40 39 rfl rfl) (binary_pre m c hW 40 40 rfl rfl) (binary_pre m c hW 40 41 rfl rfl)
    (nullary_pre m c hW 40 42 rfl rfl) (unary_pre m c hW 40 43 rfl rfl) (binary_pre m c hW 40 44 rfl rfl)
    (binary_pre m c hW 40 45 rfl rfl)

include hW in
/-- Tap 10: NIDX, looked up in the table the program holds in its map buffer. -/
theorem tap10_nidx : Wv (main_v533 : DevRef τ sig) = nidxT (Wv (main_arg3 : DevRef τ sig)) 0#32 4294967295#32 0#32 (Wv (main_v20 : DevRef τ sig)) :=
  nidx_compose (coords := Wv (main_arg3 : DevRef τ sig)) (dz := 0#32) (dy := 4294967295#32) (dx := 0#32) (M := Wv (main_v20 : DevRef τ sig))
    (a45 := Wv (main_v525 : DevRef τ sig))
    (a46 := Wv (main_c_185 : DevRef τ sig)) (a47 := Wv (main_c_186 : DevRef τ sig)) (q0 := Wv (main_call20_v0 : DevRef τ sig))
    (q1 := Wv (main_call20_v1 : DevRef τ sig)) (q2 := Wv (main_call20_v2 : DevRef τ sig)) (q3 := Wv (main_call20_v3 : DevRef τ sig))
    (q4 := Wv (main_call20_v4 : DevRef τ sig)) (q5 := Wv (main_v526 : DevRef τ sig)) (b0 := Wv (main_c_187 : DevRef τ sig))
    (b1 := Wv (main_v527 : DevRef τ sig)) (b2 := Wv (main_v528 : DevRef τ sig)) (b3 := Wv (main_c_188 : DevRef τ sig))
    (b4 := Wv (main_v529 : DevRef τ sig)) (b5 := Wv (main_v530 : DevRef τ sig)) (b6 := Wv (main_v531 : DevRef τ sig))
    (b7 := Wv (main_v532 : DevRef τ sig)) (b8 := Wv (main_v533 : DevRef τ sig))
    (tap10_inside m c hW).2
    (nullary_pre m c hW 40 46 rfl rfl) (nullary_pre m c hW 40 47 rfl rfl) (unary_pre m c hW 41 0 rfl rfl)
    (unary_pre m c hW 41 1 rfl rfl) (binary_pre m c hW 41 2 rfl rfl) (unary_pre m c hW 41 3 rfl rfl)
    (unary_pre m c hW 41 4 rfl rfl) (binary_pre m c hW 41 5 rfl rfl) (nullary_pre m c hW 42 0 rfl rfl)
    (unary_pre m c hW 42 1 rfl rfl) (binary_pre m c hW 42 2 rfl rfl) (nullary_pre m c hW 42 3 rfl rfl)
    (unary_pre m c hW 42 4 rfl rfl) (binary_pre m c hW 42 5 rfl rfl) (ternary_pre m c hW 42 6 rfl rfl)
    (unary_pre m c hW 42 7 rfl rfl) (binary_pre m c hW 42 8 rfl rfl)

include hW in
/-- Tap 10: the row index, of NIDX and INSIDE as the buffers hold them. -/
theorem tap10_row_buf : Wv (main_v537 : DevRef τ sig)
    = Cert.TapBridge.rowIdx bcast_S_S200000 (Wv (main_v533 : DevRef τ sig)) (Wv (main_v519 : DevRef τ sig)) :=
  row_compose (a37 := Wv (main_v519 : DevRef τ sig)) (b8 := Wv (main_v533 : DevRef τ sig))
    (b9 := Wv (main_c_189 : DevRef τ sig)) (b10 := Wv (main_v534 : DevRef τ sig)) (b11 := Wv (main_v535 : DevRef τ sig))
    (b12 := Wv (main_v536 : DevRef τ sig)) (b13 := Wv (main_c_190 : DevRef τ sig)) (w0 := Wv (main_call21_v0 : DevRef τ sig))
    (w1 := Wv (main_call21_v1 : DevRef τ sig)) (w2 := Wv (main_v537 : DevRef τ sig))
    (nullary_pre m c hW 42 9 rfl rfl) (unary_pre m c hW 42 10 rfl rfl) (binary_pre m c hW 42 11 rfl rfl)
    (binary_pre m c hW 42 12 rfl rfl) (nullary_pre m c hW 42 13 rfl rfl) (unary_pre m c hW 43 0 rfl rfl)
    (unary_pre m c hW 43 1 rfl rfl) (ternary_pre m c hW 43 2 rfl rfl)

include hW in
/-- TAP 10's ROW INDEX as one term of the coordinates, the offset words and the table. -/
theorem tap10_row : Wv (main_v537 : DevRef τ sig) = rowT (Wv (main_arg3 : DevRef τ sig)) 0#32 4294967295#32 0#32 (Wv (main_v20 : DevRef τ sig)) := by
  rw [tap10_row_buf m c hW, tap10_nidx m c hW, (tap10_inside m c hW).1]

/-! ### Tap 11: offset words (0, 4294967295, 1) -/

include hW in
/-- Tap 11: INSIDE and the neighbour's linear cell number. -/
theorem tap11_inside : Wv (main_v566 : DevRef τ sig) = insideT (Wv (main_arg3 : DevRef τ sig)) 0#32 4294967295#32 1#32
    ∧ Wv (main_v572 : DevRef τ sig) = nlinT (Wv (main_arg3 : DevRef τ sig)) 0#32 4294967295#32 1#32 :=
  inside_compose (coords := Wv (main_arg3 : DevRef τ sig)) (dz := 0#32) (dy := 4294967295#32) (dx := 1#32)
    (a0 := Wv (main_v538 : DevRef τ sig)) (a1 := Wv (main_v539 : DevRef τ sig)) (a2 := Wv (main_c_191 : DevRef τ sig))
    (a3 := Wv (main_v540 : DevRef τ sig)) (a4 := Wv (main_v541 : DevRef τ sig)) (a5 := Wv (main_v542 : DevRef τ sig))
    (a6 := Wv (main_v543 : DevRef τ sig)) (a7 := Wv (main_c_192 : DevRef τ sig)) (a8 := Wv (main_v544 : DevRef τ sig))
    (a9 := Wv (main_v545 : DevRef τ sig)) (a10 := Wv (main_v546 : DevRef τ sig)) (a11 := Wv (main_v547 : DevRef τ sig))
    (a12 := Wv (main_c_193 : DevRef τ sig)) (a13 := Wv (main_v548 : DevRef τ sig)) (a14 := Wv (main_v549 : DevRef τ sig))
    (a15 := Wv (main_c_194 : DevRef τ sig)) (a16 := Wv (main_v550 : DevRef τ sig)) (a17 := Wv (main_v551 : DevRef τ sig))
    (a18 := Wv (main_c_195 : DevRef τ sig)) (a19 := Wv (main_v552 : DevRef τ sig)) (a20 := Wv (main_v553 : DevRef τ sig))
    (a21 := Wv (main_v554 : DevRef τ sig)) (a22 := Wv (main_c_196 : DevRef τ sig)) (a23 := Wv (main_v555 : DevRef τ sig))
    (a24 := Wv (main_v556 : DevRef τ sig)) (a25 := Wv (main_v557 : DevRef τ sig)) (a26 := Wv (main_c_197 : DevRef τ sig))
    (a27 := Wv (main_v558 : DevRef τ sig)) (a28 := Wv (main_v559 : DevRef τ sig)) (a29 := Wv (main_v560 : DevRef τ sig))
    (a30 := Wv (main_c_198 : DevRef τ sig)) (a31 := Wv (main_v561 : DevRef τ sig)) (a32 := Wv (main_v562 : DevRef τ sig))
    (a33 := Wv (main_v563 : DevRef τ sig)) (a34 := Wv (main_c_199 : DevRef τ sig)) (a35 := Wv (main_v564 : DevRef τ sig))
    (a36 := Wv (main_v565 : DevRef τ sig)) (a37 := Wv (main_v566 : DevRef τ sig)) (a38 := Wv (main_c_200 : DevRef τ sig))
    (a39 := Wv (main_v567 : DevRef τ sig)) (a40 := Wv (main_v568 : DevRef τ sig)) (a41 := Wv (main_v569 : DevRef τ sig))
    (a42 := Wv (main_c_201 : DevRef τ sig)) (a43 := Wv (main_v570 : DevRef τ sig)) (a44 := Wv (main_v571 : DevRef τ sig))
    (a45 := Wv (main_v572 : DevRef τ sig))
    (unary_pre m c hW 44 0 rfl rfl) (reshape_pre m c hW 44 1 rfl rfl) (nullary_pre m c hW 44 2 rfl rfl)
    (unary_pre m c hW 44 3 rfl rfl) (binary_pre m c hW 44 4 rfl rfl) (unary_pre m c hW 44 5 rfl rfl)
    (reshape_pre m c hW 44 6 rfl rfl) (nullary_pre m c hW 44 7 rfl rfl) (unary_pre m c hW 44 8 rfl rfl)
    (binary_pre m c hW 44 9 rfl rfl) (unary_pre m c hW 44 10 rfl rfl) (reshape_pre m c hW 44 11 rfl rfl)
    (nullary_pre m c hW 44 12 rfl rfl) (unary_pre m c hW 44 13 rfl rfl) (binary_pre m c hW 44 14 rfl rfl)
    (nullary_pre m c hW 44 15 rfl rfl) (unary_pre m c hW 44 16 rfl rfl) (binary_pre m c hW 44 17 rfl rfl)
    (nullary_pre m c hW 44 18 rfl rfl) (unary_pre m c hW 44 19 rfl rfl) (binary_pre m c hW 44 20 rfl rfl)
    (binary_pre m c hW 44 21 rfl rfl) (nullary_pre m c hW 44 22 rfl rfl) (unary_pre m c hW 44 23 rfl rfl)
    (binary_pre m c hW 44 24 rfl rfl) (binary_pre m c hW 44 25 rfl rfl) (nullary_pre m c hW 44 26 rfl rfl)
    (unary_pre m c hW 44 27 rfl rfl) (binary_pre m c hW 44 28 rfl rfl) (binary_pre m c hW 44 29 rfl rfl)
    (nullary_pre m c hW 44 30 rfl rfl) (unary_pre m c hW 44 31 rfl rfl) (binary_pre m c hW 44 32 rfl rfl)
    (binary_pre m c hW 44 33 rfl rfl) (nullary_pre m c hW 44 34 rfl rfl) (unary_pre m c hW 44 35 rfl rfl)
    (binary_pre m c hW 44 36 rfl rfl) (binary_pre m c hW 44 37 rfl rfl) (nullary_pre m c hW 44 38 rfl rfl)
    (unary_pre m c hW 44 39 rfl rfl) (binary_pre m c hW 44 40 rfl rfl) (binary_pre m c hW 44 41 rfl rfl)
    (nullary_pre m c hW 44 42 rfl rfl) (unary_pre m c hW 44 43 rfl rfl) (binary_pre m c hW 44 44 rfl rfl)
    (binary_pre m c hW 44 45 rfl rfl)

include hW in
/-- Tap 11: NIDX, looked up in the table the program holds in its map buffer. -/
theorem tap11_nidx : Wv (main_v580 : DevRef τ sig) = nidxT (Wv (main_arg3 : DevRef τ sig)) 0#32 4294967295#32 1#32 (Wv (main_v20 : DevRef τ sig)) :=
  nidx_compose (coords := Wv (main_arg3 : DevRef τ sig)) (dz := 0#32) (dy := 4294967295#32) (dx := 1#32) (M := Wv (main_v20 : DevRef τ sig))
    (a45 := Wv (main_v572 : DevRef τ sig))
    (a46 := Wv (main_c_202 : DevRef τ sig)) (a47 := Wv (main_c_203 : DevRef τ sig)) (q0 := Wv (main_call22_v0 : DevRef τ sig))
    (q1 := Wv (main_call22_v1 : DevRef τ sig)) (q2 := Wv (main_call22_v2 : DevRef τ sig)) (q3 := Wv (main_call22_v3 : DevRef τ sig))
    (q4 := Wv (main_call22_v4 : DevRef τ sig)) (q5 := Wv (main_v573 : DevRef τ sig)) (b0 := Wv (main_c_204 : DevRef τ sig))
    (b1 := Wv (main_v574 : DevRef τ sig)) (b2 := Wv (main_v575 : DevRef τ sig)) (b3 := Wv (main_c_205 : DevRef τ sig))
    (b4 := Wv (main_v576 : DevRef τ sig)) (b5 := Wv (main_v577 : DevRef τ sig)) (b6 := Wv (main_v578 : DevRef τ sig))
    (b7 := Wv (main_v579 : DevRef τ sig)) (b8 := Wv (main_v580 : DevRef τ sig))
    (tap11_inside m c hW).2
    (nullary_pre m c hW 44 46 rfl rfl) (nullary_pre m c hW 44 47 rfl rfl) (unary_pre m c hW 45 0 rfl rfl)
    (unary_pre m c hW 45 1 rfl rfl) (binary_pre m c hW 45 2 rfl rfl) (unary_pre m c hW 45 3 rfl rfl)
    (unary_pre m c hW 45 4 rfl rfl) (binary_pre m c hW 45 5 rfl rfl) (nullary_pre m c hW 46 0 rfl rfl)
    (unary_pre m c hW 46 1 rfl rfl) (binary_pre m c hW 46 2 rfl rfl) (nullary_pre m c hW 46 3 rfl rfl)
    (unary_pre m c hW 46 4 rfl rfl) (binary_pre m c hW 46 5 rfl rfl) (ternary_pre m c hW 46 6 rfl rfl)
    (unary_pre m c hW 46 7 rfl rfl) (binary_pre m c hW 46 8 rfl rfl)

include hW in
/-- Tap 11: the row index, of NIDX and INSIDE as the buffers hold them. -/
theorem tap11_row_buf : Wv (main_v584 : DevRef τ sig)
    = Cert.TapBridge.rowIdx bcast_S_S200000 (Wv (main_v580 : DevRef τ sig)) (Wv (main_v566 : DevRef τ sig)) :=
  row_compose (a37 := Wv (main_v566 : DevRef τ sig)) (b8 := Wv (main_v580 : DevRef τ sig))
    (b9 := Wv (main_c_206 : DevRef τ sig)) (b10 := Wv (main_v581 : DevRef τ sig)) (b11 := Wv (main_v582 : DevRef τ sig))
    (b12 := Wv (main_v583 : DevRef τ sig)) (b13 := Wv (main_c_207 : DevRef τ sig)) (w0 := Wv (main_call23_v0 : DevRef τ sig))
    (w1 := Wv (main_call23_v1 : DevRef τ sig)) (w2 := Wv (main_v584 : DevRef τ sig))
    (nullary_pre m c hW 46 9 rfl rfl) (unary_pre m c hW 46 10 rfl rfl) (binary_pre m c hW 46 11 rfl rfl)
    (binary_pre m c hW 46 12 rfl rfl) (nullary_pre m c hW 46 13 rfl rfl) (unary_pre m c hW 47 0 rfl rfl)
    (unary_pre m c hW 47 1 rfl rfl) (ternary_pre m c hW 47 2 rfl rfl)

include hW in
/-- TAP 11's ROW INDEX as one term of the coordinates, the offset words and the table. -/
theorem tap11_row : Wv (main_v584 : DevRef τ sig) = rowT (Wv (main_arg3 : DevRef τ sig)) 0#32 4294967295#32 1#32 (Wv (main_v20 : DevRef τ sig)) := by
  rw [tap11_row_buf m c hW, tap11_nidx m c hW, (tap11_inside m c hW).1]

/-! ### Tap 12: offset words (0, 0, 4294967295) -/

include hW in
/-- Tap 12: INSIDE and the neighbour's linear cell number. -/
theorem tap12_inside : Wv (main_v613 : DevRef τ sig) = insideT (Wv (main_arg3 : DevRef τ sig)) 0#32 0#32 4294967295#32
    ∧ Wv (main_v619 : DevRef τ sig) = nlinT (Wv (main_arg3 : DevRef τ sig)) 0#32 0#32 4294967295#32 :=
  inside_compose (coords := Wv (main_arg3 : DevRef τ sig)) (dz := 0#32) (dy := 0#32) (dx := 4294967295#32)
    (a0 := Wv (main_v585 : DevRef τ sig)) (a1 := Wv (main_v586 : DevRef τ sig)) (a2 := Wv (main_c_208 : DevRef τ sig))
    (a3 := Wv (main_v587 : DevRef τ sig)) (a4 := Wv (main_v588 : DevRef τ sig)) (a5 := Wv (main_v589 : DevRef τ sig))
    (a6 := Wv (main_v590 : DevRef τ sig)) (a7 := Wv (main_c_209 : DevRef τ sig)) (a8 := Wv (main_v591 : DevRef τ sig))
    (a9 := Wv (main_v592 : DevRef τ sig)) (a10 := Wv (main_v593 : DevRef τ sig)) (a11 := Wv (main_v594 : DevRef τ sig))
    (a12 := Wv (main_c_210 : DevRef τ sig)) (a13 := Wv (main_v595 : DevRef τ sig)) (a14 := Wv (main_v596 : DevRef τ sig))
    (a15 := Wv (main_c_211 : DevRef τ sig)) (a16 := Wv (main_v597 : DevRef τ sig)) (a17 := Wv (main_v598 : DevRef τ sig))
    (a18 := Wv (main_c_212 : DevRef τ sig)) (a19 := Wv (main_v599 : DevRef τ sig)) (a20 := Wv (main_v600 : DevRef τ sig))
    (a21 := Wv (main_v601 : DevRef τ sig)) (a22 := Wv (main_c_213 : DevRef τ sig)) (a23 := Wv (main_v602 : DevRef τ sig))
    (a24 := Wv (main_v603 : DevRef τ sig)) (a25 := Wv (main_v604 : DevRef τ sig)) (a26 := Wv (main_c_214 : DevRef τ sig))
    (a27 := Wv (main_v605 : DevRef τ sig)) (a28 := Wv (main_v606 : DevRef τ sig)) (a29 := Wv (main_v607 : DevRef τ sig))
    (a30 := Wv (main_c_215 : DevRef τ sig)) (a31 := Wv (main_v608 : DevRef τ sig)) (a32 := Wv (main_v609 : DevRef τ sig))
    (a33 := Wv (main_v610 : DevRef τ sig)) (a34 := Wv (main_c_216 : DevRef τ sig)) (a35 := Wv (main_v611 : DevRef τ sig))
    (a36 := Wv (main_v612 : DevRef τ sig)) (a37 := Wv (main_v613 : DevRef τ sig)) (a38 := Wv (main_c_217 : DevRef τ sig))
    (a39 := Wv (main_v614 : DevRef τ sig)) (a40 := Wv (main_v615 : DevRef τ sig)) (a41 := Wv (main_v616 : DevRef τ sig))
    (a42 := Wv (main_c_218 : DevRef τ sig)) (a43 := Wv (main_v617 : DevRef τ sig)) (a44 := Wv (main_v618 : DevRef τ sig))
    (a45 := Wv (main_v619 : DevRef τ sig))
    (unary_pre m c hW 48 0 rfl rfl) (reshape_pre m c hW 48 1 rfl rfl) (nullary_pre m c hW 48 2 rfl rfl)
    (unary_pre m c hW 48 3 rfl rfl) (binary_pre m c hW 48 4 rfl rfl) (unary_pre m c hW 48 5 rfl rfl)
    (reshape_pre m c hW 48 6 rfl rfl) (nullary_pre m c hW 48 7 rfl rfl) (unary_pre m c hW 48 8 rfl rfl)
    (binary_pre m c hW 48 9 rfl rfl) (unary_pre m c hW 48 10 rfl rfl) (reshape_pre m c hW 48 11 rfl rfl)
    (nullary_pre m c hW 48 12 rfl rfl) (unary_pre m c hW 48 13 rfl rfl) (binary_pre m c hW 48 14 rfl rfl)
    (nullary_pre m c hW 48 15 rfl rfl) (unary_pre m c hW 48 16 rfl rfl) (binary_pre m c hW 48 17 rfl rfl)
    (nullary_pre m c hW 48 18 rfl rfl) (unary_pre m c hW 48 19 rfl rfl) (binary_pre m c hW 48 20 rfl rfl)
    (binary_pre m c hW 48 21 rfl rfl) (nullary_pre m c hW 48 22 rfl rfl) (unary_pre m c hW 48 23 rfl rfl)
    (binary_pre m c hW 48 24 rfl rfl) (binary_pre m c hW 48 25 rfl rfl) (nullary_pre m c hW 48 26 rfl rfl)
    (unary_pre m c hW 48 27 rfl rfl) (binary_pre m c hW 48 28 rfl rfl) (binary_pre m c hW 48 29 rfl rfl)
    (nullary_pre m c hW 48 30 rfl rfl) (unary_pre m c hW 48 31 rfl rfl) (binary_pre m c hW 48 32 rfl rfl)
    (binary_pre m c hW 48 33 rfl rfl) (nullary_pre m c hW 48 34 rfl rfl) (unary_pre m c hW 48 35 rfl rfl)
    (binary_pre m c hW 48 36 rfl rfl) (binary_pre m c hW 48 37 rfl rfl) (nullary_pre m c hW 48 38 rfl rfl)
    (unary_pre m c hW 48 39 rfl rfl) (binary_pre m c hW 48 40 rfl rfl) (binary_pre m c hW 48 41 rfl rfl)
    (nullary_pre m c hW 48 42 rfl rfl) (unary_pre m c hW 48 43 rfl rfl) (binary_pre m c hW 48 44 rfl rfl)
    (binary_pre m c hW 48 45 rfl rfl)

include hW in
/-- Tap 12: NIDX, looked up in the table the program holds in its map buffer. -/
theorem tap12_nidx : Wv (main_v627 : DevRef τ sig) = nidxT (Wv (main_arg3 : DevRef τ sig)) 0#32 0#32 4294967295#32 (Wv (main_v20 : DevRef τ sig)) :=
  nidx_compose (coords := Wv (main_arg3 : DevRef τ sig)) (dz := 0#32) (dy := 0#32) (dx := 4294967295#32) (M := Wv (main_v20 : DevRef τ sig))
    (a45 := Wv (main_v619 : DevRef τ sig))
    (a46 := Wv (main_c_219 : DevRef τ sig)) (a47 := Wv (main_c_220 : DevRef τ sig)) (q0 := Wv (main_call24_v0 : DevRef τ sig))
    (q1 := Wv (main_call24_v1 : DevRef τ sig)) (q2 := Wv (main_call24_v2 : DevRef τ sig)) (q3 := Wv (main_call24_v3 : DevRef τ sig))
    (q4 := Wv (main_call24_v4 : DevRef τ sig)) (q5 := Wv (main_v620 : DevRef τ sig)) (b0 := Wv (main_c_221 : DevRef τ sig))
    (b1 := Wv (main_v621 : DevRef τ sig)) (b2 := Wv (main_v622 : DevRef τ sig)) (b3 := Wv (main_c_222 : DevRef τ sig))
    (b4 := Wv (main_v623 : DevRef τ sig)) (b5 := Wv (main_v624 : DevRef τ sig)) (b6 := Wv (main_v625 : DevRef τ sig))
    (b7 := Wv (main_v626 : DevRef τ sig)) (b8 := Wv (main_v627 : DevRef τ sig))
    (tap12_inside m c hW).2
    (nullary_pre m c hW 48 46 rfl rfl) (nullary_pre m c hW 48 47 rfl rfl) (unary_pre m c hW 49 0 rfl rfl)
    (unary_pre m c hW 49 1 rfl rfl) (binary_pre m c hW 49 2 rfl rfl) (unary_pre m c hW 49 3 rfl rfl)
    (unary_pre m c hW 49 4 rfl rfl) (binary_pre m c hW 49 5 rfl rfl) (nullary_pre m c hW 50 0 rfl rfl)
    (unary_pre m c hW 50 1 rfl rfl) (binary_pre m c hW 50 2 rfl rfl) (nullary_pre m c hW 50 3 rfl rfl)
    (unary_pre m c hW 50 4 rfl rfl) (binary_pre m c hW 50 5 rfl rfl) (ternary_pre m c hW 50 6 rfl rfl)
    (unary_pre m c hW 50 7 rfl rfl) (binary_pre m c hW 50 8 rfl rfl)

include hW in
/-- Tap 12: the row index, of NIDX and INSIDE as the buffers hold them. -/
theorem tap12_row_buf : Wv (main_v631 : DevRef τ sig)
    = Cert.TapBridge.rowIdx bcast_S_S200000 (Wv (main_v627 : DevRef τ sig)) (Wv (main_v613 : DevRef τ sig)) :=
  row_compose (a37 := Wv (main_v613 : DevRef τ sig)) (b8 := Wv (main_v627 : DevRef τ sig))
    (b9 := Wv (main_c_223 : DevRef τ sig)) (b10 := Wv (main_v628 : DevRef τ sig)) (b11 := Wv (main_v629 : DevRef τ sig))
    (b12 := Wv (main_v630 : DevRef τ sig)) (b13 := Wv (main_c_224 : DevRef τ sig)) (w0 := Wv (main_call25_v0 : DevRef τ sig))
    (w1 := Wv (main_call25_v1 : DevRef τ sig)) (w2 := Wv (main_v631 : DevRef τ sig))
    (nullary_pre m c hW 50 9 rfl rfl) (unary_pre m c hW 50 10 rfl rfl) (binary_pre m c hW 50 11 rfl rfl)
    (binary_pre m c hW 50 12 rfl rfl) (nullary_pre m c hW 50 13 rfl rfl) (unary_pre m c hW 51 0 rfl rfl)
    (unary_pre m c hW 51 1 rfl rfl) (ternary_pre m c hW 51 2 rfl rfl)

include hW in
/-- TAP 12's ROW INDEX as one term of the coordinates, the offset words and the table. -/
theorem tap12_row : Wv (main_v631 : DevRef τ sig) = rowT (Wv (main_arg3 : DevRef τ sig)) 0#32 0#32 4294967295#32 (Wv (main_v20 : DevRef τ sig)) := by
  rw [tap12_row_buf m c hW, tap12_nidx m c hW, (tap12_inside m c hW).1]

/-! ### Tap 13: offset words (0, 0, 0) -/

include hW in
/-- Tap 13: INSIDE and the neighbour's linear cell number. -/
theorem tap13_inside : Wv (main_v660 : DevRef τ sig) = insideT (Wv (main_arg3 : DevRef τ sig)) 0#32 0#32 0#32
    ∧ Wv (main_v666 : DevRef τ sig) = nlinT (Wv (main_arg3 : DevRef τ sig)) 0#32 0#32 0#32 :=
  inside_compose (coords := Wv (main_arg3 : DevRef τ sig)) (dz := 0#32) (dy := 0#32) (dx := 0#32)
    (a0 := Wv (main_v632 : DevRef τ sig)) (a1 := Wv (main_v633 : DevRef τ sig)) (a2 := Wv (main_c_225 : DevRef τ sig))
    (a3 := Wv (main_v634 : DevRef τ sig)) (a4 := Wv (main_v635 : DevRef τ sig)) (a5 := Wv (main_v636 : DevRef τ sig))
    (a6 := Wv (main_v637 : DevRef τ sig)) (a7 := Wv (main_c_226 : DevRef τ sig)) (a8 := Wv (main_v638 : DevRef τ sig))
    (a9 := Wv (main_v639 : DevRef τ sig)) (a10 := Wv (main_v640 : DevRef τ sig)) (a11 := Wv (main_v641 : DevRef τ sig))
    (a12 := Wv (main_c_227 : DevRef τ sig)) (a13 := Wv (main_v642 : DevRef τ sig)) (a14 := Wv (main_v643 : DevRef τ sig))
    (a15 := Wv (main_c_228 : DevRef τ sig)) (a16 := Wv (main_v644 : DevRef τ sig)) (a17 := Wv (main_v645 : DevRef τ sig))
    (a18 := Wv (main_c_229 : DevRef τ sig)) (a19 := Wv (main_v646 : DevRef τ sig)) (a20 := Wv (main_v647 : DevRef τ sig))
    (a21 := Wv (main_v648 : DevRef τ sig)) (a22 := Wv (main_c_230 : DevRef τ sig)) (a23 := Wv (main_v649 : DevRef τ sig))
    (a24 := Wv (main_v650 : DevRef τ sig)) (a25 := Wv (main_v651 : DevRef τ sig)) (a26 := Wv (main_c_231 : DevRef τ sig))
    (a27 := Wv (main_v652 : DevRef τ sig)) (a28 := Wv (main_v653 : DevRef τ sig)) (a29 := Wv (main_v654 : DevRef τ sig))
    (a30 := Wv (main_c_232 : DevRef τ sig)) (a31 := Wv (main_v655 : DevRef τ sig)) (a32 := Wv (main_v656 : DevRef τ sig))
    (a33 := Wv (main_v657 : DevRef τ sig)) (a34 := Wv (main_c_233 : DevRef τ sig)) (a35 := Wv (main_v658 : DevRef τ sig))
    (a36 := Wv (main_v659 : DevRef τ sig)) (a37 := Wv (main_v660 : DevRef τ sig)) (a38 := Wv (main_c_234 : DevRef τ sig))
    (a39 := Wv (main_v661 : DevRef τ sig)) (a40 := Wv (main_v662 : DevRef τ sig)) (a41 := Wv (main_v663 : DevRef τ sig))
    (a42 := Wv (main_c_235 : DevRef τ sig)) (a43 := Wv (main_v664 : DevRef τ sig)) (a44 := Wv (main_v665 : DevRef τ sig))
    (a45 := Wv (main_v666 : DevRef τ sig))
    (unary_pre m c hW 52 0 rfl rfl) (reshape_pre m c hW 52 1 rfl rfl) (nullary_pre m c hW 52 2 rfl rfl)
    (unary_pre m c hW 52 3 rfl rfl) (binary_pre m c hW 52 4 rfl rfl) (unary_pre m c hW 52 5 rfl rfl)
    (reshape_pre m c hW 52 6 rfl rfl) (nullary_pre m c hW 52 7 rfl rfl) (unary_pre m c hW 52 8 rfl rfl)
    (binary_pre m c hW 52 9 rfl rfl) (unary_pre m c hW 52 10 rfl rfl) (reshape_pre m c hW 52 11 rfl rfl)
    (nullary_pre m c hW 52 12 rfl rfl) (unary_pre m c hW 52 13 rfl rfl) (binary_pre m c hW 52 14 rfl rfl)
    (nullary_pre m c hW 52 15 rfl rfl) (unary_pre m c hW 52 16 rfl rfl) (binary_pre m c hW 52 17 rfl rfl)
    (nullary_pre m c hW 52 18 rfl rfl) (unary_pre m c hW 52 19 rfl rfl) (binary_pre m c hW 52 20 rfl rfl)
    (binary_pre m c hW 52 21 rfl rfl) (nullary_pre m c hW 52 22 rfl rfl) (unary_pre m c hW 52 23 rfl rfl)
    (binary_pre m c hW 52 24 rfl rfl) (binary_pre m c hW 52 25 rfl rfl) (nullary_pre m c hW 52 26 rfl rfl)
    (unary_pre m c hW 52 27 rfl rfl) (binary_pre m c hW 52 28 rfl rfl) (binary_pre m c hW 52 29 rfl rfl)
    (nullary_pre m c hW 52 30 rfl rfl) (unary_pre m c hW 52 31 rfl rfl) (binary_pre m c hW 52 32 rfl rfl)
    (binary_pre m c hW 52 33 rfl rfl) (nullary_pre m c hW 52 34 rfl rfl) (unary_pre m c hW 52 35 rfl rfl)
    (binary_pre m c hW 52 36 rfl rfl) (binary_pre m c hW 52 37 rfl rfl) (nullary_pre m c hW 52 38 rfl rfl)
    (unary_pre m c hW 52 39 rfl rfl) (binary_pre m c hW 52 40 rfl rfl) (binary_pre m c hW 52 41 rfl rfl)
    (nullary_pre m c hW 52 42 rfl rfl) (unary_pre m c hW 52 43 rfl rfl) (binary_pre m c hW 52 44 rfl rfl)
    (binary_pre m c hW 52 45 rfl rfl)

include hW in
/-- Tap 13: NIDX, looked up in the table the program holds in its map buffer. -/
theorem tap13_nidx : Wv (main_v674 : DevRef τ sig) = nidxT (Wv (main_arg3 : DevRef τ sig)) 0#32 0#32 0#32 (Wv (main_v20 : DevRef τ sig)) :=
  nidx_compose (coords := Wv (main_arg3 : DevRef τ sig)) (dz := 0#32) (dy := 0#32) (dx := 0#32) (M := Wv (main_v20 : DevRef τ sig))
    (a45 := Wv (main_v666 : DevRef τ sig))
    (a46 := Wv (main_c_236 : DevRef τ sig)) (a47 := Wv (main_c_237 : DevRef τ sig)) (q0 := Wv (main_call26_v0 : DevRef τ sig))
    (q1 := Wv (main_call26_v1 : DevRef τ sig)) (q2 := Wv (main_call26_v2 : DevRef τ sig)) (q3 := Wv (main_call26_v3 : DevRef τ sig))
    (q4 := Wv (main_call26_v4 : DevRef τ sig)) (q5 := Wv (main_v667 : DevRef τ sig)) (b0 := Wv (main_c_238 : DevRef τ sig))
    (b1 := Wv (main_v668 : DevRef τ sig)) (b2 := Wv (main_v669 : DevRef τ sig)) (b3 := Wv (main_c_239 : DevRef τ sig))
    (b4 := Wv (main_v670 : DevRef τ sig)) (b5 := Wv (main_v671 : DevRef τ sig)) (b6 := Wv (main_v672 : DevRef τ sig))
    (b7 := Wv (main_v673 : DevRef τ sig)) (b8 := Wv (main_v674 : DevRef τ sig))
    (tap13_inside m c hW).2
    (nullary_pre m c hW 52 46 rfl rfl) (nullary_pre m c hW 52 47 rfl rfl) (unary_pre m c hW 53 0 rfl rfl)
    (unary_pre m c hW 53 1 rfl rfl) (binary_pre m c hW 53 2 rfl rfl) (unary_pre m c hW 53 3 rfl rfl)
    (unary_pre m c hW 53 4 rfl rfl) (binary_pre m c hW 53 5 rfl rfl) (nullary_pre m c hW 54 0 rfl rfl)
    (unary_pre m c hW 54 1 rfl rfl) (binary_pre m c hW 54 2 rfl rfl) (nullary_pre m c hW 54 3 rfl rfl)
    (unary_pre m c hW 54 4 rfl rfl) (binary_pre m c hW 54 5 rfl rfl) (ternary_pre m c hW 54 6 rfl rfl)
    (unary_pre m c hW 54 7 rfl rfl) (binary_pre m c hW 54 8 rfl rfl)

include hW in
/-- Tap 13: the row index, of NIDX and INSIDE as the buffers hold them. -/
theorem tap13_row_buf : Wv (main_v678 : DevRef τ sig)
    = Cert.TapBridge.rowIdx bcast_S_S200000 (Wv (main_v674 : DevRef τ sig)) (Wv (main_v660 : DevRef τ sig)) :=
  row_compose (a37 := Wv (main_v660 : DevRef τ sig)) (b8 := Wv (main_v674 : DevRef τ sig))
    (b9 := Wv (main_c_240 : DevRef τ sig)) (b10 := Wv (main_v675 : DevRef τ sig)) (b11 := Wv (main_v676 : DevRef τ sig))
    (b12 := Wv (main_v677 : DevRef τ sig)) (b13 := Wv (main_c_241 : DevRef τ sig)) (w0 := Wv (main_call27_v0 : DevRef τ sig))
    (w1 := Wv (main_call27_v1 : DevRef τ sig)) (w2 := Wv (main_v678 : DevRef τ sig))
    (nullary_pre m c hW 54 9 rfl rfl) (unary_pre m c hW 54 10 rfl rfl) (binary_pre m c hW 54 11 rfl rfl)
    (binary_pre m c hW 54 12 rfl rfl) (nullary_pre m c hW 54 13 rfl rfl) (unary_pre m c hW 55 0 rfl rfl)
    (unary_pre m c hW 55 1 rfl rfl) (ternary_pre m c hW 55 2 rfl rfl)

include hW in
/-- TAP 13's ROW INDEX as one term of the coordinates, the offset words and the table. -/
theorem tap13_row : Wv (main_v678 : DevRef τ sig) = rowT (Wv (main_arg3 : DevRef τ sig)) 0#32 0#32 0#32 (Wv (main_v20 : DevRef τ sig)) := by
  rw [tap13_row_buf m c hW, tap13_nidx m c hW, (tap13_inside m c hW).1]

/-! ### Tap 14: offset words (0, 0, 1) -/

include hW in
/-- Tap 14: INSIDE and the neighbour's linear cell number. -/
theorem tap14_inside : Wv (main_v707 : DevRef τ sig) = insideT (Wv (main_arg3 : DevRef τ sig)) 0#32 0#32 1#32
    ∧ Wv (main_v713 : DevRef τ sig) = nlinT (Wv (main_arg3 : DevRef τ sig)) 0#32 0#32 1#32 :=
  inside_compose (coords := Wv (main_arg3 : DevRef τ sig)) (dz := 0#32) (dy := 0#32) (dx := 1#32)
    (a0 := Wv (main_v679 : DevRef τ sig)) (a1 := Wv (main_v680 : DevRef τ sig)) (a2 := Wv (main_c_242 : DevRef τ sig))
    (a3 := Wv (main_v681 : DevRef τ sig)) (a4 := Wv (main_v682 : DevRef τ sig)) (a5 := Wv (main_v683 : DevRef τ sig))
    (a6 := Wv (main_v684 : DevRef τ sig)) (a7 := Wv (main_c_243 : DevRef τ sig)) (a8 := Wv (main_v685 : DevRef τ sig))
    (a9 := Wv (main_v686 : DevRef τ sig)) (a10 := Wv (main_v687 : DevRef τ sig)) (a11 := Wv (main_v688 : DevRef τ sig))
    (a12 := Wv (main_c_244 : DevRef τ sig)) (a13 := Wv (main_v689 : DevRef τ sig)) (a14 := Wv (main_v690 : DevRef τ sig))
    (a15 := Wv (main_c_245 : DevRef τ sig)) (a16 := Wv (main_v691 : DevRef τ sig)) (a17 := Wv (main_v692 : DevRef τ sig))
    (a18 := Wv (main_c_246 : DevRef τ sig)) (a19 := Wv (main_v693 : DevRef τ sig)) (a20 := Wv (main_v694 : DevRef τ sig))
    (a21 := Wv (main_v695 : DevRef τ sig)) (a22 := Wv (main_c_247 : DevRef τ sig)) (a23 := Wv (main_v696 : DevRef τ sig))
    (a24 := Wv (main_v697 : DevRef τ sig)) (a25 := Wv (main_v698 : DevRef τ sig)) (a26 := Wv (main_c_248 : DevRef τ sig))
    (a27 := Wv (main_v699 : DevRef τ sig)) (a28 := Wv (main_v700 : DevRef τ sig)) (a29 := Wv (main_v701 : DevRef τ sig))
    (a30 := Wv (main_c_249 : DevRef τ sig)) (a31 := Wv (main_v702 : DevRef τ sig)) (a32 := Wv (main_v703 : DevRef τ sig))
    (a33 := Wv (main_v704 : DevRef τ sig)) (a34 := Wv (main_c_250 : DevRef τ sig)) (a35 := Wv (main_v705 : DevRef τ sig))
    (a36 := Wv (main_v706 : DevRef τ sig)) (a37 := Wv (main_v707 : DevRef τ sig)) (a38 := Wv (main_c_251 : DevRef τ sig))
    (a39 := Wv (main_v708 : DevRef τ sig)) (a40 := Wv (main_v709 : DevRef τ sig)) (a41 := Wv (main_v710 : DevRef τ sig))
    (a42 := Wv (main_c_252 : DevRef τ sig)) (a43 := Wv (main_v711 : DevRef τ sig)) (a44 := Wv (main_v712 : DevRef τ sig))
    (a45 := Wv (main_v713 : DevRef τ sig))
    (unary_pre m c hW 56 0 rfl rfl) (reshape_pre m c hW 56 1 rfl rfl) (nullary_pre m c hW 56 2 rfl rfl)
    (unary_pre m c hW 56 3 rfl rfl) (binary_pre m c hW 56 4 rfl rfl) (unary_pre m c hW 56 5 rfl rfl)
    (reshape_pre m c hW 56 6 rfl rfl) (nullary_pre m c hW 56 7 rfl rfl) (unary_pre m c hW 56 8 rfl rfl)
    (binary_pre m c hW 56 9 rfl rfl) (unary_pre m c hW 56 10 rfl rfl) (reshape_pre m c hW 56 11 rfl rfl)
    (nullary_pre m c hW 56 12 rfl rfl) (unary_pre m c hW 56 13 rfl rfl) (binary_pre m c hW 56 14 rfl rfl)
    (nullary_pre m c hW 56 15 rfl rfl) (unary_pre m c hW 56 16 rfl rfl) (binary_pre m c hW 56 17 rfl rfl)
    (nullary_pre m c hW 56 18 rfl rfl) (unary_pre m c hW 56 19 rfl rfl) (binary_pre m c hW 56 20 rfl rfl)
    (binary_pre m c hW 56 21 rfl rfl) (nullary_pre m c hW 56 22 rfl rfl) (unary_pre m c hW 56 23 rfl rfl)
    (binary_pre m c hW 56 24 rfl rfl) (binary_pre m c hW 56 25 rfl rfl) (nullary_pre m c hW 56 26 rfl rfl)
    (unary_pre m c hW 56 27 rfl rfl) (binary_pre m c hW 56 28 rfl rfl) (binary_pre m c hW 56 29 rfl rfl)
    (nullary_pre m c hW 56 30 rfl rfl) (unary_pre m c hW 56 31 rfl rfl) (binary_pre m c hW 56 32 rfl rfl)
    (binary_pre m c hW 56 33 rfl rfl) (nullary_pre m c hW 56 34 rfl rfl) (unary_pre m c hW 56 35 rfl rfl)
    (binary_pre m c hW 56 36 rfl rfl) (binary_pre m c hW 56 37 rfl rfl) (nullary_pre m c hW 56 38 rfl rfl)
    (unary_pre m c hW 56 39 rfl rfl) (binary_pre m c hW 56 40 rfl rfl) (binary_pre m c hW 56 41 rfl rfl)
    (nullary_pre m c hW 56 42 rfl rfl) (unary_pre m c hW 56 43 rfl rfl) (binary_pre m c hW 56 44 rfl rfl)
    (binary_pre m c hW 56 45 rfl rfl)

include hW in
/-- Tap 14: NIDX, looked up in the table the program holds in its map buffer. -/
theorem tap14_nidx : Wv (main_v721 : DevRef τ sig) = nidxT (Wv (main_arg3 : DevRef τ sig)) 0#32 0#32 1#32 (Wv (main_v20 : DevRef τ sig)) :=
  nidx_compose (coords := Wv (main_arg3 : DevRef τ sig)) (dz := 0#32) (dy := 0#32) (dx := 1#32) (M := Wv (main_v20 : DevRef τ sig))
    (a45 := Wv (main_v713 : DevRef τ sig))
    (a46 := Wv (main_c_253 : DevRef τ sig)) (a47 := Wv (main_c_254 : DevRef τ sig)) (q0 := Wv (main_call28_v0 : DevRef τ sig))
    (q1 := Wv (main_call28_v1 : DevRef τ sig)) (q2 := Wv (main_call28_v2 : DevRef τ sig)) (q3 := Wv (main_call28_v3 : DevRef τ sig))
    (q4 := Wv (main_call28_v4 : DevRef τ sig)) (q5 := Wv (main_v714 : DevRef τ sig)) (b0 := Wv (main_c_255 : DevRef τ sig))
    (b1 := Wv (main_v715 : DevRef τ sig)) (b2 := Wv (main_v716 : DevRef τ sig)) (b3 := Wv (main_c_256 : DevRef τ sig))
    (b4 := Wv (main_v717 : DevRef τ sig)) (b5 := Wv (main_v718 : DevRef τ sig)) (b6 := Wv (main_v719 : DevRef τ sig))
    (b7 := Wv (main_v720 : DevRef τ sig)) (b8 := Wv (main_v721 : DevRef τ sig))
    (tap14_inside m c hW).2
    (nullary_pre m c hW 56 46 rfl rfl) (nullary_pre m c hW 56 47 rfl rfl) (unary_pre m c hW 57 0 rfl rfl)
    (unary_pre m c hW 57 1 rfl rfl) (binary_pre m c hW 57 2 rfl rfl) (unary_pre m c hW 57 3 rfl rfl)
    (unary_pre m c hW 57 4 rfl rfl) (binary_pre m c hW 57 5 rfl rfl) (nullary_pre m c hW 58 0 rfl rfl)
    (unary_pre m c hW 58 1 rfl rfl) (binary_pre m c hW 58 2 rfl rfl) (nullary_pre m c hW 58 3 rfl rfl)
    (unary_pre m c hW 58 4 rfl rfl) (binary_pre m c hW 58 5 rfl rfl) (ternary_pre m c hW 58 6 rfl rfl)
    (unary_pre m c hW 58 7 rfl rfl) (binary_pre m c hW 58 8 rfl rfl)

include hW in
/-- Tap 14: the row index, of NIDX and INSIDE as the buffers hold them. -/
theorem tap14_row_buf : Wv (main_v725 : DevRef τ sig)
    = Cert.TapBridge.rowIdx bcast_S_S200000 (Wv (main_v721 : DevRef τ sig)) (Wv (main_v707 : DevRef τ sig)) :=
  row_compose (a37 := Wv (main_v707 : DevRef τ sig)) (b8 := Wv (main_v721 : DevRef τ sig))
    (b9 := Wv (main_c_257 : DevRef τ sig)) (b10 := Wv (main_v722 : DevRef τ sig)) (b11 := Wv (main_v723 : DevRef τ sig))
    (b12 := Wv (main_v724 : DevRef τ sig)) (b13 := Wv (main_c_258 : DevRef τ sig)) (w0 := Wv (main_call29_v0 : DevRef τ sig))
    (w1 := Wv (main_call29_v1 : DevRef τ sig)) (w2 := Wv (main_v725 : DevRef τ sig))
    (nullary_pre m c hW 58 9 rfl rfl) (unary_pre m c hW 58 10 rfl rfl) (binary_pre m c hW 58 11 rfl rfl)
    (binary_pre m c hW 58 12 rfl rfl) (nullary_pre m c hW 58 13 rfl rfl) (unary_pre m c hW 59 0 rfl rfl)
    (unary_pre m c hW 59 1 rfl rfl) (ternary_pre m c hW 59 2 rfl rfl)

include hW in
/-- TAP 14's ROW INDEX as one term of the coordinates, the offset words and the table. -/
theorem tap14_row : Wv (main_v725 : DevRef τ sig) = rowT (Wv (main_arg3 : DevRef τ sig)) 0#32 0#32 1#32 (Wv (main_v20 : DevRef τ sig)) := by
  rw [tap14_row_buf m c hW, tap14_nidx m c hW, (tap14_inside m c hW).1]

/-! ### Tap 15: offset words (0, 1, 4294967295) -/

include hW in
/-- Tap 15: INSIDE and the neighbour's linear cell number. -/
theorem tap15_inside : Wv (main_v754 : DevRef τ sig) = insideT (Wv (main_arg3 : DevRef τ sig)) 0#32 1#32 4294967295#32
    ∧ Wv (main_v760 : DevRef τ sig) = nlinT (Wv (main_arg3 : DevRef τ sig)) 0#32 1#32 4294967295#32 :=
  inside_compose (coords := Wv (main_arg3 : DevRef τ sig)) (dz := 0#32) (dy := 1#32) (dx := 4294967295#32)
    (a0 := Wv (main_v726 : DevRef τ sig)) (a1 := Wv (main_v727 : DevRef τ sig)) (a2 := Wv (main_c_259 : DevRef τ sig))
    (a3 := Wv (main_v728 : DevRef τ sig)) (a4 := Wv (main_v729 : DevRef τ sig)) (a5 := Wv (main_v730 : DevRef τ sig))
    (a6 := Wv (main_v731 : DevRef τ sig)) (a7 := Wv (main_c_260 : DevRef τ sig)) (a8 := Wv (main_v732 : DevRef τ sig))
    (a9 := Wv (main_v733 : DevRef τ sig)) (a10 := Wv (main_v734 : DevRef τ sig)) (a11 := Wv (main_v735 : DevRef τ sig))
    (a12 := Wv (main_c_261 : DevRef τ sig)) (a13 := Wv (main_v736 : DevRef τ sig)) (a14 := Wv (main_v737 : DevRef τ sig))
    (a15 := Wv (main_c_262 : DevRef τ sig)) (a16 := Wv (main_v738 : DevRef τ sig)) (a17 := Wv (main_v739 : DevRef τ sig))
    (a18 := Wv (main_c_263 : DevRef τ sig)) (a19 := Wv (main_v740 : DevRef τ sig)) (a20 := Wv (main_v741 : DevRef τ sig))
    (a21 := Wv (main_v742 : DevRef τ sig)) (a22 := Wv (main_c_264 : DevRef τ sig)) (a23 := Wv (main_v743 : DevRef τ sig))
    (a24 := Wv (main_v744 : DevRef τ sig)) (a25 := Wv (main_v745 : DevRef τ sig)) (a26 := Wv (main_c_265 : DevRef τ sig))
    (a27 := Wv (main_v746 : DevRef τ sig)) (a28 := Wv (main_v747 : DevRef τ sig)) (a29 := Wv (main_v748 : DevRef τ sig))
    (a30 := Wv (main_c_266 : DevRef τ sig)) (a31 := Wv (main_v749 : DevRef τ sig)) (a32 := Wv (main_v750 : DevRef τ sig))
    (a33 := Wv (main_v751 : DevRef τ sig)) (a34 := Wv (main_c_267 : DevRef τ sig)) (a35 := Wv (main_v752 : DevRef τ sig))
    (a36 := Wv (main_v753 : DevRef τ sig)) (a37 := Wv (main_v754 : DevRef τ sig)) (a38 := Wv (main_c_268 : DevRef τ sig))
    (a39 := Wv (main_v755 : DevRef τ sig)) (a40 := Wv (main_v756 : DevRef τ sig)) (a41 := Wv (main_v757 : DevRef τ sig))
    (a42 := Wv (main_c_269 : DevRef τ sig)) (a43 := Wv (main_v758 : DevRef τ sig)) (a44 := Wv (main_v759 : DevRef τ sig))
    (a45 := Wv (main_v760 : DevRef τ sig))
    (unary_pre m c hW 60 0 rfl rfl) (reshape_pre m c hW 60 1 rfl rfl) (nullary_pre m c hW 60 2 rfl rfl)
    (unary_pre m c hW 60 3 rfl rfl) (binary_pre m c hW 60 4 rfl rfl) (unary_pre m c hW 60 5 rfl rfl)
    (reshape_pre m c hW 60 6 rfl rfl) (nullary_pre m c hW 60 7 rfl rfl) (unary_pre m c hW 60 8 rfl rfl)
    (binary_pre m c hW 60 9 rfl rfl) (unary_pre m c hW 60 10 rfl rfl) (reshape_pre m c hW 60 11 rfl rfl)
    (nullary_pre m c hW 60 12 rfl rfl) (unary_pre m c hW 60 13 rfl rfl) (binary_pre m c hW 60 14 rfl rfl)
    (nullary_pre m c hW 60 15 rfl rfl) (unary_pre m c hW 60 16 rfl rfl) (binary_pre m c hW 60 17 rfl rfl)
    (nullary_pre m c hW 60 18 rfl rfl) (unary_pre m c hW 60 19 rfl rfl) (binary_pre m c hW 60 20 rfl rfl)
    (binary_pre m c hW 60 21 rfl rfl) (nullary_pre m c hW 60 22 rfl rfl) (unary_pre m c hW 60 23 rfl rfl)
    (binary_pre m c hW 60 24 rfl rfl) (binary_pre m c hW 60 25 rfl rfl) (nullary_pre m c hW 60 26 rfl rfl)
    (unary_pre m c hW 60 27 rfl rfl) (binary_pre m c hW 60 28 rfl rfl) (binary_pre m c hW 60 29 rfl rfl)
    (nullary_pre m c hW 60 30 rfl rfl) (unary_pre m c hW 60 31 rfl rfl) (binary_pre m c hW 60 32 rfl rfl)
    (binary_pre m c hW 60 33 rfl rfl) (nullary_pre m c hW 60 34 rfl rfl) (unary_pre m c hW 60 35 rfl rfl)
    (binary_pre m c hW 60 36 rfl rfl) (binary_pre m c hW 60 37 rfl rfl) (nullary_pre m c hW 60 38 rfl rfl)
    (unary_pre m c hW 60 39 rfl rfl) (binary_pre m c hW 60 40 rfl rfl) (binary_pre m c hW 60 41 rfl rfl)
    (nullary_pre m c hW 60 42 rfl rfl) (unary_pre m c hW 60 43 rfl rfl) (binary_pre m c hW 60 44 rfl rfl)
    (binary_pre m c hW 60 45 rfl rfl)

include hW in
/-- Tap 15: NIDX, looked up in the table the program holds in its map buffer. -/
theorem tap15_nidx : Wv (main_v768 : DevRef τ sig) = nidxT (Wv (main_arg3 : DevRef τ sig)) 0#32 1#32 4294967295#32 (Wv (main_v20 : DevRef τ sig)) :=
  nidx_compose (coords := Wv (main_arg3 : DevRef τ sig)) (dz := 0#32) (dy := 1#32) (dx := 4294967295#32) (M := Wv (main_v20 : DevRef τ sig))
    (a45 := Wv (main_v760 : DevRef τ sig))
    (a46 := Wv (main_c_270 : DevRef τ sig)) (a47 := Wv (main_c_271 : DevRef τ sig)) (q0 := Wv (main_call30_v0 : DevRef τ sig))
    (q1 := Wv (main_call30_v1 : DevRef τ sig)) (q2 := Wv (main_call30_v2 : DevRef τ sig)) (q3 := Wv (main_call30_v3 : DevRef τ sig))
    (q4 := Wv (main_call30_v4 : DevRef τ sig)) (q5 := Wv (main_v761 : DevRef τ sig)) (b0 := Wv (main_c_272 : DevRef τ sig))
    (b1 := Wv (main_v762 : DevRef τ sig)) (b2 := Wv (main_v763 : DevRef τ sig)) (b3 := Wv (main_c_273 : DevRef τ sig))
    (b4 := Wv (main_v764 : DevRef τ sig)) (b5 := Wv (main_v765 : DevRef τ sig)) (b6 := Wv (main_v766 : DevRef τ sig))
    (b7 := Wv (main_v767 : DevRef τ sig)) (b8 := Wv (main_v768 : DevRef τ sig))
    (tap15_inside m c hW).2
    (nullary_pre m c hW 60 46 rfl rfl) (nullary_pre m c hW 60 47 rfl rfl) (unary_pre m c hW 61 0 rfl rfl)
    (unary_pre m c hW 61 1 rfl rfl) (binary_pre m c hW 61 2 rfl rfl) (unary_pre m c hW 61 3 rfl rfl)
    (unary_pre m c hW 61 4 rfl rfl) (binary_pre m c hW 61 5 rfl rfl) (nullary_pre m c hW 62 0 rfl rfl)
    (unary_pre m c hW 62 1 rfl rfl) (binary_pre m c hW 62 2 rfl rfl) (nullary_pre m c hW 62 3 rfl rfl)
    (unary_pre m c hW 62 4 rfl rfl) (binary_pre m c hW 62 5 rfl rfl) (ternary_pre m c hW 62 6 rfl rfl)
    (unary_pre m c hW 62 7 rfl rfl) (binary_pre m c hW 62 8 rfl rfl)

include hW in
/-- Tap 15: the row index, of NIDX and INSIDE as the buffers hold them. -/
theorem tap15_row_buf : Wv (main_v772 : DevRef τ sig)
    = Cert.TapBridge.rowIdx bcast_S_S200000 (Wv (main_v768 : DevRef τ sig)) (Wv (main_v754 : DevRef τ sig)) :=
  row_compose (a37 := Wv (main_v754 : DevRef τ sig)) (b8 := Wv (main_v768 : DevRef τ sig))
    (b9 := Wv (main_c_274 : DevRef τ sig)) (b10 := Wv (main_v769 : DevRef τ sig)) (b11 := Wv (main_v770 : DevRef τ sig))
    (b12 := Wv (main_v771 : DevRef τ sig)) (b13 := Wv (main_c_275 : DevRef τ sig)) (w0 := Wv (main_call31_v0 : DevRef τ sig))
    (w1 := Wv (main_call31_v1 : DevRef τ sig)) (w2 := Wv (main_v772 : DevRef τ sig))
    (nullary_pre m c hW 62 9 rfl rfl) (unary_pre m c hW 62 10 rfl rfl) (binary_pre m c hW 62 11 rfl rfl)
    (binary_pre m c hW 62 12 rfl rfl) (nullary_pre m c hW 62 13 rfl rfl) (unary_pre m c hW 63 0 rfl rfl)
    (unary_pre m c hW 63 1 rfl rfl) (ternary_pre m c hW 63 2 rfl rfl)

include hW in
/-- TAP 15's ROW INDEX as one term of the coordinates, the offset words and the table. -/
theorem tap15_row : Wv (main_v772 : DevRef τ sig) = rowT (Wv (main_arg3 : DevRef τ sig)) 0#32 1#32 4294967295#32 (Wv (main_v20 : DevRef τ sig)) := by
  rw [tap15_row_buf m c hW, tap15_nidx m c hW, (tap15_inside m c hW).1]

/-! ### Tap 16: offset words (0, 1, 0) -/

include hW in
/-- Tap 16: INSIDE and the neighbour's linear cell number. -/
theorem tap16_inside : Wv (main_v801 : DevRef τ sig) = insideT (Wv (main_arg3 : DevRef τ sig)) 0#32 1#32 0#32
    ∧ Wv (main_v807 : DevRef τ sig) = nlinT (Wv (main_arg3 : DevRef τ sig)) 0#32 1#32 0#32 :=
  inside_compose (coords := Wv (main_arg3 : DevRef τ sig)) (dz := 0#32) (dy := 1#32) (dx := 0#32)
    (a0 := Wv (main_v773 : DevRef τ sig)) (a1 := Wv (main_v774 : DevRef τ sig)) (a2 := Wv (main_c_276 : DevRef τ sig))
    (a3 := Wv (main_v775 : DevRef τ sig)) (a4 := Wv (main_v776 : DevRef τ sig)) (a5 := Wv (main_v777 : DevRef τ sig))
    (a6 := Wv (main_v778 : DevRef τ sig)) (a7 := Wv (main_c_277 : DevRef τ sig)) (a8 := Wv (main_v779 : DevRef τ sig))
    (a9 := Wv (main_v780 : DevRef τ sig)) (a10 := Wv (main_v781 : DevRef τ sig)) (a11 := Wv (main_v782 : DevRef τ sig))
    (a12 := Wv (main_c_278 : DevRef τ sig)) (a13 := Wv (main_v783 : DevRef τ sig)) (a14 := Wv (main_v784 : DevRef τ sig))
    (a15 := Wv (main_c_279 : DevRef τ sig)) (a16 := Wv (main_v785 : DevRef τ sig)) (a17 := Wv (main_v786 : DevRef τ sig))
    (a18 := Wv (main_c_280 : DevRef τ sig)) (a19 := Wv (main_v787 : DevRef τ sig)) (a20 := Wv (main_v788 : DevRef τ sig))
    (a21 := Wv (main_v789 : DevRef τ sig)) (a22 := Wv (main_c_281 : DevRef τ sig)) (a23 := Wv (main_v790 : DevRef τ sig))
    (a24 := Wv (main_v791 : DevRef τ sig)) (a25 := Wv (main_v792 : DevRef τ sig)) (a26 := Wv (main_c_282 : DevRef τ sig))
    (a27 := Wv (main_v793 : DevRef τ sig)) (a28 := Wv (main_v794 : DevRef τ sig)) (a29 := Wv (main_v795 : DevRef τ sig))
    (a30 := Wv (main_c_283 : DevRef τ sig)) (a31 := Wv (main_v796 : DevRef τ sig)) (a32 := Wv (main_v797 : DevRef τ sig))
    (a33 := Wv (main_v798 : DevRef τ sig)) (a34 := Wv (main_c_284 : DevRef τ sig)) (a35 := Wv (main_v799 : DevRef τ sig))
    (a36 := Wv (main_v800 : DevRef τ sig)) (a37 := Wv (main_v801 : DevRef τ sig)) (a38 := Wv (main_c_285 : DevRef τ sig))
    (a39 := Wv (main_v802 : DevRef τ sig)) (a40 := Wv (main_v803 : DevRef τ sig)) (a41 := Wv (main_v804 : DevRef τ sig))
    (a42 := Wv (main_c_286 : DevRef τ sig)) (a43 := Wv (main_v805 : DevRef τ sig)) (a44 := Wv (main_v806 : DevRef τ sig))
    (a45 := Wv (main_v807 : DevRef τ sig))
    (unary_pre m c hW 64 0 rfl rfl) (reshape_pre m c hW 64 1 rfl rfl) (nullary_pre m c hW 64 2 rfl rfl)
    (unary_pre m c hW 64 3 rfl rfl) (binary_pre m c hW 64 4 rfl rfl) (unary_pre m c hW 64 5 rfl rfl)
    (reshape_pre m c hW 64 6 rfl rfl) (nullary_pre m c hW 64 7 rfl rfl) (unary_pre m c hW 64 8 rfl rfl)
    (binary_pre m c hW 64 9 rfl rfl) (unary_pre m c hW 64 10 rfl rfl) (reshape_pre m c hW 64 11 rfl rfl)
    (nullary_pre m c hW 64 12 rfl rfl) (unary_pre m c hW 64 13 rfl rfl) (binary_pre m c hW 64 14 rfl rfl)
    (nullary_pre m c hW 64 15 rfl rfl) (unary_pre m c hW 64 16 rfl rfl) (binary_pre m c hW 64 17 rfl rfl)
    (nullary_pre m c hW 64 18 rfl rfl) (unary_pre m c hW 64 19 rfl rfl) (binary_pre m c hW 64 20 rfl rfl)
    (binary_pre m c hW 64 21 rfl rfl) (nullary_pre m c hW 64 22 rfl rfl) (unary_pre m c hW 64 23 rfl rfl)
    (binary_pre m c hW 64 24 rfl rfl) (binary_pre m c hW 64 25 rfl rfl) (nullary_pre m c hW 64 26 rfl rfl)
    (unary_pre m c hW 64 27 rfl rfl) (binary_pre m c hW 64 28 rfl rfl) (binary_pre m c hW 64 29 rfl rfl)
    (nullary_pre m c hW 64 30 rfl rfl) (unary_pre m c hW 64 31 rfl rfl) (binary_pre m c hW 64 32 rfl rfl)
    (binary_pre m c hW 64 33 rfl rfl) (nullary_pre m c hW 64 34 rfl rfl) (unary_pre m c hW 64 35 rfl rfl)
    (binary_pre m c hW 64 36 rfl rfl) (binary_pre m c hW 64 37 rfl rfl) (nullary_pre m c hW 64 38 rfl rfl)
    (unary_pre m c hW 64 39 rfl rfl) (binary_pre m c hW 64 40 rfl rfl) (binary_pre m c hW 64 41 rfl rfl)
    (nullary_pre m c hW 64 42 rfl rfl) (unary_pre m c hW 64 43 rfl rfl) (binary_pre m c hW 64 44 rfl rfl)
    (binary_pre m c hW 64 45 rfl rfl)

include hW in
/-- Tap 16: NIDX, looked up in the table the program holds in its map buffer. -/
theorem tap16_nidx : Wv (main_v815 : DevRef τ sig) = nidxT (Wv (main_arg3 : DevRef τ sig)) 0#32 1#32 0#32 (Wv (main_v20 : DevRef τ sig)) :=
  nidx_compose (coords := Wv (main_arg3 : DevRef τ sig)) (dz := 0#32) (dy := 1#32) (dx := 0#32) (M := Wv (main_v20 : DevRef τ sig))
    (a45 := Wv (main_v807 : DevRef τ sig))
    (a46 := Wv (main_c_287 : DevRef τ sig)) (a47 := Wv (main_c_288 : DevRef τ sig)) (q0 := Wv (main_call32_v0 : DevRef τ sig))
    (q1 := Wv (main_call32_v1 : DevRef τ sig)) (q2 := Wv (main_call32_v2 : DevRef τ sig)) (q3 := Wv (main_call32_v3 : DevRef τ sig))
    (q4 := Wv (main_call32_v4 : DevRef τ sig)) (q5 := Wv (main_v808 : DevRef τ sig)) (b0 := Wv (main_c_289 : DevRef τ sig))
    (b1 := Wv (main_v809 : DevRef τ sig)) (b2 := Wv (main_v810 : DevRef τ sig)) (b3 := Wv (main_c_290 : DevRef τ sig))
    (b4 := Wv (main_v811 : DevRef τ sig)) (b5 := Wv (main_v812 : DevRef τ sig)) (b6 := Wv (main_v813 : DevRef τ sig))
    (b7 := Wv (main_v814 : DevRef τ sig)) (b8 := Wv (main_v815 : DevRef τ sig))
    (tap16_inside m c hW).2
    (nullary_pre m c hW 64 46 rfl rfl) (nullary_pre m c hW 64 47 rfl rfl) (unary_pre m c hW 65 0 rfl rfl)
    (unary_pre m c hW 65 1 rfl rfl) (binary_pre m c hW 65 2 rfl rfl) (unary_pre m c hW 65 3 rfl rfl)
    (unary_pre m c hW 65 4 rfl rfl) (binary_pre m c hW 65 5 rfl rfl) (nullary_pre m c hW 66 0 rfl rfl)
    (unary_pre m c hW 66 1 rfl rfl) (binary_pre m c hW 66 2 rfl rfl) (nullary_pre m c hW 66 3 rfl rfl)
    (unary_pre m c hW 66 4 rfl rfl) (binary_pre m c hW 66 5 rfl rfl) (ternary_pre m c hW 66 6 rfl rfl)
    (unary_pre m c hW 66 7 rfl rfl) (binary_pre m c hW 66 8 rfl rfl)

include hW in
/-- Tap 16: the row index, of NIDX and INSIDE as the buffers hold them. -/
theorem tap16_row_buf : Wv (main_v819 : DevRef τ sig)
    = Cert.TapBridge.rowIdx bcast_S_S200000 (Wv (main_v815 : DevRef τ sig)) (Wv (main_v801 : DevRef τ sig)) :=
  row_compose (a37 := Wv (main_v801 : DevRef τ sig)) (b8 := Wv (main_v815 : DevRef τ sig))
    (b9 := Wv (main_c_291 : DevRef τ sig)) (b10 := Wv (main_v816 : DevRef τ sig)) (b11 := Wv (main_v817 : DevRef τ sig))
    (b12 := Wv (main_v818 : DevRef τ sig)) (b13 := Wv (main_c_292 : DevRef τ sig)) (w0 := Wv (main_call33_v0 : DevRef τ sig))
    (w1 := Wv (main_call33_v1 : DevRef τ sig)) (w2 := Wv (main_v819 : DevRef τ sig))
    (nullary_pre m c hW 66 9 rfl rfl) (unary_pre m c hW 66 10 rfl rfl) (binary_pre m c hW 66 11 rfl rfl)
    (binary_pre m c hW 66 12 rfl rfl) (nullary_pre m c hW 66 13 rfl rfl) (unary_pre m c hW 67 0 rfl rfl)
    (unary_pre m c hW 67 1 rfl rfl) (ternary_pre m c hW 67 2 rfl rfl)

include hW in
/-- TAP 16's ROW INDEX as one term of the coordinates, the offset words and the table. -/
theorem tap16_row : Wv (main_v819 : DevRef τ sig) = rowT (Wv (main_arg3 : DevRef τ sig)) 0#32 1#32 0#32 (Wv (main_v20 : DevRef τ sig)) := by
  rw [tap16_row_buf m c hW, tap16_nidx m c hW, (tap16_inside m c hW).1]

/-! ### Tap 17: offset words (0, 1, 1) -/

include hW in
/-- Tap 17: INSIDE and the neighbour's linear cell number. -/
theorem tap17_inside : Wv (main_v848 : DevRef τ sig) = insideT (Wv (main_arg3 : DevRef τ sig)) 0#32 1#32 1#32
    ∧ Wv (main_v854 : DevRef τ sig) = nlinT (Wv (main_arg3 : DevRef τ sig)) 0#32 1#32 1#32 :=
  inside_compose (coords := Wv (main_arg3 : DevRef τ sig)) (dz := 0#32) (dy := 1#32) (dx := 1#32)
    (a0 := Wv (main_v820 : DevRef τ sig)) (a1 := Wv (main_v821 : DevRef τ sig)) (a2 := Wv (main_c_293 : DevRef τ sig))
    (a3 := Wv (main_v822 : DevRef τ sig)) (a4 := Wv (main_v823 : DevRef τ sig)) (a5 := Wv (main_v824 : DevRef τ sig))
    (a6 := Wv (main_v825 : DevRef τ sig)) (a7 := Wv (main_c_294 : DevRef τ sig)) (a8 := Wv (main_v826 : DevRef τ sig))
    (a9 := Wv (main_v827 : DevRef τ sig)) (a10 := Wv (main_v828 : DevRef τ sig)) (a11 := Wv (main_v829 : DevRef τ sig))
    (a12 := Wv (main_c_295 : DevRef τ sig)) (a13 := Wv (main_v830 : DevRef τ sig)) (a14 := Wv (main_v831 : DevRef τ sig))
    (a15 := Wv (main_c_296 : DevRef τ sig)) (a16 := Wv (main_v832 : DevRef τ sig)) (a17 := Wv (main_v833 : DevRef τ sig))
    (a18 := Wv (main_c_297 : DevRef τ sig)) (a19 := Wv (main_v834 : DevRef τ sig)) (a20 := Wv (main_v835 : DevRef τ sig))
    (a21 := Wv (main_v836 : DevRef τ sig)) (a22 := Wv (main_c_298 : DevRef τ sig)) (a23 := Wv (main_v837 : DevRef τ sig))
    (a24 := Wv (main_v838 : DevRef τ sig)) (a25 := Wv (main_v839 : DevRef τ sig)) (a26 := Wv (main_c_299 : DevRef τ sig))
    (a27 := Wv (main_v840 : DevRef τ sig)) (a28 := Wv (main_v841 : DevRef τ sig)) (a29 := Wv (main_v842 : DevRef τ sig))
    (a30 := Wv (main_c_300 : DevRef τ sig)) (a31 := Wv (main_v843 : DevRef τ sig)) (a32 := Wv (main_v844 : DevRef τ sig))
    (a33 := Wv (main_v845 : DevRef τ sig)) (a34 := Wv (main_c_301 : DevRef τ sig)) (a35 := Wv (main_v846 : DevRef τ sig))
    (a36 := Wv (main_v847 : DevRef τ sig)) (a37 := Wv (main_v848 : DevRef τ sig)) (a38 := Wv (main_c_302 : DevRef τ sig))
    (a39 := Wv (main_v849 : DevRef τ sig)) (a40 := Wv (main_v850 : DevRef τ sig)) (a41 := Wv (main_v851 : DevRef τ sig))
    (a42 := Wv (main_c_303 : DevRef τ sig)) (a43 := Wv (main_v852 : DevRef τ sig)) (a44 := Wv (main_v853 : DevRef τ sig))
    (a45 := Wv (main_v854 : DevRef τ sig))
    (unary_pre m c hW 68 0 rfl rfl) (reshape_pre m c hW 68 1 rfl rfl) (nullary_pre m c hW 68 2 rfl rfl)
    (unary_pre m c hW 68 3 rfl rfl) (binary_pre m c hW 68 4 rfl rfl) (unary_pre m c hW 68 5 rfl rfl)
    (reshape_pre m c hW 68 6 rfl rfl) (nullary_pre m c hW 68 7 rfl rfl) (unary_pre m c hW 68 8 rfl rfl)
    (binary_pre m c hW 68 9 rfl rfl) (unary_pre m c hW 68 10 rfl rfl) (reshape_pre m c hW 68 11 rfl rfl)
    (nullary_pre m c hW 68 12 rfl rfl) (unary_pre m c hW 68 13 rfl rfl) (binary_pre m c hW 68 14 rfl rfl)
    (nullary_pre m c hW 68 15 rfl rfl) (unary_pre m c hW 68 16 rfl rfl) (binary_pre m c hW 68 17 rfl rfl)
    (nullary_pre m c hW 68 18 rfl rfl) (unary_pre m c hW 68 19 rfl rfl) (binary_pre m c hW 68 20 rfl rfl)
    (binary_pre m c hW 68 21 rfl rfl) (nullary_pre m c hW 68 22 rfl rfl) (unary_pre m c hW 68 23 rfl rfl)
    (binary_pre m c hW 68 24 rfl rfl) (binary_pre m c hW 68 25 rfl rfl) (nullary_pre m c hW 68 26 rfl rfl)
    (unary_pre m c hW 68 27 rfl rfl) (binary_pre m c hW 68 28 rfl rfl) (binary_pre m c hW 68 29 rfl rfl)
    (nullary_pre m c hW 68 30 rfl rfl) (unary_pre m c hW 68 31 rfl rfl) (binary_pre m c hW 68 32 rfl rfl)
    (binary_pre m c hW 68 33 rfl rfl) (nullary_pre m c hW 68 34 rfl rfl) (unary_pre m c hW 68 35 rfl rfl)
    (binary_pre m c hW 68 36 rfl rfl) (binary_pre m c hW 68 37 rfl rfl) (nullary_pre m c hW 68 38 rfl rfl)
    (unary_pre m c hW 68 39 rfl rfl) (binary_pre m c hW 68 40 rfl rfl) (binary_pre m c hW 68 41 rfl rfl)
    (nullary_pre m c hW 68 42 rfl rfl) (unary_pre m c hW 68 43 rfl rfl) (binary_pre m c hW 68 44 rfl rfl)
    (binary_pre m c hW 68 45 rfl rfl)

include hW in
/-- Tap 17: NIDX, looked up in the table the program holds in its map buffer. -/
theorem tap17_nidx : Wv (main_v862 : DevRef τ sig) = nidxT (Wv (main_arg3 : DevRef τ sig)) 0#32 1#32 1#32 (Wv (main_v20 : DevRef τ sig)) :=
  nidx_compose (coords := Wv (main_arg3 : DevRef τ sig)) (dz := 0#32) (dy := 1#32) (dx := 1#32) (M := Wv (main_v20 : DevRef τ sig))
    (a45 := Wv (main_v854 : DevRef τ sig))
    (a46 := Wv (main_c_304 : DevRef τ sig)) (a47 := Wv (main_c_305 : DevRef τ sig)) (q0 := Wv (main_call34_v0 : DevRef τ sig))
    (q1 := Wv (main_call34_v1 : DevRef τ sig)) (q2 := Wv (main_call34_v2 : DevRef τ sig)) (q3 := Wv (main_call34_v3 : DevRef τ sig))
    (q4 := Wv (main_call34_v4 : DevRef τ sig)) (q5 := Wv (main_v855 : DevRef τ sig)) (b0 := Wv (main_c_306 : DevRef τ sig))
    (b1 := Wv (main_v856 : DevRef τ sig)) (b2 := Wv (main_v857 : DevRef τ sig)) (b3 := Wv (main_c_307 : DevRef τ sig))
    (b4 := Wv (main_v858 : DevRef τ sig)) (b5 := Wv (main_v859 : DevRef τ sig)) (b6 := Wv (main_v860 : DevRef τ sig))
    (b7 := Wv (main_v861 : DevRef τ sig)) (b8 := Wv (main_v862 : DevRef τ sig))
    (tap17_inside m c hW).2
    (nullary_pre m c hW 68 46 rfl rfl) (nullary_pre m c hW 68 47 rfl rfl) (unary_pre m c hW 69 0 rfl rfl)
    (unary_pre m c hW 69 1 rfl rfl) (binary_pre m c hW 69 2 rfl rfl) (unary_pre m c hW 69 3 rfl rfl)
    (unary_pre m c hW 69 4 rfl rfl) (binary_pre m c hW 69 5 rfl rfl) (nullary_pre m c hW 70 0 rfl rfl)
    (unary_pre m c hW 70 1 rfl rfl) (binary_pre m c hW 70 2 rfl rfl) (nullary_pre m c hW 70 3 rfl rfl)
    (unary_pre m c hW 70 4 rfl rfl) (binary_pre m c hW 70 5 rfl rfl) (ternary_pre m c hW 70 6 rfl rfl)
    (unary_pre m c hW 70 7 rfl rfl) (binary_pre m c hW 70 8 rfl rfl)

include hW in
/-- Tap 17: the row index, of NIDX and INSIDE as the buffers hold them. -/
theorem tap17_row_buf : Wv (main_v866 : DevRef τ sig)
    = Cert.TapBridge.rowIdx bcast_S_S200000 (Wv (main_v862 : DevRef τ sig)) (Wv (main_v848 : DevRef τ sig)) :=
  row_compose (a37 := Wv (main_v848 : DevRef τ sig)) (b8 := Wv (main_v862 : DevRef τ sig))
    (b9 := Wv (main_c_308 : DevRef τ sig)) (b10 := Wv (main_v863 : DevRef τ sig)) (b11 := Wv (main_v864 : DevRef τ sig))
    (b12 := Wv (main_v865 : DevRef τ sig)) (b13 := Wv (main_c_309 : DevRef τ sig)) (w0 := Wv (main_call35_v0 : DevRef τ sig))
    (w1 := Wv (main_call35_v1 : DevRef τ sig)) (w2 := Wv (main_v866 : DevRef τ sig))
    (nullary_pre m c hW 70 9 rfl rfl) (unary_pre m c hW 70 10 rfl rfl) (binary_pre m c hW 70 11 rfl rfl)
    (binary_pre m c hW 70 12 rfl rfl) (nullary_pre m c hW 70 13 rfl rfl) (unary_pre m c hW 71 0 rfl rfl)
    (unary_pre m c hW 71 1 rfl rfl) (ternary_pre m c hW 71 2 rfl rfl)

include hW in
/-- TAP 17's ROW INDEX as one term of the coordinates, the offset words and the table. -/
theorem tap17_row : Wv (main_v866 : DevRef τ sig) = rowT (Wv (main_arg3 : DevRef τ sig)) 0#32 1#32 1#32 (Wv (main_v20 : DevRef τ sig)) := by
  rw [tap17_row_buf m c hW, tap17_nidx m c hW, (tap17_inside m c hW).1]

/-! ### Tap 18: offset words (1, 4294967295, 4294967295) -/

include hW in
/-- Tap 18: INSIDE and the neighbour's linear cell number. -/
theorem tap18_inside : Wv (main_v895 : DevRef τ sig) = insideT (Wv (main_arg3 : DevRef τ sig)) 1#32 4294967295#32 4294967295#32
    ∧ Wv (main_v901 : DevRef τ sig) = nlinT (Wv (main_arg3 : DevRef τ sig)) 1#32 4294967295#32 4294967295#32 :=
  inside_compose (coords := Wv (main_arg3 : DevRef τ sig)) (dz := 1#32) (dy := 4294967295#32) (dx := 4294967295#32)
    (a0 := Wv (main_v867 : DevRef τ sig)) (a1 := Wv (main_v868 : DevRef τ sig)) (a2 := Wv (main_c_310 : DevRef τ sig))
    (a3 := Wv (main_v869 : DevRef τ sig)) (a4 := Wv (main_v870 : DevRef τ sig)) (a5 := Wv (main_v871 : DevRef τ sig))
    (a6 := Wv (main_v872 : DevRef τ sig)) (a7 := Wv (main_c_311 : DevRef τ sig)) (a8 := Wv (main_v873 : DevRef τ sig))
    (a9 := Wv (main_v874 : DevRef τ sig)) (a10 := Wv (main_v875 : DevRef τ sig)) (a11 := Wv (main_v876 : DevRef τ sig))
    (a12 := Wv (main_c_312 : DevRef τ sig)) (a13 := Wv (main_v877 : DevRef τ sig)) (a14 := Wv (main_v878 : DevRef τ sig))
    (a15 := Wv (main_c_313 : DevRef τ sig)) (a16 := Wv (main_v879 : DevRef τ sig)) (a17 := Wv (main_v880 : DevRef τ sig))
    (a18 := Wv (main_c_314 : DevRef τ sig)) (a19 := Wv (main_v881 : DevRef τ sig)) (a20 := Wv (main_v882 : DevRef τ sig))
    (a21 := Wv (main_v883 : DevRef τ sig)) (a22 := Wv (main_c_315 : DevRef τ sig)) (a23 := Wv (main_v884 : DevRef τ sig))
    (a24 := Wv (main_v885 : DevRef τ sig)) (a25 := Wv (main_v886 : DevRef τ sig)) (a26 := Wv (main_c_316 : DevRef τ sig))
    (a27 := Wv (main_v887 : DevRef τ sig)) (a28 := Wv (main_v888 : DevRef τ sig)) (a29 := Wv (main_v889 : DevRef τ sig))
    (a30 := Wv (main_c_317 : DevRef τ sig)) (a31 := Wv (main_v890 : DevRef τ sig)) (a32 := Wv (main_v891 : DevRef τ sig))
    (a33 := Wv (main_v892 : DevRef τ sig)) (a34 := Wv (main_c_318 : DevRef τ sig)) (a35 := Wv (main_v893 : DevRef τ sig))
    (a36 := Wv (main_v894 : DevRef τ sig)) (a37 := Wv (main_v895 : DevRef τ sig)) (a38 := Wv (main_c_319 : DevRef τ sig))
    (a39 := Wv (main_v896 : DevRef τ sig)) (a40 := Wv (main_v897 : DevRef τ sig)) (a41 := Wv (main_v898 : DevRef τ sig))
    (a42 := Wv (main_c_320 : DevRef τ sig)) (a43 := Wv (main_v899 : DevRef τ sig)) (a44 := Wv (main_v900 : DevRef τ sig))
    (a45 := Wv (main_v901 : DevRef τ sig))
    (unary_pre m c hW 72 0 rfl rfl) (reshape_pre m c hW 72 1 rfl rfl) (nullary_pre m c hW 72 2 rfl rfl)
    (unary_pre m c hW 72 3 rfl rfl) (binary_pre m c hW 72 4 rfl rfl) (unary_pre m c hW 72 5 rfl rfl)
    (reshape_pre m c hW 72 6 rfl rfl) (nullary_pre m c hW 72 7 rfl rfl) (unary_pre m c hW 72 8 rfl rfl)
    (binary_pre m c hW 72 9 rfl rfl) (unary_pre m c hW 72 10 rfl rfl) (reshape_pre m c hW 72 11 rfl rfl)
    (nullary_pre m c hW 72 12 rfl rfl) (unary_pre m c hW 72 13 rfl rfl) (binary_pre m c hW 72 14 rfl rfl)
    (nullary_pre m c hW 72 15 rfl rfl) (unary_pre m c hW 72 16 rfl rfl) (binary_pre m c hW 72 17 rfl rfl)
    (nullary_pre m c hW 72 18 rfl rfl) (unary_pre m c hW 72 19 rfl rfl) (binary_pre m c hW 72 20 rfl rfl)
    (binary_pre m c hW 72 21 rfl rfl) (nullary_pre m c hW 72 22 rfl rfl) (unary_pre m c hW 72 23 rfl rfl)
    (binary_pre m c hW 72 24 rfl rfl) (binary_pre m c hW 72 25 rfl rfl) (nullary_pre m c hW 72 26 rfl rfl)
    (unary_pre m c hW 72 27 rfl rfl) (binary_pre m c hW 72 28 rfl rfl) (binary_pre m c hW 72 29 rfl rfl)
    (nullary_pre m c hW 72 30 rfl rfl) (unary_pre m c hW 72 31 rfl rfl) (binary_pre m c hW 72 32 rfl rfl)
    (binary_pre m c hW 72 33 rfl rfl) (nullary_pre m c hW 72 34 rfl rfl) (unary_pre m c hW 72 35 rfl rfl)
    (binary_pre m c hW 72 36 rfl rfl) (binary_pre m c hW 72 37 rfl rfl) (nullary_pre m c hW 72 38 rfl rfl)
    (unary_pre m c hW 72 39 rfl rfl) (binary_pre m c hW 72 40 rfl rfl) (binary_pre m c hW 72 41 rfl rfl)
    (nullary_pre m c hW 72 42 rfl rfl) (unary_pre m c hW 72 43 rfl rfl) (binary_pre m c hW 72 44 rfl rfl)
    (binary_pre m c hW 72 45 rfl rfl)

include hW in
/-- Tap 18: NIDX, looked up in the table the program holds in its map buffer. -/
theorem tap18_nidx : Wv (main_v909 : DevRef τ sig) = nidxT (Wv (main_arg3 : DevRef τ sig)) 1#32 4294967295#32 4294967295#32 (Wv (main_v20 : DevRef τ sig)) :=
  nidx_compose (coords := Wv (main_arg3 : DevRef τ sig)) (dz := 1#32) (dy := 4294967295#32) (dx := 4294967295#32) (M := Wv (main_v20 : DevRef τ sig))
    (a45 := Wv (main_v901 : DevRef τ sig))
    (a46 := Wv (main_c_321 : DevRef τ sig)) (a47 := Wv (main_c_322 : DevRef τ sig)) (q0 := Wv (main_call36_v0 : DevRef τ sig))
    (q1 := Wv (main_call36_v1 : DevRef τ sig)) (q2 := Wv (main_call36_v2 : DevRef τ sig)) (q3 := Wv (main_call36_v3 : DevRef τ sig))
    (q4 := Wv (main_call36_v4 : DevRef τ sig)) (q5 := Wv (main_v902 : DevRef τ sig)) (b0 := Wv (main_c_323 : DevRef τ sig))
    (b1 := Wv (main_v903 : DevRef τ sig)) (b2 := Wv (main_v904 : DevRef τ sig)) (b3 := Wv (main_c_324 : DevRef τ sig))
    (b4 := Wv (main_v905 : DevRef τ sig)) (b5 := Wv (main_v906 : DevRef τ sig)) (b6 := Wv (main_v907 : DevRef τ sig))
    (b7 := Wv (main_v908 : DevRef τ sig)) (b8 := Wv (main_v909 : DevRef τ sig))
    (tap18_inside m c hW).2
    (nullary_pre m c hW 72 46 rfl rfl) (nullary_pre m c hW 72 47 rfl rfl) (unary_pre m c hW 73 0 rfl rfl)
    (unary_pre m c hW 73 1 rfl rfl) (binary_pre m c hW 73 2 rfl rfl) (unary_pre m c hW 73 3 rfl rfl)
    (unary_pre m c hW 73 4 rfl rfl) (binary_pre m c hW 73 5 rfl rfl) (nullary_pre m c hW 74 0 rfl rfl)
    (unary_pre m c hW 74 1 rfl rfl) (binary_pre m c hW 74 2 rfl rfl) (nullary_pre m c hW 74 3 rfl rfl)
    (unary_pre m c hW 74 4 rfl rfl) (binary_pre m c hW 74 5 rfl rfl) (ternary_pre m c hW 74 6 rfl rfl)
    (unary_pre m c hW 74 7 rfl rfl) (binary_pre m c hW 74 8 rfl rfl)

include hW in
/-- Tap 18: the row index, of NIDX and INSIDE as the buffers hold them. -/
theorem tap18_row_buf : Wv (main_v913 : DevRef τ sig)
    = Cert.TapBridge.rowIdx bcast_S_S200000 (Wv (main_v909 : DevRef τ sig)) (Wv (main_v895 : DevRef τ sig)) :=
  row_compose (a37 := Wv (main_v895 : DevRef τ sig)) (b8 := Wv (main_v909 : DevRef τ sig))
    (b9 := Wv (main_c_325 : DevRef τ sig)) (b10 := Wv (main_v910 : DevRef τ sig)) (b11 := Wv (main_v911 : DevRef τ sig))
    (b12 := Wv (main_v912 : DevRef τ sig)) (b13 := Wv (main_c_326 : DevRef τ sig)) (w0 := Wv (main_call37_v0 : DevRef τ sig))
    (w1 := Wv (main_call37_v1 : DevRef τ sig)) (w2 := Wv (main_v913 : DevRef τ sig))
    (nullary_pre m c hW 74 9 rfl rfl) (unary_pre m c hW 74 10 rfl rfl) (binary_pre m c hW 74 11 rfl rfl)
    (binary_pre m c hW 74 12 rfl rfl) (nullary_pre m c hW 74 13 rfl rfl) (unary_pre m c hW 75 0 rfl rfl)
    (unary_pre m c hW 75 1 rfl rfl) (ternary_pre m c hW 75 2 rfl rfl)

include hW in
/-- TAP 18's ROW INDEX as one term of the coordinates, the offset words and the table. -/
theorem tap18_row : Wv (main_v913 : DevRef τ sig) = rowT (Wv (main_arg3 : DevRef τ sig)) 1#32 4294967295#32 4294967295#32 (Wv (main_v20 : DevRef τ sig)) := by
  rw [tap18_row_buf m c hW, tap18_nidx m c hW, (tap18_inside m c hW).1]

/-! ### Tap 19: offset words (1, 4294967295, 0) -/

include hW in
/-- Tap 19: INSIDE and the neighbour's linear cell number. -/
theorem tap19_inside : Wv (main_v942 : DevRef τ sig) = insideT (Wv (main_arg3 : DevRef τ sig)) 1#32 4294967295#32 0#32
    ∧ Wv (main_v948 : DevRef τ sig) = nlinT (Wv (main_arg3 : DevRef τ sig)) 1#32 4294967295#32 0#32 :=
  inside_compose (coords := Wv (main_arg3 : DevRef τ sig)) (dz := 1#32) (dy := 4294967295#32) (dx := 0#32)
    (a0 := Wv (main_v914 : DevRef τ sig)) (a1 := Wv (main_v915 : DevRef τ sig)) (a2 := Wv (main_c_327 : DevRef τ sig))
    (a3 := Wv (main_v916 : DevRef τ sig)) (a4 := Wv (main_v917 : DevRef τ sig)) (a5 := Wv (main_v918 : DevRef τ sig))
    (a6 := Wv (main_v919 : DevRef τ sig)) (a7 := Wv (main_c_328 : DevRef τ sig)) (a8 := Wv (main_v920 : DevRef τ sig))
    (a9 := Wv (main_v921 : DevRef τ sig)) (a10 := Wv (main_v922 : DevRef τ sig)) (a11 := Wv (main_v923 : DevRef τ sig))
    (a12 := Wv (main_c_329 : DevRef τ sig)) (a13 := Wv (main_v924 : DevRef τ sig)) (a14 := Wv (main_v925 : DevRef τ sig))
    (a15 := Wv (main_c_330 : DevRef τ sig)) (a16 := Wv (main_v926 : DevRef τ sig)) (a17 := Wv (main_v927 : DevRef τ sig))
    (a18 := Wv (main_c_331 : DevRef τ sig)) (a19 := Wv (main_v928 : DevRef τ sig)) (a20 := Wv (main_v929 : DevRef τ sig))
    (a21 := Wv (main_v930 : DevRef τ sig)) (a22 := Wv (main_c_332 : DevRef τ sig)) (a23 := Wv (main_v931 : DevRef τ sig))
    (a24 := Wv (main_v932 : DevRef τ sig)) (a25 := Wv (main_v933 : DevRef τ sig)) (a26 := Wv (main_c_333 : DevRef τ sig))
    (a27 := Wv (main_v934 : DevRef τ sig)) (a28 := Wv (main_v935 : DevRef τ sig)) (a29 := Wv (main_v936 : DevRef τ sig))
    (a30 := Wv (main_c_334 : DevRef τ sig)) (a31 := Wv (main_v937 : DevRef τ sig)) (a32 := Wv (main_v938 : DevRef τ sig))
    (a33 := Wv (main_v939 : DevRef τ sig)) (a34 := Wv (main_c_335 : DevRef τ sig)) (a35 := Wv (main_v940 : DevRef τ sig))
    (a36 := Wv (main_v941 : DevRef τ sig)) (a37 := Wv (main_v942 : DevRef τ sig)) (a38 := Wv (main_c_336 : DevRef τ sig))
    (a39 := Wv (main_v943 : DevRef τ sig)) (a40 := Wv (main_v944 : DevRef τ sig)) (a41 := Wv (main_v945 : DevRef τ sig))
    (a42 := Wv (main_c_337 : DevRef τ sig)) (a43 := Wv (main_v946 : DevRef τ sig)) (a44 := Wv (main_v947 : DevRef τ sig))
    (a45 := Wv (main_v948 : DevRef τ sig))
    (unary_pre m c hW 76 0 rfl rfl) (reshape_pre m c hW 76 1 rfl rfl) (nullary_pre m c hW 76 2 rfl rfl)
    (unary_pre m c hW 76 3 rfl rfl) (binary_pre m c hW 76 4 rfl rfl) (unary_pre m c hW 76 5 rfl rfl)
    (reshape_pre m c hW 76 6 rfl rfl) (nullary_pre m c hW 76 7 rfl rfl) (unary_pre m c hW 76 8 rfl rfl)
    (binary_pre m c hW 76 9 rfl rfl) (unary_pre m c hW 76 10 rfl rfl) (reshape_pre m c hW 76 11 rfl rfl)
    (nullary_pre m c hW 76 12 rfl rfl) (unary_pre m c hW 76 13 rfl rfl) (binary_pre m c hW 76 14 rfl rfl)
    (nullary_pre m c hW 76 15 rfl rfl) (unary_pre m c hW 76 16 rfl rfl) (binary_pre m c hW 76 17 rfl rfl)
    (nullary_pre m c hW 76 18 rfl rfl) (unary_pre m c hW 76 19 rfl rfl) (binary_pre m c hW 76 20 rfl rfl)
    (binary_pre m c hW 76 21 rfl rfl) (nullary_pre m c hW 76 22 rfl rfl) (unary_pre m c hW 76 23 rfl rfl)
    (binary_pre m c hW 76 24 rfl rfl) (binary_pre m c hW 76 25 rfl rfl) (nullary_pre m c hW 76 26 rfl rfl)
    (unary_pre m c hW 76 27 rfl rfl) (binary_pre m c hW 76 28 rfl rfl) (binary_pre m c hW 76 29 rfl rfl)
    (nullary_pre m c hW 76 30 rfl rfl) (unary_pre m c hW 76 31 rfl rfl) (binary_pre m c hW 76 32 rfl rfl)
    (binary_pre m c hW 76 33 rfl rfl) (nullary_pre m c hW 76 34 rfl rfl) (unary_pre m c hW 76 35 rfl rfl)
    (binary_pre m c hW 76 36 rfl rfl) (binary_pre m c hW 76 37 rfl rfl) (nullary_pre m c hW 76 38 rfl rfl)
    (unary_pre m c hW 76 39 rfl rfl) (binary_pre m c hW 76 40 rfl rfl) (binary_pre m c hW 76 41 rfl rfl)
    (nullary_pre m c hW 76 42 rfl rfl) (unary_pre m c hW 76 43 rfl rfl) (binary_pre m c hW 76 44 rfl rfl)
    (binary_pre m c hW 76 45 rfl rfl)

include hW in
/-- Tap 19: NIDX, looked up in the table the program holds in its map buffer. -/
theorem tap19_nidx : Wv (main_v956 : DevRef τ sig) = nidxT (Wv (main_arg3 : DevRef τ sig)) 1#32 4294967295#32 0#32 (Wv (main_v20 : DevRef τ sig)) :=
  nidx_compose (coords := Wv (main_arg3 : DevRef τ sig)) (dz := 1#32) (dy := 4294967295#32) (dx := 0#32) (M := Wv (main_v20 : DevRef τ sig))
    (a45 := Wv (main_v948 : DevRef τ sig))
    (a46 := Wv (main_c_338 : DevRef τ sig)) (a47 := Wv (main_c_339 : DevRef τ sig)) (q0 := Wv (main_call38_v0 : DevRef τ sig))
    (q1 := Wv (main_call38_v1 : DevRef τ sig)) (q2 := Wv (main_call38_v2 : DevRef τ sig)) (q3 := Wv (main_call38_v3 : DevRef τ sig))
    (q4 := Wv (main_call38_v4 : DevRef τ sig)) (q5 := Wv (main_v949 : DevRef τ sig)) (b0 := Wv (main_c_340 : DevRef τ sig))
    (b1 := Wv (main_v950 : DevRef τ sig)) (b2 := Wv (main_v951 : DevRef τ sig)) (b3 := Wv (main_c_341 : DevRef τ sig))
    (b4 := Wv (main_v952 : DevRef τ sig)) (b5 := Wv (main_v953 : DevRef τ sig)) (b6 := Wv (main_v954 : DevRef τ sig))
    (b7 := Wv (main_v955 : DevRef τ sig)) (b8 := Wv (main_v956 : DevRef τ sig))
    (tap19_inside m c hW).2
    (nullary_pre m c hW 76 46 rfl rfl) (nullary_pre m c hW 76 47 rfl rfl) (unary_pre m c hW 77 0 rfl rfl)
    (unary_pre m c hW 77 1 rfl rfl) (binary_pre m c hW 77 2 rfl rfl) (unary_pre m c hW 77 3 rfl rfl)
    (unary_pre m c hW 77 4 rfl rfl) (binary_pre m c hW 77 5 rfl rfl) (nullary_pre m c hW 78 0 rfl rfl)
    (unary_pre m c hW 78 1 rfl rfl) (binary_pre m c hW 78 2 rfl rfl) (nullary_pre m c hW 78 3 rfl rfl)
    (unary_pre m c hW 78 4 rfl rfl) (binary_pre m c hW 78 5 rfl rfl) (ternary_pre m c hW 78 6 rfl rfl)
    (unary_pre m c hW 78 7 rfl rfl) (binary_pre m c hW 78 8 rfl rfl)

include hW in
/-- Tap 19: the row index, of NIDX and INSIDE as the buffers hold them. -/
theorem tap19_row_buf : Wv (main_v960 : DevRef τ sig)
    = Cert.TapBridge.rowIdx bcast_S_S200000 (Wv (main_v956 : DevRef τ sig)) (Wv (main_v942 : DevRef τ sig)) :=
  row_compose (a37 := Wv (main_v942 : DevRef τ sig)) (b8 := Wv (main_v956 : DevRef τ sig))
    (b9 := Wv (main_c_342 : DevRef τ sig)) (b10 := Wv (main_v957 : DevRef τ sig)) (b11 := Wv (main_v958 : DevRef τ sig))
    (b12 := Wv (main_v959 : DevRef τ sig)) (b13 := Wv (main_c_343 : DevRef τ sig)) (w0 := Wv (main_call39_v0 : DevRef τ sig))
    (w1 := Wv (main_call39_v1 : DevRef τ sig)) (w2 := Wv (main_v960 : DevRef τ sig))
    (nullary_pre m c hW 78 9 rfl rfl) (unary_pre m c hW 78 10 rfl rfl) (binary_pre m c hW 78 11 rfl rfl)
    (binary_pre m c hW 78 12 rfl rfl) (nullary_pre m c hW 78 13 rfl rfl) (unary_pre m c hW 79 0 rfl rfl)
    (unary_pre m c hW 79 1 rfl rfl) (ternary_pre m c hW 79 2 rfl rfl)

include hW in
/-- TAP 19's ROW INDEX as one term of the coordinates, the offset words and the table. -/
theorem tap19_row : Wv (main_v960 : DevRef τ sig) = rowT (Wv (main_arg3 : DevRef τ sig)) 1#32 4294967295#32 0#32 (Wv (main_v20 : DevRef τ sig)) := by
  rw [tap19_row_buf m c hW, tap19_nidx m c hW, (tap19_inside m c hW).1]

/-! ### Tap 20: offset words (1, 4294967295, 1) -/

include hW in
/-- Tap 20: INSIDE and the neighbour's linear cell number. -/
theorem tap20_inside : Wv (main_v989 : DevRef τ sig) = insideT (Wv (main_arg3 : DevRef τ sig)) 1#32 4294967295#32 1#32
    ∧ Wv (main_v995 : DevRef τ sig) = nlinT (Wv (main_arg3 : DevRef τ sig)) 1#32 4294967295#32 1#32 :=
  inside_compose (coords := Wv (main_arg3 : DevRef τ sig)) (dz := 1#32) (dy := 4294967295#32) (dx := 1#32)
    (a0 := Wv (main_v961 : DevRef τ sig)) (a1 := Wv (main_v962 : DevRef τ sig)) (a2 := Wv (main_c_344 : DevRef τ sig))
    (a3 := Wv (main_v963 : DevRef τ sig)) (a4 := Wv (main_v964 : DevRef τ sig)) (a5 := Wv (main_v965 : DevRef τ sig))
    (a6 := Wv (main_v966 : DevRef τ sig)) (a7 := Wv (main_c_345 : DevRef τ sig)) (a8 := Wv (main_v967 : DevRef τ sig))
    (a9 := Wv (main_v968 : DevRef τ sig)) (a10 := Wv (main_v969 : DevRef τ sig)) (a11 := Wv (main_v970 : DevRef τ sig))
    (a12 := Wv (main_c_346 : DevRef τ sig)) (a13 := Wv (main_v971 : DevRef τ sig)) (a14 := Wv (main_v972 : DevRef τ sig))
    (a15 := Wv (main_c_347 : DevRef τ sig)) (a16 := Wv (main_v973 : DevRef τ sig)) (a17 := Wv (main_v974 : DevRef τ sig))
    (a18 := Wv (main_c_348 : DevRef τ sig)) (a19 := Wv (main_v975 : DevRef τ sig)) (a20 := Wv (main_v976 : DevRef τ sig))
    (a21 := Wv (main_v977 : DevRef τ sig)) (a22 := Wv (main_c_349 : DevRef τ sig)) (a23 := Wv (main_v978 : DevRef τ sig))
    (a24 := Wv (main_v979 : DevRef τ sig)) (a25 := Wv (main_v980 : DevRef τ sig)) (a26 := Wv (main_c_350 : DevRef τ sig))
    (a27 := Wv (main_v981 : DevRef τ sig)) (a28 := Wv (main_v982 : DevRef τ sig)) (a29 := Wv (main_v983 : DevRef τ sig))
    (a30 := Wv (main_c_351 : DevRef τ sig)) (a31 := Wv (main_v984 : DevRef τ sig)) (a32 := Wv (main_v985 : DevRef τ sig))
    (a33 := Wv (main_v986 : DevRef τ sig)) (a34 := Wv (main_c_352 : DevRef τ sig)) (a35 := Wv (main_v987 : DevRef τ sig))
    (a36 := Wv (main_v988 : DevRef τ sig)) (a37 := Wv (main_v989 : DevRef τ sig)) (a38 := Wv (main_c_353 : DevRef τ sig))
    (a39 := Wv (main_v990 : DevRef τ sig)) (a40 := Wv (main_v991 : DevRef τ sig)) (a41 := Wv (main_v992 : DevRef τ sig))
    (a42 := Wv (main_c_354 : DevRef τ sig)) (a43 := Wv (main_v993 : DevRef τ sig)) (a44 := Wv (main_v994 : DevRef τ sig))
    (a45 := Wv (main_v995 : DevRef τ sig))
    (unary_pre m c hW 80 0 rfl rfl) (reshape_pre m c hW 80 1 rfl rfl) (nullary_pre m c hW 80 2 rfl rfl)
    (unary_pre m c hW 80 3 rfl rfl) (binary_pre m c hW 80 4 rfl rfl) (unary_pre m c hW 80 5 rfl rfl)
    (reshape_pre m c hW 80 6 rfl rfl) (nullary_pre m c hW 80 7 rfl rfl) (unary_pre m c hW 80 8 rfl rfl)
    (binary_pre m c hW 80 9 rfl rfl) (unary_pre m c hW 80 10 rfl rfl) (reshape_pre m c hW 80 11 rfl rfl)
    (nullary_pre m c hW 80 12 rfl rfl) (unary_pre m c hW 80 13 rfl rfl) (binary_pre m c hW 80 14 rfl rfl)
    (nullary_pre m c hW 80 15 rfl rfl) (unary_pre m c hW 80 16 rfl rfl) (binary_pre m c hW 80 17 rfl rfl)
    (nullary_pre m c hW 80 18 rfl rfl) (unary_pre m c hW 80 19 rfl rfl) (binary_pre m c hW 80 20 rfl rfl)
    (binary_pre m c hW 80 21 rfl rfl) (nullary_pre m c hW 80 22 rfl rfl) (unary_pre m c hW 80 23 rfl rfl)
    (binary_pre m c hW 80 24 rfl rfl) (binary_pre m c hW 80 25 rfl rfl) (nullary_pre m c hW 80 26 rfl rfl)
    (unary_pre m c hW 80 27 rfl rfl) (binary_pre m c hW 80 28 rfl rfl) (binary_pre m c hW 80 29 rfl rfl)
    (nullary_pre m c hW 80 30 rfl rfl) (unary_pre m c hW 80 31 rfl rfl) (binary_pre m c hW 80 32 rfl rfl)
    (binary_pre m c hW 80 33 rfl rfl) (nullary_pre m c hW 80 34 rfl rfl) (unary_pre m c hW 80 35 rfl rfl)
    (binary_pre m c hW 80 36 rfl rfl) (binary_pre m c hW 80 37 rfl rfl) (nullary_pre m c hW 80 38 rfl rfl)
    (unary_pre m c hW 80 39 rfl rfl) (binary_pre m c hW 80 40 rfl rfl) (binary_pre m c hW 80 41 rfl rfl)
    (nullary_pre m c hW 80 42 rfl rfl) (unary_pre m c hW 80 43 rfl rfl) (binary_pre m c hW 80 44 rfl rfl)
    (binary_pre m c hW 80 45 rfl rfl)

include hW in
/-- Tap 20: NIDX, looked up in the table the program holds in its map buffer. -/
theorem tap20_nidx : Wv (main_v1003 : DevRef τ sig) = nidxT (Wv (main_arg3 : DevRef τ sig)) 1#32 4294967295#32 1#32 (Wv (main_v20 : DevRef τ sig)) :=
  nidx_compose (coords := Wv (main_arg3 : DevRef τ sig)) (dz := 1#32) (dy := 4294967295#32) (dx := 1#32) (M := Wv (main_v20 : DevRef τ sig))
    (a45 := Wv (main_v995 : DevRef τ sig))
    (a46 := Wv (main_c_355 : DevRef τ sig)) (a47 := Wv (main_c_356 : DevRef τ sig)) (q0 := Wv (main_call40_v0 : DevRef τ sig))
    (q1 := Wv (main_call40_v1 : DevRef τ sig)) (q2 := Wv (main_call40_v2 : DevRef τ sig)) (q3 := Wv (main_call40_v3 : DevRef τ sig))
    (q4 := Wv (main_call40_v4 : DevRef τ sig)) (q5 := Wv (main_v996 : DevRef τ sig)) (b0 := Wv (main_c_357 : DevRef τ sig))
    (b1 := Wv (main_v997 : DevRef τ sig)) (b2 := Wv (main_v998 : DevRef τ sig)) (b3 := Wv (main_c_358 : DevRef τ sig))
    (b4 := Wv (main_v999 : DevRef τ sig)) (b5 := Wv (main_v1000 : DevRef τ sig)) (b6 := Wv (main_v1001 : DevRef τ sig))
    (b7 := Wv (main_v1002 : DevRef τ sig)) (b8 := Wv (main_v1003 : DevRef τ sig))
    (tap20_inside m c hW).2
    (nullary_pre m c hW 80 46 rfl rfl) (nullary_pre m c hW 80 47 rfl rfl) (unary_pre m c hW 81 0 rfl rfl)
    (unary_pre m c hW 81 1 rfl rfl) (binary_pre m c hW 81 2 rfl rfl) (unary_pre m c hW 81 3 rfl rfl)
    (unary_pre m c hW 81 4 rfl rfl) (binary_pre m c hW 81 5 rfl rfl) (nullary_pre m c hW 82 0 rfl rfl)
    (unary_pre m c hW 82 1 rfl rfl) (binary_pre m c hW 82 2 rfl rfl) (nullary_pre m c hW 82 3 rfl rfl)
    (unary_pre m c hW 82 4 rfl rfl) (binary_pre m c hW 82 5 rfl rfl) (ternary_pre m c hW 82 6 rfl rfl)
    (unary_pre m c hW 82 7 rfl rfl) (binary_pre m c hW 82 8 rfl rfl)

include hW in
/-- Tap 20: the row index, of NIDX and INSIDE as the buffers hold them. -/
theorem tap20_row_buf : Wv (main_v1007 : DevRef τ sig)
    = Cert.TapBridge.rowIdx bcast_S_S200000 (Wv (main_v1003 : DevRef τ sig)) (Wv (main_v989 : DevRef τ sig)) :=
  row_compose (a37 := Wv (main_v989 : DevRef τ sig)) (b8 := Wv (main_v1003 : DevRef τ sig))
    (b9 := Wv (main_c_359 : DevRef τ sig)) (b10 := Wv (main_v1004 : DevRef τ sig)) (b11 := Wv (main_v1005 : DevRef τ sig))
    (b12 := Wv (main_v1006 : DevRef τ sig)) (b13 := Wv (main_c_360 : DevRef τ sig)) (w0 := Wv (main_call41_v0 : DevRef τ sig))
    (w1 := Wv (main_call41_v1 : DevRef τ sig)) (w2 := Wv (main_v1007 : DevRef τ sig))
    (nullary_pre m c hW 82 9 rfl rfl) (unary_pre m c hW 82 10 rfl rfl) (binary_pre m c hW 82 11 rfl rfl)
    (binary_pre m c hW 82 12 rfl rfl) (nullary_pre m c hW 82 13 rfl rfl) (unary_pre m c hW 83 0 rfl rfl)
    (unary_pre m c hW 83 1 rfl rfl) (ternary_pre m c hW 83 2 rfl rfl)

include hW in
/-- TAP 20's ROW INDEX as one term of the coordinates, the offset words and the table. -/
theorem tap20_row : Wv (main_v1007 : DevRef τ sig) = rowT (Wv (main_arg3 : DevRef τ sig)) 1#32 4294967295#32 1#32 (Wv (main_v20 : DevRef τ sig)) := by
  rw [tap20_row_buf m c hW, tap20_nidx m c hW, (tap20_inside m c hW).1]

/-! ### Tap 21: offset words (1, 0, 4294967295) -/

include hW in
/-- Tap 21: INSIDE and the neighbour's linear cell number. -/
theorem tap21_inside : Wv (main_v1036 : DevRef τ sig) = insideT (Wv (main_arg3 : DevRef τ sig)) 1#32 0#32 4294967295#32
    ∧ Wv (main_v1042 : DevRef τ sig) = nlinT (Wv (main_arg3 : DevRef τ sig)) 1#32 0#32 4294967295#32 :=
  inside_compose (coords := Wv (main_arg3 : DevRef τ sig)) (dz := 1#32) (dy := 0#32) (dx := 4294967295#32)
    (a0 := Wv (main_v1008 : DevRef τ sig)) (a1 := Wv (main_v1009 : DevRef τ sig)) (a2 := Wv (main_c_361 : DevRef τ sig))
    (a3 := Wv (main_v1010 : DevRef τ sig)) (a4 := Wv (main_v1011 : DevRef τ sig)) (a5 := Wv (main_v1012 : DevRef τ sig))
    (a6 := Wv (main_v1013 : DevRef τ sig)) (a7 := Wv (main_c_362 : DevRef τ sig)) (a8 := Wv (main_v1014 : DevRef τ sig))
    (a9 := Wv (main_v1015 : DevRef τ sig)) (a10 := Wv (main_v1016 : DevRef τ sig)) (a11 := Wv (main_v1017 : DevRef τ sig))
    (a12 := Wv (main_c_363 : DevRef τ sig)) (a13 := Wv (main_v1018 : DevRef τ sig)) (a14 := Wv (main_v1019 : DevRef τ sig))
    (a15 := Wv (main_c_364 : DevRef τ sig)) (a16 := Wv (main_v1020 : DevRef τ sig)) (a17 := Wv (main_v1021 : DevRef τ sig))
    (a18 := Wv (main_c_365 : DevRef τ sig)) (a19 := Wv (main_v1022 : DevRef τ sig)) (a20 := Wv (main_v1023 : DevRef τ sig))
    (a21 := Wv (main_v1024 : DevRef τ sig)) (a22 := Wv (main_c_366 : DevRef τ sig)) (a23 := Wv (main_v1025 : DevRef τ sig))
    (a24 := Wv (main_v1026 : DevRef τ sig)) (a25 := Wv (main_v1027 : DevRef τ sig)) (a26 := Wv (main_c_367 : DevRef τ sig))
    (a27 := Wv (main_v1028 : DevRef τ sig)) (a28 := Wv (main_v1029 : DevRef τ sig)) (a29 := Wv (main_v1030 : DevRef τ sig))
    (a30 := Wv (main_c_368 : DevRef τ sig)) (a31 := Wv (main_v1031 : DevRef τ sig)) (a32 := Wv (main_v1032 : DevRef τ sig))
    (a33 := Wv (main_v1033 : DevRef τ sig)) (a34 := Wv (main_c_369 : DevRef τ sig)) (a35 := Wv (main_v1034 : DevRef τ sig))
    (a36 := Wv (main_v1035 : DevRef τ sig)) (a37 := Wv (main_v1036 : DevRef τ sig)) (a38 := Wv (main_c_370 : DevRef τ sig))
    (a39 := Wv (main_v1037 : DevRef τ sig)) (a40 := Wv (main_v1038 : DevRef τ sig)) (a41 := Wv (main_v1039 : DevRef τ sig))
    (a42 := Wv (main_c_371 : DevRef τ sig)) (a43 := Wv (main_v1040 : DevRef τ sig)) (a44 := Wv (main_v1041 : DevRef τ sig))
    (a45 := Wv (main_v1042 : DevRef τ sig))
    (unary_pre m c hW 84 0 rfl rfl) (reshape_pre m c hW 84 1 rfl rfl) (nullary_pre m c hW 84 2 rfl rfl)
    (unary_pre m c hW 84 3 rfl rfl) (binary_pre m c hW 84 4 rfl rfl) (unary_pre m c hW 84 5 rfl rfl)
    (reshape_pre m c hW 84 6 rfl rfl) (nullary_pre m c hW 84 7 rfl rfl) (unary_pre m c hW 84 8 rfl rfl)
    (binary_pre m c hW 84 9 rfl rfl) (unary_pre m c hW 84 10 rfl rfl) (reshape_pre m c hW 84 11 rfl rfl)
    (nullary_pre m c hW 84 12 rfl rfl) (unary_pre m c hW 84 13 rfl rfl) (binary_pre m c hW 84 14 rfl rfl)
    (nullary_pre m c hW 84 15 rfl rfl) (unary_pre m c hW 84 16 rfl rfl) (binary_pre m c hW 84 17 rfl rfl)
    (nullary_pre m c hW 84 18 rfl rfl) (unary_pre m c hW 84 19 rfl rfl) (binary_pre m c hW 84 20 rfl rfl)
    (binary_pre m c hW 84 21 rfl rfl) (nullary_pre m c hW 84 22 rfl rfl) (unary_pre m c hW 84 23 rfl rfl)
    (binary_pre m c hW 84 24 rfl rfl) (binary_pre m c hW 84 25 rfl rfl) (nullary_pre m c hW 84 26 rfl rfl)
    (unary_pre m c hW 84 27 rfl rfl) (binary_pre m c hW 84 28 rfl rfl) (binary_pre m c hW 84 29 rfl rfl)
    (nullary_pre m c hW 84 30 rfl rfl) (unary_pre m c hW 84 31 rfl rfl) (binary_pre m c hW 84 32 rfl rfl)
    (binary_pre m c hW 84 33 rfl rfl) (nullary_pre m c hW 84 34 rfl rfl) (unary_pre m c hW 84 35 rfl rfl)
    (binary_pre m c hW 84 36 rfl rfl) (binary_pre m c hW 84 37 rfl rfl) (nullary_pre m c hW 84 38 rfl rfl)
    (unary_pre m c hW 84 39 rfl rfl) (binary_pre m c hW 84 40 rfl rfl) (binary_pre m c hW 84 41 rfl rfl)
    (nullary_pre m c hW 84 42 rfl rfl) (unary_pre m c hW 84 43 rfl rfl) (binary_pre m c hW 84 44 rfl rfl)
    (binary_pre m c hW 84 45 rfl rfl)

include hW in
/-- Tap 21: NIDX, looked up in the table the program holds in its map buffer. -/
theorem tap21_nidx : Wv (main_v1050 : DevRef τ sig) = nidxT (Wv (main_arg3 : DevRef τ sig)) 1#32 0#32 4294967295#32 (Wv (main_v20 : DevRef τ sig)) :=
  nidx_compose (coords := Wv (main_arg3 : DevRef τ sig)) (dz := 1#32) (dy := 0#32) (dx := 4294967295#32) (M := Wv (main_v20 : DevRef τ sig))
    (a45 := Wv (main_v1042 : DevRef τ sig))
    (a46 := Wv (main_c_372 : DevRef τ sig)) (a47 := Wv (main_c_373 : DevRef τ sig)) (q0 := Wv (main_call42_v0 : DevRef τ sig))
    (q1 := Wv (main_call42_v1 : DevRef τ sig)) (q2 := Wv (main_call42_v2 : DevRef τ sig)) (q3 := Wv (main_call42_v3 : DevRef τ sig))
    (q4 := Wv (main_call42_v4 : DevRef τ sig)) (q5 := Wv (main_v1043 : DevRef τ sig)) (b0 := Wv (main_c_374 : DevRef τ sig))
    (b1 := Wv (main_v1044 : DevRef τ sig)) (b2 := Wv (main_v1045 : DevRef τ sig)) (b3 := Wv (main_c_375 : DevRef τ sig))
    (b4 := Wv (main_v1046 : DevRef τ sig)) (b5 := Wv (main_v1047 : DevRef τ sig)) (b6 := Wv (main_v1048 : DevRef τ sig))
    (b7 := Wv (main_v1049 : DevRef τ sig)) (b8 := Wv (main_v1050 : DevRef τ sig))
    (tap21_inside m c hW).2
    (nullary_pre m c hW 84 46 rfl rfl) (nullary_pre m c hW 84 47 rfl rfl) (unary_pre m c hW 85 0 rfl rfl)
    (unary_pre m c hW 85 1 rfl rfl) (binary_pre m c hW 85 2 rfl rfl) (unary_pre m c hW 85 3 rfl rfl)
    (unary_pre m c hW 85 4 rfl rfl) (binary_pre m c hW 85 5 rfl rfl) (nullary_pre m c hW 86 0 rfl rfl)
    (unary_pre m c hW 86 1 rfl rfl) (binary_pre m c hW 86 2 rfl rfl) (nullary_pre m c hW 86 3 rfl rfl)
    (unary_pre m c hW 86 4 rfl rfl) (binary_pre m c hW 86 5 rfl rfl) (ternary_pre m c hW 86 6 rfl rfl)
    (unary_pre m c hW 86 7 rfl rfl) (binary_pre m c hW 86 8 rfl rfl)

include hW in
/-- Tap 21: the row index, of NIDX and INSIDE as the buffers hold them. -/
theorem tap21_row_buf : Wv (main_v1054 : DevRef τ sig)
    = Cert.TapBridge.rowIdx bcast_S_S200000 (Wv (main_v1050 : DevRef τ sig)) (Wv (main_v1036 : DevRef τ sig)) :=
  row_compose (a37 := Wv (main_v1036 : DevRef τ sig)) (b8 := Wv (main_v1050 : DevRef τ sig))
    (b9 := Wv (main_c_376 : DevRef τ sig)) (b10 := Wv (main_v1051 : DevRef τ sig)) (b11 := Wv (main_v1052 : DevRef τ sig))
    (b12 := Wv (main_v1053 : DevRef τ sig)) (b13 := Wv (main_c_377 : DevRef τ sig)) (w0 := Wv (main_call43_v0 : DevRef τ sig))
    (w1 := Wv (main_call43_v1 : DevRef τ sig)) (w2 := Wv (main_v1054 : DevRef τ sig))
    (nullary_pre m c hW 86 9 rfl rfl) (unary_pre m c hW 86 10 rfl rfl) (binary_pre m c hW 86 11 rfl rfl)
    (binary_pre m c hW 86 12 rfl rfl) (nullary_pre m c hW 86 13 rfl rfl) (unary_pre m c hW 87 0 rfl rfl)
    (unary_pre m c hW 87 1 rfl rfl) (ternary_pre m c hW 87 2 rfl rfl)

include hW in
/-- TAP 21's ROW INDEX as one term of the coordinates, the offset words and the table. -/
theorem tap21_row : Wv (main_v1054 : DevRef τ sig) = rowT (Wv (main_arg3 : DevRef τ sig)) 1#32 0#32 4294967295#32 (Wv (main_v20 : DevRef τ sig)) := by
  rw [tap21_row_buf m c hW, tap21_nidx m c hW, (tap21_inside m c hW).1]

/-! ### Tap 22: offset words (1, 0, 0) -/

include hW in
/-- Tap 22: INSIDE and the neighbour's linear cell number. -/
theorem tap22_inside : Wv (main_v1083 : DevRef τ sig) = insideT (Wv (main_arg3 : DevRef τ sig)) 1#32 0#32 0#32
    ∧ Wv (main_v1089 : DevRef τ sig) = nlinT (Wv (main_arg3 : DevRef τ sig)) 1#32 0#32 0#32 :=
  inside_compose (coords := Wv (main_arg3 : DevRef τ sig)) (dz := 1#32) (dy := 0#32) (dx := 0#32)
    (a0 := Wv (main_v1055 : DevRef τ sig)) (a1 := Wv (main_v1056 : DevRef τ sig)) (a2 := Wv (main_c_378 : DevRef τ sig))
    (a3 := Wv (main_v1057 : DevRef τ sig)) (a4 := Wv (main_v1058 : DevRef τ sig)) (a5 := Wv (main_v1059 : DevRef τ sig))
    (a6 := Wv (main_v1060 : DevRef τ sig)) (a7 := Wv (main_c_379 : DevRef τ sig)) (a8 := Wv (main_v1061 : DevRef τ sig))
    (a9 := Wv (main_v1062 : DevRef τ sig)) (a10 := Wv (main_v1063 : DevRef τ sig)) (a11 := Wv (main_v1064 : DevRef τ sig))
    (a12 := Wv (main_c_380 : DevRef τ sig)) (a13 := Wv (main_v1065 : DevRef τ sig)) (a14 := Wv (main_v1066 : DevRef τ sig))
    (a15 := Wv (main_c_381 : DevRef τ sig)) (a16 := Wv (main_v1067 : DevRef τ sig)) (a17 := Wv (main_v1068 : DevRef τ sig))
    (a18 := Wv (main_c_382 : DevRef τ sig)) (a19 := Wv (main_v1069 : DevRef τ sig)) (a20 := Wv (main_v1070 : DevRef τ sig))
    (a21 := Wv (main_v1071 : DevRef τ sig)) (a22 := Wv (main_c_383 : DevRef τ sig)) (a23 := Wv (main_v1072 : DevRef τ sig))
    (a24 := Wv (main_v1073 : DevRef τ sig)) (a25 := Wv (main_v1074 : DevRef τ sig)) (a26 := Wv (main_c_384 : DevRef τ sig))
    (a27 := Wv (main_v1075 : DevRef τ sig)) (a28 := Wv (main_v1076 : DevRef τ sig)) (a29 := Wv (main_v1077 : DevRef τ sig))
    (a30 := Wv (main_c_385 : DevRef τ sig)) (a31 := Wv (main_v1078 : DevRef τ sig)) (a32 := Wv (main_v1079 : DevRef τ sig))
    (a33 := Wv (main_v1080 : DevRef τ sig)) (a34 := Wv (main_c_386 : DevRef τ sig)) (a35 := Wv (main_v1081 : DevRef τ sig))
    (a36 := Wv (main_v1082 : DevRef τ sig)) (a37 := Wv (main_v1083 : DevRef τ sig)) (a38 := Wv (main_c_387 : DevRef τ sig))
    (a39 := Wv (main_v1084 : DevRef τ sig)) (a40 := Wv (main_v1085 : DevRef τ sig)) (a41 := Wv (main_v1086 : DevRef τ sig))
    (a42 := Wv (main_c_388 : DevRef τ sig)) (a43 := Wv (main_v1087 : DevRef τ sig)) (a44 := Wv (main_v1088 : DevRef τ sig))
    (a45 := Wv (main_v1089 : DevRef τ sig))
    (unary_pre m c hW 88 0 rfl rfl) (reshape_pre m c hW 88 1 rfl rfl) (nullary_pre m c hW 88 2 rfl rfl)
    (unary_pre m c hW 88 3 rfl rfl) (binary_pre m c hW 88 4 rfl rfl) (unary_pre m c hW 88 5 rfl rfl)
    (reshape_pre m c hW 88 6 rfl rfl) (nullary_pre m c hW 88 7 rfl rfl) (unary_pre m c hW 88 8 rfl rfl)
    (binary_pre m c hW 88 9 rfl rfl) (unary_pre m c hW 88 10 rfl rfl) (reshape_pre m c hW 88 11 rfl rfl)
    (nullary_pre m c hW 88 12 rfl rfl) (unary_pre m c hW 88 13 rfl rfl) (binary_pre m c hW 88 14 rfl rfl)
    (nullary_pre m c hW 88 15 rfl rfl) (unary_pre m c hW 88 16 rfl rfl) (binary_pre m c hW 88 17 rfl rfl)
    (nullary_pre m c hW 88 18 rfl rfl) (unary_pre m c hW 88 19 rfl rfl) (binary_pre m c hW 88 20 rfl rfl)
    (binary_pre m c hW 88 21 rfl rfl) (nullary_pre m c hW 88 22 rfl rfl) (unary_pre m c hW 88 23 rfl rfl)
    (binary_pre m c hW 88 24 rfl rfl) (binary_pre m c hW 88 25 rfl rfl) (nullary_pre m c hW 88 26 rfl rfl)
    (unary_pre m c hW 88 27 rfl rfl) (binary_pre m c hW 88 28 rfl rfl) (binary_pre m c hW 88 29 rfl rfl)
    (nullary_pre m c hW 88 30 rfl rfl) (unary_pre m c hW 88 31 rfl rfl) (binary_pre m c hW 88 32 rfl rfl)
    (binary_pre m c hW 88 33 rfl rfl) (nullary_pre m c hW 88 34 rfl rfl) (unary_pre m c hW 88 35 rfl rfl)
    (binary_pre m c hW 88 36 rfl rfl) (binary_pre m c hW 88 37 rfl rfl) (nullary_pre m c hW 88 38 rfl rfl)
    (unary_pre m c hW 88 39 rfl rfl) (binary_pre m c hW 88 40 rfl rfl) (binary_pre m c hW 88 41 rfl rfl)
    (nullary_pre m c hW 88 42 rfl rfl) (unary_pre m c hW 88 43 rfl rfl) (binary_pre m c hW 88 44 rfl rfl)
    (binary_pre m c hW 88 45 rfl rfl)

include hW in
/-- Tap 22: NIDX, looked up in the table the program holds in its map buffer. -/
theorem tap22_nidx : Wv (main_v1097 : DevRef τ sig) = nidxT (Wv (main_arg3 : DevRef τ sig)) 1#32 0#32 0#32 (Wv (main_v20 : DevRef τ sig)) :=
  nidx_compose (coords := Wv (main_arg3 : DevRef τ sig)) (dz := 1#32) (dy := 0#32) (dx := 0#32) (M := Wv (main_v20 : DevRef τ sig))
    (a45 := Wv (main_v1089 : DevRef τ sig))
    (a46 := Wv (main_c_389 : DevRef τ sig)) (a47 := Wv (main_c_390 : DevRef τ sig)) (q0 := Wv (main_call44_v0 : DevRef τ sig))
    (q1 := Wv (main_call44_v1 : DevRef τ sig)) (q2 := Wv (main_call44_v2 : DevRef τ sig)) (q3 := Wv (main_call44_v3 : DevRef τ sig))
    (q4 := Wv (main_call44_v4 : DevRef τ sig)) (q5 := Wv (main_v1090 : DevRef τ sig)) (b0 := Wv (main_c_391 : DevRef τ sig))
    (b1 := Wv (main_v1091 : DevRef τ sig)) (b2 := Wv (main_v1092 : DevRef τ sig)) (b3 := Wv (main_c_392 : DevRef τ sig))
    (b4 := Wv (main_v1093 : DevRef τ sig)) (b5 := Wv (main_v1094 : DevRef τ sig)) (b6 := Wv (main_v1095 : DevRef τ sig))
    (b7 := Wv (main_v1096 : DevRef τ sig)) (b8 := Wv (main_v1097 : DevRef τ sig))
    (tap22_inside m c hW).2
    (nullary_pre m c hW 88 46 rfl rfl) (nullary_pre m c hW 88 47 rfl rfl) (unary_pre m c hW 89 0 rfl rfl)
    (unary_pre m c hW 89 1 rfl rfl) (binary_pre m c hW 89 2 rfl rfl) (unary_pre m c hW 89 3 rfl rfl)
    (unary_pre m c hW 89 4 rfl rfl) (binary_pre m c hW 89 5 rfl rfl) (nullary_pre m c hW 90 0 rfl rfl)
    (unary_pre m c hW 90 1 rfl rfl) (binary_pre m c hW 90 2 rfl rfl) (nullary_pre m c hW 90 3 rfl rfl)
    (unary_pre m c hW 90 4 rfl rfl) (binary_pre m c hW 90 5 rfl rfl) (ternary_pre m c hW 90 6 rfl rfl)
    (unary_pre m c hW 90 7 rfl rfl) (binary_pre m c hW 90 8 rfl rfl)

include hW in
/-- Tap 22: the row index, of NIDX and INSIDE as the buffers hold them. -/
theorem tap22_row_buf : Wv (main_v1101 : DevRef τ sig)
    = Cert.TapBridge.rowIdx bcast_S_S200000 (Wv (main_v1097 : DevRef τ sig)) (Wv (main_v1083 : DevRef τ sig)) :=
  row_compose (a37 := Wv (main_v1083 : DevRef τ sig)) (b8 := Wv (main_v1097 : DevRef τ sig))
    (b9 := Wv (main_c_393 : DevRef τ sig)) (b10 := Wv (main_v1098 : DevRef τ sig)) (b11 := Wv (main_v1099 : DevRef τ sig))
    (b12 := Wv (main_v1100 : DevRef τ sig)) (b13 := Wv (main_c_394 : DevRef τ sig)) (w0 := Wv (main_call45_v0 : DevRef τ sig))
    (w1 := Wv (main_call45_v1 : DevRef τ sig)) (w2 := Wv (main_v1101 : DevRef τ sig))
    (nullary_pre m c hW 90 9 rfl rfl) (unary_pre m c hW 90 10 rfl rfl) (binary_pre m c hW 90 11 rfl rfl)
    (binary_pre m c hW 90 12 rfl rfl) (nullary_pre m c hW 90 13 rfl rfl) (unary_pre m c hW 91 0 rfl rfl)
    (unary_pre m c hW 91 1 rfl rfl) (ternary_pre m c hW 91 2 rfl rfl)

include hW in
/-- TAP 22's ROW INDEX as one term of the coordinates, the offset words and the table. -/
theorem tap22_row : Wv (main_v1101 : DevRef τ sig) = rowT (Wv (main_arg3 : DevRef τ sig)) 1#32 0#32 0#32 (Wv (main_v20 : DevRef τ sig)) := by
  rw [tap22_row_buf m c hW, tap22_nidx m c hW, (tap22_inside m c hW).1]

/-! ### Tap 23: offset words (1, 0, 1) -/

include hW in
/-- Tap 23: INSIDE and the neighbour's linear cell number. -/
theorem tap23_inside : Wv (main_v1130 : DevRef τ sig) = insideT (Wv (main_arg3 : DevRef τ sig)) 1#32 0#32 1#32
    ∧ Wv (main_v1136 : DevRef τ sig) = nlinT (Wv (main_arg3 : DevRef τ sig)) 1#32 0#32 1#32 :=
  inside_compose (coords := Wv (main_arg3 : DevRef τ sig)) (dz := 1#32) (dy := 0#32) (dx := 1#32)
    (a0 := Wv (main_v1102 : DevRef τ sig)) (a1 := Wv (main_v1103 : DevRef τ sig)) (a2 := Wv (main_c_395 : DevRef τ sig))
    (a3 := Wv (main_v1104 : DevRef τ sig)) (a4 := Wv (main_v1105 : DevRef τ sig)) (a5 := Wv (main_v1106 : DevRef τ sig))
    (a6 := Wv (main_v1107 : DevRef τ sig)) (a7 := Wv (main_c_396 : DevRef τ sig)) (a8 := Wv (main_v1108 : DevRef τ sig))
    (a9 := Wv (main_v1109 : DevRef τ sig)) (a10 := Wv (main_v1110 : DevRef τ sig)) (a11 := Wv (main_v1111 : DevRef τ sig))
    (a12 := Wv (main_c_397 : DevRef τ sig)) (a13 := Wv (main_v1112 : DevRef τ sig)) (a14 := Wv (main_v1113 : DevRef τ sig))
    (a15 := Wv (main_c_398 : DevRef τ sig)) (a16 := Wv (main_v1114 : DevRef τ sig)) (a17 := Wv (main_v1115 : DevRef τ sig))
    (a18 := Wv (main_c_399 : DevRef τ sig)) (a19 := Wv (main_v1116 : DevRef τ sig)) (a20 := Wv (main_v1117 : DevRef τ sig))
    (a21 := Wv (main_v1118 : DevRef τ sig)) (a22 := Wv (main_c_400 : DevRef τ sig)) (a23 := Wv (main_v1119 : DevRef τ sig))
    (a24 := Wv (main_v1120 : DevRef τ sig)) (a25 := Wv (main_v1121 : DevRef τ sig)) (a26 := Wv (main_c_401 : DevRef τ sig))
    (a27 := Wv (main_v1122 : DevRef τ sig)) (a28 := Wv (main_v1123 : DevRef τ sig)) (a29 := Wv (main_v1124 : DevRef τ sig))
    (a30 := Wv (main_c_402 : DevRef τ sig)) (a31 := Wv (main_v1125 : DevRef τ sig)) (a32 := Wv (main_v1126 : DevRef τ sig))
    (a33 := Wv (main_v1127 : DevRef τ sig)) (a34 := Wv (main_c_403 : DevRef τ sig)) (a35 := Wv (main_v1128 : DevRef τ sig))
    (a36 := Wv (main_v1129 : DevRef τ sig)) (a37 := Wv (main_v1130 : DevRef τ sig)) (a38 := Wv (main_c_404 : DevRef τ sig))
    (a39 := Wv (main_v1131 : DevRef τ sig)) (a40 := Wv (main_v1132 : DevRef τ sig)) (a41 := Wv (main_v1133 : DevRef τ sig))
    (a42 := Wv (main_c_405 : DevRef τ sig)) (a43 := Wv (main_v1134 : DevRef τ sig)) (a44 := Wv (main_v1135 : DevRef τ sig))
    (a45 := Wv (main_v1136 : DevRef τ sig))
    (unary_pre m c hW 92 0 rfl rfl) (reshape_pre m c hW 92 1 rfl rfl) (nullary_pre m c hW 92 2 rfl rfl)
    (unary_pre m c hW 92 3 rfl rfl) (binary_pre m c hW 92 4 rfl rfl) (unary_pre m c hW 92 5 rfl rfl)
    (reshape_pre m c hW 92 6 rfl rfl) (nullary_pre m c hW 92 7 rfl rfl) (unary_pre m c hW 92 8 rfl rfl)
    (binary_pre m c hW 92 9 rfl rfl) (unary_pre m c hW 92 10 rfl rfl) (reshape_pre m c hW 92 11 rfl rfl)
    (nullary_pre m c hW 92 12 rfl rfl) (unary_pre m c hW 92 13 rfl rfl) (binary_pre m c hW 92 14 rfl rfl)
    (nullary_pre m c hW 92 15 rfl rfl) (unary_pre m c hW 92 16 rfl rfl) (binary_pre m c hW 92 17 rfl rfl)
    (nullary_pre m c hW 92 18 rfl rfl) (unary_pre m c hW 92 19 rfl rfl) (binary_pre m c hW 92 20 rfl rfl)
    (binary_pre m c hW 92 21 rfl rfl) (nullary_pre m c hW 92 22 rfl rfl) (unary_pre m c hW 92 23 rfl rfl)
    (binary_pre m c hW 92 24 rfl rfl) (binary_pre m c hW 92 25 rfl rfl) (nullary_pre m c hW 92 26 rfl rfl)
    (unary_pre m c hW 92 27 rfl rfl) (binary_pre m c hW 92 28 rfl rfl) (binary_pre m c hW 92 29 rfl rfl)
    (nullary_pre m c hW 92 30 rfl rfl) (unary_pre m c hW 92 31 rfl rfl) (binary_pre m c hW 92 32 rfl rfl)
    (binary_pre m c hW 92 33 rfl rfl) (nullary_pre m c hW 92 34 rfl rfl) (unary_pre m c hW 92 35 rfl rfl)
    (binary_pre m c hW 92 36 rfl rfl) (binary_pre m c hW 92 37 rfl rfl) (nullary_pre m c hW 92 38 rfl rfl)
    (unary_pre m c hW 92 39 rfl rfl) (binary_pre m c hW 92 40 rfl rfl) (binary_pre m c hW 92 41 rfl rfl)
    (nullary_pre m c hW 92 42 rfl rfl) (unary_pre m c hW 92 43 rfl rfl) (binary_pre m c hW 92 44 rfl rfl)
    (binary_pre m c hW 92 45 rfl rfl)

include hW in
/-- Tap 23: NIDX, looked up in the table the program holds in its map buffer. -/
theorem tap23_nidx : Wv (main_v1144 : DevRef τ sig) = nidxT (Wv (main_arg3 : DevRef τ sig)) 1#32 0#32 1#32 (Wv (main_v20 : DevRef τ sig)) :=
  nidx_compose (coords := Wv (main_arg3 : DevRef τ sig)) (dz := 1#32) (dy := 0#32) (dx := 1#32) (M := Wv (main_v20 : DevRef τ sig))
    (a45 := Wv (main_v1136 : DevRef τ sig))
    (a46 := Wv (main_c_406 : DevRef τ sig)) (a47 := Wv (main_c_407 : DevRef τ sig)) (q0 := Wv (main_call46_v0 : DevRef τ sig))
    (q1 := Wv (main_call46_v1 : DevRef τ sig)) (q2 := Wv (main_call46_v2 : DevRef τ sig)) (q3 := Wv (main_call46_v3 : DevRef τ sig))
    (q4 := Wv (main_call46_v4 : DevRef τ sig)) (q5 := Wv (main_v1137 : DevRef τ sig)) (b0 := Wv (main_c_408 : DevRef τ sig))
    (b1 := Wv (main_v1138 : DevRef τ sig)) (b2 := Wv (main_v1139 : DevRef τ sig)) (b3 := Wv (main_c_409 : DevRef τ sig))
    (b4 := Wv (main_v1140 : DevRef τ sig)) (b5 := Wv (main_v1141 : DevRef τ sig)) (b6 := Wv (main_v1142 : DevRef τ sig))
    (b7 := Wv (main_v1143 : DevRef τ sig)) (b8 := Wv (main_v1144 : DevRef τ sig))
    (tap23_inside m c hW).2
    (nullary_pre m c hW 92 46 rfl rfl) (nullary_pre m c hW 92 47 rfl rfl) (unary_pre m c hW 93 0 rfl rfl)
    (unary_pre m c hW 93 1 rfl rfl) (binary_pre m c hW 93 2 rfl rfl) (unary_pre m c hW 93 3 rfl rfl)
    (unary_pre m c hW 93 4 rfl rfl) (binary_pre m c hW 93 5 rfl rfl) (nullary_pre m c hW 94 0 rfl rfl)
    (unary_pre m c hW 94 1 rfl rfl) (binary_pre m c hW 94 2 rfl rfl) (nullary_pre m c hW 94 3 rfl rfl)
    (unary_pre m c hW 94 4 rfl rfl) (binary_pre m c hW 94 5 rfl rfl) (ternary_pre m c hW 94 6 rfl rfl)
    (unary_pre m c hW 94 7 rfl rfl) (binary_pre m c hW 94 8 rfl rfl)

include hW in
/-- Tap 23: the row index, of NIDX and INSIDE as the buffers hold them. -/
theorem tap23_row_buf : Wv (main_v1148 : DevRef τ sig)
    = Cert.TapBridge.rowIdx bcast_S_S200000 (Wv (main_v1144 : DevRef τ sig)) (Wv (main_v1130 : DevRef τ sig)) :=
  row_compose (a37 := Wv (main_v1130 : DevRef τ sig)) (b8 := Wv (main_v1144 : DevRef τ sig))
    (b9 := Wv (main_c_410 : DevRef τ sig)) (b10 := Wv (main_v1145 : DevRef τ sig)) (b11 := Wv (main_v1146 : DevRef τ sig))
    (b12 := Wv (main_v1147 : DevRef τ sig)) (b13 := Wv (main_c_411 : DevRef τ sig)) (w0 := Wv (main_call47_v0 : DevRef τ sig))
    (w1 := Wv (main_call47_v1 : DevRef τ sig)) (w2 := Wv (main_v1148 : DevRef τ sig))
    (nullary_pre m c hW 94 9 rfl rfl) (unary_pre m c hW 94 10 rfl rfl) (binary_pre m c hW 94 11 rfl rfl)
    (binary_pre m c hW 94 12 rfl rfl) (nullary_pre m c hW 94 13 rfl rfl) (unary_pre m c hW 95 0 rfl rfl)
    (unary_pre m c hW 95 1 rfl rfl) (ternary_pre m c hW 95 2 rfl rfl)

include hW in
/-- TAP 23's ROW INDEX as one term of the coordinates, the offset words and the table. -/
theorem tap23_row : Wv (main_v1148 : DevRef τ sig) = rowT (Wv (main_arg3 : DevRef τ sig)) 1#32 0#32 1#32 (Wv (main_v20 : DevRef τ sig)) := by
  rw [tap23_row_buf m c hW, tap23_nidx m c hW, (tap23_inside m c hW).1]

/-! ### Tap 24: offset words (1, 1, 4294967295) -/

include hW in
/-- Tap 24: INSIDE and the neighbour's linear cell number. -/
theorem tap24_inside : Wv (main_v1177 : DevRef τ sig) = insideT (Wv (main_arg3 : DevRef τ sig)) 1#32 1#32 4294967295#32
    ∧ Wv (main_v1183 : DevRef τ sig) = nlinT (Wv (main_arg3 : DevRef τ sig)) 1#32 1#32 4294967295#32 :=
  inside_compose (coords := Wv (main_arg3 : DevRef τ sig)) (dz := 1#32) (dy := 1#32) (dx := 4294967295#32)
    (a0 := Wv (main_v1149 : DevRef τ sig)) (a1 := Wv (main_v1150 : DevRef τ sig)) (a2 := Wv (main_c_412 : DevRef τ sig))
    (a3 := Wv (main_v1151 : DevRef τ sig)) (a4 := Wv (main_v1152 : DevRef τ sig)) (a5 := Wv (main_v1153 : DevRef τ sig))
    (a6 := Wv (main_v1154 : DevRef τ sig)) (a7 := Wv (main_c_413 : DevRef τ sig)) (a8 := Wv (main_v1155 : DevRef τ sig))
    (a9 := Wv (main_v1156 : DevRef τ sig)) (a10 := Wv (main_v1157 : DevRef τ sig)) (a11 := Wv (main_v1158 : DevRef τ sig))
    (a12 := Wv (main_c_414 : DevRef τ sig)) (a13 := Wv (main_v1159 : DevRef τ sig)) (a14 := Wv (main_v1160 : DevRef τ sig))
    (a15 := Wv (main_c_415 : DevRef τ sig)) (a16 := Wv (main_v1161 : DevRef τ sig)) (a17 := Wv (main_v1162 : DevRef τ sig))
    (a18 := Wv (main_c_416 : DevRef τ sig)) (a19 := Wv (main_v1163 : DevRef τ sig)) (a20 := Wv (main_v1164 : DevRef τ sig))
    (a21 := Wv (main_v1165 : DevRef τ sig)) (a22 := Wv (main_c_417 : DevRef τ sig)) (a23 := Wv (main_v1166 : DevRef τ sig))
    (a24 := Wv (main_v1167 : DevRef τ sig)) (a25 := Wv (main_v1168 : DevRef τ sig)) (a26 := Wv (main_c_418 : DevRef τ sig))
    (a27 := Wv (main_v1169 : DevRef τ sig)) (a28 := Wv (main_v1170 : DevRef τ sig)) (a29 := Wv (main_v1171 : DevRef τ sig))
    (a30 := Wv (main_c_419 : DevRef τ sig)) (a31 := Wv (main_v1172 : DevRef τ sig)) (a32 := Wv (main_v1173 : DevRef τ sig))
    (a33 := Wv (main_v1174 : DevRef τ sig)) (a34 := Wv (main_c_420 : DevRef τ sig)) (a35 := Wv (main_v1175 : DevRef τ sig))
    (a36 := Wv (main_v1176 : DevRef τ sig)) (a37 := Wv (main_v1177 : DevRef τ sig)) (a38 := Wv (main_c_421 : DevRef τ sig))
    (a39 := Wv (main_v1178 : DevRef τ sig)) (a40 := Wv (main_v1179 : DevRef τ sig)) (a41 := Wv (main_v1180 : DevRef τ sig))
    (a42 := Wv (main_c_422 : DevRef τ sig)) (a43 := Wv (main_v1181 : DevRef τ sig)) (a44 := Wv (main_v1182 : DevRef τ sig))
    (a45 := Wv (main_v1183 : DevRef τ sig))
    (unary_pre m c hW 96 0 rfl rfl) (reshape_pre m c hW 96 1 rfl rfl) (nullary_pre m c hW 96 2 rfl rfl)
    (unary_pre m c hW 96 3 rfl rfl) (binary_pre m c hW 96 4 rfl rfl) (unary_pre m c hW 96 5 rfl rfl)
    (reshape_pre m c hW 96 6 rfl rfl) (nullary_pre m c hW 96 7 rfl rfl) (unary_pre m c hW 96 8 rfl rfl)
    (binary_pre m c hW 96 9 rfl rfl) (unary_pre m c hW 96 10 rfl rfl) (reshape_pre m c hW 96 11 rfl rfl)
    (nullary_pre m c hW 96 12 rfl rfl) (unary_pre m c hW 96 13 rfl rfl) (binary_pre m c hW 96 14 rfl rfl)
    (nullary_pre m c hW 96 15 rfl rfl) (unary_pre m c hW 96 16 rfl rfl) (binary_pre m c hW 96 17 rfl rfl)
    (nullary_pre m c hW 96 18 rfl rfl) (unary_pre m c hW 96 19 rfl rfl) (binary_pre m c hW 96 20 rfl rfl)
    (binary_pre m c hW 96 21 rfl rfl) (nullary_pre m c hW 96 22 rfl rfl) (unary_pre m c hW 96 23 rfl rfl)
    (binary_pre m c hW 96 24 rfl rfl) (binary_pre m c hW 96 25 rfl rfl) (nullary_pre m c hW 96 26 rfl rfl)
    (unary_pre m c hW 96 27 rfl rfl) (binary_pre m c hW 96 28 rfl rfl) (binary_pre m c hW 96 29 rfl rfl)
    (nullary_pre m c hW 96 30 rfl rfl) (unary_pre m c hW 96 31 rfl rfl) (binary_pre m c hW 96 32 rfl rfl)
    (binary_pre m c hW 96 33 rfl rfl) (nullary_pre m c hW 96 34 rfl rfl) (unary_pre m c hW 96 35 rfl rfl)
    (binary_pre m c hW 96 36 rfl rfl) (binary_pre m c hW 96 37 rfl rfl) (nullary_pre m c hW 96 38 rfl rfl)
    (unary_pre m c hW 96 39 rfl rfl) (binary_pre m c hW 96 40 rfl rfl) (binary_pre m c hW 96 41 rfl rfl)
    (nullary_pre m c hW 96 42 rfl rfl) (unary_pre m c hW 96 43 rfl rfl) (binary_pre m c hW 96 44 rfl rfl)
    (binary_pre m c hW 96 45 rfl rfl)

include hW in
/-- Tap 24: NIDX, looked up in the table the program holds in its map buffer. -/
theorem tap24_nidx : Wv (main_v1191 : DevRef τ sig) = nidxT (Wv (main_arg3 : DevRef τ sig)) 1#32 1#32 4294967295#32 (Wv (main_v20 : DevRef τ sig)) :=
  nidx_compose (coords := Wv (main_arg3 : DevRef τ sig)) (dz := 1#32) (dy := 1#32) (dx := 4294967295#32) (M := Wv (main_v20 : DevRef τ sig))
    (a45 := Wv (main_v1183 : DevRef τ sig))
    (a46 := Wv (main_c_423 : DevRef τ sig)) (a47 := Wv (main_c_424 : DevRef τ sig)) (q0 := Wv (main_call48_v0 : DevRef τ sig))
    (q1 := Wv (main_call48_v1 : DevRef τ sig)) (q2 := Wv (main_call48_v2 : DevRef τ sig)) (q3 := Wv (main_call48_v3 : DevRef τ sig))
    (q4 := Wv (main_call48_v4 : DevRef τ sig)) (q5 := Wv (main_v1184 : DevRef τ sig)) (b0 := Wv (main_c_425 : DevRef τ sig))
    (b1 := Wv (main_v1185 : DevRef τ sig)) (b2 := Wv (main_v1186 : DevRef τ sig)) (b3 := Wv (main_c_426 : DevRef τ sig))
    (b4 := Wv (main_v1187 : DevRef τ sig)) (b5 := Wv (main_v1188 : DevRef τ sig)) (b6 := Wv (main_v1189 : DevRef τ sig))
    (b7 := Wv (main_v1190 : DevRef τ sig)) (b8 := Wv (main_v1191 : DevRef τ sig))
    (tap24_inside m c hW).2
    (nullary_pre m c hW 96 46 rfl rfl) (nullary_pre m c hW 96 47 rfl rfl) (unary_pre m c hW 97 0 rfl rfl)
    (unary_pre m c hW 97 1 rfl rfl) (binary_pre m c hW 97 2 rfl rfl) (unary_pre m c hW 97 3 rfl rfl)
    (unary_pre m c hW 97 4 rfl rfl) (binary_pre m c hW 97 5 rfl rfl) (nullary_pre m c hW 98 0 rfl rfl)
    (unary_pre m c hW 98 1 rfl rfl) (binary_pre m c hW 98 2 rfl rfl) (nullary_pre m c hW 98 3 rfl rfl)
    (unary_pre m c hW 98 4 rfl rfl) (binary_pre m c hW 98 5 rfl rfl) (ternary_pre m c hW 98 6 rfl rfl)
    (unary_pre m c hW 98 7 rfl rfl) (binary_pre m c hW 98 8 rfl rfl)

include hW in
/-- Tap 24: the row index, of NIDX and INSIDE as the buffers hold them. -/
theorem tap24_row_buf : Wv (main_v1195 : DevRef τ sig)
    = Cert.TapBridge.rowIdx bcast_S_S200000 (Wv (main_v1191 : DevRef τ sig)) (Wv (main_v1177 : DevRef τ sig)) :=
  row_compose (a37 := Wv (main_v1177 : DevRef τ sig)) (b8 := Wv (main_v1191 : DevRef τ sig))
    (b9 := Wv (main_c_427 : DevRef τ sig)) (b10 := Wv (main_v1192 : DevRef τ sig)) (b11 := Wv (main_v1193 : DevRef τ sig))
    (b12 := Wv (main_v1194 : DevRef τ sig)) (b13 := Wv (main_c_428 : DevRef τ sig)) (w0 := Wv (main_call49_v0 : DevRef τ sig))
    (w1 := Wv (main_call49_v1 : DevRef τ sig)) (w2 := Wv (main_v1195 : DevRef τ sig))
    (nullary_pre m c hW 98 9 rfl rfl) (unary_pre m c hW 98 10 rfl rfl) (binary_pre m c hW 98 11 rfl rfl)
    (binary_pre m c hW 98 12 rfl rfl) (nullary_pre m c hW 98 13 rfl rfl) (unary_pre m c hW 99 0 rfl rfl)
    (unary_pre m c hW 99 1 rfl rfl) (ternary_pre m c hW 99 2 rfl rfl)

include hW in
/-- TAP 24's ROW INDEX as one term of the coordinates, the offset words and the table. -/
theorem tap24_row : Wv (main_v1195 : DevRef τ sig) = rowT (Wv (main_arg3 : DevRef τ sig)) 1#32 1#32 4294967295#32 (Wv (main_v20 : DevRef τ sig)) := by
  rw [tap24_row_buf m c hW, tap24_nidx m c hW, (tap24_inside m c hW).1]

/-! ### Tap 25: offset words (1, 1, 0) -/

include hW in
/-- Tap 25: INSIDE and the neighbour's linear cell number. -/
theorem tap25_inside : Wv (main_v1224 : DevRef τ sig) = insideT (Wv (main_arg3 : DevRef τ sig)) 1#32 1#32 0#32
    ∧ Wv (main_v1230 : DevRef τ sig) = nlinT (Wv (main_arg3 : DevRef τ sig)) 1#32 1#32 0#32 :=
  inside_compose (coords := Wv (main_arg3 : DevRef τ sig)) (dz := 1#32) (dy := 1#32) (dx := 0#32)
    (a0 := Wv (main_v1196 : DevRef τ sig)) (a1 := Wv (main_v1197 : DevRef τ sig)) (a2 := Wv (main_c_429 : DevRef τ sig))
    (a3 := Wv (main_v1198 : DevRef τ sig)) (a4 := Wv (main_v1199 : DevRef τ sig)) (a5 := Wv (main_v1200 : DevRef τ sig))
    (a6 := Wv (main_v1201 : DevRef τ sig)) (a7 := Wv (main_c_430 : DevRef τ sig)) (a8 := Wv (main_v1202 : DevRef τ sig))
    (a9 := Wv (main_v1203 : DevRef τ sig)) (a10 := Wv (main_v1204 : DevRef τ sig)) (a11 := Wv (main_v1205 : DevRef τ sig))
    (a12 := Wv (main_c_431 : DevRef τ sig)) (a13 := Wv (main_v1206 : DevRef τ sig)) (a14 := Wv (main_v1207 : DevRef τ sig))
    (a15 := Wv (main_c_432 : DevRef τ sig)) (a16 := Wv (main_v1208 : DevRef τ sig)) (a17 := Wv (main_v1209 : DevRef τ sig))
    (a18 := Wv (main_c_433 : DevRef τ sig)) (a19 := Wv (main_v1210 : DevRef τ sig)) (a20 := Wv (main_v1211 : DevRef τ sig))
    (a21 := Wv (main_v1212 : DevRef τ sig)) (a22 := Wv (main_c_434 : DevRef τ sig)) (a23 := Wv (main_v1213 : DevRef τ sig))
    (a24 := Wv (main_v1214 : DevRef τ sig)) (a25 := Wv (main_v1215 : DevRef τ sig)) (a26 := Wv (main_c_435 : DevRef τ sig))
    (a27 := Wv (main_v1216 : DevRef τ sig)) (a28 := Wv (main_v1217 : DevRef τ sig)) (a29 := Wv (main_v1218 : DevRef τ sig))
    (a30 := Wv (main_c_436 : DevRef τ sig)) (a31 := Wv (main_v1219 : DevRef τ sig)) (a32 := Wv (main_v1220 : DevRef τ sig))
    (a33 := Wv (main_v1221 : DevRef τ sig)) (a34 := Wv (main_c_437 : DevRef τ sig)) (a35 := Wv (main_v1222 : DevRef τ sig))
    (a36 := Wv (main_v1223 : DevRef τ sig)) (a37 := Wv (main_v1224 : DevRef τ sig)) (a38 := Wv (main_c_438 : DevRef τ sig))
    (a39 := Wv (main_v1225 : DevRef τ sig)) (a40 := Wv (main_v1226 : DevRef τ sig)) (a41 := Wv (main_v1227 : DevRef τ sig))
    (a42 := Wv (main_c_439 : DevRef τ sig)) (a43 := Wv (main_v1228 : DevRef τ sig)) (a44 := Wv (main_v1229 : DevRef τ sig))
    (a45 := Wv (main_v1230 : DevRef τ sig))
    (unary_pre m c hW 100 0 rfl rfl) (reshape_pre m c hW 100 1 rfl rfl) (nullary_pre m c hW 100 2 rfl rfl)
    (unary_pre m c hW 100 3 rfl rfl) (binary_pre m c hW 100 4 rfl rfl) (unary_pre m c hW 100 5 rfl rfl)
    (reshape_pre m c hW 100 6 rfl rfl) (nullary_pre m c hW 100 7 rfl rfl) (unary_pre m c hW 100 8 rfl rfl)
    (binary_pre m c hW 100 9 rfl rfl) (unary_pre m c hW 100 10 rfl rfl) (reshape_pre m c hW 100 11 rfl rfl)
    (nullary_pre m c hW 100 12 rfl rfl) (unary_pre m c hW 100 13 rfl rfl) (binary_pre m c hW 100 14 rfl rfl)
    (nullary_pre m c hW 100 15 rfl rfl) (unary_pre m c hW 100 16 rfl rfl) (binary_pre m c hW 100 17 rfl rfl)
    (nullary_pre m c hW 100 18 rfl rfl) (unary_pre m c hW 100 19 rfl rfl) (binary_pre m c hW 100 20 rfl rfl)
    (binary_pre m c hW 100 21 rfl rfl) (nullary_pre m c hW 100 22 rfl rfl) (unary_pre m c hW 100 23 rfl rfl)
    (binary_pre m c hW 100 24 rfl rfl) (binary_pre m c hW 100 25 rfl rfl) (nullary_pre m c hW 100 26 rfl rfl)
    (unary_pre m c hW 100 27 rfl rfl) (binary_pre m c hW 100 28 rfl rfl) (binary_pre m c hW 100 29 rfl rfl)
    (nullary_pre m c hW 100 30 rfl rfl) (unary_pre m c hW 100 31 rfl rfl) (binary_pre m c hW 100 32 rfl rfl)
    (binary_pre m c hW 100 33 rfl rfl) (nullary_pre m c hW 100 34 rfl rfl) (unary_pre m c hW 100 35 rfl rfl)
    (binary_pre m c hW 100 36 rfl rfl) (binary_pre m c hW 100 37 rfl rfl) (nullary_pre m c hW 100 38 rfl rfl)
    (unary_pre m c hW 100 39 rfl rfl) (binary_pre m c hW 100 40 rfl rfl) (binary_pre m c hW 100 41 rfl rfl)
    (nullary_pre m c hW 100 42 rfl rfl) (unary_pre m c hW 100 43 rfl rfl) (binary_pre m c hW 100 44 rfl rfl)
    (binary_pre m c hW 100 45 rfl rfl)

include hW in
/-- Tap 25: NIDX, looked up in the table the program holds in its map buffer. -/
theorem tap25_nidx : Wv (main_v1238 : DevRef τ sig) = nidxT (Wv (main_arg3 : DevRef τ sig)) 1#32 1#32 0#32 (Wv (main_v20 : DevRef τ sig)) :=
  nidx_compose (coords := Wv (main_arg3 : DevRef τ sig)) (dz := 1#32) (dy := 1#32) (dx := 0#32) (M := Wv (main_v20 : DevRef τ sig))
    (a45 := Wv (main_v1230 : DevRef τ sig))
    (a46 := Wv (main_c_440 : DevRef τ sig)) (a47 := Wv (main_c_441 : DevRef τ sig)) (q0 := Wv (main_call50_v0 : DevRef τ sig))
    (q1 := Wv (main_call50_v1 : DevRef τ sig)) (q2 := Wv (main_call50_v2 : DevRef τ sig)) (q3 := Wv (main_call50_v3 : DevRef τ sig))
    (q4 := Wv (main_call50_v4 : DevRef τ sig)) (q5 := Wv (main_v1231 : DevRef τ sig)) (b0 := Wv (main_c_442 : DevRef τ sig))
    (b1 := Wv (main_v1232 : DevRef τ sig)) (b2 := Wv (main_v1233 : DevRef τ sig)) (b3 := Wv (main_c_443 : DevRef τ sig))
    (b4 := Wv (main_v1234 : DevRef τ sig)) (b5 := Wv (main_v1235 : DevRef τ sig)) (b6 := Wv (main_v1236 : DevRef τ sig))
    (b7 := Wv (main_v1237 : DevRef τ sig)) (b8 := Wv (main_v1238 : DevRef τ sig))
    (tap25_inside m c hW).2
    (nullary_pre m c hW 100 46 rfl rfl) (nullary_pre m c hW 100 47 rfl rfl) (unary_pre m c hW 101 0 rfl rfl)
    (unary_pre m c hW 101 1 rfl rfl) (binary_pre m c hW 101 2 rfl rfl) (unary_pre m c hW 101 3 rfl rfl)
    (unary_pre m c hW 101 4 rfl rfl) (binary_pre m c hW 101 5 rfl rfl) (nullary_pre m c hW 102 0 rfl rfl)
    (unary_pre m c hW 102 1 rfl rfl) (binary_pre m c hW 102 2 rfl rfl) (nullary_pre m c hW 102 3 rfl rfl)
    (unary_pre m c hW 102 4 rfl rfl) (binary_pre m c hW 102 5 rfl rfl) (ternary_pre m c hW 102 6 rfl rfl)
    (unary_pre m c hW 102 7 rfl rfl) (binary_pre m c hW 102 8 rfl rfl)

include hW in
/-- Tap 25: the row index, of NIDX and INSIDE as the buffers hold them. -/
theorem tap25_row_buf : Wv (main_v1242 : DevRef τ sig)
    = Cert.TapBridge.rowIdx bcast_S_S200000 (Wv (main_v1238 : DevRef τ sig)) (Wv (main_v1224 : DevRef τ sig)) :=
  row_compose (a37 := Wv (main_v1224 : DevRef τ sig)) (b8 := Wv (main_v1238 : DevRef τ sig))
    (b9 := Wv (main_c_444 : DevRef τ sig)) (b10 := Wv (main_v1239 : DevRef τ sig)) (b11 := Wv (main_v1240 : DevRef τ sig))
    (b12 := Wv (main_v1241 : DevRef τ sig)) (b13 := Wv (main_c_445 : DevRef τ sig)) (w0 := Wv (main_call51_v0 : DevRef τ sig))
    (w1 := Wv (main_call51_v1 : DevRef τ sig)) (w2 := Wv (main_v1242 : DevRef τ sig))
    (nullary_pre m c hW 102 9 rfl rfl) (unary_pre m c hW 102 10 rfl rfl) (binary_pre m c hW 102 11 rfl rfl)
    (binary_pre m c hW 102 12 rfl rfl) (nullary_pre m c hW 102 13 rfl rfl) (unary_pre m c hW 103 0 rfl rfl)
    (unary_pre m c hW 103 1 rfl rfl) (ternary_pre m c hW 103 2 rfl rfl)

include hW in
/-- TAP 25's ROW INDEX as one term of the coordinates, the offset words and the table. -/
theorem tap25_row : Wv (main_v1242 : DevRef τ sig) = rowT (Wv (main_arg3 : DevRef τ sig)) 1#32 1#32 0#32 (Wv (main_v20 : DevRef τ sig)) := by
  rw [tap25_row_buf m c hW, tap25_nidx m c hW, (tap25_inside m c hW).1]

/-! ### Tap 26: offset words (1, 1, 1) -/

include hW in
/-- Tap 26: INSIDE and the neighbour's linear cell number. -/
theorem tap26_inside : Wv (main_v1271 : DevRef τ sig) = insideT (Wv (main_arg3 : DevRef τ sig)) 1#32 1#32 1#32
    ∧ Wv (main_v1277 : DevRef τ sig) = nlinT (Wv (main_arg3 : DevRef τ sig)) 1#32 1#32 1#32 :=
  inside_compose (coords := Wv (main_arg3 : DevRef τ sig)) (dz := 1#32) (dy := 1#32) (dx := 1#32)
    (a0 := Wv (main_v1243 : DevRef τ sig)) (a1 := Wv (main_v1244 : DevRef τ sig)) (a2 := Wv (main_c_446 : DevRef τ sig))
    (a3 := Wv (main_v1245 : DevRef τ sig)) (a4 := Wv (main_v1246 : DevRef τ sig)) (a5 := Wv (main_v1247 : DevRef τ sig))
    (a6 := Wv (main_v1248 : DevRef τ sig)) (a7 := Wv (main_c_447 : DevRef τ sig)) (a8 := Wv (main_v1249 : DevRef τ sig))
    (a9 := Wv (main_v1250 : DevRef τ sig)) (a10 := Wv (main_v1251 : DevRef τ sig)) (a11 := Wv (main_v1252 : DevRef τ sig))
    (a12 := Wv (main_c_448 : DevRef τ sig)) (a13 := Wv (main_v1253 : DevRef τ sig)) (a14 := Wv (main_v1254 : DevRef τ sig))
    (a15 := Wv (main_c_449 : DevRef τ sig)) (a16 := Wv (main_v1255 : DevRef τ sig)) (a17 := Wv (main_v1256 : DevRef τ sig))
    (a18 := Wv (main_c_450 : DevRef τ sig)) (a19 := Wv (main_v1257 : DevRef τ sig)) (a20 := Wv (main_v1258 : DevRef τ sig))
    (a21 := Wv (main_v1259 : DevRef τ sig)) (a22 := Wv (main_c_451 : DevRef τ sig)) (a23 := Wv (main_v1260 : DevRef τ sig))
    (a24 := Wv (main_v1261 : DevRef τ sig)) (a25 := Wv (main_v1262 : DevRef τ sig)) (a26 := Wv (main_c_452 : DevRef τ sig))
    (a27 := Wv (main_v1263 : DevRef τ sig)) (a28 := Wv (main_v1264 : DevRef τ sig)) (a29 := Wv (main_v1265 : DevRef τ sig))
    (a30 := Wv (main_c_453 : DevRef τ sig)) (a31 := Wv (main_v1266 : DevRef τ sig)) (a32 := Wv (main_v1267 : DevRef τ sig))
    (a33 := Wv (main_v1268 : DevRef τ sig)) (a34 := Wv (main_c_454 : DevRef τ sig)) (a35 := Wv (main_v1269 : DevRef τ sig))
    (a36 := Wv (main_v1270 : DevRef τ sig)) (a37 := Wv (main_v1271 : DevRef τ sig)) (a38 := Wv (main_c_455 : DevRef τ sig))
    (a39 := Wv (main_v1272 : DevRef τ sig)) (a40 := Wv (main_v1273 : DevRef τ sig)) (a41 := Wv (main_v1274 : DevRef τ sig))
    (a42 := Wv (main_c_456 : DevRef τ sig)) (a43 := Wv (main_v1275 : DevRef τ sig)) (a44 := Wv (main_v1276 : DevRef τ sig))
    (a45 := Wv (main_v1277 : DevRef τ sig))
    (unary_pre m c hW 104 0 rfl rfl) (reshape_pre m c hW 104 1 rfl rfl) (nullary_pre m c hW 104 2 rfl rfl)
    (unary_pre m c hW 104 3 rfl rfl) (binary_pre m c hW 104 4 rfl rfl) (unary_pre m c hW 104 5 rfl rfl)
    (reshape_pre m c hW 104 6 rfl rfl) (nullary_pre m c hW 104 7 rfl rfl) (unary_pre m c hW 104 8 rfl rfl)
    (binary_pre m c hW 104 9 rfl rfl) (unary_pre m c hW 104 10 rfl rfl) (reshape_pre m c hW 104 11 rfl rfl)
    (nullary_pre m c hW 104 12 rfl rfl) (unary_pre m c hW 104 13 rfl rfl) (binary_pre m c hW 104 14 rfl rfl)
    (nullary_pre m c hW 104 15 rfl rfl) (unary_pre m c hW 104 16 rfl rfl) (binary_pre m c hW 104 17 rfl rfl)
    (nullary_pre m c hW 104 18 rfl rfl) (unary_pre m c hW 104 19 rfl rfl) (binary_pre m c hW 104 20 rfl rfl)
    (binary_pre m c hW 104 21 rfl rfl) (nullary_pre m c hW 104 22 rfl rfl) (unary_pre m c hW 104 23 rfl rfl)
    (binary_pre m c hW 104 24 rfl rfl) (binary_pre m c hW 104 25 rfl rfl) (nullary_pre m c hW 104 26 rfl rfl)
    (unary_pre m c hW 104 27 rfl rfl) (binary_pre m c hW 104 28 rfl rfl) (binary_pre m c hW 104 29 rfl rfl)
    (nullary_pre m c hW 104 30 rfl rfl) (unary_pre m c hW 104 31 rfl rfl) (binary_pre m c hW 104 32 rfl rfl)
    (binary_pre m c hW 104 33 rfl rfl) (nullary_pre m c hW 104 34 rfl rfl) (unary_pre m c hW 104 35 rfl rfl)
    (binary_pre m c hW 104 36 rfl rfl) (binary_pre m c hW 104 37 rfl rfl) (nullary_pre m c hW 104 38 rfl rfl)
    (unary_pre m c hW 104 39 rfl rfl) (binary_pre m c hW 104 40 rfl rfl) (binary_pre m c hW 104 41 rfl rfl)
    (nullary_pre m c hW 104 42 rfl rfl) (unary_pre m c hW 104 43 rfl rfl) (binary_pre m c hW 104 44 rfl rfl)
    (binary_pre m c hW 104 45 rfl rfl)

include hW in
/-- Tap 26: NIDX, looked up in the table the program holds in its map buffer. -/
theorem tap26_nidx : Wv (main_v1285 : DevRef τ sig) = nidxT (Wv (main_arg3 : DevRef τ sig)) 1#32 1#32 1#32 (Wv (main_v20 : DevRef τ sig)) :=
  nidx_compose (coords := Wv (main_arg3 : DevRef τ sig)) (dz := 1#32) (dy := 1#32) (dx := 1#32) (M := Wv (main_v20 : DevRef τ sig))
    (a45 := Wv (main_v1277 : DevRef τ sig))
    (a46 := Wv (main_c_457 : DevRef τ sig)) (a47 := Wv (main_c_458 : DevRef τ sig)) (q0 := Wv (main_call52_v0 : DevRef τ sig))
    (q1 := Wv (main_call52_v1 : DevRef τ sig)) (q2 := Wv (main_call52_v2 : DevRef τ sig)) (q3 := Wv (main_call52_v3 : DevRef τ sig))
    (q4 := Wv (main_call52_v4 : DevRef τ sig)) (q5 := Wv (main_v1278 : DevRef τ sig)) (b0 := Wv (main_c_459 : DevRef τ sig))
    (b1 := Wv (main_v1279 : DevRef τ sig)) (b2 := Wv (main_v1280 : DevRef τ sig)) (b3 := Wv (main_c_460 : DevRef τ sig))
    (b4 := Wv (main_v1281 : DevRef τ sig)) (b5 := Wv (main_v1282 : DevRef τ sig)) (b6 := Wv (main_v1283 : DevRef τ sig))
    (b7 := Wv (main_v1284 : DevRef τ sig)) (b8 := Wv (main_v1285 : DevRef τ sig))
    (tap26_inside m c hW).2
    (nullary_pre m c hW 104 46 rfl rfl) (nullary_pre m c hW 104 47 rfl rfl) (unary_pre m c hW 105 0 rfl rfl)
    (unary_pre m c hW 105 1 rfl rfl) (binary_pre m c hW 105 2 rfl rfl) (unary_pre m c hW 105 3 rfl rfl)
    (unary_pre m c hW 105 4 rfl rfl) (binary_pre m c hW 105 5 rfl rfl) (nullary_pre m c hW 106 0 rfl rfl)
    (unary_pre m c hW 106 1 rfl rfl) (binary_pre m c hW 106 2 rfl rfl) (nullary_pre m c hW 106 3 rfl rfl)
    (unary_pre m c hW 106 4 rfl rfl) (binary_pre m c hW 106 5 rfl rfl) (ternary_pre m c hW 106 6 rfl rfl)
    (unary_pre m c hW 106 7 rfl rfl) (binary_pre m c hW 106 8 rfl rfl)

include hW in
/-- Tap 26: the row index, of NIDX and INSIDE as the buffers hold them. -/
theorem tap26_row_buf : Wv (main_v1289 : DevRef τ sig)
    = Cert.TapBridge.rowIdx bcast_S_S200000 (Wv (main_v1285 : DevRef τ sig)) (Wv (main_v1271 : DevRef τ sig)) :=
  row_compose (a37 := Wv (main_v1271 : DevRef τ sig)) (b8 := Wv (main_v1285 : DevRef τ sig))
    (b9 := Wv (main_c_461 : DevRef τ sig)) (b10 := Wv (main_v1286 : DevRef τ sig)) (b11 := Wv (main_v1287 : DevRef τ sig))
    (b12 := Wv (main_v1288 : DevRef τ sig)) (b13 := Wv (main_c_462 : DevRef τ sig)) (w0 := Wv (main_call53_v0 : DevRef τ sig))
    (w1 := Wv (main_call53_v1 : DevRef τ sig)) (w2 := Wv (main_v1289 : DevRef τ sig))
    (nullary_pre m c hW 106 9 rfl rfl) (unary_pre m c hW 106 10 rfl rfl) (binary_pre m c hW 106 11 rfl rfl)
    (binary_pre m c hW 106 12 rfl rfl) (nullary_pre m c hW 106 13 rfl rfl) (unary_pre m c hW 107 0 rfl rfl)
    (unary_pre m c hW 107 1 rfl rfl) (ternary_pre m c hW 107 2 rfl rfl)

include hW in
/-- TAP 26's ROW INDEX as one term of the coordinates, the offset words and the table. -/
theorem tap26_row : Wv (main_v1289 : DevRef τ sig) = rowT (Wv (main_arg3 : DevRef τ sig)) 1#32 1#32 1#32 (Wv (main_v20 : DevRef τ sig)) := by
  rw [tap26_row_buf m c hW, tap26_nidx m c hW, (tap26_inside m c hW).1]

/-! ## All taps at once: the row indices the tail reads -/

include hW in
/-- TAP k's ROW INDICES, as the tail reads them, are the row index of NIDX and INSIDE for the tap's offset words (the
    offset tables dz, dy, dx: each runs through −1, 0, 1, dx fastest), NIDX looked up in the table the program holds
    in its map buffer. -/
theorem idxOf_eq (k : Fin 27) :
    Cert.KernelIdeal.Tail.idxOf Wv k
      = rowT (Wv (main_arg3 : DevRef τ sig)) (Cert.Spec.dz k) (Cert.Spec.dy k) (Cert.Spec.dx k)
          (Wv (main_v20 : DevRef τ sig)) := by
  fin_cases k
  · exact tap0_row m c hW
  · exact tap1_row m c hW
  · exact tap2_row m c hW
  · exact tap3_row m c hW
  · exact tap4_row m c hW
  · exact tap5_row m c hW
  · exact tap6_row m c hW
  · exact tap7_row m c hW
  · exact tap8_row m c hW
  · exact tap9_row m c hW
  · exact tap10_row m c hW
  · exact tap11_row m c hW
  · exact tap12_row m c hW
  · exact tap13_row m c hW
  · exact tap14_row m c hW
  · exact tap15_row m c hW
  · exact tap16_row m c hW
  · exact tap17_row m c hW
  · exact tap18_row m c hW
  · exact tap19_row m c hW
  · exact tap20_row m c hW
  · exact tap21_row m c hW
  · exact tap22_row m c hW
  · exact tap23_row m c hW
  · exact tap24_row m c hW
  · exact tap25_row m c hW
  · exact tap26_row m c hW

include hW in
/-- THE SAME IN THE TARGET FORM: once the coordinates buffer is known to hold `coords` and the map buffer the coordinate
    map of `coords`, tap k's row indices are the row index of the target's NIDX and INSIDE. -/
theorem idxOf_spec (coords : IVec S200000x3 32) (hcoords : Wv (main_arg3 : DevRef τ sig) = coords)
    (hM : Wv (main_v20 : DevRef τ sig) = Cert.Spec.cmap coords) (k : Fin 27) :
    Cert.KernelIdeal.Tail.idxOf Wv k
      = Cert.TapBridge.rowIdx Cert.Spec.hb0 (Cert.Spec.nidxOf coords k) (Cert.Spec.insideOf coords k) := by
  have h := idxOf_eq m c hW k
  rw [hcoords, hM] at h
  exact h

end Taps

end Cert.KernelIdeal.Head
end
-- ==== Proof.KerValueFinal.lean ====
/-
  THE KERNEL PROGRAM'S VALUE, with no hypothesis, over the extended reals.

  The 27 taps' row-index buffers hold, when the region is entered, the row indices of the taps' neighbour look-ups in
  the coordinate map of the coordinates argument: the coordinates buffer is the argument, unchanged, and the map buffer
  holds its coordinate map. With these the program's result array is the kernel's result as a function of the four
  arguments, and the arguments end unchanged.
-/
import proofs.«120445_j5549097746519_2_alg».proof.Proof.KerValue
import proofs.«120445_j5549097746519_2_alg».proof.Proof.KerHead

set_option maxRecDepth 16384

noncomputable section

namespace Cert.KernelIdeal.Value

open Cert.KernelIdeal Cert.KernelIdeal.Gen Cert.KernelIdeal.GenP Cert.KernelIdeal.Frame Cert.KernelIdeal.Head
open Idealize.ShloMosaic Idealize.ShloMosaic.TcCoe Idealize.SL.Sem
open Idealize.ShloMosaic.ValueIdx

attribute [local irreducible] StableHlo.after

variable (m : (ℓ : Loc nD τ sig) → Buf (Elt Ideal) ℓ) (ρ : Dev nD → PrngReg)

/-- The map buffer holds, when the region is entered, the coordinate map of the coordinates argument. -/
theorem V0_cmap (c : Dev nD) : (V0 m c (Proc.devRef .tc main_v20) : IVec S5529600 32) = Cert.Spec.cmap (argCoords m c) :=
  (W_coordMap m c (W := V0 m c) rfl).trans rfl

/-- Tap k's row-index buffer holds, when the region is entered, the row indices of the tap's neighbour look-up. -/
theorem idxOf_V0 (c : Dev nD) (k : Fin 27) :
    Cert.KernelIdeal.Tail.idxOf (V0 m c) k
      = Cert.TapBridge.rowIdx Cert.Spec.hb0 (Cert.Spec.nidxOf (argCoords m c) k) (Cert.Spec.insideOf (argCoords m c) k) :=
  idxOf_spec m c (Wv := V0 m c) rfl (argCoords m c) (V0_arg3 m c) (V0_cmap m c) k

/-- THE KERNEL PROGRAM'S VALUE: the program runs, its result array ends at the kernel's result as a function of the
    four arguments, and the arguments end unchanged. -/
theorem kernel_value' :
    θ_run (Cert.KernelIdeal.defs (F := Ideal)) (onTc (τ := Cert.KernelIdeal.τ) (Cert.KernelIdeal.main (F := Ideal))) ⟨m, fun _ => 0, ρ⟩
      (fun r => ∀ c : Dev nD,
        r.2.mem ((c.tc : Thread nD τ).loc main_v1595) = Cert.Spec.kerOut (argX m c) (argW m c) (argBias m c) (argCoords m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  kernel_value m ρ (idxOf_V0 m)

end Cert.KernelIdeal.Value

end
-- ==== Proof.RefReadRiseW.lean ====
/-
  EACH WINDOW OF THE REFERENCE PROGRAM IS A LINE IN SINGLE-ASSIGNMENT FORM.

  The reference runs 2430 host operations, written as 37 windows of 60 to 68 operations. Its buffers are numbered: the
  four arguments 0 … 3, then one buffer per operation, in the order of the operations, 4 … 2433. Every operation
  writes the buffer of its own number and reads only buffers of smaller numbers. So each window is a rising line
  between its first buffer's number and the next window's first. (An operation of an inlined
  function is the plain operation at its buffers.)
-/
import proofs.«120445_j5549097746519_2_alg».proof.Proof.RefRunP
import proofs.«120445_j5549097746519_2_alg».proof.Proof.LibSsaAfter

set_option maxRecDepth 16384

noncomputable section

namespace Cert.ReferenceIdeal.Read

open Cert.ReferenceIdeal Cert.ReferenceIdeal.Gen Cert.ReferenceIdeal.ValueP
open Idealize.ShloMosaic Idealize.ShloMosaic.TcCoe Idealize.SL.Sem Idealize.ShloMosaic.StableHlo Cert.LibSsaAfter

variable {F : FTy → Type} [FloatOps F]

/-! ## Each window is a rising line -/

theorem ops0_rising : Rising (τ := τ) 4 64 (ops0 (F := F)) := by
  unfold ops0
  rising_line
theorem ops1_rising : Rising (τ := τ) 64 132 (ops1 (F := F)) := by
  unfold ops1
  rising_line
theorem ops2_rising : Rising (τ := τ) 132 197 (ops2 (F := F)) := by
  unfold ops2
  rising_line
theorem ops3_rising : Rising (τ := τ) 197 265 (ops3 (F := F)) := by
  unfold ops3
  rising_line
theorem ops4_rising : Rising (τ := τ) 265 328 (ops4 (F := F)) := by
  unfold ops4
  rising_line
theorem ops5_rising : Rising (τ := τ) 328 396 (ops5 (F := F)) := by
  unfold ops5
  rising_line
theorem ops6_rising : Rising (τ := τ) 396 461 (ops6 (F := F)) := by
  unfold ops6
  rising_line
theorem ops7_rising : Rising (τ := τ) 461 524 (ops7 (F := F)) := by
  unfold ops7
  rising_line
theorem ops8_rising : Rising (τ := τ) 524 592 (ops8 (F := F)) := by
  unfold ops8
  rising_line
theorem ops9_rising : Rising (τ := τ) 592 660 (ops9 (F := F)) := by
  unfold ops9
  rising_line
theorem ops10_rising : Rising (τ := τ) 660 725 (ops10 (F := F)) := by
  unfold ops10
  rising_line
theorem ops11_rising : Rising (τ := τ) 725 788 (ops11 (F := F)) := by
  unfold ops11
  rising_line
theorem ops12_rising : Rising (τ := τ) 788 856 (ops12 (F := F)) := by
  unfold ops12
  rising_line
theorem ops13_rising : Rising (τ := τ) 856 924 (ops13 (F := F)) := by
  unfold ops13
  rising_line
theorem ops14_rising : Rising (τ := τ) 924 989 (ops14 (F := F)) := by
  unfold ops14
  rising_line
theorem ops15_rising : Rising (τ := τ) 989 1052 (ops15 (F := F)) := by
  unfold ops15
  rising_line
theorem ops16_rising : Rising (τ := τ) 1052 1120 (ops16 (F := F)) := by
  unfold ops16
  rising_line
theorem ops17_rising : Rising (τ := τ) 1120 1188 (ops17 (F := F)) := by
  unfold ops17
  rising_line
theorem ops18_rising : Rising (τ := τ) 1188 1253 (ops18 (F := F)) := by
  unfold ops18
  rising_line
theorem ops19_rising : Rising (τ := τ) 1253 1316 (ops19 (F := F)) := by
  unfold ops19
  rising_line
theorem ops20_rising : Rising (τ := τ) 1316 1384 (ops20 (F := F)) := by
  unfold ops20
  rising_line
theorem ops21_rising : Rising (τ := τ) 1384 1452 (ops21 (F := F)) := by
  unfold ops21
  rising_line
theorem ops22_rising : Rising (τ := τ) 1452 1517 (ops22 (F := F)) := by
  unfold ops22
  rising_line
theorem ops23_rising : Rising (τ := τ) 1517 1580 (ops23 (F := F)) := by
  unfold ops23
  rising_line
theorem ops24_rising : Rising (τ := τ) 1580 1648 (ops24 (F := F)) := by
  unfold ops24
  rising_line
theorem ops25_rising : Rising (τ := τ) 1648 1713 (ops25 (F := F)) := by
  unfold ops25
  rising_line
theorem ops26_rising : Rising (τ := τ) 1713 1781 (ops26 (F := F)) := by
  unfold ops26
  rising_line
theorem ops27_rising : Rising (τ := τ) 1781 1844 (ops27 (F := F)) := by
  unfold ops27
  rising_line
theorem ops28_rising : Rising (τ := τ) 1844 1912 (ops28 (F := F)) := by
  unfold ops28
  rising_line
theorem ops29_rising : Rising (τ := τ) 1912 1977 (ops29 (F := F)) := by
  unfold ops29
  rising_line
theorem ops30_rising : Rising (τ := τ) 1977 2045 (ops30 (F := F)) := by
  unfold ops30
  rising_line
theorem ops31_rising : Rising (τ := τ) 2045 2108 (ops31 (F := F)) := by
  unfold ops31
  rising_line
theorem ops32_rising : Rising (τ := τ) 2108 2176 (ops32 (F := F)) := by
  unfold ops32
  rising_line
theorem ops33_rising : Rising (τ := τ) 2176 2241 (ops33 (F := F)) := by
  unfold ops33
  rising_line
theorem ops34_rising : Rising (τ := τ) 2241 2304 (ops34 (F := F)) := by
  unfold ops34
  rising_line
theorem ops35_rising : Rising (τ := τ) 2304 2372 (ops35 (F := F)) := by
  unfold ops35
  rising_line
theorem ops36_rising : Rising (τ := τ) 2372 2434 (ops36 (F := F)) := by
  unfold ops36
  rising_line

end Cert.ReferenceIdeal.Read

end
-- ==== Proof.LibSsaWindow.lean ====
/-
  Reading one operation of a LONG line of host operations through a WINDOW of it, the final contents NAMED.

  A long line is written as a concatenation of shorter lists, its windows. An operation is then found by its position
  in its own window instead of its position in the whole line; all that is needed is that every
  operation of the window is an operation of the line (`win ⊆ ops`, which for a concatenation is a chain of
  `List.subset_append_left` / `List.subset_append_of_subset_right`).

  The final contents are named: a valuation `W` with `hW : W = after ops V`. The statements are those of the step "by
  position in a literal line" — at the end of a line in single-assignment form, a buffer holds its own operation of
  what its operands hold at the end of the line — but about `W`, a variable. The equations are then equations between
  applications of `W` to buffers, and compose by substitution.
-/
import proofs.«120445_j5549097746519_2_alg».proof.Proof.LibSsaAfter

noncomputable section

namespace Cert.LibSsaWindow

open Idealize.ShloMosaic Idealize.ShloMosaic.StableHlo Cert.LibSsaAfter

variable {τ : Topo} {sig : RefSig} {Val : EltTy → Type}
variable {x a b c y : Ref sig .tc} {lo hi : ℕ} {ops win : List (HloOp τ sig Val)} {V W : Valuation τ sig Val}

/-- A buffer numbered below everything the line writes holds at the end what it held at the start. -/
theorem kept_of_lt (h : Rising lo hi ops) (hW : W = after ops V) {d : DevRef τ sig} (hd : rk d < lo) : W d = V d := by
  subst hW
  exact after_of_lt h V hd

theorem nullary_at_win (h : Rising lo hi ops) (hW : W = after ops V) (hw : win ⊆ ops) (i : ℕ)
    {v : y.ty.Contents Val} {hy} (hi' : win[i]? = some (nullary (τ := τ) y v hy)) :
    W (Proc.devRef .tc y) = v := by
  subst hW
  exact nullary_at h V v hy (hw (List.mem_of_getElem? hi'))

theorem unary_at_win (h : Rising lo hi ops) (hW : W = after ops V) (hw : win ⊆ ops) (i : ℕ)
    {f : x.ty.Contents Val → y.ty.Contents Val} {hx hy} (hi' : win[i]? = some (unary (τ := τ) x y f hx hy))
    (hxy : x ≠ y := by decide) : W (Proc.devRef .tc y) = f (W (Proc.devRef .tc x)) := by
  subst hW
  exact unary_at h V f hx hy (hw (List.mem_of_getElem? hi')) hxy

theorem reshape_at_win (h : Rising lo hi ops) (hW : W = after ops V) (hw : win ⊆ ops) (i : ℕ) {he hn hx hy}
    (hi' : win[i]? = some (reshape (τ := τ) (Val := Val) x y he hn hx hy)) (hxy : x ≠ y := by decide) :
    W (Proc.devRef .tc y) = fun j => he ▸ shapeCast y.ty.shape (W (Proc.devRef .tc x)) hn j := by
  subst hW
  exact reshape_at h V he hn hx hy (hw (List.mem_of_getElem? hi')) hxy

theorem binary_at_win (h : Rising lo hi ops) (hW : W = after ops V) (hw : win ⊆ ops) (i : ℕ)
    {f : a.ty.Contents Val → b.ty.Contents Val → y.ty.Contents Val} {ha hb hy}
    (hi' : win[i]? = some (binary (τ := τ) a b y f ha hb hy)) (hay : a ≠ y := by decide) (hby : b ≠ y := by decide) :
    W (Proc.devRef .tc y) = f (W (Proc.devRef .tc a)) (W (Proc.devRef .tc b)) := by
  subst hW
  exact binary_at h V f ha hb hy (hw (List.mem_of_getElem? hi')) hay hby

theorem ternary_at_win (h : Rising lo hi ops) (hW : W = after ops V) (hw : win ⊆ ops) (i : ℕ)
    {f : c.ty.Contents Val → a.ty.Contents Val → b.ty.Contents Val → y.ty.Contents Val} {hc ha hb hy}
    (hi' : win[i]? = some (ternary (τ := τ) c a b y f hc ha hb hy)) (hcy : c ≠ y := by decide)
    (hay : a ≠ y := by decide) (hby : b ≠ y := by decide) :
    W (Proc.devRef .tc y) = f (W (Proc.devRef .tc c)) (W (Proc.devRef .tc a)) (W (Proc.devRef .tc b)) := by
  subst hW
  exact ternary_at h V f hc ha hb hy (hw (List.mem_of_getElem? hi')) hcy hay hby

end Cert.LibSsaWindow

end
-- ==== Proof.RefReadRise.lean ====
/-
  THE REFERENCE PROGRAM IS A LINE IN SINGLE-ASSIGNMENT FORM, and its arguments keep their contents.

  The reference runs 2430 host operations, written as 37 windows of 60 to 68 operations. Its buffers are numbered: the
  four arguments 0 … 3, then one buffer per operation, in the order of the operations, 4 … 2433. Every operation
  writes the buffer of its own number and reads only buffers of smaller numbers. So each window is a rising line
  between its first buffer's number and the next window's, and the whole program — the windows one after the other —
  is a rising line from 4 to 2434 (each window is shown rising on its own first).

  Two consequences are stated here. An operation of a window is an operation of the program (`partJ`), so that the
  final contents can be read one operation at a time by the operation's position in its window. And the four
  arguments, numbered below every buffer that is written, hold at the end what they held at the start.
-/
import proofs.«120445_j5549097746519_2_alg».proof.Proof.RefRunQ
import proofs.«120445_j5549097746519_2_alg».proof.Proof.RefReadRiseW
import proofs.«120445_j5549097746519_2_alg».proof.Proof.LibSsaWindow

set_option maxRecDepth 16384

noncomputable section

namespace Cert.ReferenceIdeal.Read

open Cert.ReferenceIdeal Cert.ReferenceIdeal.Gen Cert.ReferenceIdeal.ValueP
open Idealize.ShloMosaic Idealize.ShloMosaic.TcCoe Idealize.SL.Sem Idealize.ShloMosaic.StableHlo Cert.LibSsaAfter
  Cert.LibSsaWindow

variable {F : FTy → Type} [FloatOps F]

/-! ## The program is a rising line -/

/-- The 2430 operations write the buffers numbered 4 … 2433 one after the other, each reading only buffers of smaller
    numbers. -/
theorem ops_rising : Rising (τ := τ) 4 2434 (ops (F := F)) := by
  unfold ops
  exact Rising.append (Rising.append (Rising.append (Rising.append (Rising.append (Rising.append (Rising.append
    (Rising.append (Rising.append (Rising.append (Rising.append (Rising.append (Rising.append (Rising.append
    (Rising.append (Rising.append (Rising.append (Rising.append (Rising.append (Rising.append (Rising.append
    (Rising.append (Rising.append (Rising.append (Rising.append (Rising.append (Rising.append (Rising.append
    (Rising.append (Rising.append (Rising.append (Rising.append (Rising.append (Rising.append (Rising.append
    (Rising.append ops36_rising ops35_rising) ops34_rising) ops33_rising) ops32_rising) ops31_rising) ops30_rising)
    ops29_rising) ops28_rising) ops27_rising) ops26_rising) ops25_rising) ops24_rising) ops23_rising) ops22_rising)
    ops21_rising) ops20_rising) ops19_rising) ops18_rising) ops17_rising) ops16_rising) ops15_rising) ops14_rising)
    ops13_rising) ops12_rising) ops11_rising) ops10_rising) ops9_rising) ops8_rising) ops7_rising) ops6_rising)
    ops5_rising) ops4_rising) ops3_rising) ops2_rising) ops1_rising) ops0_rising

/-! ## An operation of a window is an operation of the program -/

theorem part0 : (ops0 (F := F)) ⊆ ops := by
  unfold ops
  exact List.subset_append_left _ _
theorem part1 : (ops1 (F := F)) ⊆ ops := by
  unfold ops
  exact List.subset_append_of_subset_right _ (List.subset_append_left _ _)
theorem part2 : (ops2 (F := F)) ⊆ ops := by
  unfold ops
  exact List.subset_append_of_subset_right _ (List.subset_append_of_subset_right _ (List.subset_append_left _ _))
theorem part3 : (ops3 (F := F)) ⊆ ops := by
  unfold ops
  exact List.subset_append_of_subset_right _ (List.subset_append_of_subset_right _ (List.subset_append_of_subset_right
    _ (List.subset_append_left _ _)))
theorem part4 : (ops4 (F := F)) ⊆ ops := by
  unfold ops
  exact List.subset_append_of_subset_right _ (List.subset_append_of_subset_right _ (List.subset_append_of_subset_right
    _ (List.subset_append_of_subset_right _ (List.subset_append_left _ _))))
theorem part5 : (ops5 (F := F)) ⊆ ops := by
  unfold ops
  exact List.subset_append_of_subset_right _ (List.subset_append_of_subset_right _ (List.subset_append_of_subset_right
    _ (List.subset_append_of_subset_right _ (List.subset_append_of_subset_right _ (List.subset_append_left _ _)))))
theorem part6 : (ops6 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_left _ _))))))
theorem part7 : (ops7 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_left _ _)))))))
theorem part8 : (ops8 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_left _ _))))))))
theorem part9 : (ops9 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_left _ _)))))))))
theorem part10 : (ops10 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_left _ _))))))))))
theorem part11 : (ops11 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_left _
    _)))))))))))
theorem part12 : (ops12 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_left _ _))))))))))))
theorem part13 : (ops13 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_left _ _)))))))))))))
theorem part14 : (ops14 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_left _
    _))))))))))))))
theorem part15 : (ops15 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_left _ _)))))))))))))))
theorem part16 : (ops16 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_left _ _))))))))))))))))
theorem part17 : (ops17 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_left _
    _)))))))))))))))))
theorem part18 : (ops18 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_left _ _))))))))))))))))))
theorem part19 : (ops19 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_left _ _)))))))))))))))))))
theorem part20 : (ops20 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_left _
    _))))))))))))))))))))
theorem part21 : (ops21 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_left _ _)))))))))))))))))))))
theorem part22 : (ops22 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_left _ _))))))))))))))))))))))
theorem part23 : (ops23 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_left _
    _)))))))))))))))))))))))
theorem part24 : (ops24 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_left _ _))))))))))))))))))))))))
theorem part25 : (ops25 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_left _ _)))))))))))))))))))))))))
theorem part26 : (ops26 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_left _
    _))))))))))))))))))))))))))
theorem part27 : (ops27 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_left _ _)))))))))))))))))))))))))))
theorem part28 : (ops28 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_left _ _))))))))))))))))))))))))))))
theorem part29 : (ops29 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_left _
    _)))))))))))))))))))))))))))))
theorem part30 : (ops30 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_left _ _))))))))))))))))))))))))))))))
theorem part31 : (ops31 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_left _ _)))))))))))))))))))))))))))))))
theorem part32 : (ops32 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_left _
    _))))))))))))))))))))))))))))))))
theorem part33 : (ops33 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_left _ _)))))))))))))))))))))))))))))))))
theorem part34 : (ops34 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_left _ _))))))))))))))))))))))))))))))))))
theorem part35 : (ops35 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_left _
    _)))))))))))))))))))))))))))))))))))
theorem part36 : (ops36 (F := F)) ⊆ ops := by
  unfold ops
  exact List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.subset_append_of_subset_right _ (List.subset_append_of_subset_right _ (List.subset_append_of_subset_right
    _ (List.Subset.refl _))))))))))))))))))))))))))))))))))))

/-! ## The arguments keep their contents

The final contents are named `W` (`hW : W = after ops V0`), as everywhere they are read back. -/

section Frame
variable {W V0 : Valuation τ sig (Elt F)} (hW : W = after (ops (F := F)) V0)
include hW

/-- The features are not written. -/
theorem W_arg0 : W (Proc.devRef .tc main_arg0) = V0 (Proc.devRef .tc main_arg0) :=
  kept_of_lt ops_rising hW (by decide)

/-- The weights are not written. -/
theorem W_arg1 : W (Proc.devRef .tc main_arg1) = V0 (Proc.devRef .tc main_arg1) :=
  kept_of_lt ops_rising hW (by decide)

/-- The bias is not written. -/
theorem W_arg2 : W (Proc.devRef .tc main_arg2) = V0 (Proc.devRef .tc main_arg2) :=
  kept_of_lt ops_rising hW (by decide)

/-- The coordinates are not written. -/
theorem W_arg3 : W (Proc.devRef .tc main_arg3) = V0 (Proc.devRef .tc main_arg3) :=
  kept_of_lt ops_rising hW (by decide)

end Frame

end Cert.ReferenceIdeal.Read

end
-- ==== Proof.RefReadTapA.lean ====
/-
  THE REFERENCE PROGRAM READ BACK: the coordinate map and taps 0 to 8.

  With `W` the buffers' contents at the end of the program (`hW : W = after ops V0`, from any contents `V0` at the
  start), each buffer holds its own operation of the buffers before it. For each tap these equations — 63 for the
  neighbour look-up, 25 for the value — are composed (`nbr_compose`, `tap_compose`): the tap's buffer holds the
  tap, as one term, of NIDX and INSIDE of the coordinates and the tap's offset, of the features and of the tap's slab
  of the weights. The taps are the same 88 operations at buffer numbers 89 apart; what changes from tap to tap is the
  offset (dz, dy, dx), each −1, 0 or 1 as a 32-bit word, in the order of the triple loop, and the slab's number.
  Before the taps, 26 operations build the coordinate map (`map_compose`).
-/
import proofs.«120445_j5549097746519_2_alg».proof.Proof.RefReadRise
import proofs.«120445_j5549097746519_2_alg».proof.Proof.RefReadCompose

set_option maxRecDepth 16384

noncomputable section

namespace Cert.ReferenceIdeal.Read

open Cert.ReferenceIdeal Cert.ReferenceIdeal.Gen Cert.ReferenceIdeal.ValueP
open Idealize.ShloMosaic Idealize.ShloMosaic.TcCoe Idealize.SL.Sem Idealize.ShloMosaic.StableHlo
open Cert.LibSsaAfter Cert.LibSsaWindow Cert.NbrIdx Cert.RefTap Cert.RefWeight

section ReadBack
variable {W V0 : Valuation τ sig (Elt Ideal)} (hW : W = after (ops (F := Ideal)) V0)
include hW

/-- The coordinate map: the table of −1 with every voxel's number written into its cell, as a term of the coordinates. -/
theorem W_map :
    W (Proc.devRef .tc main_v20)
      = coordMap slices_S200000x3_S200000x1_0_0 slices_S200000x3_S200000x1_0_1
          slices_S200000x3_S200000x1_0_2 shapeCasts_S200000x1_S200000 bcast_S_S200000
          bcast_S200000_S200000x1_0 bcast_S_S5529600 scatter_S5529600_S200000x1_S200000_n_0_0_1
          (W (Proc.devRef .tc main_arg3)) :=
  map_compose
    (unary_at_win ops_rising hW part0 0 rfl) (reshape_at_win ops_rising hW part0 1 rfl)
    (nullary_at_win ops_rising hW part0 2 rfl) (unary_at_win ops_rising hW part0 3 rfl)
    (binary_at_win ops_rising hW part0 4 rfl) (unary_at_win ops_rising hW part0 5 rfl)
    (reshape_at_win ops_rising hW part0 6 rfl) (binary_at_win ops_rising hW part0 7 rfl)
    (nullary_at_win ops_rising hW part0 8 rfl) (unary_at_win ops_rising hW part0 9 rfl)
    (binary_at_win ops_rising hW part0 10 rfl) (unary_at_win ops_rising hW part0 11 rfl)
    (reshape_at_win ops_rising hW part0 12 rfl) (binary_at_win ops_rising hW part0 13 rfl)
    (nullary_at_win ops_rising hW part0 14 rfl) (unary_at_win ops_rising hW part0 15 rfl)
    (nullary_at_win ops_rising hW part0 16 rfl) (nullary_at_win ops_rising hW part0 17 rfl)
    (unary_at_win ops_rising hW part0 18 rfl) (binary_at_win ops_rising hW part0 19 rfl)
    (nullary_at_win ops_rising hW part0 20 rfl) (unary_at_win ops_rising hW part0 21 rfl)
    (binary_at_win ops_rising hW part0 22 rfl) (ternary_at_win ops_rising hW part0 23 rfl)
    (unary_at_win ops_rising hW part0 24 rfl) (ternary_at_win ops_rising hW part0 25 rfl)

/-- Tap 0, offset (−1, −1, −1): its INSIDE bits and its NIDX words, as terms of the coordinates and the
    coordinate map. -/
theorem W_nbr0 :
    W (Proc.devRef .tc main_v50)
      = inside slices_S200000x3_S200000x1_0_0 slices_S200000x3_S200000x1_0_1
          slices_S200000x3_S200000x1_0_2 shapeCasts_S200000x1_S200000 bcast_S_S200000
          (W (Proc.devRef .tc main_arg3)) 4294967295#32 4294967295#32 4294967295#32 ∧
    W (Proc.devRef .tc main_v64)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 4294967295#32 4294967295#32 4294967295#32 (W (Proc.devRef .tc main_v20)) :=
  nbr_compose
    (unary_at_win ops_rising hW part0 27 rfl) (reshape_at_win ops_rising hW part0 28 rfl)
    (nullary_at_win ops_rising hW part0 29 rfl) (unary_at_win ops_rising hW part0 30 rfl)
    (binary_at_win ops_rising hW part0 31 rfl) (unary_at_win ops_rising hW part0 32 rfl)
    (reshape_at_win ops_rising hW part0 33 rfl) (nullary_at_win ops_rising hW part0 34 rfl)
    (unary_at_win ops_rising hW part0 35 rfl) (binary_at_win ops_rising hW part0 36 rfl)
    (unary_at_win ops_rising hW part0 37 rfl) (reshape_at_win ops_rising hW part0 38 rfl)
    (nullary_at_win ops_rising hW part0 39 rfl) (unary_at_win ops_rising hW part0 40 rfl)
    (binary_at_win ops_rising hW part0 41 rfl) (nullary_at_win ops_rising hW part0 42 rfl)
    (unary_at_win ops_rising hW part0 43 rfl) (binary_at_win ops_rising hW part0 44 rfl)
    (nullary_at_win ops_rising hW part0 45 rfl) (unary_at_win ops_rising hW part0 46 rfl)
    (binary_at_win ops_rising hW part0 47 rfl) (binary_at_win ops_rising hW part0 48 rfl)
    (nullary_at_win ops_rising hW part0 49 rfl) (unary_at_win ops_rising hW part0 50 rfl)
    (binary_at_win ops_rising hW part0 51 rfl) (binary_at_win ops_rising hW part0 52 rfl)
    (nullary_at_win ops_rising hW part0 53 rfl) (unary_at_win ops_rising hW part0 54 rfl)
    (binary_at_win ops_rising hW part0 55 rfl) (binary_at_win ops_rising hW part0 56 rfl)
    (nullary_at_win ops_rising hW part0 57 rfl) (unary_at_win ops_rising hW part0 58 rfl)
    (binary_at_win ops_rising hW part0 59 rfl) (binary_at_win ops_rising hW part1 0 rfl)
    (nullary_at_win ops_rising hW part1 1 rfl) (unary_at_win ops_rising hW part1 2 rfl)
    (binary_at_win ops_rising hW part1 3 rfl) (binary_at_win ops_rising hW part1 4 rfl)
    (nullary_at_win ops_rising hW part1 5 rfl) (unary_at_win ops_rising hW part1 6 rfl)
    (binary_at_win ops_rising hW part1 7 rfl) (binary_at_win ops_rising hW part1 8 rfl)
    (nullary_at_win ops_rising hW part1 9 rfl) (unary_at_win ops_rising hW part1 10 rfl)
    (binary_at_win ops_rising hW part1 11 rfl) (binary_at_win ops_rising hW part1 12 rfl)
    (nullary_at_win ops_rising hW part1 13 rfl) (nullary_at_win ops_rising hW part1 14 rfl)
    (unary_at_win ops_rising hW part1 15 rfl) (unary_at_win ops_rising hW part1 16 rfl)
    (binary_at_win ops_rising hW part1 17 rfl) (unary_at_win ops_rising hW part1 18 rfl)
    (unary_at_win ops_rising hW part1 19 rfl) (binary_at_win ops_rising hW part1 20 rfl)
    (nullary_at_win ops_rising hW part1 21 rfl) (unary_at_win ops_rising hW part1 22 rfl)
    (binary_at_win ops_rising hW part1 23 rfl) (nullary_at_win ops_rising hW part1 24 rfl)
    (unary_at_win ops_rising hW part1 25 rfl) (binary_at_win ops_rising hW part1 26 rfl)
    (ternary_at_win ops_rising hW part1 27 rfl) (unary_at_win ops_rising hW part1 28 rfl)
    (binary_at_win ops_rising hW part1 29 rfl)

/-- Tap 0's value: the tap of its NIDX and INSIDE, of the features and of slab 0 of the weights. -/
theorem W_tap0 :
    W (Proc.devRef .tc main_v81)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 4294967295#32 4294967295#32 4294967295#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 4294967295#32 4294967295#32 4294967295#32)
          (W (Proc.devRef .tc main_arg0))
          (wslice (W (Proc.devRef .tc main_arg1)) 0 slices_S27x128x20_S1x128x20_0_0_0 shapeCasts_S1x128x20_S128x20) :=
  tap_of_nbr (W_nbr0 hW)
    (tap_compose
      (nullary_at_win ops_rising hW part1 30 rfl) (unary_at_win ops_rising hW part1 31 rfl)
      (binary_at_win ops_rising hW part1 32 rfl) (binary_at_win ops_rising hW part1 33 rfl)
      (unary_at_win ops_rising hW part1 34 rfl) (nullary_at_win ops_rising hW part1 35 rfl)
      (unary_at_win ops_rising hW part1 36 rfl) (binary_at_win ops_rising hW part1 37 rfl)
      (nullary_at_win ops_rising hW part1 38 rfl) (unary_at_win ops_rising hW part1 39 rfl)
      (binary_at_win ops_rising hW part1 40 rfl) (nullary_at_win ops_rising hW part1 41 rfl)
      (unary_at_win ops_rising hW part1 42 rfl) (binary_at_win ops_rising hW part1 43 rfl)
      (ternary_at_win ops_rising hW part1 44 rfl) (unary_at_win ops_rising hW part1 45 rfl)
      (binary_at_win ops_rising hW part1 46 rfl) (nullary_at_win ops_rising hW part1 47 rfl)
      (unary_at_win ops_rising hW part1 48 rfl) (unary_at_win ops_rising hW part1 49 rfl)
      (unary_at_win ops_rising hW part1 50 rfl) (ternary_at_win ops_rising hW part1 51 rfl)
      (unary_at_win ops_rising hW part1 52 rfl) (reshape_at_win ops_rising hW part1 53 rfl)
      (binary_at_win ops_rising hW part1 54 rfl))

/-- Tap 1, offset (−1, −1, 0): its INSIDE bits and its NIDX words, as terms of the coordinates and the
    coordinate map. -/
theorem W_nbr1 :
    W (Proc.devRef .tc main_v111)
      = inside slices_S200000x3_S200000x1_0_0 slices_S200000x3_S200000x1_0_1
          slices_S200000x3_S200000x1_0_2 shapeCasts_S200000x1_S200000 bcast_S_S200000
          (W (Proc.devRef .tc main_arg3)) 4294967295#32 4294967295#32 0#32 ∧
    W (Proc.devRef .tc main_v125)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 4294967295#32 4294967295#32 0#32 (W (Proc.devRef .tc main_v20)) :=
  nbr_compose
    (unary_at_win ops_rising hW part1 56 rfl) (reshape_at_win ops_rising hW part1 57 rfl)
    (nullary_at_win ops_rising hW part1 58 rfl) (unary_at_win ops_rising hW part1 59 rfl)
    (binary_at_win ops_rising hW part1 60 rfl) (unary_at_win ops_rising hW part1 61 rfl)
    (reshape_at_win ops_rising hW part1 62 rfl) (nullary_at_win ops_rising hW part1 63 rfl)
    (unary_at_win ops_rising hW part1 64 rfl) (binary_at_win ops_rising hW part1 65 rfl)
    (unary_at_win ops_rising hW part1 66 rfl) (reshape_at_win ops_rising hW part1 67 rfl)
    (nullary_at_win ops_rising hW part2 0 rfl) (unary_at_win ops_rising hW part2 1 rfl)
    (binary_at_win ops_rising hW part2 2 rfl) (nullary_at_win ops_rising hW part2 3 rfl)
    (unary_at_win ops_rising hW part2 4 rfl) (binary_at_win ops_rising hW part2 5 rfl)
    (nullary_at_win ops_rising hW part2 6 rfl) (unary_at_win ops_rising hW part2 7 rfl)
    (binary_at_win ops_rising hW part2 8 rfl) (binary_at_win ops_rising hW part2 9 rfl)
    (nullary_at_win ops_rising hW part2 10 rfl) (unary_at_win ops_rising hW part2 11 rfl)
    (binary_at_win ops_rising hW part2 12 rfl) (binary_at_win ops_rising hW part2 13 rfl)
    (nullary_at_win ops_rising hW part2 14 rfl) (unary_at_win ops_rising hW part2 15 rfl)
    (binary_at_win ops_rising hW part2 16 rfl) (binary_at_win ops_rising hW part2 17 rfl)
    (nullary_at_win ops_rising hW part2 18 rfl) (unary_at_win ops_rising hW part2 19 rfl)
    (binary_at_win ops_rising hW part2 20 rfl) (binary_at_win ops_rising hW part2 21 rfl)
    (nullary_at_win ops_rising hW part2 22 rfl) (unary_at_win ops_rising hW part2 23 rfl)
    (binary_at_win ops_rising hW part2 24 rfl) (binary_at_win ops_rising hW part2 25 rfl)
    (nullary_at_win ops_rising hW part2 26 rfl) (unary_at_win ops_rising hW part2 27 rfl)
    (binary_at_win ops_rising hW part2 28 rfl) (binary_at_win ops_rising hW part2 29 rfl)
    (nullary_at_win ops_rising hW part2 30 rfl) (unary_at_win ops_rising hW part2 31 rfl)
    (binary_at_win ops_rising hW part2 32 rfl) (binary_at_win ops_rising hW part2 33 rfl)
    (nullary_at_win ops_rising hW part2 34 rfl) (nullary_at_win ops_rising hW part2 35 rfl)
    (unary_at_win ops_rising hW part2 36 rfl) (unary_at_win ops_rising hW part2 37 rfl)
    (binary_at_win ops_rising hW part2 38 rfl) (unary_at_win ops_rising hW part2 39 rfl)
    (unary_at_win ops_rising hW part2 40 rfl) (binary_at_win ops_rising hW part2 41 rfl)
    (nullary_at_win ops_rising hW part2 42 rfl) (unary_at_win ops_rising hW part2 43 rfl)
    (binary_at_win ops_rising hW part2 44 rfl) (nullary_at_win ops_rising hW part2 45 rfl)
    (unary_at_win ops_rising hW part2 46 rfl) (binary_at_win ops_rising hW part2 47 rfl)
    (ternary_at_win ops_rising hW part2 48 rfl) (unary_at_win ops_rising hW part2 49 rfl)
    (binary_at_win ops_rising hW part2 50 rfl)

/-- Tap 1's value: the tap of its NIDX and INSIDE, of the features and of slab 1 of the weights. -/
theorem W_tap1 :
    W (Proc.devRef .tc main_v142)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 4294967295#32 4294967295#32 0#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 4294967295#32 4294967295#32 0#32)
          (W (Proc.devRef .tc main_arg0))
          (wslice (W (Proc.devRef .tc main_arg1)) 1 slices_S27x128x20_S1x128x20_1_0_0 shapeCasts_S1x128x20_S128x20) :=
  tap_of_nbr (W_nbr1 hW)
    (tap_compose
      (nullary_at_win ops_rising hW part2 51 rfl) (unary_at_win ops_rising hW part2 52 rfl)
      (binary_at_win ops_rising hW part2 53 rfl) (binary_at_win ops_rising hW part2 54 rfl)
      (unary_at_win ops_rising hW part2 55 rfl) (nullary_at_win ops_rising hW part2 56 rfl)
      (unary_at_win ops_rising hW part2 57 rfl) (binary_at_win ops_rising hW part2 58 rfl)
      (nullary_at_win ops_rising hW part2 59 rfl) (unary_at_win ops_rising hW part2 60 rfl)
      (binary_at_win ops_rising hW part2 61 rfl) (nullary_at_win ops_rising hW part2 62 rfl)
      (unary_at_win ops_rising hW part2 63 rfl) (binary_at_win ops_rising hW part2 64 rfl)
      (ternary_at_win ops_rising hW part3 0 rfl) (unary_at_win ops_rising hW part3 1 rfl)
      (binary_at_win ops_rising hW part3 2 rfl) (nullary_at_win ops_rising hW part3 3 rfl)
      (unary_at_win ops_rising hW part3 4 rfl) (unary_at_win ops_rising hW part3 5 rfl)
      (unary_at_win ops_rising hW part3 6 rfl) (ternary_at_win ops_rising hW part3 7 rfl)
      (unary_at_win ops_rising hW part3 8 rfl) (reshape_at_win ops_rising hW part3 9 rfl)
      (binary_at_win ops_rising hW part3 10 rfl))

/-- Tap 2, offset (−1, −1, 1): its INSIDE bits and its NIDX words, as terms of the coordinates and the
    coordinate map. -/
theorem W_nbr2 :
    W (Proc.devRef .tc main_v172)
      = inside slices_S200000x3_S200000x1_0_0 slices_S200000x3_S200000x1_0_1
          slices_S200000x3_S200000x1_0_2 shapeCasts_S200000x1_S200000 bcast_S_S200000
          (W (Proc.devRef .tc main_arg3)) 4294967295#32 4294967295#32 1#32 ∧
    W (Proc.devRef .tc main_v186)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 4294967295#32 4294967295#32 1#32 (W (Proc.devRef .tc main_v20)) :=
  nbr_compose
    (unary_at_win ops_rising hW part3 12 rfl) (reshape_at_win ops_rising hW part3 13 rfl)
    (nullary_at_win ops_rising hW part3 14 rfl) (unary_at_win ops_rising hW part3 15 rfl)
    (binary_at_win ops_rising hW part3 16 rfl) (unary_at_win ops_rising hW part3 17 rfl)
    (reshape_at_win ops_rising hW part3 18 rfl) (nullary_at_win ops_rising hW part3 19 rfl)
    (unary_at_win ops_rising hW part3 20 rfl) (binary_at_win ops_rising hW part3 21 rfl)
    (unary_at_win ops_rising hW part3 22 rfl) (reshape_at_win ops_rising hW part3 23 rfl)
    (nullary_at_win ops_rising hW part3 24 rfl) (unary_at_win ops_rising hW part3 25 rfl)
    (binary_at_win ops_rising hW part3 26 rfl) (nullary_at_win ops_rising hW part3 27 rfl)
    (unary_at_win ops_rising hW part3 28 rfl) (binary_at_win ops_rising hW part3 29 rfl)
    (nullary_at_win ops_rising hW part3 30 rfl) (unary_at_win ops_rising hW part3 31 rfl)
    (binary_at_win ops_rising hW part3 32 rfl) (binary_at_win ops_rising hW part3 33 rfl)
    (nullary_at_win ops_rising hW part3 34 rfl) (unary_at_win ops_rising hW part3 35 rfl)
    (binary_at_win ops_rising hW part3 36 rfl) (binary_at_win ops_rising hW part3 37 rfl)
    (nullary_at_win ops_rising hW part3 38 rfl) (unary_at_win ops_rising hW part3 39 rfl)
    (binary_at_win ops_rising hW part3 40 rfl) (binary_at_win ops_rising hW part3 41 rfl)
    (nullary_at_win ops_rising hW part3 42 rfl) (unary_at_win ops_rising hW part3 43 rfl)
    (binary_at_win ops_rising hW part3 44 rfl) (binary_at_win ops_rising hW part3 45 rfl)
    (nullary_at_win ops_rising hW part3 46 rfl) (unary_at_win ops_rising hW part3 47 rfl)
    (binary_at_win ops_rising hW part3 48 rfl) (binary_at_win ops_rising hW part3 49 rfl)
    (nullary_at_win ops_rising hW part3 50 rfl) (unary_at_win ops_rising hW part3 51 rfl)
    (binary_at_win ops_rising hW part3 52 rfl) (binary_at_win ops_rising hW part3 53 rfl)
    (nullary_at_win ops_rising hW part3 54 rfl) (unary_at_win ops_rising hW part3 55 rfl)
    (binary_at_win ops_rising hW part3 56 rfl) (binary_at_win ops_rising hW part3 57 rfl)
    (nullary_at_win ops_rising hW part3 58 rfl) (nullary_at_win ops_rising hW part3 59 rfl)
    (unary_at_win ops_rising hW part3 60 rfl) (unary_at_win ops_rising hW part3 61 rfl)
    (binary_at_win ops_rising hW part3 62 rfl) (unary_at_win ops_rising hW part3 63 rfl)
    (unary_at_win ops_rising hW part3 64 rfl) (binary_at_win ops_rising hW part3 65 rfl)
    (nullary_at_win ops_rising hW part3 66 rfl) (unary_at_win ops_rising hW part3 67 rfl)
    (binary_at_win ops_rising hW part4 0 rfl) (nullary_at_win ops_rising hW part4 1 rfl)
    (unary_at_win ops_rising hW part4 2 rfl) (binary_at_win ops_rising hW part4 3 rfl)
    (ternary_at_win ops_rising hW part4 4 rfl) (unary_at_win ops_rising hW part4 5 rfl)
    (binary_at_win ops_rising hW part4 6 rfl)

/-- Tap 2's value: the tap of its NIDX and INSIDE, of the features and of slab 2 of the weights. -/
theorem W_tap2 :
    W (Proc.devRef .tc main_v203)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 4294967295#32 4294967295#32 1#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 4294967295#32 4294967295#32 1#32)
          (W (Proc.devRef .tc main_arg0))
          (wslice (W (Proc.devRef .tc main_arg1)) 2 slices_S27x128x20_S1x128x20_2_0_0 shapeCasts_S1x128x20_S128x20) :=
  tap_of_nbr (W_nbr2 hW)
    (tap_compose
      (nullary_at_win ops_rising hW part4 7 rfl) (unary_at_win ops_rising hW part4 8 rfl)
      (binary_at_win ops_rising hW part4 9 rfl) (binary_at_win ops_rising hW part4 10 rfl)
      (unary_at_win ops_rising hW part4 11 rfl) (nullary_at_win ops_rising hW part4 12 rfl)
      (unary_at_win ops_rising hW part4 13 rfl) (binary_at_win ops_rising hW part4 14 rfl)
      (nullary_at_win ops_rising hW part4 15 rfl) (unary_at_win ops_rising hW part4 16 rfl)
      (binary_at_win ops_rising hW part4 17 rfl) (nullary_at_win ops_rising hW part4 18 rfl)
      (unary_at_win ops_rising hW part4 19 rfl) (binary_at_win ops_rising hW part4 20 rfl)
      (ternary_at_win ops_rising hW part4 21 rfl) (unary_at_win ops_rising hW part4 22 rfl)
      (binary_at_win ops_rising hW part4 23 rfl) (nullary_at_win ops_rising hW part4 24 rfl)
      (unary_at_win ops_rising hW part4 25 rfl) (unary_at_win ops_rising hW part4 26 rfl)
      (unary_at_win ops_rising hW part4 27 rfl) (ternary_at_win ops_rising hW part4 28 rfl)
      (unary_at_win ops_rising hW part4 29 rfl) (reshape_at_win ops_rising hW part4 30 rfl)
      (binary_at_win ops_rising hW part4 31 rfl))

/-- Tap 3, offset (−1, 0, −1): its INSIDE bits and its NIDX words, as terms of the coordinates and the
    coordinate map. -/
theorem W_nbr3 :
    W (Proc.devRef .tc main_v233)
      = inside slices_S200000x3_S200000x1_0_0 slices_S200000x3_S200000x1_0_1
          slices_S200000x3_S200000x1_0_2 shapeCasts_S200000x1_S200000 bcast_S_S200000
          (W (Proc.devRef .tc main_arg3)) 4294967295#32 0#32 4294967295#32 ∧
    W (Proc.devRef .tc main_v247)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 4294967295#32 0#32 4294967295#32 (W (Proc.devRef .tc main_v20)) :=
  nbr_compose
    (unary_at_win ops_rising hW part4 33 rfl) (reshape_at_win ops_rising hW part4 34 rfl)
    (nullary_at_win ops_rising hW part4 35 rfl) (unary_at_win ops_rising hW part4 36 rfl)
    (binary_at_win ops_rising hW part4 37 rfl) (unary_at_win ops_rising hW part4 38 rfl)
    (reshape_at_win ops_rising hW part4 39 rfl) (nullary_at_win ops_rising hW part4 40 rfl)
    (unary_at_win ops_rising hW part4 41 rfl) (binary_at_win ops_rising hW part4 42 rfl)
    (unary_at_win ops_rising hW part4 43 rfl) (reshape_at_win ops_rising hW part4 44 rfl)
    (nullary_at_win ops_rising hW part4 45 rfl) (unary_at_win ops_rising hW part4 46 rfl)
    (binary_at_win ops_rising hW part4 47 rfl) (nullary_at_win ops_rising hW part4 48 rfl)
    (unary_at_win ops_rising hW part4 49 rfl) (binary_at_win ops_rising hW part4 50 rfl)
    (nullary_at_win ops_rising hW part4 51 rfl) (unary_at_win ops_rising hW part4 52 rfl)
    (binary_at_win ops_rising hW part4 53 rfl) (binary_at_win ops_rising hW part4 54 rfl)
    (nullary_at_win ops_rising hW part4 55 rfl) (unary_at_win ops_rising hW part4 56 rfl)
    (binary_at_win ops_rising hW part4 57 rfl) (binary_at_win ops_rising hW part4 58 rfl)
    (nullary_at_win ops_rising hW part4 59 rfl) (unary_at_win ops_rising hW part4 60 rfl)
    (binary_at_win ops_rising hW part4 61 rfl) (binary_at_win ops_rising hW part4 62 rfl)
    (nullary_at_win ops_rising hW part5 0 rfl) (unary_at_win ops_rising hW part5 1 rfl)
    (binary_at_win ops_rising hW part5 2 rfl) (binary_at_win ops_rising hW part5 3 rfl)
    (nullary_at_win ops_rising hW part5 4 rfl) (unary_at_win ops_rising hW part5 5 rfl)
    (binary_at_win ops_rising hW part5 6 rfl) (binary_at_win ops_rising hW part5 7 rfl)
    (nullary_at_win ops_rising hW part5 8 rfl) (unary_at_win ops_rising hW part5 9 rfl)
    (binary_at_win ops_rising hW part5 10 rfl) (binary_at_win ops_rising hW part5 11 rfl)
    (nullary_at_win ops_rising hW part5 12 rfl) (unary_at_win ops_rising hW part5 13 rfl)
    (binary_at_win ops_rising hW part5 14 rfl) (binary_at_win ops_rising hW part5 15 rfl)
    (nullary_at_win ops_rising hW part5 16 rfl) (nullary_at_win ops_rising hW part5 17 rfl)
    (unary_at_win ops_rising hW part5 18 rfl) (unary_at_win ops_rising hW part5 19 rfl)
    (binary_at_win ops_rising hW part5 20 rfl) (unary_at_win ops_rising hW part5 21 rfl)
    (unary_at_win ops_rising hW part5 22 rfl) (binary_at_win ops_rising hW part5 23 rfl)
    (nullary_at_win ops_rising hW part5 24 rfl) (unary_at_win ops_rising hW part5 25 rfl)
    (binary_at_win ops_rising hW part5 26 rfl) (nullary_at_win ops_rising hW part5 27 rfl)
    (unary_at_win ops_rising hW part5 28 rfl) (binary_at_win ops_rising hW part5 29 rfl)
    (ternary_at_win ops_rising hW part5 30 rfl) (unary_at_win ops_rising hW part5 31 rfl)
    (binary_at_win ops_rising hW part5 32 rfl)

/-- Tap 3's value: the tap of its NIDX and INSIDE, of the features and of slab 3 of the weights. -/
theorem W_tap3 :
    W (Proc.devRef .tc main_v264)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 4294967295#32 0#32 4294967295#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 4294967295#32 0#32 4294967295#32)
          (W (Proc.devRef .tc main_arg0))
          (wslice (W (Proc.devRef .tc main_arg1)) 3 slices_S27x128x20_S1x128x20_3_0_0 shapeCasts_S1x128x20_S128x20) :=
  tap_of_nbr (W_nbr3 hW)
    (tap_compose
      (nullary_at_win ops_rising hW part5 33 rfl) (unary_at_win ops_rising hW part5 34 rfl)
      (binary_at_win ops_rising hW part5 35 rfl) (binary_at_win ops_rising hW part5 36 rfl)
      (unary_at_win ops_rising hW part5 37 rfl) (nullary_at_win ops_rising hW part5 38 rfl)
      (unary_at_win ops_rising hW part5 39 rfl) (binary_at_win ops_rising hW part5 40 rfl)
      (nullary_at_win ops_rising hW part5 41 rfl) (unary_at_win ops_rising hW part5 42 rfl)
      (binary_at_win ops_rising hW part5 43 rfl) (nullary_at_win ops_rising hW part5 44 rfl)
      (unary_at_win ops_rising hW part5 45 rfl) (binary_at_win ops_rising hW part5 46 rfl)
      (ternary_at_win ops_rising hW part5 47 rfl) (unary_at_win ops_rising hW part5 48 rfl)
      (binary_at_win ops_rising hW part5 49 rfl) (nullary_at_win ops_rising hW part5 50 rfl)
      (unary_at_win ops_rising hW part5 51 rfl) (unary_at_win ops_rising hW part5 52 rfl)
      (unary_at_win ops_rising hW part5 53 rfl) (ternary_at_win ops_rising hW part5 54 rfl)
      (unary_at_win ops_rising hW part5 55 rfl) (reshape_at_win ops_rising hW part5 56 rfl)
      (binary_at_win ops_rising hW part5 57 rfl))

/-- Tap 4, offset (−1, 0, 0): its INSIDE bits and its NIDX words, as terms of the coordinates and the
    coordinate map. -/
theorem W_nbr4 :
    W (Proc.devRef .tc main_v294)
      = inside slices_S200000x3_S200000x1_0_0 slices_S200000x3_S200000x1_0_1
          slices_S200000x3_S200000x1_0_2 shapeCasts_S200000x1_S200000 bcast_S_S200000
          (W (Proc.devRef .tc main_arg3)) 4294967295#32 0#32 0#32 ∧
    W (Proc.devRef .tc main_v308)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 4294967295#32 0#32 0#32 (W (Proc.devRef .tc main_v20)) :=
  nbr_compose
    (unary_at_win ops_rising hW part5 59 rfl) (reshape_at_win ops_rising hW part5 60 rfl)
    (nullary_at_win ops_rising hW part5 61 rfl) (unary_at_win ops_rising hW part5 62 rfl)
    (binary_at_win ops_rising hW part5 63 rfl) (unary_at_win ops_rising hW part5 64 rfl)
    (reshape_at_win ops_rising hW part5 65 rfl) (nullary_at_win ops_rising hW part5 66 rfl)
    (unary_at_win ops_rising hW part5 67 rfl) (binary_at_win ops_rising hW part6 0 rfl)
    (unary_at_win ops_rising hW part6 1 rfl) (reshape_at_win ops_rising hW part6 2 rfl)
    (nullary_at_win ops_rising hW part6 3 rfl) (unary_at_win ops_rising hW part6 4 rfl)
    (binary_at_win ops_rising hW part6 5 rfl) (nullary_at_win ops_rising hW part6 6 rfl)
    (unary_at_win ops_rising hW part6 7 rfl) (binary_at_win ops_rising hW part6 8 rfl)
    (nullary_at_win ops_rising hW part6 9 rfl) (unary_at_win ops_rising hW part6 10 rfl)
    (binary_at_win ops_rising hW part6 11 rfl) (binary_at_win ops_rising hW part6 12 rfl)
    (nullary_at_win ops_rising hW part6 13 rfl) (unary_at_win ops_rising hW part6 14 rfl)
    (binary_at_win ops_rising hW part6 15 rfl) (binary_at_win ops_rising hW part6 16 rfl)
    (nullary_at_win ops_rising hW part6 17 rfl) (unary_at_win ops_rising hW part6 18 rfl)
    (binary_at_win ops_rising hW part6 19 rfl) (binary_at_win ops_rising hW part6 20 rfl)
    (nullary_at_win ops_rising hW part6 21 rfl) (unary_at_win ops_rising hW part6 22 rfl)
    (binary_at_win ops_rising hW part6 23 rfl) (binary_at_win ops_rising hW part6 24 rfl)
    (nullary_at_win ops_rising hW part6 25 rfl) (unary_at_win ops_rising hW part6 26 rfl)
    (binary_at_win ops_rising hW part6 27 rfl) (binary_at_win ops_rising hW part6 28 rfl)
    (nullary_at_win ops_rising hW part6 29 rfl) (unary_at_win ops_rising hW part6 30 rfl)
    (binary_at_win ops_rising hW part6 31 rfl) (binary_at_win ops_rising hW part6 32 rfl)
    (nullary_at_win ops_rising hW part6 33 rfl) (unary_at_win ops_rising hW part6 34 rfl)
    (binary_at_win ops_rising hW part6 35 rfl) (binary_at_win ops_rising hW part6 36 rfl)
    (nullary_at_win ops_rising hW part6 37 rfl) (nullary_at_win ops_rising hW part6 38 rfl)
    (unary_at_win ops_rising hW part6 39 rfl) (unary_at_win ops_rising hW part6 40 rfl)
    (binary_at_win ops_rising hW part6 41 rfl) (unary_at_win ops_rising hW part6 42 rfl)
    (unary_at_win ops_rising hW part6 43 rfl) (binary_at_win ops_rising hW part6 44 rfl)
    (nullary_at_win ops_rising hW part6 45 rfl) (unary_at_win ops_rising hW part6 46 rfl)
    (binary_at_win ops_rising hW part6 47 rfl) (nullary_at_win ops_rising hW part6 48 rfl)
    (unary_at_win ops_rising hW part6 49 rfl) (binary_at_win ops_rising hW part6 50 rfl)
    (ternary_at_win ops_rising hW part6 51 rfl) (unary_at_win ops_rising hW part6 52 rfl)
    (binary_at_win ops_rising hW part6 53 rfl)

/-- Tap 4's value: the tap of its NIDX and INSIDE, of the features and of slab 4 of the weights. -/
theorem W_tap4 :
    W (Proc.devRef .tc main_v325)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 4294967295#32 0#32 0#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 4294967295#32 0#32 0#32)
          (W (Proc.devRef .tc main_arg0))
          (wslice (W (Proc.devRef .tc main_arg1)) 4 slices_S27x128x20_S1x128x20_4_0_0 shapeCasts_S1x128x20_S128x20) :=
  tap_of_nbr (W_nbr4 hW)
    (tap_compose
      (nullary_at_win ops_rising hW part6 54 rfl) (unary_at_win ops_rising hW part6 55 rfl)
      (binary_at_win ops_rising hW part6 56 rfl) (binary_at_win ops_rising hW part6 57 rfl)
      (unary_at_win ops_rising hW part6 58 rfl) (nullary_at_win ops_rising hW part6 59 rfl)
      (unary_at_win ops_rising hW part6 60 rfl) (binary_at_win ops_rising hW part6 61 rfl)
      (nullary_at_win ops_rising hW part6 62 rfl) (unary_at_win ops_rising hW part6 63 rfl)
      (binary_at_win ops_rising hW part6 64 rfl) (nullary_at_win ops_rising hW part7 0 rfl)
      (unary_at_win ops_rising hW part7 1 rfl) (binary_at_win ops_rising hW part7 2 rfl)
      (ternary_at_win ops_rising hW part7 3 rfl) (unary_at_win ops_rising hW part7 4 rfl)
      (binary_at_win ops_rising hW part7 5 rfl) (nullary_at_win ops_rising hW part7 6 rfl)
      (unary_at_win ops_rising hW part7 7 rfl) (unary_at_win ops_rising hW part7 8 rfl)
      (unary_at_win ops_rising hW part7 9 rfl) (ternary_at_win ops_rising hW part7 10 rfl)
      (unary_at_win ops_rising hW part7 11 rfl) (reshape_at_win ops_rising hW part7 12 rfl)
      (binary_at_win ops_rising hW part7 13 rfl))

/-- Tap 5, offset (−1, 0, 1): its INSIDE bits and its NIDX words, as terms of the coordinates and the
    coordinate map. -/
theorem W_nbr5 :
    W (Proc.devRef .tc main_v355)
      = inside slices_S200000x3_S200000x1_0_0 slices_S200000x3_S200000x1_0_1
          slices_S200000x3_S200000x1_0_2 shapeCasts_S200000x1_S200000 bcast_S_S200000
          (W (Proc.devRef .tc main_arg3)) 4294967295#32 0#32 1#32 ∧
    W (Proc.devRef .tc main_v369)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 4294967295#32 0#32 1#32 (W (Proc.devRef .tc main_v20)) :=
  nbr_compose
    (unary_at_win ops_rising hW part7 15 rfl) (reshape_at_win ops_rising hW part7 16 rfl)
    (nullary_at_win ops_rising hW part7 17 rfl) (unary_at_win ops_rising hW part7 18 rfl)
    (binary_at_win ops_rising hW part7 19 rfl) (unary_at_win ops_rising hW part7 20 rfl)
    (reshape_at_win ops_rising hW part7 21 rfl) (nullary_at_win ops_rising hW part7 22 rfl)
    (unary_at_win ops_rising hW part7 23 rfl) (binary_at_win ops_rising hW part7 24 rfl)
    (unary_at_win ops_rising hW part7 25 rfl) (reshape_at_win ops_rising hW part7 26 rfl)
    (nullary_at_win ops_rising hW part7 27 rfl) (unary_at_win ops_rising hW part7 28 rfl)
    (binary_at_win ops_rising hW part7 29 rfl) (nullary_at_win ops_rising hW part7 30 rfl)
    (unary_at_win ops_rising hW part7 31 rfl) (binary_at_win ops_rising hW part7 32 rfl)
    (nullary_at_win ops_rising hW part7 33 rfl) (unary_at_win ops_rising hW part7 34 rfl)
    (binary_at_win ops_rising hW part7 35 rfl) (binary_at_win ops_rising hW part7 36 rfl)
    (nullary_at_win ops_rising hW part7 37 rfl) (unary_at_win ops_rising hW part7 38 rfl)
    (binary_at_win ops_rising hW part7 39 rfl) (binary_at_win ops_rising hW part7 40 rfl)
    (nullary_at_win ops_rising hW part7 41 rfl) (unary_at_win ops_rising hW part7 42 rfl)
    (binary_at_win ops_rising hW part7 43 rfl) (binary_at_win ops_rising hW part7 44 rfl)
    (nullary_at_win ops_rising hW part7 45 rfl) (unary_at_win ops_rising hW part7 46 rfl)
    (binary_at_win ops_rising hW part7 47 rfl) (binary_at_win ops_rising hW part7 48 rfl)
    (nullary_at_win ops_rising hW part7 49 rfl) (unary_at_win ops_rising hW part7 50 rfl)
    (binary_at_win ops_rising hW part7 51 rfl) (binary_at_win ops_rising hW part7 52 rfl)
    (nullary_at_win ops_rising hW part7 53 rfl) (unary_at_win ops_rising hW part7 54 rfl)
    (binary_at_win ops_rising hW part7 55 rfl) (binary_at_win ops_rising hW part7 56 rfl)
    (nullary_at_win ops_rising hW part7 57 rfl) (unary_at_win ops_rising hW part7 58 rfl)
    (binary_at_win ops_rising hW part7 59 rfl) (binary_at_win ops_rising hW part7 60 rfl)
    (nullary_at_win ops_rising hW part7 61 rfl) (nullary_at_win ops_rising hW part7 62 rfl)
    (unary_at_win ops_rising hW part8 0 rfl) (unary_at_win ops_rising hW part8 1 rfl)
    (binary_at_win ops_rising hW part8 2 rfl) (unary_at_win ops_rising hW part8 3 rfl)
    (unary_at_win ops_rising hW part8 4 rfl) (binary_at_win ops_rising hW part8 5 rfl)
    (nullary_at_win ops_rising hW part8 6 rfl) (unary_at_win ops_rising hW part8 7 rfl)
    (binary_at_win ops_rising hW part8 8 rfl) (nullary_at_win ops_rising hW part8 9 rfl)
    (unary_at_win ops_rising hW part8 10 rfl) (binary_at_win ops_rising hW part8 11 rfl)
    (ternary_at_win ops_rising hW part8 12 rfl) (unary_at_win ops_rising hW part8 13 rfl)
    (binary_at_win ops_rising hW part8 14 rfl)

/-- Tap 5's value: the tap of its NIDX and INSIDE, of the features and of slab 5 of the weights. -/
theorem W_tap5 :
    W (Proc.devRef .tc main_v386)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 4294967295#32 0#32 1#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 4294967295#32 0#32 1#32)
          (W (Proc.devRef .tc main_arg0))
          (wslice (W (Proc.devRef .tc main_arg1)) 5 slices_S27x128x20_S1x128x20_5_0_0 shapeCasts_S1x128x20_S128x20) :=
  tap_of_nbr (W_nbr5 hW)
    (tap_compose
      (nullary_at_win ops_rising hW part8 15 rfl) (unary_at_win ops_rising hW part8 16 rfl)
      (binary_at_win ops_rising hW part8 17 rfl) (binary_at_win ops_rising hW part8 18 rfl)
      (unary_at_win ops_rising hW part8 19 rfl) (nullary_at_win ops_rising hW part8 20 rfl)
      (unary_at_win ops_rising hW part8 21 rfl) (binary_at_win ops_rising hW part8 22 rfl)
      (nullary_at_win ops_rising hW part8 23 rfl) (unary_at_win ops_rising hW part8 24 rfl)
      (binary_at_win ops_rising hW part8 25 rfl) (nullary_at_win ops_rising hW part8 26 rfl)
      (unary_at_win ops_rising hW part8 27 rfl) (binary_at_win ops_rising hW part8 28 rfl)
      (ternary_at_win ops_rising hW part8 29 rfl) (unary_at_win ops_rising hW part8 30 rfl)
      (binary_at_win ops_rising hW part8 31 rfl) (nullary_at_win ops_rising hW part8 32 rfl)
      (unary_at_win ops_rising hW part8 33 rfl) (unary_at_win ops_rising hW part8 34 rfl)
      (unary_at_win ops_rising hW part8 35 rfl) (ternary_at_win ops_rising hW part8 36 rfl)
      (unary_at_win ops_rising hW part8 37 rfl) (reshape_at_win ops_rising hW part8 38 rfl)
      (binary_at_win ops_rising hW part8 39 rfl))

/-- Tap 6, offset (−1, 1, −1): its INSIDE bits and its NIDX words, as terms of the coordinates and the
    coordinate map. -/
theorem W_nbr6 :
    W (Proc.devRef .tc main_v416)
      = inside slices_S200000x3_S200000x1_0_0 slices_S200000x3_S200000x1_0_1
          slices_S200000x3_S200000x1_0_2 shapeCasts_S200000x1_S200000 bcast_S_S200000
          (W (Proc.devRef .tc main_arg3)) 4294967295#32 1#32 4294967295#32 ∧
    W (Proc.devRef .tc main_v430)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 4294967295#32 1#32 4294967295#32 (W (Proc.devRef .tc main_v20)) :=
  nbr_compose
    (unary_at_win ops_rising hW part8 41 rfl) (reshape_at_win ops_rising hW part8 42 rfl)
    (nullary_at_win ops_rising hW part8 43 rfl) (unary_at_win ops_rising hW part8 44 rfl)
    (binary_at_win ops_rising hW part8 45 rfl) (unary_at_win ops_rising hW part8 46 rfl)
    (reshape_at_win ops_rising hW part8 47 rfl) (nullary_at_win ops_rising hW part8 48 rfl)
    (unary_at_win ops_rising hW part8 49 rfl) (binary_at_win ops_rising hW part8 50 rfl)
    (unary_at_win ops_rising hW part8 51 rfl) (reshape_at_win ops_rising hW part8 52 rfl)
    (nullary_at_win ops_rising hW part8 53 rfl) (unary_at_win ops_rising hW part8 54 rfl)
    (binary_at_win ops_rising hW part8 55 rfl) (nullary_at_win ops_rising hW part8 56 rfl)
    (unary_at_win ops_rising hW part8 57 rfl) (binary_at_win ops_rising hW part8 58 rfl)
    (nullary_at_win ops_rising hW part8 59 rfl) (unary_at_win ops_rising hW part8 60 rfl)
    (binary_at_win ops_rising hW part8 61 rfl) (binary_at_win ops_rising hW part8 62 rfl)
    (nullary_at_win ops_rising hW part8 63 rfl) (unary_at_win ops_rising hW part8 64 rfl)
    (binary_at_win ops_rising hW part8 65 rfl) (binary_at_win ops_rising hW part8 66 rfl)
    (nullary_at_win ops_rising hW part8 67 rfl) (unary_at_win ops_rising hW part9 0 rfl)
    (binary_at_win ops_rising hW part9 1 rfl) (binary_at_win ops_rising hW part9 2 rfl)
    (nullary_at_win ops_rising hW part9 3 rfl) (unary_at_win ops_rising hW part9 4 rfl)
    (binary_at_win ops_rising hW part9 5 rfl) (binary_at_win ops_rising hW part9 6 rfl)
    (nullary_at_win ops_rising hW part9 7 rfl) (unary_at_win ops_rising hW part9 8 rfl)
    (binary_at_win ops_rising hW part9 9 rfl) (binary_at_win ops_rising hW part9 10 rfl)
    (nullary_at_win ops_rising hW part9 11 rfl) (unary_at_win ops_rising hW part9 12 rfl)
    (binary_at_win ops_rising hW part9 13 rfl) (binary_at_win ops_rising hW part9 14 rfl)
    (nullary_at_win ops_rising hW part9 15 rfl) (unary_at_win ops_rising hW part9 16 rfl)
    (binary_at_win ops_rising hW part9 17 rfl) (binary_at_win ops_rising hW part9 18 rfl)
    (nullary_at_win ops_rising hW part9 19 rfl) (nullary_at_win ops_rising hW part9 20 rfl)
    (unary_at_win ops_rising hW part9 21 rfl) (unary_at_win ops_rising hW part9 22 rfl)
    (binary_at_win ops_rising hW part9 23 rfl) (unary_at_win ops_rising hW part9 24 rfl)
    (unary_at_win ops_rising hW part9 25 rfl) (binary_at_win ops_rising hW part9 26 rfl)
    (nullary_at_win ops_rising hW part9 27 rfl) (unary_at_win ops_rising hW part9 28 rfl)
    (binary_at_win ops_rising hW part9 29 rfl) (nullary_at_win ops_rising hW part9 30 rfl)
    (unary_at_win ops_rising hW part9 31 rfl) (binary_at_win ops_rising hW part9 32 rfl)
    (ternary_at_win ops_rising hW part9 33 rfl) (unary_at_win ops_rising hW part9 34 rfl)
    (binary_at_win ops_rising hW part9 35 rfl)

/-- Tap 6's value: the tap of its NIDX and INSIDE, of the features and of slab 6 of the weights. -/
theorem W_tap6 :
    W (Proc.devRef .tc main_v447)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 4294967295#32 1#32 4294967295#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 4294967295#32 1#32 4294967295#32)
          (W (Proc.devRef .tc main_arg0))
          (wslice (W (Proc.devRef .tc main_arg1)) 6 slices_S27x128x20_S1x128x20_6_0_0 shapeCasts_S1x128x20_S128x20) :=
  tap_of_nbr (W_nbr6 hW)
    (tap_compose
      (nullary_at_win ops_rising hW part9 36 rfl) (unary_at_win ops_rising hW part9 37 rfl)
      (binary_at_win ops_rising hW part9 38 rfl) (binary_at_win ops_rising hW part9 39 rfl)
      (unary_at_win ops_rising hW part9 40 rfl) (nullary_at_win ops_rising hW part9 41 rfl)
      (unary_at_win ops_rising hW part9 42 rfl) (binary_at_win ops_rising hW part9 43 rfl)
      (nullary_at_win ops_rising hW part9 44 rfl) (unary_at_win ops_rising hW part9 45 rfl)
      (binary_at_win ops_rising hW part9 46 rfl) (nullary_at_win ops_rising hW part9 47 rfl)
      (unary_at_win ops_rising hW part9 48 rfl) (binary_at_win ops_rising hW part9 49 rfl)
      (ternary_at_win ops_rising hW part9 50 rfl) (unary_at_win ops_rising hW part9 51 rfl)
      (binary_at_win ops_rising hW part9 52 rfl) (nullary_at_win ops_rising hW part9 53 rfl)
      (unary_at_win ops_rising hW part9 54 rfl) (unary_at_win ops_rising hW part9 55 rfl)
      (unary_at_win ops_rising hW part9 56 rfl) (ternary_at_win ops_rising hW part9 57 rfl)
      (unary_at_win ops_rising hW part9 58 rfl) (reshape_at_win ops_rising hW part9 59 rfl)
      (binary_at_win ops_rising hW part9 60 rfl))

/-- Tap 7, offset (−1, 1, 0): its INSIDE bits and its NIDX words, as terms of the coordinates and the
    coordinate map. -/
theorem W_nbr7 :
    W (Proc.devRef .tc main_v477)
      = inside slices_S200000x3_S200000x1_0_0 slices_S200000x3_S200000x1_0_1
          slices_S200000x3_S200000x1_0_2 shapeCasts_S200000x1_S200000 bcast_S_S200000
          (W (Proc.devRef .tc main_arg3)) 4294967295#32 1#32 0#32 ∧
    W (Proc.devRef .tc main_v491)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 4294967295#32 1#32 0#32 (W (Proc.devRef .tc main_v20)) :=
  nbr_compose
    (unary_at_win ops_rising hW part9 62 rfl) (reshape_at_win ops_rising hW part9 63 rfl)
    (nullary_at_win ops_rising hW part9 64 rfl) (unary_at_win ops_rising hW part9 65 rfl)
    (binary_at_win ops_rising hW part9 66 rfl) (unary_at_win ops_rising hW part9 67 rfl)
    (reshape_at_win ops_rising hW part10 0 rfl) (nullary_at_win ops_rising hW part10 1 rfl)
    (unary_at_win ops_rising hW part10 2 rfl) (binary_at_win ops_rising hW part10 3 rfl)
    (unary_at_win ops_rising hW part10 4 rfl) (reshape_at_win ops_rising hW part10 5 rfl)
    (nullary_at_win ops_rising hW part10 6 rfl) (unary_at_win ops_rising hW part10 7 rfl)
    (binary_at_win ops_rising hW part10 8 rfl) (nullary_at_win ops_rising hW part10 9 rfl)
    (unary_at_win ops_rising hW part10 10 rfl) (binary_at_win ops_rising hW part10 11 rfl)
    (nullary_at_win ops_rising hW part10 12 rfl) (unary_at_win ops_rising hW part10 13 rfl)
    (binary_at_win ops_rising hW part10 14 rfl) (binary_at_win ops_rising hW part10 15 rfl)
    (nullary_at_win ops_rising hW part10 16 rfl) (unary_at_win ops_rising hW part10 17 rfl)
    (binary_at_win ops_rising hW part10 18 rfl) (binary_at_win ops_rising hW part10 19 rfl)
    (nullary_at_win ops_rising hW part10 20 rfl) (unary_at_win ops_rising hW part10 21 rfl)
    (binary_at_win ops_rising hW part10 22 rfl) (binary_at_win ops_rising hW part10 23 rfl)
    (nullary_at_win ops_rising hW part10 24 rfl) (unary_at_win ops_rising hW part10 25 rfl)
    (binary_at_win ops_rising hW part10 26 rfl) (binary_at_win ops_rising hW part10 27 rfl)
    (nullary_at_win ops_rising hW part10 28 rfl) (unary_at_win ops_rising hW part10 29 rfl)
    (binary_at_win ops_rising hW part10 30 rfl) (binary_at_win ops_rising hW part10 31 rfl)
    (nullary_at_win ops_rising hW part10 32 rfl) (unary_at_win ops_rising hW part10 33 rfl)
    (binary_at_win ops_rising hW part10 34 rfl) (binary_at_win ops_rising hW part10 35 rfl)
    (nullary_at_win ops_rising hW part10 36 rfl) (unary_at_win ops_rising hW part10 37 rfl)
    (binary_at_win ops_rising hW part10 38 rfl) (binary_at_win ops_rising hW part10 39 rfl)
    (nullary_at_win ops_rising hW part10 40 rfl) (nullary_at_win ops_rising hW part10 41 rfl)
    (unary_at_win ops_rising hW part10 42 rfl) (unary_at_win ops_rising hW part10 43 rfl)
    (binary_at_win ops_rising hW part10 44 rfl) (unary_at_win ops_rising hW part10 45 rfl)
    (unary_at_win ops_rising hW part10 46 rfl) (binary_at_win ops_rising hW part10 47 rfl)
    (nullary_at_win ops_rising hW part10 48 rfl) (unary_at_win ops_rising hW part10 49 rfl)
    (binary_at_win ops_rising hW part10 50 rfl) (nullary_at_win ops_rising hW part10 51 rfl)
    (unary_at_win ops_rising hW part10 52 rfl) (binary_at_win ops_rising hW part10 53 rfl)
    (ternary_at_win ops_rising hW part10 54 rfl) (unary_at_win ops_rising hW part10 55 rfl)
    (binary_at_win ops_rising hW part10 56 rfl)

/-- Tap 7's value: the tap of its NIDX and INSIDE, of the features and of slab 7 of the weights. -/
theorem W_tap7 :
    W (Proc.devRef .tc main_v508)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 4294967295#32 1#32 0#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 4294967295#32 1#32 0#32)
          (W (Proc.devRef .tc main_arg0))
          (wslice (W (Proc.devRef .tc main_arg1)) 7 slices_S27x128x20_S1x128x20_7_0_0 shapeCasts_S1x128x20_S128x20) :=
  tap_of_nbr (W_nbr7 hW)
    (tap_compose
      (nullary_at_win ops_rising hW part10 57 rfl) (unary_at_win ops_rising hW part10 58 rfl)
      (binary_at_win ops_rising hW part10 59 rfl) (binary_at_win ops_rising hW part10 60 rfl)
      (unary_at_win ops_rising hW part10 61 rfl) (nullary_at_win ops_rising hW part10 62 rfl)
      (unary_at_win ops_rising hW part10 63 rfl) (binary_at_win ops_rising hW part10 64 rfl)
      (nullary_at_win ops_rising hW part11 0 rfl) (unary_at_win ops_rising hW part11 1 rfl)
      (binary_at_win ops_rising hW part11 2 rfl) (nullary_at_win ops_rising hW part11 3 rfl)
      (unary_at_win ops_rising hW part11 4 rfl) (binary_at_win ops_rising hW part11 5 rfl)
      (ternary_at_win ops_rising hW part11 6 rfl) (unary_at_win ops_rising hW part11 7 rfl)
      (binary_at_win ops_rising hW part11 8 rfl) (nullary_at_win ops_rising hW part11 9 rfl)
      (unary_at_win ops_rising hW part11 10 rfl) (unary_at_win ops_rising hW part11 11 rfl)
      (unary_at_win ops_rising hW part11 12 rfl) (ternary_at_win ops_rising hW part11 13 rfl)
      (unary_at_win ops_rising hW part11 14 rfl) (reshape_at_win ops_rising hW part11 15 rfl)
      (binary_at_win ops_rising hW part11 16 rfl))

/-- Tap 8, offset (−1, 1, 1): its INSIDE bits and its NIDX words, as terms of the coordinates and the
    coordinate map. -/
theorem W_nbr8 :
    W (Proc.devRef .tc main_v538)
      = inside slices_S200000x3_S200000x1_0_0 slices_S200000x3_S200000x1_0_1
          slices_S200000x3_S200000x1_0_2 shapeCasts_S200000x1_S200000 bcast_S_S200000
          (W (Proc.devRef .tc main_arg3)) 4294967295#32 1#32 1#32 ∧
    W (Proc.devRef .tc main_v552)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 4294967295#32 1#32 1#32 (W (Proc.devRef .tc main_v20)) :=
  nbr_compose
    (unary_at_win ops_rising hW part11 18 rfl) (reshape_at_win ops_rising hW part11 19 rfl)
    (nullary_at_win ops_rising hW part11 20 rfl) (unary_at_win ops_rising hW part11 21 rfl)
    (binary_at_win ops_rising hW part11 22 rfl) (unary_at_win ops_rising hW part11 23 rfl)
    (reshape_at_win ops_rising hW part11 24 rfl) (nullary_at_win ops_rising hW part11 25 rfl)
    (unary_at_win ops_rising hW part11 26 rfl) (binary_at_win ops_rising hW part11 27 rfl)
    (unary_at_win ops_rising hW part11 28 rfl) (reshape_at_win ops_rising hW part11 29 rfl)
    (nullary_at_win ops_rising hW part11 30 rfl) (unary_at_win ops_rising hW part11 31 rfl)
    (binary_at_win ops_rising hW part11 32 rfl) (nullary_at_win ops_rising hW part11 33 rfl)
    (unary_at_win ops_rising hW part11 34 rfl) (binary_at_win ops_rising hW part11 35 rfl)
    (nullary_at_win ops_rising hW part11 36 rfl) (unary_at_win ops_rising hW part11 37 rfl)
    (binary_at_win ops_rising hW part11 38 rfl) (binary_at_win ops_rising hW part11 39 rfl)
    (nullary_at_win ops_rising hW part11 40 rfl) (unary_at_win ops_rising hW part11 41 rfl)
    (binary_at_win ops_rising hW part11 42 rfl) (binary_at_win ops_rising hW part11 43 rfl)
    (nullary_at_win ops_rising hW part11 44 rfl) (unary_at_win ops_rising hW part11 45 rfl)
    (binary_at_win ops_rising hW part11 46 rfl) (binary_at_win ops_rising hW part11 47 rfl)
    (nullary_at_win ops_rising hW part11 48 rfl) (unary_at_win ops_rising hW part11 49 rfl)
    (binary_at_win ops_rising hW part11 50 rfl) (binary_at_win ops_rising hW part11 51 rfl)
    (nullary_at_win ops_rising hW part11 52 rfl) (unary_at_win ops_rising hW part11 53 rfl)
    (binary_at_win ops_rising hW part11 54 rfl) (binary_at_win ops_rising hW part11 55 rfl)
    (nullary_at_win ops_rising hW part11 56 rfl) (unary_at_win ops_rising hW part11 57 rfl)
    (binary_at_win ops_rising hW part11 58 rfl) (binary_at_win ops_rising hW part11 59 rfl)
    (nullary_at_win ops_rising hW part11 60 rfl) (unary_at_win ops_rising hW part11 61 rfl)
    (binary_at_win ops_rising hW part11 62 rfl) (binary_at_win ops_rising hW part12 0 rfl)
    (nullary_at_win ops_rising hW part12 1 rfl) (nullary_at_win ops_rising hW part12 2 rfl)
    (unary_at_win ops_rising hW part12 3 rfl) (unary_at_win ops_rising hW part12 4 rfl)
    (binary_at_win ops_rising hW part12 5 rfl) (unary_at_win ops_rising hW part12 6 rfl)
    (unary_at_win ops_rising hW part12 7 rfl) (binary_at_win ops_rising hW part12 8 rfl)
    (nullary_at_win ops_rising hW part12 9 rfl) (unary_at_win ops_rising hW part12 10 rfl)
    (binary_at_win ops_rising hW part12 11 rfl) (nullary_at_win ops_rising hW part12 12 rfl)
    (unary_at_win ops_rising hW part12 13 rfl) (binary_at_win ops_rising hW part12 14 rfl)
    (ternary_at_win ops_rising hW part12 15 rfl) (unary_at_win ops_rising hW part12 16 rfl)
    (binary_at_win ops_rising hW part12 17 rfl)

/-- Tap 8's value: the tap of its NIDX and INSIDE, of the features and of slab 8 of the weights. -/
theorem W_tap8 :
    W (Proc.devRef .tc main_v569)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 4294967295#32 1#32 1#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 4294967295#32 1#32 1#32)
          (W (Proc.devRef .tc main_arg0))
          (wslice (W (Proc.devRef .tc main_arg1)) 8 slices_S27x128x20_S1x128x20_8_0_0 shapeCasts_S1x128x20_S128x20) :=
  tap_of_nbr (W_nbr8 hW)
    (tap_compose
      (nullary_at_win ops_rising hW part12 18 rfl) (unary_at_win ops_rising hW part12 19 rfl)
      (binary_at_win ops_rising hW part12 20 rfl) (binary_at_win ops_rising hW part12 21 rfl)
      (unary_at_win ops_rising hW part12 22 rfl) (nullary_at_win ops_rising hW part12 23 rfl)
      (unary_at_win ops_rising hW part12 24 rfl) (binary_at_win ops_rising hW part12 25 rfl)
      (nullary_at_win ops_rising hW part12 26 rfl) (unary_at_win ops_rising hW part12 27 rfl)
      (binary_at_win ops_rising hW part12 28 rfl) (nullary_at_win ops_rising hW part12 29 rfl)
      (unary_at_win ops_rising hW part12 30 rfl) (binary_at_win ops_rising hW part12 31 rfl)
      (ternary_at_win ops_rising hW part12 32 rfl) (unary_at_win ops_rising hW part12 33 rfl)
      (binary_at_win ops_rising hW part12 34 rfl) (nullary_at_win ops_rising hW part12 35 rfl)
      (unary_at_win ops_rising hW part12 36 rfl) (unary_at_win ops_rising hW part12 37 rfl)
      (unary_at_win ops_rising hW part12 38 rfl) (ternary_at_win ops_rising hW part12 39 rfl)
      (unary_at_win ops_rising hW part12 40 rfl) (reshape_at_win ops_rising hW part12 41 rfl)
      (binary_at_win ops_rising hW part12 42 rfl))

end ReadBack

end Cert.ReferenceIdeal.Read

end
-- ==== Proof.RefReadTapB.lean ====
/-
  THE REFERENCE PROGRAM READ BACK: taps 9 to 17.

  With `W` the buffers' contents at the end of the program (`hW : W = after ops V0`, from any contents `V0` at the
  start), each buffer holds its own operation of the buffers before it. For each tap these equations — 63 for the
  neighbour look-up, 25 for the value — are composed (`nbr_compose`, `tap_compose`): the tap's buffer holds the
  tap, as one term, of NIDX and INSIDE of the coordinates and the tap's offset, of the features and of the tap's slab
  of the weights. The taps are the same 88 operations at buffer numbers 89 apart; what changes from tap to tap is the
  offset (dz, dy, dx), each −1, 0 or 1 as a 32-bit word, in the order of the triple loop, and the slab's number.
-/
import proofs.«120445_j5549097746519_2_alg».proof.Proof.RefReadRise
import proofs.«120445_j5549097746519_2_alg».proof.Proof.RefReadCompose

set_option maxRecDepth 16384

noncomputable section

namespace Cert.ReferenceIdeal.Read

open Cert.ReferenceIdeal Cert.ReferenceIdeal.Gen Cert.ReferenceIdeal.ValueP
open Idealize.ShloMosaic Idealize.ShloMosaic.TcCoe Idealize.SL.Sem Idealize.ShloMosaic.StableHlo
open Cert.LibSsaAfter Cert.LibSsaWindow Cert.NbrIdx Cert.RefTap Cert.RefWeight

section ReadBack
variable {W V0 : Valuation τ sig (Elt Ideal)} (hW : W = after (ops (F := Ideal)) V0)
include hW

/-- Tap 9, offset (0, −1, −1): its INSIDE bits and its NIDX words, as terms of the coordinates and the
    coordinate map. -/
theorem W_nbr9 :
    W (Proc.devRef .tc main_v599)
      = inside slices_S200000x3_S200000x1_0_0 slices_S200000x3_S200000x1_0_1
          slices_S200000x3_S200000x1_0_2 shapeCasts_S200000x1_S200000 bcast_S_S200000
          (W (Proc.devRef .tc main_arg3)) 0#32 4294967295#32 4294967295#32 ∧
    W (Proc.devRef .tc main_v613)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 0#32 4294967295#32 4294967295#32 (W (Proc.devRef .tc main_v20)) :=
  nbr_compose
    (unary_at_win ops_rising hW part12 44 rfl) (reshape_at_win ops_rising hW part12 45 rfl)
    (nullary_at_win ops_rising hW part12 46 rfl) (unary_at_win ops_rising hW part12 47 rfl)
    (binary_at_win ops_rising hW part12 48 rfl) (unary_at_win ops_rising hW part12 49 rfl)
    (reshape_at_win ops_rising hW part12 50 rfl) (nullary_at_win ops_rising hW part12 51 rfl)
    (unary_at_win ops_rising hW part12 52 rfl) (binary_at_win ops_rising hW part12 53 rfl)
    (unary_at_win ops_rising hW part12 54 rfl) (reshape_at_win ops_rising hW part12 55 rfl)
    (nullary_at_win ops_rising hW part12 56 rfl) (unary_at_win ops_rising hW part12 57 rfl)
    (binary_at_win ops_rising hW part12 58 rfl) (nullary_at_win ops_rising hW part12 59 rfl)
    (unary_at_win ops_rising hW part12 60 rfl) (binary_at_win ops_rising hW part12 61 rfl)
    (nullary_at_win ops_rising hW part12 62 rfl) (unary_at_win ops_rising hW part12 63 rfl)
    (binary_at_win ops_rising hW part12 64 rfl) (binary_at_win ops_rising hW part12 65 rfl)
    (nullary_at_win ops_rising hW part12 66 rfl) (unary_at_win ops_rising hW part12 67 rfl)
    (binary_at_win ops_rising hW part13 0 rfl) (binary_at_win ops_rising hW part13 1 rfl)
    (nullary_at_win ops_rising hW part13 2 rfl) (unary_at_win ops_rising hW part13 3 rfl)
    (binary_at_win ops_rising hW part13 4 rfl) (binary_at_win ops_rising hW part13 5 rfl)
    (nullary_at_win ops_rising hW part13 6 rfl) (unary_at_win ops_rising hW part13 7 rfl)
    (binary_at_win ops_rising hW part13 8 rfl) (binary_at_win ops_rising hW part13 9 rfl)
    (nullary_at_win ops_rising hW part13 10 rfl) (unary_at_win ops_rising hW part13 11 rfl)
    (binary_at_win ops_rising hW part13 12 rfl) (binary_at_win ops_rising hW part13 13 rfl)
    (nullary_at_win ops_rising hW part13 14 rfl) (unary_at_win ops_rising hW part13 15 rfl)
    (binary_at_win ops_rising hW part13 16 rfl) (binary_at_win ops_rising hW part13 17 rfl)
    (nullary_at_win ops_rising hW part13 18 rfl) (unary_at_win ops_rising hW part13 19 rfl)
    (binary_at_win ops_rising hW part13 20 rfl) (binary_at_win ops_rising hW part13 21 rfl)
    (nullary_at_win ops_rising hW part13 22 rfl) (nullary_at_win ops_rising hW part13 23 rfl)
    (unary_at_win ops_rising hW part13 24 rfl) (unary_at_win ops_rising hW part13 25 rfl)
    (binary_at_win ops_rising hW part13 26 rfl) (unary_at_win ops_rising hW part13 27 rfl)
    (unary_at_win ops_rising hW part13 28 rfl) (binary_at_win ops_rising hW part13 29 rfl)
    (nullary_at_win ops_rising hW part13 30 rfl) (unary_at_win ops_rising hW part13 31 rfl)
    (binary_at_win ops_rising hW part13 32 rfl) (nullary_at_win ops_rising hW part13 33 rfl)
    (unary_at_win ops_rising hW part13 34 rfl) (binary_at_win ops_rising hW part13 35 rfl)
    (ternary_at_win ops_rising hW part13 36 rfl) (unary_at_win ops_rising hW part13 37 rfl)
    (binary_at_win ops_rising hW part13 38 rfl)

/-- Tap 9's value: the tap of its NIDX and INSIDE, of the features and of slab 9 of the weights. -/
theorem W_tap9 :
    W (Proc.devRef .tc main_v630)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 0#32 4294967295#32 4294967295#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 0#32 4294967295#32 4294967295#32)
          (W (Proc.devRef .tc main_arg0))
          (wslice (W (Proc.devRef .tc main_arg1)) 9 slices_S27x128x20_S1x128x20_9_0_0 shapeCasts_S1x128x20_S128x20) :=
  tap_of_nbr (W_nbr9 hW)
    (tap_compose
      (nullary_at_win ops_rising hW part13 39 rfl) (unary_at_win ops_rising hW part13 40 rfl)
      (binary_at_win ops_rising hW part13 41 rfl) (binary_at_win ops_rising hW part13 42 rfl)
      (unary_at_win ops_rising hW part13 43 rfl) (nullary_at_win ops_rising hW part13 44 rfl)
      (unary_at_win ops_rising hW part13 45 rfl) (binary_at_win ops_rising hW part13 46 rfl)
      (nullary_at_win ops_rising hW part13 47 rfl) (unary_at_win ops_rising hW part13 48 rfl)
      (binary_at_win ops_rising hW part13 49 rfl) (nullary_at_win ops_rising hW part13 50 rfl)
      (unary_at_win ops_rising hW part13 51 rfl) (binary_at_win ops_rising hW part13 52 rfl)
      (ternary_at_win ops_rising hW part13 53 rfl) (unary_at_win ops_rising hW part13 54 rfl)
      (binary_at_win ops_rising hW part13 55 rfl) (nullary_at_win ops_rising hW part13 56 rfl)
      (unary_at_win ops_rising hW part13 57 rfl) (unary_at_win ops_rising hW part13 58 rfl)
      (unary_at_win ops_rising hW part13 59 rfl) (ternary_at_win ops_rising hW part13 60 rfl)
      (unary_at_win ops_rising hW part13 61 rfl) (reshape_at_win ops_rising hW part13 62 rfl)
      (binary_at_win ops_rising hW part13 63 rfl))

/-- Tap 10, offset (0, −1, 0): its INSIDE bits and its NIDX words, as terms of the coordinates and the
    coordinate map. -/
theorem W_nbr10 :
    W (Proc.devRef .tc main_v660)
      = inside slices_S200000x3_S200000x1_0_0 slices_S200000x3_S200000x1_0_1
          slices_S200000x3_S200000x1_0_2 shapeCasts_S200000x1_S200000 bcast_S_S200000
          (W (Proc.devRef .tc main_arg3)) 0#32 4294967295#32 0#32 ∧
    W (Proc.devRef .tc main_v674)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 0#32 4294967295#32 0#32 (W (Proc.devRef .tc main_v20)) :=
  nbr_compose
    (unary_at_win ops_rising hW part13 65 rfl) (reshape_at_win ops_rising hW part13 66 rfl)
    (nullary_at_win ops_rising hW part13 67 rfl) (unary_at_win ops_rising hW part14 0 rfl)
    (binary_at_win ops_rising hW part14 1 rfl) (unary_at_win ops_rising hW part14 2 rfl)
    (reshape_at_win ops_rising hW part14 3 rfl) (nullary_at_win ops_rising hW part14 4 rfl)
    (unary_at_win ops_rising hW part14 5 rfl) (binary_at_win ops_rising hW part14 6 rfl)
    (unary_at_win ops_rising hW part14 7 rfl) (reshape_at_win ops_rising hW part14 8 rfl)
    (nullary_at_win ops_rising hW part14 9 rfl) (unary_at_win ops_rising hW part14 10 rfl)
    (binary_at_win ops_rising hW part14 11 rfl) (nullary_at_win ops_rising hW part14 12 rfl)
    (unary_at_win ops_rising hW part14 13 rfl) (binary_at_win ops_rising hW part14 14 rfl)
    (nullary_at_win ops_rising hW part14 15 rfl) (unary_at_win ops_rising hW part14 16 rfl)
    (binary_at_win ops_rising hW part14 17 rfl) (binary_at_win ops_rising hW part14 18 rfl)
    (nullary_at_win ops_rising hW part14 19 rfl) (unary_at_win ops_rising hW part14 20 rfl)
    (binary_at_win ops_rising hW part14 21 rfl) (binary_at_win ops_rising hW part14 22 rfl)
    (nullary_at_win ops_rising hW part14 23 rfl) (unary_at_win ops_rising hW part14 24 rfl)
    (binary_at_win ops_rising hW part14 25 rfl) (binary_at_win ops_rising hW part14 26 rfl)
    (nullary_at_win ops_rising hW part14 27 rfl) (unary_at_win ops_rising hW part14 28 rfl)
    (binary_at_win ops_rising hW part14 29 rfl) (binary_at_win ops_rising hW part14 30 rfl)
    (nullary_at_win ops_rising hW part14 31 rfl) (unary_at_win ops_rising hW part14 32 rfl)
    (binary_at_win ops_rising hW part14 33 rfl) (binary_at_win ops_rising hW part14 34 rfl)
    (nullary_at_win ops_rising hW part14 35 rfl) (unary_at_win ops_rising hW part14 36 rfl)
    (binary_at_win ops_rising hW part14 37 rfl) (binary_at_win ops_rising hW part14 38 rfl)
    (nullary_at_win ops_rising hW part14 39 rfl) (unary_at_win ops_rising hW part14 40 rfl)
    (binary_at_win ops_rising hW part14 41 rfl) (binary_at_win ops_rising hW part14 42 rfl)
    (nullary_at_win ops_rising hW part14 43 rfl) (nullary_at_win ops_rising hW part14 44 rfl)
    (unary_at_win ops_rising hW part14 45 rfl) (unary_at_win ops_rising hW part14 46 rfl)
    (binary_at_win ops_rising hW part14 47 rfl) (unary_at_win ops_rising hW part14 48 rfl)
    (unary_at_win ops_rising hW part14 49 rfl) (binary_at_win ops_rising hW part14 50 rfl)
    (nullary_at_win ops_rising hW part14 51 rfl) (unary_at_win ops_rising hW part14 52 rfl)
    (binary_at_win ops_rising hW part14 53 rfl) (nullary_at_win ops_rising hW part14 54 rfl)
    (unary_at_win ops_rising hW part14 55 rfl) (binary_at_win ops_rising hW part14 56 rfl)
    (ternary_at_win ops_rising hW part14 57 rfl) (unary_at_win ops_rising hW part14 58 rfl)
    (binary_at_win ops_rising hW part14 59 rfl)

/-- Tap 10's value: the tap of its NIDX and INSIDE, of the features and of slab 10 of the weights. -/
theorem W_tap10 :
    W (Proc.devRef .tc main_v691)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 0#32 4294967295#32 0#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 0#32 4294967295#32 0#32)
          (W (Proc.devRef .tc main_arg0))
          (wslice (W (Proc.devRef .tc main_arg1)) 10 slices_S27x128x20_S1x128x20_10_0_0 shapeCasts_S1x128x20_S128x20) :=
  tap_of_nbr (W_nbr10 hW)
    (tap_compose
      (nullary_at_win ops_rising hW part14 60 rfl) (unary_at_win ops_rising hW part14 61 rfl)
      (binary_at_win ops_rising hW part14 62 rfl) (binary_at_win ops_rising hW part14 63 rfl)
      (unary_at_win ops_rising hW part14 64 rfl) (nullary_at_win ops_rising hW part15 0 rfl)
      (unary_at_win ops_rising hW part15 1 rfl) (binary_at_win ops_rising hW part15 2 rfl)
      (nullary_at_win ops_rising hW part15 3 rfl) (unary_at_win ops_rising hW part15 4 rfl)
      (binary_at_win ops_rising hW part15 5 rfl) (nullary_at_win ops_rising hW part15 6 rfl)
      (unary_at_win ops_rising hW part15 7 rfl) (binary_at_win ops_rising hW part15 8 rfl)
      (ternary_at_win ops_rising hW part15 9 rfl) (unary_at_win ops_rising hW part15 10 rfl)
      (binary_at_win ops_rising hW part15 11 rfl) (nullary_at_win ops_rising hW part15 12 rfl)
      (unary_at_win ops_rising hW part15 13 rfl) (unary_at_win ops_rising hW part15 14 rfl)
      (unary_at_win ops_rising hW part15 15 rfl) (ternary_at_win ops_rising hW part15 16 rfl)
      (unary_at_win ops_rising hW part15 17 rfl) (reshape_at_win ops_rising hW part15 18 rfl)
      (binary_at_win ops_rising hW part15 19 rfl))

/-- Tap 11, offset (0, −1, 1): its INSIDE bits and its NIDX words, as terms of the coordinates and the
    coordinate map. -/
theorem W_nbr11 :
    W (Proc.devRef .tc main_v721)
      = inside slices_S200000x3_S200000x1_0_0 slices_S200000x3_S200000x1_0_1
          slices_S200000x3_S200000x1_0_2 shapeCasts_S200000x1_S200000 bcast_S_S200000
          (W (Proc.devRef .tc main_arg3)) 0#32 4294967295#32 1#32 ∧
    W (Proc.devRef .tc main_v735)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 0#32 4294967295#32 1#32 (W (Proc.devRef .tc main_v20)) :=
  nbr_compose
    (unary_at_win ops_rising hW part15 21 rfl) (reshape_at_win ops_rising hW part15 22 rfl)
    (nullary_at_win ops_rising hW part15 23 rfl) (unary_at_win ops_rising hW part15 24 rfl)
    (binary_at_win ops_rising hW part15 25 rfl) (unary_at_win ops_rising hW part15 26 rfl)
    (reshape_at_win ops_rising hW part15 27 rfl) (nullary_at_win ops_rising hW part15 28 rfl)
    (unary_at_win ops_rising hW part15 29 rfl) (binary_at_win ops_rising hW part15 30 rfl)
    (unary_at_win ops_rising hW part15 31 rfl) (reshape_at_win ops_rising hW part15 32 rfl)
    (nullary_at_win ops_rising hW part15 33 rfl) (unary_at_win ops_rising hW part15 34 rfl)
    (binary_at_win ops_rising hW part15 35 rfl) (nullary_at_win ops_rising hW part15 36 rfl)
    (unary_at_win ops_rising hW part15 37 rfl) (binary_at_win ops_rising hW part15 38 rfl)
    (nullary_at_win ops_rising hW part15 39 rfl) (unary_at_win ops_rising hW part15 40 rfl)
    (binary_at_win ops_rising hW part15 41 rfl) (binary_at_win ops_rising hW part15 42 rfl)
    (nullary_at_win ops_rising hW part15 43 rfl) (unary_at_win ops_rising hW part15 44 rfl)
    (binary_at_win ops_rising hW part15 45 rfl) (binary_at_win ops_rising hW part15 46 rfl)
    (nullary_at_win ops_rising hW part15 47 rfl) (unary_at_win ops_rising hW part15 48 rfl)
    (binary_at_win ops_rising hW part15 49 rfl) (binary_at_win ops_rising hW part15 50 rfl)
    (nullary_at_win ops_rising hW part15 51 rfl) (unary_at_win ops_rising hW part15 52 rfl)
    (binary_at_win ops_rising hW part15 53 rfl) (binary_at_win ops_rising hW part15 54 rfl)
    (nullary_at_win ops_rising hW part15 55 rfl) (unary_at_win ops_rising hW part15 56 rfl)
    (binary_at_win ops_rising hW part15 57 rfl) (binary_at_win ops_rising hW part15 58 rfl)
    (nullary_at_win ops_rising hW part15 59 rfl) (unary_at_win ops_rising hW part15 60 rfl)
    (binary_at_win ops_rising hW part15 61 rfl) (binary_at_win ops_rising hW part15 62 rfl)
    (nullary_at_win ops_rising hW part16 0 rfl) (unary_at_win ops_rising hW part16 1 rfl)
    (binary_at_win ops_rising hW part16 2 rfl) (binary_at_win ops_rising hW part16 3 rfl)
    (nullary_at_win ops_rising hW part16 4 rfl) (nullary_at_win ops_rising hW part16 5 rfl)
    (unary_at_win ops_rising hW part16 6 rfl) (unary_at_win ops_rising hW part16 7 rfl)
    (binary_at_win ops_rising hW part16 8 rfl) (unary_at_win ops_rising hW part16 9 rfl)
    (unary_at_win ops_rising hW part16 10 rfl) (binary_at_win ops_rising hW part16 11 rfl)
    (nullary_at_win ops_rising hW part16 12 rfl) (unary_at_win ops_rising hW part16 13 rfl)
    (binary_at_win ops_rising hW part16 14 rfl) (nullary_at_win ops_rising hW part16 15 rfl)
    (unary_at_win ops_rising hW part16 16 rfl) (binary_at_win ops_rising hW part16 17 rfl)
    (ternary_at_win ops_rising hW part16 18 rfl) (unary_at_win ops_rising hW part16 19 rfl)
    (binary_at_win ops_rising hW part16 20 rfl)

/-- Tap 11's value: the tap of its NIDX and INSIDE, of the features and of slab 11 of the weights. -/
theorem W_tap11 :
    W (Proc.devRef .tc main_v752)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 0#32 4294967295#32 1#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 0#32 4294967295#32 1#32)
          (W (Proc.devRef .tc main_arg0))
          (wslice (W (Proc.devRef .tc main_arg1)) 11 slices_S27x128x20_S1x128x20_11_0_0 shapeCasts_S1x128x20_S128x20) :=
  tap_of_nbr (W_nbr11 hW)
    (tap_compose
      (nullary_at_win ops_rising hW part16 21 rfl) (unary_at_win ops_rising hW part16 22 rfl)
      (binary_at_win ops_rising hW part16 23 rfl) (binary_at_win ops_rising hW part16 24 rfl)
      (unary_at_win ops_rising hW part16 25 rfl) (nullary_at_win ops_rising hW part16 26 rfl)
      (unary_at_win ops_rising hW part16 27 rfl) (binary_at_win ops_rising hW part16 28 rfl)
      (nullary_at_win ops_rising hW part16 29 rfl) (unary_at_win ops_rising hW part16 30 rfl)
      (binary_at_win ops_rising hW part16 31 rfl) (nullary_at_win ops_rising hW part16 32 rfl)
      (unary_at_win ops_rising hW part16 33 rfl) (binary_at_win ops_rising hW part16 34 rfl)
      (ternary_at_win ops_rising hW part16 35 rfl) (unary_at_win ops_rising hW part16 36 rfl)
      (binary_at_win ops_rising hW part16 37 rfl) (nullary_at_win ops_rising hW part16 38 rfl)
      (unary_at_win ops_rising hW part16 39 rfl) (unary_at_win ops_rising hW part16 40 rfl)
      (unary_at_win ops_rising hW part16 41 rfl) (ternary_at_win ops_rising hW part16 42 rfl)
      (unary_at_win ops_rising hW part16 43 rfl) (reshape_at_win ops_rising hW part16 44 rfl)
      (binary_at_win ops_rising hW part16 45 rfl))

/-- Tap 12, offset (0, 0, −1): its INSIDE bits and its NIDX words, as terms of the coordinates and the
    coordinate map. -/
theorem W_nbr12 :
    W (Proc.devRef .tc main_v782)
      = inside slices_S200000x3_S200000x1_0_0 slices_S200000x3_S200000x1_0_1
          slices_S200000x3_S200000x1_0_2 shapeCasts_S200000x1_S200000 bcast_S_S200000
          (W (Proc.devRef .tc main_arg3)) 0#32 0#32 4294967295#32 ∧
    W (Proc.devRef .tc main_v796)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 0#32 0#32 4294967295#32 (W (Proc.devRef .tc main_v20)) :=
  nbr_compose
    (unary_at_win ops_rising hW part16 47 rfl) (reshape_at_win ops_rising hW part16 48 rfl)
    (nullary_at_win ops_rising hW part16 49 rfl) (unary_at_win ops_rising hW part16 50 rfl)
    (binary_at_win ops_rising hW part16 51 rfl) (unary_at_win ops_rising hW part16 52 rfl)
    (reshape_at_win ops_rising hW part16 53 rfl) (nullary_at_win ops_rising hW part16 54 rfl)
    (unary_at_win ops_rising hW part16 55 rfl) (binary_at_win ops_rising hW part16 56 rfl)
    (unary_at_win ops_rising hW part16 57 rfl) (reshape_at_win ops_rising hW part16 58 rfl)
    (nullary_at_win ops_rising hW part16 59 rfl) (unary_at_win ops_rising hW part16 60 rfl)
    (binary_at_win ops_rising hW part16 61 rfl) (nullary_at_win ops_rising hW part16 62 rfl)
    (unary_at_win ops_rising hW part16 63 rfl) (binary_at_win ops_rising hW part16 64 rfl)
    (nullary_at_win ops_rising hW part16 65 rfl) (unary_at_win ops_rising hW part16 66 rfl)
    (binary_at_win ops_rising hW part16 67 rfl) (binary_at_win ops_rising hW part17 0 rfl)
    (nullary_at_win ops_rising hW part17 1 rfl) (unary_at_win ops_rising hW part17 2 rfl)
    (binary_at_win ops_rising hW part17 3 rfl) (binary_at_win ops_rising hW part17 4 rfl)
    (nullary_at_win ops_rising hW part17 5 rfl) (unary_at_win ops_rising hW part17 6 rfl)
    (binary_at_win ops_rising hW part17 7 rfl) (binary_at_win ops_rising hW part17 8 rfl)
    (nullary_at_win ops_rising hW part17 9 rfl) (unary_at_win ops_rising hW part17 10 rfl)
    (binary_at_win ops_rising hW part17 11 rfl) (binary_at_win ops_rising hW part17 12 rfl)
    (nullary_at_win ops_rising hW part17 13 rfl) (unary_at_win ops_rising hW part17 14 rfl)
    (binary_at_win ops_rising hW part17 15 rfl) (binary_at_win ops_rising hW part17 16 rfl)
    (nullary_at_win ops_rising hW part17 17 rfl) (unary_at_win ops_rising hW part17 18 rfl)
    (binary_at_win ops_rising hW part17 19 rfl) (binary_at_win ops_rising hW part17 20 rfl)
    (nullary_at_win ops_rising hW part17 21 rfl) (unary_at_win ops_rising hW part17 22 rfl)
    (binary_at_win ops_rising hW part17 23 rfl) (binary_at_win ops_rising hW part17 24 rfl)
    (nullary_at_win ops_rising hW part17 25 rfl) (nullary_at_win ops_rising hW part17 26 rfl)
    (unary_at_win ops_rising hW part17 27 rfl) (unary_at_win ops_rising hW part17 28 rfl)
    (binary_at_win ops_rising hW part17 29 rfl) (unary_at_win ops_rising hW part17 30 rfl)
    (unary_at_win ops_rising hW part17 31 rfl) (binary_at_win ops_rising hW part17 32 rfl)
    (nullary_at_win ops_rising hW part17 33 rfl) (unary_at_win ops_rising hW part17 34 rfl)
    (binary_at_win ops_rising hW part17 35 rfl) (nullary_at_win ops_rising hW part17 36 rfl)
    (unary_at_win ops_rising hW part17 37 rfl) (binary_at_win ops_rising hW part17 38 rfl)
    (ternary_at_win ops_rising hW part17 39 rfl) (unary_at_win ops_rising hW part17 40 rfl)
    (binary_at_win ops_rising hW part17 41 rfl)

/-- Tap 12's value: the tap of its NIDX and INSIDE, of the features and of slab 12 of the weights. -/
theorem W_tap12 :
    W (Proc.devRef .tc main_v813)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 0#32 0#32 4294967295#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 0#32 0#32 4294967295#32)
          (W (Proc.devRef .tc main_arg0))
          (wslice (W (Proc.devRef .tc main_arg1)) 12 slices_S27x128x20_S1x128x20_12_0_0 shapeCasts_S1x128x20_S128x20) :=
  tap_of_nbr (W_nbr12 hW)
    (tap_compose
      (nullary_at_win ops_rising hW part17 42 rfl) (unary_at_win ops_rising hW part17 43 rfl)
      (binary_at_win ops_rising hW part17 44 rfl) (binary_at_win ops_rising hW part17 45 rfl)
      (unary_at_win ops_rising hW part17 46 rfl) (nullary_at_win ops_rising hW part17 47 rfl)
      (unary_at_win ops_rising hW part17 48 rfl) (binary_at_win ops_rising hW part17 49 rfl)
      (nullary_at_win ops_rising hW part17 50 rfl) (unary_at_win ops_rising hW part17 51 rfl)
      (binary_at_win ops_rising hW part17 52 rfl) (nullary_at_win ops_rising hW part17 53 rfl)
      (unary_at_win ops_rising hW part17 54 rfl) (binary_at_win ops_rising hW part17 55 rfl)
      (ternary_at_win ops_rising hW part17 56 rfl) (unary_at_win ops_rising hW part17 57 rfl)
      (binary_at_win ops_rising hW part17 58 rfl) (nullary_at_win ops_rising hW part17 59 rfl)
      (unary_at_win ops_rising hW part17 60 rfl) (unary_at_win ops_rising hW part17 61 rfl)
      (unary_at_win ops_rising hW part17 62 rfl) (ternary_at_win ops_rising hW part17 63 rfl)
      (unary_at_win ops_rising hW part17 64 rfl) (reshape_at_win ops_rising hW part17 65 rfl)
      (binary_at_win ops_rising hW part17 66 rfl))

/-- Tap 13, offset (0, 0, 0): its INSIDE bits and its NIDX words, as terms of the coordinates and the
    coordinate map. -/
theorem W_nbr13 :
    W (Proc.devRef .tc main_v843)
      = inside slices_S200000x3_S200000x1_0_0 slices_S200000x3_S200000x1_0_1
          slices_S200000x3_S200000x1_0_2 shapeCasts_S200000x1_S200000 bcast_S_S200000
          (W (Proc.devRef .tc main_arg3)) 0#32 0#32 0#32 ∧
    W (Proc.devRef .tc main_v857)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 0#32 0#32 0#32 (W (Proc.devRef .tc main_v20)) :=
  nbr_compose
    (unary_at_win ops_rising hW part18 0 rfl) (reshape_at_win ops_rising hW part18 1 rfl)
    (nullary_at_win ops_rising hW part18 2 rfl) (unary_at_win ops_rising hW part18 3 rfl)
    (binary_at_win ops_rising hW part18 4 rfl) (unary_at_win ops_rising hW part18 5 rfl)
    (reshape_at_win ops_rising hW part18 6 rfl) (nullary_at_win ops_rising hW part18 7 rfl)
    (unary_at_win ops_rising hW part18 8 rfl) (binary_at_win ops_rising hW part18 9 rfl)
    (unary_at_win ops_rising hW part18 10 rfl) (reshape_at_win ops_rising hW part18 11 rfl)
    (nullary_at_win ops_rising hW part18 12 rfl) (unary_at_win ops_rising hW part18 13 rfl)
    (binary_at_win ops_rising hW part18 14 rfl) (nullary_at_win ops_rising hW part18 15 rfl)
    (unary_at_win ops_rising hW part18 16 rfl) (binary_at_win ops_rising hW part18 17 rfl)
    (nullary_at_win ops_rising hW part18 18 rfl) (unary_at_win ops_rising hW part18 19 rfl)
    (binary_at_win ops_rising hW part18 20 rfl) (binary_at_win ops_rising hW part18 21 rfl)
    (nullary_at_win ops_rising hW part18 22 rfl) (unary_at_win ops_rising hW part18 23 rfl)
    (binary_at_win ops_rising hW part18 24 rfl) (binary_at_win ops_rising hW part18 25 rfl)
    (nullary_at_win ops_rising hW part18 26 rfl) (unary_at_win ops_rising hW part18 27 rfl)
    (binary_at_win ops_rising hW part18 28 rfl) (binary_at_win ops_rising hW part18 29 rfl)
    (nullary_at_win ops_rising hW part18 30 rfl) (unary_at_win ops_rising hW part18 31 rfl)
    (binary_at_win ops_rising hW part18 32 rfl) (binary_at_win ops_rising hW part18 33 rfl)
    (nullary_at_win ops_rising hW part18 34 rfl) (unary_at_win ops_rising hW part18 35 rfl)
    (binary_at_win ops_rising hW part18 36 rfl) (binary_at_win ops_rising hW part18 37 rfl)
    (nullary_at_win ops_rising hW part18 38 rfl) (unary_at_win ops_rising hW part18 39 rfl)
    (binary_at_win ops_rising hW part18 40 rfl) (binary_at_win ops_rising hW part18 41 rfl)
    (nullary_at_win ops_rising hW part18 42 rfl) (unary_at_win ops_rising hW part18 43 rfl)
    (binary_at_win ops_rising hW part18 44 rfl) (binary_at_win ops_rising hW part18 45 rfl)
    (nullary_at_win ops_rising hW part18 46 rfl) (nullary_at_win ops_rising hW part18 47 rfl)
    (unary_at_win ops_rising hW part18 48 rfl) (unary_at_win ops_rising hW part18 49 rfl)
    (binary_at_win ops_rising hW part18 50 rfl) (unary_at_win ops_rising hW part18 51 rfl)
    (unary_at_win ops_rising hW part18 52 rfl) (binary_at_win ops_rising hW part18 53 rfl)
    (nullary_at_win ops_rising hW part18 54 rfl) (unary_at_win ops_rising hW part18 55 rfl)
    (binary_at_win ops_rising hW part18 56 rfl) (nullary_at_win ops_rising hW part18 57 rfl)
    (unary_at_win ops_rising hW part18 58 rfl) (binary_at_win ops_rising hW part18 59 rfl)
    (ternary_at_win ops_rising hW part18 60 rfl) (unary_at_win ops_rising hW part18 61 rfl)
    (binary_at_win ops_rising hW part18 62 rfl)

/-- Tap 13's value: the tap of its NIDX and INSIDE, of the features and of slab 13 of the weights. -/
theorem W_tap13 :
    W (Proc.devRef .tc main_v874)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 0#32 0#32 0#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 0#32 0#32 0#32)
          (W (Proc.devRef .tc main_arg0))
          (wslice (W (Proc.devRef .tc main_arg1)) 13 slices_S27x128x20_S1x128x20_13_0_0 shapeCasts_S1x128x20_S128x20) :=
  tap_of_nbr (W_nbr13 hW)
    (tap_compose
      (nullary_at_win ops_rising hW part18 63 rfl) (unary_at_win ops_rising hW part18 64 rfl)
      (binary_at_win ops_rising hW part19 0 rfl) (binary_at_win ops_rising hW part19 1 rfl)
      (unary_at_win ops_rising hW part19 2 rfl) (nullary_at_win ops_rising hW part19 3 rfl)
      (unary_at_win ops_rising hW part19 4 rfl) (binary_at_win ops_rising hW part19 5 rfl)
      (nullary_at_win ops_rising hW part19 6 rfl) (unary_at_win ops_rising hW part19 7 rfl)
      (binary_at_win ops_rising hW part19 8 rfl) (nullary_at_win ops_rising hW part19 9 rfl)
      (unary_at_win ops_rising hW part19 10 rfl) (binary_at_win ops_rising hW part19 11 rfl)
      (ternary_at_win ops_rising hW part19 12 rfl) (unary_at_win ops_rising hW part19 13 rfl)
      (binary_at_win ops_rising hW part19 14 rfl) (nullary_at_win ops_rising hW part19 15 rfl)
      (unary_at_win ops_rising hW part19 16 rfl) (unary_at_win ops_rising hW part19 17 rfl)
      (unary_at_win ops_rising hW part19 18 rfl) (ternary_at_win ops_rising hW part19 19 rfl)
      (unary_at_win ops_rising hW part19 20 rfl) (reshape_at_win ops_rising hW part19 21 rfl)
      (binary_at_win ops_rising hW part19 22 rfl))

/-- Tap 14, offset (0, 0, 1): its INSIDE bits and its NIDX words, as terms of the coordinates and the
    coordinate map. -/
theorem W_nbr14 :
    W (Proc.devRef .tc main_v904)
      = inside slices_S200000x3_S200000x1_0_0 slices_S200000x3_S200000x1_0_1
          slices_S200000x3_S200000x1_0_2 shapeCasts_S200000x1_S200000 bcast_S_S200000
          (W (Proc.devRef .tc main_arg3)) 0#32 0#32 1#32 ∧
    W (Proc.devRef .tc main_v918)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 0#32 0#32 1#32 (W (Proc.devRef .tc main_v20)) :=
  nbr_compose
    (unary_at_win ops_rising hW part19 24 rfl) (reshape_at_win ops_rising hW part19 25 rfl)
    (nullary_at_win ops_rising hW part19 26 rfl) (unary_at_win ops_rising hW part19 27 rfl)
    (binary_at_win ops_rising hW part19 28 rfl) (unary_at_win ops_rising hW part19 29 rfl)
    (reshape_at_win ops_rising hW part19 30 rfl) (nullary_at_win ops_rising hW part19 31 rfl)
    (unary_at_win ops_rising hW part19 32 rfl) (binary_at_win ops_rising hW part19 33 rfl)
    (unary_at_win ops_rising hW part19 34 rfl) (reshape_at_win ops_rising hW part19 35 rfl)
    (nullary_at_win ops_rising hW part19 36 rfl) (unary_at_win ops_rising hW part19 37 rfl)
    (binary_at_win ops_rising hW part19 38 rfl) (nullary_at_win ops_rising hW part19 39 rfl)
    (unary_at_win ops_rising hW part19 40 rfl) (binary_at_win ops_rising hW part19 41 rfl)
    (nullary_at_win ops_rising hW part19 42 rfl) (unary_at_win ops_rising hW part19 43 rfl)
    (binary_at_win ops_rising hW part19 44 rfl) (binary_at_win ops_rising hW part19 45 rfl)
    (nullary_at_win ops_rising hW part19 46 rfl) (unary_at_win ops_rising hW part19 47 rfl)
    (binary_at_win ops_rising hW part19 48 rfl) (binary_at_win ops_rising hW part19 49 rfl)
    (nullary_at_win ops_rising hW part19 50 rfl) (unary_at_win ops_rising hW part19 51 rfl)
    (binary_at_win ops_rising hW part19 52 rfl) (binary_at_win ops_rising hW part19 53 rfl)
    (nullary_at_win ops_rising hW part19 54 rfl) (unary_at_win ops_rising hW part19 55 rfl)
    (binary_at_win ops_rising hW part19 56 rfl) (binary_at_win ops_rising hW part19 57 rfl)
    (nullary_at_win ops_rising hW part19 58 rfl) (unary_at_win ops_rising hW part19 59 rfl)
    (binary_at_win ops_rising hW part19 60 rfl) (binary_at_win ops_rising hW part19 61 rfl)
    (nullary_at_win ops_rising hW part19 62 rfl) (unary_at_win ops_rising hW part20 0 rfl)
    (binary_at_win ops_rising hW part20 1 rfl) (binary_at_win ops_rising hW part20 2 rfl)
    (nullary_at_win ops_rising hW part20 3 rfl) (unary_at_win ops_rising hW part20 4 rfl)
    (binary_at_win ops_rising hW part20 5 rfl) (binary_at_win ops_rising hW part20 6 rfl)
    (nullary_at_win ops_rising hW part20 7 rfl) (nullary_at_win ops_rising hW part20 8 rfl)
    (unary_at_win ops_rising hW part20 9 rfl) (unary_at_win ops_rising hW part20 10 rfl)
    (binary_at_win ops_rising hW part20 11 rfl) (unary_at_win ops_rising hW part20 12 rfl)
    (unary_at_win ops_rising hW part20 13 rfl) (binary_at_win ops_rising hW part20 14 rfl)
    (nullary_at_win ops_rising hW part20 15 rfl) (unary_at_win ops_rising hW part20 16 rfl)
    (binary_at_win ops_rising hW part20 17 rfl) (nullary_at_win ops_rising hW part20 18 rfl)
    (unary_at_win ops_rising hW part20 19 rfl) (binary_at_win ops_rising hW part20 20 rfl)
    (ternary_at_win ops_rising hW part20 21 rfl) (unary_at_win ops_rising hW part20 22 rfl)
    (binary_at_win ops_rising hW part20 23 rfl)

/-- Tap 14's value: the tap of its NIDX and INSIDE, of the features and of slab 14 of the weights. -/
theorem W_tap14 :
    W (Proc.devRef .tc main_v935)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 0#32 0#32 1#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 0#32 0#32 1#32)
          (W (Proc.devRef .tc main_arg0))
          (wslice (W (Proc.devRef .tc main_arg1)) 14 slices_S27x128x20_S1x128x20_14_0_0 shapeCasts_S1x128x20_S128x20) :=
  tap_of_nbr (W_nbr14 hW)
    (tap_compose
      (nullary_at_win ops_rising hW part20 24 rfl) (unary_at_win ops_rising hW part20 25 rfl)
      (binary_at_win ops_rising hW part20 26 rfl) (binary_at_win ops_rising hW part20 27 rfl)
      (unary_at_win ops_rising hW part20 28 rfl) (nullary_at_win ops_rising hW part20 29 rfl)
      (unary_at_win ops_rising hW part20 30 rfl) (binary_at_win ops_rising hW part20 31 rfl)
      (nullary_at_win ops_rising hW part20 32 rfl) (unary_at_win ops_rising hW part20 33 rfl)
      (binary_at_win ops_rising hW part20 34 rfl) (nullary_at_win ops_rising hW part20 35 rfl)
      (unary_at_win ops_rising hW part20 36 rfl) (binary_at_win ops_rising hW part20 37 rfl)
      (ternary_at_win ops_rising hW part20 38 rfl) (unary_at_win ops_rising hW part20 39 rfl)
      (binary_at_win ops_rising hW part20 40 rfl) (nullary_at_win ops_rising hW part20 41 rfl)
      (unary_at_win ops_rising hW part20 42 rfl) (unary_at_win ops_rising hW part20 43 rfl)
      (unary_at_win ops_rising hW part20 44 rfl) (ternary_at_win ops_rising hW part20 45 rfl)
      (unary_at_win ops_rising hW part20 46 rfl) (reshape_at_win ops_rising hW part20 47 rfl)
      (binary_at_win ops_rising hW part20 48 rfl))

/-- Tap 15, offset (0, 1, −1): its INSIDE bits and its NIDX words, as terms of the coordinates and the
    coordinate map. -/
theorem W_nbr15 :
    W (Proc.devRef .tc main_v965)
      = inside slices_S200000x3_S200000x1_0_0 slices_S200000x3_S200000x1_0_1
          slices_S200000x3_S200000x1_0_2 shapeCasts_S200000x1_S200000 bcast_S_S200000
          (W (Proc.devRef .tc main_arg3)) 0#32 1#32 4294967295#32 ∧
    W (Proc.devRef .tc main_v979)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 0#32 1#32 4294967295#32 (W (Proc.devRef .tc main_v20)) :=
  nbr_compose
    (unary_at_win ops_rising hW part20 50 rfl) (reshape_at_win ops_rising hW part20 51 rfl)
    (nullary_at_win ops_rising hW part20 52 rfl) (unary_at_win ops_rising hW part20 53 rfl)
    (binary_at_win ops_rising hW part20 54 rfl) (unary_at_win ops_rising hW part20 55 rfl)
    (reshape_at_win ops_rising hW part20 56 rfl) (nullary_at_win ops_rising hW part20 57 rfl)
    (unary_at_win ops_rising hW part20 58 rfl) (binary_at_win ops_rising hW part20 59 rfl)
    (unary_at_win ops_rising hW part20 60 rfl) (reshape_at_win ops_rising hW part20 61 rfl)
    (nullary_at_win ops_rising hW part20 62 rfl) (unary_at_win ops_rising hW part20 63 rfl)
    (binary_at_win ops_rising hW part20 64 rfl) (nullary_at_win ops_rising hW part20 65 rfl)
    (unary_at_win ops_rising hW part20 66 rfl) (binary_at_win ops_rising hW part20 67 rfl)
    (nullary_at_win ops_rising hW part21 0 rfl) (unary_at_win ops_rising hW part21 1 rfl)
    (binary_at_win ops_rising hW part21 2 rfl) (binary_at_win ops_rising hW part21 3 rfl)
    (nullary_at_win ops_rising hW part21 4 rfl) (unary_at_win ops_rising hW part21 5 rfl)
    (binary_at_win ops_rising hW part21 6 rfl) (binary_at_win ops_rising hW part21 7 rfl)
    (nullary_at_win ops_rising hW part21 8 rfl) (unary_at_win ops_rising hW part21 9 rfl)
    (binary_at_win ops_rising hW part21 10 rfl) (binary_at_win ops_rising hW part21 11 rfl)
    (nullary_at_win ops_rising hW part21 12 rfl) (unary_at_win ops_rising hW part21 13 rfl)
    (binary_at_win ops_rising hW part21 14 rfl) (binary_at_win ops_rising hW part21 15 rfl)
    (nullary_at_win ops_rising hW part21 16 rfl) (unary_at_win ops_rising hW part21 17 rfl)
    (binary_at_win ops_rising hW part21 18 rfl) (binary_at_win ops_rising hW part21 19 rfl)
    (nullary_at_win ops_rising hW part21 20 rfl) (unary_at_win ops_rising hW part21 21 rfl)
    (binary_at_win ops_rising hW part21 22 rfl) (binary_at_win ops_rising hW part21 23 rfl)
    (nullary_at_win ops_rising hW part21 24 rfl) (unary_at_win ops_rising hW part21 25 rfl)
    (binary_at_win ops_rising hW part21 26 rfl) (binary_at_win ops_rising hW part21 27 rfl)
    (nullary_at_win ops_rising hW part21 28 rfl) (nullary_at_win ops_rising hW part21 29 rfl)
    (unary_at_win ops_rising hW part21 30 rfl) (unary_at_win ops_rising hW part21 31 rfl)
    (binary_at_win ops_rising hW part21 32 rfl) (unary_at_win ops_rising hW part21 33 rfl)
    (unary_at_win ops_rising hW part21 34 rfl) (binary_at_win ops_rising hW part21 35 rfl)
    (nullary_at_win ops_rising hW part21 36 rfl) (unary_at_win ops_rising hW part21 37 rfl)
    (binary_at_win ops_rising hW part21 38 rfl) (nullary_at_win ops_rising hW part21 39 rfl)
    (unary_at_win ops_rising hW part21 40 rfl) (binary_at_win ops_rising hW part21 41 rfl)
    (ternary_at_win ops_rising hW part21 42 rfl) (unary_at_win ops_rising hW part21 43 rfl)
    (binary_at_win ops_rising hW part21 44 rfl)

/-- Tap 15's value: the tap of its NIDX and INSIDE, of the features and of slab 15 of the weights. -/
theorem W_tap15 :
    W (Proc.devRef .tc main_v996)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 0#32 1#32 4294967295#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 0#32 1#32 4294967295#32)
          (W (Proc.devRef .tc main_arg0))
          (wslice (W (Proc.devRef .tc main_arg1)) 15 slices_S27x128x20_S1x128x20_15_0_0 shapeCasts_S1x128x20_S128x20) :=
  tap_of_nbr (W_nbr15 hW)
    (tap_compose
      (nullary_at_win ops_rising hW part21 45 rfl) (unary_at_win ops_rising hW part21 46 rfl)
      (binary_at_win ops_rising hW part21 47 rfl) (binary_at_win ops_rising hW part21 48 rfl)
      (unary_at_win ops_rising hW part21 49 rfl) (nullary_at_win ops_rising hW part21 50 rfl)
      (unary_at_win ops_rising hW part21 51 rfl) (binary_at_win ops_rising hW part21 52 rfl)
      (nullary_at_win ops_rising hW part21 53 rfl) (unary_at_win ops_rising hW part21 54 rfl)
      (binary_at_win ops_rising hW part21 55 rfl) (nullary_at_win ops_rising hW part21 56 rfl)
      (unary_at_win ops_rising hW part21 57 rfl) (binary_at_win ops_rising hW part21 58 rfl)
      (ternary_at_win ops_rising hW part21 59 rfl) (unary_at_win ops_rising hW part21 60 rfl)
      (binary_at_win ops_rising hW part21 61 rfl) (nullary_at_win ops_rising hW part21 62 rfl)
      (unary_at_win ops_rising hW part21 63 rfl) (unary_at_win ops_rising hW part21 64 rfl)
      (unary_at_win ops_rising hW part21 65 rfl) (ternary_at_win ops_rising hW part21 66 rfl)
      (unary_at_win ops_rising hW part21 67 rfl) (reshape_at_win ops_rising hW part22 0 rfl)
      (binary_at_win ops_rising hW part22 1 rfl))

/-- Tap 16, offset (0, 1, 0): its INSIDE bits and its NIDX words, as terms of the coordinates and the
    coordinate map. -/
theorem W_nbr16 :
    W (Proc.devRef .tc main_v1026)
      = inside slices_S200000x3_S200000x1_0_0 slices_S200000x3_S200000x1_0_1
          slices_S200000x3_S200000x1_0_2 shapeCasts_S200000x1_S200000 bcast_S_S200000
          (W (Proc.devRef .tc main_arg3)) 0#32 1#32 0#32 ∧
    W (Proc.devRef .tc main_v1040)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 0#32 1#32 0#32 (W (Proc.devRef .tc main_v20)) :=
  nbr_compose
    (unary_at_win ops_rising hW part22 3 rfl) (reshape_at_win ops_rising hW part22 4 rfl)
    (nullary_at_win ops_rising hW part22 5 rfl) (unary_at_win ops_rising hW part22 6 rfl)
    (binary_at_win ops_rising hW part22 7 rfl) (unary_at_win ops_rising hW part22 8 rfl)
    (reshape_at_win ops_rising hW part22 9 rfl) (nullary_at_win ops_rising hW part22 10 rfl)
    (unary_at_win ops_rising hW part22 11 rfl) (binary_at_win ops_rising hW part22 12 rfl)
    (unary_at_win ops_rising hW part22 13 rfl) (reshape_at_win ops_rising hW part22 14 rfl)
    (nullary_at_win ops_rising hW part22 15 rfl) (unary_at_win ops_rising hW part22 16 rfl)
    (binary_at_win ops_rising hW part22 17 rfl) (nullary_at_win ops_rising hW part22 18 rfl)
    (unary_at_win ops_rising hW part22 19 rfl) (binary_at_win ops_rising hW part22 20 rfl)
    (nullary_at_win ops_rising hW part22 21 rfl) (unary_at_win ops_rising hW part22 22 rfl)
    (binary_at_win ops_rising hW part22 23 rfl) (binary_at_win ops_rising hW part22 24 rfl)
    (nullary_at_win ops_rising hW part22 25 rfl) (unary_at_win ops_rising hW part22 26 rfl)
    (binary_at_win ops_rising hW part22 27 rfl) (binary_at_win ops_rising hW part22 28 rfl)
    (nullary_at_win ops_rising hW part22 29 rfl) (unary_at_win ops_rising hW part22 30 rfl)
    (binary_at_win ops_rising hW part22 31 rfl) (binary_at_win ops_rising hW part22 32 rfl)
    (nullary_at_win ops_rising hW part22 33 rfl) (unary_at_win ops_rising hW part22 34 rfl)
    (binary_at_win ops_rising hW part22 35 rfl) (binary_at_win ops_rising hW part22 36 rfl)
    (nullary_at_win ops_rising hW part22 37 rfl) (unary_at_win ops_rising hW part22 38 rfl)
    (binary_at_win ops_rising hW part22 39 rfl) (binary_at_win ops_rising hW part22 40 rfl)
    (nullary_at_win ops_rising hW part22 41 rfl) (unary_at_win ops_rising hW part22 42 rfl)
    (binary_at_win ops_rising hW part22 43 rfl) (binary_at_win ops_rising hW part22 44 rfl)
    (nullary_at_win ops_rising hW part22 45 rfl) (unary_at_win ops_rising hW part22 46 rfl)
    (binary_at_win ops_rising hW part22 47 rfl) (binary_at_win ops_rising hW part22 48 rfl)
    (nullary_at_win ops_rising hW part22 49 rfl) (nullary_at_win ops_rising hW part22 50 rfl)
    (unary_at_win ops_rising hW part22 51 rfl) (unary_at_win ops_rising hW part22 52 rfl)
    (binary_at_win ops_rising hW part22 53 rfl) (unary_at_win ops_rising hW part22 54 rfl)
    (unary_at_win ops_rising hW part22 55 rfl) (binary_at_win ops_rising hW part22 56 rfl)
    (nullary_at_win ops_rising hW part22 57 rfl) (unary_at_win ops_rising hW part22 58 rfl)
    (binary_at_win ops_rising hW part22 59 rfl) (nullary_at_win ops_rising hW part22 60 rfl)
    (unary_at_win ops_rising hW part22 61 rfl) (binary_at_win ops_rising hW part22 62 rfl)
    (ternary_at_win ops_rising hW part22 63 rfl) (unary_at_win ops_rising hW part22 64 rfl)
    (binary_at_win ops_rising hW part23 0 rfl)

/-- Tap 16's value: the tap of its NIDX and INSIDE, of the features and of slab 16 of the weights. -/
theorem W_tap16 :
    W (Proc.devRef .tc main_v1057)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 0#32 1#32 0#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 0#32 1#32 0#32)
          (W (Proc.devRef .tc main_arg0))
          (wslice (W (Proc.devRef .tc main_arg1)) 16 slices_S27x128x20_S1x128x20_16_0_0 shapeCasts_S1x128x20_S128x20) :=
  tap_of_nbr (W_nbr16 hW)
    (tap_compose
      (nullary_at_win ops_rising hW part23 1 rfl) (unary_at_win ops_rising hW part23 2 rfl)
      (binary_at_win ops_rising hW part23 3 rfl) (binary_at_win ops_rising hW part23 4 rfl)
      (unary_at_win ops_rising hW part23 5 rfl) (nullary_at_win ops_rising hW part23 6 rfl)
      (unary_at_win ops_rising hW part23 7 rfl) (binary_at_win ops_rising hW part23 8 rfl)
      (nullary_at_win ops_rising hW part23 9 rfl) (unary_at_win ops_rising hW part23 10 rfl)
      (binary_at_win ops_rising hW part23 11 rfl) (nullary_at_win ops_rising hW part23 12 rfl)
      (unary_at_win ops_rising hW part23 13 rfl) (binary_at_win ops_rising hW part23 14 rfl)
      (ternary_at_win ops_rising hW part23 15 rfl) (unary_at_win ops_rising hW part23 16 rfl)
      (binary_at_win ops_rising hW part23 17 rfl) (nullary_at_win ops_rising hW part23 18 rfl)
      (unary_at_win ops_rising hW part23 19 rfl) (unary_at_win ops_rising hW part23 20 rfl)
      (unary_at_win ops_rising hW part23 21 rfl) (ternary_at_win ops_rising hW part23 22 rfl)
      (unary_at_win ops_rising hW part23 23 rfl) (reshape_at_win ops_rising hW part23 24 rfl)
      (binary_at_win ops_rising hW part23 25 rfl))

/-- Tap 17, offset (0, 1, 1): its INSIDE bits and its NIDX words, as terms of the coordinates and the
    coordinate map. -/
theorem W_nbr17 :
    W (Proc.devRef .tc main_v1087)
      = inside slices_S200000x3_S200000x1_0_0 slices_S200000x3_S200000x1_0_1
          slices_S200000x3_S200000x1_0_2 shapeCasts_S200000x1_S200000 bcast_S_S200000
          (W (Proc.devRef .tc main_arg3)) 0#32 1#32 1#32 ∧
    W (Proc.devRef .tc main_v1101)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 0#32 1#32 1#32 (W (Proc.devRef .tc main_v20)) :=
  nbr_compose
    (unary_at_win ops_rising hW part23 27 rfl) (reshape_at_win ops_rising hW part23 28 rfl)
    (nullary_at_win ops_rising hW part23 29 rfl) (unary_at_win ops_rising hW part23 30 rfl)
    (binary_at_win ops_rising hW part23 31 rfl) (unary_at_win ops_rising hW part23 32 rfl)
    (reshape_at_win ops_rising hW part23 33 rfl) (nullary_at_win ops_rising hW part23 34 rfl)
    (unary_at_win ops_rising hW part23 35 rfl) (binary_at_win ops_rising hW part23 36 rfl)
    (unary_at_win ops_rising hW part23 37 rfl) (reshape_at_win ops_rising hW part23 38 rfl)
    (nullary_at_win ops_rising hW part23 39 rfl) (unary_at_win ops_rising hW part23 40 rfl)
    (binary_at_win ops_rising hW part23 41 rfl) (nullary_at_win ops_rising hW part23 42 rfl)
    (unary_at_win ops_rising hW part23 43 rfl) (binary_at_win ops_rising hW part23 44 rfl)
    (nullary_at_win ops_rising hW part23 45 rfl) (unary_at_win ops_rising hW part23 46 rfl)
    (binary_at_win ops_rising hW part23 47 rfl) (binary_at_win ops_rising hW part23 48 rfl)
    (nullary_at_win ops_rising hW part23 49 rfl) (unary_at_win ops_rising hW part23 50 rfl)
    (binary_at_win ops_rising hW part23 51 rfl) (binary_at_win ops_rising hW part23 52 rfl)
    (nullary_at_win ops_rising hW part23 53 rfl) (unary_at_win ops_rising hW part23 54 rfl)
    (binary_at_win ops_rising hW part23 55 rfl) (binary_at_win ops_rising hW part23 56 rfl)
    (nullary_at_win ops_rising hW part23 57 rfl) (unary_at_win ops_rising hW part23 58 rfl)
    (binary_at_win ops_rising hW part23 59 rfl) (binary_at_win ops_rising hW part23 60 rfl)
    (nullary_at_win ops_rising hW part23 61 rfl) (unary_at_win ops_rising hW part23 62 rfl)
    (binary_at_win ops_rising hW part24 0 rfl) (binary_at_win ops_rising hW part24 1 rfl)
    (nullary_at_win ops_rising hW part24 2 rfl) (unary_at_win ops_rising hW part24 3 rfl)
    (binary_at_win ops_rising hW part24 4 rfl) (binary_at_win ops_rising hW part24 5 rfl)
    (nullary_at_win ops_rising hW part24 6 rfl) (unary_at_win ops_rising hW part24 7 rfl)
    (binary_at_win ops_rising hW part24 8 rfl) (binary_at_win ops_rising hW part24 9 rfl)
    (nullary_at_win ops_rising hW part24 10 rfl) (nullary_at_win ops_rising hW part24 11 rfl)
    (unary_at_win ops_rising hW part24 12 rfl) (unary_at_win ops_rising hW part24 13 rfl)
    (binary_at_win ops_rising hW part24 14 rfl) (unary_at_win ops_rising hW part24 15 rfl)
    (unary_at_win ops_rising hW part24 16 rfl) (binary_at_win ops_rising hW part24 17 rfl)
    (nullary_at_win ops_rising hW part24 18 rfl) (unary_at_win ops_rising hW part24 19 rfl)
    (binary_at_win ops_rising hW part24 20 rfl) (nullary_at_win ops_rising hW part24 21 rfl)
    (unary_at_win ops_rising hW part24 22 rfl) (binary_at_win ops_rising hW part24 23 rfl)
    (ternary_at_win ops_rising hW part24 24 rfl) (unary_at_win ops_rising hW part24 25 rfl)
    (binary_at_win ops_rising hW part24 26 rfl)

/-- Tap 17's value: the tap of its NIDX and INSIDE, of the features and of slab 17 of the weights. -/
theorem W_tap17 :
    W (Proc.devRef .tc main_v1118)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 0#32 1#32 1#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 0#32 1#32 1#32)
          (W (Proc.devRef .tc main_arg0))
          (wslice (W (Proc.devRef .tc main_arg1)) 17 slices_S27x128x20_S1x128x20_17_0_0 shapeCasts_S1x128x20_S128x20) :=
  tap_of_nbr (W_nbr17 hW)
    (tap_compose
      (nullary_at_win ops_rising hW part24 27 rfl) (unary_at_win ops_rising hW part24 28 rfl)
      (binary_at_win ops_rising hW part24 29 rfl) (binary_at_win ops_rising hW part24 30 rfl)
      (unary_at_win ops_rising hW part24 31 rfl) (nullary_at_win ops_rising hW part24 32 rfl)
      (unary_at_win ops_rising hW part24 33 rfl) (binary_at_win ops_rising hW part24 34 rfl)
      (nullary_at_win ops_rising hW part24 35 rfl) (unary_at_win ops_rising hW part24 36 rfl)
      (binary_at_win ops_rising hW part24 37 rfl) (nullary_at_win ops_rising hW part24 38 rfl)
      (unary_at_win ops_rising hW part24 39 rfl) (binary_at_win ops_rising hW part24 40 rfl)
      (ternary_at_win ops_rising hW part24 41 rfl) (unary_at_win ops_rising hW part24 42 rfl)
      (binary_at_win ops_rising hW part24 43 rfl) (nullary_at_win ops_rising hW part24 44 rfl)
      (unary_at_win ops_rising hW part24 45 rfl) (unary_at_win ops_rising hW part24 46 rfl)
      (unary_at_win ops_rising hW part24 47 rfl) (ternary_at_win ops_rising hW part24 48 rfl)
      (unary_at_win ops_rising hW part24 49 rfl) (reshape_at_win ops_rising hW part24 50 rfl)
      (binary_at_win ops_rising hW part24 51 rfl))

end ReadBack

end Cert.ReferenceIdeal.Read

end
-- ==== Proof.RefReadTapC.lean ====
/-
  THE REFERENCE PROGRAM READ BACK: taps 18 to 26.

  With `W` the buffers' contents at the end of the program (`hW : W = after ops V0`, from any contents `V0` at the
  start), each buffer holds its own operation of the buffers before it. For each tap these equations — 63 for the
  neighbour look-up, 25 for the value — are composed (`nbr_compose`, `tap_compose`): the tap's buffer holds the
  tap, as one term, of NIDX and INSIDE of the coordinates and the tap's offset, of the features and of the tap's slab
  of the weights. The taps are the same 88 operations at buffer numbers 89 apart; what changes from tap to tap is the
  offset (dz, dy, dx), each −1, 0 or 1 as a 32-bit word, in the order of the triple loop, and the slab's number.
-/
import proofs.«120445_j5549097746519_2_alg».proof.Proof.RefReadRise
import proofs.«120445_j5549097746519_2_alg».proof.Proof.RefReadCompose

set_option maxRecDepth 16384

noncomputable section

namespace Cert.ReferenceIdeal.Read

open Cert.ReferenceIdeal Cert.ReferenceIdeal.Gen Cert.ReferenceIdeal.ValueP
open Idealize.ShloMosaic Idealize.ShloMosaic.TcCoe Idealize.SL.Sem Idealize.ShloMosaic.StableHlo
open Cert.LibSsaAfter Cert.LibSsaWindow Cert.NbrIdx Cert.RefTap Cert.RefWeight

section ReadBack
variable {W V0 : Valuation τ sig (Elt Ideal)} (hW : W = after (ops (F := Ideal)) V0)
include hW

/-- Tap 18, offset (1, −1, −1): its INSIDE bits and its NIDX words, as terms of the coordinates and the
    coordinate map. -/
theorem W_nbr18 :
    W (Proc.devRef .tc main_v1148)
      = inside slices_S200000x3_S200000x1_0_0 slices_S200000x3_S200000x1_0_1
          slices_S200000x3_S200000x1_0_2 shapeCasts_S200000x1_S200000 bcast_S_S200000
          (W (Proc.devRef .tc main_arg3)) 1#32 4294967295#32 4294967295#32 ∧
    W (Proc.devRef .tc main_v1162)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 1#32 4294967295#32 4294967295#32 (W (Proc.devRef .tc main_v20)) :=
  nbr_compose
    (unary_at_win ops_rising hW part24 53 rfl) (reshape_at_win ops_rising hW part24 54 rfl)
    (nullary_at_win ops_rising hW part24 55 rfl) (unary_at_win ops_rising hW part24 56 rfl)
    (binary_at_win ops_rising hW part24 57 rfl) (unary_at_win ops_rising hW part24 58 rfl)
    (reshape_at_win ops_rising hW part24 59 rfl) (nullary_at_win ops_rising hW part24 60 rfl)
    (unary_at_win ops_rising hW part24 61 rfl) (binary_at_win ops_rising hW part24 62 rfl)
    (unary_at_win ops_rising hW part24 63 rfl) (reshape_at_win ops_rising hW part24 64 rfl)
    (nullary_at_win ops_rising hW part24 65 rfl) (unary_at_win ops_rising hW part24 66 rfl)
    (binary_at_win ops_rising hW part24 67 rfl) (nullary_at_win ops_rising hW part25 0 rfl)
    (unary_at_win ops_rising hW part25 1 rfl) (binary_at_win ops_rising hW part25 2 rfl)
    (nullary_at_win ops_rising hW part25 3 rfl) (unary_at_win ops_rising hW part25 4 rfl)
    (binary_at_win ops_rising hW part25 5 rfl) (binary_at_win ops_rising hW part25 6 rfl)
    (nullary_at_win ops_rising hW part25 7 rfl) (unary_at_win ops_rising hW part25 8 rfl)
    (binary_at_win ops_rising hW part25 9 rfl) (binary_at_win ops_rising hW part25 10 rfl)
    (nullary_at_win ops_rising hW part25 11 rfl) (unary_at_win ops_rising hW part25 12 rfl)
    (binary_at_win ops_rising hW part25 13 rfl) (binary_at_win ops_rising hW part25 14 rfl)
    (nullary_at_win ops_rising hW part25 15 rfl) (unary_at_win ops_rising hW part25 16 rfl)
    (binary_at_win ops_rising hW part25 17 rfl) (binary_at_win ops_rising hW part25 18 rfl)
    (nullary_at_win ops_rising hW part25 19 rfl) (unary_at_win ops_rising hW part25 20 rfl)
    (binary_at_win ops_rising hW part25 21 rfl) (binary_at_win ops_rising hW part25 22 rfl)
    (nullary_at_win ops_rising hW part25 23 rfl) (unary_at_win ops_rising hW part25 24 rfl)
    (binary_at_win ops_rising hW part25 25 rfl) (binary_at_win ops_rising hW part25 26 rfl)
    (nullary_at_win ops_rising hW part25 27 rfl) (unary_at_win ops_rising hW part25 28 rfl)
    (binary_at_win ops_rising hW part25 29 rfl) (binary_at_win ops_rising hW part25 30 rfl)
    (nullary_at_win ops_rising hW part25 31 rfl) (nullary_at_win ops_rising hW part25 32 rfl)
    (unary_at_win ops_rising hW part25 33 rfl) (unary_at_win ops_rising hW part25 34 rfl)
    (binary_at_win ops_rising hW part25 35 rfl) (unary_at_win ops_rising hW part25 36 rfl)
    (unary_at_win ops_rising hW part25 37 rfl) (binary_at_win ops_rising hW part25 38 rfl)
    (nullary_at_win ops_rising hW part25 39 rfl) (unary_at_win ops_rising hW part25 40 rfl)
    (binary_at_win ops_rising hW part25 41 rfl) (nullary_at_win ops_rising hW part25 42 rfl)
    (unary_at_win ops_rising hW part25 43 rfl) (binary_at_win ops_rising hW part25 44 rfl)
    (ternary_at_win ops_rising hW part25 45 rfl) (unary_at_win ops_rising hW part25 46 rfl)
    (binary_at_win ops_rising hW part25 47 rfl)

/-- Tap 18's value: the tap of its NIDX and INSIDE, of the features and of slab 18 of the weights. -/
theorem W_tap18 :
    W (Proc.devRef .tc main_v1179)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 1#32 4294967295#32 4294967295#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 1#32 4294967295#32 4294967295#32)
          (W (Proc.devRef .tc main_arg0))
          (wslice (W (Proc.devRef .tc main_arg1)) 18 slices_S27x128x20_S1x128x20_18_0_0 shapeCasts_S1x128x20_S128x20) :=
  tap_of_nbr (W_nbr18 hW)
    (tap_compose
      (nullary_at_win ops_rising hW part25 48 rfl) (unary_at_win ops_rising hW part25 49 rfl)
      (binary_at_win ops_rising hW part25 50 rfl) (binary_at_win ops_rising hW part25 51 rfl)
      (unary_at_win ops_rising hW part25 52 rfl) (nullary_at_win ops_rising hW part25 53 rfl)
      (unary_at_win ops_rising hW part25 54 rfl) (binary_at_win ops_rising hW part25 55 rfl)
      (nullary_at_win ops_rising hW part25 56 rfl) (unary_at_win ops_rising hW part25 57 rfl)
      (binary_at_win ops_rising hW part25 58 rfl) (nullary_at_win ops_rising hW part25 59 rfl)
      (unary_at_win ops_rising hW part25 60 rfl) (binary_at_win ops_rising hW part25 61 rfl)
      (ternary_at_win ops_rising hW part25 62 rfl) (unary_at_win ops_rising hW part25 63 rfl)
      (binary_at_win ops_rising hW part25 64 rfl) (nullary_at_win ops_rising hW part26 0 rfl)
      (unary_at_win ops_rising hW part26 1 rfl) (unary_at_win ops_rising hW part26 2 rfl)
      (unary_at_win ops_rising hW part26 3 rfl) (ternary_at_win ops_rising hW part26 4 rfl)
      (unary_at_win ops_rising hW part26 5 rfl) (reshape_at_win ops_rising hW part26 6 rfl)
      (binary_at_win ops_rising hW part26 7 rfl))

/-- Tap 19, offset (1, −1, 0): its INSIDE bits and its NIDX words, as terms of the coordinates and the
    coordinate map. -/
theorem W_nbr19 :
    W (Proc.devRef .tc main_v1209)
      = inside slices_S200000x3_S200000x1_0_0 slices_S200000x3_S200000x1_0_1
          slices_S200000x3_S200000x1_0_2 shapeCasts_S200000x1_S200000 bcast_S_S200000
          (W (Proc.devRef .tc main_arg3)) 1#32 4294967295#32 0#32 ∧
    W (Proc.devRef .tc main_v1223)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 1#32 4294967295#32 0#32 (W (Proc.devRef .tc main_v20)) :=
  nbr_compose
    (unary_at_win ops_rising hW part26 9 rfl) (reshape_at_win ops_rising hW part26 10 rfl)
    (nullary_at_win ops_rising hW part26 11 rfl) (unary_at_win ops_rising hW part26 12 rfl)
    (binary_at_win ops_rising hW part26 13 rfl) (unary_at_win ops_rising hW part26 14 rfl)
    (reshape_at_win ops_rising hW part26 15 rfl) (nullary_at_win ops_rising hW part26 16 rfl)
    (unary_at_win ops_rising hW part26 17 rfl) (binary_at_win ops_rising hW part26 18 rfl)
    (unary_at_win ops_rising hW part26 19 rfl) (reshape_at_win ops_rising hW part26 20 rfl)
    (nullary_at_win ops_rising hW part26 21 rfl) (unary_at_win ops_rising hW part26 22 rfl)
    (binary_at_win ops_rising hW part26 23 rfl) (nullary_at_win ops_rising hW part26 24 rfl)
    (unary_at_win ops_rising hW part26 25 rfl) (binary_at_win ops_rising hW part26 26 rfl)
    (nullary_at_win ops_rising hW part26 27 rfl) (unary_at_win ops_rising hW part26 28 rfl)
    (binary_at_win ops_rising hW part26 29 rfl) (binary_at_win ops_rising hW part26 30 rfl)
    (nullary_at_win ops_rising hW part26 31 rfl) (unary_at_win ops_rising hW part26 32 rfl)
    (binary_at_win ops_rising hW part26 33 rfl) (binary_at_win ops_rising hW part26 34 rfl)
    (nullary_at_win ops_rising hW part26 35 rfl) (unary_at_win ops_rising hW part26 36 rfl)
    (binary_at_win ops_rising hW part26 37 rfl) (binary_at_win ops_rising hW part26 38 rfl)
    (nullary_at_win ops_rising hW part26 39 rfl) (unary_at_win ops_rising hW part26 40 rfl)
    (binary_at_win ops_rising hW part26 41 rfl) (binary_at_win ops_rising hW part26 42 rfl)
    (nullary_at_win ops_rising hW part26 43 rfl) (unary_at_win ops_rising hW part26 44 rfl)
    (binary_at_win ops_rising hW part26 45 rfl) (binary_at_win ops_rising hW part26 46 rfl)
    (nullary_at_win ops_rising hW part26 47 rfl) (unary_at_win ops_rising hW part26 48 rfl)
    (binary_at_win ops_rising hW part26 49 rfl) (binary_at_win ops_rising hW part26 50 rfl)
    (nullary_at_win ops_rising hW part26 51 rfl) (unary_at_win ops_rising hW part26 52 rfl)
    (binary_at_win ops_rising hW part26 53 rfl) (binary_at_win ops_rising hW part26 54 rfl)
    (nullary_at_win ops_rising hW part26 55 rfl) (nullary_at_win ops_rising hW part26 56 rfl)
    (unary_at_win ops_rising hW part26 57 rfl) (unary_at_win ops_rising hW part26 58 rfl)
    (binary_at_win ops_rising hW part26 59 rfl) (unary_at_win ops_rising hW part26 60 rfl)
    (unary_at_win ops_rising hW part26 61 rfl) (binary_at_win ops_rising hW part26 62 rfl)
    (nullary_at_win ops_rising hW part26 63 rfl) (unary_at_win ops_rising hW part26 64 rfl)
    (binary_at_win ops_rising hW part26 65 rfl) (nullary_at_win ops_rising hW part26 66 rfl)
    (unary_at_win ops_rising hW part26 67 rfl) (binary_at_win ops_rising hW part27 0 rfl)
    (ternary_at_win ops_rising hW part27 1 rfl) (unary_at_win ops_rising hW part27 2 rfl)
    (binary_at_win ops_rising hW part27 3 rfl)

/-- Tap 19's value: the tap of its NIDX and INSIDE, of the features and of slab 19 of the weights. -/
theorem W_tap19 :
    W (Proc.devRef .tc main_v1240)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 1#32 4294967295#32 0#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 1#32 4294967295#32 0#32)
          (W (Proc.devRef .tc main_arg0))
          (wslice (W (Proc.devRef .tc main_arg1)) 19 slices_S27x128x20_S1x128x20_19_0_0 shapeCasts_S1x128x20_S128x20) :=
  tap_of_nbr (W_nbr19 hW)
    (tap_compose
      (nullary_at_win ops_rising hW part27 4 rfl) (unary_at_win ops_rising hW part27 5 rfl)
      (binary_at_win ops_rising hW part27 6 rfl) (binary_at_win ops_rising hW part27 7 rfl)
      (unary_at_win ops_rising hW part27 8 rfl) (nullary_at_win ops_rising hW part27 9 rfl)
      (unary_at_win ops_rising hW part27 10 rfl) (binary_at_win ops_rising hW part27 11 rfl)
      (nullary_at_win ops_rising hW part27 12 rfl) (unary_at_win ops_rising hW part27 13 rfl)
      (binary_at_win ops_rising hW part27 14 rfl) (nullary_at_win ops_rising hW part27 15 rfl)
      (unary_at_win ops_rising hW part27 16 rfl) (binary_at_win ops_rising hW part27 17 rfl)
      (ternary_at_win ops_rising hW part27 18 rfl) (unary_at_win ops_rising hW part27 19 rfl)
      (binary_at_win ops_rising hW part27 20 rfl) (nullary_at_win ops_rising hW part27 21 rfl)
      (unary_at_win ops_rising hW part27 22 rfl) (unary_at_win ops_rising hW part27 23 rfl)
      (unary_at_win ops_rising hW part27 24 rfl) (ternary_at_win ops_rising hW part27 25 rfl)
      (unary_at_win ops_rising hW part27 26 rfl) (reshape_at_win ops_rising hW part27 27 rfl)
      (binary_at_win ops_rising hW part27 28 rfl))

/-- Tap 20, offset (1, −1, 1): its INSIDE bits and its NIDX words, as terms of the coordinates and the
    coordinate map. -/
theorem W_nbr20 :
    W (Proc.devRef .tc main_v1270)
      = inside slices_S200000x3_S200000x1_0_0 slices_S200000x3_S200000x1_0_1
          slices_S200000x3_S200000x1_0_2 shapeCasts_S200000x1_S200000 bcast_S_S200000
          (W (Proc.devRef .tc main_arg3)) 1#32 4294967295#32 1#32 ∧
    W (Proc.devRef .tc main_v1284)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 1#32 4294967295#32 1#32 (W (Proc.devRef .tc main_v20)) :=
  nbr_compose
    (unary_at_win ops_rising hW part27 30 rfl) (reshape_at_win ops_rising hW part27 31 rfl)
    (nullary_at_win ops_rising hW part27 32 rfl) (unary_at_win ops_rising hW part27 33 rfl)
    (binary_at_win ops_rising hW part27 34 rfl) (unary_at_win ops_rising hW part27 35 rfl)
    (reshape_at_win ops_rising hW part27 36 rfl) (nullary_at_win ops_rising hW part27 37 rfl)
    (unary_at_win ops_rising hW part27 38 rfl) (binary_at_win ops_rising hW part27 39 rfl)
    (unary_at_win ops_rising hW part27 40 rfl) (reshape_at_win ops_rising hW part27 41 rfl)
    (nullary_at_win ops_rising hW part27 42 rfl) (unary_at_win ops_rising hW part27 43 rfl)
    (binary_at_win ops_rising hW part27 44 rfl) (nullary_at_win ops_rising hW part27 45 rfl)
    (unary_at_win ops_rising hW part27 46 rfl) (binary_at_win ops_rising hW part27 47 rfl)
    (nullary_at_win ops_rising hW part27 48 rfl) (unary_at_win ops_rising hW part27 49 rfl)
    (binary_at_win ops_rising hW part27 50 rfl) (binary_at_win ops_rising hW part27 51 rfl)
    (nullary_at_win ops_rising hW part27 52 rfl) (unary_at_win ops_rising hW part27 53 rfl)
    (binary_at_win ops_rising hW part27 54 rfl) (binary_at_win ops_rising hW part27 55 rfl)
    (nullary_at_win ops_rising hW part27 56 rfl) (unary_at_win ops_rising hW part27 57 rfl)
    (binary_at_win ops_rising hW part27 58 rfl) (binary_at_win ops_rising hW part27 59 rfl)
    (nullary_at_win ops_rising hW part27 60 rfl) (unary_at_win ops_rising hW part27 61 rfl)
    (binary_at_win ops_rising hW part27 62 rfl) (binary_at_win ops_rising hW part28 0 rfl)
    (nullary_at_win ops_rising hW part28 1 rfl) (unary_at_win ops_rising hW part28 2 rfl)
    (binary_at_win ops_rising hW part28 3 rfl) (binary_at_win ops_rising hW part28 4 rfl)
    (nullary_at_win ops_rising hW part28 5 rfl) (unary_at_win ops_rising hW part28 6 rfl)
    (binary_at_win ops_rising hW part28 7 rfl) (binary_at_win ops_rising hW part28 8 rfl)
    (nullary_at_win ops_rising hW part28 9 rfl) (unary_at_win ops_rising hW part28 10 rfl)
    (binary_at_win ops_rising hW part28 11 rfl) (binary_at_win ops_rising hW part28 12 rfl)
    (nullary_at_win ops_rising hW part28 13 rfl) (nullary_at_win ops_rising hW part28 14 rfl)
    (unary_at_win ops_rising hW part28 15 rfl) (unary_at_win ops_rising hW part28 16 rfl)
    (binary_at_win ops_rising hW part28 17 rfl) (unary_at_win ops_rising hW part28 18 rfl)
    (unary_at_win ops_rising hW part28 19 rfl) (binary_at_win ops_rising hW part28 20 rfl)
    (nullary_at_win ops_rising hW part28 21 rfl) (unary_at_win ops_rising hW part28 22 rfl)
    (binary_at_win ops_rising hW part28 23 rfl) (nullary_at_win ops_rising hW part28 24 rfl)
    (unary_at_win ops_rising hW part28 25 rfl) (binary_at_win ops_rising hW part28 26 rfl)
    (ternary_at_win ops_rising hW part28 27 rfl) (unary_at_win ops_rising hW part28 28 rfl)
    (binary_at_win ops_rising hW part28 29 rfl)

/-- Tap 20's value: the tap of its NIDX and INSIDE, of the features and of slab 20 of the weights. -/
theorem W_tap20 :
    W (Proc.devRef .tc main_v1301)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 1#32 4294967295#32 1#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 1#32 4294967295#32 1#32)
          (W (Proc.devRef .tc main_arg0))
          (wslice (W (Proc.devRef .tc main_arg1)) 20 slices_S27x128x20_S1x128x20_20_0_0 shapeCasts_S1x128x20_S128x20) :=
  tap_of_nbr (W_nbr20 hW)
    (tap_compose
      (nullary_at_win ops_rising hW part28 30 rfl) (unary_at_win ops_rising hW part28 31 rfl)
      (binary_at_win ops_rising hW part28 32 rfl) (binary_at_win ops_rising hW part28 33 rfl)
      (unary_at_win ops_rising hW part28 34 rfl) (nullary_at_win ops_rising hW part28 35 rfl)
      (unary_at_win ops_rising hW part28 36 rfl) (binary_at_win ops_rising hW part28 37 rfl)
      (nullary_at_win ops_rising hW part28 38 rfl) (unary_at_win ops_rising hW part28 39 rfl)
      (binary_at_win ops_rising hW part28 40 rfl) (nullary_at_win ops_rising hW part28 41 rfl)
      (unary_at_win ops_rising hW part28 42 rfl) (binary_at_win ops_rising hW part28 43 rfl)
      (ternary_at_win ops_rising hW part28 44 rfl) (unary_at_win ops_rising hW part28 45 rfl)
      (binary_at_win ops_rising hW part28 46 rfl) (nullary_at_win ops_rising hW part28 47 rfl)
      (unary_at_win ops_rising hW part28 48 rfl) (unary_at_win ops_rising hW part28 49 rfl)
      (unary_at_win ops_rising hW part28 50 rfl) (ternary_at_win ops_rising hW part28 51 rfl)
      (unary_at_win ops_rising hW part28 52 rfl) (reshape_at_win ops_rising hW part28 53 rfl)
      (binary_at_win ops_rising hW part28 54 rfl))

/-- Tap 21, offset (1, 0, −1): its INSIDE bits and its NIDX words, as terms of the coordinates and the
    coordinate map. -/
theorem W_nbr21 :
    W (Proc.devRef .tc main_v1331)
      = inside slices_S200000x3_S200000x1_0_0 slices_S200000x3_S200000x1_0_1
          slices_S200000x3_S200000x1_0_2 shapeCasts_S200000x1_S200000 bcast_S_S200000
          (W (Proc.devRef .tc main_arg3)) 1#32 0#32 4294967295#32 ∧
    W (Proc.devRef .tc main_v1345)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 1#32 0#32 4294967295#32 (W (Proc.devRef .tc main_v20)) :=
  nbr_compose
    (unary_at_win ops_rising hW part28 56 rfl) (reshape_at_win ops_rising hW part28 57 rfl)
    (nullary_at_win ops_rising hW part28 58 rfl) (unary_at_win ops_rising hW part28 59 rfl)
    (binary_at_win ops_rising hW part28 60 rfl) (unary_at_win ops_rising hW part28 61 rfl)
    (reshape_at_win ops_rising hW part28 62 rfl) (nullary_at_win ops_rising hW part28 63 rfl)
    (unary_at_win ops_rising hW part28 64 rfl) (binary_at_win ops_rising hW part28 65 rfl)
    (unary_at_win ops_rising hW part28 66 rfl) (reshape_at_win ops_rising hW part28 67 rfl)
    (nullary_at_win ops_rising hW part29 0 rfl) (unary_at_win ops_rising hW part29 1 rfl)
    (binary_at_win ops_rising hW part29 2 rfl) (nullary_at_win ops_rising hW part29 3 rfl)
    (unary_at_win ops_rising hW part29 4 rfl) (binary_at_win ops_rising hW part29 5 rfl)
    (nullary_at_win ops_rising hW part29 6 rfl) (unary_at_win ops_rising hW part29 7 rfl)
    (binary_at_win ops_rising hW part29 8 rfl) (binary_at_win ops_rising hW part29 9 rfl)
    (nullary_at_win ops_rising hW part29 10 rfl) (unary_at_win ops_rising hW part29 11 rfl)
    (binary_at_win ops_rising hW part29 12 rfl) (binary_at_win ops_rising hW part29 13 rfl)
    (nullary_at_win ops_rising hW part29 14 rfl) (unary_at_win ops_rising hW part29 15 rfl)
    (binary_at_win ops_rising hW part29 16 rfl) (binary_at_win ops_rising hW part29 17 rfl)
    (nullary_at_win ops_rising hW part29 18 rfl) (unary_at_win ops_rising hW part29 19 rfl)
    (binary_at_win ops_rising hW part29 20 rfl) (binary_at_win ops_rising hW part29 21 rfl)
    (nullary_at_win ops_rising hW part29 22 rfl) (unary_at_win ops_rising hW part29 23 rfl)
    (binary_at_win ops_rising hW part29 24 rfl) (binary_at_win ops_rising hW part29 25 rfl)
    (nullary_at_win ops_rising hW part29 26 rfl) (unary_at_win ops_rising hW part29 27 rfl)
    (binary_at_win ops_rising hW part29 28 rfl) (binary_at_win ops_rising hW part29 29 rfl)
    (nullary_at_win ops_rising hW part29 30 rfl) (unary_at_win ops_rising hW part29 31 rfl)
    (binary_at_win ops_rising hW part29 32 rfl) (binary_at_win ops_rising hW part29 33 rfl)
    (nullary_at_win ops_rising hW part29 34 rfl) (nullary_at_win ops_rising hW part29 35 rfl)
    (unary_at_win ops_rising hW part29 36 rfl) (unary_at_win ops_rising hW part29 37 rfl)
    (binary_at_win ops_rising hW part29 38 rfl) (unary_at_win ops_rising hW part29 39 rfl)
    (unary_at_win ops_rising hW part29 40 rfl) (binary_at_win ops_rising hW part29 41 rfl)
    (nullary_at_win ops_rising hW part29 42 rfl) (unary_at_win ops_rising hW part29 43 rfl)
    (binary_at_win ops_rising hW part29 44 rfl) (nullary_at_win ops_rising hW part29 45 rfl)
    (unary_at_win ops_rising hW part29 46 rfl) (binary_at_win ops_rising hW part29 47 rfl)
    (ternary_at_win ops_rising hW part29 48 rfl) (unary_at_win ops_rising hW part29 49 rfl)
    (binary_at_win ops_rising hW part29 50 rfl)

/-- Tap 21's value: the tap of its NIDX and INSIDE, of the features and of slab 21 of the weights. -/
theorem W_tap21 :
    W (Proc.devRef .tc main_v1362)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 1#32 0#32 4294967295#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 1#32 0#32 4294967295#32)
          (W (Proc.devRef .tc main_arg0))
          (wslice (W (Proc.devRef .tc main_arg1)) 21 slices_S27x128x20_S1x128x20_21_0_0 shapeCasts_S1x128x20_S128x20) :=
  tap_of_nbr (W_nbr21 hW)
    (tap_compose
      (nullary_at_win ops_rising hW part29 51 rfl) (unary_at_win ops_rising hW part29 52 rfl)
      (binary_at_win ops_rising hW part29 53 rfl) (binary_at_win ops_rising hW part29 54 rfl)
      (unary_at_win ops_rising hW part29 55 rfl) (nullary_at_win ops_rising hW part29 56 rfl)
      (unary_at_win ops_rising hW part29 57 rfl) (binary_at_win ops_rising hW part29 58 rfl)
      (nullary_at_win ops_rising hW part29 59 rfl) (unary_at_win ops_rising hW part29 60 rfl)
      (binary_at_win ops_rising hW part29 61 rfl) (nullary_at_win ops_rising hW part29 62 rfl)
      (unary_at_win ops_rising hW part29 63 rfl) (binary_at_win ops_rising hW part29 64 rfl)
      (ternary_at_win ops_rising hW part30 0 rfl) (unary_at_win ops_rising hW part30 1 rfl)
      (binary_at_win ops_rising hW part30 2 rfl) (nullary_at_win ops_rising hW part30 3 rfl)
      (unary_at_win ops_rising hW part30 4 rfl) (unary_at_win ops_rising hW part30 5 rfl)
      (unary_at_win ops_rising hW part30 6 rfl) (ternary_at_win ops_rising hW part30 7 rfl)
      (unary_at_win ops_rising hW part30 8 rfl) (reshape_at_win ops_rising hW part30 9 rfl)
      (binary_at_win ops_rising hW part30 10 rfl))

/-- Tap 22, offset (1, 0, 0): its INSIDE bits and its NIDX words, as terms of the coordinates and the
    coordinate map. -/
theorem W_nbr22 :
    W (Proc.devRef .tc main_v1392)
      = inside slices_S200000x3_S200000x1_0_0 slices_S200000x3_S200000x1_0_1
          slices_S200000x3_S200000x1_0_2 shapeCasts_S200000x1_S200000 bcast_S_S200000
          (W (Proc.devRef .tc main_arg3)) 1#32 0#32 0#32 ∧
    W (Proc.devRef .tc main_v1406)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 1#32 0#32 0#32 (W (Proc.devRef .tc main_v20)) :=
  nbr_compose
    (unary_at_win ops_rising hW part30 12 rfl) (reshape_at_win ops_rising hW part30 13 rfl)
    (nullary_at_win ops_rising hW part30 14 rfl) (unary_at_win ops_rising hW part30 15 rfl)
    (binary_at_win ops_rising hW part30 16 rfl) (unary_at_win ops_rising hW part30 17 rfl)
    (reshape_at_win ops_rising hW part30 18 rfl) (nullary_at_win ops_rising hW part30 19 rfl)
    (unary_at_win ops_rising hW part30 20 rfl) (binary_at_win ops_rising hW part30 21 rfl)
    (unary_at_win ops_rising hW part30 22 rfl) (reshape_at_win ops_rising hW part30 23 rfl)
    (nullary_at_win ops_rising hW part30 24 rfl) (unary_at_win ops_rising hW part30 25 rfl)
    (binary_at_win ops_rising hW part30 26 rfl) (nullary_at_win ops_rising hW part30 27 rfl)
    (unary_at_win ops_rising hW part30 28 rfl) (binary_at_win ops_rising hW part30 29 rfl)
    (nullary_at_win ops_rising hW part30 30 rfl) (unary_at_win ops_rising hW part30 31 rfl)
    (binary_at_win ops_rising hW part30 32 rfl) (binary_at_win ops_rising hW part30 33 rfl)
    (nullary_at_win ops_rising hW part30 34 rfl) (unary_at_win ops_rising hW part30 35 rfl)
    (binary_at_win ops_rising hW part30 36 rfl) (binary_at_win ops_rising hW part30 37 rfl)
    (nullary_at_win ops_rising hW part30 38 rfl) (unary_at_win ops_rising hW part30 39 rfl)
    (binary_at_win ops_rising hW part30 40 rfl) (binary_at_win ops_rising hW part30 41 rfl)
    (nullary_at_win ops_rising hW part30 42 rfl) (unary_at_win ops_rising hW part30 43 rfl)
    (binary_at_win ops_rising hW part30 44 rfl) (binary_at_win ops_rising hW part30 45 rfl)
    (nullary_at_win ops_rising hW part30 46 rfl) (unary_at_win ops_rising hW part30 47 rfl)
    (binary_at_win ops_rising hW part30 48 rfl) (binary_at_win ops_rising hW part30 49 rfl)
    (nullary_at_win ops_rising hW part30 50 rfl) (unary_at_win ops_rising hW part30 51 rfl)
    (binary_at_win ops_rising hW part30 52 rfl) (binary_at_win ops_rising hW part30 53 rfl)
    (nullary_at_win ops_rising hW part30 54 rfl) (unary_at_win ops_rising hW part30 55 rfl)
    (binary_at_win ops_rising hW part30 56 rfl) (binary_at_win ops_rising hW part30 57 rfl)
    (nullary_at_win ops_rising hW part30 58 rfl) (nullary_at_win ops_rising hW part30 59 rfl)
    (unary_at_win ops_rising hW part30 60 rfl) (unary_at_win ops_rising hW part30 61 rfl)
    (binary_at_win ops_rising hW part30 62 rfl) (unary_at_win ops_rising hW part30 63 rfl)
    (unary_at_win ops_rising hW part30 64 rfl) (binary_at_win ops_rising hW part30 65 rfl)
    (nullary_at_win ops_rising hW part30 66 rfl) (unary_at_win ops_rising hW part30 67 rfl)
    (binary_at_win ops_rising hW part31 0 rfl) (nullary_at_win ops_rising hW part31 1 rfl)
    (unary_at_win ops_rising hW part31 2 rfl) (binary_at_win ops_rising hW part31 3 rfl)
    (ternary_at_win ops_rising hW part31 4 rfl) (unary_at_win ops_rising hW part31 5 rfl)
    (binary_at_win ops_rising hW part31 6 rfl)

/-- Tap 22's value: the tap of its NIDX and INSIDE, of the features and of slab 22 of the weights. -/
theorem W_tap22 :
    W (Proc.devRef .tc main_v1423)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 1#32 0#32 0#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 1#32 0#32 0#32)
          (W (Proc.devRef .tc main_arg0))
          (wslice (W (Proc.devRef .tc main_arg1)) 22 slices_S27x128x20_S1x128x20_22_0_0 shapeCasts_S1x128x20_S128x20) :=
  tap_of_nbr (W_nbr22 hW)
    (tap_compose
      (nullary_at_win ops_rising hW part31 7 rfl) (unary_at_win ops_rising hW part31 8 rfl)
      (binary_at_win ops_rising hW part31 9 rfl) (binary_at_win ops_rising hW part31 10 rfl)
      (unary_at_win ops_rising hW part31 11 rfl) (nullary_at_win ops_rising hW part31 12 rfl)
      (unary_at_win ops_rising hW part31 13 rfl) (binary_at_win ops_rising hW part31 14 rfl)
      (nullary_at_win ops_rising hW part31 15 rfl) (unary_at_win ops_rising hW part31 16 rfl)
      (binary_at_win ops_rising hW part31 17 rfl) (nullary_at_win ops_rising hW part31 18 rfl)
      (unary_at_win ops_rising hW part31 19 rfl) (binary_at_win ops_rising hW part31 20 rfl)
      (ternary_at_win ops_rising hW part31 21 rfl) (unary_at_win ops_rising hW part31 22 rfl)
      (binary_at_win ops_rising hW part31 23 rfl) (nullary_at_win ops_rising hW part31 24 rfl)
      (unary_at_win ops_rising hW part31 25 rfl) (unary_at_win ops_rising hW part31 26 rfl)
      (unary_at_win ops_rising hW part31 27 rfl) (ternary_at_win ops_rising hW part31 28 rfl)
      (unary_at_win ops_rising hW part31 29 rfl) (reshape_at_win ops_rising hW part31 30 rfl)
      (binary_at_win ops_rising hW part31 31 rfl))

/-- Tap 23, offset (1, 0, 1): its INSIDE bits and its NIDX words, as terms of the coordinates and the
    coordinate map. -/
theorem W_nbr23 :
    W (Proc.devRef .tc main_v1453)
      = inside slices_S200000x3_S200000x1_0_0 slices_S200000x3_S200000x1_0_1
          slices_S200000x3_S200000x1_0_2 shapeCasts_S200000x1_S200000 bcast_S_S200000
          (W (Proc.devRef .tc main_arg3)) 1#32 0#32 1#32 ∧
    W (Proc.devRef .tc main_v1467)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 1#32 0#32 1#32 (W (Proc.devRef .tc main_v20)) :=
  nbr_compose
    (unary_at_win ops_rising hW part31 33 rfl) (reshape_at_win ops_rising hW part31 34 rfl)
    (nullary_at_win ops_rising hW part31 35 rfl) (unary_at_win ops_rising hW part31 36 rfl)
    (binary_at_win ops_rising hW part31 37 rfl) (unary_at_win ops_rising hW part31 38 rfl)
    (reshape_at_win ops_rising hW part31 39 rfl) (nullary_at_win ops_rising hW part31 40 rfl)
    (unary_at_win ops_rising hW part31 41 rfl) (binary_at_win ops_rising hW part31 42 rfl)
    (unary_at_win ops_rising hW part31 43 rfl) (reshape_at_win ops_rising hW part31 44 rfl)
    (nullary_at_win ops_rising hW part31 45 rfl) (unary_at_win ops_rising hW part31 46 rfl)
    (binary_at_win ops_rising hW part31 47 rfl) (nullary_at_win ops_rising hW part31 48 rfl)
    (unary_at_win ops_rising hW part31 49 rfl) (binary_at_win ops_rising hW part31 50 rfl)
    (nullary_at_win ops_rising hW part31 51 rfl) (unary_at_win ops_rising hW part31 52 rfl)
    (binary_at_win ops_rising hW part31 53 rfl) (binary_at_win ops_rising hW part31 54 rfl)
    (nullary_at_win ops_rising hW part31 55 rfl) (unary_at_win ops_rising hW part31 56 rfl)
    (binary_at_win ops_rising hW part31 57 rfl) (binary_at_win ops_rising hW part31 58 rfl)
    (nullary_at_win ops_rising hW part31 59 rfl) (unary_at_win ops_rising hW part31 60 rfl)
    (binary_at_win ops_rising hW part31 61 rfl) (binary_at_win ops_rising hW part31 62 rfl)
    (nullary_at_win ops_rising hW part32 0 rfl) (unary_at_win ops_rising hW part32 1 rfl)
    (binary_at_win ops_rising hW part32 2 rfl) (binary_at_win ops_rising hW part32 3 rfl)
    (nullary_at_win ops_rising hW part32 4 rfl) (unary_at_win ops_rising hW part32 5 rfl)
    (binary_at_win ops_rising hW part32 6 rfl) (binary_at_win ops_rising hW part32 7 rfl)
    (nullary_at_win ops_rising hW part32 8 rfl) (unary_at_win ops_rising hW part32 9 rfl)
    (binary_at_win ops_rising hW part32 10 rfl) (binary_at_win ops_rising hW part32 11 rfl)
    (nullary_at_win ops_rising hW part32 12 rfl) (unary_at_win ops_rising hW part32 13 rfl)
    (binary_at_win ops_rising hW part32 14 rfl) (binary_at_win ops_rising hW part32 15 rfl)
    (nullary_at_win ops_rising hW part32 16 rfl) (nullary_at_win ops_rising hW part32 17 rfl)
    (unary_at_win ops_rising hW part32 18 rfl) (unary_at_win ops_rising hW part32 19 rfl)
    (binary_at_win ops_rising hW part32 20 rfl) (unary_at_win ops_rising hW part32 21 rfl)
    (unary_at_win ops_rising hW part32 22 rfl) (binary_at_win ops_rising hW part32 23 rfl)
    (nullary_at_win ops_rising hW part32 24 rfl) (unary_at_win ops_rising hW part32 25 rfl)
    (binary_at_win ops_rising hW part32 26 rfl) (nullary_at_win ops_rising hW part32 27 rfl)
    (unary_at_win ops_rising hW part32 28 rfl) (binary_at_win ops_rising hW part32 29 rfl)
    (ternary_at_win ops_rising hW part32 30 rfl) (unary_at_win ops_rising hW part32 31 rfl)
    (binary_at_win ops_rising hW part32 32 rfl)

/-- Tap 23's value: the tap of its NIDX and INSIDE, of the features and of slab 23 of the weights. -/
theorem W_tap23 :
    W (Proc.devRef .tc main_v1484)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 1#32 0#32 1#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 1#32 0#32 1#32)
          (W (Proc.devRef .tc main_arg0))
          (wslice (W (Proc.devRef .tc main_arg1)) 23 slices_S27x128x20_S1x128x20_23_0_0 shapeCasts_S1x128x20_S128x20) :=
  tap_of_nbr (W_nbr23 hW)
    (tap_compose
      (nullary_at_win ops_rising hW part32 33 rfl) (unary_at_win ops_rising hW part32 34 rfl)
      (binary_at_win ops_rising hW part32 35 rfl) (binary_at_win ops_rising hW part32 36 rfl)
      (unary_at_win ops_rising hW part32 37 rfl) (nullary_at_win ops_rising hW part32 38 rfl)
      (unary_at_win ops_rising hW part32 39 rfl) (binary_at_win ops_rising hW part32 40 rfl)
      (nullary_at_win ops_rising hW part32 41 rfl) (unary_at_win ops_rising hW part32 42 rfl)
      (binary_at_win ops_rising hW part32 43 rfl) (nullary_at_win ops_rising hW part32 44 rfl)
      (unary_at_win ops_rising hW part32 45 rfl) (binary_at_win ops_rising hW part32 46 rfl)
      (ternary_at_win ops_rising hW part32 47 rfl) (unary_at_win ops_rising hW part32 48 rfl)
      (binary_at_win ops_rising hW part32 49 rfl) (nullary_at_win ops_rising hW part32 50 rfl)
      (unary_at_win ops_rising hW part32 51 rfl) (unary_at_win ops_rising hW part32 52 rfl)
      (unary_at_win ops_rising hW part32 53 rfl) (ternary_at_win ops_rising hW part32 54 rfl)
      (unary_at_win ops_rising hW part32 55 rfl) (reshape_at_win ops_rising hW part32 56 rfl)
      (binary_at_win ops_rising hW part32 57 rfl))

/-- Tap 24, offset (1, 1, −1): its INSIDE bits and its NIDX words, as terms of the coordinates and the
    coordinate map. -/
theorem W_nbr24 :
    W (Proc.devRef .tc main_v1514)
      = inside slices_S200000x3_S200000x1_0_0 slices_S200000x3_S200000x1_0_1
          slices_S200000x3_S200000x1_0_2 shapeCasts_S200000x1_S200000 bcast_S_S200000
          (W (Proc.devRef .tc main_arg3)) 1#32 1#32 4294967295#32 ∧
    W (Proc.devRef .tc main_v1528)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 1#32 1#32 4294967295#32 (W (Proc.devRef .tc main_v20)) :=
  nbr_compose
    (unary_at_win ops_rising hW part32 59 rfl) (reshape_at_win ops_rising hW part32 60 rfl)
    (nullary_at_win ops_rising hW part32 61 rfl) (unary_at_win ops_rising hW part32 62 rfl)
    (binary_at_win ops_rising hW part32 63 rfl) (unary_at_win ops_rising hW part32 64 rfl)
    (reshape_at_win ops_rising hW part32 65 rfl) (nullary_at_win ops_rising hW part32 66 rfl)
    (unary_at_win ops_rising hW part32 67 rfl) (binary_at_win ops_rising hW part33 0 rfl)
    (unary_at_win ops_rising hW part33 1 rfl) (reshape_at_win ops_rising hW part33 2 rfl)
    (nullary_at_win ops_rising hW part33 3 rfl) (unary_at_win ops_rising hW part33 4 rfl)
    (binary_at_win ops_rising hW part33 5 rfl) (nullary_at_win ops_rising hW part33 6 rfl)
    (unary_at_win ops_rising hW part33 7 rfl) (binary_at_win ops_rising hW part33 8 rfl)
    (nullary_at_win ops_rising hW part33 9 rfl) (unary_at_win ops_rising hW part33 10 rfl)
    (binary_at_win ops_rising hW part33 11 rfl) (binary_at_win ops_rising hW part33 12 rfl)
    (nullary_at_win ops_rising hW part33 13 rfl) (unary_at_win ops_rising hW part33 14 rfl)
    (binary_at_win ops_rising hW part33 15 rfl) (binary_at_win ops_rising hW part33 16 rfl)
    (nullary_at_win ops_rising hW part33 17 rfl) (unary_at_win ops_rising hW part33 18 rfl)
    (binary_at_win ops_rising hW part33 19 rfl) (binary_at_win ops_rising hW part33 20 rfl)
    (nullary_at_win ops_rising hW part33 21 rfl) (unary_at_win ops_rising hW part33 22 rfl)
    (binary_at_win ops_rising hW part33 23 rfl) (binary_at_win ops_rising hW part33 24 rfl)
    (nullary_at_win ops_rising hW part33 25 rfl) (unary_at_win ops_rising hW part33 26 rfl)
    (binary_at_win ops_rising hW part33 27 rfl) (binary_at_win ops_rising hW part33 28 rfl)
    (nullary_at_win ops_rising hW part33 29 rfl) (unary_at_win ops_rising hW part33 30 rfl)
    (binary_at_win ops_rising hW part33 31 rfl) (binary_at_win ops_rising hW part33 32 rfl)
    (nullary_at_win ops_rising hW part33 33 rfl) (unary_at_win ops_rising hW part33 34 rfl)
    (binary_at_win ops_rising hW part33 35 rfl) (binary_at_win ops_rising hW part33 36 rfl)
    (nullary_at_win ops_rising hW part33 37 rfl) (nullary_at_win ops_rising hW part33 38 rfl)
    (unary_at_win ops_rising hW part33 39 rfl) (unary_at_win ops_rising hW part33 40 rfl)
    (binary_at_win ops_rising hW part33 41 rfl) (unary_at_win ops_rising hW part33 42 rfl)
    (unary_at_win ops_rising hW part33 43 rfl) (binary_at_win ops_rising hW part33 44 rfl)
    (nullary_at_win ops_rising hW part33 45 rfl) (unary_at_win ops_rising hW part33 46 rfl)
    (binary_at_win ops_rising hW part33 47 rfl) (nullary_at_win ops_rising hW part33 48 rfl)
    (unary_at_win ops_rising hW part33 49 rfl) (binary_at_win ops_rising hW part33 50 rfl)
    (ternary_at_win ops_rising hW part33 51 rfl) (unary_at_win ops_rising hW part33 52 rfl)
    (binary_at_win ops_rising hW part33 53 rfl)

/-- Tap 24's value: the tap of its NIDX and INSIDE, of the features and of slab 24 of the weights. -/
theorem W_tap24 :
    W (Proc.devRef .tc main_v1545)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 1#32 1#32 4294967295#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 1#32 1#32 4294967295#32)
          (W (Proc.devRef .tc main_arg0))
          (wslice (W (Proc.devRef .tc main_arg1)) 24 slices_S27x128x20_S1x128x20_24_0_0 shapeCasts_S1x128x20_S128x20) :=
  tap_of_nbr (W_nbr24 hW)
    (tap_compose
      (nullary_at_win ops_rising hW part33 54 rfl) (unary_at_win ops_rising hW part33 55 rfl)
      (binary_at_win ops_rising hW part33 56 rfl) (binary_at_win ops_rising hW part33 57 rfl)
      (unary_at_win ops_rising hW part33 58 rfl) (nullary_at_win ops_rising hW part33 59 rfl)
      (unary_at_win ops_rising hW part33 60 rfl) (binary_at_win ops_rising hW part33 61 rfl)
      (nullary_at_win ops_rising hW part33 62 rfl) (unary_at_win ops_rising hW part33 63 rfl)
      (binary_at_win ops_rising hW part33 64 rfl) (nullary_at_win ops_rising hW part34 0 rfl)
      (unary_at_win ops_rising hW part34 1 rfl) (binary_at_win ops_rising hW part34 2 rfl)
      (ternary_at_win ops_rising hW part34 3 rfl) (unary_at_win ops_rising hW part34 4 rfl)
      (binary_at_win ops_rising hW part34 5 rfl) (nullary_at_win ops_rising hW part34 6 rfl)
      (unary_at_win ops_rising hW part34 7 rfl) (unary_at_win ops_rising hW part34 8 rfl)
      (unary_at_win ops_rising hW part34 9 rfl) (ternary_at_win ops_rising hW part34 10 rfl)
      (unary_at_win ops_rising hW part34 11 rfl) (reshape_at_win ops_rising hW part34 12 rfl)
      (binary_at_win ops_rising hW part34 13 rfl))

/-- Tap 25, offset (1, 1, 0): its INSIDE bits and its NIDX words, as terms of the coordinates and the
    coordinate map. -/
theorem W_nbr25 :
    W (Proc.devRef .tc main_v1575)
      = inside slices_S200000x3_S200000x1_0_0 slices_S200000x3_S200000x1_0_1
          slices_S200000x3_S200000x1_0_2 shapeCasts_S200000x1_S200000 bcast_S_S200000
          (W (Proc.devRef .tc main_arg3)) 1#32 1#32 0#32 ∧
    W (Proc.devRef .tc main_v1589)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 1#32 1#32 0#32 (W (Proc.devRef .tc main_v20)) :=
  nbr_compose
    (unary_at_win ops_rising hW part34 15 rfl) (reshape_at_win ops_rising hW part34 16 rfl)
    (nullary_at_win ops_rising hW part34 17 rfl) (unary_at_win ops_rising hW part34 18 rfl)
    (binary_at_win ops_rising hW part34 19 rfl) (unary_at_win ops_rising hW part34 20 rfl)
    (reshape_at_win ops_rising hW part34 21 rfl) (nullary_at_win ops_rising hW part34 22 rfl)
    (unary_at_win ops_rising hW part34 23 rfl) (binary_at_win ops_rising hW part34 24 rfl)
    (unary_at_win ops_rising hW part34 25 rfl) (reshape_at_win ops_rising hW part34 26 rfl)
    (nullary_at_win ops_rising hW part34 27 rfl) (unary_at_win ops_rising hW part34 28 rfl)
    (binary_at_win ops_rising hW part34 29 rfl) (nullary_at_win ops_rising hW part34 30 rfl)
    (unary_at_win ops_rising hW part34 31 rfl) (binary_at_win ops_rising hW part34 32 rfl)
    (nullary_at_win ops_rising hW part34 33 rfl) (unary_at_win ops_rising hW part34 34 rfl)
    (binary_at_win ops_rising hW part34 35 rfl) (binary_at_win ops_rising hW part34 36 rfl)
    (nullary_at_win ops_rising hW part34 37 rfl) (unary_at_win ops_rising hW part34 38 rfl)
    (binary_at_win ops_rising hW part34 39 rfl) (binary_at_win ops_rising hW part34 40 rfl)
    (nullary_at_win ops_rising hW part34 41 rfl) (unary_at_win ops_rising hW part34 42 rfl)
    (binary_at_win ops_rising hW part34 43 rfl) (binary_at_win ops_rising hW part34 44 rfl)
    (nullary_at_win ops_rising hW part34 45 rfl) (unary_at_win ops_rising hW part34 46 rfl)
    (binary_at_win ops_rising hW part34 47 rfl) (binary_at_win ops_rising hW part34 48 rfl)
    (nullary_at_win ops_rising hW part34 49 rfl) (unary_at_win ops_rising hW part34 50 rfl)
    (binary_at_win ops_rising hW part34 51 rfl) (binary_at_win ops_rising hW part34 52 rfl)
    (nullary_at_win ops_rising hW part34 53 rfl) (unary_at_win ops_rising hW part34 54 rfl)
    (binary_at_win ops_rising hW part34 55 rfl) (binary_at_win ops_rising hW part34 56 rfl)
    (nullary_at_win ops_rising hW part34 57 rfl) (unary_at_win ops_rising hW part34 58 rfl)
    (binary_at_win ops_rising hW part34 59 rfl) (binary_at_win ops_rising hW part34 60 rfl)
    (nullary_at_win ops_rising hW part34 61 rfl) (nullary_at_win ops_rising hW part34 62 rfl)
    (unary_at_win ops_rising hW part35 0 rfl) (unary_at_win ops_rising hW part35 1 rfl)
    (binary_at_win ops_rising hW part35 2 rfl) (unary_at_win ops_rising hW part35 3 rfl)
    (unary_at_win ops_rising hW part35 4 rfl) (binary_at_win ops_rising hW part35 5 rfl)
    (nullary_at_win ops_rising hW part35 6 rfl) (unary_at_win ops_rising hW part35 7 rfl)
    (binary_at_win ops_rising hW part35 8 rfl) (nullary_at_win ops_rising hW part35 9 rfl)
    (unary_at_win ops_rising hW part35 10 rfl) (binary_at_win ops_rising hW part35 11 rfl)
    (ternary_at_win ops_rising hW part35 12 rfl) (unary_at_win ops_rising hW part35 13 rfl)
    (binary_at_win ops_rising hW part35 14 rfl)

/-- Tap 25's value: the tap of its NIDX and INSIDE, of the features and of slab 25 of the weights. -/
theorem W_tap25 :
    W (Proc.devRef .tc main_v1606)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 1#32 1#32 0#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 1#32 1#32 0#32)
          (W (Proc.devRef .tc main_arg0))
          (wslice (W (Proc.devRef .tc main_arg1)) 25 slices_S27x128x20_S1x128x20_25_0_0 shapeCasts_S1x128x20_S128x20) :=
  tap_of_nbr (W_nbr25 hW)
    (tap_compose
      (nullary_at_win ops_rising hW part35 15 rfl) (unary_at_win ops_rising hW part35 16 rfl)
      (binary_at_win ops_rising hW part35 17 rfl) (binary_at_win ops_rising hW part35 18 rfl)
      (unary_at_win ops_rising hW part35 19 rfl) (nullary_at_win ops_rising hW part35 20 rfl)
      (unary_at_win ops_rising hW part35 21 rfl) (binary_at_win ops_rising hW part35 22 rfl)
      (nullary_at_win ops_rising hW part35 23 rfl) (unary_at_win ops_rising hW part35 24 rfl)
      (binary_at_win ops_rising hW part35 25 rfl) (nullary_at_win ops_rising hW part35 26 rfl)
      (unary_at_win ops_rising hW part35 27 rfl) (binary_at_win ops_rising hW part35 28 rfl)
      (ternary_at_win ops_rising hW part35 29 rfl) (unary_at_win ops_rising hW part35 30 rfl)
      (binary_at_win ops_rising hW part35 31 rfl) (nullary_at_win ops_rising hW part35 32 rfl)
      (unary_at_win ops_rising hW part35 33 rfl) (unary_at_win ops_rising hW part35 34 rfl)
      (unary_at_win ops_rising hW part35 35 rfl) (ternary_at_win ops_rising hW part35 36 rfl)
      (unary_at_win ops_rising hW part35 37 rfl) (reshape_at_win ops_rising hW part35 38 rfl)
      (binary_at_win ops_rising hW part35 39 rfl))

/-- Tap 26, offset (1, 1, 1): its INSIDE bits and its NIDX words, as terms of the coordinates and the
    coordinate map. -/
theorem W_nbr26 :
    W (Proc.devRef .tc main_v1636)
      = inside slices_S200000x3_S200000x1_0_0 slices_S200000x3_S200000x1_0_1
          slices_S200000x3_S200000x1_0_2 shapeCasts_S200000x1_S200000 bcast_S_S200000
          (W (Proc.devRef .tc main_arg3)) 1#32 1#32 1#32 ∧
    W (Proc.devRef .tc main_v1650)
      = nidx slices_S200000x3_S200000x1_0_0 slices_S200000x3_S200000x1_0_1
          slices_S200000x3_S200000x1_0_2 shapeCasts_S200000x1_S200000 bcast_S_S200000
          bcast_S200000_S200000x1_0 gather_S5529600_S200000x1_S200000_n_0_n_n_0_1_1_wf
          (W (Proc.devRef .tc main_arg3)) 1#32 1#32 1#32 (W (Proc.devRef .tc main_v20)) :=
  nbr_compose
    (unary_at_win ops_rising hW part35 41 rfl) (reshape_at_win ops_rising hW part35 42 rfl)
    (nullary_at_win ops_rising hW part35 43 rfl) (unary_at_win ops_rising hW part35 44 rfl)
    (binary_at_win ops_rising hW part35 45 rfl) (unary_at_win ops_rising hW part35 46 rfl)
    (reshape_at_win ops_rising hW part35 47 rfl) (nullary_at_win ops_rising hW part35 48 rfl)
    (unary_at_win ops_rising hW part35 49 rfl) (binary_at_win ops_rising hW part35 50 rfl)
    (unary_at_win ops_rising hW part35 51 rfl) (reshape_at_win ops_rising hW part35 52 rfl)
    (nullary_at_win ops_rising hW part35 53 rfl) (unary_at_win ops_rising hW part35 54 rfl)
    (binary_at_win ops_rising hW part35 55 rfl) (nullary_at_win ops_rising hW part35 56 rfl)
    (unary_at_win ops_rising hW part35 57 rfl) (binary_at_win ops_rising hW part35 58 rfl)
    (nullary_at_win ops_rising hW part35 59 rfl) (unary_at_win ops_rising hW part35 60 rfl)
    (binary_at_win ops_rising hW part35 61 rfl) (binary_at_win ops_rising hW part35 62 rfl)
    (nullary_at_win ops_rising hW part35 63 rfl) (unary_at_win ops_rising hW part35 64 rfl)
    (binary_at_win ops_rising hW part35 65 rfl) (binary_at_win ops_rising hW part35 66 rfl)
    (nullary_at_win ops_rising hW part35 67 rfl) (unary_at_win ops_rising hW part36 0 rfl)
    (binary_at_win ops_rising hW part36 1 rfl) (binary_at_win ops_rising hW part36 2 rfl)
    (nullary_at_win ops_rising hW part36 3 rfl) (unary_at_win ops_rising hW part36 4 rfl)
    (binary_at_win ops_rising hW part36 5 rfl) (binary_at_win ops_rising hW part36 6 rfl)
    (nullary_at_win ops_rising hW part36 7 rfl) (unary_at_win ops_rising hW part36 8 rfl)
    (binary_at_win ops_rising hW part36 9 rfl) (binary_at_win ops_rising hW part36 10 rfl)
    (nullary_at_win ops_rising hW part36 11 rfl) (unary_at_win ops_rising hW part36 12 rfl)
    (binary_at_win ops_rising hW part36 13 rfl) (binary_at_win ops_rising hW part36 14 rfl)
    (nullary_at_win ops_rising hW part36 15 rfl) (unary_at_win ops_rising hW part36 16 rfl)
    (binary_at_win ops_rising hW part36 17 rfl) (binary_at_win ops_rising hW part36 18 rfl)
    (nullary_at_win ops_rising hW part36 19 rfl) (nullary_at_win ops_rising hW part36 20 rfl)
    (unary_at_win ops_rising hW part36 21 rfl) (unary_at_win ops_rising hW part36 22 rfl)
    (binary_at_win ops_rising hW part36 23 rfl) (unary_at_win ops_rising hW part36 24 rfl)
    (unary_at_win ops_rising hW part36 25 rfl) (binary_at_win ops_rising hW part36 26 rfl)
    (nullary_at_win ops_rising hW part36 27 rfl) (unary_at_win ops_rising hW part36 28 rfl)
    (binary_at_win ops_rising hW part36 29 rfl) (nullary_at_win ops_rising hW part36 30 rfl)
    (unary_at_win ops_rising hW part36 31 rfl) (binary_at_win ops_rising hW part36 32 rfl)
    (ternary_at_win ops_rising hW part36 33 rfl) (unary_at_win ops_rising hW part36 34 rfl)
    (binary_at_win ops_rising hW part36 35 rfl)

/-- Tap 26's value: the tap of its NIDX and INSIDE, of the features and of slab 26 of the weights. -/
theorem W_tap26 :
    W (Proc.devRef .tc main_v1667)
      = tap bcast_S_S200000 bcast_S200000_S200000x1_0 bcast_S200000x1_S200000x128_0_1 bcast_S_S200000x128
          gather_S200000x128_S200000x1_S200000x128_1_0_n_n_0_1_1128_wf dot_S200000x128_S128x20_S200000x20_1_0_0_1_n_n_wf
          (nidx slices_S200000x3_S200000x1_0_0 slices_S200000x3_S200000x1_0_1
            slices_S200000x3_S200000x1_0_2 shapeCasts_S200000x1_S200000 bcast_S_S200000
            bcast_S200000_S200000x1_0 gather_S5529600_S200000x1_S200000_n_0_n_n_0_1_1_wf
            (W (Proc.devRef .tc main_arg3)) 1#32 1#32 1#32 (W (Proc.devRef .tc main_v20)))
          (inside slices_S200000x3_S200000x1_0_0 slices_S200000x3_S200000x1_0_1
            slices_S200000x3_S200000x1_0_2 shapeCasts_S200000x1_S200000 bcast_S_S200000
            (W (Proc.devRef .tc main_arg3)) 1#32 1#32 1#32)
          (W (Proc.devRef .tc main_arg0))
          (wslice (W (Proc.devRef .tc main_arg1)) 26 slices_S27x128x20_S1x128x20_26_0_0 shapeCasts_S1x128x20_S128x20) :=
  tap_of_nbr (W_nbr26 hW)
    (tap_compose
      (nullary_at_win ops_rising hW part36 36 rfl) (unary_at_win ops_rising hW part36 37 rfl)
      (binary_at_win ops_rising hW part36 38 rfl) (binary_at_win ops_rising hW part36 39 rfl)
      (unary_at_win ops_rising hW part36 40 rfl) (nullary_at_win ops_rising hW part36 41 rfl)
      (unary_at_win ops_rising hW part36 42 rfl) (binary_at_win ops_rising hW part36 43 rfl)
      (nullary_at_win ops_rising hW part36 44 rfl) (unary_at_win ops_rising hW part36 45 rfl)
      (binary_at_win ops_rising hW part36 46 rfl) (nullary_at_win ops_rising hW part36 47 rfl)
      (unary_at_win ops_rising hW part36 48 rfl) (binary_at_win ops_rising hW part36 49 rfl)
      (ternary_at_win ops_rising hW part36 50 rfl) (unary_at_win ops_rising hW part36 51 rfl)
      (binary_at_win ops_rising hW part36 52 rfl) (nullary_at_win ops_rising hW part36 53 rfl)
      (unary_at_win ops_rising hW part36 54 rfl) (unary_at_win ops_rising hW part36 55 rfl)
      (unary_at_win ops_rising hW part36 56 rfl) (ternary_at_win ops_rising hW part36 57 rfl)
      (unary_at_win ops_rising hW part36 58 rfl) (reshape_at_win ops_rising hW part36 59 rfl)
      (binary_at_win ops_rising hW part36 60 rfl))

end ReadBack

end Cert.ReferenceIdeal.Read

end
-- ==== Proof.RefReadOut.lean ====
/-
  THE REFERENCE PROGRAM READ BACK: the bias and the accumulation.

  The running sum starts as the bias, a vector of 20 numbers, broadcast along the 200000 rows. After each tap the
  tap's value is added to it: 27 additions, in the order of the taps. The program's result is the last running sum:
  the bias broadcast, plus tap 0, plus tap 1, …, plus tap 26 — a left fold of the addition over the taps' values in
  order (`acc_compose`).
-/
import proofs.«120445_j5549097746519_2_alg».proof.Proof.RefReadRise
import proofs.«120445_j5549097746519_2_alg».proof.Proof.RefReadCompose

set_option maxRecDepth 16384

noncomputable section

namespace Cert.ReferenceIdeal.Read

open Cert.ReferenceIdeal Cert.ReferenceIdeal.Gen Cert.ReferenceIdeal.ValueP
open Idealize.ShloMosaic Idealize.ShloMosaic.TcCoe Idealize.SL.Sem Idealize.ShloMosaic.StableHlo
open Cert.LibSsaAfter Cert.LibSsaWindow Cert.NbrIdx Cert.RefTap Cert.RefWeight

section ReadBack
variable {W V0 : Valuation τ sig (Elt Ideal)} (hW : W = after (ops (F := Ideal)) V0)
include hW

/-- The running sum starts as the bias broadcast along the rows. -/
theorem W_bias :
    W (Proc.devRef .tc main_v21)
      = broadcastInDim S200000x20 ![1] bcast_S20_S200000x20_1 (W (Proc.devRef .tc main_arg2)) :=
  unary_at_win ops_rising hW part0 26 rfl

/-- THE RESULT: the bias broadcast plus the 27 taps' values, added one at a time in the order of the taps. -/
theorem W_out :
    W (Proc.devRef .tc main_v1668)
      = (List.foldl addf (W (Proc.devRef .tc main_v21))
          [W (Proc.devRef .tc main_v81), W (Proc.devRef .tc main_v142), W (Proc.devRef .tc main_v203),
          W (Proc.devRef .tc main_v264), W (Proc.devRef .tc main_v325), W (Proc.devRef .tc main_v386),
          W (Proc.devRef .tc main_v447), W (Proc.devRef .tc main_v508), W (Proc.devRef .tc main_v569),
          W (Proc.devRef .tc main_v630), W (Proc.devRef .tc main_v691), W (Proc.devRef .tc main_v752),
          W (Proc.devRef .tc main_v813), W (Proc.devRef .tc main_v874), W (Proc.devRef .tc main_v935),
          W (Proc.devRef .tc main_v996), W (Proc.devRef .tc main_v1057), W (Proc.devRef .tc main_v1118),
          W (Proc.devRef .tc main_v1179), W (Proc.devRef .tc main_v1240), W (Proc.devRef .tc main_v1301),
          W (Proc.devRef .tc main_v1362), W (Proc.devRef .tc main_v1423), W (Proc.devRef .tc main_v1484),
          W (Proc.devRef .tc main_v1545), W (Proc.devRef .tc main_v1606), W (Proc.devRef .tc main_v1667)] :
            FVec Ideal S200000x20 .f32) :=
  acc_compose
    (binary_at_win ops_rising hW part1 55 rfl) (binary_at_win ops_rising hW part3 11 rfl)
    (binary_at_win ops_rising hW part4 32 rfl) (binary_at_win ops_rising hW part5 58 rfl)
    (binary_at_win ops_rising hW part7 14 rfl) (binary_at_win ops_rising hW part8 40 rfl)
    (binary_at_win ops_rising hW part9 61 rfl) (binary_at_win ops_rising hW part11 17 rfl)
    (binary_at_win ops_rising hW part12 43 rfl) (binary_at_win ops_rising hW part13 64 rfl)
    (binary_at_win ops_rising hW part15 20 rfl) (binary_at_win ops_rising hW part16 46 rfl)
    (binary_at_win ops_rising hW part17 67 rfl) (binary_at_win ops_rising hW part19 23 rfl)
    (binary_at_win ops_rising hW part20 49 rfl) (binary_at_win ops_rising hW part22 2 rfl)
    (binary_at_win ops_rising hW part23 26 rfl) (binary_at_win ops_rising hW part24 52 rfl)
    (binary_at_win ops_rising hW part26 8 rfl) (binary_at_win ops_rising hW part27 29 rfl)
    (binary_at_win ops_rising hW part28 55 rfl) (binary_at_win ops_rising hW part30 11 rfl)
    (binary_at_win ops_rising hW part31 32 rfl) (binary_at_win ops_rising hW part32 58 rfl)
    (binary_at_win ops_rising hW part34 14 rfl) (binary_at_win ops_rising hW part35 40 rfl)
    (binary_at_win ops_rising hW part36 61 rfl)

end ReadBack

end Cert.ReferenceIdeal.Read

end
-- ==== Proof.RefReadSpec.lean ====
/-
  THE REFERENCE PROGRAM COMPUTES THE REFERENCE'S RESULT AS A FUNCTION OF ITS FOUR INPUTS.

  The buffers read back so far are terms of the buffers' final contents. The four arguments hold at the end what they
  held at the start, and the coordinate map is a term of the coordinates; rewriting with these, each tap's buffer is
  the tap, as a function of the inputs, that the specification names (`Cert.Spec.refTapOf`): the same term, its side
  conditions other proofs of the same facts, its offset words the entries of the specification's tables, its scatter
  record the same record. The result buffer is the bias spread over the rows plus the 27 taps added in order: the
  specification's left fold over the taps (`Cert.Spec.refOut`).
-/
import proofs.«120445_j5549097746519_2_alg».proof.Proof.RefReadTapA
import proofs.«120445_j5549097746519_2_alg».proof.Proof.RefReadTapB
import proofs.«120445_j5549097746519_2_alg».proof.Proof.RefReadTapC
import proofs.«120445_j5549097746519_2_alg».proof.Proof.RefReadOut
import proofs.«120445_j5549097746519_2_alg».proof.Proof.Spec

set_option maxRecDepth 16384

noncomputable section

namespace Cert.ReferenceIdeal.Read

open Cert.ReferenceIdeal Cert.ReferenceIdeal.Gen Cert.ReferenceIdeal.ValueP
open Idealize.ShloMosaic Idealize.ShloMosaic.TcCoe Idealize.SL.Sem Idealize.ShloMosaic.StableHlo
open Cert.LibSsaAfter Cert.LibSsaWindow

/-- The 27 taps' numbers, in order. -/
theorem finRange27 : List.finRange 27
    = [0, 1, 2, 3, 4, 5, 6, 7, 8, 9, 10, 11, 12, 13, 14, 15, 16, 17, 18, 19, 20, 21, 22, 23, 24, 25, 26] := by
  decide

section ReadBack
variable {W V0 : Valuation τ sig (Elt Ideal)} (hW : W = after (ops (F := Ideal)) V0)
include hW

/-- Tap 0 is the reference's tap 0 of the inputs. -/
theorem W_tap0_spec :
    W (Proc.devRef .tc main_v81)
      = Cert.Spec.refTapOf (V0 (Proc.devRef .tc main_arg0)) (V0 (Proc.devRef .tc main_arg1))
          (V0 (Proc.devRef .tc main_arg3)) 0 := by
  have h := W_tap0 hW
  rw [W_map hW, W_arg0 hW, W_arg1 hW, W_arg3 hW] at h
  exact h

/-- Tap 1 is the reference's tap 1 of the inputs. -/
theorem W_tap1_spec :
    W (Proc.devRef .tc main_v142)
      = Cert.Spec.refTapOf (V0 (Proc.devRef .tc main_arg0)) (V0 (Proc.devRef .tc main_arg1))
          (V0 (Proc.devRef .tc main_arg3)) 1 := by
  have h := W_tap1 hW
  rw [W_map hW, W_arg0 hW, W_arg1 hW, W_arg3 hW] at h
  exact h

/-- Tap 2 is the reference's tap 2 of the inputs. -/
theorem W_tap2_spec :
    W (Proc.devRef .tc main_v203)
      = Cert.Spec.refTapOf (V0 (Proc.devRef .tc main_arg0)) (V0 (Proc.devRef .tc main_arg1))
          (V0 (Proc.devRef .tc main_arg3)) 2 := by
  have h := W_tap2 hW
  rw [W_map hW, W_arg0 hW, W_arg1 hW, W_arg3 hW] at h
  exact h

/-- Tap 3 is the reference's tap 3 of the inputs. -/
theorem W_tap3_spec :
    W (Proc.devRef .tc main_v264)
      = Cert.Spec.refTapOf (V0 (Proc.devRef .tc main_arg0)) (V0 (Proc.devRef .tc main_arg1))
          (V0 (Proc.devRef .tc main_arg3)) 3 := by
  have h := W_tap3 hW
  rw [W_map hW, W_arg0 hW, W_arg1 hW, W_arg3 hW] at h
  exact h

/-- Tap 4 is the reference's tap 4 of the inputs. -/
theorem W_tap4_spec :
    W (Proc.devRef .tc main_v325)
      = Cert.Spec.refTapOf (V0 (Proc.devRef .tc main_arg0)) (V0 (Proc.devRef .tc main_arg1))
          (V0 (Proc.devRef .tc main_arg3)) 4 := by
  have h := W_tap4 hW
  rw [W_map hW, W_arg0 hW, W_arg1 hW, W_arg3 hW] at h
  exact h

/-- Tap 5 is the reference's tap 5 of the inputs. -/
theorem W_tap5_spec :
    W (Proc.devRef .tc main_v386)
      = Cert.Spec.refTapOf (V0 (Proc.devRef .tc main_arg0)) (V0 (Proc.devRef .tc main_arg1))
          (V0 (Proc.devRef .tc main_arg3)) 5 := by
  have h := W_tap5 hW
  rw [W_map hW, W_arg0 hW, W_arg1 hW, W_arg3 hW] at h
  exact h

/-- Tap 6 is the reference's tap 6 of the inputs. -/
theorem W_tap6_spec :
    W (Proc.devRef .tc main_v447)
      = Cert.Spec.refTapOf (V0 (Proc.devRef .tc main_arg0)) (V0 (Proc.devRef .tc main_arg1))
          (V0 (Proc.devRef .tc main_arg3)) 6 := by
  have h := W_tap6 hW
  rw [W_map hW, W_arg0 hW, W_arg1 hW, W_arg3 hW] at h
  exact h

/-- Tap 7 is the reference's tap 7 of the inputs. -/
theorem W_tap7_spec :
    W (Proc.devRef .tc main_v508)
      = Cert.Spec.refTapOf (V0 (Proc.devRef .tc main_arg0)) (V0 (Proc.devRef .tc main_arg1))
          (V0 (Proc.devRef .tc main_arg3)) 7 := by
  have h := W_tap7 hW
  rw [W_map hW, W_arg0 hW, W_arg1 hW, W_arg3 hW] at h
  exact h

/-- Tap 8 is the reference's tap 8 of the inputs. -/
theorem W_tap8_spec :
    W (Proc.devRef .tc main_v569)
      = Cert.Spec.refTapOf (V0 (Proc.devRef .tc main_arg0)) (V0 (Proc.devRef .tc main_arg1))
          (V0 (Proc.devRef .tc main_arg3)) 8 := by
  have h := W_tap8 hW
  rw [W_map hW, W_arg0 hW, W_arg1 hW, W_arg3 hW] at h
  exact h

/-- Tap 9 is the reference's tap 9 of the inputs. -/
theorem W_tap9_spec :
    W (Proc.devRef .tc main_v630)
      = Cert.Spec.refTapOf (V0 (Proc.devRef .tc main_arg0)) (V0 (Proc.devRef .tc main_arg1))
          (V0 (Proc.devRef .tc main_arg3)) 9 := by
  have h := W_tap9 hW
  rw [W_map hW, W_arg0 hW, W_arg1 hW, W_arg3 hW] at h
  exact h

/-- Tap 10 is the reference's tap 10 of the inputs. -/
theorem W_tap10_spec :
    W (Proc.devRef .tc main_v691)
      = Cert.Spec.refTapOf (V0 (Proc.devRef .tc main_arg0)) (V0 (Proc.devRef .tc main_arg1))
          (V0 (Proc.devRef .tc main_arg3)) 10 := by
  have h := W_tap10 hW
  rw [W_map hW, W_arg0 hW, W_arg1 hW, W_arg3 hW] at h
  exact h

/-- Tap 11 is the reference's tap 11 of the inputs. -/
theorem W_tap11_spec :
    W (Proc.devRef .tc main_v752)
      = Cert.Spec.refTapOf (V0 (Proc.devRef .tc main_arg0)) (V0 (Proc.devRef .tc main_arg1))
          (V0 (Proc.devRef .tc main_arg3)) 11 := by
  have h := W_tap11 hW
  rw [W_map hW, W_arg0 hW, W_arg1 hW, W_arg3 hW] at h
  exact h

/-- Tap 12 is the reference's tap 12 of the inputs. -/
theorem W_tap12_spec :
    W (Proc.devRef .tc main_v813)
      = Cert.Spec.refTapOf (V0 (Proc.devRef .tc main_arg0)) (V0 (Proc.devRef .tc main_arg1))
          (V0 (Proc.devRef .tc main_arg3)) 12 := by
  have h := W_tap12 hW
  rw [W_map hW, W_arg0 hW, W_arg1 hW, W_arg3 hW] at h
  exact h

/-- Tap 13 is the reference's tap 13 of the inputs. -/
theorem W_tap13_spec :
    W (Proc.devRef .tc main_v874)
      = Cert.Spec.refTapOf (V0 (Proc.devRef .tc main_arg0)) (V0 (Proc.devRef .tc main_arg1))
          (V0 (Proc.devRef .tc main_arg3)) 13 := by
  have h := W_tap13 hW
  rw [W_map hW, W_arg0 hW, W_arg1 hW, W_arg3 hW] at h
  exact h

/-- Tap 14 is the reference's tap 14 of the inputs. -/
theorem W_tap14_spec :
    W (Proc.devRef .tc main_v935)
      = Cert.Spec.refTapOf (V0 (Proc.devRef .tc main_arg0)) (V0 (Proc.devRef .tc main_arg1))
          (V0 (Proc.devRef .tc main_arg3)) 14 := by
  have h := W_tap14 hW
  rw [W_map hW, W_arg0 hW, W_arg1 hW, W_arg3 hW] at h
  exact h

/-- Tap 15 is the reference's tap 15 of the inputs. -/
theorem W_tap15_spec :
    W (Proc.devRef .tc main_v996)
      = Cert.Spec.refTapOf (V0 (Proc.devRef .tc main_arg0)) (V0 (Proc.devRef .tc main_arg1))
          (V0 (Proc.devRef .tc main_arg3)) 15 := by
  have h := W_tap15 hW
  rw [W_map hW, W_arg0 hW, W_arg1 hW, W_arg3 hW] at h
  exact h

/-- Tap 16 is the reference's tap 16 of the inputs. -/
theorem W_tap16_spec :
    W (Proc.devRef .tc main_v1057)
      = Cert.Spec.refTapOf (V0 (Proc.devRef .tc main_arg0)) (V0 (Proc.devRef .tc main_arg1))
          (V0 (Proc.devRef .tc main_arg3)) 16 := by
  have h := W_tap16 hW
  rw [W_map hW, W_arg0 hW, W_arg1 hW, W_arg3 hW] at h
  exact h

/-- Tap 17 is the reference's tap 17 of the inputs. -/
theorem W_tap17_spec :
    W (Proc.devRef .tc main_v1118)
      = Cert.Spec.refTapOf (V0 (Proc.devRef .tc main_arg0)) (V0 (Proc.devRef .tc main_arg1))
          (V0 (Proc.devRef .tc main_arg3)) 17 := by
  have h := W_tap17 hW
  rw [W_map hW, W_arg0 hW, W_arg1 hW, W_arg3 hW] at h
  exact h

/-- Tap 18 is the reference's tap 18 of the inputs. -/
theorem W_tap18_spec :
    W (Proc.devRef .tc main_v1179)
      = Cert.Spec.refTapOf (V0 (Proc.devRef .tc main_arg0)) (V0 (Proc.devRef .tc main_arg1))
          (V0 (Proc.devRef .tc main_arg3)) 18 := by
  have h := W_tap18 hW
  rw [W_map hW, W_arg0 hW, W_arg1 hW, W_arg3 hW] at h
  exact h

/-- Tap 19 is the reference's tap 19 of the inputs. -/
theorem W_tap19_spec :
    W (Proc.devRef .tc main_v1240)
      = Cert.Spec.refTapOf (V0 (Proc.devRef .tc main_arg0)) (V0 (Proc.devRef .tc main_arg1))
          (V0 (Proc.devRef .tc main_arg3)) 19 := by
  have h := W_tap19 hW
  rw [W_map hW, W_arg0 hW, W_arg1 hW, W_arg3 hW] at h
  exact h

/-- Tap 20 is the reference's tap 20 of the inputs. -/
theorem W_tap20_spec :
    W (Proc.devRef .tc main_v1301)
      = Cert.Spec.refTapOf (V0 (Proc.devRef .tc main_arg0)) (V0 (Proc.devRef .tc main_arg1))
          (V0 (Proc.devRef .tc main_arg3)) 20 := by
  have h := W_tap20 hW
  rw [W_map hW, W_arg0 hW, W_arg1 hW, W_arg3 hW] at h
  exact h

/-- Tap 21 is the reference's tap 21 of the inputs. -/
theorem W_tap21_spec :
    W (Proc.devRef .tc main_v1362)
      = Cert.Spec.refTapOf (V0 (Proc.devRef .tc main_arg0)) (V0 (Proc.devRef .tc main_arg1))
          (V0 (Proc.devRef .tc main_arg3)) 21 := by
  have h := W_tap21 hW
  rw [W_map hW, W_arg0 hW, W_arg1 hW, W_arg3 hW] at h
  exact h

/-- Tap 22 is the reference's tap 22 of the inputs. -/
theorem W_tap22_spec :
    W (Proc.devRef .tc main_v1423)
      = Cert.Spec.refTapOf (V0 (Proc.devRef .tc main_arg0)) (V0 (Proc.devRef .tc main_arg1))
          (V0 (Proc.devRef .tc main_arg3)) 22 := by
  have h := W_tap22 hW
  rw [W_map hW, W_arg0 hW, W_arg1 hW, W_arg3 hW] at h
  exact h

/-- Tap 23 is the reference's tap 23 of the inputs. -/
theorem W_tap23_spec :
    W (Proc.devRef .tc main_v1484)
      = Cert.Spec.refTapOf (V0 (Proc.devRef .tc main_arg0)) (V0 (Proc.devRef .tc main_arg1))
          (V0 (Proc.devRef .tc main_arg3)) 23 := by
  have h := W_tap23 hW
  rw [W_map hW, W_arg0 hW, W_arg1 hW, W_arg3 hW] at h
  exact h

/-- Tap 24 is the reference's tap 24 of the inputs. -/
theorem W_tap24_spec :
    W (Proc.devRef .tc main_v1545)
      = Cert.Spec.refTapOf (V0 (Proc.devRef .tc main_arg0)) (V0 (Proc.devRef .tc main_arg1))
          (V0 (Proc.devRef .tc main_arg3)) 24 := by
  have h := W_tap24 hW
  rw [W_map hW, W_arg0 hW, W_arg1 hW, W_arg3 hW] at h
  exact h

/-- Tap 25 is the reference's tap 25 of the inputs. -/
theorem W_tap25_spec :
    W (Proc.devRef .tc main_v1606)
      = Cert.Spec.refTapOf (V0 (Proc.devRef .tc main_arg0)) (V0 (Proc.devRef .tc main_arg1))
          (V0 (Proc.devRef .tc main_arg3)) 25 := by
  have h := W_tap25 hW
  rw [W_map hW, W_arg0 hW, W_arg1 hW, W_arg3 hW] at h
  exact h

/-- Tap 26 is the reference's tap 26 of the inputs. -/
theorem W_tap26_spec :
    W (Proc.devRef .tc main_v1667)
      = Cert.Spec.refTapOf (V0 (Proc.devRef .tc main_arg0)) (V0 (Proc.devRef .tc main_arg1))
          (V0 (Proc.devRef .tc main_arg3)) 26 := by
  have h := W_tap26 hW
  rw [W_map hW, W_arg0 hW, W_arg1 hW, W_arg3 hW] at h
  exact h

/-- THE RESULT BUFFER HOLDS THE REFERENCE'S RESULT OF THE INPUTS. -/
theorem W_out_spec :
    W (Proc.devRef .tc main_v1668)
      = Cert.Spec.refOut (V0 (Proc.devRef .tc main_arg0)) (V0 (Proc.devRef .tc main_arg1))
          (V0 (Proc.devRef .tc main_arg2)) (V0 (Proc.devRef .tc main_arg3)) := by
  have h := W_out hW
  rw [W_bias hW, W_arg2 hW, W_tap0_spec hW, W_tap1_spec hW, W_tap2_spec hW, W_tap3_spec hW, W_tap4_spec hW,
    W_tap5_spec hW, W_tap6_spec hW, W_tap7_spec hW, W_tap8_spec hW, W_tap9_spec hW, W_tap10_spec hW,
    W_tap11_spec hW, W_tap12_spec hW, W_tap13_spec hW, W_tap14_spec hW, W_tap15_spec hW, W_tap16_spec hW,
    W_tap17_spec hW, W_tap18_spec hW, W_tap19_spec hW, W_tap20_spec hW, W_tap21_spec hW, W_tap22_spec hW,
    W_tap23_spec hW, W_tap24_spec hW, W_tap25_spec hW, W_tap26_spec hW] at h
  refine h.trans ?_
  show _ = List.foldl _ _ (List.finRange 27)
  rw [finRange27]
  rfl

end ReadBack

end Cert.ReferenceIdeal.Read

end
-- ==== Proof.RefReadValue.lean ====
/-
  THE REFERENCE PROGRAM'S EXECUTIONS: the result buffer holds the reference's result of the arguments.

  The program is a straight line of host operations, so every weakly fair execution of it, from any memory with zero
  counters, terminates with every buffer at what the operations, run in order from the launch contents, leave in it.
  Read back, the result buffer's final contents are the reference's result as a function of the four arguments'
  launch contents, and the arguments' final contents are their launch contents. This holds on every device.
-/
import proofs.«120445_j5549097746519_2_alg».proof.Proof.RefReadSpec

set_option maxRecDepth 16384

noncomputable section

namespace Cert.ReferenceIdeal.Read

open Cert.ReferenceIdeal Cert.ReferenceIdeal.Gen Cert.ReferenceIdeal.ValueP
open Idealize.ShloMosaic Idealize.ShloMosaic.TcCoe Idealize.SL.Sem Idealize.ShloMosaic.StableHlo
open Cert.LibSsaAfter Cert.LibSsaWindow

/-- ON EVERY DEVICE, from any memory with zero counters, every weakly fair execution of the reference terminates with
    its result buffer holding the reference's result of the four arguments' initial contents, and the arguments
    unchanged. -/
theorem reference_value (m : (ℓ : Loc nD τ sig) → Buf (Elt Ideal) ℓ) (ρ : Dev nD → PrngReg) :
    θ_run defs (onTc (τ := τ) (main (F := Ideal))) ⟨m, fun _ => 0, ρ⟩ fun r =>
      ∀ d : Dev nD,
        r.2.mem ((d.tc : Thread nD τ).loc main_v1668)
            = Cert.Spec.refOut (m (d, Proc.devRef .tc main_arg0)) (m (d, Proc.devRef .tc main_arg1))
                (m (d, Proc.devRef .tc main_arg2)) (m (d, Proc.devRef .tc main_arg3)) ∧
          r.2.mem ((d.tc : Thread nD τ).loc main_arg0) = m (d, Proc.devRef .tc main_arg0) ∧
          r.2.mem ((d.tc : Thread nD τ).loc main_arg1) = m (d, Proc.devRef .tc main_arg1) ∧
          r.2.mem ((d.tc : Thread nD τ).loc main_arg2) = m (d, Proc.devRef .tc main_arg2) ∧
          r.2.mem ((d.tc : Thread nD τ).loc main_arg3) = m (d, Proc.devRef .tc main_arg3) := by
  refine (θ_run defs _ _).mono (fun _ hr d => ?_) (run (F := Ideal) m ρ)
  have hW : after (ops (F := Ideal)) (launchContents m d) = after (ops (F := Ideal)) (launchContents m d) := rfl
  have hout := (hr d main_v1668).trans (W_out_spec hW)
  dsimp only [launchContents] at hout
  exact ⟨hout, (hr d main_arg0).trans (W_arg0 hW), (hr d main_arg1).trans (W_arg1 hW),
    (hr d main_arg2).trans (W_arg2 hW), (hr d main_arg3).trans (W_arg3 hW)⟩

end Cert.ReferenceIdeal.Read

end
-- ==== Proof.Algebraic.lean ====
/-
  THE TWO IDEALIZED PROGRAMS END WITH EQUAL RESULTS, and the reference program's frame.

  Run from memories that agree on the four argument arrays, the kernel program ends with its result array at
  `Spec.kerOut` of its arguments and the reference with its result array at `Spec.refOut` of its own; the two are the
  same array of the same arguments (`Spec.kerOut_eq_refOut`). Each run leaves the arguments unchanged; forgetting the
  result, the reference's run is its frame.
-/
import proofs.«120445_j5549097746519_2_alg».proof.Defs
import proofs.«120445_j5549097746519_2_alg».proof.Proof.Gen.KernelIdeal
import proofs.«120445_j5549097746519_2_alg».proof.Proof.Gen.ReferenceIdeal
import proofs.«120445_j5549097746519_2_alg».proof.Proof.Gen.Pre_finite_inputs
import proofs.«120445_j5549097746519_2_alg».proof.Proof.KerValueFinal
import proofs.«120445_j5549097746519_2_alg».proof.Proof.RefReadValue
import proofs.«120445_j5549097746519_2_alg».proof.Proof.Spec

noncomputable section

namespace Cert.Proof.Alg

open Idealize.ShloMosaic Idealize.ShloMosaic.TcCoe Idealize.SL.Sem

/-- The reference program runs to its end, faults nowhere and leaves its argument arrays unchanged: its value run
    with the result forgotten. -/
theorem frame_ri : Cert.frame_ReferenceIdeal := fun m ρ _ =>
  (θ_run (Cert.ReferenceIdeal.defs (F := Ideal)) _ _).mono (fun _ h c => (h c).2)
    (Cert.ReferenceIdeal.Read.reference_value m ρ)

/-- From memories agreeing on the arguments both idealized programs run, end with equal results — element by element,
    as extended reals — and leave their arguments unchanged. -/
theorem algebraic : Cert.algebraic_KernelIdeal_ReferenceIdeal := by
  intro m ρ m' ρ' _ hagree
  refine ⟨fun c => Cert.Spec.kerOut (Cert.KernelIdeal.Head.argX m c) (Cert.KernelIdeal.Head.argW m c)
      (Cert.KernelIdeal.Value.argBias m c) (Cert.KernelIdeal.Head.argCoords m c),
    Cert.KernelIdeal.Value.kernel_value' m ρ, ?_⟩
  refine (θ_run (Cert.ReferenceIdeal.defs (F := Ideal)) _ _).mono (fun r h c => ⟨?_, (h c).2⟩)
    (Cert.ReferenceIdeal.Read.reference_value m' ρ')
  obtain ⟨h0, h1, h2, h3⟩ := hagree c
  refine (h c).1.trans ?_
  refine Eq.trans ?_ (Cert.Spec.kerOut_eq_refOut (Cert.KernelIdeal.Head.argX m c) (Cert.KernelIdeal.Head.argW m c)
    (Cert.KernelIdeal.Value.argBias m c) (Cert.KernelIdeal.Head.argCoords m c)).symm
  exact congr (congr (congr (congrArg Cert.Spec.refOut h0) h1) h2) h3

end Cert.Proof.Alg

end
-- ==== Proof.lean ====
/-
  A submanifold sparse 3×3×3 convolution, 128 → 20 channels, over 200000 voxels of a 480 × 360 × 32 grid: the kernel
  program and the reference compute the same array over the extended reals.

  Both programs build the same coordinate map (voxel numbers written into a table of −1 at the voxels' cells) and, for
  each of the 27 taps, look the neighbour's number up in it. The reference gathers the neighbours' 128 features,
  replaces them by zeros where there is no neighbour, and multiplies by the tap's 128 × 20 weights. The kernel
  multiplies ALL feature rows by ALL taps' weights at once — one product of 200000 × 128 by 128 × 640 (540 columns of
  weights, 100 of zeros), block by block of 4000 rows —, appends a zero row, and for each tap gathers the 20-wide
  block `[20·k, 20·k + 20)` of the neighbour's row, or of the zero row where there is no neighbour. A number looked up
  in the map is −1 or a voxel number below 200000, so where there is a neighbour both read the same product row, and
  where there is none both add zero (0 · w = 0 for every extended real w: the inputs' finiteness is not used). The
  taps are added to the bias in the same order.

  The certificate: each program runs to its end, faults nowhere and leaves its four argument arrays unchanged (the
  kernel programs through the launch theorem of a region followed by host lines; the reference through its line of
  host operations); no operation is rewritten in the idealized programs; and the two idealized programs' results are the arrays
  `Spec.kerOut` and `Spec.refOut` of the agreeing inputs, which are equal.
-/
import proofs.«120445_j5549097746519_2_alg».proof.Defs
import proofs.«120445_j5549097746519_2_alg».proof.Proof.Gen.Kernel
import proofs.«120445_j5549097746519_2_alg».proof.Proof.Gen.KernelIdeal
import proofs.«120445_j5549097746519_2_alg».proof.Proof.Gen.ReferenceIdeal
import proofs.«120445_j5549097746519_2_alg».proof.Proof.Gen.Pre_finite_inputs
import proofs.«120445_j5549097746519_2_alg».proof.Proof.FrameClaims
import proofs.«120445_j5549097746519_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Alg.frame_ri, trivial, Cert.Proof.Alg.algebraic⟩

end Cert.Proof

end
